-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v689)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v689) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v510) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S96x32x128x128 : Shape := ⟨4, ![96, 32, 128, 128]⟩
abbrev S_ : Shape := ⟨0, ![]⟩

class Facts : Prop where
  bcast_S_S96x32x128x128 : S_.BroadcastsInDim S96x32x128x128 (![] : Fin 0 → Fin S96x32x128x128.rank)
  reducesTo_S96x32x128x128_S_d0_1_2_3 : S96x32x128x128.ReducesTo [0, 1, 2, 3] S_
  h_S_ : 0 < S_.numel

variable [Facts]

def fn {F : FTy → Type} [FloatOps F] (main_arg0 : FVec F S96x32x128x128 .f32) : IVec S_ 1 :=
  let main_v0 : FVec F S96x32x128x128 .f32 := Host.absf main_arg0
  let main_cst : FVec F S_ .f32 := constant S_ .f32 0x7F800000#32
  let main_v1 : FVec F S96x32x128x128 .f32 := broadcastInDim S96x32x128x128 ![] bcast_S_S96x32x128x128 main_cst
  let main_v2 : IVec S96x32x128x128 1 := cmpf .olt main_v0 main_v1
  let main_c : IVec S_ 1 := constantI S_ 1 1#1
  let main_v3 : IVec S_ 1 := (fun x v => Host.reduce IntOp.andi x v reducesTo_S96x32x128x128_S_d0_1_2_3 h_S_) main_v2 main_c
  main_v3
-- ==== Kernel.lean ====
abbrev S96x32x128x128 : Shape := ⟨4, ![96, 32, 128, 128]⟩
abbrev S8x12x32x128x128 : Shape := ⟨5, ![8, 12, 32, 128, 128]⟩
abbrev S8x1x32x128x128 : Shape := ⟨5, ![8, 1, 32, 128, 128]⟩
abbrev S8x32x128x128 : Shape := ⟨4, ![8, 32, 128, 128]⟩
abbrev S8x32x128x2 : Shape := ⟨4, ![8, 32, 128, 2]⟩
abbrev S8x32x2x128 : Shape := ⟨4, ![8, 32, 2, 128]⟩
abbrev S8x32x2x2 : Shape := ⟨4, ![8, 32, 2, 2]⟩
abbrev S_ : Shape := ⟨0, ![]⟩
abbrev S8x32x132x2 : Shape := ⟨4, ![8, 32, 132, 2]⟩
abbrev S1 : Shape := ⟨1, ![1]⟩
abbrev S8x32x1x1 : Shape := ⟨4, ![8, 32, 1, 1]⟩
abbrev S8x32 : Shape := ⟨2, ![8, 32]⟩
abbrev S2 : Shape := ⟨1, ![2]⟩
abbrev S8x32x1 : Shape := ⟨3, ![8, 32, 1]⟩
abbrev S8x1x32x2x128 : Shape := ⟨5, ![8, 1, 32, 2, 128]⟩
abbrev S8x12x32x2x128 : Shape := ⟨5, ![8, 12, 32, 2, 128]⟩
abbrev S96x32x2x128 : Shape := ⟨4, ![96, 32, 2, 128]⟩
abbrev S8x1x32x132x2 : Shape := ⟨5, ![8, 1, 32, 132, 2]⟩
abbrev S8x12x32x132x2 : Shape := ⟨5, ![8, 12, 32, 132, 2]⟩
abbrev S96x32x132x2 : Shape := ⟨4, ![96, 32, 132, 2]⟩
abbrev S96x32x132x132 : Shape := ⟨4, ![96, 32, 132, 132]⟩
abbrev S1x32x128x128 : Shape := ⟨4, ![1, 32, 128, 128]⟩
abbrev S1x32x2x128 : Shape := ⟨4, ![1, 32, 2, 128]⟩
abbrev S1x32x132x2 : Shape := ⟨4, ![1, 32, 132, 2]⟩
abbrev S1x32x132x132 : Shape := ⟨4, ![1, 32, 132, 132]⟩
abbrev S1x32x132x128 : Shape := ⟨4, ![1, 32, 132, 128]⟩

abbrev nBuf : Space → Nat
  | .hbm => 915
  | .vmem => 12
  | .smem => 0
  | _ => 0

abbrev hbmTy0_0 (i : Nat) : BufTy := match i % 128 with
  | 0 => ⟨S96x32x128x128, .f32⟩
  | 1 => ⟨S8x12x32x128x128, .f32⟩
  | 2 => ⟨S8x1x32x128x128, .f32⟩
  | 3 => ⟨S8x32x128x128, .f32⟩
  | 4 => ⟨S8x1x32x128x128, .f32⟩
  | 5 => ⟨S8x32x128x128, .f32⟩
  | 6 => ⟨S8x1x32x128x128, .f32⟩
  | 7 => ⟨S8x32x128x128, .f32⟩
  | 8 => ⟨S8x1x32x128x128, .f32⟩
  | 9 => ⟨S8x32x128x128, .f32⟩
  | 10 => ⟨S8x1x32x128x128, .f32⟩
  | 11 => ⟨S8x32x128x128, .f32⟩
  | 12 => ⟨S8x1x32x128x128, .f32⟩
  | 13 => ⟨S8x32x128x128, .f32⟩
  | 14 => ⟨S8x1x32x128x128, .f32⟩
  | 15 => ⟨S8x32x128x128, .f32⟩
  | 16 => ⟨S8x1x32x128x128, .f32⟩
  | 17 => ⟨S8x32x128x128, .f32⟩
  | 18 => ⟨S8x1x32x128x128, .f32⟩
  | 19 => ⟨S8x32x128x128, .f32⟩
  | 20 => ⟨S8x1x32x128x128, .f32⟩
  | 21 => ⟨S8x32x128x128, .f32⟩
  | 22 => ⟨S8x1x32x128x128, .f32⟩
  | 23 => ⟨S8x32x128x128, .f32⟩
  | 24 => ⟨S8x1x32x128x128, .f32⟩
  | 25 => ⟨S8x32x128x128, .f32⟩
  | 26 => ⟨S8x32x128x2, .f32⟩
  | 27 => ⟨S8x32x128x2, .f32⟩
  | 28 => ⟨S8x32x2x128, .f32⟩
  | 29 => ⟨S8x32x2x128, .f32⟩
  | 30 => ⟨S8x32x2x2, .f32⟩
  | 31 => ⟨S8x32x2x2, .f32⟩
  | 32 => ⟨S8x32x2x2, .f32⟩
  | 33 => ⟨S8x32x2x128, .f32⟩
  | 34 => ⟨S8x32x128x2, .f32⟩
  | 35 => ⟨S8x32x128x2, .f32⟩
  | 36 => ⟨S8x32x2x2, .f32⟩
  | 37 => ⟨S_, .f32⟩
  | 38 => ⟨S8x32x132x2, .f32⟩
  | 39 => ⟨S_, .i32⟩
  | 40 => ⟨S1, .i32⟩
  | 41 => ⟨S8x32x132x2, .f32⟩
  | 42 => ⟨S_, .i32⟩
  | 43 => ⟨S1, .i32⟩
  | 44 => ⟨S8x32x132x2, .f32⟩
  | 45 => ⟨S_, .i32⟩
  | 46 => ⟨S1, .i32⟩
  | 47 => ⟨S8x32x132x2, .f32⟩
  | 48 => ⟨S8x32x2x2, .f32⟩
  | 49 => ⟨S8x32x128x2, .f32⟩
  | 50 => ⟨S8x32x2x2, .f32⟩
  | 51 => ⟨S_, .f32⟩
  | 52 => ⟨S8x32x132x2, .f32⟩
  | 53 => ⟨S_, .i32⟩
  | 54 => ⟨S1, .i32⟩
  | 55 => ⟨S8x32x132x2, .f32⟩
  | 56 => ⟨S_, .i32⟩
  | 57 => ⟨S1, .i32⟩
  | 58 => ⟨S8x32x132x2, .f32⟩
  | 59 => ⟨S_, .i32⟩
  | 60 => ⟨S1, .i32⟩
  | 61 => ⟨S8x32x132x2, .f32⟩
  | 62 => ⟨S8x32x128x2, .f32⟩
  | 63 => ⟨S8x32x128x2, .f32⟩
  | 64 => ⟨S8x32x2x128, .f32⟩
  | 65 => ⟨S8x32x2x128, .f32⟩
  | 66 => ⟨S8x32x2x2, .f32⟩
  | 67 => ⟨S8x32x2x2, .f32⟩
  | 68 => ⟨S8x32x2x2, .f32⟩
  | 69 => ⟨S8x32x2x128, .f32⟩
  | 70 => ⟨S8x32x128x2, .f32⟩
  | 71 => ⟨S8x32x128x2, .f32⟩
  | 72 => ⟨S8x32x2x2, .f32⟩
  | 73 => ⟨S_, .f32⟩
  | 74 => ⟨S8x32x132x2, .f32⟩
  | 75 => ⟨S_, .i32⟩
  | 76 => ⟨S1, .i32⟩
  | 77 => ⟨S8x32x132x2, .f32⟩
  | 78 => ⟨S_, .i32⟩
  | 79 => ⟨S1, .i32⟩
  | 80 => ⟨S8x32x132x2, .f32⟩
  | 81 => ⟨S_, .i32⟩
  | 82 => ⟨S1, .i32⟩
  | 83 => ⟨S8x32x132x2, .f32⟩
  | 84 => ⟨S8x32x2x2, .f32⟩
  | 85 => ⟨S8x32x128x2, .f32⟩
  | 86 => ⟨S8x32x2x2, .f32⟩
  | 87 => ⟨S_, .f32⟩
  | 88 => ⟨S8x32x132x2, .f32⟩
  | 89 => ⟨S_, .i32⟩
  | 90 => ⟨S1, .i32⟩
  | 91 => ⟨S8x32x132x2, .f32⟩
  | 92 => ⟨S_, .i32⟩
  | 93 => ⟨S1, .i32⟩
  | 94 => ⟨S8x32x132x2, .f32⟩
  | 95 => ⟨S_, .i32⟩
  | 96 => ⟨S1, .i32⟩
  | 97 => ⟨S8x32x132x2, .f32⟩
  | 98 => ⟨S8x32x128x2, .f32⟩
  | 99 => ⟨S8x32x128x2, .f32⟩
  | 100 => ⟨S8x32x2x128, .f32⟩
  | 101 => ⟨S8x32x2x128, .f32⟩
  | 102 => ⟨S8x32x2x2, .f32⟩
  | 103 => ⟨S8x32x2x2, .f32⟩
  | 104 => ⟨S8x32x2x2, .f32⟩
  | 105 => ⟨S8x32x2x128, .f32⟩
  | 106 => ⟨S8x32x128x2, .f32⟩
  | 107 => ⟨S8x32x128x2, .f32⟩
  | 108 => ⟨S8x32x2x2, .f32⟩
  | 109 => ⟨S_, .f32⟩
  | 110 => ⟨S8x32x132x2, .f32⟩
  | 111 => ⟨S_, .i32⟩
  | 112 => ⟨S1, .i32⟩
  | 113 => ⟨S8x32x132x2, .f32⟩
  | 114 => ⟨S_, .i32⟩
  | 115 => ⟨S1, .i32⟩
  | 116 => ⟨S8x32x132x2, .f32⟩
  | 117 => ⟨S_, .i32⟩
  | 118 => ⟨S1, .i32⟩
  | 119 => ⟨S8x32x132x2, .f32⟩
  | 120 => ⟨S8x32x2x2, .f32⟩
  | 121 => ⟨S8x32x128x2, .f32⟩
  | 122 => ⟨S8x32x2x2, .f32⟩
  | 123 => ⟨S_, .f32⟩
  | 124 => ⟨S8x32x132x2, .f32⟩
  | 125 => ⟨S_, .i32⟩
  | 126 => ⟨S1, .i32⟩
  | 127 => ⟨S8x32x132x2, .f32⟩
  | _ => ⟨S96x32x128x128, .f32⟩

abbrev hbmTy0_1 (i : Nat) : BufTy := match i % 128 with
  | 0 => ⟨S_, .i32⟩
  | 1 => ⟨S1, .i32⟩
  | 2 => ⟨S8x32x132x2, .f32⟩
  | 3 => ⟨S_, .i32⟩
  | 4 => ⟨S1, .i32⟩
  | 5 => ⟨S8x32x132x2, .f32⟩
  | 6 => ⟨S8x32x128x2, .f32⟩
  | 7 => ⟨S8x32x128x2, .f32⟩
  | 8 => ⟨S8x32x2x128, .f32⟩
  | 9 => ⟨S8x32x2x128, .f32⟩
  | 10 => ⟨S8x32x2x2, .f32⟩
  | 11 => ⟨S8x32x2x2, .f32⟩
  | 12 => ⟨S8x32x2x2, .f32⟩
  | 13 => ⟨S8x32x2x128, .f32⟩
  | 14 => ⟨S8x32x128x2, .f32⟩
  | 15 => ⟨S8x32x128x2, .f32⟩
  | 16 => ⟨S8x32x2x2, .f32⟩
  | 17 => ⟨S_, .f32⟩
  | 18 => ⟨S8x32x132x2, .f32⟩
  | 19 => ⟨S_, .i32⟩
  | 20 => ⟨S1, .i32⟩
  | 21 => ⟨S8x32x132x2, .f32⟩
  | 22 => ⟨S_, .i32⟩
  | 23 => ⟨S1, .i32⟩
  | 24 => ⟨S8x32x132x2, .f32⟩
  | 25 => ⟨S_, .i32⟩
  | 26 => ⟨S1, .i32⟩
  | 27 => ⟨S8x32x132x2, .f32⟩
  | 28 => ⟨S8x32x2x2, .f32⟩
  | 29 => ⟨S8x32x128x2, .f32⟩
  | 30 => ⟨S8x32x2x2, .f32⟩
  | 31 => ⟨S_, .f32⟩
  | 32 => ⟨S8x32x132x2, .f32⟩
  | 33 => ⟨S_, .i32⟩
  | 34 => ⟨S1, .i32⟩
  | 35 => ⟨S8x32x132x2, .f32⟩
  | 36 => ⟨S_, .i32⟩
  | 37 => ⟨S1, .i32⟩
  | 38 => ⟨S8x32x132x2, .f32⟩
  | 39 => ⟨S_, .i32⟩
  | 40 => ⟨S1, .i32⟩
  | 41 => ⟨S8x32x132x2, .f32⟩
  | 42 => ⟨S8x32x2x2, .f32⟩
  | 43 => ⟨S8x32x2x2, .f32⟩
  | 44 => ⟨S_, .f32⟩
  | 45 => ⟨S8x32x2x2, .f32⟩
  | 46 => ⟨S8x32x1x1, .f32⟩
  | 47 => ⟨S8x32, .f32⟩
  | 48 => ⟨S_, .f32⟩
  | 49 => ⟨S8x32, .f32⟩
  | 50 => ⟨S8x32, .f32⟩
  | 51 => ⟨S8x32x1x1, .f32⟩
  | 52 => ⟨S8x32, .f32⟩
  | 53 => ⟨S_, .f32⟩
  | 54 => ⟨S8x32, .f32⟩
  | 55 => ⟨S8x32, .f32⟩
  | 56 => ⟨S8x32, .f32⟩
  | 57 => ⟨S_, .i32⟩
  | 58 => ⟨S1, .i32⟩
  | 59 => ⟨S_, .i32⟩
  | 60 => ⟨S1, .i32⟩
  | 61 => ⟨S2, .i32⟩
  | 62 => ⟨S8x32x2x2, .f32⟩
  | 63 => ⟨S8x32x1x1, .f32⟩
  | 64 => ⟨S8x32x1, .f32⟩
  | 65 => ⟨S_, .i32⟩
  | 66 => ⟨S1, .i32⟩
  | 67 => ⟨S_, .i32⟩
  | 68 => ⟨S1, .i32⟩
  | 69 => ⟨S2, .i32⟩
  | 70 => ⟨S8x32x2x2, .f32⟩
  | 71 => ⟨S8x32x1x1, .f32⟩
  | 72 => ⟨S8x32x1, .f32⟩
  | 73 => ⟨S_, .i32⟩
  | 74 => ⟨S1, .i32⟩
  | 75 => ⟨S_, .i32⟩
  | 76 => ⟨S1, .i32⟩
  | 77 => ⟨S2, .i32⟩
  | 78 => ⟨S8x32x2x2, .f32⟩
  | 79 => ⟨S8x32x1x1, .f32⟩
  | 80 => ⟨S8x32, .f32⟩
  | 81 => ⟨S_, .f32⟩
  | 82 => ⟨S8x32, .f32⟩
  | 83 => ⟨S8x32, .f32⟩
  | 84 => ⟨S8x32x1x1, .f32⟩
  | 85 => ⟨S8x32, .f32⟩
  | 86 => ⟨S_, .f32⟩
  | 87 => ⟨S8x32, .f32⟩
  | 88 => ⟨S8x32, .f32⟩
  | 89 => ⟨S8x32, .f32⟩
  | 90 => ⟨S_, .i32⟩
  | 91 => ⟨S1, .i32⟩
  | 92 => ⟨S_, .i32⟩
  | 93 => ⟨S1, .i32⟩
  | 94 => ⟨S2, .i32⟩
  | 95 => ⟨S8x32x2x2, .f32⟩
  | 96 => ⟨S8x32x2x2, .f32⟩
  | 97 => ⟨S8x32x2x2, .f32⟩
  | 98 => ⟨S_, .f32⟩
  | 99 => ⟨S8x32x2x2, .f32⟩
  | 100 => ⟨S8x32x1x1, .f32⟩
  | 101 => ⟨S8x32, .f32⟩
  | 102 => ⟨S_, .f32⟩
  | 103 => ⟨S8x32, .f32⟩
  | 104 => ⟨S8x32, .f32⟩
  | 105 => ⟨S8x32x1x1, .f32⟩
  | 106 => ⟨S8x32, .f32⟩
  | 107 => ⟨S_, .f32⟩
  | 108 => ⟨S8x32, .f32⟩
  | 109 => ⟨S8x32, .f32⟩
  | 110 => ⟨S8x32, .f32⟩
  | 111 => ⟨S_, .i32⟩
  | 112 => ⟨S1, .i32⟩
  | 113 => ⟨S_, .i32⟩
  | 114 => ⟨S1, .i32⟩
  | 115 => ⟨S2, .i32⟩
  | 116 => ⟨S8x32x2x2, .f32⟩
  | 117 => ⟨S8x32x1x1, .f32⟩
  | 118 => ⟨S8x32x1, .f32⟩
  | 119 => ⟨S_, .i32⟩
  | 120 => ⟨S1, .i32⟩
  | 121 => ⟨S_, .i32⟩
  | 122 => ⟨S1, .i32⟩
  | 123 => ⟨S2, .i32⟩
  | 124 => ⟨S8x32x2x2, .f32⟩
  | 125 => ⟨S8x32x1x1, .f32⟩
  | 126 => ⟨S8x32x1, .f32⟩
  | 127 => ⟨S_, .i32⟩
  | _ => ⟨S96x32x128x128, .f32⟩

abbrev hbmTy0_2 (i : Nat) : BufTy := match i % 128 with
  | 0 => ⟨S1, .i32⟩
  | 1 => ⟨S_, .i32⟩
  | 2 => ⟨S1, .i32⟩
  | 3 => ⟨S2, .i32⟩
  | 4 => ⟨S8x32x2x2, .f32⟩
  | 5 => ⟨S8x32x1x1, .f32⟩
  | 6 => ⟨S8x32, .f32⟩
  | 7 => ⟨S_, .f32⟩
  | 8 => ⟨S8x32, .f32⟩
  | 9 => ⟨S8x32, .f32⟩
  | 10 => ⟨S8x32x1x1, .f32⟩
  | 11 => ⟨S8x32, .f32⟩
  | 12 => ⟨S_, .f32⟩
  | 13 => ⟨S8x32, .f32⟩
  | 14 => ⟨S8x32, .f32⟩
  | 15 => ⟨S8x32, .f32⟩
  | 16 => ⟨S_, .i32⟩
  | 17 => ⟨S1, .i32⟩
  | 18 => ⟨S_, .i32⟩
  | 19 => ⟨S1, .i32⟩
  | 20 => ⟨S2, .i32⟩
  | 21 => ⟨S8x32x2x2, .f32⟩
  | 22 => ⟨S8x32x2x128, .f32⟩
  | 23 => ⟨S8x32x2x128, .f32⟩
  | 24 => ⟨S8x32x128x2, .f32⟩
  | 25 => ⟨S8x32x2x2, .f32⟩
  | 26 => ⟨S_, .f32⟩
  | 27 => ⟨S8x32x132x2, .f32⟩
  | 28 => ⟨S_, .i32⟩
  | 29 => ⟨S1, .i32⟩
  | 30 => ⟨S8x32x132x2, .f32⟩
  | 31 => ⟨S_, .i32⟩
  | 32 => ⟨S1, .i32⟩
  | 33 => ⟨S8x32x132x2, .f32⟩
  | 34 => ⟨S_, .i32⟩
  | 35 => ⟨S1, .i32⟩
  | 36 => ⟨S8x32x132x2, .f32⟩
  | 37 => ⟨S8x32x2x2, .f32⟩
  | 38 => ⟨S8x32x128x2, .f32⟩
  | 39 => ⟨S_, .f32⟩
  | 40 => ⟨S8x32x132x2, .f32⟩
  | 41 => ⟨S_, .i32⟩
  | 42 => ⟨S1, .i32⟩
  | 43 => ⟨S8x32x132x2, .f32⟩
  | 44 => ⟨S_, .i32⟩
  | 45 => ⟨S1, .i32⟩
  | 46 => ⟨S8x32x132x2, .f32⟩
  | 47 => ⟨S_, .i32⟩
  | 48 => ⟨S1, .i32⟩
  | 49 => ⟨S8x32x132x2, .f32⟩
  | 50 => ⟨S8x32x2x2, .f32⟩
  | 51 => ⟨S8x32x2x2, .f32⟩
  | 52 => ⟨S_, .f32⟩
  | 53 => ⟨S8x32x2x2, .f32⟩
  | 54 => ⟨S8x32x1x1, .f32⟩
  | 55 => ⟨S8x32, .f32⟩
  | 56 => ⟨S_, .f32⟩
  | 57 => ⟨S8x32, .f32⟩
  | 58 => ⟨S8x32, .f32⟩
  | 59 => ⟨S8x32x1x1, .f32⟩
  | 60 => ⟨S8x32, .f32⟩
  | 61 => ⟨S_, .f32⟩
  | 62 => ⟨S8x32, .f32⟩
  | 63 => ⟨S8x32, .f32⟩
  | 64 => ⟨S8x32, .f32⟩
  | 65 => ⟨S_, .i32⟩
  | 66 => ⟨S1, .i32⟩
  | 67 => ⟨S_, .i32⟩
  | 68 => ⟨S1, .i32⟩
  | 69 => ⟨S2, .i32⟩
  | 70 => ⟨S8x32x2x2, .f32⟩
  | 71 => ⟨S8x32x1x1, .f32⟩
  | 72 => ⟨S8x32x1, .f32⟩
  | 73 => ⟨S_, .i32⟩
  | 74 => ⟨S1, .i32⟩
  | 75 => ⟨S_, .i32⟩
  | 76 => ⟨S1, .i32⟩
  | 77 => ⟨S2, .i32⟩
  | 78 => ⟨S8x32x2x2, .f32⟩
  | 79 => ⟨S8x32x1x1, .f32⟩
  | 80 => ⟨S8x32x1, .f32⟩
  | 81 => ⟨S_, .i32⟩
  | 82 => ⟨S1, .i32⟩
  | 83 => ⟨S_, .i32⟩
  | 84 => ⟨S1, .i32⟩
  | 85 => ⟨S2, .i32⟩
  | 86 => ⟨S8x32x2x2, .f32⟩
  | 87 => ⟨S8x32x1x1, .f32⟩
  | 88 => ⟨S8x32, .f32⟩
  | 89 => ⟨S_, .f32⟩
  | 90 => ⟨S8x32, .f32⟩
  | 91 => ⟨S8x32, .f32⟩
  | 92 => ⟨S8x32x1x1, .f32⟩
  | 93 => ⟨S8x32, .f32⟩
  | 94 => ⟨S_, .f32⟩
  | 95 => ⟨S8x32, .f32⟩
  | 96 => ⟨S8x32, .f32⟩
  | 97 => ⟨S8x32, .f32⟩
  | 98 => ⟨S_, .i32⟩
  | 99 => ⟨S1, .i32⟩
  | 100 => ⟨S_, .i32⟩
  | 101 => ⟨S1, .i32⟩
  | 102 => ⟨S2, .i32⟩
  | 103 => ⟨S8x32x2x2, .f32⟩
  | 104 => ⟨S8x32x2x2, .f32⟩
  | 105 => ⟨S8x32x2x2, .f32⟩
  | 106 => ⟨S_, .f32⟩
  | 107 => ⟨S8x32x2x2, .f32⟩
  | 108 => ⟨S8x32x1x1, .f32⟩
  | 109 => ⟨S8x32, .f32⟩
  | 110 => ⟨S_, .f32⟩
  | 111 => ⟨S8x32, .f32⟩
  | 112 => ⟨S8x32, .f32⟩
  | 113 => ⟨S8x32x1x1, .f32⟩
  | 114 => ⟨S8x32, .f32⟩
  | 115 => ⟨S_, .f32⟩
  | 116 => ⟨S8x32, .f32⟩
  | 117 => ⟨S8x32, .f32⟩
  | 118 => ⟨S8x32, .f32⟩
  | 119 => ⟨S_, .i32⟩
  | 120 => ⟨S1, .i32⟩
  | 121 => ⟨S_, .i32⟩
  | 122 => ⟨S1, .i32⟩
  | 123 => ⟨S2, .i32⟩
  | 124 => ⟨S8x32x2x2, .f32⟩
  | 125 => ⟨S8x32x1x1, .f32⟩
  | 126 => ⟨S8x32x1, .f32⟩
  | 127 => ⟨S_, .i32⟩
  | _ => ⟨S96x32x128x128, .f32⟩

abbrev hbmTy0_3 (i : Nat) : BufTy := match i % 128 with
  | 0 => ⟨S1, .i32⟩
  | 1 => ⟨S_, .i32⟩
  | 2 => ⟨S1, .i32⟩
  | 3 => ⟨S2, .i32⟩
  | 4 => ⟨S8x32x2x2, .f32⟩
  | 5 => ⟨S8x32x1x1, .f32⟩
  | 6 => ⟨S8x32x1, .f32⟩
  | 7 => ⟨S_, .i32⟩
  | 8 => ⟨S1, .i32⟩
  | 9 => ⟨S_, .i32⟩
  | 10 => ⟨S1, .i32⟩
  | 11 => ⟨S2, .i32⟩
  | 12 => ⟨S8x32x2x2, .f32⟩
  | 13 => ⟨S8x32x1x1, .f32⟩
  | 14 => ⟨S8x32, .f32⟩
  | 15 => ⟨S_, .f32⟩
  | 16 => ⟨S8x32, .f32⟩
  | 17 => ⟨S8x32, .f32⟩
  | 18 => ⟨S8x32x1x1, .f32⟩
  | 19 => ⟨S8x32, .f32⟩
  | 20 => ⟨S_, .f32⟩
  | 21 => ⟨S8x32, .f32⟩
  | 22 => ⟨S8x32, .f32⟩
  | 23 => ⟨S8x32, .f32⟩
  | 24 => ⟨S_, .i32⟩
  | 25 => ⟨S1, .i32⟩
  | 26 => ⟨S_, .i32⟩
  | 27 => ⟨S1, .i32⟩
  | 28 => ⟨S2, .i32⟩
  | 29 => ⟨S8x32x2x2, .f32⟩
  | 30 => ⟨S8x32x2x128, .f32⟩
  | 31 => ⟨S8x32x2x128, .f32⟩
  | 32 => ⟨S8x32x128x2, .f32⟩
  | 33 => ⟨S8x32x2x2, .f32⟩
  | 34 => ⟨S_, .f32⟩
  | 35 => ⟨S8x32x132x2, .f32⟩
  | 36 => ⟨S_, .i32⟩
  | 37 => ⟨S1, .i32⟩
  | 38 => ⟨S8x32x132x2, .f32⟩
  | 39 => ⟨S_, .i32⟩
  | 40 => ⟨S1, .i32⟩
  | 41 => ⟨S8x32x132x2, .f32⟩
  | 42 => ⟨S_, .i32⟩
  | 43 => ⟨S1, .i32⟩
  | 44 => ⟨S8x32x132x2, .f32⟩
  | 45 => ⟨S8x32x2x2, .f32⟩
  | 46 => ⟨S8x32x128x2, .f32⟩
  | 47 => ⟨S_, .f32⟩
  | 48 => ⟨S8x32x132x2, .f32⟩
  | 49 => ⟨S_, .i32⟩
  | 50 => ⟨S1, .i32⟩
  | 51 => ⟨S8x32x132x2, .f32⟩
  | 52 => ⟨S_, .i32⟩
  | 53 => ⟨S1, .i32⟩
  | 54 => ⟨S8x32x132x2, .f32⟩
  | 55 => ⟨S_, .i32⟩
  | 56 => ⟨S1, .i32⟩
  | 57 => ⟨S8x32x132x2, .f32⟩
  | 58 => ⟨S8x32x2x2, .f32⟩
  | 59 => ⟨S8x32x2x2, .f32⟩
  | 60 => ⟨S_, .f32⟩
  | 61 => ⟨S8x32x2x2, .f32⟩
  | 62 => ⟨S8x32x1x1, .f32⟩
  | 63 => ⟨S8x32, .f32⟩
  | 64 => ⟨S_, .f32⟩
  | 65 => ⟨S8x32, .f32⟩
  | 66 => ⟨S8x32, .f32⟩
  | 67 => ⟨S8x32x1x1, .f32⟩
  | 68 => ⟨S8x32, .f32⟩
  | 69 => ⟨S_, .f32⟩
  | 70 => ⟨S8x32, .f32⟩
  | 71 => ⟨S8x32, .f32⟩
  | 72 => ⟨S8x32, .f32⟩
  | 73 => ⟨S_, .i32⟩
  | 74 => ⟨S1, .i32⟩
  | 75 => ⟨S_, .i32⟩
  | 76 => ⟨S1, .i32⟩
  | 77 => ⟨S2, .i32⟩
  | 78 => ⟨S8x32x2x2, .f32⟩
  | 79 => ⟨S8x32x1x1, .f32⟩
  | 80 => ⟨S8x32x1, .f32⟩
  | 81 => ⟨S_, .i32⟩
  | 82 => ⟨S1, .i32⟩
  | 83 => ⟨S_, .i32⟩
  | 84 => ⟨S1, .i32⟩
  | 85 => ⟨S2, .i32⟩
  | 86 => ⟨S8x32x2x2, .f32⟩
  | 87 => ⟨S8x32x1x1, .f32⟩
  | 88 => ⟨S8x32x1, .f32⟩
  | 89 => ⟨S_, .i32⟩
  | 90 => ⟨S1, .i32⟩
  | 91 => ⟨S_, .i32⟩
  | 92 => ⟨S1, .i32⟩
  | 93 => ⟨S2, .i32⟩
  | 94 => ⟨S8x32x2x2, .f32⟩
  | 95 => ⟨S8x32x1x1, .f32⟩
  | 96 => ⟨S8x32, .f32⟩
  | 97 => ⟨S_, .f32⟩
  | 98 => ⟨S8x32, .f32⟩
  | 99 => ⟨S8x32, .f32⟩
  | 100 => ⟨S8x32x1x1, .f32⟩
  | 101 => ⟨S8x32, .f32⟩
  | 102 => ⟨S_, .f32⟩
  | 103 => ⟨S8x32, .f32⟩
  | 104 => ⟨S8x32, .f32⟩
  | 105 => ⟨S8x32, .f32⟩
  | 106 => ⟨S_, .i32⟩
  | 107 => ⟨S1, .i32⟩
  | 108 => ⟨S_, .i32⟩
  | 109 => ⟨S1, .i32⟩
  | 110 => ⟨S2, .i32⟩
  | 111 => ⟨S8x32x2x2, .f32⟩
  | 112 => ⟨S8x32x2x2, .f32⟩
  | 113 => ⟨S8x32x2x2, .f32⟩
  | 114 => ⟨S_, .f32⟩
  | 115 => ⟨S8x32x2x2, .f32⟩
  | 116 => ⟨S8x32x1x1, .f32⟩
  | 117 => ⟨S8x32, .f32⟩
  | 118 => ⟨S_, .f32⟩
  | 119 => ⟨S8x32, .f32⟩
  | 120 => ⟨S8x32, .f32⟩
  | 121 => ⟨S8x32x1x1, .f32⟩
  | 122 => ⟨S8x32, .f32⟩
  | 123 => ⟨S_, .f32⟩
  | 124 => ⟨S8x32, .f32⟩
  | 125 => ⟨S8x32, .f32⟩
  | 126 => ⟨S8x32, .f32⟩
  | 127 => ⟨S_, .i32⟩
  | _ => ⟨S96x32x128x128, .f32⟩

abbrev hbmTy0_4 (i : Nat) : BufTy := match i % 128 with
  | 0 => ⟨S1, .i32⟩
  | 1 => ⟨S_, .i32⟩
  | 2 => ⟨S1, .i32⟩
  | 3 => ⟨S2, .i32⟩
  | 4 => ⟨S8x32x2x2, .f32⟩
  | 5 => ⟨S8x32x1x1, .f32⟩
  | 6 => ⟨S8x32x1, .f32⟩
  | 7 => ⟨S_, .i32⟩
  | 8 => ⟨S1, .i32⟩
  | 9 => ⟨S_, .i32⟩
  | 10 => ⟨S1, .i32⟩
  | 11 => ⟨S2, .i32⟩
  | 12 => ⟨S8x32x2x2, .f32⟩
  | 13 => ⟨S8x32x1x1, .f32⟩
  | 14 => ⟨S8x32x1, .f32⟩
  | 15 => ⟨S_, .i32⟩
  | 16 => ⟨S1, .i32⟩
  | 17 => ⟨S_, .i32⟩
  | 18 => ⟨S1, .i32⟩
  | 19 => ⟨S2, .i32⟩
  | 20 => ⟨S8x32x2x2, .f32⟩
  | 21 => ⟨S8x32x1x1, .f32⟩
  | 22 => ⟨S8x32, .f32⟩
  | 23 => ⟨S_, .f32⟩
  | 24 => ⟨S8x32, .f32⟩
  | 25 => ⟨S8x32, .f32⟩
  | 26 => ⟨S8x32x1x1, .f32⟩
  | 27 => ⟨S8x32, .f32⟩
  | 28 => ⟨S_, .f32⟩
  | 29 => ⟨S8x32, .f32⟩
  | 30 => ⟨S8x32, .f32⟩
  | 31 => ⟨S8x32, .f32⟩
  | 32 => ⟨S_, .i32⟩
  | 33 => ⟨S1, .i32⟩
  | 34 => ⟨S_, .i32⟩
  | 35 => ⟨S1, .i32⟩
  | 36 => ⟨S2, .i32⟩
  | 37 => ⟨S8x32x2x2, .f32⟩
  | 38 => ⟨S8x32x2x128, .f32⟩
  | 39 => ⟨S8x32x2x128, .f32⟩
  | 40 => ⟨S8x32x128x2, .f32⟩
  | 41 => ⟨S8x32x2x2, .f32⟩
  | 42 => ⟨S_, .f32⟩
  | 43 => ⟨S8x32x132x2, .f32⟩
  | 44 => ⟨S_, .i32⟩
  | 45 => ⟨S1, .i32⟩
  | 46 => ⟨S8x32x132x2, .f32⟩
  | 47 => ⟨S_, .i32⟩
  | 48 => ⟨S1, .i32⟩
  | 49 => ⟨S8x32x132x2, .f32⟩
  | 50 => ⟨S_, .i32⟩
  | 51 => ⟨S1, .i32⟩
  | 52 => ⟨S8x32x132x2, .f32⟩
  | 53 => ⟨S8x32x2x2, .f32⟩
  | 54 => ⟨S8x32x128x2, .f32⟩
  | 55 => ⟨S_, .f32⟩
  | 56 => ⟨S8x32x132x2, .f32⟩
  | 57 => ⟨S_, .i32⟩
  | 58 => ⟨S1, .i32⟩
  | 59 => ⟨S8x32x132x2, .f32⟩
  | 60 => ⟨S_, .i32⟩
  | 61 => ⟨S1, .i32⟩
  | 62 => ⟨S8x32x132x2, .f32⟩
  | 63 => ⟨S_, .i32⟩
  | 64 => ⟨S1, .i32⟩
  | 65 => ⟨S8x32x132x2, .f32⟩
  | 66 => ⟨S8x32x2x2, .f32⟩
  | 67 => ⟨S8x32x2x2, .f32⟩
  | 68 => ⟨S_, .f32⟩
  | 69 => ⟨S8x32x2x2, .f32⟩
  | 70 => ⟨S8x32x1x1, .f32⟩
  | 71 => ⟨S8x32, .f32⟩
  | 72 => ⟨S_, .f32⟩
  | 73 => ⟨S8x32, .f32⟩
  | 74 => ⟨S8x32, .f32⟩
  | 75 => ⟨S8x32x1x1, .f32⟩
  | 76 => ⟨S8x32, .f32⟩
  | 77 => ⟨S_, .f32⟩
  | 78 => ⟨S8x32, .f32⟩
  | 79 => ⟨S8x32, .f32⟩
  | 80 => ⟨S8x32, .f32⟩
  | 81 => ⟨S_, .i32⟩
  | 82 => ⟨S1, .i32⟩
  | 83 => ⟨S_, .i32⟩
  | 84 => ⟨S1, .i32⟩
  | 85 => ⟨S2, .i32⟩
  | 86 => ⟨S8x32x2x2, .f32⟩
  | 87 => ⟨S8x32x1x1, .f32⟩
  | 88 => ⟨S8x32x1, .f32⟩
  | 89 => ⟨S_, .i32⟩
  | 90 => ⟨S1, .i32⟩
  | 91 => ⟨S_, .i32⟩
  | 92 => ⟨S1, .i32⟩
  | 93 => ⟨S2, .i32⟩
  | 94 => ⟨S8x32x2x2, .f32⟩
  | 95 => ⟨S8x32x1x1, .f32⟩
  | 96 => ⟨S8x32x1, .f32⟩
  | 97 => ⟨S_, .i32⟩
  | 98 => ⟨S1, .i32⟩
  | 99 => ⟨S_, .i32⟩
  | 100 => ⟨S1, .i32⟩
  | 101 => ⟨S2, .i32⟩
  | 102 => ⟨S8x32x2x2, .f32⟩
  | 103 => ⟨S8x32x1x1, .f32⟩
  | 104 => ⟨S8x32, .f32⟩
  | 105 => ⟨S_, .f32⟩
  | 106 => ⟨S8x32, .f32⟩
  | 107 => ⟨S8x32, .f32⟩
  | 108 => ⟨S8x32x1x1, .f32⟩
  | 109 => ⟨S8x32, .f32⟩
  | 110 => ⟨S_, .f32⟩
  | 111 => ⟨S8x32, .f32⟩
  | 112 => ⟨S8x32, .f32⟩
  | 113 => ⟨S8x32, .f32⟩
  | 114 => ⟨S_, .i32⟩
  | 115 => ⟨S1, .i32⟩
  | 116 => ⟨S_, .i32⟩
  | 117 => ⟨S1, .i32⟩
  | 118 => ⟨S2, .i32⟩
  | 119 => ⟨S8x32x2x2, .f32⟩
  | 120 => ⟨S8x32x2x2, .f32⟩
  | 121 => ⟨S8x32x2x2, .f32⟩
  | 122 => ⟨S_, .f32⟩
  | 123 => ⟨S8x32x2x2, .f32⟩
  | 124 => ⟨S8x32x1x1, .f32⟩
  | 125 => ⟨S8x32, .f32⟩
  | 126 => ⟨S_, .f32⟩
  | 127 => ⟨S8x32, .f32⟩
  | _ => ⟨S96x32x128x128, .f32⟩

abbrev hbmTy0_5 (i : Nat) : BufTy := match i % 128 with
  | 0 => ⟨S8x32, .f32⟩
  | 1 => ⟨S8x32x1x1, .f32⟩
  | 2 => ⟨S8x32, .f32⟩
  | 3 => ⟨S_, .f32⟩
  | 4 => ⟨S8x32, .f32⟩
  | 5 => ⟨S8x32, .f32⟩
  | 6 => ⟨S8x32, .f32⟩
  | 7 => ⟨S_, .i32⟩
  | 8 => ⟨S1, .i32⟩
  | 9 => ⟨S_, .i32⟩
  | 10 => ⟨S1, .i32⟩
  | 11 => ⟨S2, .i32⟩
  | 12 => ⟨S8x32x2x2, .f32⟩
  | 13 => ⟨S8x32x1x1, .f32⟩
  | 14 => ⟨S8x32x1, .f32⟩
  | 15 => ⟨S_, .i32⟩
  | 16 => ⟨S1, .i32⟩
  | 17 => ⟨S_, .i32⟩
  | 18 => ⟨S1, .i32⟩
  | 19 => ⟨S2, .i32⟩
  | 20 => ⟨S8x32x2x2, .f32⟩
  | 21 => ⟨S8x32x1x1, .f32⟩
  | 22 => ⟨S8x32x1, .f32⟩
  | 23 => ⟨S_, .i32⟩
  | 24 => ⟨S1, .i32⟩
  | 25 => ⟨S_, .i32⟩
  | 26 => ⟨S1, .i32⟩
  | 27 => ⟨S2, .i32⟩
  | 28 => ⟨S8x32x2x2, .f32⟩
  | 29 => ⟨S8x32x1x1, .f32⟩
  | 30 => ⟨S8x32, .f32⟩
  | 31 => ⟨S_, .f32⟩
  | 32 => ⟨S8x32, .f32⟩
  | 33 => ⟨S8x32, .f32⟩
  | 34 => ⟨S8x32x1x1, .f32⟩
  | 35 => ⟨S8x32, .f32⟩
  | 36 => ⟨S_, .f32⟩
  | 37 => ⟨S8x32, .f32⟩
  | 38 => ⟨S8x32, .f32⟩
  | 39 => ⟨S8x32, .f32⟩
  | 40 => ⟨S_, .i32⟩
  | 41 => ⟨S1, .i32⟩
  | 42 => ⟨S_, .i32⟩
  | 43 => ⟨S1, .i32⟩
  | 44 => ⟨S2, .i32⟩
  | 45 => ⟨S8x32x2x2, .f32⟩
  | 46 => ⟨S8x32x2x128, .f32⟩
  | 47 => ⟨S8x32x2x128, .f32⟩
  | 48 => ⟨S8x32x128x2, .f32⟩
  | 49 => ⟨S8x32x2x2, .f32⟩
  | 50 => ⟨S_, .f32⟩
  | 51 => ⟨S8x32x132x2, .f32⟩
  | 52 => ⟨S_, .i32⟩
  | 53 => ⟨S1, .i32⟩
  | 54 => ⟨S8x32x132x2, .f32⟩
  | 55 => ⟨S_, .i32⟩
  | 56 => ⟨S1, .i32⟩
  | 57 => ⟨S8x32x132x2, .f32⟩
  | 58 => ⟨S_, .i32⟩
  | 59 => ⟨S1, .i32⟩
  | 60 => ⟨S8x32x132x2, .f32⟩
  | 61 => ⟨S8x32x2x2, .f32⟩
  | 62 => ⟨S8x32x128x2, .f32⟩
  | 63 => ⟨S_, .f32⟩
  | 64 => ⟨S8x32x132x2, .f32⟩
  | 65 => ⟨S_, .i32⟩
  | 66 => ⟨S1, .i32⟩
  | 67 => ⟨S8x32x132x2, .f32⟩
  | 68 => ⟨S_, .i32⟩
  | 69 => ⟨S1, .i32⟩
  | 70 => ⟨S8x32x132x2, .f32⟩
  | 71 => ⟨S_, .i32⟩
  | 72 => ⟨S1, .i32⟩
  | 73 => ⟨S8x32x132x2, .f32⟩
  | 74 => ⟨S8x32x2x128, .f32⟩
  | 75 => ⟨S8x32x128x2, .f32⟩
  | 76 => ⟨S8x32x128x2, .f32⟩
  | 77 => ⟨S8x32x2x128, .f32⟩
  | 78 => ⟨S8x32x2x2, .f32⟩
  | 79 => ⟨S8x32x128x2, .f32⟩
  | 80 => ⟨S8x32x2x2, .f32⟩
  | 81 => ⟨S_, .f32⟩
  | 82 => ⟨S8x32x132x2, .f32⟩
  | 83 => ⟨S_, .i32⟩
  | 84 => ⟨S1, .i32⟩
  | 85 => ⟨S8x32x132x2, .f32⟩
  | 86 => ⟨S_, .i32⟩
  | 87 => ⟨S1, .i32⟩
  | 88 => ⟨S8x32x132x2, .f32⟩
  | 89 => ⟨S_, .i32⟩
  | 90 => ⟨S1, .i32⟩
  | 91 => ⟨S8x32x132x2, .f32⟩
  | 92 => ⟨S8x32x2x2, .f32⟩
  | 93 => ⟨S8x32x2x128, .f32⟩
  | 94 => ⟨S8x32x128x2, .f32⟩
  | 95 => ⟨S8x32x128x2, .f32⟩
  | 96 => ⟨S8x32x2x2, .f32⟩
  | 97 => ⟨S8x32x2x2, .f32⟩
  | 98 => ⟨S8x32x2x2, .f32⟩
  | 99 => ⟨S_, .f32⟩
  | 100 => ⟨S8x32x132x2, .f32⟩
  | 101 => ⟨S_, .i32⟩
  | 102 => ⟨S1, .i32⟩
  | 103 => ⟨S8x32x132x2, .f32⟩
  | 104 => ⟨S_, .i32⟩
  | 105 => ⟨S1, .i32⟩
  | 106 => ⟨S8x32x132x2, .f32⟩
  | 107 => ⟨S_, .i32⟩
  | 108 => ⟨S1, .i32⟩
  | 109 => ⟨S8x32x132x2, .f32⟩
  | 110 => ⟨S8x32x2x128, .f32⟩
  | 111 => ⟨S8x32x128x2, .f32⟩
  | 112 => ⟨S8x32x128x2, .f32⟩
  | 113 => ⟨S8x32x2x128, .f32⟩
  | 114 => ⟨S8x32x2x2, .f32⟩
  | 115 => ⟨S8x32x128x2, .f32⟩
  | 116 => ⟨S8x32x2x2, .f32⟩
  | 117 => ⟨S_, .f32⟩
  | 118 => ⟨S8x32x132x2, .f32⟩
  | 119 => ⟨S_, .i32⟩
  | 120 => ⟨S1, .i32⟩
  | 121 => ⟨S8x32x132x2, .f32⟩
  | 122 => ⟨S_, .i32⟩
  | 123 => ⟨S1, .i32⟩
  | 124 => ⟨S8x32x132x2, .f32⟩
  | 125 => ⟨S_, .i32⟩
  | 126 => ⟨S1, .i32⟩
  | 127 => ⟨S8x32x132x2, .f32⟩
  | _ => ⟨S96x32x128x128, .f32⟩

abbrev hbmTy0_6 (i : Nat) : BufTy := match i % 128 with
  | 0 => ⟨S8x32x2x2, .f32⟩
  | 1 => ⟨S8x32x2x128, .f32⟩
  | 2 => ⟨S8x32x128x2, .f32⟩
  | 3 => ⟨S8x32x128x2, .f32⟩
  | 4 => ⟨S8x32x2x2, .f32⟩
  | 5 => ⟨S8x32x2x2, .f32⟩
  | 6 => ⟨S8x32x2x2, .f32⟩
  | 7 => ⟨S_, .f32⟩
  | 8 => ⟨S8x32x132x2, .f32⟩
  | 9 => ⟨S_, .i32⟩
  | 10 => ⟨S1, .i32⟩
  | 11 => ⟨S8x32x132x2, .f32⟩
  | 12 => ⟨S_, .i32⟩
  | 13 => ⟨S1, .i32⟩
  | 14 => ⟨S8x32x132x2, .f32⟩
  | 15 => ⟨S_, .i32⟩
  | 16 => ⟨S1, .i32⟩
  | 17 => ⟨S8x32x132x2, .f32⟩
  | 18 => ⟨S8x32x2x128, .f32⟩
  | 19 => ⟨S8x32x128x2, .f32⟩
  | 20 => ⟨S8x32x128x2, .f32⟩
  | 21 => ⟨S8x32x2x128, .f32⟩
  | 22 => ⟨S8x32x2x2, .f32⟩
  | 23 => ⟨S8x32x128x2, .f32⟩
  | 24 => ⟨S8x32x2x2, .f32⟩
  | 25 => ⟨S_, .f32⟩
  | 26 => ⟨S8x32x132x2, .f32⟩
  | 27 => ⟨S_, .i32⟩
  | 28 => ⟨S1, .i32⟩
  | 29 => ⟨S8x32x132x2, .f32⟩
  | 30 => ⟨S_, .i32⟩
  | 31 => ⟨S1, .i32⟩
  | 32 => ⟨S8x32x132x2, .f32⟩
  | 33 => ⟨S_, .i32⟩
  | 34 => ⟨S1, .i32⟩
  | 35 => ⟨S8x32x132x2, .f32⟩
  | 36 => ⟨S8x32x2x2, .f32⟩
  | 37 => ⟨S8x32x2x128, .f32⟩
  | 38 => ⟨S8x32x128x2, .f32⟩
  | 39 => ⟨S8x32x128x2, .f32⟩
  | 40 => ⟨S8x32x2x2, .f32⟩
  | 41 => ⟨S8x32x2x2, .f32⟩
  | 42 => ⟨S8x32x2x2, .f32⟩
  | 43 => ⟨S_, .f32⟩
  | 44 => ⟨S8x32x132x2, .f32⟩
  | 45 => ⟨S_, .i32⟩
  | 46 => ⟨S1, .i32⟩
  | 47 => ⟨S8x32x132x2, .f32⟩
  | 48 => ⟨S_, .i32⟩
  | 49 => ⟨S1, .i32⟩
  | 50 => ⟨S8x32x132x2, .f32⟩
  | 51 => ⟨S_, .i32⟩
  | 52 => ⟨S1, .i32⟩
  | 53 => ⟨S8x32x132x2, .f32⟩
  | 54 => ⟨S8x32x2x128, .f32⟩
  | 55 => ⟨S8x32x128x2, .f32⟩
  | 56 => ⟨S8x32x128x2, .f32⟩
  | 57 => ⟨S8x32x2x128, .f32⟩
  | 58 => ⟨S8x32x2x2, .f32⟩
  | 59 => ⟨S8x32x128x2, .f32⟩
  | 60 => ⟨S8x32x2x2, .f32⟩
  | 61 => ⟨S_, .f32⟩
  | 62 => ⟨S8x32x132x2, .f32⟩
  | 63 => ⟨S_, .i32⟩
  | 64 => ⟨S1, .i32⟩
  | 65 => ⟨S8x32x132x2, .f32⟩
  | 66 => ⟨S_, .i32⟩
  | 67 => ⟨S1, .i32⟩
  | 68 => ⟨S8x32x132x2, .f32⟩
  | 69 => ⟨S_, .i32⟩
  | 70 => ⟨S1, .i32⟩
  | 71 => ⟨S8x32x132x2, .f32⟩
  | 72 => ⟨S8x32x2x2, .f32⟩
  | 73 => ⟨S8x32x2x128, .f32⟩
  | 74 => ⟨S8x32x128x2, .f32⟩
  | 75 => ⟨S8x32x128x2, .f32⟩
  | 76 => ⟨S8x32x2x2, .f32⟩
  | 77 => ⟨S8x32x2x2, .f32⟩
  | 78 => ⟨S8x32x2x2, .f32⟩
  | 79 => ⟨S_, .f32⟩
  | 80 => ⟨S8x32x132x2, .f32⟩
  | 81 => ⟨S_, .i32⟩
  | 82 => ⟨S1, .i32⟩
  | 83 => ⟨S8x32x132x2, .f32⟩
  | 84 => ⟨S_, .i32⟩
  | 85 => ⟨S1, .i32⟩
  | 86 => ⟨S8x32x132x2, .f32⟩
  | 87 => ⟨S_, .i32⟩
  | 88 => ⟨S1, .i32⟩
  | 89 => ⟨S8x32x132x2, .f32⟩
  | 90 => ⟨S8x1x32x2x128, .f32⟩
  | 91 => ⟨S8x1x32x2x128, .f32⟩
  | 92 => ⟨S8x1x32x2x128, .f32⟩
  | 93 => ⟨S8x1x32x2x128, .f32⟩
  | 94 => ⟨S8x1x32x2x128, .f32⟩
  | 95 => ⟨S8x1x32x2x128, .f32⟩
  | 96 => ⟨S8x1x32x2x128, .f32⟩
  | 97 => ⟨S8x1x32x2x128, .f32⟩
  | 98 => ⟨S8x1x32x2x128, .f32⟩
  | 99 => ⟨S8x1x32x2x128, .f32⟩
  | 100 => ⟨S8x1x32x2x128, .f32⟩
  | 101 => ⟨S8x1x32x2x128, .f32⟩
  | 102 => ⟨S8x12x32x2x128, .f32⟩
  | 103 => ⟨S96x32x2x128, .f32⟩
  | 104 => ⟨S8x1x32x2x128, .f32⟩
  | 105 => ⟨S8x1x32x2x128, .f32⟩
  | 106 => ⟨S8x1x32x2x128, .f32⟩
  | 107 => ⟨S8x1x32x2x128, .f32⟩
  | 108 => ⟨S8x1x32x2x128, .f32⟩
  | 109 => ⟨S8x1x32x2x128, .f32⟩
  | 110 => ⟨S8x1x32x2x128, .f32⟩
  | 111 => ⟨S8x1x32x2x128, .f32⟩
  | 112 => ⟨S8x1x32x2x128, .f32⟩
  | 113 => ⟨S8x1x32x2x128, .f32⟩
  | 114 => ⟨S8x1x32x2x128, .f32⟩
  | 115 => ⟨S8x1x32x2x128, .f32⟩
  | 116 => ⟨S8x12x32x2x128, .f32⟩
  | 117 => ⟨S96x32x2x128, .f32⟩
  | 118 => ⟨S8x1x32x132x2, .f32⟩
  | 119 => ⟨S8x1x32x132x2, .f32⟩
  | 120 => ⟨S8x1x32x132x2, .f32⟩
  | 121 => ⟨S8x1x32x132x2, .f32⟩
  | 122 => ⟨S8x1x32x132x2, .f32⟩
  | 123 => ⟨S8x1x32x132x2, .f32⟩
  | 124 => ⟨S8x1x32x132x2, .f32⟩
  | 125 => ⟨S8x1x32x132x2, .f32⟩
  | 126 => ⟨S8x1x32x132x2, .f32⟩
  | 127 => ⟨S8x1x32x132x2, .f32⟩
  | _ => ⟨S96x32x128x128, .f32⟩

abbrev hbmTy0_7 (i : Nat) : BufTy := match i % 128 with
  | 0 => ⟨S8x1x32x132x2, .f32⟩
  | 1 => ⟨S8x1x32x132x2, .f32⟩
  | 2 => ⟨S8x12x32x132x2, .f32⟩
  | 3 => ⟨S96x32x132x2, .f32⟩
  | 4 => ⟨S8x1x32x132x2, .f32⟩
  | 5 => ⟨S8x1x32x132x2, .f32⟩
  | 6 => ⟨S8x1x32x132x2, .f32⟩
  | 7 => ⟨S8x1x32x132x2, .f32⟩
  | 8 => ⟨S8x1x32x132x2, .f32⟩
  | 9 => ⟨S8x1x32x132x2, .f32⟩
  | 10 => ⟨S8x1x32x132x2, .f32⟩
  | 11 => ⟨S8x1x32x132x2, .f32⟩
  | 12 => ⟨S8x1x32x132x2, .f32⟩
  | 13 => ⟨S8x1x32x132x2, .f32⟩
  | 14 => ⟨S8x1x32x132x2, .f32⟩
  | 15 => ⟨S8x1x32x132x2, .f32⟩
  | 16 => ⟨S8x12x32x132x2, .f32⟩
  | 17 => ⟨S96x32x132x2, .f32⟩
  | 18 => ⟨S96x32x132x132, .f32⟩
  | _ => ⟨S96x32x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S96x32x128x128, .f32⟩

abbrev bufTy : (tb : Table) → Fin (tcTables nBuf tb) → BufTy
  | .hbm, ⟨i, _⟩ => hbmTy i
  | .local _ .vmem, ⟨0, _⟩ => ⟨S1x32x128x128, .f32⟩
  | .local _ .vmem, ⟨1, _⟩ => ⟨S1x32x128x128, .f32⟩
  | .local _ .vmem, ⟨2, _⟩ => ⟨S1x32x2x128, .f32⟩
  | .local _ .vmem, ⟨3, _⟩ => ⟨S1x32x2x128, .f32⟩
  | .local _ .vmem, ⟨4, _⟩ => ⟨S1x32x2x128, .f32⟩
  | .local _ .vmem, ⟨5, _⟩ => ⟨S1x32x2x128, .f32⟩
  | .local _ .vmem, ⟨6, _⟩ => ⟨S1x32x132x2, .f32⟩
  | .local _ .vmem, ⟨7, _⟩ => ⟨S1x32x132x2, .f32⟩
  | .local _ .vmem, ⟨8, _⟩ => ⟨S1x32x132x2, .f32⟩
  | .local _ .vmem, ⟨9, _⟩ => ⟨S1x32x132x2, .f32⟩
  | .local _ .vmem, ⟨10, _⟩ => ⟨S1x32x132x132, .f32⟩
  | .local _ .vmem, ⟨11, _⟩ => ⟨S1x32x132x132, .f32⟩
  | _, _ => ⟨S96x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_call0_v0 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_call1_v0 : Ref sig .tc := ⟨.hbm, 31, rfl⟩
abbrev main_v29 : Ref sig .tc := ⟨.hbm, 32, rfl⟩
abbrev main_v30 : Ref sig .tc := ⟨.hbm, 33, rfl⟩
abbrev main_call2_v0 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_v33 : Ref sig .tc := ⟨.hbm, 38, rfl⟩
abbrev main_c : Ref sig .tc := ⟨.hbm, 39, rfl⟩
abbrev main_v34 : Ref sig .tc := ⟨.hbm, 40, rfl⟩
abbrev main_v35 : Ref sig .tc := ⟨.hbm, 41, rfl⟩
abbrev main_c_0 : Ref sig .tc := ⟨.hbm, 42, rfl⟩
abbrev main_v36 : Ref sig .tc := ⟨.hbm, 43, rfl⟩
abbrev main_v37 : Ref sig .tc := ⟨.hbm, 44, rfl⟩
abbrev main_c_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_c_3 : Ref sig .tc := ⟨.hbm, 53, rfl⟩
abbrev main_v44 : Ref sig .tc := ⟨.hbm, 54, rfl⟩
abbrev main_v45 : Ref sig .tc := ⟨.hbm, 55, rfl⟩
abbrev main_c_4 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call3_v0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_call4_v0 : Ref sig .tc := ⟨.hbm, 67, rfl⟩
abbrev main_v54 : Ref sig .tc := ⟨.hbm, 68, rfl⟩
abbrev main_v55 : Ref sig .tc := ⟨.hbm, 69, rfl⟩
abbrev main_call5_v0 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_c_7 : Ref sig .tc := ⟨.hbm, 75, rfl⟩
abbrev main_v59 : Ref sig .tc := ⟨.hbm, 76, rfl⟩
abbrev main_v60 : Ref sig .tc := ⟨.hbm, 77, rfl⟩
abbrev main_c_8 : Ref sig .tc := ⟨.hbm, 78, rfl⟩
abbrev main_v61 : Ref sig .tc := ⟨.hbm, 79, rfl⟩
abbrev main_v62 : Ref sig .tc := ⟨.hbm, 80, rfl⟩
abbrev main_c_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_c_11 : Ref sig .tc := ⟨.hbm, 89, rfl⟩
abbrev main_v69 : Ref sig .tc := ⟨.hbm, 90, rfl⟩
abbrev main_v70 : Ref sig .tc := ⟨.hbm, 91, rfl⟩
abbrev main_c_12 : Ref sig .tc := ⟨.hbm, 92, rfl⟩
abbrev main_v71 : Ref sig .tc := ⟨.hbm, 93, rfl⟩
abbrev main_v72 : Ref sig .tc := ⟨.hbm, 94, rfl⟩
abbrev main_c_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call6_v0 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call7_v0 : Ref sig .tc := ⟨.hbm, 103, rfl⟩
abbrev main_v79 : Ref sig .tc := ⟨.hbm, 104, rfl⟩
abbrev main_v80 : Ref sig .tc := ⟨.hbm, 105, rfl⟩
abbrev main_call8_v0 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_c_15 : Ref sig .tc := ⟨.hbm, 111, rfl⟩
abbrev main_v84 : Ref sig .tc := ⟨.hbm, 112, rfl⟩
abbrev main_v85 : Ref sig .tc := ⟨.hbm, 113, rfl⟩
abbrev main_c_16 : Ref sig .tc := ⟨.hbm, 114, rfl⟩
abbrev main_v86 : Ref sig .tc := ⟨.hbm, 115, rfl⟩
abbrev main_v87 : Ref sig .tc := ⟨.hbm, 116, rfl⟩
abbrev main_c_17 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_c_19 : Ref sig .tc := ⟨.hbm, 125, rfl⟩
abbrev main_v94 : Ref sig .tc := ⟨.hbm, 126, rfl⟩
abbrev main_v95 : Ref sig .tc := ⟨.hbm, 127, rfl⟩
abbrev main_c_20 : Ref sig .tc := ⟨.hbm, 128, rfl⟩
abbrev main_v96 : Ref sig .tc := ⟨.hbm, 129, rfl⟩
abbrev main_v97 : Ref sig .tc := ⟨.hbm, 130, rfl⟩
abbrev main_c_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_call9_v0 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_call10_v0 : Ref sig .tc := ⟨.hbm, 139, rfl⟩
abbrev main_v104 : Ref sig .tc := ⟨.hbm, 140, rfl⟩
abbrev main_v105 : Ref sig .tc := ⟨.hbm, 141, rfl⟩
abbrev main_call11_v0 : Ref sig .tc := ⟨.hbm, 142, rfl⟩
abbrev main_v106 : Ref sig .tc := ⟨.hbm, 143, rfl⟩
abbrev main_v107 : Ref sig .tc := ⟨.hbm, 144, rfl⟩
abbrev main_cst_22 : Ref sig .tc := ⟨.hbm, 145, rfl⟩
abbrev main_v108 : Ref sig .tc := ⟨.hbm, 146, rfl⟩
abbrev main_c_23 : Ref sig .tc := ⟨.hbm, 147, rfl⟩
abbrev main_v109 : Ref sig .tc := ⟨.hbm, 148, rfl⟩
abbrev main_v110 : Ref sig .tc := ⟨.hbm, 149, rfl⟩
abbrev main_c_24 : Ref sig .tc := ⟨.hbm, 150, rfl⟩
abbrev main_v111 : Ref sig .tc := ⟨.hbm, 151, rfl⟩
abbrev main_v112 : Ref sig .tc := ⟨.hbm, 152, rfl⟩
abbrev main_c_25 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_c_27 : Ref sig .tc := ⟨.hbm, 161, rfl⟩
abbrev main_v119 : Ref sig .tc := ⟨.hbm, 162, rfl⟩
abbrev main_v120 : Ref sig .tc := ⟨.hbm, 163, rfl⟩
abbrev main_c_28 : Ref sig .tc := ⟨.hbm, 164, rfl⟩
abbrev main_v121 : Ref sig .tc := ⟨.hbm, 165, rfl⟩
abbrev main_v122 : Ref sig .tc := ⟨.hbm, 166, rfl⟩
abbrev main_c_29 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_30 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_31 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_32 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_c_33 : Ref sig .tc := ⟨.hbm, 185, rfl⟩
abbrev main_v137 : Ref sig .tc := ⟨.hbm, 186, rfl⟩
abbrev main_c_34 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_35 : Ref sig .tc := ⟨.hbm, 193, rfl⟩
abbrev main_v143 : Ref sig .tc := ⟨.hbm, 194, rfl⟩
abbrev main_c_36 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_c_37 : Ref sig .tc := ⟨.hbm, 201, rfl⟩
abbrev main_v149 : Ref sig .tc := ⟨.hbm, 202, rfl⟩
abbrev main_c_38 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_39 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_40 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_c_41 : Ref sig .tc := ⟨.hbm, 218, rfl⟩
abbrev main_v162 : Ref sig .tc := ⟨.hbm, 219, rfl⟩
abbrev main_c_42 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_43 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_44 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_45 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_c_46 : Ref sig .tc := ⟨.hbm, 239, rfl⟩
abbrev main_v178 : Ref sig .tc := ⟨.hbm, 240, rfl⟩
abbrev main_c_47 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_c_48 : Ref sig .tc := ⟨.hbm, 247, rfl⟩
abbrev main_v184 : Ref sig .tc := ⟨.hbm, 248, rfl⟩
abbrev main_c_49 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_c_50 : Ref sig .tc := ⟨.hbm, 255, rfl⟩
abbrev main_v190 : Ref sig .tc := ⟨.hbm, 256, rfl⟩
abbrev main_c_51 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_52 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_cst_53 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_c_54 : Ref sig .tc := ⟨.hbm, 272, rfl⟩
abbrev main_v203 : Ref sig .tc := ⟨.hbm, 273, rfl⟩
abbrev main_c_55 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_cst_56 : Ref sig .tc := ⟨.hbm, 282, rfl⟩
abbrev main_v211 : Ref sig .tc := ⟨.hbm, 283, rfl⟩
abbrev main_c_57 : Ref sig .tc := ⟨.hbm, 284, rfl⟩
abbrev main_v212 : Ref sig .tc := ⟨.hbm, 285, rfl⟩
abbrev main_v213 : Ref sig .tc := ⟨.hbm, 286, rfl⟩
abbrev main_c_58 : Ref sig .tc := ⟨.hbm, 287, rfl⟩
abbrev main_v214 : Ref sig .tc := ⟨.hbm, 288, rfl⟩
abbrev main_v215 : Ref sig .tc := ⟨.hbm, 289, rfl⟩
abbrev main_c_59 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_cst_60 : Ref sig .tc := ⟨.hbm, 295, rfl⟩
abbrev main_v220 : Ref sig .tc := ⟨.hbm, 296, rfl⟩
abbrev main_c_61 : Ref sig .tc := ⟨.hbm, 297, rfl⟩
abbrev main_v221 : Ref sig .tc := ⟨.hbm, 298, rfl⟩
abbrev main_v222 : Ref sig .tc := ⟨.hbm, 299, rfl⟩
abbrev main_c_62 : Ref sig .tc := ⟨.hbm, 300, rfl⟩
abbrev main_v223 : Ref sig .tc := ⟨.hbm, 301, rfl⟩
abbrev main_v224 : Ref sig .tc := ⟨.hbm, 302, rfl⟩
abbrev main_c_63 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_cst_64 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_cst_65 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_cst_66 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_c_67 : Ref sig .tc := ⟨.hbm, 321, rfl⟩
abbrev main_v239 : Ref sig .tc := ⟨.hbm, 322, rfl⟩
abbrev main_c_68 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_c_69 : Ref sig .tc := ⟨.hbm, 329, rfl⟩
abbrev main_v245 : Ref sig .tc := ⟨.hbm, 330, rfl⟩
abbrev main_c_70 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_c_71 : Ref sig .tc := ⟨.hbm, 337, rfl⟩
abbrev main_v251 : Ref sig .tc := ⟨.hbm, 338, rfl⟩
abbrev main_c_72 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_cst_73 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_cst_74 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_c_75 : Ref sig .tc := ⟨.hbm, 354, rfl⟩
abbrev main_v264 : Ref sig .tc := ⟨.hbm, 355, rfl⟩
abbrev main_c_76 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_cst_77 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_cst_78 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_cst_79 : Ref sig .tc := ⟨.hbm, 371, rfl⟩
abbrev main_v277 : Ref sig .tc := ⟨.hbm, 372, rfl⟩
abbrev main_v278 : Ref sig .tc := ⟨.hbm, 373, rfl⟩
abbrev main_v279 : Ref sig .tc := ⟨.hbm, 374, rfl⟩
abbrev main_c_80 : Ref sig .tc := ⟨.hbm, 375, rfl⟩
abbrev main_v280 : Ref sig .tc := ⟨.hbm, 376, rfl⟩
abbrev main_c_81 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_c_82 : Ref sig .tc := ⟨.hbm, 383, rfl⟩
abbrev main_v286 : Ref sig .tc := ⟨.hbm, 384, rfl⟩
abbrev main_c_83 : Ref sig .tc := ⟨.hbm, 385, rfl⟩
abbrev main_v287 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_v291 : Ref sig .tc := ⟨.hbm, 390, rfl⟩
abbrev main_c_84 : Ref sig .tc := ⟨.hbm, 391, rfl⟩
abbrev main_v292 : Ref sig .tc := ⟨.hbm, 392, rfl⟩
abbrev main_c_85 : Ref sig .tc := ⟨.hbm, 393, rfl⟩
abbrev main_v293 : Ref sig .tc := ⟨.hbm, 394, rfl⟩
abbrev main_v294 : Ref sig .tc := ⟨.hbm, 395, rfl⟩
abbrev main_v295 : Ref sig .tc := ⟨.hbm, 396, rfl⟩
abbrev main_v296 : Ref sig .tc := ⟨.hbm, 397, rfl⟩
abbrev main_v297 : Ref sig .tc := ⟨.hbm, 398, rfl⟩
abbrev main_cst_86 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_cst_87 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_c_88 : Ref sig .tc := ⟨.hbm, 408, rfl⟩
abbrev main_v305 : Ref sig .tc := ⟨.hbm, 409, rfl⟩
abbrev main_c_89 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_v311 : Ref sig .tc := ⟨.hbm, 416, rfl⟩
abbrev main_v312 : Ref sig .tc := ⟨.hbm, 417, rfl⟩
abbrev main_cst_90 : Ref sig .tc := ⟨.hbm, 418, rfl⟩
abbrev main_v313 : Ref sig .tc := ⟨.hbm, 419, rfl⟩
abbrev main_c_91 : Ref sig .tc := ⟨.hbm, 420, rfl⟩
abbrev main_v314 : Ref sig .tc := ⟨.hbm, 421, rfl⟩
abbrev main_v315 : Ref sig .tc := ⟨.hbm, 422, rfl⟩
abbrev main_c_92 : Ref sig .tc := ⟨.hbm, 423, rfl⟩
abbrev main_v316 : Ref sig .tc := ⟨.hbm, 424, rfl⟩
abbrev main_v317 : Ref sig .tc := ⟨.hbm, 425, rfl⟩
abbrev main_c_93 : Ref sig .tc := ⟨.hbm, 426, rfl⟩
abbrev main_v318 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_cst_94 : Ref sig .tc := ⟨.hbm, 431, rfl⟩
abbrev main_v322 : Ref sig .tc := ⟨.hbm, 432, rfl⟩
abbrev main_c_95 : Ref sig .tc := ⟨.hbm, 433, rfl⟩
abbrev main_v323 : Ref sig .tc := ⟨.hbm, 434, rfl⟩
abbrev main_v324 : Ref sig .tc := ⟨.hbm, 435, rfl⟩
abbrev main_c_96 : Ref sig .tc := ⟨.hbm, 436, rfl⟩
abbrev main_v325 : Ref sig .tc := ⟨.hbm, 437, rfl⟩
abbrev main_v326 : Ref sig .tc := ⟨.hbm, 438, rfl⟩
abbrev main_c_97 : Ref sig .tc := ⟨.hbm, 439, rfl⟩
abbrev main_v327 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_cst_98 : Ref sig .tc := ⟨.hbm, 444, rfl⟩
abbrev main_v331 : Ref sig .tc := ⟨.hbm, 445, rfl⟩
abbrev main_v332 : Ref sig .tc := ⟨.hbm, 446, rfl⟩
abbrev main_v333 : Ref sig .tc := ⟨.hbm, 447, rfl⟩
abbrev main_cst_99 : Ref sig .tc := ⟨.hbm, 448, rfl⟩
abbrev main_v334 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_cst_100 : Ref sig .tc := ⟨.hbm, 453, rfl⟩
abbrev main_v338 : Ref sig .tc := ⟨.hbm, 454, rfl⟩
abbrev main_v339 : Ref sig .tc := ⟨.hbm, 455, rfl⟩
abbrev main_v340 : Ref sig .tc := ⟨.hbm, 456, rfl⟩
abbrev main_c_101 : Ref sig .tc := ⟨.hbm, 457, rfl⟩
abbrev main_v341 : Ref sig .tc := ⟨.hbm, 458, rfl⟩
abbrev main_c_102 : Ref sig .tc := ⟨.hbm, 459, rfl⟩
abbrev main_v342 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_c_103 : Ref sig .tc := ⟨.hbm, 465, rfl⟩
abbrev main_v347 : Ref sig .tc := ⟨.hbm, 466, rfl⟩
abbrev main_c_104 : Ref sig .tc := ⟨.hbm, 467, rfl⟩
abbrev main_v348 : Ref sig .tc := ⟨.hbm, 468, rfl⟩
abbrev main_v349 : Ref sig .tc := ⟨.hbm, 469, rfl⟩
abbrev main_v350 : Ref sig .tc := ⟨.hbm, 470, rfl⟩
abbrev main_v351 : Ref sig .tc := ⟨.hbm, 471, rfl⟩
abbrev main_v352 : Ref sig .tc := ⟨.hbm, 472, rfl⟩
abbrev main_c_105 : Ref sig .tc := ⟨.hbm, 473, rfl⟩
abbrev main_v353 : Ref sig .tc := ⟨.hbm, 474, rfl⟩
abbrev main_c_106 : Ref sig .tc := ⟨.hbm, 475, rfl⟩
abbrev main_v354 : Ref sig .tc := ⟨.hbm, 476, rfl⟩
abbrev main_v355 : Ref sig .tc := ⟨.hbm, 477, rfl⟩
abbrev main_v356 : Ref sig .tc := ⟨.hbm, 478, rfl⟩
abbrev main_v357 : Ref sig .tc := ⟨.hbm, 479, rfl⟩
abbrev main_v358 : Ref sig .tc := ⟨.hbm, 480, rfl⟩
abbrev main_cst_107 : Ref sig .tc := ⟨.hbm, 481, rfl⟩
abbrev main_v359 : Ref sig .tc := ⟨.hbm, 482, rfl⟩
abbrev main_v360 : Ref sig .tc := ⟨.hbm, 483, rfl⟩
abbrev main_v361 : Ref sig .tc := ⟨.hbm, 484, rfl⟩
abbrev main_v362 : Ref sig .tc := ⟨.hbm, 485, rfl⟩
abbrev main_cst_108 : Ref sig .tc := ⟨.hbm, 486, rfl⟩
abbrev main_v363 : Ref sig .tc := ⟨.hbm, 487, rfl⟩
abbrev main_v364 : Ref sig .tc := ⟨.hbm, 488, rfl⟩
abbrev main_v365 : Ref sig .tc := ⟨.hbm, 489, rfl⟩
abbrev main_c_109 : Ref sig .tc := ⟨.hbm, 490, rfl⟩
abbrev main_v366 : Ref sig .tc := ⟨.hbm, 491, rfl⟩
abbrev main_c_110 : Ref sig .tc := ⟨.hbm, 492, rfl⟩
abbrev main_v367 : Ref sig .tc := ⟨.hbm, 493, rfl⟩
abbrev main_v368 : Ref sig .tc := ⟨.hbm, 494, rfl⟩
abbrev main_v369 : Ref sig .tc := ⟨.hbm, 495, rfl⟩
abbrev main_v370 : Ref sig .tc := ⟨.hbm, 496, rfl⟩
abbrev main_v371 : Ref sig .tc := ⟨.hbm, 497, rfl⟩
abbrev main_cst_111 : Ref sig .tc := ⟨.hbm, 498, rfl⟩
abbrev main_v372 : Ref sig .tc := ⟨.hbm, 499, rfl⟩
abbrev main_v373 : Ref sig .tc := ⟨.hbm, 500, rfl⟩
abbrev main_v374 : Ref sig .tc := ⟨.hbm, 501, rfl⟩
abbrev main_cst_112 : Ref sig .tc := ⟨.hbm, 502, rfl⟩
abbrev main_v375 : Ref sig .tc := ⟨.hbm, 503, rfl⟩
abbrev main_v376 : Ref sig .tc := ⟨.hbm, 504, rfl⟩
abbrev main_v377 : Ref sig .tc := ⟨.hbm, 505, rfl⟩
abbrev main_v378 : Ref sig .tc := ⟨.hbm, 506, rfl⟩
abbrev main_cst_113 : Ref sig .tc := ⟨.hbm, 507, rfl⟩
abbrev main_v379 : Ref sig .tc := ⟨.hbm, 508, rfl⟩
abbrev main_v380 : Ref sig .tc := ⟨.hbm, 509, rfl⟩
abbrev main_v381 : Ref sig .tc := ⟨.hbm, 510, rfl⟩
abbrev main_c_114 : Ref sig .tc := ⟨.hbm, 511, rfl⟩
abbrev main_v382 : Ref sig .tc := ⟨.hbm, 512, rfl⟩
abbrev main_c_115 : Ref sig .tc := ⟨.hbm, 513, rfl⟩
abbrev main_v383 : Ref sig .tc := ⟨.hbm, 514, rfl⟩
abbrev main_v384 : Ref sig .tc := ⟨.hbm, 515, rfl⟩
abbrev main_v385 : Ref sig .tc := ⟨.hbm, 516, rfl⟩
abbrev main_v386 : Ref sig .tc := ⟨.hbm, 517, rfl⟩
abbrev main_v387 : Ref sig .tc := ⟨.hbm, 518, rfl⟩
abbrev main_c_116 : Ref sig .tc := ⟨.hbm, 519, rfl⟩
abbrev main_v388 : Ref sig .tc := ⟨.hbm, 520, rfl⟩
abbrev main_c_117 : Ref sig .tc := ⟨.hbm, 521, rfl⟩
abbrev main_v389 : Ref sig .tc := ⟨.hbm, 522, rfl⟩
abbrev main_v390 : Ref sig .tc := ⟨.hbm, 523, rfl⟩
abbrev main_v391 : Ref sig .tc := ⟨.hbm, 524, rfl⟩
abbrev main_v392 : Ref sig .tc := ⟨.hbm, 525, rfl⟩
abbrev main_v393 : Ref sig .tc := ⟨.hbm, 526, rfl⟩
abbrev main_c_118 : Ref sig .tc := ⟨.hbm, 527, rfl⟩
abbrev main_v394 : Ref sig .tc := ⟨.hbm, 528, rfl⟩
abbrev main_c_119 : Ref sig .tc := ⟨.hbm, 529, rfl⟩
abbrev main_v395 : Ref sig .tc := ⟨.hbm, 530, rfl⟩
abbrev main_v396 : Ref sig .tc := ⟨.hbm, 531, rfl⟩
abbrev main_v397 : Ref sig .tc := ⟨.hbm, 532, rfl⟩
abbrev main_v398 : Ref sig .tc := ⟨.hbm, 533, rfl⟩
abbrev main_v399 : Ref sig .tc := ⟨.hbm, 534, rfl⟩
abbrev main_cst_120 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_v403 : Ref sig .tc := ⟨.hbm, 539, rfl⟩
abbrev main_cst_121 : Ref sig .tc := ⟨.hbm, 540, rfl⟩
abbrev main_v404 : Ref sig .tc := ⟨.hbm, 541, rfl⟩
abbrev main_v405 : Ref sig .tc := ⟨.hbm, 542, rfl⟩
abbrev main_v406 : Ref sig .tc := ⟨.hbm, 543, rfl⟩
abbrev main_c_122 : Ref sig .tc := ⟨.hbm, 544, rfl⟩
abbrev main_v407 : Ref sig .tc := ⟨.hbm, 545, rfl⟩
abbrev main_c_123 : Ref sig .tc := ⟨.hbm, 546, rfl⟩
abbrev main_v408 : Ref sig .tc := ⟨.hbm, 547, rfl⟩
abbrev main_v409 : Ref sig .tc := ⟨.hbm, 548, rfl⟩
abbrev main_v410 : Ref sig .tc := ⟨.hbm, 549, rfl⟩
abbrev main_v411 : Ref sig .tc := ⟨.hbm, 550, rfl⟩
abbrev main_v412 : Ref sig .tc := ⟨.hbm, 551, rfl⟩
abbrev main_v413 : Ref sig .tc := ⟨.hbm, 552, rfl⟩
abbrev main_v414 : Ref sig .tc := ⟨.hbm, 553, rfl⟩
abbrev main_cst_124 : Ref sig .tc := ⟨.hbm, 554, rfl⟩
abbrev main_v415 : Ref sig .tc := ⟨.hbm, 555, rfl⟩
abbrev main_c_125 : Ref sig .tc := ⟨.hbm, 556, rfl⟩
abbrev main_v416 : Ref sig .tc := ⟨.hbm, 557, rfl⟩
abbrev main_v417 : Ref sig .tc := ⟨.hbm, 558, rfl⟩
abbrev main_c_126 : Ref sig .tc := ⟨.hbm, 559, rfl⟩
abbrev main_v418 : Ref sig .tc := ⟨.hbm, 560, rfl⟩
abbrev main_v419 : Ref sig .tc := ⟨.hbm, 561, rfl⟩
abbrev main_c_127 : Ref sig .tc := ⟨.hbm, 562, rfl⟩
abbrev main_v420 : Ref sig .tc := ⟨.hbm, 563, rfl⟩
abbrev main_v421 : Ref sig .tc := ⟨.hbm, 564, rfl⟩
abbrev main_v422 : Ref sig .tc := ⟨.hbm, 565, rfl⟩
abbrev main_v423 : Ref sig .tc := ⟨.hbm, 566, rfl⟩
abbrev main_cst_128 : Ref sig .tc := ⟨.hbm, 567, rfl⟩
abbrev main_v424 : Ref sig .tc := ⟨.hbm, 568, rfl⟩
abbrev main_c_129 : Ref sig .tc := ⟨.hbm, 569, rfl⟩
abbrev main_v425 : Ref sig .tc := ⟨.hbm, 570, rfl⟩
abbrev main_v426 : Ref sig .tc := ⟨.hbm, 571, rfl⟩
abbrev main_c_130 : Ref sig .tc := ⟨.hbm, 572, rfl⟩
abbrev main_v427 : Ref sig .tc := ⟨.hbm, 573, rfl⟩
abbrev main_v428 : Ref sig .tc := ⟨.hbm, 574, rfl⟩
abbrev main_c_131 : Ref sig .tc := ⟨.hbm, 575, rfl⟩
abbrev main_v429 : Ref sig .tc := ⟨.hbm, 576, rfl⟩
abbrev main_v430 : Ref sig .tc := ⟨.hbm, 577, rfl⟩
abbrev main_v431 : Ref sig .tc := ⟨.hbm, 578, rfl⟩
abbrev main_v432 : Ref sig .tc := ⟨.hbm, 579, rfl⟩
abbrev main_cst_132 : Ref sig .tc := ⟨.hbm, 580, rfl⟩
abbrev main_v433 : Ref sig .tc := ⟨.hbm, 581, rfl⟩
abbrev main_v434 : Ref sig .tc := ⟨.hbm, 582, rfl⟩
abbrev main_v435 : Ref sig .tc := ⟨.hbm, 583, rfl⟩
abbrev main_cst_133 : Ref sig .tc := ⟨.hbm, 584, rfl⟩
abbrev main_v436 : Ref sig .tc := ⟨.hbm, 585, rfl⟩
abbrev main_v437 : Ref sig .tc := ⟨.hbm, 586, rfl⟩
abbrev main_v438 : Ref sig .tc := ⟨.hbm, 587, rfl⟩
abbrev main_v439 : Ref sig .tc := ⟨.hbm, 588, rfl⟩
abbrev main_cst_134 : Ref sig .tc := ⟨.hbm, 589, rfl⟩
abbrev main_v440 : Ref sig .tc := ⟨.hbm, 590, rfl⟩
abbrev main_v441 : Ref sig .tc := ⟨.hbm, 591, rfl⟩
abbrev main_v442 : Ref sig .tc := ⟨.hbm, 592, rfl⟩
abbrev main_c_135 : Ref sig .tc := ⟨.hbm, 593, rfl⟩
abbrev main_v443 : Ref sig .tc := ⟨.hbm, 594, rfl⟩
abbrev main_c_136 : Ref sig .tc := ⟨.hbm, 595, rfl⟩
abbrev main_v444 : Ref sig .tc := ⟨.hbm, 596, rfl⟩
abbrev main_v445 : Ref sig .tc := ⟨.hbm, 597, rfl⟩
abbrev main_v446 : Ref sig .tc := ⟨.hbm, 598, rfl⟩
abbrev main_v447 : Ref sig .tc := ⟨.hbm, 599, rfl⟩
abbrev main_v448 : Ref sig .tc := ⟨.hbm, 600, rfl⟩
abbrev main_c_137 : Ref sig .tc := ⟨.hbm, 601, rfl⟩
abbrev main_v449 : Ref sig .tc := ⟨.hbm, 602, rfl⟩
abbrev main_c_138 : Ref sig .tc := ⟨.hbm, 603, rfl⟩
abbrev main_v450 : Ref sig .tc := ⟨.hbm, 604, rfl⟩
abbrev main_v451 : Ref sig .tc := ⟨.hbm, 605, rfl⟩
abbrev main_v452 : Ref sig .tc := ⟨.hbm, 606, rfl⟩
abbrev main_v453 : Ref sig .tc := ⟨.hbm, 607, rfl⟩
abbrev main_v454 : Ref sig .tc := ⟨.hbm, 608, rfl⟩
abbrev main_c_139 : Ref sig .tc := ⟨.hbm, 609, rfl⟩
abbrev main_v455 : Ref sig .tc := ⟨.hbm, 610, rfl⟩
abbrev main_c_140 : Ref sig .tc := ⟨.hbm, 611, rfl⟩
abbrev main_v456 : Ref sig .tc := ⟨.hbm, 612, rfl⟩
abbrev main_v457 : Ref sig .tc := ⟨.hbm, 613, rfl⟩
abbrev main_v458 : Ref sig .tc := ⟨.hbm, 614, rfl⟩
abbrev main_v459 : Ref sig .tc := ⟨.hbm, 615, rfl⟩
abbrev main_v460 : Ref sig .tc := ⟨.hbm, 616, rfl⟩
abbrev main_cst_141 : Ref sig .tc := ⟨.hbm, 617, rfl⟩
abbrev main_v461 : Ref sig .tc := ⟨.hbm, 618, rfl⟩
abbrev main_v462 : Ref sig .tc := ⟨.hbm, 619, rfl⟩
abbrev main_v463 : Ref sig .tc := ⟨.hbm, 620, rfl⟩
abbrev main_v464 : Ref sig .tc := ⟨.hbm, 621, rfl⟩
abbrev main_cst_142 : Ref sig .tc := ⟨.hbm, 622, rfl⟩
abbrev main_v465 : Ref sig .tc := ⟨.hbm, 623, rfl⟩
abbrev main_v466 : Ref sig .tc := ⟨.hbm, 624, rfl⟩
abbrev main_v467 : Ref sig .tc := ⟨.hbm, 625, rfl⟩
abbrev main_c_143 : Ref sig .tc := ⟨.hbm, 626, rfl⟩
abbrev main_v468 : Ref sig .tc := ⟨.hbm, 627, rfl⟩
abbrev main_c_144 : Ref sig .tc := ⟨.hbm, 628, rfl⟩
abbrev main_v469 : Ref sig .tc := ⟨.hbm, 629, rfl⟩
abbrev main_v470 : Ref sig .tc := ⟨.hbm, 630, rfl⟩
abbrev main_v471 : Ref sig .tc := ⟨.hbm, 631, rfl⟩
abbrev main_v472 : Ref sig .tc := ⟨.hbm, 632, rfl⟩
abbrev main_v473 : Ref sig .tc := ⟨.hbm, 633, rfl⟩
abbrev main_cst_145 : Ref sig .tc := ⟨.hbm, 634, rfl⟩
abbrev main_v474 : Ref sig .tc := ⟨.hbm, 635, rfl⟩
abbrev main_v475 : Ref sig .tc := ⟨.hbm, 636, rfl⟩
abbrev main_v476 : Ref sig .tc := ⟨.hbm, 637, rfl⟩
abbrev main_cst_146 : Ref sig .tc := ⟨.hbm, 638, rfl⟩
abbrev main_v477 : Ref sig .tc := ⟨.hbm, 639, rfl⟩
abbrev main_v478 : Ref sig .tc := ⟨.hbm, 640, rfl⟩
abbrev main_v479 : Ref sig .tc := ⟨.hbm, 641, rfl⟩
abbrev main_v480 : Ref sig .tc := ⟨.hbm, 642, rfl⟩
abbrev main_cst_147 : Ref sig .tc := ⟨.hbm, 643, rfl⟩
abbrev main_v481 : Ref sig .tc := ⟨.hbm, 644, rfl⟩
abbrev main_v482 : Ref sig .tc := ⟨.hbm, 645, rfl⟩
abbrev main_v483 : Ref sig .tc := ⟨.hbm, 646, rfl⟩
abbrev main_c_148 : Ref sig .tc := ⟨.hbm, 647, rfl⟩
abbrev main_v484 : Ref sig .tc := ⟨.hbm, 648, rfl⟩
abbrev main_c_149 : Ref sig .tc := ⟨.hbm, 649, rfl⟩
abbrev main_v485 : Ref sig .tc := ⟨.hbm, 650, rfl⟩
abbrev main_v486 : Ref sig .tc := ⟨.hbm, 651, rfl⟩
abbrev main_v487 : Ref sig .tc := ⟨.hbm, 652, rfl⟩
abbrev main_v488 : Ref sig .tc := ⟨.hbm, 653, rfl⟩
abbrev main_v489 : Ref sig .tc := ⟨.hbm, 654, rfl⟩
abbrev main_c_150 : Ref sig .tc := ⟨.hbm, 655, rfl⟩
abbrev main_v490 : Ref sig .tc := ⟨.hbm, 656, rfl⟩
abbrev main_c_151 : Ref sig .tc := ⟨.hbm, 657, rfl⟩
abbrev main_v491 : Ref sig .tc := ⟨.hbm, 658, rfl⟩
abbrev main_v492 : Ref sig .tc := ⟨.hbm, 659, rfl⟩
abbrev main_v493 : Ref sig .tc := ⟨.hbm, 660, rfl⟩
abbrev main_v494 : Ref sig .tc := ⟨.hbm, 661, rfl⟩
abbrev main_v495 : Ref sig .tc := ⟨.hbm, 662, rfl⟩
abbrev main_c_152 : Ref sig .tc := ⟨.hbm, 663, rfl⟩
abbrev main_v496 : Ref sig .tc := ⟨.hbm, 664, rfl⟩
abbrev main_c_153 : Ref sig .tc := ⟨.hbm, 665, rfl⟩
abbrev main_v497 : Ref sig .tc := ⟨.hbm, 666, rfl⟩
abbrev main_v498 : Ref sig .tc := ⟨.hbm, 667, rfl⟩
abbrev main_v499 : Ref sig .tc := ⟨.hbm, 668, rfl⟩
abbrev main_v500 : Ref sig .tc := ⟨.hbm, 669, rfl⟩
abbrev main_v501 : Ref sig .tc := ⟨.hbm, 670, rfl⟩
abbrev main_cst_154 : Ref sig .tc := ⟨.hbm, 671, rfl⟩
abbrev main_v502 : Ref sig .tc := ⟨.hbm, 672, rfl⟩
abbrev main_v503 : Ref sig .tc := ⟨.hbm, 673, rfl⟩
abbrev main_v504 : Ref sig .tc := ⟨.hbm, 674, rfl⟩
abbrev main_v505 : Ref sig .tc := ⟨.hbm, 675, rfl⟩
abbrev main_cst_155 : Ref sig .tc := ⟨.hbm, 676, rfl⟩
abbrev main_v506 : Ref sig .tc := ⟨.hbm, 677, rfl⟩
abbrev main_v507 : Ref sig .tc := ⟨.hbm, 678, rfl⟩
abbrev main_v508 : Ref sig .tc := ⟨.hbm, 679, rfl⟩
abbrev main_c_156 : Ref sig .tc := ⟨.hbm, 680, rfl⟩
abbrev main_v509 : Ref sig .tc := ⟨.hbm, 681, rfl⟩
abbrev main_c_157 : Ref sig .tc := ⟨.hbm, 682, rfl⟩
abbrev main_v510 : Ref sig .tc := ⟨.hbm, 683, rfl⟩
abbrev main_v511 : Ref sig .tc := ⟨.hbm, 684, rfl⟩
abbrev main_v512 : Ref sig .tc := ⟨.hbm, 685, rfl⟩
abbrev main_v513 : Ref sig .tc := ⟨.hbm, 686, rfl⟩
abbrev main_v514 : Ref sig .tc := ⟨.hbm, 687, rfl⟩
abbrev main_v515 : Ref sig .tc := ⟨.hbm, 688, rfl⟩
abbrev main_v516 : Ref sig .tc := ⟨.hbm, 689, rfl⟩
abbrev main_cst_158 : Ref sig .tc := ⟨.hbm, 690, rfl⟩
abbrev main_v517 : Ref sig .tc := ⟨.hbm, 691, rfl⟩
abbrev main_c_159 : Ref sig .tc := ⟨.hbm, 692, rfl⟩
abbrev main_v518 : Ref sig .tc := ⟨.hbm, 693, rfl⟩
abbrev main_v519 : Ref sig .tc := ⟨.hbm, 694, rfl⟩
abbrev main_c_160 : Ref sig .tc := ⟨.hbm, 695, rfl⟩
abbrev main_v520 : Ref sig .tc := ⟨.hbm, 696, rfl⟩
abbrev main_v521 : Ref sig .tc := ⟨.hbm, 697, rfl⟩
abbrev main_c_161 : Ref sig .tc := ⟨.hbm, 698, rfl⟩
abbrev main_v522 : Ref sig .tc := ⟨.hbm, 699, rfl⟩
abbrev main_v523 : Ref sig .tc := ⟨.hbm, 700, rfl⟩
abbrev main_v524 : Ref sig .tc := ⟨.hbm, 701, rfl⟩
abbrev main_v525 : Ref sig .tc := ⟨.hbm, 702, rfl⟩
abbrev main_cst_162 : Ref sig .tc := ⟨.hbm, 703, rfl⟩
abbrev main_v526 : Ref sig .tc := ⟨.hbm, 704, rfl⟩
abbrev main_c_163 : Ref sig .tc := ⟨.hbm, 705, rfl⟩
abbrev main_v527 : Ref sig .tc := ⟨.hbm, 706, rfl⟩
abbrev main_v528 : Ref sig .tc := ⟨.hbm, 707, rfl⟩
abbrev main_c_164 : Ref sig .tc := ⟨.hbm, 708, rfl⟩
abbrev main_v529 : Ref sig .tc := ⟨.hbm, 709, rfl⟩
abbrev main_v530 : Ref sig .tc := ⟨.hbm, 710, rfl⟩
abbrev main_c_165 : Ref sig .tc := ⟨.hbm, 711, rfl⟩
abbrev main_v531 : Ref sig .tc := ⟨.hbm, 712, rfl⟩
abbrev main_v532 : Ref sig .tc := ⟨.hbm, 713, rfl⟩
abbrev main_v533 : Ref sig .tc := ⟨.hbm, 714, rfl⟩
abbrev main_v534 : Ref sig .tc := ⟨.hbm, 715, rfl⟩
abbrev main_call12_v0 : Ref sig .tc := ⟨.hbm, 716, rfl⟩
abbrev main_v535 : Ref sig .tc := ⟨.hbm, 717, rfl⟩
abbrev main_v536 : Ref sig .tc := ⟨.hbm, 718, rfl⟩
abbrev main_v537 : Ref sig .tc := ⟨.hbm, 719, rfl⟩
abbrev main_v538 : Ref sig .tc := ⟨.hbm, 720, rfl⟩
abbrev main_cst_166 : Ref sig .tc := ⟨.hbm, 721, rfl⟩
abbrev main_v539 : Ref sig .tc := ⟨.hbm, 722, rfl⟩
abbrev main_c_167 : Ref sig .tc := ⟨.hbm, 723, rfl⟩
abbrev main_v540 : Ref sig .tc := ⟨.hbm, 724, rfl⟩
abbrev main_v541 : Ref sig .tc := ⟨.hbm, 725, rfl⟩
abbrev main_c_168 : Ref sig .tc := ⟨.hbm, 726, rfl⟩
abbrev main_v542 : Ref sig .tc := ⟨.hbm, 727, rfl⟩
abbrev main_v543 : Ref sig .tc := ⟨.hbm, 728, rfl⟩
abbrev main_c_169 : Ref sig .tc := ⟨.hbm, 729, rfl⟩
abbrev main_v544 : Ref sig .tc := ⟨.hbm, 730, rfl⟩
abbrev main_v545 : Ref sig .tc := ⟨.hbm, 731, rfl⟩
abbrev main_v546 : Ref sig .tc := ⟨.hbm, 732, rfl⟩
abbrev main_v547 : Ref sig .tc := ⟨.hbm, 733, rfl⟩
abbrev main_call13_v0 : Ref sig .tc := ⟨.hbm, 734, rfl⟩
abbrev main_v548 : Ref sig .tc := ⟨.hbm, 735, rfl⟩
abbrev main_v549 : Ref sig .tc := ⟨.hbm, 736, rfl⟩
abbrev main_call14_v0 : Ref sig .tc := ⟨.hbm, 737, rfl⟩
abbrev main_v550 : Ref sig .tc := ⟨.hbm, 738, rfl⟩
abbrev main_cst_170 : Ref sig .tc := ⟨.hbm, 739, rfl⟩
abbrev main_v551 : Ref sig .tc := ⟨.hbm, 740, rfl⟩
abbrev main_c_171 : Ref sig .tc := ⟨.hbm, 741, rfl⟩
abbrev main_v552 : Ref sig .tc := ⟨.hbm, 742, rfl⟩
abbrev main_v553 : Ref sig .tc := ⟨.hbm, 743, rfl⟩
abbrev main_c_172 : Ref sig .tc := ⟨.hbm, 744, rfl⟩
abbrev main_v554 : Ref sig .tc := ⟨.hbm, 745, rfl⟩
abbrev main_v555 : Ref sig .tc := ⟨.hbm, 746, rfl⟩
abbrev main_c_173 : Ref sig .tc := ⟨.hbm, 747, rfl⟩
abbrev main_v556 : Ref sig .tc := ⟨.hbm, 748, rfl⟩
abbrev main_v557 : Ref sig .tc := ⟨.hbm, 749, rfl⟩
abbrev main_v558 : Ref sig .tc := ⟨.hbm, 750, rfl⟩
abbrev main_v559 : Ref sig .tc := ⟨.hbm, 751, rfl⟩
abbrev main_call15_v0 : Ref sig .tc := ⟨.hbm, 752, rfl⟩
abbrev main_v560 : Ref sig .tc := ⟨.hbm, 753, rfl⟩
abbrev main_v561 : Ref sig .tc := ⟨.hbm, 754, rfl⟩
abbrev main_v562 : Ref sig .tc := ⟨.hbm, 755, rfl⟩
abbrev main_v563 : Ref sig .tc := ⟨.hbm, 756, rfl⟩
abbrev main_cst_174 : Ref sig .tc := ⟨.hbm, 757, rfl⟩
abbrev main_v564 : Ref sig .tc := ⟨.hbm, 758, rfl⟩
abbrev main_c_175 : Ref sig .tc := ⟨.hbm, 759, rfl⟩
abbrev main_v565 : Ref sig .tc := ⟨.hbm, 760, rfl⟩
abbrev main_v566 : Ref sig .tc := ⟨.hbm, 761, rfl⟩
abbrev main_c_176 : Ref sig .tc := ⟨.hbm, 762, rfl⟩
abbrev main_v567 : Ref sig .tc := ⟨.hbm, 763, rfl⟩
abbrev main_v568 : Ref sig .tc := ⟨.hbm, 764, rfl⟩
abbrev main_c_177 : Ref sig .tc := ⟨.hbm, 765, rfl⟩
abbrev main_v569 : Ref sig .tc := ⟨.hbm, 766, rfl⟩
abbrev main_v570 : Ref sig .tc := ⟨.hbm, 767, rfl⟩
abbrev main_v571 : Ref sig .tc := ⟨.hbm, 768, rfl⟩
abbrev main_v572 : Ref sig .tc := ⟨.hbm, 769, rfl⟩
abbrev main_call16_v0 : Ref sig .tc := ⟨.hbm, 770, rfl⟩
abbrev main_v573 : Ref sig .tc := ⟨.hbm, 771, rfl⟩
abbrev main_v574 : Ref sig .tc := ⟨.hbm, 772, rfl⟩
abbrev main_call17_v0 : Ref sig .tc := ⟨.hbm, 773, rfl⟩
abbrev main_v575 : Ref sig .tc := ⟨.hbm, 774, rfl⟩
abbrev main_cst_178 : Ref sig .tc := ⟨.hbm, 775, rfl⟩
abbrev main_v576 : Ref sig .tc := ⟨.hbm, 776, rfl⟩
abbrev main_c_179 : Ref sig .tc := ⟨.hbm, 777, rfl⟩
abbrev main_v577 : Ref sig .tc := ⟨.hbm, 778, rfl⟩
abbrev main_v578 : Ref sig .tc := ⟨.hbm, 779, rfl⟩
abbrev main_c_180 : Ref sig .tc := ⟨.hbm, 780, rfl⟩
abbrev main_v579 : Ref sig .tc := ⟨.hbm, 781, rfl⟩
abbrev main_v580 : Ref sig .tc := ⟨.hbm, 782, rfl⟩
abbrev main_c_181 : Ref sig .tc := ⟨.hbm, 783, rfl⟩
abbrev main_v581 : Ref sig .tc := ⟨.hbm, 784, rfl⟩
abbrev main_v582 : Ref sig .tc := ⟨.hbm, 785, rfl⟩
abbrev main_v583 : Ref sig .tc := ⟨.hbm, 786, rfl⟩
abbrev main_v584 : Ref sig .tc := ⟨.hbm, 787, rfl⟩
abbrev main_call18_v0 : Ref sig .tc := ⟨.hbm, 788, rfl⟩
abbrev main_v585 : Ref sig .tc := ⟨.hbm, 789, rfl⟩
abbrev main_v586 : Ref sig .tc := ⟨.hbm, 790, rfl⟩
abbrev main_v587 : Ref sig .tc := ⟨.hbm, 791, rfl⟩
abbrev main_v588 : Ref sig .tc := ⟨.hbm, 792, rfl⟩
abbrev main_cst_182 : Ref sig .tc := ⟨.hbm, 793, rfl⟩
abbrev main_v589 : Ref sig .tc := ⟨.hbm, 794, rfl⟩
abbrev main_c_183 : Ref sig .tc := ⟨.hbm, 795, rfl⟩
abbrev main_v590 : Ref sig .tc := ⟨.hbm, 796, rfl⟩
abbrev main_v591 : Ref sig .tc := ⟨.hbm, 797, rfl⟩
abbrev main_c_184 : Ref sig .tc := ⟨.hbm, 798, rfl⟩
abbrev main_v592 : Ref sig .tc := ⟨.hbm, 799, rfl⟩
abbrev main_v593 : Ref sig .tc := ⟨.hbm, 800, rfl⟩
abbrev main_c_185 : Ref sig .tc := ⟨.hbm, 801, rfl⟩
abbrev main_v594 : Ref sig .tc := ⟨.hbm, 802, rfl⟩
abbrev main_v595 : Ref sig .tc := ⟨.hbm, 803, rfl⟩
abbrev main_v596 : Ref sig .tc := ⟨.hbm, 804, rfl⟩
abbrev main_v597 : Ref sig .tc := ⟨.hbm, 805, rfl⟩
abbrev main_call19_v0 : Ref sig .tc := ⟨.hbm, 806, rfl⟩
abbrev main_v598 : Ref sig .tc := ⟨.hbm, 807, rfl⟩
abbrev main_v599 : Ref sig .tc := ⟨.hbm, 808, rfl⟩
abbrev main_call20_v0 : Ref sig .tc := ⟨.hbm, 809, rfl⟩
abbrev main_v600 : Ref sig .tc := ⟨.hbm, 810, rfl⟩
abbrev main_cst_186 : Ref sig .tc := ⟨.hbm, 811, rfl⟩
abbrev main_v601 : Ref sig .tc := ⟨.hbm, 812, rfl⟩
abbrev main_c_187 : Ref sig .tc := ⟨.hbm, 813, rfl⟩
abbrev main_v602 : Ref sig .tc := ⟨.hbm, 814, rfl⟩
abbrev main_v603 : Ref sig .tc := ⟨.hbm, 815, rfl⟩
abbrev main_c_188 : Ref sig .tc := ⟨.hbm, 816, rfl⟩
abbrev main_v604 : Ref sig .tc := ⟨.hbm, 817, rfl⟩
abbrev main_v605 : Ref sig .tc := ⟨.hbm, 818, rfl⟩
abbrev main_c_189 : Ref sig .tc := ⟨.hbm, 819, rfl⟩
abbrev main_v606 : Ref sig .tc := ⟨.hbm, 820, rfl⟩
abbrev main_v607 : Ref sig .tc := ⟨.hbm, 821, rfl⟩
abbrev main_v608 : Ref sig .tc := ⟨.hbm, 822, rfl⟩
abbrev main_v609 : Ref sig .tc := ⟨.hbm, 823, rfl⟩
abbrev main_call21_v0 : Ref sig .tc := ⟨.hbm, 824, rfl⟩
abbrev main_v610 : Ref sig .tc := ⟨.hbm, 825, rfl⟩
abbrev main_v611 : Ref sig .tc := ⟨.hbm, 826, rfl⟩
abbrev main_v612 : Ref sig .tc := ⟨.hbm, 827, rfl⟩
abbrev main_v613 : Ref sig .tc := ⟨.hbm, 828, rfl⟩
abbrev main_cst_190 : Ref sig .tc := ⟨.hbm, 829, rfl⟩
abbrev main_v614 : Ref sig .tc := ⟨.hbm, 830, rfl⟩
abbrev main_c_191 : Ref sig .tc := ⟨.hbm, 831, rfl⟩
abbrev main_v615 : Ref sig .tc := ⟨.hbm, 832, rfl⟩
abbrev main_v616 : Ref sig .tc := ⟨.hbm, 833, rfl⟩
abbrev main_c_192 : Ref sig .tc := ⟨.hbm, 834, rfl⟩
abbrev main_v617 : Ref sig .tc := ⟨.hbm, 835, rfl⟩
abbrev main_v618 : Ref sig .tc := ⟨.hbm, 836, rfl⟩
abbrev main_c_193 : Ref sig .tc := ⟨.hbm, 837, rfl⟩
abbrev main_v619 : Ref sig .tc := ⟨.hbm, 838, rfl⟩
abbrev main_v620 : Ref sig .tc := ⟨.hbm, 839, rfl⟩
abbrev main_v621 : Ref sig .tc := ⟨.hbm, 840, rfl⟩
abbrev main_v622 : Ref sig .tc := ⟨.hbm, 841, rfl⟩
abbrev main_call22_v0 : Ref sig .tc := ⟨.hbm, 842, rfl⟩
abbrev main_v623 : Ref sig .tc := ⟨.hbm, 843, rfl⟩
abbrev main_v624 : Ref sig .tc := ⟨.hbm, 844, rfl⟩
abbrev main_call23_v0 : Ref sig .tc := ⟨.hbm, 845, rfl⟩
abbrev main_v625 : Ref sig .tc := ⟨.hbm, 846, rfl⟩
abbrev main_cst_194 : Ref sig .tc := ⟨.hbm, 847, rfl⟩
abbrev main_v626 : Ref sig .tc := ⟨.hbm, 848, rfl⟩
abbrev main_c_195 : Ref sig .tc := ⟨.hbm, 849, rfl⟩
abbrev main_v627 : Ref sig .tc := ⟨.hbm, 850, rfl⟩
abbrev main_v628 : Ref sig .tc := ⟨.hbm, 851, rfl⟩
abbrev main_c_196 : Ref sig .tc := ⟨.hbm, 852, rfl⟩
abbrev main_v629 : Ref sig .tc := ⟨.hbm, 853, rfl⟩
abbrev main_v630 : Ref sig .tc := ⟨.hbm, 854, rfl⟩
abbrev main_c_197 : Ref sig .tc := ⟨.hbm, 855, rfl⟩
abbrev main_v631 : Ref sig .tc := ⟨.hbm, 856, rfl⟩
abbrev main_v632 : Ref sig .tc := ⟨.hbm, 857, rfl⟩
abbrev main_v633 : Ref sig .tc := ⟨.hbm, 858, rfl⟩
abbrev main_v634 : Ref sig .tc := ⟨.hbm, 859, rfl⟩
abbrev main_v635 : Ref sig .tc := ⟨.hbm, 860, rfl⟩
abbrev main_v636 : Ref sig .tc := ⟨.hbm, 861, rfl⟩
abbrev main_v637 : Ref sig .tc := ⟨.hbm, 862, rfl⟩
abbrev main_v638 : Ref sig .tc := ⟨.hbm, 863, rfl⟩
abbrev main_v639 : Ref sig .tc := ⟨.hbm, 864, rfl⟩
abbrev main_v640 : Ref sig .tc := ⟨.hbm, 865, rfl⟩
abbrev main_v641 : Ref sig .tc := ⟨.hbm, 866, rfl⟩
abbrev main_v642 : Ref sig .tc := ⟨.hbm, 867, rfl⟩
abbrev main_v643 : Ref sig .tc := ⟨.hbm, 868, rfl⟩
abbrev main_v644 : Ref sig .tc := ⟨.hbm, 869, rfl⟩
abbrev main_v645 : Ref sig .tc := ⟨.hbm, 870, rfl⟩
abbrev main_v646 : Ref sig .tc := ⟨.hbm, 871, rfl⟩
abbrev main_v647 : Ref sig .tc := ⟨.hbm, 872, rfl⟩
abbrev main_v648 : Ref sig .tc := ⟨.hbm, 873, rfl⟩
abbrev main_v649 : Ref sig .tc := ⟨.hbm, 874, rfl⟩
abbrev main_v650 : Ref sig .tc := ⟨.hbm, 875, rfl⟩
abbrev main_v651 : Ref sig .tc := ⟨.hbm, 876, rfl⟩
abbrev main_v652 : Ref sig .tc := ⟨.hbm, 877, rfl⟩
abbrev main_v653 : Ref sig .tc := ⟨.hbm, 878, rfl⟩
abbrev main_v654 : Ref sig .tc := ⟨.hbm, 879, rfl⟩
abbrev main_v655 : Ref sig .tc := ⟨.hbm, 880, rfl⟩
abbrev main_v656 : Ref sig .tc := ⟨.hbm, 881, rfl⟩
abbrev main_v657 : Ref sig .tc := ⟨.hbm, 882, rfl⟩
abbrev main_v658 : Ref sig .tc := ⟨.hbm, 883, rfl⟩
abbrev main_v659 : Ref sig .tc := ⟨.hbm, 884, rfl⟩
abbrev main_v660 : Ref sig .tc := ⟨.hbm, 885, rfl⟩
abbrev main_v661 : Ref sig .tc := ⟨.hbm, 886, rfl⟩
abbrev main_v662 : Ref sig .tc := ⟨.hbm, 887, rfl⟩
abbrev main_v663 : Ref sig .tc := ⟨.hbm, 888, rfl⟩
abbrev main_v664 : Ref sig .tc := ⟨.hbm, 889, rfl⟩
abbrev main_v665 : Ref sig .tc := ⟨.hbm, 890, rfl⟩
abbrev main_v666 : Ref sig .tc := ⟨.hbm, 891, rfl⟩
abbrev main_v667 : Ref sig .tc := ⟨.hbm, 892, rfl⟩
abbrev main_v668 : Ref sig .tc := ⟨.hbm, 893, rfl⟩
abbrev main_v669 : Ref sig .tc := ⟨.hbm, 894, rfl⟩
abbrev main_v670 : Ref sig .tc := ⟨.hbm, 895, rfl⟩
abbrev main_v671 : Ref sig .tc := ⟨.hbm, 896, rfl⟩
abbrev main_v672 : Ref sig .tc := ⟨.hbm, 897, rfl⟩
abbrev main_v673 : Ref sig .tc := ⟨.hbm, 898, rfl⟩
abbrev main_v674 : Ref sig .tc := ⟨.hbm, 899, rfl⟩
abbrev main_v675 : Ref sig .tc := ⟨.hbm, 900, rfl⟩
abbrev main_v676 : Ref sig .tc := ⟨.hbm, 901, rfl⟩
abbrev main_v677 : Ref sig .tc := ⟨.hbm, 902, rfl⟩
abbrev main_v678 : Ref sig .tc := ⟨.hbm, 903, rfl⟩
abbrev main_v679 : Ref sig .tc := ⟨.hbm, 904, rfl⟩
abbrev main_v680 : Ref sig .tc := ⟨.hbm, 905, rfl⟩
abbrev main_v681 : Ref sig .tc := ⟨.hbm, 906, rfl⟩
abbrev main_v682 : Ref sig .tc := ⟨.hbm, 907, rfl⟩
abbrev main_v683 : Ref sig .tc := ⟨.hbm, 908, rfl⟩
abbrev main_v684 : Ref sig .tc := ⟨.hbm, 909, rfl⟩
abbrev main_v685 : Ref sig .tc := ⟨.hbm, 910, rfl⟩
abbrev main_v686 : Ref sig .tc := ⟨.hbm, 911, rfl⟩
abbrev main_v687 : Ref sig .tc := ⟨.hbm, 912, rfl⟩
abbrev main_v688 : Ref sig .tc := ⟨.hbm, 913, rfl⟩
abbrev main_v689 : Ref sig .tc := ⟨.hbm, 914, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x132x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x132x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x132x132 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S96x32x128x128_S8x12x32x128x128 : S96x32x128x128.ShapeCasts S8x12x32x128x128
  slices_S8x12x32x128x128_S8x1x32x128x128_0_0_0_0_0 : S8x12x32x128x128.Slices ![0, 0, 0, 0, 0] S8x1x32x128x128
  shapeCasts_S8x1x32x128x128_S8x32x128x128 : S8x1x32x128x128.ShapeCasts S8x32x128x128
  slices_S8x12x32x128x128_S8x1x32x128x128_0_1_0_0_0 : S8x12x32x128x128.Slices ![0, 1, 0, 0, 0] S8x1x32x128x128
  slices_S8x12x32x128x128_S8x1x32x128x128_0_2_0_0_0 : S8x12x32x128x128.Slices ![0, 2, 0, 0, 0] S8x1x32x128x128
  slices_S8x12x32x128x128_S8x1x32x128x128_0_3_0_0_0 : S8x12x32x128x128.Slices ![0, 3, 0, 0, 0] S8x1x32x128x128
  slices_S8x12x32x128x128_S8x1x32x128x128_0_4_0_0_0 : S8x12x32x128x128.Slices ![0, 4, 0, 0, 0] S8x1x32x128x128
  slices_S8x12x32x128x128_S8x1x32x128x128_0_5_0_0_0 : S8x12x32x128x128.Slices ![0, 5, 0, 0, 0] S8x1x32x128x128
  slices_S8x12x32x128x128_S8x1x32x128x128_0_6_0_0_0 : S8x12x32x128x128.Slices ![0, 6, 0, 0, 0] S8x1x32x128x128
  slices_S8x12x32x128x128_S8x1x32x128x128_0_7_0_0_0 : S8x12x32x128x128.Slices ![0, 7, 0, 0, 0] S8x1x32x128x128
  slices_S8x12x32x128x128_S8x1x32x128x128_0_8_0_0_0 : S8x12x32x128x128.Slices ![0, 8, 0, 0, 0] S8x1x32x128x128
  slices_S8x12x32x128x128_S8x1x32x128x128_0_9_0_0_0 : S8x12x32x128x128.Slices ![0, 9, 0, 0, 0] S8x1x32x128x128
  slices_S8x12x32x128x128_S8x1x32x128x128_0_10_0_0_0 : S8x12x32x128x128.Slices ![0, 10, 0, 0, 0] S8x1x32x128x128
  slices_S8x12x32x128x128_S8x1x32x128x128_0_11_0_0_0 : S8x12x32x128x128.Slices ![0, 11, 0, 0, 0] S8x1x32x128x128
  slices_S8x32x128x128_S8x32x128x2_0_0_0_0 : S8x32x128x128.Slices ![0, 0, 0, 0] S8x32x128x2
  transposes_S8x32x128x2_S8x32x2x128_0_1_3_2 : S8x32x128x2.Transposes [0, 1, 3, 2] S8x32x2x128
  slices_S8x32x128x128_S8x32x2x128_0_0_0_0 : S8x32x128x128.Slices ![0, 0, 0, 0] S8x32x2x128
  slices_S8x32x128x128_S8x32x2x2_0_0_0_0 : S8x32x128x128.Slices ![0, 0, 0, 0] S8x32x2x2
  transposes_S8x32x2x128_S8x32x128x2_0_1_3_2 : S8x32x2x128.Transposes [0, 1, 3, 2] S8x32x128x2
  slices_S8x32x128x128_S8x32x2x2_0_0_0_126 : S8x32x128x128.Slices ![0, 0, 0, 126] S8x32x2x2
  bcast_S_S8x32x132x2 : S_.BroadcastsInDim S8x32x132x2 (![] : Fin 0 → Fin S8x32x132x2.rank)
  bcast_S_S1 : S_.BroadcastsInDim S1 (![] : Fin 0 → Fin S1.rank)
  slices_S8x32x128x128_S8x32x2x2_0_0_126_0 : S8x32x128x128.Slices ![0, 0, 126, 0] S8x32x2x2
  bcast_S_S8x32x2x2 : S_.BroadcastsInDim S8x32x2x2 (![] : Fin 0 → Fin S8x32x2x2.rank)
  slices_S8x32x2x2_S8x32x1x1_0_0_1_0 : S8x32x2x2.Slices ![0, 0, 1, 0] S8x32x1x1
  shapeCasts_S8x32x1x1_S8x32 : S8x32x1x1.ShapeCasts S8x32
  bcast_S_S8x32 : S_.BroadcastsInDim S8x32 (![] : Fin 0 → Fin S8x32.rank)
  slices_S8x32x2x2_S8x32x1x1_0_0_0_1 : S8x32x2x2.Slices ![0, 0, 0, 1] S8x32x1x1
  concatenates_S1_S1_S2_d0 : Shape.Concatenates [S1, S1] S2 0
  slices_S8x32x2x2_S8x32x1x1_0_0_0_0 : S8x32x2x2.Slices ![0, 0, 0, 0] S8x32x1x1
  shapeCasts_S8x32x1x1_S8x32x1 : S8x32x1x1.ShapeCasts S8x32x1
  slices_S8x32x2x2_S8x32x1x1_0_0_1_1 : S8x32x2x2.Slices ![0, 0, 1, 1] S8x32x1x1
  slices_S8x32x128x128_S8x32x2x128_0_0_126_0 : S8x32x128x128.Slices ![0, 0, 126, 0] S8x32x2x128
  slices_S8x32x128x128_S8x32x128x2_0_0_0_126 : S8x32x128x128.Slices ![0, 0, 0, 126] S8x32x128x2
  slices_S8x32x128x128_S8x32x2x2_0_0_126_126 : S8x32x128x128.Slices ![0, 0, 126, 126] S8x32x2x2
  bcast_S8x32x2x128_S8x1x32x2x128_0_2_3_4 : S8x32x2x128.BroadcastsInDim S8x1x32x2x128 (![0, 2, 3, 4] : Fin 4 → Fin S8x1x32x2x128.rank)
  concatenates_S8x1x32x2x128_S8x1x32x2x128_S8x1x32x2x128_S8x1x32x2x128_S8x1x32x2x128_S8x1x32x2x128_S8x1x32x2x128_S8x1x32x2x128_S8x1x32x2x128_S8x1x32x2x128_S8x1x32x2x128_S8x1x32x2x128_S8x12x32x2x128_d1 : Shape.Concatenates [S8x1x32x2x128, S8x1x32x2x128, S8x1x32x2x128, S8x1x32x2x128, S8x1x32x2x128, S8x1x32x2x128, S8x1x32x2x128, S8x1x32x2x128, S8x1x32x2x128, S8x1x32x2x128, S8x1x32x2x128, S8x1x32x2x128] S8x12x32x2x128 1
  shapeCasts_S8x12x32x2x128_S96x32x2x128 : S8x12x32x2x128.ShapeCasts S96x32x2x128
  bcast_S8x32x132x2_S8x1x32x132x2_0_2_3_4 : S8x32x132x2.BroadcastsInDim S8x1x32x132x2 (![0, 2, 3, 4] : Fin 4 → Fin S8x1x32x132x2.rank)
  concatenates_S8x1x32x132x2_S8x1x32x132x2_S8x1x32x132x2_S8x1x32x132x2_S8x1x32x132x2_S8x1x32x132x2_S8x1x32x132x2_S8x1x32x132x2_S8x1x32x132x2_S8x1x32x132x2_S8x1x32x132x2_S8x1x32x132x2_S8x12x32x132x2_d1 : Shape.Concatenates [S8x1x32x132x2, S8x1x32x132x2, S8x1x32x132x2, S8x1x32x132x2, S8x1x32x132x2, S8x1x32x132x2, S8x1x32x132x2, S8x1x32x132x2, S8x1x32x132x2, S8x1x32x132x2, S8x1x32x132x2, S8x1x32x132x2] S8x12x32x132x2 1
  shapeCasts_S8x12x32x132x2_S96x32x132x2 : S8x12x32x132x2.ShapeCasts S96x32x132x2
  inb_S1x32x128x128_S1x32x128x128_0_0_0_0 : ∀ a, (![0, 0, 0, 0] : Fin 4 → Nat) a + S1x32x128x128.size a ≤ S1x32x128x128.size a
  h_S1x32x128x128 : 0 < S1x32x128x128.numel
  inb_S1x32x2x128_S1x32x2x128_0_0_0_0 : ∀ a, (![0, 0, 0, 0] : Fin 4 → Nat) a + S1x32x2x128.size a ≤ S1x32x2x128.size a
  h_S1x32x2x128 : 0 < S1x32x2x128.numel
  shapeCasts_S1x32x2x128_S1x32x2x128 : S1x32x2x128.ShapeCasts S1x32x2x128
  inb_S1x32x132x2_S1x32x132x2_0_0_0_0 : ∀ a, (![0, 0, 0, 0] : Fin 4 → Nat) a + S1x32x132x2.size a ≤ S1x32x132x2.size a
  h_S1x32x132x2 : 0 < S1x32x132x2.numel
  shapeCasts_S1x32x132x2_S1x32x132x2 : S1x32x132x2.ShapeCasts S1x32x132x2
  concatenates_S1x32x2x128_S1x32x128x128_S1x32x2x128_S1x32x132x128_d2 : Shape.Concatenates [S1x32x2x128, S1x32x128x128, S1x32x2x128] S1x32x132x128 2
  concatenates_S1x32x132x2_S1x32x132x128_S1x32x132x2_S1x32x132x132_d3 : Shape.Concatenates [S1x32x132x2, S1x32x132x128, S1x32x132x2] S1x32x132x132 3
  inb_S1x32x132x132_S1x32x132x132_0_0_0_0 : ∀ a, (![0, 0, 0, 0] : Fin 4 → Nat) a + S1x32x132x132.size a ≤ S1x32x132x132.size a
  h_S1x32x132x132 : 0 < S1x32x132x132.numel
  scatter_S8x32x132x2_S1_S8x32x2x2_0123_n_2_0_wf : ScatterDims.WF S8x32x132x2 S1 S8x32x2x2 [0, 1, 2, 3] [] [2] 0
  scatter_S8x32x132x2_S1_S8x32x128x2_0123_n_2_0_wf : ScatterDims.WF S8x32x132x2 S1 S8x32x128x2 [0, 1, 2, 3] [] [2] 0
  scatter_S8x32x2x2_S2_S8x32_01_23_23_0_wf : ScatterDims.WF S8x32x2x2 S2 S8x32 [0, 1] [2, 3] [2, 3] 0
  scatter_S8x32x2x2_S2_S8x32x1_012_2_23_0_wf : ScatterDims.WF S8x32x2x2 S2 S8x32x1 [0, 1, 2] [2] [2, 3] 0
  scatter_S8x32x2x2_S2_S8x32x1_012_3_23_0_wf : ScatterDims.WF S8x32x2x2 S2 S8x32x1 [0, 1, 2] [3] [2, 3] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x128.size a ≤ S96x32x128x128.size a
  hwx0_0 : ∀ i : grid0.Coords, EltTy.bits .f32 = 32 ∨ (Rect.block (s := S96x32x128x128) S1x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x2x128.size a ≤ S96x32x2x128.size a
  hwx0_1 : ∀ i : grid0.Coords, EltTy.bits .f32 = 32 ∨ (Rect.block (s := S96x32x2x128) S1x32x2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2x128.size a ≤ S96x32x2x128.size a
  hwx0_2 : ∀ i : grid0.Coords, EltTy.bits .f32 = 32 ∨ (Rect.block (s := S96x32x2x128) S1x32x2x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x132x2.size a ≤ S96x32x132x2.size a
  hwx0_3 : ∀ i : grid0.Coords, EltTy.bits .f32 = 32 ∨ (Rect.block (s := S96x32x132x2) S1x32x132x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x132x2.size a ≤ S96x32x132x2.size a
  hwx0_4 : ∀ i : grid0.Coords, EltTy.bits .f32 = 32 ∨ (Rect.block (s := S96x32x132x2) S1x32x132x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x132x132.size a ≤ S96x32x132x132.size a
  hwx0_5 : ∀ i : grid0.Coords, EltTy.bits .f32 = 32 ∨ (Rect.block (s := S96x32x132x132) S1x32x132x132.size (cc0_transform_5 i) (hinb0_5 i)).WholeWords (EltTy.packing .f32)

variable [Facts₀]

def scatter_S8x32x132x2_S1_S8x32x2x2_0123_n_2_0 : ScatterDims S8x32x132x2 S1 S8x32x2x2 where
  updateWindowDims := [0, 1, 2, 3]
  insertedWindowDims := []
  scatterDimsToOperandDims := [2]
  indexVectorDim := 0
  wf := scatter_S8x32x132x2_S1_S8x32x2x2_0123_n_2_0_wf
def scatter_S8x32x132x2_S1_S8x32x128x2_0123_n_2_0 : ScatterDims S8x32x132x2 S1 S8x32x128x2 where
  updateWindowDims := [0, 1, 2, 3]
  insertedWindowDims := []
  scatterDimsToOperandDims := [2]
  indexVectorDim := 0
  wf := scatter_S8x32x132x2_S1_S8x32x128x2_0123_n_2_0_wf
def scatter_S8x32x2x2_S2_S8x32_01_23_23_0 : ScatterDims S8x32x2x2 S2 S8x32 where
  updateWindowDims := [0, 1]
  insertedWindowDims := [2, 3]
  scatterDimsToOperandDims := [2, 3]
  indexVectorDim := 0
  wf := scatter_S8x32x2x2_S2_S8x32_01_23_23_0_wf
def scatter_S8x32x2x2_S2_S8x32x1_012_2_23_0 : ScatterDims S8x32x2x2 S2 S8x32x1 where
  updateWindowDims := [0, 1, 2]
  insertedWindowDims := [2]
  scatterDimsToOperandDims := [2, 3]
  indexVectorDim := 0
  wf := scatter_S8x32x2x2_S2_S8x32x1_012_2_23_0_wf
def scatter_S8x32x2x2_S2_S8x32x1_012_3_23_0 : ScatterDims S8x32x2x2 S2 S8x32x1 where
  updateWindowDims := [0, 1, 2]
  insertedWindowDims := [3]
  scatterDimsToOperandDims := [2, 3]
  indexVectorDim := 0
  wf := scatter_S8x32x2x2_S2_S8x32x1_012_3_23_0_wf

abbrev win0_0 : Pipeline.Window sig grid0 :=
  Pipeline.Window.ofSpec (Memref.whole main_arg0) S1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v646) S1x32x2x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v660) S1x32x2x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v674) S1x32x132x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v688) S1x32x132x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v689) S1x32x132x132.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S96x32x128x128 : Shape := ⟨4, ![96, 32, 128, 128]⟩
abbrev S8x12x32x128x128 : Shape := ⟨5, ![8, 12, 32, 128, 128]⟩
abbrev S8x1x32x128x128 : Shape := ⟨5, ![8, 1, 32, 128, 128]⟩
abbrev S8x32x128x128 : Shape := ⟨4, ![8, 32, 128, 128]⟩
abbrev S8x32x2x128 : Shape := ⟨4, ![8, 32, 2, 128]⟩
abbrev S8x32x132x128 : Shape := ⟨4, ![8, 32, 132, 128]⟩
abbrev S8x32x2x2 : Shape := ⟨4, ![8, 32, 2, 2]⟩
abbrev S8x32x128x2 : Shape := ⟨4, ![8, 32, 128, 2]⟩
abbrev S8x32x132x2 : Shape := ⟨4, ![8, 32, 132, 2]⟩
abbrev S8x32x132x132 : Shape := ⟨4, ![8, 32, 132, 132]⟩
abbrev S_ : Shape := ⟨0, ![]⟩
abbrev S8x32x1x1 : Shape := ⟨4, ![8, 32, 1, 1]⟩
abbrev S8x32 : Shape := ⟨2, ![8, 32]⟩
abbrev S1 : Shape := ⟨1, ![1]⟩
abbrev S2 : Shape := ⟨1, ![2]⟩
abbrev S8x32x1 : Shape := ⟨3, ![8, 32, 1]⟩
abbrev S8x1x32x132x132 : Shape := ⟨5, ![8, 1, 32, 132, 132]⟩
abbrev S8x12x32x132x132 : Shape := ⟨5, ![8, 12, 32, 132, 132]⟩
abbrev S96x32x132x132 : Shape := ⟨4, ![96, 32, 132, 132]⟩

abbrev nBuf : Space → Nat
  | .hbm => 640
  | .vmem => 0
  | .smem => 0
  | _ => 0

abbrev hbmTy0_0 (i : Nat) : BufTy := match i % 128 with
  | 0 => ⟨S96x32x128x128, .f32⟩
  | 1 => ⟨S8x12x32x128x128, .f32⟩
  | 2 => ⟨S8x1x32x128x128, .f32⟩
  | 3 => ⟨S8x32x128x128, .f32⟩
  | 4 => ⟨S8x1x32x128x128, .f32⟩
  | 5 => ⟨S8x32x128x128, .f32⟩
  | 6 => ⟨S8x1x32x128x128, .f32⟩
  | 7 => ⟨S8x32x128x128, .f32⟩
  | 8 => ⟨S8x1x32x128x128, .f32⟩
  | 9 => ⟨S8x32x128x128, .f32⟩
  | 10 => ⟨S8x1x32x128x128, .f32⟩
  | 11 => ⟨S8x32x128x128, .f32⟩
  | 12 => ⟨S8x1x32x128x128, .f32⟩
  | 13 => ⟨S8x32x128x128, .f32⟩
  | 14 => ⟨S8x1x32x128x128, .f32⟩
  | 15 => ⟨S8x32x128x128, .f32⟩
  | 16 => ⟨S8x1x32x128x128, .f32⟩
  | 17 => ⟨S8x32x128x128, .f32⟩
  | 18 => ⟨S8x1x32x128x128, .f32⟩
  | 19 => ⟨S8x32x128x128, .f32⟩
  | 20 => ⟨S8x1x32x128x128, .f32⟩
  | 21 => ⟨S8x32x128x128, .f32⟩
  | 22 => ⟨S8x1x32x128x128, .f32⟩
  | 23 => ⟨S8x32x128x128, .f32⟩
  | 24 => ⟨S8x1x32x128x128, .f32⟩
  | 25 => ⟨S8x32x128x128, .f32⟩
  | 26 => ⟨S8x32x128x128, .f32⟩
  | 27 => ⟨S8x32x128x128, .f32⟩
  | 28 => ⟨S8x32x2x128, .f32⟩
  | 29 => ⟨S8x32x2x128, .f32⟩
  | 30 => ⟨S8x32x132x128, .f32⟩
  | 31 => ⟨S8x32x128x128, .f32⟩
  | 32 => ⟨S8x32x128x128, .f32⟩
  | 33 => ⟨S8x32x2x2, .f32⟩
  | 34 => ⟨S8x32x128x128, .f32⟩
  | 35 => ⟨S8x32x128x128, .f32⟩
  | 36 => ⟨S8x32x128x2, .f32⟩
  | 37 => ⟨S8x32x2x2, .f32⟩
  | 38 => ⟨S8x32x132x2, .f32⟩
  | 39 => ⟨S8x32x2x2, .f32⟩
  | 40 => ⟨S8x32x128x2, .f32⟩
  | 41 => ⟨S8x32x2x2, .f32⟩
  | 42 => ⟨S8x32x132x2, .f32⟩
  | 43 => ⟨S8x32x132x132, .f32⟩
  | 44 => ⟨S8x32x128x128, .f32⟩
  | 45 => ⟨S8x32x128x128, .f32⟩
  | 46 => ⟨S8x32x2x128, .f32⟩
  | 47 => ⟨S8x32x2x128, .f32⟩
  | 48 => ⟨S8x32x132x128, .f32⟩
  | 49 => ⟨S8x32x128x128, .f32⟩
  | 50 => ⟨S8x32x128x128, .f32⟩
  | 51 => ⟨S8x32x2x2, .f32⟩
  | 52 => ⟨S8x32x128x128, .f32⟩
  | 53 => ⟨S8x32x128x128, .f32⟩
  | 54 => ⟨S8x32x128x2, .f32⟩
  | 55 => ⟨S8x32x2x2, .f32⟩
  | 56 => ⟨S8x32x132x2, .f32⟩
  | 57 => ⟨S8x32x2x2, .f32⟩
  | 58 => ⟨S8x32x128x2, .f32⟩
  | 59 => ⟨S8x32x2x2, .f32⟩
  | 60 => ⟨S8x32x132x2, .f32⟩
  | 61 => ⟨S8x32x132x132, .f32⟩
  | 62 => ⟨S8x32x128x128, .f32⟩
  | 63 => ⟨S8x32x128x128, .f32⟩
  | 64 => ⟨S8x32x2x128, .f32⟩
  | 65 => ⟨S8x32x2x128, .f32⟩
  | 66 => ⟨S8x32x132x128, .f32⟩
  | 67 => ⟨S8x32x128x128, .f32⟩
  | 68 => ⟨S8x32x128x128, .f32⟩
  | 69 => ⟨S8x32x2x2, .f32⟩
  | 70 => ⟨S8x32x128x128, .f32⟩
  | 71 => ⟨S8x32x128x128, .f32⟩
  | 72 => ⟨S8x32x128x2, .f32⟩
  | 73 => ⟨S8x32x2x2, .f32⟩
  | 74 => ⟨S8x32x132x2, .f32⟩
  | 75 => ⟨S8x32x2x2, .f32⟩
  | 76 => ⟨S8x32x128x2, .f32⟩
  | 77 => ⟨S8x32x2x2, .f32⟩
  | 78 => ⟨S8x32x132x2, .f32⟩
  | 79 => ⟨S8x32x132x132, .f32⟩
  | 80 => ⟨S8x32x128x128, .f32⟩
  | 81 => ⟨S8x32x128x128, .f32⟩
  | 82 => ⟨S8x32x2x128, .f32⟩
  | 83 => ⟨S8x32x2x128, .f32⟩
  | 84 => ⟨S8x32x132x128, .f32⟩
  | 85 => ⟨S8x32x128x128, .f32⟩
  | 86 => ⟨S8x32x128x128, .f32⟩
  | 87 => ⟨S8x32x2x2, .f32⟩
  | 88 => ⟨S8x32x128x128, .f32⟩
  | 89 => ⟨S8x32x128x128, .f32⟩
  | 90 => ⟨S8x32x128x2, .f32⟩
  | 91 => ⟨S8x32x2x2, .f32⟩
  | 92 => ⟨S8x32x132x2, .f32⟩
  | 93 => ⟨S8x32x2x2, .f32⟩
  | 94 => ⟨S8x32x128x2, .f32⟩
  | 95 => ⟨S8x32x2x2, .f32⟩
  | 96 => ⟨S8x32x132x2, .f32⟩
  | 97 => ⟨S8x32x132x132, .f32⟩
  | 98 => ⟨S_, .f32⟩
  | 99 => ⟨S8x32x2x2, .f32⟩
  | 100 => ⟨S8x32x1x1, .f32⟩
  | 101 => ⟨S8x32, .f32⟩
  | 102 => ⟨S_, .f32⟩
  | 103 => ⟨S8x32, .f32⟩
  | 104 => ⟨S8x32, .f32⟩
  | 105 => ⟨S8x32x1x1, .f32⟩
  | 106 => ⟨S8x32, .f32⟩
  | 107 => ⟨S_, .f32⟩
  | 108 => ⟨S8x32, .f32⟩
  | 109 => ⟨S8x32, .f32⟩
  | 110 => ⟨S8x32, .f32⟩
  | 111 => ⟨S_, .i32⟩
  | 112 => ⟨S1, .i32⟩
  | 113 => ⟨S_, .i32⟩
  | 114 => ⟨S1, .i32⟩
  | 115 => ⟨S2, .i32⟩
  | 116 => ⟨S8x32x2x2, .f32⟩
  | 117 => ⟨S8x32x1x1, .f32⟩
  | 118 => ⟨S8x32x1, .f32⟩
  | 119 => ⟨S_, .i32⟩
  | 120 => ⟨S1, .i32⟩
  | 121 => ⟨S_, .i32⟩
  | 122 => ⟨S1, .i32⟩
  | 123 => ⟨S2, .i32⟩
  | 124 => ⟨S8x32x2x2, .f32⟩
  | 125 => ⟨S8x32x1x1, .f32⟩
  | 126 => ⟨S8x32x1, .f32⟩
  | 127 => ⟨S_, .i32⟩
  | _ => ⟨S96x32x128x128, .f32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S8x32x2x2, .f32⟩
  | 5 => ⟨S8x32x1x1, .f32⟩
  | 6 => ⟨S8x32, .f32⟩
  | 7 => ⟨S_, .f32⟩
  | 8 => ⟨S8x32, .f32⟩
  | 9 => ⟨S8x32, .f32⟩
  | 10 => ⟨S8x32x1x1, .f32⟩
  | 11 => ⟨S8x32, .f32⟩
  | 12 => ⟨S_, .f32⟩
  | 13 => ⟨S8x32, .f32⟩
  | 14 => ⟨S8x32, .f32⟩
  | 15 => ⟨S8x32, .f32⟩
  | 16 => ⟨S_, .i32⟩
  | 17 => ⟨S1, .i32⟩
  | 18 => ⟨S_, .i32⟩
  | 19 => ⟨S1, .i32⟩
  | 20 => ⟨S2, .i32⟩
  | 21 => ⟨S8x32x2x2, .f32⟩
  | 22 => ⟨S_, .f32⟩
  | 23 => ⟨S8x32x2x2, .f32⟩
  | 24 => ⟨S8x32x1x1, .f32⟩
  | 25 => ⟨S8x32, .f32⟩
  | 26 => ⟨S_, .f32⟩
  | 27 => ⟨S8x32, .f32⟩
  | 28 => ⟨S8x32, .f32⟩
  | 29 => ⟨S8x32x1x1, .f32⟩
  | 30 => ⟨S8x32, .f32⟩
  | 31 => ⟨S_, .f32⟩
  | 32 => ⟨S8x32, .f32⟩
  | 33 => ⟨S8x32, .f32⟩
  | 34 => ⟨S8x32, .f32⟩
  | 35 => ⟨S_, .i32⟩
  | 36 => ⟨S1, .i32⟩
  | 37 => ⟨S_, .i32⟩
  | 38 => ⟨S1, .i32⟩
  | 39 => ⟨S2, .i32⟩
  | 40 => ⟨S8x32x2x2, .f32⟩
  | 41 => ⟨S8x32x1x1, .f32⟩
  | 42 => ⟨S8x32x1, .f32⟩
  | 43 => ⟨S_, .i32⟩
  | 44 => ⟨S1, .i32⟩
  | 45 => ⟨S_, .i32⟩
  | 46 => ⟨S1, .i32⟩
  | 47 => ⟨S2, .i32⟩
  | 48 => ⟨S8x32x2x2, .f32⟩
  | 49 => ⟨S8x32x1x1, .f32⟩
  | 50 => ⟨S8x32x1, .f32⟩
  | 51 => ⟨S_, .i32⟩
  | 52 => ⟨S1, .i32⟩
  | 53 => ⟨S_, .i32⟩
  | 54 => ⟨S1, .i32⟩
  | 55 => ⟨S2, .i32⟩
  | 56 => ⟨S8x32x2x2, .f32⟩
  | 57 => ⟨S8x32x1x1, .f32⟩
  | 58 => ⟨S8x32, .f32⟩
  | 59 => ⟨S_, .f32⟩
  | 60 => ⟨S8x32, .f32⟩
  | 61 => ⟨S8x32, .f32⟩
  | 62 => ⟨S8x32x1x1, .f32⟩
  | 63 => ⟨S8x32, .f32⟩
  | 64 => ⟨S_, .f32⟩
  | 65 => ⟨S8x32, .f32⟩
  | 66 => ⟨S8x32, .f32⟩
  | 67 => ⟨S8x32, .f32⟩
  | 68 => ⟨S_, .i32⟩
  | 69 => ⟨S1, .i32⟩
  | 70 => ⟨S_, .i32⟩
  | 71 => ⟨S1, .i32⟩
  | 72 => ⟨S2, .i32⟩
  | 73 => ⟨S8x32x2x2, .f32⟩
  | 74 => ⟨S8x32x2x128, .f32⟩
  | 75 => ⟨S8x32x2x128, .f32⟩
  | 76 => ⟨S8x32x132x128, .f32⟩
  | 77 => ⟨S8x32x128x2, .f32⟩
  | 78 => ⟨S8x32x2x2, .f32⟩
  | 79 => ⟨S8x32x132x2, .f32⟩
  | 80 => ⟨S8x32x2x2, .f32⟩
  | 81 => ⟨S8x32x128x2, .f32⟩
  | 82 => ⟨S8x32x132x2, .f32⟩
  | 83 => ⟨S8x32x132x132, .f32⟩
  | 84 => ⟨S_, .f32⟩
  | 85 => ⟨S8x32x2x2, .f32⟩
  | 86 => ⟨S8x32x1x1, .f32⟩
  | 87 => ⟨S8x32, .f32⟩
  | 88 => ⟨S_, .f32⟩
  | 89 => ⟨S8x32, .f32⟩
  | 90 => ⟨S8x32, .f32⟩
  | 91 => ⟨S8x32x1x1, .f32⟩
  | 92 => ⟨S8x32, .f32⟩
  | 93 => ⟨S_, .f32⟩
  | 94 => ⟨S8x32, .f32⟩
  | 95 => ⟨S8x32, .f32⟩
  | 96 => ⟨S8x32, .f32⟩
  | 97 => ⟨S_, .i32⟩
  | 98 => ⟨S1, .i32⟩
  | 99 => ⟨S_, .i32⟩
  | 100 => ⟨S1, .i32⟩
  | 101 => ⟨S2, .i32⟩
  | 102 => ⟨S8x32x2x2, .f32⟩
  | 103 => ⟨S8x32x1x1, .f32⟩
  | 104 => ⟨S8x32x1, .f32⟩
  | 105 => ⟨S_, .i32⟩
  | 106 => ⟨S1, .i32⟩
  | 107 => ⟨S_, .i32⟩
  | 108 => ⟨S1, .i32⟩
  | 109 => ⟨S2, .i32⟩
  | 110 => ⟨S8x32x2x2, .f32⟩
  | 111 => ⟨S8x32x1x1, .f32⟩
  | 112 => ⟨S8x32x1, .f32⟩
  | 113 => ⟨S_, .i32⟩
  | 114 => ⟨S1, .i32⟩
  | 115 => ⟨S_, .i32⟩
  | 116 => ⟨S1, .i32⟩
  | 117 => ⟨S2, .i32⟩
  | 118 => ⟨S8x32x2x2, .f32⟩
  | 119 => ⟨S8x32x1x1, .f32⟩
  | 120 => ⟨S8x32, .f32⟩
  | 121 => ⟨S_, .f32⟩
  | 122 => ⟨S8x32, .f32⟩
  | 123 => ⟨S8x32, .f32⟩
  | 124 => ⟨S8x32x1x1, .f32⟩
  | 125 => ⟨S8x32, .f32⟩
  | 126 => ⟨S_, .f32⟩
  | 127 => ⟨S8x32, .f32⟩
  | _ => ⟨S96x32x128x128, .f32⟩

abbrev hbmTy0_2 (i : Nat) : BufTy := match i % 128 with
  | 0 => ⟨S8x32, .f32⟩
  | 1 => ⟨S8x32, .f32⟩
  | 2 => ⟨S_, .i32⟩
  | 3 => ⟨S1, .i32⟩
  | 4 => ⟨S_, .i32⟩
  | 5 => ⟨S1, .i32⟩
  | 6 => ⟨S2, .i32⟩
  | 7 => ⟨S8x32x2x2, .f32⟩
  | 8 => ⟨S_, .f32⟩
  | 9 => ⟨S8x32x2x2, .f32⟩
  | 10 => ⟨S8x32x1x1, .f32⟩
  | 11 => ⟨S8x32, .f32⟩
  | 12 => ⟨S_, .f32⟩
  | 13 => ⟨S8x32, .f32⟩
  | 14 => ⟨S8x32, .f32⟩
  | 15 => ⟨S8x32x1x1, .f32⟩
  | 16 => ⟨S8x32, .f32⟩
  | 17 => ⟨S_, .f32⟩
  | 18 => ⟨S8x32, .f32⟩
  | 19 => ⟨S8x32, .f32⟩
  | 20 => ⟨S8x32, .f32⟩
  | 21 => ⟨S_, .i32⟩
  | 22 => ⟨S1, .i32⟩
  | 23 => ⟨S_, .i32⟩
  | 24 => ⟨S1, .i32⟩
  | 25 => ⟨S2, .i32⟩
  | 26 => ⟨S8x32x2x2, .f32⟩
  | 27 => ⟨S8x32x1x1, .f32⟩
  | 28 => ⟨S8x32x1, .f32⟩
  | 29 => ⟨S_, .i32⟩
  | 30 => ⟨S1, .i32⟩
  | 31 => ⟨S_, .i32⟩
  | 32 => ⟨S1, .i32⟩
  | 33 => ⟨S2, .i32⟩
  | 34 => ⟨S8x32x2x2, .f32⟩
  | 35 => ⟨S8x32x1x1, .f32⟩
  | 36 => ⟨S8x32x1, .f32⟩
  | 37 => ⟨S_, .i32⟩
  | 38 => ⟨S1, .i32⟩
  | 39 => ⟨S_, .i32⟩
  | 40 => ⟨S1, .i32⟩
  | 41 => ⟨S2, .i32⟩
  | 42 => ⟨S8x32x2x2, .f32⟩
  | 43 => ⟨S8x32x1x1, .f32⟩
  | 44 => ⟨S8x32, .f32⟩
  | 45 => ⟨S_, .f32⟩
  | 46 => ⟨S8x32, .f32⟩
  | 47 => ⟨S8x32, .f32⟩
  | 48 => ⟨S8x32x1x1, .f32⟩
  | 49 => ⟨S8x32, .f32⟩
  | 50 => ⟨S_, .f32⟩
  | 51 => ⟨S8x32, .f32⟩
  | 52 => ⟨S8x32, .f32⟩
  | 53 => ⟨S8x32, .f32⟩
  | 54 => ⟨S_, .i32⟩
  | 55 => ⟨S1, .i32⟩
  | 56 => ⟨S_, .i32⟩
  | 57 => ⟨S1, .i32⟩
  | 58 => ⟨S2, .i32⟩
  | 59 => ⟨S8x32x2x2, .f32⟩
  | 60 => ⟨S8x32x2x128, .f32⟩
  | 61 => ⟨S8x32x2x128, .f32⟩
  | 62 => ⟨S8x32x132x128, .f32⟩
  | 63 => ⟨S8x32x128x2, .f32⟩
  | 64 => ⟨S8x32x2x2, .f32⟩
  | 65 => ⟨S8x32x132x2, .f32⟩
  | 66 => ⟨S8x32x2x2, .f32⟩
  | 67 => ⟨S8x32x128x2, .f32⟩
  | 68 => ⟨S8x32x132x2, .f32⟩
  | 69 => ⟨S8x32x132x132, .f32⟩
  | 70 => ⟨S_, .f32⟩
  | 71 => ⟨S8x32x2x2, .f32⟩
  | 72 => ⟨S8x32x1x1, .f32⟩
  | 73 => ⟨S8x32, .f32⟩
  | 74 => ⟨S_, .f32⟩
  | 75 => ⟨S8x32, .f32⟩
  | 76 => ⟨S8x32, .f32⟩
  | 77 => ⟨S8x32x1x1, .f32⟩
  | 78 => ⟨S8x32, .f32⟩
  | 79 => ⟨S_, .f32⟩
  | 80 => ⟨S8x32, .f32⟩
  | 81 => ⟨S8x32, .f32⟩
  | 82 => ⟨S8x32, .f32⟩
  | 83 => ⟨S_, .i32⟩
  | 84 => ⟨S1, .i32⟩
  | 85 => ⟨S_, .i32⟩
  | 86 => ⟨S1, .i32⟩
  | 87 => ⟨S2, .i32⟩
  | 88 => ⟨S8x32x2x2, .f32⟩
  | 89 => ⟨S8x32x1x1, .f32⟩
  | 90 => ⟨S8x32x1, .f32⟩
  | 91 => ⟨S_, .i32⟩
  | 92 => ⟨S1, .i32⟩
  | 93 => ⟨S_, .i32⟩
  | 94 => ⟨S1, .i32⟩
  | 95 => ⟨S2, .i32⟩
  | 96 => ⟨S8x32x2x2, .f32⟩
  | 97 => ⟨S8x32x1x1, .f32⟩
  | 98 => ⟨S8x32x1, .f32⟩
  | 99 => ⟨S_, .i32⟩
  | 100 => ⟨S1, .i32⟩
  | 101 => ⟨S_, .i32⟩
  | 102 => ⟨S1, .i32⟩
  | 103 => ⟨S2, .i32⟩
  | 104 => ⟨S8x32x2x2, .f32⟩
  | 105 => ⟨S8x32x1x1, .f32⟩
  | 106 => ⟨S8x32, .f32⟩
  | 107 => ⟨S_, .f32⟩
  | 108 => ⟨S8x32, .f32⟩
  | 109 => ⟨S8x32, .f32⟩
  | 110 => ⟨S8x32x1x1, .f32⟩
  | 111 => ⟨S8x32, .f32⟩
  | 112 => ⟨S_, .f32⟩
  | 113 => ⟨S8x32, .f32⟩
  | 114 => ⟨S8x32, .f32⟩
  | 115 => ⟨S8x32, .f32⟩
  | 116 => ⟨S_, .i32⟩
  | 117 => ⟨S1, .i32⟩
  | 118 => ⟨S_, .i32⟩
  | 119 => ⟨S1, .i32⟩
  | 120 => ⟨S2, .i32⟩
  | 121 => ⟨S8x32x2x2, .f32⟩
  | 122 => ⟨S_, .f32⟩
  | 123 => ⟨S8x32x2x2, .f32⟩
  | 124 => ⟨S8x32x1x1, .f32⟩
  | 125 => ⟨S8x32, .f32⟩
  | 126 => ⟨S_, .f32⟩
  | 127 => ⟨S8x32, .f32⟩
  | _ => ⟨S96x32x128x128, .f32⟩

abbrev hbmTy0_3 (i : Nat) : BufTy := match i % 128 with
  | 0 => ⟨S8x32, .f32⟩
  | 1 => ⟨S8x32x1x1, .f32⟩
  | 2 => ⟨S8x32, .f32⟩
  | 3 => ⟨S_, .f32⟩
  | 4 => ⟨S8x32, .f32⟩
  | 5 => ⟨S8x32, .f32⟩
  | 6 => ⟨S8x32, .f32⟩
  | 7 => ⟨S_, .i32⟩
  | 8 => ⟨S1, .i32⟩
  | 9 => ⟨S_, .i32⟩
  | 10 => ⟨S1, .i32⟩
  | 11 => ⟨S2, .i32⟩
  | 12 => ⟨S8x32x2x2, .f32⟩
  | 13 => ⟨S8x32x1x1, .f32⟩
  | 14 => ⟨S8x32x1, .f32⟩
  | 15 => ⟨S_, .i32⟩
  | 16 => ⟨S1, .i32⟩
  | 17 => ⟨S_, .i32⟩
  | 18 => ⟨S1, .i32⟩
  | 19 => ⟨S2, .i32⟩
  | 20 => ⟨S8x32x2x2, .f32⟩
  | 21 => ⟨S8x32x1x1, .f32⟩
  | 22 => ⟨S8x32x1, .f32⟩
  | 23 => ⟨S_, .i32⟩
  | 24 => ⟨S1, .i32⟩
  | 25 => ⟨S_, .i32⟩
  | 26 => ⟨S1, .i32⟩
  | 27 => ⟨S2, .i32⟩
  | 28 => ⟨S8x32x2x2, .f32⟩
  | 29 => ⟨S8x32x1x1, .f32⟩
  | 30 => ⟨S8x32, .f32⟩
  | 31 => ⟨S_, .f32⟩
  | 32 => ⟨S8x32, .f32⟩
  | 33 => ⟨S8x32, .f32⟩
  | 34 => ⟨S8x32x1x1, .f32⟩
  | 35 => ⟨S8x32, .f32⟩
  | 36 => ⟨S_, .f32⟩
  | 37 => ⟨S8x32, .f32⟩
  | 38 => ⟨S8x32, .f32⟩
  | 39 => ⟨S8x32, .f32⟩
  | 40 => ⟨S_, .i32⟩
  | 41 => ⟨S1, .i32⟩
  | 42 => ⟨S_, .i32⟩
  | 43 => ⟨S1, .i32⟩
  | 44 => ⟨S2, .i32⟩
  | 45 => ⟨S8x32x2x2, .f32⟩
  | 46 => ⟨S8x32x2x128, .f32⟩
  | 47 => ⟨S8x32x2x128, .f32⟩
  | 48 => ⟨S8x32x132x128, .f32⟩
  | 49 => ⟨S8x32x128x2, .f32⟩
  | 50 => ⟨S8x32x2x2, .f32⟩
  | 51 => ⟨S8x32x132x2, .f32⟩
  | 52 => ⟨S8x32x2x2, .f32⟩
  | 53 => ⟨S8x32x128x2, .f32⟩
  | 54 => ⟨S8x32x132x2, .f32⟩
  | 55 => ⟨S8x32x132x132, .f32⟩
  | 56 => ⟨S_, .f32⟩
  | 57 => ⟨S8x32x2x2, .f32⟩
  | 58 => ⟨S8x32x1x1, .f32⟩
  | 59 => ⟨S8x32, .f32⟩
  | 60 => ⟨S_, .f32⟩
  | 61 => ⟨S8x32, .f32⟩
  | 62 => ⟨S8x32, .f32⟩
  | 63 => ⟨S8x32x1x1, .f32⟩
  | 64 => ⟨S8x32, .f32⟩
  | 65 => ⟨S_, .f32⟩
  | 66 => ⟨S8x32, .f32⟩
  | 67 => ⟨S8x32, .f32⟩
  | 68 => ⟨S8x32, .f32⟩
  | 69 => ⟨S_, .i32⟩
  | 70 => ⟨S1, .i32⟩
  | 71 => ⟨S_, .i32⟩
  | 72 => ⟨S1, .i32⟩
  | 73 => ⟨S2, .i32⟩
  | 74 => ⟨S8x32x2x2, .f32⟩
  | 75 => ⟨S8x32x1x1, .f32⟩
  | 76 => ⟨S8x32x1, .f32⟩
  | 77 => ⟨S_, .i32⟩
  | 78 => ⟨S1, .i32⟩
  | 79 => ⟨S_, .i32⟩
  | 80 => ⟨S1, .i32⟩
  | 81 => ⟨S2, .i32⟩
  | 82 => ⟨S8x32x2x2, .f32⟩
  | 83 => ⟨S8x32x1x1, .f32⟩
  | 84 => ⟨S8x32x1, .f32⟩
  | 85 => ⟨S_, .i32⟩
  | 86 => ⟨S1, .i32⟩
  | 87 => ⟨S_, .i32⟩
  | 88 => ⟨S1, .i32⟩
  | 89 => ⟨S2, .i32⟩
  | 90 => ⟨S8x32x2x2, .f32⟩
  | 91 => ⟨S8x32x1x1, .f32⟩
  | 92 => ⟨S8x32, .f32⟩
  | 93 => ⟨S_, .f32⟩
  | 94 => ⟨S8x32, .f32⟩
  | 95 => ⟨S8x32, .f32⟩
  | 96 => ⟨S8x32x1x1, .f32⟩
  | 97 => ⟨S8x32, .f32⟩
  | 98 => ⟨S_, .f32⟩
  | 99 => ⟨S8x32, .f32⟩
  | 100 => ⟨S8x32, .f32⟩
  | 101 => ⟨S8x32, .f32⟩
  | 102 => ⟨S_, .i32⟩
  | 103 => ⟨S1, .i32⟩
  | 104 => ⟨S_, .i32⟩
  | 105 => ⟨S1, .i32⟩
  | 106 => ⟨S2, .i32⟩
  | 107 => ⟨S8x32x2x2, .f32⟩
  | 108 => ⟨S_, .f32⟩
  | 109 => ⟨S8x32x2x2, .f32⟩
  | 110 => ⟨S8x32x1x1, .f32⟩
  | 111 => ⟨S8x32, .f32⟩
  | 112 => ⟨S_, .f32⟩
  | 113 => ⟨S8x32, .f32⟩
  | 114 => ⟨S8x32, .f32⟩
  | 115 => ⟨S8x32x1x1, .f32⟩
  | 116 => ⟨S8x32, .f32⟩
  | 117 => ⟨S_, .f32⟩
  | 118 => ⟨S8x32, .f32⟩
  | 119 => ⟨S8x32, .f32⟩
  | 120 => ⟨S8x32, .f32⟩
  | 121 => ⟨S_, .i32⟩
  | 122 => ⟨S1, .i32⟩
  | 123 => ⟨S_, .i32⟩
  | 124 => ⟨S1, .i32⟩
  | 125 => ⟨S2, .i32⟩
  | 126 => ⟨S8x32x2x2, .f32⟩
  | 127 => ⟨S8x32x1x1, .f32⟩
  | _ => ⟨S96x32x128x128, .f32⟩

abbrev hbmTy0_4 (i : Nat) : BufTy := match i % 128 with
  | 0 => ⟨S8x32x1, .f32⟩
  | 1 => ⟨S_, .i32⟩
  | 2 => ⟨S1, .i32⟩
  | 3 => ⟨S_, .i32⟩
  | 4 => ⟨S1, .i32⟩
  | 5 => ⟨S2, .i32⟩
  | 6 => ⟨S8x32x2x2, .f32⟩
  | 7 => ⟨S8x32x1x1, .f32⟩
  | 8 => ⟨S8x32x1, .f32⟩
  | 9 => ⟨S_, .i32⟩
  | 10 => ⟨S1, .i32⟩
  | 11 => ⟨S_, .i32⟩
  | 12 => ⟨S1, .i32⟩
  | 13 => ⟨S2, .i32⟩
  | 14 => ⟨S8x32x2x2, .f32⟩
  | 15 => ⟨S8x32x1x1, .f32⟩
  | 16 => ⟨S8x32, .f32⟩
  | 17 => ⟨S_, .f32⟩
  | 18 => ⟨S8x32, .f32⟩
  | 19 => ⟨S8x32, .f32⟩
  | 20 => ⟨S8x32x1x1, .f32⟩
  | 21 => ⟨S8x32, .f32⟩
  | 22 => ⟨S_, .f32⟩
  | 23 => ⟨S8x32, .f32⟩
  | 24 => ⟨S8x32, .f32⟩
  | 25 => ⟨S8x32, .f32⟩
  | 26 => ⟨S_, .i32⟩
  | 27 => ⟨S1, .i32⟩
  | 28 => ⟨S_, .i32⟩
  | 29 => ⟨S1, .i32⟩
  | 30 => ⟨S2, .i32⟩
  | 31 => ⟨S8x32x2x2, .f32⟩
  | 32 => ⟨S8x32x2x128, .f32⟩
  | 33 => ⟨S8x32x2x128, .f32⟩
  | 34 => ⟨S8x32x132x128, .f32⟩
  | 35 => ⟨S8x32x128x2, .f32⟩
  | 36 => ⟨S8x32x2x2, .f32⟩
  | 37 => ⟨S8x32x132x2, .f32⟩
  | 38 => ⟨S8x32x2x2, .f32⟩
  | 39 => ⟨S8x32x128x2, .f32⟩
  | 40 => ⟨S8x32x132x2, .f32⟩
  | 41 => ⟨S8x32x132x132, .f32⟩
  | 42 => ⟨S8x32x2x128, .f32⟩
  | 43 => ⟨S8x32x128x128, .f32⟩
  | 44 => ⟨S8x32x128x128, .f32⟩
  | 45 => ⟨S8x32x2x128, .f32⟩
  | 46 => ⟨S8x32x132x128, .f32⟩
  | 47 => ⟨S8x32x2x2, .f32⟩
  | 48 => ⟨S8x32x128x2, .f32⟩
  | 49 => ⟨S8x32x2x2, .f32⟩
  | 50 => ⟨S8x32x132x2, .f32⟩
  | 51 => ⟨S8x32x2x2, .f32⟩
  | 52 => ⟨S8x32x128x128, .f32⟩
  | 53 => ⟨S8x32x128x128, .f32⟩
  | 54 => ⟨S8x32x128x2, .f32⟩
  | 55 => ⟨S8x32x128x128, .f32⟩
  | 56 => ⟨S8x32x128x128, .f32⟩
  | 57 => ⟨S8x32x2x2, .f32⟩
  | 58 => ⟨S8x32x132x2, .f32⟩
  | 59 => ⟨S8x32x132x132, .f32⟩
  | 60 => ⟨S8x32x2x128, .f32⟩
  | 61 => ⟨S8x32x128x128, .f32⟩
  | 62 => ⟨S8x32x128x128, .f32⟩
  | 63 => ⟨S8x32x2x128, .f32⟩
  | 64 => ⟨S8x32x132x128, .f32⟩
  | 65 => ⟨S8x32x2x2, .f32⟩
  | 66 => ⟨S8x32x128x2, .f32⟩
  | 67 => ⟨S8x32x2x2, .f32⟩
  | 68 => ⟨S8x32x132x2, .f32⟩
  | 69 => ⟨S8x32x2x2, .f32⟩
  | 70 => ⟨S8x32x128x128, .f32⟩
  | 71 => ⟨S8x32x128x128, .f32⟩
  | 72 => ⟨S8x32x128x2, .f32⟩
  | 73 => ⟨S8x32x128x128, .f32⟩
  | 74 => ⟨S8x32x128x128, .f32⟩
  | 75 => ⟨S8x32x2x2, .f32⟩
  | 76 => ⟨S8x32x132x2, .f32⟩
  | 77 => ⟨S8x32x132x132, .f32⟩
  | 78 => ⟨S8x32x2x128, .f32⟩
  | 79 => ⟨S8x32x128x128, .f32⟩
  | 80 => ⟨S8x32x128x128, .f32⟩
  | 81 => ⟨S8x32x2x128, .f32⟩
  | 82 => ⟨S8x32x132x128, .f32⟩
  | 83 => ⟨S8x32x2x2, .f32⟩
  | 84 => ⟨S8x32x128x2, .f32⟩
  | 85 => ⟨S8x32x2x2, .f32⟩
  | 86 => ⟨S8x32x132x2, .f32⟩
  | 87 => ⟨S8x32x2x2, .f32⟩
  | 88 => ⟨S8x32x128x128, .f32⟩
  | 89 => ⟨S8x32x128x128, .f32⟩
  | 90 => ⟨S8x32x128x2, .f32⟩
  | 91 => ⟨S8x32x128x128, .f32⟩
  | 92 => ⟨S8x32x128x128, .f32⟩
  | 93 => ⟨S8x32x2x2, .f32⟩
  | 94 => ⟨S8x32x132x2, .f32⟩
  | 95 => ⟨S8x32x132x132, .f32⟩
  | 96 => ⟨S8x32x2x128, .f32⟩
  | 97 => ⟨S8x32x128x128, .f32⟩
  | 98 => ⟨S8x32x128x128, .f32⟩
  | 99 => ⟨S8x32x2x128, .f32⟩
  | 100 => ⟨S8x32x132x128, .f32⟩
  | 101 => ⟨S8x32x2x2, .f32⟩
  | 102 => ⟨S8x32x128x2, .f32⟩
  | 103 => ⟨S8x32x2x2, .f32⟩
  | 104 => ⟨S8x32x132x2, .f32⟩
  | 105 => ⟨S8x32x2x2, .f32⟩
  | 106 => ⟨S8x32x128x128, .f32⟩
  | 107 => ⟨S8x32x128x128, .f32⟩
  | 108 => ⟨S8x32x128x2, .f32⟩
  | 109 => ⟨S8x32x128x128, .f32⟩
  | 110 => ⟨S8x32x128x128, .f32⟩
  | 111 => ⟨S8x32x2x2, .f32⟩
  | 112 => ⟨S8x32x132x2, .f32⟩
  | 113 => ⟨S8x32x132x132, .f32⟩
  | 114 => ⟨S8x1x32x132x132, .f32⟩
  | 115 => ⟨S8x1x32x132x132, .f32⟩
  | 116 => ⟨S8x1x32x132x132, .f32⟩
  | 117 => ⟨S8x1x32x132x132, .f32⟩
  | 118 => ⟨S8x1x32x132x132, .f32⟩
  | 119 => ⟨S8x1x32x132x132, .f32⟩
  | 120 => ⟨S8x1x32x132x132, .f32⟩
  | 121 => ⟨S8x1x32x132x132, .f32⟩
  | 122 => ⟨S8x1x32x132x132, .f32⟩
  | 123 => ⟨S8x1x32x132x132, .f32⟩
  | 124 => ⟨S8x1x32x132x132, .f32⟩
  | 125 => ⟨S8x1x32x132x132, .f32⟩
  | 126 => ⟨S8x12x32x132x132, .f32⟩
  | 127 => ⟨S96x32x132x132, .f32⟩
  | _ => ⟨S96x32x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S96x32x128x128, .f32⟩

abbrev bufTy : (tb : Table) → Fin (tcTables nBuf tb) → BufTy
  | .hbm, ⟨i, _⟩ => hbmTy i
  | _, _ => ⟨S96x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_call0_v0 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_call1_v0 : Ref sig .tc := ⟨.hbm, 31, rfl⟩
abbrev main_v29 : Ref sig .tc := ⟨.hbm, 32, rfl⟩
abbrev main_v30 : Ref sig .tc := ⟨.hbm, 33, rfl⟩
abbrev main_call2_v0 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_call3_v0 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_call4_v0 : Ref sig .tc := ⟨.hbm, 49, rfl⟩
abbrev main_v44 : Ref sig .tc := ⟨.hbm, 50, rfl⟩
abbrev main_v45 : Ref sig .tc := ⟨.hbm, 51, rfl⟩
abbrev main_call5_v0 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_call6_v0 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_call7_v0 : Ref sig .tc := ⟨.hbm, 67, rfl⟩
abbrev main_v59 : Ref sig .tc := ⟨.hbm, 68, rfl⟩
abbrev main_v60 : Ref sig .tc := ⟨.hbm, 69, rfl⟩
abbrev main_call8_v0 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_call9_v0 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_call10_v0 : Ref sig .tc := ⟨.hbm, 85, rfl⟩
abbrev main_v74 : Ref sig .tc := ⟨.hbm, 86, rfl⟩
abbrev main_v75 : Ref sig .tc := ⟨.hbm, 87, rfl⟩
abbrev main_call11_v0 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_0 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_1 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_c : Ref sig .tc := ⟨.hbm, 111, rfl⟩
abbrev main_v95 : Ref sig .tc := ⟨.hbm, 112, rfl⟩
abbrev main_c_2 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_c_3 : Ref sig .tc := ⟨.hbm, 119, rfl⟩
abbrev main_v101 : Ref sig .tc := ⟨.hbm, 120, rfl⟩
abbrev main_c_4 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_c_5 : Ref sig .tc := ⟨.hbm, 127, rfl⟩
abbrev main_v107 : Ref sig .tc := ⟨.hbm, 128, rfl⟩
abbrev main_c_6 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_7 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_8 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_c_9 : Ref sig .tc := ⟨.hbm, 144, rfl⟩
abbrev main_v120 : Ref sig .tc := ⟨.hbm, 145, rfl⟩
abbrev main_c_10 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_11 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_12 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_13 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_c_14 : Ref sig .tc := ⟨.hbm, 163, rfl⟩
abbrev main_v134 : Ref sig .tc := ⟨.hbm, 164, rfl⟩
abbrev main_c_15 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_c_16 : Ref sig .tc := ⟨.hbm, 171, rfl⟩
abbrev main_v140 : Ref sig .tc := ⟨.hbm, 172, rfl⟩
abbrev main_c_17 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_c_18 : Ref sig .tc := ⟨.hbm, 179, rfl⟩
abbrev main_v146 : Ref sig .tc := ⟨.hbm, 180, rfl⟩
abbrev main_c_19 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_20 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_cst_21 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_c_22 : Ref sig .tc := ⟨.hbm, 196, rfl⟩
abbrev main_v159 : Ref sig .tc := ⟨.hbm, 197, rfl⟩
abbrev main_c_23 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_cst_24 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_cst_25 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_cst_26 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_c_27 : Ref sig .tc := ⟨.hbm, 225, rfl⟩
abbrev main_v183 : Ref sig .tc := ⟨.hbm, 226, rfl⟩
abbrev main_c_28 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_c_29 : Ref sig .tc := ⟨.hbm, 233, rfl⟩
abbrev main_v189 : Ref sig .tc := ⟨.hbm, 234, rfl⟩
abbrev main_c_30 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_c_31 : Ref sig .tc := ⟨.hbm, 241, rfl⟩
abbrev main_v195 : Ref sig .tc := ⟨.hbm, 242, rfl⟩
abbrev main_c_32 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_33 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_cst_34 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_c_35 : Ref sig .tc := ⟨.hbm, 258, rfl⟩
abbrev main_v208 : Ref sig .tc := ⟨.hbm, 259, rfl⟩
abbrev main_c_36 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_cst_37 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_cst_38 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_cst_39 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_c_40 : Ref sig .tc := ⟨.hbm, 277, rfl⟩
abbrev main_v222 : Ref sig .tc := ⟨.hbm, 278, rfl⟩
abbrev main_c_41 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_c_42 : Ref sig .tc := ⟨.hbm, 285, rfl⟩
abbrev main_v228 : Ref sig .tc := ⟨.hbm, 286, rfl⟩
abbrev main_c_43 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_c_44 : Ref sig .tc := ⟨.hbm, 293, rfl⟩
abbrev main_v234 : Ref sig .tc := ⟨.hbm, 294, rfl⟩
abbrev main_c_45 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_cst_46 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_cst_47 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_c_48 : Ref sig .tc := ⟨.hbm, 310, rfl⟩
abbrev main_v247 : Ref sig .tc := ⟨.hbm, 311, rfl⟩
abbrev main_c_49 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_cst_50 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_cst_51 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_cst_52 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_c_53 : Ref sig .tc := ⟨.hbm, 339, rfl⟩
abbrev main_v271 : Ref sig .tc := ⟨.hbm, 340, rfl⟩
abbrev main_c_54 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_c_55 : Ref sig .tc := ⟨.hbm, 347, rfl⟩
abbrev main_v277 : Ref sig .tc := ⟨.hbm, 348, rfl⟩
abbrev main_c_56 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_c_57 : Ref sig .tc := ⟨.hbm, 355, rfl⟩
abbrev main_v283 : Ref sig .tc := ⟨.hbm, 356, rfl⟩
abbrev main_c_58 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_cst_59 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_cst_60 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_c_61 : Ref sig .tc := ⟨.hbm, 372, rfl⟩
abbrev main_v296 : Ref sig .tc := ⟨.hbm, 373, rfl⟩
abbrev main_c_62 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_cst_63 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_cst_64 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_cst_65 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_c_66 : Ref sig .tc := ⟨.hbm, 391, rfl⟩
abbrev main_v310 : Ref sig .tc := ⟨.hbm, 392, rfl⟩
abbrev main_c_67 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_c_68 : Ref sig .tc := ⟨.hbm, 399, rfl⟩
abbrev main_v316 : Ref sig .tc := ⟨.hbm, 400, rfl⟩
abbrev main_c_69 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_v321 : Ref sig .tc := ⟨.hbm, 406, rfl⟩
abbrev main_c_70 : Ref sig .tc := ⟨.hbm, 407, rfl⟩
abbrev main_v322 : Ref sig .tc := ⟨.hbm, 408, rfl⟩
abbrev main_c_71 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_cst_72 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_cst_73 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_c_74 : Ref sig .tc := ⟨.hbm, 424, rfl⟩
abbrev main_v335 : Ref sig .tc := ⟨.hbm, 425, rfl⟩
abbrev main_c_75 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_v340 : Ref sig .tc := ⟨.hbm, 431, rfl⟩
abbrev main_v341 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_v348 : Ref sig .tc := ⟨.hbm, 439, rfl⟩
abbrev main_cst_76 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_cst_77 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_cst_78 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_c_79 : Ref sig .tc := ⟨.hbm, 453, rfl⟩
abbrev main_v359 : Ref sig .tc := ⟨.hbm, 454, rfl⟩
abbrev main_c_80 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_c_81 : Ref sig .tc := ⟨.hbm, 461, rfl⟩
abbrev main_v365 : Ref sig .tc := ⟨.hbm, 462, rfl⟩
abbrev main_c_82 : Ref sig .tc := ⟨.hbm, 463, rfl⟩
abbrev main_v366 : Ref sig .tc := ⟨.hbm, 464, rfl⟩
abbrev main_v367 : Ref sig .tc := ⟨.hbm, 465, rfl⟩
abbrev main_v368 : Ref sig .tc := ⟨.hbm, 466, rfl⟩
abbrev main_v369 : Ref sig .tc := ⟨.hbm, 467, rfl⟩
abbrev main_v370 : Ref sig .tc := ⟨.hbm, 468, rfl⟩
abbrev main_c_83 : Ref sig .tc := ⟨.hbm, 469, rfl⟩
abbrev main_v371 : Ref sig .tc := ⟨.hbm, 470, rfl⟩
abbrev main_c_84 : Ref sig .tc := ⟨.hbm, 471, rfl⟩
abbrev main_v372 : Ref sig .tc := ⟨.hbm, 472, rfl⟩
abbrev main_v373 : Ref sig .tc := ⟨.hbm, 473, rfl⟩
abbrev main_v374 : Ref sig .tc := ⟨.hbm, 474, rfl⟩
abbrev main_v375 : Ref sig .tc := ⟨.hbm, 475, rfl⟩
abbrev main_v376 : Ref sig .tc := ⟨.hbm, 476, rfl⟩
abbrev main_cst_85 : Ref sig .tc := ⟨.hbm, 477, rfl⟩
abbrev main_v377 : Ref sig .tc := ⟨.hbm, 478, rfl⟩
abbrev main_v378 : Ref sig .tc := ⟨.hbm, 479, rfl⟩
abbrev main_v379 : Ref sig .tc := ⟨.hbm, 480, rfl⟩
abbrev main_v380 : Ref sig .tc := ⟨.hbm, 481, rfl⟩
abbrev main_cst_86 : Ref sig .tc := ⟨.hbm, 482, rfl⟩
abbrev main_v381 : Ref sig .tc := ⟨.hbm, 483, rfl⟩
abbrev main_v382 : Ref sig .tc := ⟨.hbm, 484, rfl⟩
abbrev main_v383 : Ref sig .tc := ⟨.hbm, 485, rfl⟩
abbrev main_c_87 : Ref sig .tc := ⟨.hbm, 486, rfl⟩
abbrev main_v384 : Ref sig .tc := ⟨.hbm, 487, rfl⟩
abbrev main_c_88 : Ref sig .tc := ⟨.hbm, 488, rfl⟩
abbrev main_v385 : Ref sig .tc := ⟨.hbm, 489, rfl⟩
abbrev main_v386 : Ref sig .tc := ⟨.hbm, 490, rfl⟩
abbrev main_v387 : Ref sig .tc := ⟨.hbm, 491, rfl⟩
abbrev main_cst_89 : Ref sig .tc := ⟨.hbm, 492, rfl⟩
abbrev main_v388 : Ref sig .tc := ⟨.hbm, 493, rfl⟩
abbrev main_v389 : Ref sig .tc := ⟨.hbm, 494, rfl⟩
abbrev main_v390 : Ref sig .tc := ⟨.hbm, 495, rfl⟩
abbrev main_cst_90 : Ref sig .tc := ⟨.hbm, 496, rfl⟩
abbrev main_v391 : Ref sig .tc := ⟨.hbm, 497, rfl⟩
abbrev main_v392 : Ref sig .tc := ⟨.hbm, 498, rfl⟩
abbrev main_v393 : Ref sig .tc := ⟨.hbm, 499, rfl⟩
abbrev main_v394 : Ref sig .tc := ⟨.hbm, 500, rfl⟩
abbrev main_cst_91 : Ref sig .tc := ⟨.hbm, 501, rfl⟩
abbrev main_v395 : Ref sig .tc := ⟨.hbm, 502, rfl⟩
abbrev main_v396 : Ref sig .tc := ⟨.hbm, 503, rfl⟩
abbrev main_v397 : Ref sig .tc := ⟨.hbm, 504, rfl⟩
abbrev main_c_92 : Ref sig .tc := ⟨.hbm, 505, rfl⟩
abbrev main_v398 : Ref sig .tc := ⟨.hbm, 506, rfl⟩
abbrev main_c_93 : Ref sig .tc := ⟨.hbm, 507, rfl⟩
abbrev main_v399 : Ref sig .tc := ⟨.hbm, 508, rfl⟩
abbrev main_v400 : Ref sig .tc := ⟨.hbm, 509, rfl⟩
abbrev main_v401 : Ref sig .tc := ⟨.hbm, 510, rfl⟩
abbrev main_v402 : Ref sig .tc := ⟨.hbm, 511, rfl⟩
abbrev main_v403 : Ref sig .tc := ⟨.hbm, 512, rfl⟩
abbrev main_c_94 : Ref sig .tc := ⟨.hbm, 513, rfl⟩
abbrev main_v404 : Ref sig .tc := ⟨.hbm, 514, rfl⟩
abbrev main_c_95 : Ref sig .tc := ⟨.hbm, 515, rfl⟩
abbrev main_v405 : Ref sig .tc := ⟨.hbm, 516, rfl⟩
abbrev main_v406 : Ref sig .tc := ⟨.hbm, 517, rfl⟩
abbrev main_v407 : Ref sig .tc := ⟨.hbm, 518, rfl⟩
abbrev main_v408 : Ref sig .tc := ⟨.hbm, 519, rfl⟩
abbrev main_v409 : Ref sig .tc := ⟨.hbm, 520, rfl⟩
abbrev main_c_96 : Ref sig .tc := ⟨.hbm, 521, rfl⟩
abbrev main_v410 : Ref sig .tc := ⟨.hbm, 522, rfl⟩
abbrev main_c_97 : Ref sig .tc := ⟨.hbm, 523, rfl⟩
abbrev main_v411 : Ref sig .tc := ⟨.hbm, 524, rfl⟩
abbrev main_v412 : Ref sig .tc := ⟨.hbm, 525, rfl⟩
abbrev main_v413 : Ref sig .tc := ⟨.hbm, 526, rfl⟩
abbrev main_v414 : Ref sig .tc := ⟨.hbm, 527, rfl⟩
abbrev main_v415 : Ref sig .tc := ⟨.hbm, 528, rfl⟩
abbrev main_cst_98 : Ref sig .tc := ⟨.hbm, 529, rfl⟩
abbrev main_v416 : Ref sig .tc := ⟨.hbm, 530, rfl⟩
abbrev main_v417 : Ref sig .tc := ⟨.hbm, 531, rfl⟩
abbrev main_v418 : Ref sig .tc := ⟨.hbm, 532, rfl⟩
abbrev main_v419 : Ref sig .tc := ⟨.hbm, 533, rfl⟩
abbrev main_cst_99 : Ref sig .tc := ⟨.hbm, 534, rfl⟩
abbrev main_v420 : Ref sig .tc := ⟨.hbm, 535, rfl⟩
abbrev main_v421 : Ref sig .tc := ⟨.hbm, 536, rfl⟩
abbrev main_v422 : Ref sig .tc := ⟨.hbm, 537, rfl⟩
abbrev main_c_100 : Ref sig .tc := ⟨.hbm, 538, rfl⟩
abbrev main_v423 : Ref sig .tc := ⟨.hbm, 539, rfl⟩
abbrev main_c_101 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_v430 : Ref sig .tc := ⟨.hbm, 547, rfl⟩
abbrev main_v431 : Ref sig .tc := ⟨.hbm, 548, rfl⟩
abbrev main_v432 : Ref sig .tc := ⟨.hbm, 549, rfl⟩
abbrev main_v433 : Ref sig .tc := ⟨.hbm, 550, rfl⟩
abbrev main_v434 : Ref sig .tc := ⟨.hbm, 551, rfl⟩
abbrev main_v435 : Ref sig .tc := ⟨.hbm, 552, rfl⟩
abbrev main_v436 : Ref sig .tc := ⟨.hbm, 553, rfl⟩
abbrev main_v437 : Ref sig .tc := ⟨.hbm, 554, rfl⟩
abbrev main_call12_v0 : Ref sig .tc := ⟨.hbm, 555, rfl⟩
abbrev main_v438 : Ref sig .tc := ⟨.hbm, 556, rfl⟩
abbrev main_v439 : Ref sig .tc := ⟨.hbm, 557, rfl⟩
abbrev main_v440 : Ref sig .tc := ⟨.hbm, 558, rfl⟩
abbrev main_v441 : Ref sig .tc := ⟨.hbm, 559, rfl⟩
abbrev main_v442 : Ref sig .tc := ⟨.hbm, 560, rfl⟩
abbrev main_v443 : Ref sig .tc := ⟨.hbm, 561, rfl⟩
abbrev main_v444 : Ref sig .tc := ⟨.hbm, 562, rfl⟩
abbrev main_v445 : Ref sig .tc := ⟨.hbm, 563, rfl⟩
abbrev main_call13_v0 : Ref sig .tc := ⟨.hbm, 564, rfl⟩
abbrev main_v446 : Ref sig .tc := ⟨.hbm, 565, rfl⟩
abbrev main_v447 : Ref sig .tc := ⟨.hbm, 566, rfl⟩
abbrev main_call14_v0 : Ref sig .tc := ⟨.hbm, 567, rfl⟩
abbrev main_v448 : Ref sig .tc := ⟨.hbm, 568, rfl⟩
abbrev main_v449 : Ref sig .tc := ⟨.hbm, 569, rfl⟩
abbrev main_v450 : Ref sig .tc := ⟨.hbm, 570, rfl⟩
abbrev main_v451 : Ref sig .tc := ⟨.hbm, 571, rfl⟩
abbrev main_v452 : Ref sig .tc := ⟨.hbm, 572, rfl⟩
abbrev main_call15_v0 : Ref sig .tc := ⟨.hbm, 573, rfl⟩
abbrev main_v453 : Ref sig .tc := ⟨.hbm, 574, rfl⟩
abbrev main_v454 : Ref sig .tc := ⟨.hbm, 575, rfl⟩
abbrev main_v455 : Ref sig .tc := ⟨.hbm, 576, rfl⟩
abbrev main_v456 : Ref sig .tc := ⟨.hbm, 577, rfl⟩
abbrev main_v457 : Ref sig .tc := ⟨.hbm, 578, rfl⟩
abbrev main_v458 : Ref sig .tc := ⟨.hbm, 579, rfl⟩
abbrev main_v459 : Ref sig .tc := ⟨.hbm, 580, rfl⟩
abbrev main_v460 : Ref sig .tc := ⟨.hbm, 581, rfl⟩
abbrev main_call16_v0 : Ref sig .tc := ⟨.hbm, 582, rfl⟩
abbrev main_v461 : Ref sig .tc := ⟨.hbm, 583, rfl⟩
abbrev main_v462 : Ref sig .tc := ⟨.hbm, 584, rfl⟩
abbrev main_call17_v0 : Ref sig .tc := ⟨.hbm, 585, rfl⟩
abbrev main_v463 : Ref sig .tc := ⟨.hbm, 586, rfl⟩
abbrev main_v464 : Ref sig .tc := ⟨.hbm, 587, rfl⟩
abbrev main_v465 : Ref sig .tc := ⟨.hbm, 588, rfl⟩
abbrev main_v466 : Ref sig .tc := ⟨.hbm, 589, rfl⟩
abbrev main_v467 : Ref sig .tc := ⟨.hbm, 590, rfl⟩
abbrev main_call18_v0 : Ref sig .tc := ⟨.hbm, 591, rfl⟩
abbrev main_v468 : Ref sig .tc := ⟨.hbm, 592, rfl⟩
abbrev main_v469 : Ref sig .tc := ⟨.hbm, 593, rfl⟩
abbrev main_v470 : Ref sig .tc := ⟨.hbm, 594, rfl⟩
abbrev main_v471 : Ref sig .tc := ⟨.hbm, 595, rfl⟩
abbrev main_v472 : Ref sig .tc := ⟨.hbm, 596, rfl⟩
abbrev main_v473 : Ref sig .tc := ⟨.hbm, 597, rfl⟩
abbrev main_v474 : Ref sig .tc := ⟨.hbm, 598, rfl⟩
abbrev main_v475 : Ref sig .tc := ⟨.hbm, 599, rfl⟩
abbrev main_call19_v0 : Ref sig .tc := ⟨.hbm, 600, rfl⟩
abbrev main_v476 : Ref sig .tc := ⟨.hbm, 601, rfl⟩
abbrev main_v477 : Ref sig .tc := ⟨.hbm, 602, rfl⟩
abbrev main_call20_v0 : Ref sig .tc := ⟨.hbm, 603, rfl⟩
abbrev main_v478 : Ref sig .tc := ⟨.hbm, 604, rfl⟩
abbrev main_v479 : Ref sig .tc := ⟨.hbm, 605, rfl⟩
abbrev main_v480 : Ref sig .tc := ⟨.hbm, 606, rfl⟩
abbrev main_v481 : Ref sig .tc := ⟨.hbm, 607, rfl⟩
abbrev main_v482 : Ref sig .tc := ⟨.hbm, 608, rfl⟩
abbrev main_call21_v0 : Ref sig .tc := ⟨.hbm, 609, rfl⟩
abbrev main_v483 : Ref sig .tc := ⟨.hbm, 610, rfl⟩
abbrev main_v484 : Ref sig .tc := ⟨.hbm, 611, rfl⟩
abbrev main_v485 : Ref sig .tc := ⟨.hbm, 612, rfl⟩
abbrev main_v486 : Ref sig .tc := ⟨.hbm, 613, rfl⟩
abbrev main_v487 : Ref sig .tc := ⟨.hbm, 614, rfl⟩
abbrev main_v488 : Ref sig .tc := ⟨.hbm, 615, rfl⟩
abbrev main_v489 : Ref sig .tc := ⟨.hbm, 616, rfl⟩
abbrev main_v490 : Ref sig .tc := ⟨.hbm, 617, rfl⟩
abbrev main_call22_v0 : Ref sig .tc := ⟨.hbm, 618, rfl⟩
abbrev main_v491 : Ref sig .tc := ⟨.hbm, 619, rfl⟩
abbrev main_v492 : Ref sig .tc := ⟨.hbm, 620, rfl⟩
abbrev main_call23_v0 : Ref sig .tc := ⟨.hbm, 621, rfl⟩
abbrev main_v493 : Ref sig .tc := ⟨.hbm, 622, rfl⟩
abbrev main_v494 : Ref sig .tc := ⟨.hbm, 623, rfl⟩
abbrev main_v495 : Ref sig .tc := ⟨.hbm, 624, rfl⟩
abbrev main_v496 : Ref sig .tc := ⟨.hbm, 625, rfl⟩
abbrev main_v497 : Ref sig .tc := ⟨.hbm, 626, rfl⟩
abbrev main_v498 : Ref sig .tc := ⟨.hbm, 627, rfl⟩
abbrev main_v499 : Ref sig .tc := ⟨.hbm, 628, rfl⟩
abbrev main_v500 : Ref sig .tc := ⟨.hbm, 629, rfl⟩
abbrev main_v501 : Ref sig .tc := ⟨.hbm, 630, rfl⟩
abbrev main_v502 : Ref sig .tc := ⟨.hbm, 631, rfl⟩
abbrev main_v503 : Ref sig .tc := ⟨.hbm, 632, rfl⟩
abbrev main_v504 : Ref sig .tc := ⟨.hbm, 633, rfl⟩
abbrev main_v505 : Ref sig .tc := ⟨.hbm, 634, rfl⟩
abbrev main_v506 : Ref sig .tc := ⟨.hbm, 635, rfl⟩
abbrev main_v507 : Ref sig .tc := ⟨.hbm, 636, rfl⟩
abbrev main_v508 : Ref sig .tc := ⟨.hbm, 637, rfl⟩
abbrev main_v509 : Ref sig .tc := ⟨.hbm, 638, rfl⟩
abbrev main_v510 : Ref sig .tc := ⟨.hbm, 639, rfl⟩

abbrev nD : Nat := 1
abbrev τ : Topo := Topo.v7x

variable {F : FTy → Type} [FloatOps F]

class Facts₀ : Prop where
  shapeCasts_S96x32x128x128_S8x12x32x128x128 : S96x32x128x128.ShapeCasts S8x12x32x128x128
  slices_S8x12x32x128x128_S8x1x32x128x128_0_0_0_0_0 : S8x12x32x128x128.Slices ![0, 0, 0, 0, 0] S8x1x32x128x128
  shapeCasts_S8x1x32x128x128_S8x32x128x128 : S8x1x32x128x128.ShapeCasts S8x32x128x128
  slices_S8x12x32x128x128_S8x1x32x128x128_0_1_0_0_0 : S8x12x32x128x128.Slices ![0, 1, 0, 0, 0] S8x1x32x128x128
  slices_S8x12x32x128x128_S8x1x32x128x128_0_2_0_0_0 : S8x12x32x128x128.Slices ![0, 2, 0, 0, 0] S8x1x32x128x128
  slices_S8x12x32x128x128_S8x1x32x128x128_0_3_0_0_0 : S8x12x32x128x128.Slices ![0, 3, 0, 0, 0] S8x1x32x128x128
  slices_S8x12x32x128x128_S8x1x32x128x128_0_4_0_0_0 : S8x12x32x128x128.Slices ![0, 4, 0, 0, 0] S8x1x32x128x128
  slices_S8x12x32x128x128_S8x1x32x128x128_0_5_0_0_0 : S8x12x32x128x128.Slices ![0, 5, 0, 0, 0] S8x1x32x128x128
  slices_S8x12x32x128x128_S8x1x32x128x128_0_6_0_0_0 : S8x12x32x128x128.Slices ![0, 6, 0, 0, 0] S8x1x32x128x128
  slices_S8x12x32x128x128_S8x1x32x128x128_0_7_0_0_0 : S8x12x32x128x128.Slices ![0, 7, 0, 0, 0] S8x1x32x128x128
  slices_S8x12x32x128x128_S8x1x32x128x128_0_8_0_0_0 : S8x12x32x128x128.Slices ![0, 8, 0, 0, 0] S8x1x32x128x128
  slices_S8x12x32x128x128_S8x1x32x128x128_0_9_0_0_0 : S8x12x32x128x128.Slices ![0, 9, 0, 0, 0] S8x1x32x128x128
  slices_S8x12x32x128x128_S8x1x32x128x128_0_10_0_0_0 : S8x12x32x128x128.Slices ![0, 10, 0, 0, 0] S8x1x32x128x128
  slices_S8x12x32x128x128_S8x1x32x128x128_0_11_0_0_0 : S8x12x32x128x128.Slices ![0, 11, 0, 0, 0] S8x1x32x128x128
  transposes_S8x32x128x128_S8x32x128x128_0_1_3_2 : S8x32x128x128.Transposes [0, 1, 3, 2] S8x32x128x128
  slices_S8x32x128x128_S8x32x2x128_0_0_126_0 : S8x32x128x128.Slices ![0, 0, 126, 0] S8x32x2x128
  slices_S8x32x128x128_S8x32x2x128_0_0_0_0 : S8x32x128x128.Slices ![0, 0, 0, 0] S8x32x2x128
  concatenates_S8x32x2x128_S8x32x128x128_S8x32x2x128_S8x32x132x128_d2 : Shape.Concatenates [S8x32x2x128, S8x32x128x128, S8x32x2x128] S8x32x132x128 2
  slices_S8x32x128x128_S8x32x2x2_0_0_126_126 : S8x32x128x128.Slices ![0, 0, 126, 126] S8x32x2x2
  slices_S8x32x128x128_S8x32x128x2_0_0_0_126 : S8x32x128x128.Slices ![0, 0, 0, 126] S8x32x128x2
  slices_S8x32x128x128_S8x32x2x2_0_0_0_126 : S8x32x128x128.Slices ![0, 0, 0, 126] S8x32x2x2
  concatenates_S8x32x2x2_S8x32x128x2_S8x32x2x2_S8x32x132x2_d2 : Shape.Concatenates [S8x32x2x2, S8x32x128x2, S8x32x2x2] S8x32x132x2 2
  slices_S8x32x128x128_S8x32x2x2_0_0_126_0 : S8x32x128x128.Slices ![0, 0, 126, 0] S8x32x2x2
  slices_S8x32x128x128_S8x32x128x2_0_0_0_0 : S8x32x128x128.Slices ![0, 0, 0, 0] S8x32x128x2
  slices_S8x32x128x128_S8x32x2x2_0_0_0_0 : S8x32x128x128.Slices ![0, 0, 0, 0] S8x32x2x2
  concatenates_S8x32x132x2_S8x32x132x128_S8x32x132x2_S8x32x132x132_d3 : Shape.Concatenates [S8x32x132x2, S8x32x132x128, S8x32x132x2] S8x32x132x132 3
  bcast_S_S8x32x2x2 : S_.BroadcastsInDim S8x32x2x2 (![] : Fin 0 → Fin S8x32x2x2.rank)
  slices_S8x32x128x128_S8x32x1x1_0_0_127_0 : S8x32x128x128.Slices ![0, 0, 127, 0] S8x32x1x1
  shapeCasts_S8x32x1x1_S8x32 : S8x32x1x1.ShapeCasts S8x32
  bcast_S_S8x32 : S_.BroadcastsInDim S8x32 (![] : Fin 0 → Fin S8x32.rank)
  slices_S8x32x128x128_S8x32x1x1_0_0_0_127 : S8x32x128x128.Slices ![0, 0, 0, 127] S8x32x1x1
  bcast_S_S1 : S_.BroadcastsInDim S1 (![] : Fin 0 → Fin S1.rank)
  concatenates_S1_S1_S2_d0 : Shape.Concatenates [S1, S1] S2 0
  slices_S8x32x128x128_S8x32x1x1_0_0_126_0 : S8x32x128x128.Slices ![0, 0, 126, 0] S8x32x1x1
  shapeCasts_S8x32x1x1_S8x32x1 : S8x32x1x1.ShapeCasts S8x32x1
  slices_S8x32x128x128_S8x32x1x1_0_0_0_126 : S8x32x128x128.Slices ![0, 0, 0, 126] S8x32x1x1
  slices_S8x32x128x128_S8x32x1x1_0_0_127_1 : S8x32x128x128.Slices ![0, 0, 127, 1] S8x32x1x1
  slices_S8x32x128x128_S8x32x1x1_0_0_1_127 : S8x32x128x128.Slices ![0, 0, 1, 127] S8x32x1x1
  bcast_S8x32x132x132_S8x1x32x132x132_0_2_3_4 : S8x32x132x132.BroadcastsInDim S8x1x32x132x132 (![0, 2, 3, 4] : Fin 4 → Fin S8x1x32x132x132.rank)
  concatenates_S8x1x32x132x132_S8x1x32x132x132_S8x1x32x132x132_S8x1x32x132x132_S8x1x32x132x132_S8x1x32x132x132_S8x1x32x132x132_S8x1x32x132x132_S8x1x32x132x132_S8x1x32x132x132_S8x1x32x132x132_S8x1x32x132x132_S8x12x32x132x132_d1 : Shape.Concatenates [S8x1x32x132x132, S8x1x32x132x132, S8x1x32x132x132, S8x1x32x132x132, S8x1x32x132x132, S8x1x32x132x132, S8x1x32x132x132, S8x1x32x132x132, S8x1x32x132x132, S8x1x32x132x132, S8x1x32x132x132, S8x1x32x132x132] S8x12x32x132x132 1
  shapeCasts_S8x12x32x132x132_S96x32x132x132 : S8x12x32x132x132.ShapeCasts S96x32x132x132
  scatter_S8x32x2x2_S2_S8x32_01_23_23_0_wf : ScatterDims.WF S8x32x2x2 S2 S8x32 [0, 1] [2, 3] [2, 3] 0
  scatter_S8x32x2x2_S2_S8x32x1_012_2_23_0_wf : ScatterDims.WF S8x32x2x2 S2 S8x32x1 [0, 1, 2] [2] [2, 3] 0
  scatter_S8x32x2x2_S2_S8x32x1_012_3_23_0_wf : ScatterDims.WF S8x32x2x2 S2 S8x32x1 [0, 1, 2] [3] [2, 3] 0

variable [Facts₀]

def scatter_S8x32x2x2_S2_S8x32_01_23_23_0 : ScatterDims S8x32x2x2 S2 S8x32 where
  updateWindowDims := [0, 1]
  insertedWindowDims := [2, 3]
  scatterDimsToOperandDims := [2, 3]
  indexVectorDim := 0
  wf := scatter_S8x32x2x2_S2_S8x32_01_23_23_0_wf
def scatter_S8x32x2x2_S2_S8x32x1_012_2_23_0 : ScatterDims S8x32x2x2 S2 S8x32x1 where
  updateWindowDims := [0, 1, 2]
  insertedWindowDims := [2]
  scatterDimsToOperandDims := [2, 3]
  indexVectorDim := 0
  wf := scatter_S8x32x2x2_S2_S8x32x1_012_2_23_0_wf
def scatter_S8x32x2x2_S2_S8x32x1_012_3_23_0 : ScatterDims S8x32x2x2 S2 S8x32x1 where
  updateWindowDims := [0, 1, 2]
  insertedWindowDims := [3]
  scatterDimsToOperandDims := [2, 3]
  indexVectorDim := 0
  wf := scatter_S8x32x2x2_S2_S8x32x1_012_3_23_0_wf

class Facts : Prop extends Facts₀ where

variable [Facts]
-- ==== Proof.FrameK.Host.lean ====
import proofs.«156783_j90975997264310_2_alg».proof.Proof.Gen.Kernel.Launch
import Idealize.ShloMosaic.Lib.Pipeline.FrameBody

/-! # The host stretch before the region

`@main` runs 1,582 host operations, in 49 stretches, and then its one region. This module names the contents of a
core's TensorCore buffers when the region is entered (`V`: the fold of the operations' results over the launched
memory), shows that `@main` is that prefix followed by the region (`hmain`), and that no operation of the prefix
writes the program's argument, which the region therefore finds as launched (`V_main_arg0`). -/

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s TensorCore buffers when the region is entered: the launched contents after the 49 stretches of host
    operations, in program order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]) (fun b => m (c, b)) b

/-! ## No operation of the prefix allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor

/-- `@main` up to its region: the 49 stretches, then the region's entry. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh⟩) main_chain

/-! ## The argument is never written

Every operation writes exactly its result buffer, and no result buffer is the argument's: stretch by stretch. -/

theorem hostOps0_keeps : ∀ op ∈ (hostOps0 : List (HloOp τ sig (Elt F))), Proc.devRef (τ := τ) .tc main_arg0 ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_1_keeps : ∀ op ∈ (hostOps0_1 : List (HloOp τ sig (Elt F))), Proc.devRef (τ := τ) .tc main_arg0 ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_2_keeps : ∀ op ∈ (hostOps0_2 : List (HloOp τ sig (Elt F))), Proc.devRef (τ := τ) .tc main_arg0 ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_3_keeps : ∀ op ∈ (hostOps0_3 : List (HloOp τ sig (Elt F))), Proc.devRef (τ := τ) .tc main_arg0 ∉ op.writes :=
  List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_4_keeps : ∀ op ∈ (hostOps0_4 : List (HloOp τ sig (Elt F))), Proc.devRef (τ := τ) .tc main_arg0 ∉ op.writes :=
  List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_5_keeps : ∀ op ∈ (hostOps0_5 : List (HloOp τ sig (Elt F))), Proc.devRef (τ := τ) .tc main_arg0 ∉ op.writes :=
  List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_6_keeps : ∀ op ∈ (hostOps0_6 : List (HloOp τ sig (Elt F))), Proc.devRef (τ := τ) .tc main_arg0 ∉ op.writes :=
  List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_7_keeps : ∀ op ∈ (hostOps0_7 : List (HloOp τ sig (Elt F))), Proc.devRef (τ := τ) .tc main_arg0 ∉ op.writes :=
  List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_8_keeps : ∀ op ∈ (hostOps0_8 : List (HloOp τ sig (Elt F))), Proc.devRef (τ := τ) .tc main_arg0 ∉ op.writes :=
  List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_9_keeps : ∀ op ∈ (hostOps0_9 : List (HloOp τ sig (Elt F))), Proc.devRef (τ := τ) .tc main_arg0 ∉ op.writes :=
  List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_10_keeps : ∀ op ∈ (hostOps0_10 : List (HloOp τ sig (Elt F))), Proc.devRef (τ := τ) .tc main_arg0 ∉ op.writes :=
  List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_11_keeps : ∀ op ∈ (hostOps0_11 : List (HloOp τ sig (Elt F))), Proc.devRef (τ := τ) .tc main_arg0 ∉ op.writes :=
  List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_12_keeps : ∀ op ∈ (hostOps0_12 : List (HloOp τ sig (Elt F))), Proc.devRef (τ := τ) .tc main_arg0 ∉ op.writes :=
  List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_13_keeps : ∀ op ∈ (hostOps0_13 : List (HloOp τ sig (Elt F))), Proc.devRef (τ := τ) .tc main_arg0 ∉ op.writes :=
  List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_14_keeps : ∀ op ∈ (hostOps0_14 : List (HloOp τ sig (Elt F))), Proc.devRef (τ := τ) .tc main_arg0 ∉ op.writes :=
  List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_15_keeps : ∀ op ∈ (hostOps0_15 : List (HloOp τ sig (Elt F))), Proc.devRef (τ := τ) .tc main_arg0 ∉ op.writes :=
  List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_16_keeps : ∀ op ∈ (hostOps0_16 : List (HloOp τ sig (Elt F))), Proc.devRef (τ := τ) .tc main_arg0 ∉ op.writes :=
  List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_17_keeps : ∀ op ∈ (hostOps0_17 : List (HloOp τ sig (Elt F))), Proc.devRef (τ := τ) .tc main_arg0 ∉ op.writes :=
  List.forall_iff_forall_mem.mp (by
    simp only [hostOps0_17, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_18_keeps : ∀ op ∈ (hostOps0_18 : List (HloOp τ sig (Elt F))), Proc.devRef (τ := τ) .tc main_arg0 ∉ op.writes :=
  List.forall_iff_forall_mem.mp (by
    simp only [hostOps0_18, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_19_keeps : ∀ op ∈ (hostOps0_19 : List (HloOp τ sig (Elt F))), Proc.devRef (τ := τ) .tc main_arg0 ∉ op.writes :=
  List.forall_iff_forall_mem.mp (by
    simp only [hostOps0_19, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_20_keeps : ∀ op ∈ (hostOps0_20 : List (HloOp τ sig (Elt F))), Proc.devRef (τ := τ) .tc main_arg0 ∉ op.writes :=
  List.forall_iff_forall_mem.mp (by
    simp only [hostOps0_20, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_21_keeps : ∀ op ∈ (hostOps0_21 : List (HloOp τ sig (Elt F))), Proc.devRef (τ := τ) .tc main_arg0 ∉ op.writes :=
  List.forall_iff_forall_mem.mp (by
    simp only [hostOps0_21, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_22_keeps : ∀ op ∈ (hostOps0_22 : List (HloOp τ sig (Elt F))), Proc.devRef (τ := τ) .tc main_arg0 ∉ op.writes :=
  List.forall_iff_forall_mem.mp (by
    simp only [hostOps0_22, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_23_keeps : ∀ op ∈ (hostOps0_23 : List (HloOp τ sig (Elt F))), Proc.devRef (τ := τ) .tc main_arg0 ∉ op.writes :=
  List.forall_iff_forall_mem.mp (by
    simp only [hostOps0_23, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_24_keeps : ∀ op ∈ (hostOps0_24 : List (HloOp τ sig (Elt F))), Proc.devRef (τ := τ) .tc main_arg0 ∉ op.writes :=
  List.forall_iff_forall_mem.mp (by
    simp only [hostOps0_24, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_25_keeps : ∀ op ∈ (hostOps0_25 : List (HloOp τ sig (Elt F))), Proc.devRef (τ := τ) .tc main_arg0 ∉ op.writes :=
  List.forall_iff_forall_mem.mp (by
    simp only [hostOps0_25, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_26_keeps : ∀ op ∈ (hostOps0_26 : List (HloOp τ sig (Elt F))), Proc.devRef (τ := τ) .tc main_arg0 ∉ op.writes :=
  List.forall_iff_forall_mem.mp (by
    simp only [hostOps0_26, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_27_keeps : ∀ op ∈ (hostOps0_27 : List (HloOp τ sig (Elt F))), Proc.devRef (τ := τ) .tc main_arg0 ∉ op.writes :=
  List.forall_iff_forall_mem.mp (by
    simp only [hostOps0_27, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_28_keeps : ∀ op ∈ (hostOps0_28 : List (HloOp τ sig (Elt F))), Proc.devRef (τ := τ) .tc main_arg0 ∉ op.writes :=
  List.forall_iff_forall_mem.mp (by
    simp only [hostOps0_28, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_29_keeps : ∀ op ∈ (hostOps0_29 : List (HloOp τ sig (Elt F))), Proc.devRef (τ := τ) .tc main_arg0 ∉ op.writes :=
  List.forall_iff_forall_mem.mp (by
    simp only [hostOps0_29, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_30_keeps : ∀ op ∈ (hostOps0_30 : List (HloOp τ sig (Elt F))), Proc.devRef (τ := τ) .tc main_arg0 ∉ op.writes :=
  List.forall_iff_forall_mem.mp (by
    simp only [hostOps0_30, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_31_keeps : ∀ op ∈ (hostOps0_31 : List (HloOp τ sig (Elt F))), Proc.devRef (τ := τ) .tc main_arg0 ∉ op.writes :=
  List.forall_iff_forall_mem.mp (by
    simp only [hostOps0_31, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_32_keeps : ∀ op ∈ (hostOps0_32 : List (HloOp τ sig (Elt F))), Proc.devRef (τ := τ) .tc main_arg0 ∉ op.writes :=
  List.forall_iff_forall_mem.mp (by
    simp only [hostOps0_32, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_33_keeps : ∀ op ∈ (hostOps0_33 : List (HloOp τ sig (Elt F))), Proc.devRef (τ := τ) .tc main_arg0 ∉ op.writes :=
  List.forall_iff_forall_mem.mp (by
    simp only [hostOps0_33, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_34_keeps : ∀ op ∈ (hostOps0_34 : List (HloOp τ sig (Elt F))), Proc.devRef (τ := τ) .tc main_arg0 ∉ op.writes :=
  List.forall_iff_forall_mem.mp (by
    simp only [hostOps0_34, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_35_keeps : ∀ op ∈ (hostOps0_35 : List (HloOp τ sig (Elt F))), Proc.devRef (τ := τ) .tc main_arg0 ∉ op.writes :=
  List.forall_iff_forall_mem.mp (by
    simp only [hostOps0_35, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_36_keeps : ∀ op ∈ (hostOps0_36 : List (HloOp τ sig (Elt F))), Proc.devRef (τ := τ) .tc main_arg0 ∉ op.writes :=
  List.forall_iff_forall_mem.mp (by
    simp only [hostOps0_36, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_37_keeps : ∀ op ∈ (hostOps0_37 : List (HloOp τ sig (Elt F))), Proc.devRef (τ := τ) .tc main_arg0 ∉ op.writes :=
  List.forall_iff_forall_mem.mp (by
    simp only [hostOps0_37, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_38_keeps : ∀ op ∈ (hostOps0_38 : List (HloOp τ sig (Elt F))), Proc.devRef (τ := τ) .tc main_arg0 ∉ op.writes :=
  List.forall_iff_forall_mem.mp (by
    simp only [hostOps0_38, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_39_keeps : ∀ op ∈ (hostOps0_39 : List (HloOp τ sig (Elt F))), Proc.devRef (τ := τ) .tc main_arg0 ∉ op.writes :=
  List.forall_iff_forall_mem.mp (by
    simp only [hostOps0_39, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_40_keeps : ∀ op ∈ (hostOps0_40 : List (HloOp τ sig (Elt F))), Proc.devRef (τ := τ) .tc main_arg0 ∉ op.writes :=
  List.forall_iff_forall_mem.mp (by
    simp only [hostOps0_40, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_41_keeps : ∀ op ∈ (hostOps0_41 : List (HloOp τ sig (Elt F))), Proc.devRef (τ := τ) .tc main_arg0 ∉ op.writes :=
  List.forall_iff_forall_mem.mp (by
    simp only [hostOps0_41, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_42_keeps : ∀ op ∈ (hostOps0_42 : List (HloOp τ sig (Elt F))), Proc.devRef (τ := τ) .tc main_arg0 ∉ op.writes :=
  List.forall_iff_forall_mem.mp (by
    simp only [hostOps0_42, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_43_keeps : ∀ op ∈ (hostOps0_43 : List (HloOp τ sig (Elt F))), Proc.devRef (τ := τ) .tc main_arg0 ∉ op.writes :=
  List.forall_iff_forall_mem.mp (by
    simp only [hostOps0_43, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_44_keeps : ∀ op ∈ (hostOps0_44 : List (HloOp τ sig (Elt F))), Proc.devRef (τ := τ) .tc main_arg0 ∉ op.writes :=
  List.forall_iff_forall_mem.mp (by
    simp only [hostOps0_44, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_45_keeps : ∀ op ∈ (hostOps0_45 : List (HloOp τ sig (Elt F))), Proc.devRef (τ := τ) .tc main_arg0 ∉ op.writes :=
  List.forall_iff_forall_mem.mp (by
    simp only [hostOps0_45, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_46_keeps : ∀ op ∈ (hostOps0_46 : List (HloOp τ sig (Elt F))), Proc.devRef (τ := τ) .tc main_arg0 ∉ op.writes :=
  List.forall_iff_forall_mem.mp (by
    simp only [hostOps0_46, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_47_keeps : ∀ op ∈ (hostOps0_47 : List (HloOp τ sig (Elt F))), Proc.devRef (τ := τ) .tc main_arg0 ∉ op.writes :=
  List.forall_iff_forall_mem.mp (by
    simp only [hostOps0_47, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_48_keeps : ∀ op ∈ (hostOps0_48 : List (HloOp τ sig (Elt F))), Proc.devRef (τ := τ) .tc main_arg0 ∉ op.writes :=
  List.forall_iff_forall_mem.mp (by
    simp only [hostOps0_48, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- The region finds the argument as launched: a buffer none of the prefix's operations writes keeps its contents. -/
theorem V_main_arg0 (c : Dev nD) : V m c main_arg0 = m ((c : Thread nD τ).loc main_arg0) :=
  StableHlo.after_of_forall_not_mem (b := Proc.devRef .tc main_arg0) _ _ (fun op hop => by
    obtain ⟨ops, hops, hop'⟩ := List.mem_flatten.mp hop
    have hall : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] : List (List (HloOp τ sig (Elt F)))).Forall
        (fun ops => ∀ op ∈ ops, Proc.devRef (τ := τ) .tc main_arg0 ∉ op.writes) := by
      simp only [List.Forall]
      exact ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps⟩
    exact List.forall_iff_forall_mem.mp hall ops hops op hop')

end Cert.Kernel.Hand

end
-- ==== Proof.FrameK.Body.lean ====
import proofs.«156783_j90975997264310_2_alg».proof.Proof.Gen.Kernel.Skeleton
import Idealize.ShloMosaic.Lib.Pipeline.FrameBody
import Idealize.ShloMosaic.Lib.Ring
import Idealize.ShloMosaic.Lib.Tactic

/-! # The kernel body on one face

The body loads its five input blocks whole (the face and its four border strips), loads its output block once
(the value is never used), and stores one value covering the output block: the three-piece concatenation along
axis 3 of the left strip, the (top, face, bottom) concatenation along axis 2, and the right strip. This module
says what the output buffer holds afterwards (`out0_5`: the canonical form of that single covering store) and proves
the body's triple. -/

-- membership in a rectangle of these extents is checked coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The whole-block rectangles the body reads and writes through -/

abbrev rX : Rect S1x32x128x128 := Rect.unit (s := S1x32x128x128) ![0, 0, 0, 0] S1x32x128x128.size inb_S1x32x128x128_S1x32x128x128_0_0_0_0
abbrev rH : Rect S1x32x2x128 := Rect.unit (s := S1x32x2x128) ![0, 0, 0, 0] S1x32x2x128.size inb_S1x32x2x128_S1x32x2x128_0_0_0_0
abbrev rV : Rect S1x32x132x2 := Rect.unit (s := S1x32x132x2) ![0, 0, 0, 0] S1x32x132x2.size inb_S1x32x132x2_S1x32x132x2_0_0_0_0
abbrev rO : Rect S1x32x132x132 := Rect.unit (s := S1x32x132x132) ![0, 0, 0, 0] S1x32x132x132.size inb_S1x32x132x132_S1x32x132x132_0_0_0_0

/-- The output block after the body, from the five input blocks: its one store, as a canonical piece list. -/
def out0_5 (x0 : Vec F S1x32x128x128 .f32) (x1 x2 : Vec F S1x32x2x128 .f32) (x3 x4 : Vec F S1x32x132x2 .f32) :
    Vec F S1x32x132x132 .f32 :=
  View.canon [⟨rO, k0_pay1 (View.ld x0 rX) (View.ld x1 rH) (View.ld x2 rH) (View.ld x3 rV) (View.ld x4 rV)⟩]

/-- The one store is of the whole block, so it covers it. -/
theorem cover0_5 (p0 : Vec F S1x32x132x132 .f32) (y : S1x32x132x132.Idx) :
    ∃ pc ∈ ([⟨rO, p0⟩] : List (View.Piece (Elt F) S1x32x132x132 .f32)), y ∈ pc.1.set :=
  View.cover_of_tiled [⟨rO, p0⟩] S1x32x132x132.size (by rfl) y

/-! ## The body's triple -/

set_option maxHeartbeats 1000000 in
/-- On whole staging memrefs, the inputs' at contents `xW` and the output's at anything, the body runs to the
    continuation holding the inputs' as they were and the output's at `out0_5` of the inputs'. The load of the output
    buffer reads whatever is there and its value is dropped. -/
theorem sound_kernel (c : Dev nD) (E : Set ℕ) (i : grid0.Coords)
    (arg1 : Memref sig .tc .vmem S1x32x128x128 .f32) (harg1 : arg1.IsWhole)
    (arg2 : Memref sig .tc .vmem S1x32x2x128 .f32) (harg2 : arg2.IsWhole)
    (arg3 : Memref sig .tc .vmem S1x32x2x128 .f32) (harg3 : arg3.IsWhole)
    (arg4 : Memref sig .tc .vmem S1x32x132x2 .f32) (harg4 : arg4.IsWhole)
    (arg5 : Memref sig .tc .vmem S1x32x132x2 .f32) (harg5 : arg5.IsWhole)
    (arg6 : Memref sig .tc .vmem S1x32x132x132 .f32) (harg6 : arg6.IsWhole)
    (x0 : Vec F S1x32x128x128 .f32) (x1 x2 : Vec F S1x32x2x128 .f32) (x3 x4 : Vec F S1x32x132x2 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__assemble_kernel i arg1 harg1 arg2 harg2 arg3 harg3 arg4 harg4 arg5 harg5 arg6 harg6) K := by
  simp only [cc0__assemble_kernel_eq_skeleton]; unfold cc0__assemble_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

end Cert.Kernel.Hand

end
-- ==== Proof.FrameK.lean ====
import proofs.«156783_j90975997264310_2_alg».proof.Proof.FrameK.Host
import proofs.«156783_j90975997264310_2_alg».proof.Proof.FrameK.Body
import proofs.«156783_j90975997264310_2_alg».proof.Proof.Gen.Kernel.Points

/-! # The frame run

The pipeline stages one face per grid point: five input windows (the face and its four border strips, each fetched
at every point) and one output window written back at every point. With the arrays as the region finds them (`V`),
every input's staging buffer holds its block at every point, the body leaves the output's at `out0_5` of those blocks,
and the region's invariant (the scoped rest and the generator register) passes through untouched. The library's frame
run then gives every weakly fair execution of `@main`: it terminates, the output array holds the blocks written back,
every input array — the argument among them — holds what it held at the region's entry, which for the argument is the
launched contents, and every other unscoped buffer is as the region found it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data over the region-entry arrays whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument is window 0's array, an input: the frame run's post has it at what the library computes for an input,
    its contents at the region's entry, which are the launched ones. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The pipeline's proof data -/

/-- The proof data of the pipeline on core `c`: the arrays as the region finds them; after the body at point `t`
    each input's buffer at its block and the output's at `out0_5` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents (by projection: the fold `V` is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of `@main` on
    the TensorCores terminates, and every final state has every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program's argument is, in every final state, as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.FrameKI.Host.lean ====
import proofs.«156783_j90975997264310_2_alg».proof.Proof.Gen.KernelIdeal.Launch
import Idealize.ShloMosaic.Lib.Pipeline.FrameBody

/-! # The host stretch before the region

`@main` runs 1,582 host operations, in 49 stretches, and then its one region. This module names the contents of a
core's TensorCore buffers when the region is entered (`V`: the fold of the operations' results over the launched
memory), shows that `@main` is that prefix followed by the region (`hmain`), and that no operation of the prefix
writes the program's argument, which the region therefore finds as launched (`V_main_arg0`). -/

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s TensorCore buffers when the region is entered: the launched contents after the 49 stretches of host
    operations, in program order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]) (fun b => m (c, b)) b

/-! ## No operation of the prefix allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor

/-- `@main` up to its region: the 49 stretches, then the region's entry. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh⟩) main_chain

/-! ## The argument is never written

Every operation writes exactly its result buffer, and no result buffer is the argument's: stretch by stretch. -/

theorem hostOps0_keeps : ∀ op ∈ (hostOps0 : List (HloOp τ sig (Elt F))), Proc.devRef (τ := τ) .tc main_arg0 ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_1_keeps : ∀ op ∈ (hostOps0_1 : List (HloOp τ sig (Elt F))), Proc.devRef (τ := τ) .tc main_arg0 ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_2_keeps : ∀ op ∈ (hostOps0_2 : List (HloOp τ sig (Elt F))), Proc.devRef (τ := τ) .tc main_arg0 ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_3_keeps : ∀ op ∈ (hostOps0_3 : List (HloOp τ sig (Elt F))), Proc.devRef (τ := τ) .tc main_arg0 ∉ op.writes :=
  List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_4_keeps : ∀ op ∈ (hostOps0_4 : List (HloOp τ sig (Elt F))), Proc.devRef (τ := τ) .tc main_arg0 ∉ op.writes :=
  List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_5_keeps : ∀ op ∈ (hostOps0_5 : List (HloOp τ sig (Elt F))), Proc.devRef (τ := τ) .tc main_arg0 ∉ op.writes :=
  List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_6_keeps : ∀ op ∈ (hostOps0_6 : List (HloOp τ sig (Elt F))), Proc.devRef (τ := τ) .tc main_arg0 ∉ op.writes :=
  List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_7_keeps : ∀ op ∈ (hostOps0_7 : List (HloOp τ sig (Elt F))), Proc.devRef (τ := τ) .tc main_arg0 ∉ op.writes :=
  List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_8_keeps : ∀ op ∈ (hostOps0_8 : List (HloOp τ sig (Elt F))), Proc.devRef (τ := τ) .tc main_arg0 ∉ op.writes :=
  List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_9_keeps : ∀ op ∈ (hostOps0_9 : List (HloOp τ sig (Elt F))), Proc.devRef (τ := τ) .tc main_arg0 ∉ op.writes :=
  List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_10_keeps : ∀ op ∈ (hostOps0_10 : List (HloOp τ sig (Elt F))), Proc.devRef (τ := τ) .tc main_arg0 ∉ op.writes :=
  List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_11_keeps : ∀ op ∈ (hostOps0_11 : List (HloOp τ sig (Elt F))), Proc.devRef (τ := τ) .tc main_arg0 ∉ op.writes :=
  List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_12_keeps : ∀ op ∈ (hostOps0_12 : List (HloOp τ sig (Elt F))), Proc.devRef (τ := τ) .tc main_arg0 ∉ op.writes :=
  List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_13_keeps : ∀ op ∈ (hostOps0_13 : List (HloOp τ sig (Elt F))), Proc.devRef (τ := τ) .tc main_arg0 ∉ op.writes :=
  List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_14_keeps : ∀ op ∈ (hostOps0_14 : List (HloOp τ sig (Elt F))), Proc.devRef (τ := τ) .tc main_arg0 ∉ op.writes :=
  List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_15_keeps : ∀ op ∈ (hostOps0_15 : List (HloOp τ sig (Elt F))), Proc.devRef (τ := τ) .tc main_arg0 ∉ op.writes :=
  List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_16_keeps : ∀ op ∈ (hostOps0_16 : List (HloOp τ sig (Elt F))), Proc.devRef (τ := τ) .tc main_arg0 ∉ op.writes :=
  List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_17_keeps : ∀ op ∈ (hostOps0_17 : List (HloOp τ sig (Elt F))), Proc.devRef (τ := τ) .tc main_arg0 ∉ op.writes :=
  List.forall_iff_forall_mem.mp (by
    simp only [hostOps0_17, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_18_keeps : ∀ op ∈ (hostOps0_18 : List (HloOp τ sig (Elt F))), Proc.devRef (τ := τ) .tc main_arg0 ∉ op.writes :=
  List.forall_iff_forall_mem.mp (by
    simp only [hostOps0_18, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_19_keeps : ∀ op ∈ (hostOps0_19 : List (HloOp τ sig (Elt F))), Proc.devRef (τ := τ) .tc main_arg0 ∉ op.writes :=
  List.forall_iff_forall_mem.mp (by
    simp only [hostOps0_19, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_20_keeps : ∀ op ∈ (hostOps0_20 : List (HloOp τ sig (Elt F))), Proc.devRef (τ := τ) .tc main_arg0 ∉ op.writes :=
  List.forall_iff_forall_mem.mp (by
    simp only [hostOps0_20, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_21_keeps : ∀ op ∈ (hostOps0_21 : List (HloOp τ sig (Elt F))), Proc.devRef (τ := τ) .tc main_arg0 ∉ op.writes :=
  List.forall_iff_forall_mem.mp (by
    simp only [hostOps0_21, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_22_keeps : ∀ op ∈ (hostOps0_22 : List (HloOp τ sig (Elt F))), Proc.devRef (τ := τ) .tc main_arg0 ∉ op.writes :=
  List.forall_iff_forall_mem.mp (by
    simp only [hostOps0_22, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_23_keeps : ∀ op ∈ (hostOps0_23 : List (HloOp τ sig (Elt F))), Proc.devRef (τ := τ) .tc main_arg0 ∉ op.writes :=
  List.forall_iff_forall_mem.mp (by
    simp only [hostOps0_23, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_24_keeps : ∀ op ∈ (hostOps0_24 : List (HloOp τ sig (Elt F))), Proc.devRef (τ := τ) .tc main_arg0 ∉ op.writes :=
  List.forall_iff_forall_mem.mp (by
    simp only [hostOps0_24, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_25_keeps : ∀ op ∈ (hostOps0_25 : List (HloOp τ sig (Elt F))), Proc.devRef (τ := τ) .tc main_arg0 ∉ op.writes :=
  List.forall_iff_forall_mem.mp (by
    simp only [hostOps0_25, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_26_keeps : ∀ op ∈ (hostOps0_26 : List (HloOp τ sig (Elt F))), Proc.devRef (τ := τ) .tc main_arg0 ∉ op.writes :=
  List.forall_iff_forall_mem.mp (by
    simp only [hostOps0_26, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_27_keeps : ∀ op ∈ (hostOps0_27 : List (HloOp τ sig (Elt F))), Proc.devRef (τ := τ) .tc main_arg0 ∉ op.writes :=
  List.forall_iff_forall_mem.mp (by
    simp only [hostOps0_27, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_28_keeps : ∀ op ∈ (hostOps0_28 : List (HloOp τ sig (Elt F))), Proc.devRef (τ := τ) .tc main_arg0 ∉ op.writes :=
  List.forall_iff_forall_mem.mp (by
    simp only [hostOps0_28, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_29_keeps : ∀ op ∈ (hostOps0_29 : List (HloOp τ sig (Elt F))), Proc.devRef (τ := τ) .tc main_arg0 ∉ op.writes :=
  List.forall_iff_forall_mem.mp (by
    simp only [hostOps0_29, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_30_keeps : ∀ op ∈ (hostOps0_30 : List (HloOp τ sig (Elt F))), Proc.devRef (τ := τ) .tc main_arg0 ∉ op.writes :=
  List.forall_iff_forall_mem.mp (by
    simp only [hostOps0_30, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_31_keeps : ∀ op ∈ (hostOps0_31 : List (HloOp τ sig (Elt F))), Proc.devRef (τ := τ) .tc main_arg0 ∉ op.writes :=
  List.forall_iff_forall_mem.mp (by
    simp only [hostOps0_31, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_32_keeps : ∀ op ∈ (hostOps0_32 : List (HloOp τ sig (Elt F))), Proc.devRef (τ := τ) .tc main_arg0 ∉ op.writes :=
  List.forall_iff_forall_mem.mp (by
    simp only [hostOps0_32, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_33_keeps : ∀ op ∈ (hostOps0_33 : List (HloOp τ sig (Elt F))), Proc.devRef (τ := τ) .tc main_arg0 ∉ op.writes :=
  List.forall_iff_forall_mem.mp (by
    simp only [hostOps0_33, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_34_keeps : ∀ op ∈ (hostOps0_34 : List (HloOp τ sig (Elt F))), Proc.devRef (τ := τ) .tc main_arg0 ∉ op.writes :=
  List.forall_iff_forall_mem.mp (by
    simp only [hostOps0_34, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_35_keeps : ∀ op ∈ (hostOps0_35 : List (HloOp τ sig (Elt F))), Proc.devRef (τ := τ) .tc main_arg0 ∉ op.writes :=
  List.forall_iff_forall_mem.mp (by
    simp only [hostOps0_35, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_36_keeps : ∀ op ∈ (hostOps0_36 : List (HloOp τ sig (Elt F))), Proc.devRef (τ := τ) .tc main_arg0 ∉ op.writes :=
  List.forall_iff_forall_mem.mp (by
    simp only [hostOps0_36, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_37_keeps : ∀ op ∈ (hostOps0_37 : List (HloOp τ sig (Elt F))), Proc.devRef (τ := τ) .tc main_arg0 ∉ op.writes :=
  List.forall_iff_forall_mem.mp (by
    simp only [hostOps0_37, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_38_keeps : ∀ op ∈ (hostOps0_38 : List (HloOp τ sig (Elt F))), Proc.devRef (τ := τ) .tc main_arg0 ∉ op.writes :=
  List.forall_iff_forall_mem.mp (by
    simp only [hostOps0_38, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_39_keeps : ∀ op ∈ (hostOps0_39 : List (HloOp τ sig (Elt F))), Proc.devRef (τ := τ) .tc main_arg0 ∉ op.writes :=
  List.forall_iff_forall_mem.mp (by
    simp only [hostOps0_39, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_40_keeps : ∀ op ∈ (hostOps0_40 : List (HloOp τ sig (Elt F))), Proc.devRef (τ := τ) .tc main_arg0 ∉ op.writes :=
  List.forall_iff_forall_mem.mp (by
    simp only [hostOps0_40, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_41_keeps : ∀ op ∈ (hostOps0_41 : List (HloOp τ sig (Elt F))), Proc.devRef (τ := τ) .tc main_arg0 ∉ op.writes :=
  List.forall_iff_forall_mem.mp (by
    simp only [hostOps0_41, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_42_keeps : ∀ op ∈ (hostOps0_42 : List (HloOp τ sig (Elt F))), Proc.devRef (τ := τ) .tc main_arg0 ∉ op.writes :=
  List.forall_iff_forall_mem.mp (by
    simp only [hostOps0_42, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_43_keeps : ∀ op ∈ (hostOps0_43 : List (HloOp τ sig (Elt F))), Proc.devRef (τ := τ) .tc main_arg0 ∉ op.writes :=
  List.forall_iff_forall_mem.mp (by
    simp only [hostOps0_43, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_44_keeps : ∀ op ∈ (hostOps0_44 : List (HloOp τ sig (Elt F))), Proc.devRef (τ := τ) .tc main_arg0 ∉ op.writes :=
  List.forall_iff_forall_mem.mp (by
    simp only [hostOps0_44, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_45_keeps : ∀ op ∈ (hostOps0_45 : List (HloOp τ sig (Elt F))), Proc.devRef (τ := τ) .tc main_arg0 ∉ op.writes :=
  List.forall_iff_forall_mem.mp (by
    simp only [hostOps0_45, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_46_keeps : ∀ op ∈ (hostOps0_46 : List (HloOp τ sig (Elt F))), Proc.devRef (τ := τ) .tc main_arg0 ∉ op.writes :=
  List.forall_iff_forall_mem.mp (by
    simp only [hostOps0_46, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_47_keeps : ∀ op ∈ (hostOps0_47 : List (HloOp τ sig (Elt F))), Proc.devRef (τ := τ) .tc main_arg0 ∉ op.writes :=
  List.forall_iff_forall_mem.mp (by
    simp only [hostOps0_47, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_48_keeps : ∀ op ∈ (hostOps0_48 : List (HloOp τ sig (Elt F))), Proc.devRef (τ := τ) .tc main_arg0 ∉ op.writes :=
  List.forall_iff_forall_mem.mp (by
    simp only [hostOps0_48, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- The region finds the argument as launched: a buffer none of the prefix's operations writes keeps its contents. -/
theorem V_main_arg0 (c : Dev nD) : V m c main_arg0 = m ((c : Thread nD τ).loc main_arg0) :=
  StableHlo.after_of_forall_not_mem (b := Proc.devRef .tc main_arg0) _ _ (fun op hop => by
    obtain ⟨ops, hops, hop'⟩ := List.mem_flatten.mp hop
    have hall : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] : List (List (HloOp τ sig (Elt F)))).Forall
        (fun ops => ∀ op ∈ ops, Proc.devRef (τ := τ) .tc main_arg0 ∉ op.writes) := by
      simp only [List.Forall]
      exact ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps⟩
    exact List.forall_iff_forall_mem.mp hall ops hops op hop')

end Cert.KernelIdeal.Hand

end
-- ==== Proof.FrameKI.Body.lean ====
import proofs.«156783_j90975997264310_2_alg».proof.Proof.Gen.KernelIdeal.Skeleton
import Idealize.ShloMosaic.Lib.Pipeline.FrameBody
import Idealize.ShloMosaic.Lib.Ring
import Idealize.ShloMosaic.Lib.Tactic

/-! # The kernel body on one face

The body loads its five input blocks whole (the face and its four border strips), loads its output block once
(the value is never used), and stores one value covering the output block: the three-piece concatenation along
axis 3 of the left strip, the (top, face, bottom) concatenation along axis 2, and the right strip. This module
says what the output buffer holds afterwards (`out0_5`: the canonical form of that single covering store) and proves
the body's triple. -/

-- membership in a rectangle of these extents is checked coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The whole-block rectangles the body reads and writes through -/

abbrev rX : Rect S1x32x128x128 := Rect.unit (s := S1x32x128x128) ![0, 0, 0, 0] S1x32x128x128.size inb_S1x32x128x128_S1x32x128x128_0_0_0_0
abbrev rH : Rect S1x32x2x128 := Rect.unit (s := S1x32x2x128) ![0, 0, 0, 0] S1x32x2x128.size inb_S1x32x2x128_S1x32x2x128_0_0_0_0
abbrev rV : Rect S1x32x132x2 := Rect.unit (s := S1x32x132x2) ![0, 0, 0, 0] S1x32x132x2.size inb_S1x32x132x2_S1x32x132x2_0_0_0_0
abbrev rO : Rect S1x32x132x132 := Rect.unit (s := S1x32x132x132) ![0, 0, 0, 0] S1x32x132x132.size inb_S1x32x132x132_S1x32x132x132_0_0_0_0

/-- The output block after the body, from the five input blocks: its one store, as a canonical piece list. -/
def out0_5 (x0 : Vec F S1x32x128x128 .f32) (x1 x2 : Vec F S1x32x2x128 .f32) (x3 x4 : Vec F S1x32x132x2 .f32) :
    Vec F S1x32x132x132 .f32 :=
  View.canon [⟨rO, k0_pay1 (View.ld x0 rX) (View.ld x1 rH) (View.ld x2 rH) (View.ld x3 rV) (View.ld x4 rV)⟩]

/-- The one store is of the whole block, so it covers it. -/
theorem cover0_5 (p0 : Vec F S1x32x132x132 .f32) (y : S1x32x132x132.Idx) :
    ∃ pc ∈ ([⟨rO, p0⟩] : List (View.Piece (Elt F) S1x32x132x132 .f32)), y ∈ pc.1.set :=
  View.cover_of_tiled [⟨rO, p0⟩] S1x32x132x132.size (by rfl) y

/-! ## The body's triple -/

set_option maxHeartbeats 1000000 in
/-- On whole staging memrefs, the inputs' at contents `xW` and the output's at anything, the body runs to the
    continuation holding the inputs' as they were and the output's at `out0_5` of the inputs'. The load of the output
    buffer reads whatever is there and its value is dropped. -/
theorem sound_kernel (c : Dev nD) (E : Set ℕ) (i : grid0.Coords)
    (arg1 : Memref sig .tc .vmem S1x32x128x128 .f32) (harg1 : arg1.IsWhole)
    (arg2 : Memref sig .tc .vmem S1x32x2x128 .f32) (harg2 : arg2.IsWhole)
    (arg3 : Memref sig .tc .vmem S1x32x2x128 .f32) (harg3 : arg3.IsWhole)
    (arg4 : Memref sig .tc .vmem S1x32x132x2 .f32) (harg4 : arg4.IsWhole)
    (arg5 : Memref sig .tc .vmem S1x32x132x2 .f32) (harg5 : arg5.IsWhole)
    (arg6 : Memref sig .tc .vmem S1x32x132x132 .f32) (harg6 : arg6.IsWhole)
    (x0 : Vec F S1x32x128x128 .f32) (x1 x2 : Vec F S1x32x2x128 .f32) (x3 x4 : Vec F S1x32x132x2 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__assemble_kernel i arg1 harg1 arg2 harg2 arg3 harg3 arg4 harg4 arg5 harg5 arg6 harg6) K := by
  simp only [cc0__assemble_kernel_eq_skeleton]; unfold cc0__assemble_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

end Cert.KernelIdeal.Hand

end
-- ==== Proof.FrameKI.lean ====
import proofs.«156783_j90975997264310_2_alg».proof.Proof.FrameKI.Host
import proofs.«156783_j90975997264310_2_alg».proof.Proof.FrameKI.Body
import proofs.«156783_j90975997264310_2_alg».proof.Proof.Gen.KernelIdeal.Points

/-! # The frame run

The pipeline stages one face per grid point: five input windows (the face and its four border strips, each fetched
at every point) and one output window written back at every point. With the arrays as the region finds them (`V`),
every input's staging buffer holds its block at every point, the body leaves the output's at `out0_5` of those blocks,
and the region's invariant (the scoped rest and the generator register) passes through untouched. The library's frame
run then gives every weakly fair execution of `@main`: it terminates, the output array holds the blocks written back,
every input array — the argument among them — holds what it held at the region's entry, which for the argument is the
launched contents, and every other unscoped buffer is as the region found it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data over the region-entry arrays whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument is window 0's array, an input: the frame run's post has it at what the library computes for an input,
    its contents at the region's entry, which are the launched ones. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The pipeline's proof data -/

/-- The proof data of the pipeline on core `c`: the arrays as the region finds them; after the body at point `t`
    each input's buffer at its block and the output's at `out0_5` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents (by projection: the fold `V` is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of `@main` on
    the TensorCores terminates, and every final state has every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program's argument is, in every final state, as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.LibWindowScatter.lean ====
import Idealize.ShloMosaic.Lib.ValueIdx
import Idealize.ShloMosaic.PureOps.ShapeOps

/-!
# A window written into a rank-4 array by a one-index scatter, read at an index

`zeros.at[..., s:s+h, :].set(piece)` lowers to a `stablehlo.scatter` whose one start index names the row axis
(axis 2) of a `[A, B, H, W]` operand and whose update is the whole `[A, B, h, W]` piece (every update axis a window
axis, nothing inserted). Read at `(a, b, i, j)` the result is the piece at row `i - s` when `s ≤ i < s + h` and the
operand elsewhere (`windowSet_apply`). The scatter is a left fold of single-position overwrites over all update
indices; the general fact about such folds is `foldl_overwrite_apply`: where every update that lands on a position
carries the same value, the fold reads that value there if some update lands, the start value if none does.
All extents are variables: nothing here evaluates the fold.
-/

namespace Cert.LibWindowScatter

open Idealize.ShloMosaic Idealize.ShloMosaic.ValueIdx

/-- A left fold of steps each of which overwrites at most one position (`g n`, with the value `v n`), read at a
    position `p`: if every step that lands on `p` writes the same value `c`, the fold reads `c` when some step
    lands on `p` and the start value otherwise. -/
theorem foldl_overwrite_apply {ι β γ : Type*} [DecidableEq β]
    (g : ι → Option β) (v : ι → γ) (step : (β → γ) → ι → (β → γ))
    (hstep : ∀ r n q, step r n q = if g n = some q then v n else r q) (p : β) (c : γ) :
    ∀ (L : List ι) (r₀ : β → γ), (∀ n ∈ L, g n = some p → v n = c) →
      L.foldl step r₀ p = (open Classical in if ∃ n ∈ L, g n = some p then c else r₀ p) := by
  classical
  intro L
  induction L with
  | nil => intro r₀ _; simp
  | cons n L ih =>
    intro r₀ h
    rw [List.foldl_cons, ih (step r₀ n) (fun m hm => h m (List.mem_cons_of_mem _ hm)), hstep]
    by_cases hn : g n = some p
    · have hc := h n (List.mem_cons_self ..) hn
      simp [hn, hc]
    · simp [hn]

section Window

variable {α : Type} {A B H W h : ℕ}

/-- The dimension numbers of a row-window write: all four update axes are window axes, none inserted, the one start
    component addresses axis 2. -/
abbrev rowDims (wf : ScatterDims.WF ⟨4, ![A, B, H, W]⟩ ⟨1, ![1]⟩ ⟨4, ![A, B, h, W]⟩ [0, 1, 2, 3] [] [2] 0) :
    ScatterDims ⟨4, ![A, B, H, W]⟩ ⟨1, ![1]⟩ ⟨4, ![A, B, h, W]⟩ :=
  { updateWindowDims := [0, 1, 2, 3], insertedWindowDims := [], scatterDimsToOperandDims := [2], indexVectorDim := 0, wf := wf }

variable (wf : ScatterDims.WF ⟨4, ![A, B, H, W]⟩ ⟨1, ![1]⟩ ⟨4, ![A, B, h, W]⟩ [0, 1, 2, 3] [] [2] 0)

/-- The window's start is the start index on the row axis and zero on the others. -/
theorem start_rowDims (idx : IVec ⟨1, ![1]⟩ 32) (s₀ : ℕ) (hidx : ∀ k, (idx k).toInt = (s₀ : ℤ))
    (q : (⟨4, ![A, B, h, W]⟩ : Shape).Idx) (c : Fin 4) :
    (rowDims wf).start q idx c = if c = 2 then (s₀ : ℤ) else 0 := by
  unfold ScatterDims.start
  by_cases hc : c = 2
  · subst hc; simp [hidx]
  · have : c ∉ ([2] : List (Fin 4)) := by simpa using hc
    simp [hc]

/-- The window coordinate on every axis is the update index's coordinate there. -/
theorem window_rowDims (q : (⟨4, ![A, B, h, W]⟩ : Shape).Idx) (c : Fin 4) :
    (rowDims wf).window q c = (q c).val := by
  fin_cases c <;> rfl

/-- Every update index lands, at the row shifted by the start. -/
theorem resultIdx_rowDims (idx : IVec ⟨1, ![1]⟩ 32) (s₀ : ℕ) (hidx : ∀ k, (idx k).toInt = (s₀ : ℤ)) (hs : s₀ + h ≤ H)
    (a : Fin A) (b : Fin B) (i : Fin h) (j : Fin W) :
    (rowDims wf).resultIdx? (ix4 a b i j) idx = some (ix4 a b (⟨s₀ + i.val, by omega⟩ : Fin H) j) := by
  have key : ∀ c : Fin 4, (rowDims wf).start (ix4 a b i j) idx c + ((rowDims wf).window (ix4 a b i j) c : ℤ)
      = ((ix4 a b (⟨s₀ + i.val, by omega⟩ : Fin H) j c).val : ℤ) := by
    intro c
    rw [start_rowDims wf idx s₀ hidx, window_rowDims]
    fin_cases c <;> simp
  unfold ScatterDims.resultIdx?
  rw [dif_pos (by
    intro c
    rw [key c]
    exact ⟨by omega, by exact_mod_cast (ix4 a b (⟨s₀ + i.val, by omega⟩ : Fin H) j c).isLt⟩)]
  congr 1
  funext c
  apply Fin.ext
  have := key c
  simp only [] at this ⊢
  omega

/-- **A row window written into a rank-4 array, read at an index** (the dimension numbers given as a record built
    from any proof of their conditions): inside the window the update at the row counted from the start, outside it
    the operand. -/
theorem windowSet_apply_rowDims (x : (⟨4, ![A, B, H, W]⟩ : Shape).Idx → α) (idx : IVec ⟨1, ![1]⟩ 32)
    (upd : (⟨4, ![A, B, h, W]⟩ : Shape).Idx → α) (s₀ : ℕ) (hidx : ∀ k, (idx k).toInt = (s₀ : ℤ)) (hs : s₀ + h ≤ H)
    (a : Fin A) (b : Fin B) (i : Fin H) (j : Fin W) :
    Host.scatter (rowDims wf) (fun _ b => b) x idx upd (ix4 a b i j)
      = if hi : s₀ ≤ i.val ∧ i.val < s₀ + h then upd (ix4 a b (⟨i.val - s₀, by omega⟩ : Fin h) j) else x (ix4 a b i j) := by
  classical
  unfold Host.scatter
  generalize hc : (if hi : s₀ ≤ i.val ∧ i.val < s₀ + h then upd (ix4 a b (⟨i.val - s₀, by omega⟩ : Fin h) j)
    else x (ix4 a b i j)) = c
  -- every update landing on the position carries the value of the statement
  have hall : ∀ n ∈ List.finRange (⟨4, ![A, B, h, W]⟩ : Shape).numel,
      (rowDims wf).resultIdx? ((⟨4, ![A, B, h, W]⟩ : Shape).rowMajor.symm n) idx = some (ix4 a b i j) →
      upd ((⟨4, ![A, B, h, W]⟩ : Shape).rowMajor.symm n) = c := by
    intro n _ hg
    obtain ⟨a', b', i', j', hq⟩ : ∃ (a' : Fin A) (b' : Fin B) (i' : Fin h) (j' : Fin W),
        (⟨4, ![A, B, h, W]⟩ : Shape).rowMajor.symm n = ix4 a' b' i' j' :=
      ⟨_, _, _, _, eq_ix4 (n0 := A) (n1 := B) (n2 := h) (n3 := W) _⟩
    rw [hq] at hg ⊢
    rw [resultIdx_rowDims wf idx s₀ hidx hs] at hg
    have e := Option.some.inj hg
    have e0 : a' = a := congrFun e 0
    have e1 : b' = b := congrFun e 1
    have e2 : s₀ + i'.val = i.val := congrArg Fin.val (congrFun e 2)
    have e3 : j' = j := congrFun e 3
    have hi : s₀ ≤ i.val ∧ i.val < s₀ + h := by
      have := i'.isLt
      constructor <;> omega
    subst e0 e1 e3
    rw [← hc, dif_pos hi]
    congr 2
    apply Fin.ext
    simp only
    omega
  refine (foldl_overwrite_apply
    (g := fun n => (rowDims wf).resultIdx? ((⟨4, ![A, B, h, W]⟩ : Shape).rowMajor.symm n) idx)
    (v := fun n => upd ((⟨4, ![A, B, h, W]⟩ : Shape).rowMajor.symm n)) _ ?_ (ix4 a b i j) c _ x hall).trans ?_
  · -- the step overwrites at the update's result index
    intro r n q
    dsimp only
    generalize (rowDims wf).resultIdx? ((⟨4, ![A, B, h, W]⟩ : Shape).rowMajor.symm n) idx = o
    cases o with
    | none => simp
    | some i' =>
      by_cases hq : q = i'
      · subst hq; simp
      · have : ¬ i' = q := fun e => hq e.symm
        simp [hq, this]
  by_cases hi : s₀ ≤ i.val ∧ i.val < s₀ + h
  · rw [if_pos]
    refine ⟨(⟨4, ![A, B, h, W]⟩ : Shape).rowMajor (ix4 a b (⟨i.val - s₀, by omega⟩ : Fin h) j), List.mem_finRange _, ?_⟩
    rw [Equiv.symm_apply_apply, resultIdx_rowDims wf idx s₀ hidx hs]
    congr 2
    apply Fin.ext
    simp only
    omega
  · rw [dif_neg hi] at hc
    rw [← hc]
    exact ite_self _

/-- **A row window written into a rank-4 array, read at an index**, for any dimension-number record with these four
    fields (a printed record applies with `rfl` four times). -/
theorem windowSet_apply (d : ScatterDims ⟨4, ![A, B, H, W]⟩ ⟨1, ![1]⟩ ⟨4, ![A, B, h, W]⟩)
    (huw : d.updateWindowDims = [0, 1, 2, 3]) (hiw : d.insertedWindowDims = []) (hsd : d.scatterDimsToOperandDims = [2])
    (hiv : d.indexVectorDim = 0)
    (x : (⟨4, ![A, B, H, W]⟩ : Shape).Idx → α) (idx : IVec ⟨1, ![1]⟩ 32)
    (upd : (⟨4, ![A, B, h, W]⟩ : Shape).Idx → α) (s₀ : ℕ) (hidx : ∀ k, (idx k).toInt = (s₀ : ℤ)) (hs : s₀ + h ≤ H)
    (a : Fin A) (b : Fin B) (i : Fin H) (j : Fin W) :
    Host.scatter d (fun _ b => b) x idx upd (ix4 a b i j)
      = if hi : s₀ ≤ i.val ∧ i.val < s₀ + h then upd (ix4 a b (⟨i.val - s₀, by omega⟩ : Fin h) j) else x (ix4 a b i j) := by
  obtain ⟨uw, iw, sd, iv, wf⟩ := d
  simp only at huw hiw hsd hiv
  subst huw hiw hsd hiv
  exact windowSet_apply_rowDims wf x idx upd s₀ hidx hs a b i j

end Window

end Cert.LibWindowScatter
-- ==== Proof.LibConcat3.lean ====
/-
  Three rank-4 arrays laid end to end along the row axis (axis 2) or the column axis (axis 3), read at an index:
  at (a, b, i, j) the concatenation is the first piece where the coordinate on the joined axis is below the first
  extent, the second piece (at the coordinate counted from its start) where it is below the first two extents, the
  third otherwise. And the statement that joins two ways of assembling a strip: writing three pieces as row windows
  at the starts 0, H1 and H1 + H2 into any array of height H1 + H2 + H3 gives their concatenation along the rows —
  the windows cover every row, so nothing of the array written into survives.
-/
import Idealize.ShloMosaic.Lib.Pipeline.Value
import Idealize.ShloMosaic.Lib.ValueIdx
import proofs.«156783_j90975997264310_2_alg».proof.Proof.LibWindowScatter

namespace Cert.LibConcat3

open Idealize.ShloMosaic Idealize.ShloMosaic.ValueIdx

/-- A 3-piece concatenate along the rows of rank-4 arrays, read at an index. -/
theorem concat3_rows_apply {α : Type} {A B H1 H2 H3 H W : ℕ} (x1 : (⟨4, ![A, B, H1, W]⟩ : Shape).Idx → α) (x2 : (⟨4, ![A, B, H2, W]⟩ : Shape).Idx → α) (x3 : (⟨4, ![A, B, H3, W]⟩ : Shape).Idx → α)
    (hc : Shape.Concatenates (([⟨⟨4, ![A, B, H1, W]⟩, x1⟩, ⟨⟨4, ![A, B, H2, W]⟩, x2⟩, ⟨⟨4, ![A, B, H3, W]⟩, x3⟩] : List ((s : Shape) × (s.Idx → α))).map (·.1)) ⟨4, ![A, B, H, W]⟩ 2)
    (hH : H = H1 + H2 + H3) (a : Fin A) (b : Fin B) (i : Fin H) (j : Fin W) :
    concatenate ⟨4, ![A, B, H, W]⟩ 2 [⟨⟨4, ![A, B, H1, W]⟩, x1⟩, ⟨⟨4, ![A, B, H2, W]⟩, x2⟩, ⟨⟨4, ![A, B, H3, W]⟩, x3⟩] hc (ix4 a b i j)
      = if h1 : i.val < H1 then x1 (ix4 a b ⟨i.val, h1⟩ j) else if h2 : i.val < H1 + H2 then x2 (ix4 a b ⟨i.val - H1, by omega⟩ j) else x3 (ix4 a b ⟨i.val - (H1 + H2), by omega⟩ j) := by
  by_cases h1 : i.val < H1
  · rw [dif_pos h1]
    refine concatenate_apply_piece (2 : Fin 4) _ hc (ix4 a b i j) 0 (by simp) ⟨4, ![A, B, H1, W]⟩ x1 rfl rfl 0 rfl
      (ix4 a b ⟨i.val, h1⟩ j) ?_ ?_
    · intro c hc'
      match c, hc' with
      | ⟨0, _⟩, _ => rfl
      | ⟨1, _⟩, _ => rfl
      | ⟨2, _⟩, hc' => exact absurd rfl hc'
      | ⟨3, _⟩, _ => rfl
    · show 0 + i.val = i.val
      omega
  · rw [dif_neg h1]
    by_cases h2 : i.val < H1 + H2
    · rw [dif_pos h2]
      refine concatenate_apply_piece (2 : Fin 4) _ hc (ix4 a b i j) 1 (by simp) ⟨4, ![A, B, H2, W]⟩ x2 rfl rfl H1 rfl
        (ix4 a b ⟨i.val - H1, by omega⟩ j) ?_ ?_
      · intro c hc'
        match c, hc' with
        | ⟨0, _⟩, _ => rfl
        | ⟨1, _⟩, _ => rfl
        | ⟨2, _⟩, hc' => exact absurd rfl hc'
        | ⟨3, _⟩, _ => rfl
      · show H1 + (i.val - H1) = i.val
        omega
    · rw [dif_neg h2]
      refine concatenate_apply_piece (2 : Fin 4) _ hc (ix4 a b i j) 2 (by simp) ⟨4, ![A, B, H3, W]⟩ x3 rfl rfl (H1 + H2) rfl
        (ix4 a b ⟨i.val - (H1 + H2), by omega⟩ j) ?_ ?_
      · intro c hc'
        match c, hc' with
        | ⟨0, _⟩, _ => rfl
        | ⟨1, _⟩, _ => rfl
        | ⟨2, _⟩, hc' => exact absurd rfl hc'
        | ⟨3, _⟩, _ => rfl
      · show H1 + H2 + (i.val - (H1 + H2)) = i.val
        omega

/-- A 3-piece concatenate along the columns of rank-4 arrays, read at an index. -/
theorem concat3_cols_apply {α : Type} {A B H W1 W2 W3 W : ℕ} (x1 : (⟨4, ![A, B, H, W1]⟩ : Shape).Idx → α) (x2 : (⟨4, ![A, B, H, W2]⟩ : Shape).Idx → α) (x3 : (⟨4, ![A, B, H, W3]⟩ : Shape).Idx → α)
    (hc : Shape.Concatenates (([⟨⟨4, ![A, B, H, W1]⟩, x1⟩, ⟨⟨4, ![A, B, H, W2]⟩, x2⟩, ⟨⟨4, ![A, B, H, W3]⟩, x3⟩] : List ((s : Shape) × (s.Idx → α))).map (·.1)) ⟨4, ![A, B, H, W]⟩ 3)
    (hW : W = W1 + W2 + W3) (a : Fin A) (b : Fin B) (i : Fin H) (j : Fin W) :
    concatenate ⟨4, ![A, B, H, W]⟩ 3 [⟨⟨4, ![A, B, H, W1]⟩, x1⟩, ⟨⟨4, ![A, B, H, W2]⟩, x2⟩, ⟨⟨4, ![A, B, H, W3]⟩, x3⟩] hc (ix4 a b i j)
      = if h1 : j.val < W1 then x1 (ix4 a b i ⟨j.val, h1⟩) else if h2 : j.val < W1 + W2 then x2 (ix4 a b i ⟨j.val - W1, by omega⟩) else x3 (ix4 a b i ⟨j.val - (W1 + W2), by omega⟩) := by
  by_cases h1 : j.val < W1
  · rw [dif_pos h1]
    refine concatenate_apply_piece (3 : Fin 4) _ hc (ix4 a b i j) 0 (by simp) ⟨4, ![A, B, H, W1]⟩ x1 rfl rfl 0 rfl
      (ix4 a b i ⟨j.val, h1⟩) ?_ ?_
    · intro c hc'
      match c, hc' with
      | ⟨0, _⟩, _ => rfl
      | ⟨1, _⟩, _ => rfl
      | ⟨2, _⟩, _ => rfl
      | ⟨3, _⟩, hc' => exact absurd rfl hc'
    · show 0 + j.val = j.val
      omega
  · rw [dif_neg h1]
    by_cases h2 : j.val < W1 + W2
    · rw [dif_pos h2]
      refine concatenate_apply_piece (3 : Fin 4) _ hc (ix4 a b i j) 1 (by simp) ⟨4, ![A, B, H, W2]⟩ x2 rfl rfl W1 rfl
        (ix4 a b i ⟨j.val - W1, by omega⟩) ?_ ?_
      · intro c hc'
        match c, hc' with
        | ⟨0, _⟩, _ => rfl
        | ⟨1, _⟩, _ => rfl
        | ⟨2, _⟩, _ => rfl
        | ⟨3, _⟩, hc' => exact absurd rfl hc'
      · show W1 + (j.val - W1) = j.val
        omega
    · rw [dif_neg h2]
      refine concatenate_apply_piece (3 : Fin 4) _ hc (ix4 a b i j) 2 (by simp) ⟨4, ![A, B, H, W3]⟩ x3 rfl rfl (W1 + W2) rfl
        (ix4 a b i ⟨j.val - (W1 + W2), by omega⟩) ?_ ?_
      · intro c hc'
        match c, hc' with
        | ⟨0, _⟩, _ => rfl
        | ⟨1, _⟩, _ => rfl
        | ⟨2, _⟩, _ => rfl
        | ⟨3, _⟩, hc' => exact absurd rfl hc'
      · show W1 + W2 + (j.val - (W1 + W2)) = j.val
        omega

/-- **Three row windows covering every row are the concatenation of the pieces.** Writing `x1`, `x2`, `x3` (heights
    `H1`, `H2`, `H3`) as row windows at the starts `0`, `H1`, `H1 + H2` into ANY array `x` of height `H1 + H2 + H3`
    gives the 3-piece concatenate of the pieces along the rows. -/
theorem windowSet3_eq_concat3 {α : Type} {A B H1 H2 H3 H W : ℕ}
    (d1 : ScatterDims ⟨4, ![A, B, H, W]⟩ ⟨1, ![1]⟩ ⟨4, ![A, B, H1, W]⟩)
    (d2 : ScatterDims ⟨4, ![A, B, H, W]⟩ ⟨1, ![1]⟩ ⟨4, ![A, B, H2, W]⟩)
    (d3 : ScatterDims ⟨4, ![A, B, H, W]⟩ ⟨1, ![1]⟩ ⟨4, ![A, B, H3, W]⟩)
    (hd1 : d1.updateWindowDims = [0, 1, 2, 3] ∧ d1.insertedWindowDims = [] ∧ d1.scatterDimsToOperandDims = [2] ∧ d1.indexVectorDim = 0)
    (hd2 : d2.updateWindowDims = [0, 1, 2, 3] ∧ d2.insertedWindowDims = [] ∧ d2.scatterDimsToOperandDims = [2] ∧ d2.indexVectorDim = 0)
    (hd3 : d3.updateWindowDims = [0, 1, 2, 3] ∧ d3.insertedWindowDims = [] ∧ d3.scatterDimsToOperandDims = [2] ∧ d3.indexVectorDim = 0)
    (x : (⟨4, ![A, B, H, W]⟩ : Shape).Idx → α) (idx1 idx2 idx3 : IVec ⟨1, ![1]⟩ 32)
    (x1 : (⟨4, ![A, B, H1, W]⟩ : Shape).Idx → α) (x2 : (⟨4, ![A, B, H2, W]⟩ : Shape).Idx → α) (x3 : (⟨4, ![A, B, H3, W]⟩ : Shape).Idx → α)
    (s1 s2 s3 : ℕ) (hs1 : s1 = 0) (hs2 : s2 = H1) (hs3 : s3 = H1 + H2)
    (hidx1 : ∀ k, (idx1 k).toInt = (s1 : ℤ)) (hidx2 : ∀ k, (idx2 k).toInt = (s2 : ℤ)) (hidx3 : ∀ k, (idx3 k).toInt = (s3 : ℤ))
    (hc : Shape.Concatenates (([⟨⟨4, ![A, B, H1, W]⟩, x1⟩, ⟨⟨4, ![A, B, H2, W]⟩, x2⟩, ⟨⟨4, ![A, B, H3, W]⟩, x3⟩] : List ((s : Shape) × (s.Idx → α))).map (·.1)) ⟨4, ![A, B, H, W]⟩ 2)
    (hH : H = H1 + H2 + H3) :
    Host.scatter d3 (fun _ b => b) (Host.scatter d2 (fun _ b => b) (Host.scatter d1 (fun _ b => b) x idx1 x1) idx2 x2) idx3 x3
      = concatenate ⟨4, ![A, B, H, W]⟩ 2 [⟨⟨4, ![A, B, H1, W]⟩, x1⟩, ⟨⟨4, ![A, B, H2, W]⟩, x2⟩, ⟨⟨4, ![A, B, H3, W]⟩, x3⟩] hc := by
  funext q
  obtain ⟨a, b, i, j, rfl⟩ : ∃ (a : Fin A) (b : Fin B) (i : Fin H) (j : Fin W), q = ix4 a b i j :=
    ⟨_, _, _, _, eq_ix4 (n0 := A) (n1 := B) (n2 := H) (n3 := W) q⟩
  subst s1 s2 s3
  rw [concat3_rows_apply x1 x2 x3 hc hH,
    Cert.LibWindowScatter.windowSet_apply d3 hd3.1 hd3.2.1 hd3.2.2.1 hd3.2.2.2 _ idx3 x3 (H1 + H2) hidx3 (by omega),
    Cert.LibWindowScatter.windowSet_apply d2 hd2.1 hd2.2.1 hd2.2.2.1 hd2.2.2.2 _ idx2 x2 H1 hidx2 (by omega),
    Cert.LibWindowScatter.windowSet_apply d1 hd1.1 hd1.2.1 hd1.2.2.1 hd1.2.2.2 _ idx1 x1 0 hidx1 (by omega)]
  have hi := i.isLt
  by_cases h1 : i.val < H1
  · have n3 : ¬ (H1 + H2 ≤ i.val ∧ i.val < H1 + H2 + H3) := by omega
    have n2 : ¬ (H1 ≤ i.val ∧ i.val < H1 + H2) := by omega
    have p1 : 0 ≤ i.val ∧ i.val < 0 + H1 := by omega
    rw [dif_neg n3, dif_neg n2, dif_pos p1, dif_pos h1]
    rfl
  · by_cases h2 : i.val < H1 + H2
    · have n3 : ¬ (H1 + H2 ≤ i.val ∧ i.val < H1 + H2 + H3) := by omega
      have p2 : H1 ≤ i.val ∧ i.val < H1 + H2 := by omega
      rw [dif_neg n3, dif_pos p2, dif_neg h1, dif_pos h2]
    · have p3 : H1 + H2 ≤ i.val ∧ i.val < H1 + H2 + H3 := by omega
      rw [dif_pos p3, dif_neg h1, dif_neg h2]

end Cert.LibConcat3
-- ==== Proof.KValue.Pad.lean ====
/-
  The padded block as a function of its five input blocks, entry by entry. The body's stored value is the
  concatenation, along the last axis, of the left strip, the middle and the right strip, the middle being the
  concatenation along the row axis of the top strip, the face and the bottom strip. So the entry at row i, column j is
  taken from the left strip when j < 2, from the right strip when 130 ≤ j, and otherwise from the top strip (i < 2), the
  face (2 ≤ i < 130, at row i - 2) or the bottom strip (130 ≤ i), in each case at column j - 2.
-/
import proofs.«156783_j90975997264310_2_alg».proof.Proof.FrameKI.Body
import proofs.«156783_j90975997264310_2_alg».proof.Proof.LibConcat3
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.ValueIdx

variable {F : FTy → Type} [FloatOps F]

/-- One entry of a padded face, from the entries of the face and of its four strips, the leading coordinates `n`
    (which face) and `c` (which channel) carried along: any leading extent `N`. -/
def pad {α : Type} {N : ℕ} (x : (⟨4, ![N, 32, 128, 128]⟩ : Shape).Idx → α) (tp bt : (⟨4, ![N, 32, 2, 128]⟩ : Shape).Idx → α)
    (lf rt : (⟨4, ![N, 32, 132, 2]⟩ : Shape).Idx → α) (n : Fin N) (c : Fin 32) (i j : Fin 132) : α :=
  if hj1 : j.val < 2 then lf (ix4 n c i ⟨j.val, hj1⟩)
  else if hj2 : j.val < 2 + 128 then
    (if hi1 : i.val < 2 then tp (ix4 n c ⟨i.val, hi1⟩ ⟨j.val - 2, by omega⟩)
     else if hi2 : i.val < 2 + 128 then x (ix4 n c ⟨i.val - 2, by omega⟩ ⟨j.val - 2, by omega⟩)
     else bt (ix4 n c ⟨i.val - (2 + 128), by have := i.isLt; omega⟩ ⟨j.val - 2, by omega⟩))
  else rt (ix4 n c i ⟨j.val - (2 + 128), by have := j.isLt; omega⟩)

/-- The body's stored value at an entry is `pad` of its five loaded blocks. -/
theorem pay_apply (v0 : Vec F S1x32x128x128 .f32) (v1 v3 : Vec F S1x32x2x128 .f32) (v5 v7 : Vec F S1x32x132x2 .f32)
    (z : Fin 1) (c : Fin 32) (i j : Fin 132) :
    k0_pay1 v0 v1 v3 v5 v7 (ix4 z c i j) = pad v0 v1 v3 v5 v7 z c i j := by
  unfold k0_pay1 pad
  rw [shapeCast_self, shapeCast_self, shapeCast_self, shapeCast_self]
  refine (Cert.LibConcat3.concat3_cols_apply (W1 := 2) (W2 := 128) (W3 := 2) (W := 132) _ _ _ _ rfl z c i j).trans ?_
  refine dite_congr rfl (fun _ => rfl) (fun _ => dite_congr rfl (fun _ => ?_) (fun _ => rfl))
  exact Cert.LibConcat3.concat3_rows_apply (H1 := 2) (H2 := 128) (H3 := 2) (H := 132) _ _ _ _ rfl z c _ _

end Cert.KernelIdeal.HandValue

end
-- ==== Proof.KValue.Final.lean ====
import proofs.«156783_j90975997264310_2_alg».proof.Proof.FrameKI
import proofs.«156783_j90975997264310_2_alg».proof.Proof.KValue.Pad
import Idealize.ShloMosaic.Lib.Pipeline.Value
import Idealize.ShloMosaic.Lib.ValueIdx

/-! # From the blocks to the whole result

Grid point `t` stages face `t` of each of the five input arrays and writes back face `t` of the result: all six
index maps send `t` to block (`t`, 0, 0, 0). What point `t` writes back is therefore face `t` of the array `G` whose
entry (n, c, i, j) is the padded entry `pad` of the five arrays as the region finds them; the 96 faces cover the
result, so the result ends holding `G`. -/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The result array as one function of the five arrays the region finds: entry (n, c, i, j) is the padded entry of
    face `n`, channel `c`. -/
abbrev G (c : Dev nD) : S96x32x132x132.Idx → Elt F .f32 := fun k =>
  pad (V m c main_arg0 : S96x32x128x128.Idx → Elt F .f32) (V m c main_v646 : S96x32x2x128.Idx → Elt F .f32)
    (V m c main_v660 : S96x32x2x128.Idx → Elt F .f32) (V m c main_v674 : S96x32x132x2.Idx → Elt F .f32)
    (V m c main_v688 : S96x32x132x2.Idx → Elt F .f32) (k 0 : Fin 96) (k 1 : Fin 32) (k 2 : Fin 132) (k 3 : Fin 132)

theorem hz : (![0, 0, 0, 0] : Fin 4 → Nat) = fun _ => 0 := funext fun a => by fin_cases a <;> rfl

/-- A grid point as a face number. -/
abbrev pt (t : Fin cfg0.N) : Fin 96 := Fin.cast N_0 t

/-- The six index maps, decided over the grid: point `t` is block (`t`, 0, 0, 0) of every window. -/
theorem idx_facts : ∀ t : Fin cfg0.N, win0_0.index t (0 : Fin 4) = t.val
    ∧ win0_0.index t (1 : Fin 4) = 0
    ∧ win0_0.index t (2 : Fin 4) = 0
    ∧ win0_0.index t (3 : Fin 4) = 0
    ∧ win0_1.index t (0 : Fin 4) = t.val
    ∧ win0_1.index t (1 : Fin 4) = 0
    ∧ win0_1.index t (2 : Fin 4) = 0
    ∧ win0_1.index t (3 : Fin 4) = 0
    ∧ win0_2.index t (0 : Fin 4) = t.val
    ∧ win0_2.index t (1 : Fin 4) = 0
    ∧ win0_2.index t (2 : Fin 4) = 0
    ∧ win0_2.index t (3 : Fin 4) = 0
    ∧ win0_3.index t (0 : Fin 4) = t.val
    ∧ win0_3.index t (1 : Fin 4) = 0
    ∧ win0_3.index t (2 : Fin 4) = 0
    ∧ win0_3.index t (3 : Fin 4) = 0
    ∧ win0_4.index t (0 : Fin 4) = t.val
    ∧ win0_4.index t (1 : Fin 4) = 0
    ∧ win0_4.index t (2 : Fin 4) = 0
    ∧ win0_4.index t (3 : Fin 4) = 0
    ∧ win0_5.index t (0 : Fin 4) = t.val
    ∧ win0_5.index t (1 : Fin 4) = 0
    ∧ win0_5.index t (2 : Fin 4) = 0
    ∧ win0_5.index t (3 : Fin 4) = 0 :=
  (by decide +kernel : ∀ t : Fin grid0.N, _)

set_option maxHeartbeats 2000000 in
/-- Window 0's block at point `t` is face `t` of its array, entry by entry. -/
theorem iblk0_apply (c : Dev nD) (t : Fin cfg0.N) (z : Fin 1) (c' : Fin 32) (i : Fin 128) (j : Fin 128) :
    (iblk m c 0 t : Vec F S1x32x128x128 .f32) (ix4 z c' i j)
      = (V m c main_arg0 : S96x32x128x128.Idx → Elt F .f32) (ix4 (pt t) c' i j) := by
  obtain ⟨e00, e01, e02, e03, e10, e11, e12, e13, e20, e21, e22, e23, e30, e31, e32, e33, e40, e41, e42, e43, e50, e51, e52, e53⟩ := idx_facts t
  unfold iblk
  rw [View.read_apply]
  show (V m c main_arg0 : S96x32x128x128.Idx → Elt F .f32) _ = _
  refine congrArg (V m c main_arg0 : S96x32x128x128.Idx → Elt F .f32) (funext fun a => Fin.ext ?_)
  match a with
  | ⟨0, _⟩ => show win0_0.index t (0 : Fin 4) * 1 + 1 * z.val = t.val; have := z.isLt; omega
  | ⟨1, _⟩ => show win0_0.index t (1 : Fin 4) * 32 + 1 * c'.val = c'.val; omega
  | ⟨2, _⟩ => show win0_0.index t (2 : Fin 4) * 128 + 1 * i.val = i.val; omega
  | ⟨3, _⟩ => show win0_0.index t (3 : Fin 4) * 128 + 1 * j.val = j.val; omega

set_option maxHeartbeats 2000000 in
/-- Window 1's block at point `t` is face `t` of its array, entry by entry. -/
theorem iblk1_apply (c : Dev nD) (t : Fin cfg0.N) (z : Fin 1) (c' : Fin 32) (i : Fin 2) (j : Fin 128) :
    (iblk m c 1 t : Vec F S1x32x2x128 .f32) (ix4 z c' i j)
      = (V m c main_v646 : S96x32x2x128.Idx → Elt F .f32) (ix4 (pt t) c' i j) := by
  obtain ⟨e00, e01, e02, e03, e10, e11, e12, e13, e20, e21, e22, e23, e30, e31, e32, e33, e40, e41, e42, e43, e50, e51, e52, e53⟩ := idx_facts t
  unfold iblk
  rw [View.read_apply]
  show (V m c main_v646 : S96x32x2x128.Idx → Elt F .f32) _ = _
  refine congrArg (V m c main_v646 : S96x32x2x128.Idx → Elt F .f32) (funext fun a => Fin.ext ?_)
  match a with
  | ⟨0, _⟩ => show win0_1.index t (0 : Fin 4) * 1 + 1 * z.val = t.val; have := z.isLt; omega
  | ⟨1, _⟩ => show win0_1.index t (1 : Fin 4) * 32 + 1 * c'.val = c'.val; omega
  | ⟨2, _⟩ => show win0_1.index t (2 : Fin 4) * 2 + 1 * i.val = i.val; omega
  | ⟨3, _⟩ => show win0_1.index t (3 : Fin 4) * 128 + 1 * j.val = j.val; omega

set_option maxHeartbeats 2000000 in
/-- Window 2's block at point `t` is face `t` of its array, entry by entry. -/
theorem iblk2_apply (c : Dev nD) (t : Fin cfg0.N) (z : Fin 1) (c' : Fin 32) (i : Fin 2) (j : Fin 128) :
    (iblk m c 2 t : Vec F S1x32x2x128 .f32) (ix4 z c' i j)
      = (V m c main_v660 : S96x32x2x128.Idx → Elt F .f32) (ix4 (pt t) c' i j) := by
  obtain ⟨e00, e01, e02, e03, e10, e11, e12, e13, e20, e21, e22, e23, e30, e31, e32, e33, e40, e41, e42, e43, e50, e51, e52, e53⟩ := idx_facts t
  unfold iblk
  rw [View.read_apply]
  show (V m c main_v660 : S96x32x2x128.Idx → Elt F .f32) _ = _
  refine congrArg (V m c main_v660 : S96x32x2x128.Idx → Elt F .f32) (funext fun a => Fin.ext ?_)
  match a with
  | ⟨0, _⟩ => show win0_2.index t (0 : Fin 4) * 1 + 1 * z.val = t.val; have := z.isLt; omega
  | ⟨1, _⟩ => show win0_2.index t (1 : Fin 4) * 32 + 1 * c'.val = c'.val; omega
  | ⟨2, _⟩ => show win0_2.index t (2 : Fin 4) * 2 + 1 * i.val = i.val; omega
  | ⟨3, _⟩ => show win0_2.index t (3 : Fin 4) * 128 + 1 * j.val = j.val; omega

set_option maxHeartbeats 2000000 in
/-- Window 3's block at point `t` is face `t` of its array, entry by entry. -/
theorem iblk3_apply (c : Dev nD) (t : Fin cfg0.N) (z : Fin 1) (c' : Fin 32) (i : Fin 132) (j : Fin 2) :
    (iblk m c 3 t : Vec F S1x32x132x2 .f32) (ix4 z c' i j)
      = (V m c main_v674 : S96x32x132x2.Idx → Elt F .f32) (ix4 (pt t) c' i j) := by
  obtain ⟨e00, e01, e02, e03, e10, e11, e12, e13, e20, e21, e22, e23, e30, e31, e32, e33, e40, e41, e42, e43, e50, e51, e52, e53⟩ := idx_facts t
  unfold iblk
  rw [View.read_apply]
  show (V m c main_v674 : S96x32x132x2.Idx → Elt F .f32) _ = _
  refine congrArg (V m c main_v674 : S96x32x132x2.Idx → Elt F .f32) (funext fun a => Fin.ext ?_)
  match a with
  | ⟨0, _⟩ => show win0_3.index t (0 : Fin 4) * 1 + 1 * z.val = t.val; have := z.isLt; omega
  | ⟨1, _⟩ => show win0_3.index t (1 : Fin 4) * 32 + 1 * c'.val = c'.val; omega
  | ⟨2, _⟩ => show win0_3.index t (2 : Fin 4) * 132 + 1 * i.val = i.val; omega
  | ⟨3, _⟩ => show win0_3.index t (3 : Fin 4) * 2 + 1 * j.val = j.val; omega

set_option maxHeartbeats 2000000 in
/-- Window 4's block at point `t` is face `t` of its array, entry by entry. -/
theorem iblk4_apply (c : Dev nD) (t : Fin cfg0.N) (z : Fin 1) (c' : Fin 32) (i : Fin 132) (j : Fin 2) :
    (iblk m c 4 t : Vec F S1x32x132x2 .f32) (ix4 z c' i j)
      = (V m c main_v688 : S96x32x132x2.Idx → Elt F .f32) (ix4 (pt t) c' i j) := by
  obtain ⟨e00, e01, e02, e03, e10, e11, e12, e13, e20, e21, e22, e23, e30, e31, e32, e33, e40, e41, e42, e43, e50, e51, e52, e53⟩ := idx_facts t
  unfold iblk
  rw [View.read_apply]
  show (V m c main_v688 : S96x32x132x2.Idx → Elt F .f32) _ = _
  refine congrArg (V m c main_v688 : S96x32x132x2.Idx → Elt F .f32) (funext fun a => Fin.ext ?_)
  match a with
  | ⟨0, _⟩ => show win0_4.index t (0 : Fin 4) * 1 + 1 * z.val = t.val; have := z.isLt; omega
  | ⟨1, _⟩ => show win0_4.index t (1 : Fin 4) * 32 + 1 * c'.val = c'.val; omega
  | ⟨2, _⟩ => show win0_4.index t (2 : Fin 4) * 132 + 1 * i.val = i.val; omega
  | ⟨3, _⟩ => show win0_4.index t (3 : Fin 4) * 2 + 1 * j.val = j.val; omega

set_option maxHeartbeats 2000000 in
/-- An element of the output's block at point `t` sits in the result at face `t`, same channel, row and column. -/
theorem emb5 (t : Fin cfg0.N) (z : Fin 1) (c' : Fin 32) (i j : Fin 132) :
    ((cfg0.win 5).blk t).view.emb (ix4 z c' i j) = (ix4 (pt t) c' i j : S96x32x132x132.Idx) := by
  obtain ⟨e00, e01, e02, e03, e10, e11, e12, e13, e20, e21, e22, e23, e30, e31, e32, e33, e40, e41, e42, e43, e50, e51, e52, e53⟩ := idx_facts t
  refine funext fun a => Fin.ext ?_
  match a with
  | ⟨0, _⟩ => show win0_5.index t (0 : Fin 4) * 1 + 1 * z.val = t.val; have := z.isLt; omega
  | ⟨1, _⟩ => show win0_5.index t (1 : Fin 4) * 32 + 1 * c'.val = c'.val; omega
  | ⟨2, _⟩ => show win0_5.index t (2 : Fin 4) * 132 + 1 * i.val = i.val; omega
  | ⟨3, _⟩ => show win0_5.index t (3 : Fin 4) * 132 + 1 * j.val = j.val; omega

set_option maxHeartbeats 2000000 in
/-- What point `t` writes back is face `t` of `G`. -/
theorem flushed5_eq (c : Dev nD) (t : Fin cfg0.N) :
    (dats m 0 c).flushed 5 t = ((cfg0.win 5).blk t).view.read (Elt F) (G m c) := by
  show (cfg0.win 5).cut (grid0.coords t) ((dats m 0 c).after 5 t) = _
  rw [after0_5]
  unfold out0_5
  rw [View.canon_unit_zero hz]
  simp only [View.ld_unit_zero (S := S1x32x128x128) hz, View.ld_unit_zero (S := S1x32x2x128) hz,
    View.ld_unit_zero (S := S1x32x132x2) hz]
  refine funext fun (y : S1x32x132x132.Idx) => ?_
  obtain ⟨z, c', i, j, rfl⟩ : ∃ (z : Fin 1) (c' : Fin 32) (i j : Fin 132), y = ix4 z c' i j :=
    ⟨y 0, y 1, y 2, y 3, eq_ix4 y⟩
  show k0_pay1 (iblk m c 0 t) (iblk m c 1 t) (iblk m c 2 t) (iblk m c 3 t) (iblk m c 4 t) (ix4 z c' i j)
    = G m c (((cfg0.win 5).blk t).view.emb (ix4 z c' i j))
  rw [pay_apply, emb5]
  show pad _ _ _ _ _ z c' i j = pad _ _ _ _ _ (pt t) c' i j
  unfold pad
  exact dite_congr rfl (fun _ => iblk3_apply m c t z c' _ _) fun _ =>
    dite_congr rfl (fun _ => dite_congr rfl (fun _ => iblk1_apply m c t z c' _ _) fun _ =>
      dite_congr rfl (fun _ => iblk0_apply m c t z c' _ _) fun _ => iblk2_apply m c t z c' _ _)
      fun _ => iblk4_apply m c t z c' _ _

set_option maxHeartbeats 2000000 in
/-- An index of the result is in point `t`'s block iff each coordinate is in the block's range on its axis. -/
theorem mem_blk5 (t : Fin cfg0.N) (k : S96x32x132x132.Idx) :
    k ∈ ((cfg0.win 5).blk t).view.set ↔ ∀ a : Fin 4, win0_5.index t a * S1x32x132x132.size a ≤ (k a).val
      ∧ (k a).val < win0_5.index t a * S1x32x132x132.size a + S1x32x132x132.size a := by
  show k ∈ ((View.whole main_v689).slice (win0_5.rect t)).set ↔ _
  rw [View.set_slice_whole, Rect.mem_set_unit]
  exact Iff.rfl

set_option maxHeartbeats 2000000 in
/-- Every index of the result is in the block of the point numbered by its face. -/
theorem cover5 (k : S96x32x132x132.Idx) :
    ∃ t : Fin cfg0.N, (cfg0.win 5).flush t = true ∧ k ∈ ((cfg0.win 5).blk t).view.set := by
  refine ⟨Fin.cast N_0.symm (k 0 : Fin 96), flush0_5 _, ?_⟩
  obtain ⟨e00, e01, e02, e03, e10, e11, e12, e13, e20, e21, e22, e23, e30, e31, e32, e33, e40, e41, e42, e43, e50, e51, e52, e53⟩ := idx_facts (Fin.cast N_0.symm (k 0 : Fin 96))
  rw [mem_blk5]
  intro a
  have h1 : (k 1).val < 32 := (k 1).isLt
  have h2 : (k 2).val < 132 := (k 2).isLt
  have h3 : (k 3).val < 132 := (k 3).isLt
  match a with
  | ⟨0, _⟩ => show win0_5.index _ (0 : Fin 4) * 1 ≤ (k 0).val ∧ (k 0).val < win0_5.index _ (0 : Fin 4) * 1 + 1
              rw [e50]; show (k 0).val * 1 ≤ (k 0).val ∧ (k 0).val < (k 0).val * 1 + 1; omega
  | ⟨1, _⟩ => show win0_5.index _ (1 : Fin 4) * 32 ≤ (k 1).val ∧ (k 1).val < win0_5.index _ (1 : Fin 4) * 32 + 32
              rw [e51]; omega
  | ⟨2, _⟩ => show win0_5.index _ (2 : Fin 4) * 132 ≤ (k 2).val ∧ (k 2).val < win0_5.index _ (2 : Fin 4) * 132 + 132
              rw [e52]; omega
  | ⟨3, _⟩ => show win0_5.index _ (3 : Fin 4) * 132 ≤ (k 3).val ∧ (k 3).val < win0_5.index _ (3 : Fin 4) * 132 + 132
              rw [e53]; omega

/-- The result array after the run is `G`. -/
theorem final5 (c : Dev nD) : (dats m 0 c).arrAt 5 cfg0.N = G m c :=
  (dats m 0 c).arrAt_eq_of_cover 5 (G m c) (fun t _ => flushed5_eq m c t) cover5

/-- The run, read: the result array at `G`, the argument as launched. -/
theorem run : θ_run defs (onTc (τ := τ) (main (F := F))) ⟨m, fun _ => 0, ρ⟩ fun r => ∀ c : Dev nD,
      r.2.mem ((c : Thread nD τ).loc main_v689) = G m c
      ∧ r.2.mem ((c : Thread nD τ).loc main_arg0) = m ((c : Thread nD τ).loc main_arg0) :=
  (θ_run defs _ _).mono (fun r h c => ⟨((h c).1 5).trans (final5 m c),
      ((h c).1 0).trans (((dats m 0 c).arrAt_in 0 rfl _).trans ((A_eq m c 0).trans (V_main_arg0 m c)))⟩)
    (run_main m ρ)

end Cert.KernelIdeal.HandValue

end
-- ==== Proof.RefBase.lean ====
import Idealize.ShloMosaic.Lib.StableHlo.Run
import Idealize.ShloMosaic.Lib.Pipeline.Frame

namespace Cert.ReferenceIdeal.Hand

open Idealize.ShloMosaic Idealize.SL.Sem

variable {τ : Topo} {sig : RefSig} {Val : EltTy → Type}

/-- An operation whose one written buffer is in a list of references writes inside that list (as device buffers). -/
theorem writes_sub {op : HloOp τ sig Val} {y : Ref sig .tc} {W : List (Ref sig .tc)}
    (h : op.writes = {Proc.devRef .tc y}) (hy : y ∈ W) : op.writes ⊆ (W.map (Proc.devRef (τ := τ) .tc)).toFinset := by
  rw [h, Finset.singleton_subset_iff, List.mem_toFinset]; exact List.mem_map_of_mem hy

/-- A property of every element of two lists holds of every element of their concatenation. -/
theorem forall_append {α : Type _} {p : α → Prop} {l₁ l₂ : List α} (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)

/-- A buffer that each of two lines leaves alone is left alone by the two run in turn. -/
theorem keeps_append {b : DevRef τ sig} {l₁ l₂ : List (HloOp τ sig Val)}
    (h₁ : ∀ V : Valuation τ sig Val, StableHlo.after l₁ V b = V b) (h₂ : ∀ V : Valuation τ sig Val, StableHlo.after l₂ V b = V b)
    (V : Valuation τ sig Val) : StableHlo.after (l₁ ++ l₂) V b = V b := by
  rw [StableHlo.after_append, h₂, h₁]

end Cert.ReferenceIdeal.Hand
-- ==== Proof.RefOps0.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 0 of the reference's @main, in program order; where the program calls a local function,
    the callee's operations stand in its place, over the buffers of that call. -/
abbrev ops0 : List (HloOp τ sig (Elt F)) :=
  [ StableHlo.reshape main_arg0 main_v0 rfl shapeCasts_S96x32x128x128_S8x12x32x128x128,
    StableHlo.unary main_v0 main_v1 ((extractStridedSlice S8x1x32x128x128 ![0, 0, 0, 0, 0] · slices_S8x12x32x128x128_S8x1x32x128x128_0_0_0_0_0) : (⟨S8x12x32x128x128, .f32⟩ : BufTy).Contents (Elt F) → (⟨S8x1x32x128x128, .f32⟩ : BufTy).Contents (Elt F)),
    StableHlo.reshape main_v1 main_v2 rfl shapeCasts_S8x1x32x128x128_S8x32x128x128,
    StableHlo.unary main_v0 main_v3 ((extractStridedSlice S8x1x32x128x128 ![0, 1, 0, 0, 0] · slices_S8x12x32x128x128_S8x1x32x128x128_0_1_0_0_0) : (⟨S8x12x32x128x128, .f32⟩ : BufTy).Contents (Elt F) → (⟨S8x1x32x128x128, .f32⟩ : BufTy).Contents (Elt F)),
    StableHlo.reshape main_v3 main_v4 rfl shapeCasts_S8x1x32x128x128_S8x32x128x128,
    StableHlo.unary main_v0 main_v5 ((extractStridedSlice S8x1x32x128x128 ![0, 2, 0, 0, 0] · slices_S8x12x32x128x128_S8x1x32x128x128_0_2_0_0_0) : (⟨S8x12x32x128x128, .f32⟩ : BufTy).Contents (Elt F) → (⟨S8x1x32x128x128, .f32⟩ : BufTy).Contents (Elt F)),
    StableHlo.reshape main_v5 main_v6 rfl shapeCasts_S8x1x32x128x128_S8x32x128x128,
    StableHlo.unary main_v0 main_v7 ((extractStridedSlice S8x1x32x128x128 ![0, 3, 0, 0, 0] · slices_S8x12x32x128x128_S8x1x32x128x128_0_3_0_0_0) : (⟨S8x12x32x128x128, .f32⟩ : BufTy).Contents (Elt F) → (⟨S8x1x32x128x128, .f32⟩ : BufTy).Contents (Elt F)),
    StableHlo.reshape main_v7 main_v8 rfl shapeCasts_S8x1x32x128x128_S8x32x128x128,
    StableHlo.unary main_v0 main_v9 ((extractStridedSlice S8x1x32x128x128 ![0, 4, 0, 0, 0] · slices_S8x12x32x128x128_S8x1x32x128x128_0_4_0_0_0) : (⟨S8x12x32x128x128, .f32⟩ : BufTy).Contents (Elt F) → (⟨S8x1x32x128x128, .f32⟩ : BufTy).Contents (Elt F)),
    StableHlo.reshape main_v9 main_v10 rfl shapeCasts_S8x1x32x128x128_S8x32x128x128,
    StableHlo.unary main_v0 main_v11 ((extractStridedSlice S8x1x32x128x128 ![0, 5, 0, 0, 0] · slices_S8x12x32x128x128_S8x1x32x128x128_0_5_0_0_0) : (⟨S8x12x32x128x128, .f32⟩ : BufTy).Contents (Elt F) → (⟨S8x1x32x128x128, .f32⟩ : BufTy).Contents (Elt F)),
    StableHlo.reshape main_v11 main_v12 rfl shapeCasts_S8x1x32x128x128_S8x32x128x128,
    StableHlo.unary main_v0 main_v13 ((extractStridedSlice S8x1x32x128x128 ![0, 6, 0, 0, 0] · slices_S8x12x32x128x128_S8x1x32x128x128_0_6_0_0_0) : (⟨S8x12x32x128x128, .f32⟩ : BufTy).Contents (Elt F) → (⟨S8x1x32x128x128, .f32⟩ : BufTy).Contents (Elt F)),
    StableHlo.reshape main_v13 main_v14 rfl shapeCasts_S8x1x32x128x128_S8x32x128x128,
    StableHlo.unary main_v0 main_v15 ((extractStridedSlice S8x1x32x128x128 ![0, 7, 0, 0, 0] · slices_S8x12x32x128x128_S8x1x32x128x128_0_7_0_0_0) : (⟨S8x12x32x128x128, .f32⟩ : BufTy).Contents (Elt F) → (⟨S8x1x32x128x128, .f32⟩ : BufTy).Contents (Elt F)),
    StableHlo.reshape main_v15 main_v16 rfl shapeCasts_S8x1x32x128x128_S8x32x128x128,
    StableHlo.unary main_v0 main_v17 ((extractStridedSlice S8x1x32x128x128 ![0, 8, 0, 0, 0] · slices_S8x12x32x128x128_S8x1x32x128x128_0_8_0_0_0) : (⟨S8x12x32x128x128, .f32⟩ : BufTy).Contents (Elt F) → (⟨S8x1x32x128x128, .f32⟩ : BufTy).Contents (Elt F)),
    StableHlo.reshape main_v17 main_v18 rfl shapeCasts_S8x1x32x128x128_S8x32x128x128,
    StableHlo.unary main_v0 main_v19 ((extractStridedSlice S8x1x32x128x128 ![0, 9, 0, 0, 0] · slices_S8x12x32x128x128_S8x1x32x128x128_0_9_0_0_0) : (⟨S8x12x32x128x128, .f32⟩ : BufTy).Contents (Elt F) → (⟨S8x1x32x128x128, .f32⟩ : BufTy).Contents (Elt F)),
    StableHlo.reshape main_v19 main_v20 rfl shapeCasts_S8x1x32x128x128_S8x32x128x128,
    StableHlo.unary main_v0 main_v21 ((extractStridedSlice S8x1x32x128x128 ![0, 10, 0, 0, 0] · slices_S8x12x32x128x128_S8x1x32x128x128_0_10_0_0_0) : (⟨S8x12x32x128x128, .f32⟩ : BufTy).Contents (Elt F) → (⟨S8x1x32x128x128, .f32⟩ : BufTy).Contents (Elt F)),
    StableHlo.reshape main_v21 main_v22 rfl shapeCasts_S8x1x32x128x128_S8x32x128x128,
    StableHlo.unary main_v0 main_v23 ((extractStridedSlice S8x1x32x128x128 ![0, 11, 0, 0, 0] · slices_S8x12x32x128x128_S8x1x32x128x128_0_11_0_0_0) : (⟨S8x12x32x128x128, .f32⟩ : BufTy).Contents (Elt F) → (⟨S8x1x32x128x128, .f32⟩ : BufTy).Contents (Elt F)),
    StableHlo.reshape main_v23 main_v24 rfl shapeCasts_S8x1x32x128x128_S8x32x128x128,
    StableHlo.TRef.unary (.of main_v4 : StableHlo.TRef sig ⟨S8x32x128x128, .f32⟩) main_call0.call0.v0 (Host.reverse [3]),
    StableHlo.TRef.unary main_call0.call0.v0 main_call0.v1 (transpose S8x32x128x128 [0, 1, 3, 2] · transposes_S8x32x128x128_S8x32x128x128_0_1_3_2),
    StableHlo.unary main_v25 main_v26 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.unary main_v10 main_v27 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v26, main_v2, main_v27] main_v28 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.TRef.unary (.of main_v6 : StableHlo.TRef sig ⟨S8x32x128x128, .f32⟩) main_call1.call0.v0 (Host.reverse [2]),
    StableHlo.TRef.unary main_call1.call0.v0 main_call1.call1.v0 (Host.reverse [3]),
    StableHlo.unary main_v29 main_v30 ((extractStridedSlice S8x32x2x2 ![0, 0, 126, 126] · slices_S8x32x128x128_S8x32x2x2_0_0_126_126) : (⟨S8x32x128x128, .f32⟩ : BufTy).Contents (Elt F) → (⟨S8x32x2x2, .f32⟩ : BufTy).Contents (Elt F)),
    StableHlo.TRef.unary (.of main_v8 : StableHlo.TRef sig ⟨S8x32x128x128, .f32⟩) main_call2.v0 (transpose S8x32x128x128 [0, 1, 3, 2] · transposes_S8x32x128x128_S8x32x128x128_0_1_3_2),
    StableHlo.TRef.unary main_call2.v0 main_call2.call0.v0 (Host.reverse [3]),
    StableHlo.unary main_v31 main_v32 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v8 main_v33 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v30, main_v32, main_v33] main_v34 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v4 main_v35 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.unary main_v12 main_v36 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.unary main_v18 main_v37 ((extractStridedSlice S8x32x2x2 ![0, 0, 0, 0] · slices_S8x32x128x128_S8x32x2x2_0_0_0_0) : (⟨S8x32x128x128, .f32⟩ : BufTy).Contents (Elt F) → (⟨S8x32x2x2, .f32⟩ : BufTy).Contents (Elt F)),
    StableHlo.nary ![main_v35, main_v36, main_v37] main_v38 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v34, main_v28, main_v38] main_v39 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.TRef.unary (.of main_v6 : StableHlo.TRef sig ⟨S8x32x128x128, .f32⟩) main_call3.call0.v0 (Host.reverse [3]),
    StableHlo.TRef.unary main_call3.call0.v0 main_call3.v1 (transpose S8x32x128x128 [0, 1, 3, 2] · transposes_S8x32x128x128_S8x32x128x128_0_1_3_2),
    StableHlo.unary main_v40 main_v41 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.unary main_v12 main_v42 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v41, main_v4, main_v42] main_v43 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.TRef.unary (.of main_v8 : StableHlo.TRef sig ⟨S8x32x128x128, .f32⟩) main_call4.call0.v0 (Host.reverse [2]),
    StableHlo.TRef.unary main_call4.call0.v0 main_call4.call1.v0 (Host.reverse [3]),
    StableHlo.unary main_v44 main_v45 ((extractStridedSlice S8x32x2x2 ![0, 0, 126, 126] · slices_S8x32x128x128_S8x32x2x2_0_0_126_126) : (⟨S8x32x128x128, .f32⟩ : BufTy).Contents (Elt F) → (⟨S8x32x2x2, .f32⟩ : BufTy).Contents (Elt F)),
    StableHlo.TRef.unary (.of main_v2 : StableHlo.TRef sig ⟨S8x32x128x128, .f32⟩) main_call5.v0 (transpose S8x32x128x128 [0, 1, 3, 2] · transposes_S8x32x128x128_S8x32x128x128_0_1_3_2),
    StableHlo.TRef.unary main_call5.v0 main_call5.call0.v0 (Host.reverse [3]),
    StableHlo.unary main_v46 main_v47 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v2 main_v48 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v45, main_v47, main_v48] main_v49 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v6 main_v50 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.unary main_v14 main_v51 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.unary main_v20 main_v52 ((extractStridedSlice S8x32x2x2 ![0, 0, 0, 0] · slices_S8x32x128x128_S8x32x2x2_0_0_0_0) : (⟨S8x32x128x128, .f32⟩ : BufTy).Contents (Elt F) → (⟨S8x32x2x2, .f32⟩ : BufTy).Contents (Elt F)),
    StableHlo.nary ![main_v50, main_v51, main_v52] main_v53 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v49, main_v43, main_v53] main_v54 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.TRef.unary (.of main_v8 : StableHlo.TRef sig ⟨S8x32x128x128, .f32⟩) main_call6.call0.v0 (Host.reverse [3]),
    StableHlo.TRef.unary main_call6.call0.v0 main_call6.v1 (transpose S8x32x128x128 [0, 1, 3, 2] · transposes_S8x32x128x128_S8x32x128x128_0_1_3_2),
    StableHlo.unary main_v55 main_v56 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.unary main_v14 main_v57 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v56, main_v6, main_v57] main_v58 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.TRef.unary (.of main_v2 : StableHlo.TRef sig ⟨S8x32x128x128, .f32⟩) main_call7.call0.v0 (Host.reverse [2]),
    StableHlo.TRef.unary main_call7.call0.v0 main_call7.call1.v0 (Host.reverse [3]) ]

/-- The buffers the window's operations write, one per operation, in order. -/
abbrev ops0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_call0.call0.v0.ref, main_call0.v1.ref, main_v26, main_v27, main_v28, main_call1.call0.v0.ref, main_call1.call1.v0.ref, main_v30, main_call2.v0.ref, main_call2.call0.v0.ref, main_v32, main_v33, main_v34, main_v35, main_v36, main_v37, main_v38, main_v39, main_call3.call0.v0.ref, main_call3.v1.ref, main_v41, main_v42, main_v43, main_call4.call0.v0.ref, main_call4.call1.v0.ref, main_v45, main_call5.v0.ref, main_call5.call0.v0.ref, main_v47, main_v48, main_v49, main_v50, main_v51, main_v52, main_v53, main_v54, main_call6.call0.v0.ref, main_call6.v1.ref, main_v56, main_v57, main_v58, main_call7.call0.v0.ref, main_call7.call1.v0.ref]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops0_all (d : Dev nD) :
    (main_part0 (F := F) d = StableHlo.seq ops0) ∧
    ((ops0 : List (HloOp τ sig (Elt F))).Forall fun op => op.bufs ⊆ StableHlo.tcRefs τ sig) ∧
    ((ops0 : List (HloOp τ sig (Elt F))).Forall fun op => op.fresh = ∅) ∧
    ((ops0 : List (HloOp τ sig (Elt F))).Forall fun op => op.writes ⊆ (ops0_W.map (Proc.devRef (τ := τ) .tc)).toFinset) :=
  ⟨rfl,
   ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.nary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.nary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.reshape_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.nary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.nary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide)⟩⟩

theorem main_part0_eq (d : Dev nD) : main_part0 (F := F) d = StableHlo.seq ops0 := (ops0_all d).1
theorem ops0_sub : (ops0 : List (HloOp τ sig (Elt F))).Forall fun op => op.bufs ⊆ StableHlo.tcRefs τ sig := (ops0_all ⟨0, Nat.one_pos⟩).2.1
theorem ops0_fresh : (ops0 : List (HloOp τ sig (Elt F))).Forall fun op => op.fresh = ∅ := (ops0_all ⟨0, Nat.one_pos⟩).2.2.1
theorem ops0_writes : (ops0 : List (HloOp τ sig (Elt F))).Forall fun op => op.writes ⊆ (ops0_W.map (Proc.devRef (τ := τ) .tc)).toFinset :=
  (ops0_all ⟨0, Nat.one_pos⟩).2.2.2

/-- A buffer outside the written list keeps its contents through the window. -/
theorem ops0_keeps (V : Valuation τ sig (Elt F)) (r : Ref sig .tc) (h : r ∉ ops0_W) :
    StableHlo.after ops0 V (Proc.devRef .tc r) = V (Proc.devRef .tc r) :=
  StableHlo.after_of_writes_sub ops0 V ops0_writes h

/-- The argument is none of the written buffers: it keeps its contents through the window. -/
theorem ops0_keeps_arg0 (V : Valuation τ sig (Elt F)) :
    StableHlo.after ops0 V (Proc.devRef .tc main_arg0) = V (Proc.devRef .tc main_arg0) :=
  ops0_keeps V main_arg0 (by decide)

end Cert.ReferenceIdeal.Hand

end
-- ==== Proof.RefOps1.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 1 of the reference's @main, in program order; where the program calls a local function,
    the callee's operations stand in its place, over the buffers of that call. -/
abbrev ops1 : List (HloOp τ sig (Elt F)) :=
  [ StableHlo.unary main_v59 main_v60 ((extractStridedSlice S8x32x2x2 ![0, 0, 126, 126] · slices_S8x32x128x128_S8x32x2x2_0_0_126_126) : (⟨S8x32x128x128, .f32⟩ : BufTy).Contents (Elt F) → (⟨S8x32x2x2, .f32⟩ : BufTy).Contents (Elt F)),
    StableHlo.TRef.unary (.of main_v4 : StableHlo.TRef sig ⟨S8x32x128x128, .f32⟩) main_call8.v0 (transpose S8x32x128x128 [0, 1, 3, 2] · transposes_S8x32x128x128_S8x32x128x128_0_1_3_2),
    StableHlo.TRef.unary main_call8.v0 main_call8.call0.v0 (Host.reverse [3]),
    StableHlo.unary main_v61 main_v62 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v4 main_v63 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v60, main_v62, main_v63] main_v64 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v8 main_v65 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.unary main_v16 main_v66 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.unary main_v22 main_v67 ((extractStridedSlice S8x32x2x2 ![0, 0, 0, 0] · slices_S8x32x128x128_S8x32x2x2_0_0_0_0) : (⟨S8x32x128x128, .f32⟩ : BufTy).Contents (Elt F) → (⟨S8x32x2x2, .f32⟩ : BufTy).Contents (Elt F)),
    StableHlo.nary ![main_v65, main_v66, main_v67] main_v68 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v64, main_v58, main_v68] main_v69 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.TRef.unary (.of main_v2 : StableHlo.TRef sig ⟨S8x32x128x128, .f32⟩) main_call9.call0.v0 (Host.reverse [3]),
    StableHlo.TRef.unary main_call9.call0.v0 main_call9.v1 (transpose S8x32x128x128 [0, 1, 3, 2] · transposes_S8x32x128x128_S8x32x128x128_0_1_3_2),
    StableHlo.unary main_v70 main_v71 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.unary main_v16 main_v72 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v71, main_v8, main_v72] main_v73 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.TRef.unary (.of main_v4 : StableHlo.TRef sig ⟨S8x32x128x128, .f32⟩) main_call10.call0.v0 (Host.reverse [2]),
    StableHlo.TRef.unary main_call10.call0.v0 main_call10.call1.v0 (Host.reverse [3]),
    StableHlo.unary main_v74 main_v75 ((extractStridedSlice S8x32x2x2 ![0, 0, 126, 126] · slices_S8x32x128x128_S8x32x2x2_0_0_126_126) : (⟨S8x32x128x128, .f32⟩ : BufTy).Contents (Elt F) → (⟨S8x32x2x2, .f32⟩ : BufTy).Contents (Elt F)),
    StableHlo.TRef.unary (.of main_v6 : StableHlo.TRef sig ⟨S8x32x128x128, .f32⟩) main_call11.v0 (transpose S8x32x128x128 [0, 1, 3, 2] · transposes_S8x32x128x128_S8x32x128x128_0_1_3_2),
    StableHlo.TRef.unary main_call11.v0 main_call11.call0.v0 (Host.reverse [3]),
    StableHlo.unary main_v76 main_v77 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v6 main_v78 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v75, main_v77, main_v78] main_v79 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v2 main_v80 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.unary main_v10 main_v81 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.unary main_v24 main_v82 ((extractStridedSlice S8x32x2x2 ![0, 0, 0, 0] · slices_S8x32x128x128_S8x32x2x2_0_0_0_0) : (⟨S8x32x128x128, .f32⟩ : BufTy).Contents (Elt F) → (⟨S8x32x2x2, .f32⟩ : BufTy).Contents (Elt F)),
    StableHlo.nary ![main_v80, main_v81, main_v82] main_v83 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v79, main_v73, main_v83] main_v84 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.nullary main_cst (constant S_ .f32 0x00000000#32),
    StableHlo.unary main_cst main_v85 (broadcastInDim S8x32x2x2 ![] bcast_S_S8x32x2x2 : (⟨S_, .f32⟩ : BufTy).Contents (Elt F) → (⟨S8x32x2x2, .f32⟩ : BufTy).Contents (Elt F)),
    StableHlo.unary main_v2 main_v86 ((extractStridedSlice S8x32x1x1 ![0, 0, 127, 0] · slices_S8x32x128x128_S8x32x1x1_0_0_127_0) : (⟨S8x32x128x128, .f32⟩ : BufTy).Contents (Elt F) → (⟨S8x32x1x1, .f32⟩ : BufTy).Contents (Elt F)),
    StableHlo.reshape main_v86 main_v87 rfl shapeCasts_S8x32x1x1_S8x32,
    StableHlo.nullary main_cst_0 (constant S_ .f32 0x3F000000#32),
    StableHlo.unary main_cst_0 main_v88 (broadcastInDim S8x32 ![] bcast_S_S8x32 : (⟨S_, .f32⟩ : BufTy).Contents (Elt F) → (⟨S8x32, .f32⟩ : BufTy).Contents (Elt F)),
    StableHlo.binary main_v88 main_v87 main_v89 (mulf : (⟨S8x32, .f32⟩ : BufTy).Contents (Elt F) → (⟨S8x32, .f32⟩ : BufTy).Contents (Elt F) → (⟨S8x32, .f32⟩ : BufTy).Contents (Elt F)),
    StableHlo.unary main_v8 main_v90 ((extractStridedSlice S8x32x1x1 ![0, 0, 0, 127] · slices_S8x32x128x128_S8x32x1x1_0_0_0_127) : (⟨S8x32x128x128, .f32⟩ : BufTy).Contents (Elt F) → (⟨S8x32x1x1, .f32⟩ : BufTy).Contents (Elt F)),
    StableHlo.reshape main_v90 main_v91 rfl shapeCasts_S8x32x1x1_S8x32,
    StableHlo.nullary main_cst_1 (constant S_ .f32 0x3F000000#32),
    StableHlo.unary main_cst_1 main_v92 (broadcastInDim S8x32 ![] bcast_S_S8x32 : (⟨S_, .f32⟩ : BufTy).Contents (Elt F) → (⟨S8x32, .f32⟩ : BufTy).Contents (Elt F)),
    StableHlo.binary main_v92 main_v91 main_v93 (mulf : (⟨S8x32, .f32⟩ : BufTy).Contents (Elt F) → (⟨S8x32, .f32⟩ : BufTy).Contents (Elt F) → (⟨S8x32, .f32⟩ : BufTy).Contents (Elt F)),
    StableHlo.binary main_v89 main_v93 main_v94 (addf : (⟨S8x32, .f32⟩ : BufTy).Contents (Elt F) → (⟨S8x32, .f32⟩ : BufTy).Contents (Elt F) → (⟨S8x32, .f32⟩ : BufTy).Contents (Elt F)),
    StableHlo.nullary main_c (constantI S_ 32 1#32),
    StableHlo.unary main_c main_v95 (broadcastInDim S1 ![] bcast_S_S1 : (⟨S_, .i32⟩ : BufTy).Contents (Elt F) → (⟨S1, .i32⟩ : BufTy).Contents (Elt F)),
    StableHlo.nullary main_c_2 (constantI S_ 32 1#32),
    StableHlo.unary main_c_2 main_v96 (broadcastInDim S1 ![] bcast_S_S1 : (⟨S_, .i32⟩ : BufTy).Contents (Elt F) → (⟨S1, .i32⟩ : BufTy).Contents (Elt F)),
    StableHlo.binary main_v95 main_v96 main_v97 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v85 main_v97 main_v94 main_v98 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v2 main_v99 ((extractStridedSlice S8x32x1x1 ![0, 0, 126, 0] · slices_S8x32x128x128_S8x32x1x1_0_0_126_0) : (⟨S8x32x128x128, .f32⟩ : BufTy).Contents (Elt F) → (⟨S8x32x1x1, .f32⟩ : BufTy).Contents (Elt F)),
    StableHlo.reshape main_v99 main_v100 rfl shapeCasts_S8x32x1x1_S8x32x1,
    StableHlo.nullary main_c_3 (constantI S_ 32 0#32),
    StableHlo.unary main_c_3 main_v101 (broadcastInDim S1 ![] bcast_S_S1 : (⟨S_, .i32⟩ : BufTy).Contents (Elt F) → (⟨S1, .i32⟩ : BufTy).Contents (Elt F)),
    StableHlo.nullary main_c_4 (constantI S_ 32 1#32),
    StableHlo.unary main_c_4 main_v102 (broadcastInDim S1 ![] bcast_S_S1 : (⟨S_, .i32⟩ : BufTy).Contents (Elt F) → (⟨S1, .i32⟩ : BufTy).Contents (Elt F)),
    StableHlo.binary main_v101 main_v102 main_v103 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v98 main_v103 main_v100 main_v104 ((fun x i u => Host.scatter scatter_S8x32x2x2_S2_S8x32x1_012_2_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v8 main_v105 ((extractStridedSlice S8x32x1x1 ![0, 0, 0, 126] · slices_S8x32x128x128_S8x32x1x1_0_0_0_126) : (⟨S8x32x128x128, .f32⟩ : BufTy).Contents (Elt F) → (⟨S8x32x1x1, .f32⟩ : BufTy).Contents (Elt F)),
    StableHlo.reshape main_v105 main_v106 rfl shapeCasts_S8x32x1x1_S8x32x1,
    StableHlo.nullary main_c_5 (constantI S_ 32 1#32),
    StableHlo.unary main_c_5 main_v107 (broadcastInDim S1 ![] bcast_S_S1 : (⟨S_, .i32⟩ : BufTy).Contents (Elt F) → (⟨S1, .i32⟩ : BufTy).Contents (Elt F)),
    StableHlo.nullary main_c_6 (constantI S_ 32 0#32),
    StableHlo.unary main_c_6 main_v108 (broadcastInDim S1 ![] bcast_S_S1 : (⟨S_, .i32⟩ : BufTy).Contents (Elt F) → (⟨S1, .i32⟩ : BufTy).Contents (Elt F)),
    StableHlo.binary main_v107 main_v108 main_v109 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v104 main_v109 main_v106 main_v110 ((fun x i u => Host.scatter scatter_S8x32x2x2_S2_S8x32x1_012_3_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)) ]

/-- The buffers the window's operations write, one per operation, in order. -/
abbrev ops1_W : List (Ref sig .tc) := [main_v60, main_call8.v0.ref, main_call8.call0.v0.ref, main_v62, main_v63, main_v64, main_v65, main_v66, main_v67, main_v68, main_v69, main_call9.call0.v0.ref, main_call9.v1.ref, main_v71, main_v72, main_v73, main_call10.call0.v0.ref, main_call10.call1.v0.ref, main_v75, main_call11.v0.ref, main_call11.call0.v0.ref, main_v77, main_v78, main_v79, main_v80, main_v81, main_v82, main_v83, main_v84, main_cst, main_v85, main_v86, main_v87, main_cst_0, main_v88, main_v89, main_v90, main_v91, main_cst_1, main_v92, main_v93, main_v94, main_c, main_v95, main_c_2, main_v96, main_v97, main_v98, main_v99, main_v100, main_c_3, main_v101, main_c_4, main_v102, main_v103, main_v104, main_v105, main_v106, main_c_5, main_v107, main_c_6, main_v108, main_v109, main_v110]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops1_all (d : Dev nD) :
    (main_part1 (F := F) d = StableHlo.seq ops1) ∧
    ((ops1 : List (HloOp τ sig (Elt F))).Forall fun op => op.bufs ⊆ StableHlo.tcRefs τ sig) ∧
    ((ops1 : List (HloOp τ sig (Elt F))).Forall fun op => op.fresh = ∅) ∧
    ((ops1 : List (HloOp τ sig (Elt F))).Forall fun op => op.writes ⊆ (ops1_W.map (Proc.devRef (τ := τ) .tc)).toFinset) :=
  ⟨rfl,
   ⟨StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.nary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.nary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.nary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.nary_writes ..) (by decide), writes_sub (StableHlo.nary_writes ..) (by decide), writes_sub (StableHlo.nullary_writes ..) (by decide), writes_sub (StableHlo.unary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide)⟩⟩

theorem main_part1_eq (d : Dev nD) : main_part1 (F := F) d = StableHlo.seq ops1 := (ops1_all d).1
theorem ops1_sub : (ops1 : List (HloOp τ sig (Elt F))).Forall fun op => op.bufs ⊆ StableHlo.tcRefs τ sig := (ops1_all ⟨0, Nat.one_pos⟩).2.1
theorem ops1_fresh : (ops1 : List (HloOp τ sig (Elt F))).Forall fun op => op.fresh = ∅ := (ops1_all ⟨0, Nat.one_pos⟩).2.2.1
theorem ops1_writes : (ops1 : List (HloOp τ sig (Elt F))).Forall fun op => op.writes ⊆ (ops1_W.map (Proc.devRef (τ := τ) .tc)).toFinset :=
  (ops1_all ⟨0, Nat.one_pos⟩).2.2.2

/-- A buffer outside the written list keeps its contents through the window. -/
theorem ops1_keeps (V : Valuation τ sig (Elt F)) (r : Ref sig .tc) (h : r ∉ ops1_W) :
    StableHlo.after ops1 V (Proc.devRef .tc r) = V (Proc.devRef .tc r) :=
  StableHlo.after_of_writes_sub ops1 V ops1_writes h

/-- The argument is none of the written buffers: it keeps its contents through the window. -/
theorem ops1_keeps_arg0 (V : Valuation τ sig (Elt F)) :
    StableHlo.after ops1 V (Proc.devRef .tc main_arg0) = V (Proc.devRef .tc main_arg0) :=
  ops1_keeps V main_arg0 (by decide)

end Cert.ReferenceIdeal.Hand

end
-- ==== Proof.RefOps2.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 2 of the reference's @main, in program order; where the program calls a local function,
    the callee's operations stand in its place, over the buffers of that call. -/
abbrev ops2 : List (HloOp τ sig (Elt F)) :=
  [ StableHlo.unary main_v2 main_v111 ((extractStridedSlice S8x32x1x1 ![0, 0, 126, 0] · slices_S8x32x128x128_S8x32x1x1_0_0_126_0) : (⟨S8x32x128x128, .f32⟩ : BufTy).Contents (Elt F) → (⟨S8x32x1x1, .f32⟩ : BufTy).Contents (Elt F)),
    StableHlo.reshape main_v111 main_v112 rfl shapeCasts_S8x32x1x1_S8x32,
    StableHlo.nullary main_cst_7 (constant S_ .f32 0x3F000000#32),
    StableHlo.unary main_cst_7 main_v113 (broadcastInDim S8x32 ![] bcast_S_S8x32 : (⟨S_, .f32⟩ : BufTy).Contents (Elt F) → (⟨S8x32, .f32⟩ : BufTy).Contents (Elt F)),
    StableHlo.binary main_v113 main_v112 main_v114 (mulf : (⟨S8x32, .f32⟩ : BufTy).Contents (Elt F) → (⟨S8x32, .f32⟩ : BufTy).Contents (Elt F) → (⟨S8x32, .f32⟩ : BufTy).Contents (Elt F)),
    StableHlo.unary main_v8 main_v115 ((extractStridedSlice S8x32x1x1 ![0, 0, 0, 126] · slices_S8x32x128x128_S8x32x1x1_0_0_0_126) : (⟨S8x32x128x128, .f32⟩ : BufTy).Contents (Elt F) → (⟨S8x32x1x1, .f32⟩ : BufTy).Contents (Elt F)),
    StableHlo.reshape main_v115 main_v116 rfl shapeCasts_S8x32x1x1_S8x32,
    StableHlo.nullary main_cst_8 (constant S_ .f32 0x3F000000#32),
    StableHlo.unary main_cst_8 main_v117 (broadcastInDim S8x32 ![] bcast_S_S8x32 : (⟨S_, .f32⟩ : BufTy).Contents (Elt F) → (⟨S8x32, .f32⟩ : BufTy).Contents (Elt F)),
    StableHlo.binary main_v117 main_v116 main_v118 (mulf : (⟨S8x32, .f32⟩ : BufTy).Contents (Elt F) → (⟨S8x32, .f32⟩ : BufTy).Contents (Elt F) → (⟨S8x32, .f32⟩ : BufTy).Contents (Elt F)),
    StableHlo.binary main_v114 main_v118 main_v119 (addf : (⟨S8x32, .f32⟩ : BufTy).Contents (Elt F) → (⟨S8x32, .f32⟩ : BufTy).Contents (Elt F) → (⟨S8x32, .f32⟩ : BufTy).Contents (Elt F)),
    StableHlo.nullary main_c_9 (constantI S_ 32 0#32),
    StableHlo.unary main_c_9 main_v120 (broadcastInDim S1 ![] bcast_S_S1 : (⟨S_, .i32⟩ : BufTy).Contents (Elt F) → (⟨S1, .i32⟩ : BufTy).Contents (Elt F)),
    StableHlo.nullary main_c_10 (constantI S_ 32 0#32),
    StableHlo.unary main_c_10 main_v121 (broadcastInDim S1 ![] bcast_S_S1 : (⟨S_, .i32⟩ : BufTy).Contents (Elt F) → (⟨S1, .i32⟩ : BufTy).Contents (Elt F)),
    StableHlo.binary main_v120 main_v121 main_v122 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v110 main_v122 main_v119 main_v123 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.nullary main_cst_11 (constant S_ .f32 0x00000000#32),
    StableHlo.unary main_cst_11 main_v124 (broadcastInDim S8x32x2x2 ![] bcast_S_S8x32x2x2 : (⟨S_, .f32⟩ : BufTy).Contents (Elt F) → (⟨S8x32x2x2, .f32⟩ : BufTy).Contents (Elt F)),
    StableHlo.unary main_v24 main_v125 ((extractStridedSlice S8x32x1x1 ![0, 0, 0, 127] · slices_S8x32x128x128_S8x32x1x1_0_0_0_127) : (⟨S8x32x128x128, .f32⟩ : BufTy).Contents (Elt F) → (⟨S8x32x1x1, .f32⟩ : BufTy).Contents (Elt F)),
    StableHlo.reshape main_v125 main_v126 rfl shapeCasts_S8x32x1x1_S8x32,
    StableHlo.nullary main_cst_12 (constant S_ .f32 0x3F000000#32),
    StableHlo.unary main_cst_12 main_v127 (broadcastInDim S8x32 ![] bcast_S_S8x32 : (⟨S_, .f32⟩ : BufTy).Contents (Elt F) → (⟨S8x32, .f32⟩ : BufTy).Contents (Elt F)),
    StableHlo.binary main_v127 main_v126 main_v128 (mulf : (⟨S8x32, .f32⟩ : BufTy).Contents (Elt F) → (⟨S8x32, .f32⟩ : BufTy).Contents (Elt F) → (⟨S8x32, .f32⟩ : BufTy).Contents (Elt F)),
    StableHlo.unary main_v18 main_v129 ((extractStridedSlice S8x32x1x1 ![0, 0, 127, 0] · slices_S8x32x128x128_S8x32x1x1_0_0_127_0) : (⟨S8x32x128x128, .f32⟩ : BufTy).Contents (Elt F) → (⟨S8x32x1x1, .f32⟩ : BufTy).Contents (Elt F)),
    StableHlo.reshape main_v129 main_v130 rfl shapeCasts_S8x32x1x1_S8x32,
    StableHlo.nullary main_cst_13 (constant S_ .f32 0x3F000000#32),
    StableHlo.unary main_cst_13 main_v131 (broadcastInDim S8x32 ![] bcast_S_S8x32 : (⟨S_, .f32⟩ : BufTy).Contents (Elt F) → (⟨S8x32, .f32⟩ : BufTy).Contents (Elt F)),
    StableHlo.binary main_v131 main_v130 main_v132 (mulf : (⟨S8x32, .f32⟩ : BufTy).Contents (Elt F) → (⟨S8x32, .f32⟩ : BufTy).Contents (Elt F) → (⟨S8x32, .f32⟩ : BufTy).Contents (Elt F)),
    StableHlo.binary main_v128 main_v132 main_v133 (addf : (⟨S8x32, .f32⟩ : BufTy).Contents (Elt F) → (⟨S8x32, .f32⟩ : BufTy).Contents (Elt F) → (⟨S8x32, .f32⟩ : BufTy).Contents (Elt F)),
    StableHlo.nullary main_c_14 (constantI S_ 32 0#32),
    StableHlo.unary main_c_14 main_v134 (broadcastInDim S1 ![] bcast_S_S1 : (⟨S_, .i32⟩ : BufTy).Contents (Elt F) → (⟨S1, .i32⟩ : BufTy).Contents (Elt F)),
    StableHlo.nullary main_c_15 (constantI S_ 32 0#32),
    StableHlo.unary main_c_15 main_v135 (broadcastInDim S1 ![] bcast_S_S1 : (⟨S_, .i32⟩ : BufTy).Contents (Elt F) → (⟨S1, .i32⟩ : BufTy).Contents (Elt F)),
    StableHlo.binary main_v134 main_v135 main_v136 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v124 main_v136 main_v133 main_v137 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v18 main_v138 ((extractStridedSlice S8x32x1x1 ![0, 0, 127, 1] · slices_S8x32x128x128_S8x32x1x1_0_0_127_1) : (⟨S8x32x128x128, .f32⟩ : BufTy).Contents (Elt F) → (⟨S8x32x1x1, .f32⟩ : BufTy).Contents (Elt F)),
    StableHlo.reshape main_v138 main_v139 rfl shapeCasts_S8x32x1x1_S8x32x1,
    StableHlo.nullary main_c_16 (constantI S_ 32 0#32),
    StableHlo.unary main_c_16 main_v140 (broadcastInDim S1 ![] bcast_S_S1 : (⟨S_, .i32⟩ : BufTy).Contents (Elt F) → (⟨S1, .i32⟩ : BufTy).Contents (Elt F)),
    StableHlo.nullary main_c_17 (constantI S_ 32 1#32),
    StableHlo.unary main_c_17 main_v141 (broadcastInDim S1 ![] bcast_S_S1 : (⟨S_, .i32⟩ : BufTy).Contents (Elt F) → (⟨S1, .i32⟩ : BufTy).Contents (Elt F)),
    StableHlo.binary main_v140 main_v141 main_v142 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v137 main_v142 main_v139 main_v143 ((fun x i u => Host.scatter scatter_S8x32x2x2_S2_S8x32x1_012_3_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v24 main_v144 ((extractStridedSlice S8x32x1x1 ![0, 0, 1, 127] · slices_S8x32x128x128_S8x32x1x1_0_0_1_127) : (⟨S8x32x128x128, .f32⟩ : BufTy).Contents (Elt F) → (⟨S8x32x1x1, .f32⟩ : BufTy).Contents (Elt F)),
    StableHlo.reshape main_v144 main_v145 rfl shapeCasts_S8x32x1x1_S8x32x1,
    StableHlo.nullary main_c_18 (constantI S_ 32 1#32),
    StableHlo.unary main_c_18 main_v146 (broadcastInDim S1 ![] bcast_S_S1 : (⟨S_, .i32⟩ : BufTy).Contents (Elt F) → (⟨S1, .i32⟩ : BufTy).Contents (Elt F)),
    StableHlo.nullary main_c_19 (constantI S_ 32 0#32),
    StableHlo.unary main_c_19 main_v147 (broadcastInDim S1 ![] bcast_S_S1 : (⟨S_, .i32⟩ : BufTy).Contents (Elt F) → (⟨S1, .i32⟩ : BufTy).Contents (Elt F)),
    StableHlo.binary main_v146 main_v147 main_v148 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v143 main_v148 main_v145 main_v149 ((fun x i u => Host.scatter scatter_S8x32x2x2_S2_S8x32x1_012_2_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v24 main_v150 ((extractStridedSlice S8x32x1x1 ![0, 0, 1, 127] · slices_S8x32x128x128_S8x32x1x1_0_0_1_127) : (⟨S8x32x128x128, .f32⟩ : BufTy).Contents (Elt F) → (⟨S8x32x1x1, .f32⟩ : BufTy).Contents (Elt F)),
    StableHlo.reshape main_v150 main_v151 rfl shapeCasts_S8x32x1x1_S8x32,
    StableHlo.nullary main_cst_20 (constant S_ .f32 0x3F000000#32),
    StableHlo.unary main_cst_20 main_v152 (broadcastInDim S8x32 ![] bcast_S_S8x32 : (⟨S_, .f32⟩ : BufTy).Contents (Elt F) → (⟨S8x32, .f32⟩ : BufTy).Contents (Elt F)),
    StableHlo.binary main_v152 main_v151 main_v153 (mulf : (⟨S8x32, .f32⟩ : BufTy).Contents (Elt F) → (⟨S8x32, .f32⟩ : BufTy).Contents (Elt F) → (⟨S8x32, .f32⟩ : BufTy).Contents (Elt F)),
    StableHlo.unary main_v18 main_v154 ((extractStridedSlice S8x32x1x1 ![0, 0, 127, 1] · slices_S8x32x128x128_S8x32x1x1_0_0_127_1) : (⟨S8x32x128x128, .f32⟩ : BufTy).Contents (Elt F) → (⟨S8x32x1x1, .f32⟩ : BufTy).Contents (Elt F)),
    StableHlo.reshape main_v154 main_v155 rfl shapeCasts_S8x32x1x1_S8x32,
    StableHlo.nullary main_cst_21 (constant S_ .f32 0x3F000000#32) ]

/-- The buffers the window's operations write, one per operation, in order. -/
abbrev ops2_W : List (Ref sig .tc) := [main_v111, main_v112, main_cst_7, main_v113, main_v114, main_v115, main_v116, main_cst_8, main_v117, main_v118, main_v119, main_c_9, main_v120, main_c_10, main_v121, main_v122, main_v123, main_cst_11, main_v124, main_v125, main_v126, main_cst_12, main_v127, main_v128, main_v129, main_v130, main_cst_13, main_v131, main_v132, main_v133, main_c_14, main_v134, main_c_15, main_v135, main_v136, main_v137, main_v138, main_v139, main_c_16, main_v140, main_c_17, main_v141, main_v142, main_v143, main_v144, main_v145, main_c_18, main_v146, main_c_19, main_v147, main_v148, main_v149, main_v150, main_v151, main_cst_20, main_v152, main_v153, main_v154, main_v155, main_cst_21]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops2_all (d : Dev nD) :
    (main_part2 (F := F) d = StableHlo.seq ops2) ∧
    ((ops2 : List (HloOp τ sig (Elt F))).Forall fun op => op.bufs ⊆ StableHlo.tcRefs τ sig) ∧
    ((ops2 : List (HloOp τ sig (Elt F))).Forall fun op => op.fresh = ∅) ∧
    ((ops2 : List (HloOp τ sig (Elt F))).Forall fun op => op.writes ⊆ (ops2_W.map (Proc.devRef (τ := τ) .tc)).toFinset) :=
  ⟨rfl,
   ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.nullary_writes ..) (by decide), writes_sub (StableHlo.unary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide)⟩⟩

theorem main_part2_eq (d : Dev nD) : main_part2 (F := F) d = StableHlo.seq ops2 := (ops2_all d).1
theorem ops2_sub : (ops2 : List (HloOp τ sig (Elt F))).Forall fun op => op.bufs ⊆ StableHlo.tcRefs τ sig := (ops2_all ⟨0, Nat.one_pos⟩).2.1
theorem ops2_fresh : (ops2 : List (HloOp τ sig (Elt F))).Forall fun op => op.fresh = ∅ := (ops2_all ⟨0, Nat.one_pos⟩).2.2.1
theorem ops2_writes : (ops2 : List (HloOp τ sig (Elt F))).Forall fun op => op.writes ⊆ (ops2_W.map (Proc.devRef (τ := τ) .tc)).toFinset :=
  (ops2_all ⟨0, Nat.one_pos⟩).2.2.2

/-- A buffer outside the written list keeps its contents through the window. -/
theorem ops2_keeps (V : Valuation τ sig (Elt F)) (r : Ref sig .tc) (h : r ∉ ops2_W) :
    StableHlo.after ops2 V (Proc.devRef .tc r) = V (Proc.devRef .tc r) :=
  StableHlo.after_of_writes_sub ops2 V ops2_writes h

/-- The argument is none of the written buffers: it keeps its contents through the window. -/
theorem ops2_keeps_arg0 (V : Valuation τ sig (Elt F)) :
    StableHlo.after ops2 V (Proc.devRef .tc main_arg0) = V (Proc.devRef .tc main_arg0) :=
  ops2_keeps V main_arg0 (by decide)

end Cert.ReferenceIdeal.Hand

end
-- ==== Proof.RefOps3.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 3 of the reference's @main, in program order; where the program calls a local function,
    the callee's operations stand in its place, over the buffers of that call. -/
abbrev ops3 : List (HloOp τ sig (Elt F)) :=
  [ StableHlo.unary main_cst_21 main_v156 (broadcastInDim S8x32 ![] bcast_S_S8x32 : (⟨S_, .f32⟩ : BufTy).Contents (Elt F) → (⟨S8x32, .f32⟩ : BufTy).Contents (Elt F)),
    StableHlo.binary main_v156 main_v155 main_v157 (mulf : (⟨S8x32, .f32⟩ : BufTy).Contents (Elt F) → (⟨S8x32, .f32⟩ : BufTy).Contents (Elt F) → (⟨S8x32, .f32⟩ : BufTy).Contents (Elt F)),
    StableHlo.binary main_v153 main_v157 main_v158 (addf : (⟨S8x32, .f32⟩ : BufTy).Contents (Elt F) → (⟨S8x32, .f32⟩ : BufTy).Contents (Elt F) → (⟨S8x32, .f32⟩ : BufTy).Contents (Elt F)),
    StableHlo.nullary main_c_22 (constantI S_ 32 1#32),
    StableHlo.unary main_c_22 main_v159 (broadcastInDim S1 ![] bcast_S_S1 : (⟨S_, .i32⟩ : BufTy).Contents (Elt F) → (⟨S1, .i32⟩ : BufTy).Contents (Elt F)),
    StableHlo.nullary main_c_23 (constantI S_ 32 1#32),
    StableHlo.unary main_c_23 main_v160 (broadcastInDim S1 ![] bcast_S_S1 : (⟨S_, .i32⟩ : BufTy).Contents (Elt F) → (⟨S1, .i32⟩ : BufTy).Contents (Elt F)),
    StableHlo.binary main_v159 main_v160 main_v161 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v149 main_v161 main_v158 main_v162 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v2 main_v163 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.unary main_v24 main_v164 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v163, main_v10, main_v164] main_v165 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.unary main_v8 main_v166 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v16 main_v167 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v123, main_v166, main_v167] main_v168 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v12 main_v169 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.unary main_v18 main_v170 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.nary ![main_v169, main_v170, main_v162] main_v171 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v168, main_v165, main_v171] main_v172 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.nullary main_cst_24 (constant S_ .f32 0x00000000#32),
    StableHlo.unary main_cst_24 main_v173 (broadcastInDim S8x32x2x2 ![] bcast_S_S8x32x2x2 : (⟨S_, .f32⟩ : BufTy).Contents (Elt F) → (⟨S8x32x2x2, .f32⟩ : BufTy).Contents (Elt F)),
    StableHlo.unary main_v4 main_v174 ((extractStridedSlice S8x32x1x1 ![0, 0, 127, 0] · slices_S8x32x128x128_S8x32x1x1_0_0_127_0) : (⟨S8x32x128x128, .f32⟩ : BufTy).Contents (Elt F) → (⟨S8x32x1x1, .f32⟩ : BufTy).Contents (Elt F)),
    StableHlo.reshape main_v174 main_v175 rfl shapeCasts_S8x32x1x1_S8x32,
    StableHlo.nullary main_cst_25 (constant S_ .f32 0x3F000000#32),
    StableHlo.unary main_cst_25 main_v176 (broadcastInDim S8x32 ![] bcast_S_S8x32 : (⟨S_, .f32⟩ : BufTy).Contents (Elt F) → (⟨S8x32, .f32⟩ : BufTy).Contents (Elt F)),
    StableHlo.binary main_v176 main_v175 main_v177 (mulf : (⟨S8x32, .f32⟩ : BufTy).Contents (Elt F) → (⟨S8x32, .f32⟩ : BufTy).Contents (Elt F) → (⟨S8x32, .f32⟩ : BufTy).Contents (Elt F)),
    StableHlo.unary main_v2 main_v178 ((extractStridedSlice S8x32x1x1 ![0, 0, 0, 127] · slices_S8x32x128x128_S8x32x1x1_0_0_0_127) : (⟨S8x32x128x128, .f32⟩ : BufTy).Contents (Elt F) → (⟨S8x32x1x1, .f32⟩ : BufTy).Contents (Elt F)),
    StableHlo.reshape main_v178 main_v179 rfl shapeCasts_S8x32x1x1_S8x32,
    StableHlo.nullary main_cst_26 (constant S_ .f32 0x3F000000#32),
    StableHlo.unary main_cst_26 main_v180 (broadcastInDim S8x32 ![] bcast_S_S8x32 : (⟨S_, .f32⟩ : BufTy).Contents (Elt F) → (⟨S8x32, .f32⟩ : BufTy).Contents (Elt F)),
    StableHlo.binary main_v180 main_v179 main_v181 (mulf : (⟨S8x32, .f32⟩ : BufTy).Contents (Elt F) → (⟨S8x32, .f32⟩ : BufTy).Contents (Elt F) → (⟨S8x32, .f32⟩ : BufTy).Contents (Elt F)),
    StableHlo.binary main_v177 main_v181 main_v182 (addf : (⟨S8x32, .f32⟩ : BufTy).Contents (Elt F) → (⟨S8x32, .f32⟩ : BufTy).Contents (Elt F) → (⟨S8x32, .f32⟩ : BufTy).Contents (Elt F)),
    StableHlo.nullary main_c_27 (constantI S_ 32 1#32),
    StableHlo.unary main_c_27 main_v183 (broadcastInDim S1 ![] bcast_S_S1 : (⟨S_, .i32⟩ : BufTy).Contents (Elt F) → (⟨S1, .i32⟩ : BufTy).Contents (Elt F)),
    StableHlo.nullary main_c_28 (constantI S_ 32 1#32),
    StableHlo.unary main_c_28 main_v184 (broadcastInDim S1 ![] bcast_S_S1 : (⟨S_, .i32⟩ : BufTy).Contents (Elt F) → (⟨S1, .i32⟩ : BufTy).Contents (Elt F)),
    StableHlo.binary main_v183 main_v184 main_v185 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v173 main_v185 main_v182 main_v186 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v4 main_v187 ((extractStridedSlice S8x32x1x1 ![0, 0, 126, 0] · slices_S8x32x128x128_S8x32x1x1_0_0_126_0) : (⟨S8x32x128x128, .f32⟩ : BufTy).Contents (Elt F) → (⟨S8x32x1x1, .f32⟩ : BufTy).Contents (Elt F)),
    StableHlo.reshape main_v187 main_v188 rfl shapeCasts_S8x32x1x1_S8x32x1,
    StableHlo.nullary main_c_29 (constantI S_ 32 0#32),
    StableHlo.unary main_c_29 main_v189 (broadcastInDim S1 ![] bcast_S_S1 : (⟨S_, .i32⟩ : BufTy).Contents (Elt F) → (⟨S1, .i32⟩ : BufTy).Contents (Elt F)),
    StableHlo.nullary main_c_30 (constantI S_ 32 1#32),
    StableHlo.unary main_c_30 main_v190 (broadcastInDim S1 ![] bcast_S_S1 : (⟨S_, .i32⟩ : BufTy).Contents (Elt F) → (⟨S1, .i32⟩ : BufTy).Contents (Elt F)),
    StableHlo.binary main_v189 main_v190 main_v191 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v186 main_v191 main_v188 main_v192 ((fun x i u => Host.scatter scatter_S8x32x2x2_S2_S8x32x1_012_2_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v2 main_v193 ((extractStridedSlice S8x32x1x1 ![0, 0, 0, 126] · slices_S8x32x128x128_S8x32x1x1_0_0_0_126) : (⟨S8x32x128x128, .f32⟩ : BufTy).Contents (Elt F) → (⟨S8x32x1x1, .f32⟩ : BufTy).Contents (Elt F)),
    StableHlo.reshape main_v193 main_v194 rfl shapeCasts_S8x32x1x1_S8x32x1,
    StableHlo.nullary main_c_31 (constantI S_ 32 1#32),
    StableHlo.unary main_c_31 main_v195 (broadcastInDim S1 ![] bcast_S_S1 : (⟨S_, .i32⟩ : BufTy).Contents (Elt F) → (⟨S1, .i32⟩ : BufTy).Contents (Elt F)),
    StableHlo.nullary main_c_32 (constantI S_ 32 0#32),
    StableHlo.unary main_c_32 main_v196 (broadcastInDim S1 ![] bcast_S_S1 : (⟨S_, .i32⟩ : BufTy).Contents (Elt F) → (⟨S1, .i32⟩ : BufTy).Contents (Elt F)),
    StableHlo.binary main_v195 main_v196 main_v197 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v192 main_v197 main_v194 main_v198 ((fun x i u => Host.scatter scatter_S8x32x2x2_S2_S8x32x1_012_3_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v4 main_v199 ((extractStridedSlice S8x32x1x1 ![0, 0, 126, 0] · slices_S8x32x128x128_S8x32x1x1_0_0_126_0) : (⟨S8x32x128x128, .f32⟩ : BufTy).Contents (Elt F) → (⟨S8x32x1x1, .f32⟩ : BufTy).Contents (Elt F)),
    StableHlo.reshape main_v199 main_v200 rfl shapeCasts_S8x32x1x1_S8x32,
    StableHlo.nullary main_cst_33 (constant S_ .f32 0x3F000000#32),
    StableHlo.unary main_cst_33 main_v201 (broadcastInDim S8x32 ![] bcast_S_S8x32 : (⟨S_, .f32⟩ : BufTy).Contents (Elt F) → (⟨S8x32, .f32⟩ : BufTy).Contents (Elt F)),
    StableHlo.binary main_v201 main_v200 main_v202 (mulf : (⟨S8x32, .f32⟩ : BufTy).Contents (Elt F) → (⟨S8x32, .f32⟩ : BufTy).Contents (Elt F) → (⟨S8x32, .f32⟩ : BufTy).Contents (Elt F)),
    StableHlo.unary main_v2 main_v203 ((extractStridedSlice S8x32x1x1 ![0, 0, 0, 126] · slices_S8x32x128x128_S8x32x1x1_0_0_0_126) : (⟨S8x32x128x128, .f32⟩ : BufTy).Contents (Elt F) → (⟨S8x32x1x1, .f32⟩ : BufTy).Contents (Elt F)) ]

/-- The buffers the window's operations write, one per operation, in order. -/
abbrev ops3_W : List (Ref sig .tc) := [main_v156, main_v157, main_v158, main_c_22, main_v159, main_c_23, main_v160, main_v161, main_v162, main_v163, main_v164, main_v165, main_v166, main_v167, main_v168, main_v169, main_v170, main_v171, main_v172, main_cst_24, main_v173, main_v174, main_v175, main_cst_25, main_v176, main_v177, main_v178, main_v179, main_cst_26, main_v180, main_v181, main_v182, main_c_27, main_v183, main_c_28, main_v184, main_v185, main_v186, main_v187, main_v188, main_c_29, main_v189, main_c_30, main_v190, main_v191, main_v192, main_v193, main_v194, main_c_31, main_v195, main_c_32, main_v196, main_v197, main_v198, main_v199, main_v200, main_cst_33, main_v201, main_v202, main_v203]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops3_all (d : Dev nD) :
    (main_part3 (F := F) d = StableHlo.seq ops3) ∧
    ((ops3 : List (HloOp τ sig (Elt F))).Forall fun op => op.bufs ⊆ StableHlo.tcRefs τ sig) ∧
    ((ops3 : List (HloOp τ sig (Elt F))).Forall fun op => op.fresh = ∅) ∧
    ((ops3 : List (HloOp τ sig (Elt F))).Forall fun op => op.writes ⊆ (ops3_W.map (Proc.devRef (τ := τ) .tc)).toFinset) :=
  ⟨rfl,
   ⟨StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.nary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.binary_bufs_sub .., StableHlo.unary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.nary_writes ..) (by decide), writes_sub (StableHlo.nary_writes ..) (by decide), writes_sub (StableHlo.nullary_writes ..) (by decide), writes_sub (StableHlo.unary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide)⟩⟩

theorem main_part3_eq (d : Dev nD) : main_part3 (F := F) d = StableHlo.seq ops3 := (ops3_all d).1
theorem ops3_sub : (ops3 : List (HloOp τ sig (Elt F))).Forall fun op => op.bufs ⊆ StableHlo.tcRefs τ sig := (ops3_all ⟨0, Nat.one_pos⟩).2.1
theorem ops3_fresh : (ops3 : List (HloOp τ sig (Elt F))).Forall fun op => op.fresh = ∅ := (ops3_all ⟨0, Nat.one_pos⟩).2.2.1
theorem ops3_writes : (ops3 : List (HloOp τ sig (Elt F))).Forall fun op => op.writes ⊆ (ops3_W.map (Proc.devRef (τ := τ) .tc)).toFinset :=
  (ops3_all ⟨0, Nat.one_pos⟩).2.2.2

/-- A buffer outside the written list keeps its contents through the window. -/
theorem ops3_keeps (V : Valuation τ sig (Elt F)) (r : Ref sig .tc) (h : r ∉ ops3_W) :
    StableHlo.after ops3 V (Proc.devRef .tc r) = V (Proc.devRef .tc r) :=
  StableHlo.after_of_writes_sub ops3 V ops3_writes h

/-- The argument is none of the written buffers: it keeps its contents through the window. -/
theorem ops3_keeps_arg0 (V : Valuation τ sig (Elt F)) :
    StableHlo.after ops3 V (Proc.devRef .tc main_arg0) = V (Proc.devRef .tc main_arg0) :=
  ops3_keeps V main_arg0 (by decide)

end Cert.ReferenceIdeal.Hand

end
-- ==== Proof.RefOps4.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 4 of the reference's @main, in program order; where the program calls a local function,
    the callee's operations stand in its place, over the buffers of that call. -/
abbrev ops4 : List (HloOp τ sig (Elt F)) :=
  [ StableHlo.reshape main_v203 main_v204 rfl shapeCasts_S8x32x1x1_S8x32,
    StableHlo.nullary main_cst_34 (constant S_ .f32 0x3F000000#32),
    StableHlo.unary main_cst_34 main_v205 (broadcastInDim S8x32 ![] bcast_S_S8x32 : (⟨S_, .f32⟩ : BufTy).Contents (Elt F) → (⟨S8x32, .f32⟩ : BufTy).Contents (Elt F)),
    StableHlo.binary main_v205 main_v204 main_v206 (mulf : (⟨S8x32, .f32⟩ : BufTy).Contents (Elt F) → (⟨S8x32, .f32⟩ : BufTy).Contents (Elt F) → (⟨S8x32, .f32⟩ : BufTy).Contents (Elt F)),
    StableHlo.binary main_v202 main_v206 main_v207 (addf : (⟨S8x32, .f32⟩ : BufTy).Contents (Elt F) → (⟨S8x32, .f32⟩ : BufTy).Contents (Elt F) → (⟨S8x32, .f32⟩ : BufTy).Contents (Elt F)),
    StableHlo.nullary main_c_35 (constantI S_ 32 0#32),
    StableHlo.unary main_c_35 main_v208 (broadcastInDim S1 ![] bcast_S_S1 : (⟨S_, .i32⟩ : BufTy).Contents (Elt F) → (⟨S1, .i32⟩ : BufTy).Contents (Elt F)),
    StableHlo.nullary main_c_36 (constantI S_ 32 0#32),
    StableHlo.unary main_c_36 main_v209 (broadcastInDim S1 ![] bcast_S_S1 : (⟨S_, .i32⟩ : BufTy).Contents (Elt F) → (⟨S1, .i32⟩ : BufTy).Contents (Elt F)),
    StableHlo.binary main_v208 main_v209 main_v210 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v198 main_v210 main_v207 main_v211 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.nullary main_cst_37 (constant S_ .f32 0x00000000#32),
    StableHlo.unary main_cst_37 main_v212 (broadcastInDim S8x32x2x2 ![] bcast_S_S8x32x2x2 : (⟨S_, .f32⟩ : BufTy).Contents (Elt F) → (⟨S8x32x2x2, .f32⟩ : BufTy).Contents (Elt F)),
    StableHlo.unary main_v18 main_v213 ((extractStridedSlice S8x32x1x1 ![0, 0, 0, 127] · slices_S8x32x128x128_S8x32x1x1_0_0_0_127) : (⟨S8x32x128x128, .f32⟩ : BufTy).Contents (Elt F) → (⟨S8x32x1x1, .f32⟩ : BufTy).Contents (Elt F)),
    StableHlo.reshape main_v213 main_v214 rfl shapeCasts_S8x32x1x1_S8x32,
    StableHlo.nullary main_cst_38 (constant S_ .f32 0x3F000000#32),
    StableHlo.unary main_cst_38 main_v215 (broadcastInDim S8x32 ![] bcast_S_S8x32 : (⟨S_, .f32⟩ : BufTy).Contents (Elt F) → (⟨S8x32, .f32⟩ : BufTy).Contents (Elt F)),
    StableHlo.binary main_v215 main_v214 main_v216 (mulf : (⟨S8x32, .f32⟩ : BufTy).Contents (Elt F) → (⟨S8x32, .f32⟩ : BufTy).Contents (Elt F) → (⟨S8x32, .f32⟩ : BufTy).Contents (Elt F)),
    StableHlo.unary main_v20 main_v217 ((extractStridedSlice S8x32x1x1 ![0, 0, 127, 0] · slices_S8x32x128x128_S8x32x1x1_0_0_127_0) : (⟨S8x32x128x128, .f32⟩ : BufTy).Contents (Elt F) → (⟨S8x32x1x1, .f32⟩ : BufTy).Contents (Elt F)),
    StableHlo.reshape main_v217 main_v218 rfl shapeCasts_S8x32x1x1_S8x32,
    StableHlo.nullary main_cst_39 (constant S_ .f32 0x3F000000#32),
    StableHlo.unary main_cst_39 main_v219 (broadcastInDim S8x32 ![] bcast_S_S8x32 : (⟨S_, .f32⟩ : BufTy).Contents (Elt F) → (⟨S8x32, .f32⟩ : BufTy).Contents (Elt F)),
    StableHlo.binary main_v219 main_v218 main_v220 (mulf : (⟨S8x32, .f32⟩ : BufTy).Contents (Elt F) → (⟨S8x32, .f32⟩ : BufTy).Contents (Elt F) → (⟨S8x32, .f32⟩ : BufTy).Contents (Elt F)),
    StableHlo.binary main_v216 main_v220 main_v221 (addf : (⟨S8x32, .f32⟩ : BufTy).Contents (Elt F) → (⟨S8x32, .f32⟩ : BufTy).Contents (Elt F) → (⟨S8x32, .f32⟩ : BufTy).Contents (Elt F)),
    StableHlo.nullary main_c_40 (constantI S_ 32 0#32),
    StableHlo.unary main_c_40 main_v222 (broadcastInDim S1 ![] bcast_S_S1 : (⟨S_, .i32⟩ : BufTy).Contents (Elt F) → (⟨S1, .i32⟩ : BufTy).Contents (Elt F)),
    StableHlo.nullary main_c_41 (constantI S_ 32 0#32),
    StableHlo.unary main_c_41 main_v223 (broadcastInDim S1 ![] bcast_S_S1 : (⟨S_, .i32⟩ : BufTy).Contents (Elt F) → (⟨S1, .i32⟩ : BufTy).Contents (Elt F)),
    StableHlo.binary main_v222 main_v223 main_v224 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v212 main_v224 main_v221 main_v225 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v20 main_v226 ((extractStridedSlice S8x32x1x1 ![0, 0, 127, 1] · slices_S8x32x128x128_S8x32x1x1_0_0_127_1) : (⟨S8x32x128x128, .f32⟩ : BufTy).Contents (Elt F) → (⟨S8x32x1x1, .f32⟩ : BufTy).Contents (Elt F)),
    StableHlo.reshape main_v226 main_v227 rfl shapeCasts_S8x32x1x1_S8x32x1,
    StableHlo.nullary main_c_42 (constantI S_ 32 0#32),
    StableHlo.unary main_c_42 main_v228 (broadcastInDim S1 ![] bcast_S_S1 : (⟨S_, .i32⟩ : BufTy).Contents (Elt F) → (⟨S1, .i32⟩ : BufTy).Contents (Elt F)),
    StableHlo.nullary main_c_43 (constantI S_ 32 1#32),
    StableHlo.unary main_c_43 main_v229 (broadcastInDim S1 ![] bcast_S_S1 : (⟨S_, .i32⟩ : BufTy).Contents (Elt F) → (⟨S1, .i32⟩ : BufTy).Contents (Elt F)),
    StableHlo.binary main_v228 main_v229 main_v230 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v225 main_v230 main_v227 main_v231 ((fun x i u => Host.scatter scatter_S8x32x2x2_S2_S8x32x1_012_3_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v18 main_v232 ((extractStridedSlice S8x32x1x1 ![0, 0, 1, 127] · slices_S8x32x128x128_S8x32x1x1_0_0_1_127) : (⟨S8x32x128x128, .f32⟩ : BufTy).Contents (Elt F) → (⟨S8x32x1x1, .f32⟩ : BufTy).Contents (Elt F)),
    StableHlo.reshape main_v232 main_v233 rfl shapeCasts_S8x32x1x1_S8x32x1,
    StableHlo.nullary main_c_44 (constantI S_ 32 1#32),
    StableHlo.unary main_c_44 main_v234 (broadcastInDim S1 ![] bcast_S_S1 : (⟨S_, .i32⟩ : BufTy).Contents (Elt F) → (⟨S1, .i32⟩ : BufTy).Contents (Elt F)),
    StableHlo.nullary main_c_45 (constantI S_ 32 0#32),
    StableHlo.unary main_c_45 main_v235 (broadcastInDim S1 ![] bcast_S_S1 : (⟨S_, .i32⟩ : BufTy).Contents (Elt F) → (⟨S1, .i32⟩ : BufTy).Contents (Elt F)),
    StableHlo.binary main_v234 main_v235 main_v236 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v231 main_v236 main_v233 main_v237 ((fun x i u => Host.scatter scatter_S8x32x2x2_S2_S8x32x1_012_2_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v18 main_v238 ((extractStridedSlice S8x32x1x1 ![0, 0, 1, 127] · slices_S8x32x128x128_S8x32x1x1_0_0_1_127) : (⟨S8x32x128x128, .f32⟩ : BufTy).Contents (Elt F) → (⟨S8x32x1x1, .f32⟩ : BufTy).Contents (Elt F)),
    StableHlo.reshape main_v238 main_v239 rfl shapeCasts_S8x32x1x1_S8x32,
    StableHlo.nullary main_cst_46 (constant S_ .f32 0x3F000000#32),
    StableHlo.unary main_cst_46 main_v240 (broadcastInDim S8x32 ![] bcast_S_S8x32 : (⟨S_, .f32⟩ : BufTy).Contents (Elt F) → (⟨S8x32, .f32⟩ : BufTy).Contents (Elt F)),
    StableHlo.binary main_v240 main_v239 main_v241 (mulf : (⟨S8x32, .f32⟩ : BufTy).Contents (Elt F) → (⟨S8x32, .f32⟩ : BufTy).Contents (Elt F) → (⟨S8x32, .f32⟩ : BufTy).Contents (Elt F)),
    StableHlo.unary main_v20 main_v242 ((extractStridedSlice S8x32x1x1 ![0, 0, 127, 1] · slices_S8x32x128x128_S8x32x1x1_0_0_127_1) : (⟨S8x32x128x128, .f32⟩ : BufTy).Contents (Elt F) → (⟨S8x32x1x1, .f32⟩ : BufTy).Contents (Elt F)),
    StableHlo.reshape main_v242 main_v243 rfl shapeCasts_S8x32x1x1_S8x32,
    StableHlo.nullary main_cst_47 (constant S_ .f32 0x3F000000#32),
    StableHlo.unary main_cst_47 main_v244 (broadcastInDim S8x32 ![] bcast_S_S8x32 : (⟨S_, .f32⟩ : BufTy).Contents (Elt F) → (⟨S8x32, .f32⟩ : BufTy).Contents (Elt F)),
    StableHlo.binary main_v244 main_v243 main_v245 (mulf : (⟨S8x32, .f32⟩ : BufTy).Contents (Elt F) → (⟨S8x32, .f32⟩ : BufTy).Contents (Elt F) → (⟨S8x32, .f32⟩ : BufTy).Contents (Elt F)),
    StableHlo.binary main_v241 main_v245 main_v246 (addf : (⟨S8x32, .f32⟩ : BufTy).Contents (Elt F) → (⟨S8x32, .f32⟩ : BufTy).Contents (Elt F) → (⟨S8x32, .f32⟩ : BufTy).Contents (Elt F)),
    StableHlo.nullary main_c_48 (constantI S_ 32 1#32),
    StableHlo.unary main_c_48 main_v247 (broadcastInDim S1 ![] bcast_S_S1 : (⟨S_, .i32⟩ : BufTy).Contents (Elt F) → (⟨S1, .i32⟩ : BufTy).Contents (Elt F)),
    StableHlo.nullary main_c_49 (constantI S_ 32 1#32) ]

/-- The buffers the window's operations write, one per operation, in order. -/
abbrev ops4_W : List (Ref sig .tc) := [main_v204, main_cst_34, main_v205, main_v206, main_v207, main_c_35, main_v208, main_c_36, main_v209, main_v210, main_v211, main_cst_37, main_v212, main_v213, main_v214, main_cst_38, main_v215, main_v216, main_v217, main_v218, main_cst_39, main_v219, main_v220, main_v221, main_c_40, main_v222, main_c_41, main_v223, main_v224, main_v225, main_v226, main_v227, main_c_42, main_v228, main_c_43, main_v229, main_v230, main_v231, main_v232, main_v233, main_c_44, main_v234, main_c_45, main_v235, main_v236, main_v237, main_v238, main_v239, main_cst_46, main_v240, main_v241, main_v242, main_v243, main_cst_47, main_v244, main_v245, main_v246, main_c_48, main_v247, main_c_49]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops4_all (d : Dev nD) :
    (main_part4 (F := F) d = StableHlo.seq ops4) ∧
    ((ops4 : List (HloOp τ sig (Elt F))).Forall fun op => op.bufs ⊆ StableHlo.tcRefs τ sig) ∧
    ((ops4 : List (HloOp τ sig (Elt F))).Forall fun op => op.fresh = ∅) ∧
    ((ops4 : List (HloOp τ sig (Elt F))).Forall fun op => op.writes ⊆ (ops4_W.map (Proc.devRef (τ := τ) .tc)).toFinset) :=
  ⟨rfl,
   ⟨StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.nullary_writes ..) (by decide), writes_sub (StableHlo.unary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide)⟩⟩

theorem main_part4_eq (d : Dev nD) : main_part4 (F := F) d = StableHlo.seq ops4 := (ops4_all d).1
theorem ops4_sub : (ops4 : List (HloOp τ sig (Elt F))).Forall fun op => op.bufs ⊆ StableHlo.tcRefs τ sig := (ops4_all ⟨0, Nat.one_pos⟩).2.1
theorem ops4_fresh : (ops4 : List (HloOp τ sig (Elt F))).Forall fun op => op.fresh = ∅ := (ops4_all ⟨0, Nat.one_pos⟩).2.2.1
theorem ops4_writes : (ops4 : List (HloOp τ sig (Elt F))).Forall fun op => op.writes ⊆ (ops4_W.map (Proc.devRef (τ := τ) .tc)).toFinset :=
  (ops4_all ⟨0, Nat.one_pos⟩).2.2.2

/-- A buffer outside the written list keeps its contents through the window. -/
theorem ops4_keeps (V : Valuation τ sig (Elt F)) (r : Ref sig .tc) (h : r ∉ ops4_W) :
    StableHlo.after ops4 V (Proc.devRef .tc r) = V (Proc.devRef .tc r) :=
  StableHlo.after_of_writes_sub ops4 V ops4_writes h

/-- The argument is none of the written buffers: it keeps its contents through the window. -/
theorem ops4_keeps_arg0 (V : Valuation τ sig (Elt F)) :
    StableHlo.after ops4 V (Proc.devRef .tc main_arg0) = V (Proc.devRef .tc main_arg0) :=
  ops4_keeps V main_arg0 (by decide)

end Cert.ReferenceIdeal.Hand

end
-- ==== Proof.RefOps5.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 5 of the reference's @main, in program order; where the program calls a local function,
    the callee's operations stand in its place, over the buffers of that call. -/
abbrev ops5 : List (HloOp τ sig (Elt F)) :=
  [ StableHlo.unary main_c_49 main_v248 (broadcastInDim S1 ![] bcast_S_S1 : (⟨S_, .i32⟩ : BufTy).Contents (Elt F) → (⟨S1, .i32⟩ : BufTy).Contents (Elt F)),
    StableHlo.binary main_v247 main_v248 main_v249 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v237 main_v249 main_v246 main_v250 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v4 main_v251 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.unary main_v18 main_v252 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v251, main_v12, main_v252] main_v253 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.unary main_v2 main_v254 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v10 main_v255 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v211, main_v254, main_v255] main_v256 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v14 main_v257 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.unary main_v20 main_v258 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.nary ![main_v257, main_v258, main_v250] main_v259 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v256, main_v253, main_v259] main_v260 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.nullary main_cst_50 (constant S_ .f32 0x00000000#32),
    StableHlo.unary main_cst_50 main_v261 (broadcastInDim S8x32x2x2 ![] bcast_S_S8x32x2x2 : (⟨S_, .f32⟩ : BufTy).Contents (Elt F) → (⟨S8x32x2x2, .f32⟩ : BufTy).Contents (Elt F)),
    StableHlo.unary main_v6 main_v262 ((extractStridedSlice S8x32x1x1 ![0, 0, 127, 0] · slices_S8x32x128x128_S8x32x1x1_0_0_127_0) : (⟨S8x32x128x128, .f32⟩ : BufTy).Contents (Elt F) → (⟨S8x32x1x1, .f32⟩ : BufTy).Contents (Elt F)),
    StableHlo.reshape main_v262 main_v263 rfl shapeCasts_S8x32x1x1_S8x32,
    StableHlo.nullary main_cst_51 (constant S_ .f32 0x3F000000#32),
    StableHlo.unary main_cst_51 main_v264 (broadcastInDim S8x32 ![] bcast_S_S8x32 : (⟨S_, .f32⟩ : BufTy).Contents (Elt F) → (⟨S8x32, .f32⟩ : BufTy).Contents (Elt F)),
    StableHlo.binary main_v264 main_v263 main_v265 (mulf : (⟨S8x32, .f32⟩ : BufTy).Contents (Elt F) → (⟨S8x32, .f32⟩ : BufTy).Contents (Elt F) → (⟨S8x32, .f32⟩ : BufTy).Contents (Elt F)),
    StableHlo.unary main_v4 main_v266 ((extractStridedSlice S8x32x1x1 ![0, 0, 0, 127] · slices_S8x32x128x128_S8x32x1x1_0_0_0_127) : (⟨S8x32x128x128, .f32⟩ : BufTy).Contents (Elt F) → (⟨S8x32x1x1, .f32⟩ : BufTy).Contents (Elt F)),
    StableHlo.reshape main_v266 main_v267 rfl shapeCasts_S8x32x1x1_S8x32,
    StableHlo.nullary main_cst_52 (constant S_ .f32 0x3F000000#32),
    StableHlo.unary main_cst_52 main_v268 (broadcastInDim S8x32 ![] bcast_S_S8x32 : (⟨S_, .f32⟩ : BufTy).Contents (Elt F) → (⟨S8x32, .f32⟩ : BufTy).Contents (Elt F)),
    StableHlo.binary main_v268 main_v267 main_v269 (mulf : (⟨S8x32, .f32⟩ : BufTy).Contents (Elt F) → (⟨S8x32, .f32⟩ : BufTy).Contents (Elt F) → (⟨S8x32, .f32⟩ : BufTy).Contents (Elt F)),
    StableHlo.binary main_v265 main_v269 main_v270 (addf : (⟨S8x32, .f32⟩ : BufTy).Contents (Elt F) → (⟨S8x32, .f32⟩ : BufTy).Contents (Elt F) → (⟨S8x32, .f32⟩ : BufTy).Contents (Elt F)),
    StableHlo.nullary main_c_53 (constantI S_ 32 1#32),
    StableHlo.unary main_c_53 main_v271 (broadcastInDim S1 ![] bcast_S_S1 : (⟨S_, .i32⟩ : BufTy).Contents (Elt F) → (⟨S1, .i32⟩ : BufTy).Contents (Elt F)),
    StableHlo.nullary main_c_54 (constantI S_ 32 1#32),
    StableHlo.unary main_c_54 main_v272 (broadcastInDim S1 ![] bcast_S_S1 : (⟨S_, .i32⟩ : BufTy).Contents (Elt F) → (⟨S1, .i32⟩ : BufTy).Contents (Elt F)),
    StableHlo.binary main_v271 main_v272 main_v273 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v261 main_v273 main_v270 main_v274 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v6 main_v275 ((extractStridedSlice S8x32x1x1 ![0, 0, 126, 0] · slices_S8x32x128x128_S8x32x1x1_0_0_126_0) : (⟨S8x32x128x128, .f32⟩ : BufTy).Contents (Elt F) → (⟨S8x32x1x1, .f32⟩ : BufTy).Contents (Elt F)),
    StableHlo.reshape main_v275 main_v276 rfl shapeCasts_S8x32x1x1_S8x32x1,
    StableHlo.nullary main_c_55 (constantI S_ 32 0#32),
    StableHlo.unary main_c_55 main_v277 (broadcastInDim S1 ![] bcast_S_S1 : (⟨S_, .i32⟩ : BufTy).Contents (Elt F) → (⟨S1, .i32⟩ : BufTy).Contents (Elt F)),
    StableHlo.nullary main_c_56 (constantI S_ 32 1#32),
    StableHlo.unary main_c_56 main_v278 (broadcastInDim S1 ![] bcast_S_S1 : (⟨S_, .i32⟩ : BufTy).Contents (Elt F) → (⟨S1, .i32⟩ : BufTy).Contents (Elt F)),
    StableHlo.binary main_v277 main_v278 main_v279 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v274 main_v279 main_v276 main_v280 ((fun x i u => Host.scatter scatter_S8x32x2x2_S2_S8x32x1_012_2_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v4 main_v281 ((extractStridedSlice S8x32x1x1 ![0, 0, 0, 126] · slices_S8x32x128x128_S8x32x1x1_0_0_0_126) : (⟨S8x32x128x128, .f32⟩ : BufTy).Contents (Elt F) → (⟨S8x32x1x1, .f32⟩ : BufTy).Contents (Elt F)),
    StableHlo.reshape main_v281 main_v282 rfl shapeCasts_S8x32x1x1_S8x32x1,
    StableHlo.nullary main_c_57 (constantI S_ 32 1#32),
    StableHlo.unary main_c_57 main_v283 (broadcastInDim S1 ![] bcast_S_S1 : (⟨S_, .i32⟩ : BufTy).Contents (Elt F) → (⟨S1, .i32⟩ : BufTy).Contents (Elt F)),
    StableHlo.nullary main_c_58 (constantI S_ 32 0#32),
    StableHlo.unary main_c_58 main_v284 (broadcastInDim S1 ![] bcast_S_S1 : (⟨S_, .i32⟩ : BufTy).Contents (Elt F) → (⟨S1, .i32⟩ : BufTy).Contents (Elt F)),
    StableHlo.binary main_v283 main_v284 main_v285 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v280 main_v285 main_v282 main_v286 ((fun x i u => Host.scatter scatter_S8x32x2x2_S2_S8x32x1_012_3_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v6 main_v287 ((extractStridedSlice S8x32x1x1 ![0, 0, 126, 0] · slices_S8x32x128x128_S8x32x1x1_0_0_126_0) : (⟨S8x32x128x128, .f32⟩ : BufTy).Contents (Elt F) → (⟨S8x32x1x1, .f32⟩ : BufTy).Contents (Elt F)),
    StableHlo.reshape main_v287 main_v288 rfl shapeCasts_S8x32x1x1_S8x32,
    StableHlo.nullary main_cst_59 (constant S_ .f32 0x3F000000#32),
    StableHlo.unary main_cst_59 main_v289 (broadcastInDim S8x32 ![] bcast_S_S8x32 : (⟨S_, .f32⟩ : BufTy).Contents (Elt F) → (⟨S8x32, .f32⟩ : BufTy).Contents (Elt F)),
    StableHlo.binary main_v289 main_v288 main_v290 (mulf : (⟨S8x32, .f32⟩ : BufTy).Contents (Elt F) → (⟨S8x32, .f32⟩ : BufTy).Contents (Elt F) → (⟨S8x32, .f32⟩ : BufTy).Contents (Elt F)),
    StableHlo.unary main_v4 main_v291 ((extractStridedSlice S8x32x1x1 ![0, 0, 0, 126] · slices_S8x32x128x128_S8x32x1x1_0_0_0_126) : (⟨S8x32x128x128, .f32⟩ : BufTy).Contents (Elt F) → (⟨S8x32x1x1, .f32⟩ : BufTy).Contents (Elt F)),
    StableHlo.reshape main_v291 main_v292 rfl shapeCasts_S8x32x1x1_S8x32,
    StableHlo.nullary main_cst_60 (constant S_ .f32 0x3F000000#32),
    StableHlo.unary main_cst_60 main_v293 (broadcastInDim S8x32 ![] bcast_S_S8x32 : (⟨S_, .f32⟩ : BufTy).Contents (Elt F) → (⟨S8x32, .f32⟩ : BufTy).Contents (Elt F)),
    StableHlo.binary main_v293 main_v292 main_v294 (mulf : (⟨S8x32, .f32⟩ : BufTy).Contents (Elt F) → (⟨S8x32, .f32⟩ : BufTy).Contents (Elt F) → (⟨S8x32, .f32⟩ : BufTy).Contents (Elt F)),
    StableHlo.binary main_v290 main_v294 main_v295 (addf : (⟨S8x32, .f32⟩ : BufTy).Contents (Elt F) → (⟨S8x32, .f32⟩ : BufTy).Contents (Elt F) → (⟨S8x32, .f32⟩ : BufTy).Contents (Elt F)),
    StableHlo.nullary main_c_61 (constantI S_ 32 0#32) ]

/-- The buffers the window's operations write, one per operation, in order. -/
abbrev ops5_W : List (Ref sig .tc) := [main_v248, main_v249, main_v250, main_v251, main_v252, main_v253, main_v254, main_v255, main_v256, main_v257, main_v258, main_v259, main_v260, main_cst_50, main_v261, main_v262, main_v263, main_cst_51, main_v264, main_v265, main_v266, main_v267, main_cst_52, main_v268, main_v269, main_v270, main_c_53, main_v271, main_c_54, main_v272, main_v273, main_v274, main_v275, main_v276, main_c_55, main_v277, main_c_56, main_v278, main_v279, main_v280, main_v281, main_v282, main_c_57, main_v283, main_c_58, main_v284, main_v285, main_v286, main_v287, main_v288, main_cst_59, main_v289, main_v290, main_v291, main_v292, main_cst_60, main_v293, main_v294, main_v295, main_c_61]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops5_all (d : Dev nD) :
    (main_part5 (F := F) d = StableHlo.seq ops5) ∧
    ((ops5 : List (HloOp τ sig (Elt F))).Forall fun op => op.bufs ⊆ StableHlo.tcRefs τ sig) ∧
    ((ops5 : List (HloOp τ sig (Elt F))).Forall fun op => op.fresh = ∅) ∧
    ((ops5 : List (HloOp τ sig (Elt F))).Forall fun op => op.writes ⊆ (ops5_W.map (Proc.devRef (τ := τ) .tc)).toFinset) :=
  ⟨rfl,
   ⟨StableHlo.unary_bufs_sub .., StableHlo.binary_bufs_sub .., StableHlo.ternary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub .., StableHlo.nary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.unary_writes ..) (by decide), writes_sub (StableHlo.binary_writes ..) (by decide), writes_sub (StableHlo.ternary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.nary_writes ..) (by decide), writes_sub (StableHlo.nary_writes ..) (by decide), writes_sub (StableHlo.nullary_writes ..) (by decide), writes_sub (StableHlo.unary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide)⟩⟩

theorem main_part5_eq (d : Dev nD) : main_part5 (F := F) d = StableHlo.seq ops5 := (ops5_all d).1
theorem ops5_sub : (ops5 : List (HloOp τ sig (Elt F))).Forall fun op => op.bufs ⊆ StableHlo.tcRefs τ sig := (ops5_all ⟨0, Nat.one_pos⟩).2.1
theorem ops5_fresh : (ops5 : List (HloOp τ sig (Elt F))).Forall fun op => op.fresh = ∅ := (ops5_all ⟨0, Nat.one_pos⟩).2.2.1
theorem ops5_writes : (ops5 : List (HloOp τ sig (Elt F))).Forall fun op => op.writes ⊆ (ops5_W.map (Proc.devRef (τ := τ) .tc)).toFinset :=
  (ops5_all ⟨0, Nat.one_pos⟩).2.2.2

/-- A buffer outside the written list keeps its contents through the window. -/
theorem ops5_keeps (V : Valuation τ sig (Elt F)) (r : Ref sig .tc) (h : r ∉ ops5_W) :
    StableHlo.after ops5 V (Proc.devRef .tc r) = V (Proc.devRef .tc r) :=
  StableHlo.after_of_writes_sub ops5 V ops5_writes h

/-- The argument is none of the written buffers: it keeps its contents through the window. -/
theorem ops5_keeps_arg0 (V : Valuation τ sig (Elt F)) :
    StableHlo.after ops5 V (Proc.devRef .tc main_arg0) = V (Proc.devRef .tc main_arg0) :=
  ops5_keeps V main_arg0 (by decide)

end Cert.ReferenceIdeal.Hand

end
-- ==== Proof.RefOps6.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 6 of the reference's @main, in program order; where the program calls a local function,
    the callee's operations stand in its place, over the buffers of that call. -/
abbrev ops6 : List (HloOp τ sig (Elt F)) :=
  [ StableHlo.unary main_c_61 main_v296 (broadcastInDim S1 ![] bcast_S_S1 : (⟨S_, .i32⟩ : BufTy).Contents (Elt F) → (⟨S1, .i32⟩ : BufTy).Contents (Elt F)),
    StableHlo.nullary main_c_62 (constantI S_ 32 0#32),
    StableHlo.unary main_c_62 main_v297 (broadcastInDim S1 ![] bcast_S_S1 : (⟨S_, .i32⟩ : BufTy).Contents (Elt F) → (⟨S1, .i32⟩ : BufTy).Contents (Elt F)),
    StableHlo.binary main_v296 main_v297 main_v298 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v286 main_v298 main_v295 main_v299 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.nullary main_cst_63 (constant S_ .f32 0x00000000#32),
    StableHlo.unary main_cst_63 main_v300 (broadcastInDim S8x32x2x2 ![] bcast_S_S8x32x2x2 : (⟨S_, .f32⟩ : BufTy).Contents (Elt F) → (⟨S8x32x2x2, .f32⟩ : BufTy).Contents (Elt F)),
    StableHlo.unary main_v20 main_v301 ((extractStridedSlice S8x32x1x1 ![0, 0, 0, 127] · slices_S8x32x128x128_S8x32x1x1_0_0_0_127) : (⟨S8x32x128x128, .f32⟩ : BufTy).Contents (Elt F) → (⟨S8x32x1x1, .f32⟩ : BufTy).Contents (Elt F)),
    StableHlo.reshape main_v301 main_v302 rfl shapeCasts_S8x32x1x1_S8x32,
    StableHlo.nullary main_cst_64 (constant S_ .f32 0x3F000000#32),
    StableHlo.unary main_cst_64 main_v303 (broadcastInDim S8x32 ![] bcast_S_S8x32 : (⟨S_, .f32⟩ : BufTy).Contents (Elt F) → (⟨S8x32, .f32⟩ : BufTy).Contents (Elt F)),
    StableHlo.binary main_v303 main_v302 main_v304 (mulf : (⟨S8x32, .f32⟩ : BufTy).Contents (Elt F) → (⟨S8x32, .f32⟩ : BufTy).Contents (Elt F) → (⟨S8x32, .f32⟩ : BufTy).Contents (Elt F)),
    StableHlo.unary main_v22 main_v305 ((extractStridedSlice S8x32x1x1 ![0, 0, 127, 0] · slices_S8x32x128x128_S8x32x1x1_0_0_127_0) : (⟨S8x32x128x128, .f32⟩ : BufTy).Contents (Elt F) → (⟨S8x32x1x1, .f32⟩ : BufTy).Contents (Elt F)),
    StableHlo.reshape main_v305 main_v306 rfl shapeCasts_S8x32x1x1_S8x32,
    StableHlo.nullary main_cst_65 (constant S_ .f32 0x3F000000#32),
    StableHlo.unary main_cst_65 main_v307 (broadcastInDim S8x32 ![] bcast_S_S8x32 : (⟨S_, .f32⟩ : BufTy).Contents (Elt F) → (⟨S8x32, .f32⟩ : BufTy).Contents (Elt F)),
    StableHlo.binary main_v307 main_v306 main_v308 (mulf : (⟨S8x32, .f32⟩ : BufTy).Contents (Elt F) → (⟨S8x32, .f32⟩ : BufTy).Contents (Elt F) → (⟨S8x32, .f32⟩ : BufTy).Contents (Elt F)),
    StableHlo.binary main_v304 main_v308 main_v309 (addf : (⟨S8x32, .f32⟩ : BufTy).Contents (Elt F) → (⟨S8x32, .f32⟩ : BufTy).Contents (Elt F) → (⟨S8x32, .f32⟩ : BufTy).Contents (Elt F)),
    StableHlo.nullary main_c_66 (constantI S_ 32 0#32),
    StableHlo.unary main_c_66 main_v310 (broadcastInDim S1 ![] bcast_S_S1 : (⟨S_, .i32⟩ : BufTy).Contents (Elt F) → (⟨S1, .i32⟩ : BufTy).Contents (Elt F)),
    StableHlo.nullary main_c_67 (constantI S_ 32 0#32),
    StableHlo.unary main_c_67 main_v311 (broadcastInDim S1 ![] bcast_S_S1 : (⟨S_, .i32⟩ : BufTy).Contents (Elt F) → (⟨S1, .i32⟩ : BufTy).Contents (Elt F)),
    StableHlo.binary main_v310 main_v311 main_v312 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v300 main_v312 main_v309 main_v313 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v22 main_v314 ((extractStridedSlice S8x32x1x1 ![0, 0, 127, 1] · slices_S8x32x128x128_S8x32x1x1_0_0_127_1) : (⟨S8x32x128x128, .f32⟩ : BufTy).Contents (Elt F) → (⟨S8x32x1x1, .f32⟩ : BufTy).Contents (Elt F)),
    StableHlo.reshape main_v314 main_v315 rfl shapeCasts_S8x32x1x1_S8x32x1,
    StableHlo.nullary main_c_68 (constantI S_ 32 0#32),
    StableHlo.unary main_c_68 main_v316 (broadcastInDim S1 ![] bcast_S_S1 : (⟨S_, .i32⟩ : BufTy).Contents (Elt F) → (⟨S1, .i32⟩ : BufTy).Contents (Elt F)),
    StableHlo.nullary main_c_69 (constantI S_ 32 1#32),
    StableHlo.unary main_c_69 main_v317 (broadcastInDim S1 ![] bcast_S_S1 : (⟨S_, .i32⟩ : BufTy).Contents (Elt F) → (⟨S1, .i32⟩ : BufTy).Contents (Elt F)),
    StableHlo.binary main_v316 main_v317 main_v318 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v313 main_v318 main_v315 main_v319 ((fun x i u => Host.scatter scatter_S8x32x2x2_S2_S8x32x1_012_3_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v20 main_v320 ((extractStridedSlice S8x32x1x1 ![0, 0, 1, 127] · slices_S8x32x128x128_S8x32x1x1_0_0_1_127) : (⟨S8x32x128x128, .f32⟩ : BufTy).Contents (Elt F) → (⟨S8x32x1x1, .f32⟩ : BufTy).Contents (Elt F)),
    StableHlo.reshape main_v320 main_v321 rfl shapeCasts_S8x32x1x1_S8x32x1,
    StableHlo.nullary main_c_70 (constantI S_ 32 1#32),
    StableHlo.unary main_c_70 main_v322 (broadcastInDim S1 ![] bcast_S_S1 : (⟨S_, .i32⟩ : BufTy).Contents (Elt F) → (⟨S1, .i32⟩ : BufTy).Contents (Elt F)),
    StableHlo.nullary main_c_71 (constantI S_ 32 0#32),
    StableHlo.unary main_c_71 main_v323 (broadcastInDim S1 ![] bcast_S_S1 : (⟨S_, .i32⟩ : BufTy).Contents (Elt F) → (⟨S1, .i32⟩ : BufTy).Contents (Elt F)),
    StableHlo.binary main_v322 main_v323 main_v324 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v319 main_v324 main_v321 main_v325 ((fun x i u => Host.scatter scatter_S8x32x2x2_S2_S8x32x1_012_2_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v20 main_v326 ((extractStridedSlice S8x32x1x1 ![0, 0, 1, 127] · slices_S8x32x128x128_S8x32x1x1_0_0_1_127) : (⟨S8x32x128x128, .f32⟩ : BufTy).Contents (Elt F) → (⟨S8x32x1x1, .f32⟩ : BufTy).Contents (Elt F)),
    StableHlo.reshape main_v326 main_v327 rfl shapeCasts_S8x32x1x1_S8x32,
    StableHlo.nullary main_cst_72 (constant S_ .f32 0x3F000000#32),
    StableHlo.unary main_cst_72 main_v328 (broadcastInDim S8x32 ![] bcast_S_S8x32 : (⟨S_, .f32⟩ : BufTy).Contents (Elt F) → (⟨S8x32, .f32⟩ : BufTy).Contents (Elt F)),
    StableHlo.binary main_v328 main_v327 main_v329 (mulf : (⟨S8x32, .f32⟩ : BufTy).Contents (Elt F) → (⟨S8x32, .f32⟩ : BufTy).Contents (Elt F) → (⟨S8x32, .f32⟩ : BufTy).Contents (Elt F)),
    StableHlo.unary main_v22 main_v330 ((extractStridedSlice S8x32x1x1 ![0, 0, 127, 1] · slices_S8x32x128x128_S8x32x1x1_0_0_127_1) : (⟨S8x32x128x128, .f32⟩ : BufTy).Contents (Elt F) → (⟨S8x32x1x1, .f32⟩ : BufTy).Contents (Elt F)),
    StableHlo.reshape main_v330 main_v331 rfl shapeCasts_S8x32x1x1_S8x32,
    StableHlo.nullary main_cst_73 (constant S_ .f32 0x3F000000#32),
    StableHlo.unary main_cst_73 main_v332 (broadcastInDim S8x32 ![] bcast_S_S8x32 : (⟨S_, .f32⟩ : BufTy).Contents (Elt F) → (⟨S8x32, .f32⟩ : BufTy).Contents (Elt F)),
    StableHlo.binary main_v332 main_v331 main_v333 (mulf : (⟨S8x32, .f32⟩ : BufTy).Contents (Elt F) → (⟨S8x32, .f32⟩ : BufTy).Contents (Elt F) → (⟨S8x32, .f32⟩ : BufTy).Contents (Elt F)),
    StableHlo.binary main_v329 main_v333 main_v334 (addf : (⟨S8x32, .f32⟩ : BufTy).Contents (Elt F) → (⟨S8x32, .f32⟩ : BufTy).Contents (Elt F) → (⟨S8x32, .f32⟩ : BufTy).Contents (Elt F)),
    StableHlo.nullary main_c_74 (constantI S_ 32 1#32),
    StableHlo.unary main_c_74 main_v335 (broadcastInDim S1 ![] bcast_S_S1 : (⟨S_, .i32⟩ : BufTy).Contents (Elt F) → (⟨S1, .i32⟩ : BufTy).Contents (Elt F)),
    StableHlo.nullary main_c_75 (constantI S_ 32 1#32),
    StableHlo.unary main_c_75 main_v336 (broadcastInDim S1 ![] bcast_S_S1 : (⟨S_, .i32⟩ : BufTy).Contents (Elt F) → (⟨S1, .i32⟩ : BufTy).Contents (Elt F)),
    StableHlo.binary main_v335 main_v336 main_v337 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v325 main_v337 main_v334 main_v338 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v6 main_v339 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.unary main_v20 main_v340 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v339, main_v14, main_v340] main_v341 (fun u => concatenate S8x32x132x128 2 [⟨S8x32x2x128, u 0⟩, ⟨S8x32x128x128, u 1⟩, ⟨S8x32x2x128, u 2⟩] concatenates_S8x32x2x128_S8x32x128x128_S8x32x2x128_S8x32x132x128_d2) ]

/-- The buffers the window's operations write, one per operation, in order. -/
abbrev ops6_W : List (Ref sig .tc) := [main_v296, main_c_62, main_v297, main_v298, main_v299, main_cst_63, main_v300, main_v301, main_v302, main_cst_64, main_v303, main_v304, main_v305, main_v306, main_cst_65, main_v307, main_v308, main_v309, main_c_66, main_v310, main_c_67, main_v311, main_v312, main_v313, main_v314, main_v315, main_c_68, main_v316, main_c_69, main_v317, main_v318, main_v319, main_v320, main_v321, main_c_70, main_v322, main_c_71, main_v323, main_v324, main_v325, main_v326, main_v327, main_cst_72, main_v328, main_v329, main_v330, main_v331, main_cst_73, main_v332, main_v333, main_v334, main_c_74, main_v335, main_c_75, main_v336, main_v337, main_v338, main_v339, main_v340, main_v341]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops6_all (d : Dev nD) :
    (main_part6 (F := F) d = StableHlo.seq ops6) ∧
    ((ops6 : List (HloOp τ sig (Elt F))).Forall fun op => op.bufs ⊆ StableHlo.tcRefs τ sig) ∧
    ((ops6 : List (HloOp τ sig (Elt F))).Forall fun op => op.fresh = ∅) ∧
    ((ops6 : List (HloOp τ sig (Elt F))).Forall fun op => op.writes ⊆ (ops6_W.map (Proc.devRef (τ := τ) .tc)).toFinset) :=
  ⟨rfl,
   ⟨StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.unary_bufs_sub .., StableHlo.nary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.nullary_writes ..) (by decide), writes_sub (StableHlo.unary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.unary_writes ..) (by decide), writes_sub (StableHlo.nary_writes ..) (by decide)⟩⟩

theorem main_part6_eq (d : Dev nD) : main_part6 (F := F) d = StableHlo.seq ops6 := (ops6_all d).1
theorem ops6_sub : (ops6 : List (HloOp τ sig (Elt F))).Forall fun op => op.bufs ⊆ StableHlo.tcRefs τ sig := (ops6_all ⟨0, Nat.one_pos⟩).2.1
theorem ops6_fresh : (ops6 : List (HloOp τ sig (Elt F))).Forall fun op => op.fresh = ∅ := (ops6_all ⟨0, Nat.one_pos⟩).2.2.1
theorem ops6_writes : (ops6 : List (HloOp τ sig (Elt F))).Forall fun op => op.writes ⊆ (ops6_W.map (Proc.devRef (τ := τ) .tc)).toFinset :=
  (ops6_all ⟨0, Nat.one_pos⟩).2.2.2

/-- A buffer outside the written list keeps its contents through the window. -/
theorem ops6_keeps (V : Valuation τ sig (Elt F)) (r : Ref sig .tc) (h : r ∉ ops6_W) :
    StableHlo.after ops6 V (Proc.devRef .tc r) = V (Proc.devRef .tc r) :=
  StableHlo.after_of_writes_sub ops6 V ops6_writes h

/-- The argument is none of the written buffers: it keeps its contents through the window. -/
theorem ops6_keeps_arg0 (V : Valuation τ sig (Elt F)) :
    StableHlo.after ops6 V (Proc.devRef .tc main_arg0) = V (Proc.devRef .tc main_arg0) :=
  ops6_keeps V main_arg0 (by decide)

end Cert.ReferenceIdeal.Hand

end
-- ==== Proof.RefOps7.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 7 of the reference's @main, in program order; where the program calls a local function,
    the callee's operations stand in its place, over the buffers of that call. -/
abbrev ops7 : List (HloOp τ sig (Elt F)) :=
  [ StableHlo.unary main_v4 main_v342 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v12 main_v343 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v299, main_v342, main_v343] main_v344 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v16 main_v345 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.unary main_v22 main_v346 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.nary ![main_v345, main_v346, main_v338] main_v347 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v344, main_v341, main_v347] main_v348 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.nullary main_cst_76 (constant S_ .f32 0x00000000#32),
    StableHlo.unary main_cst_76 main_v349 (broadcastInDim S8x32x2x2 ![] bcast_S_S8x32x2x2 : (⟨S_, .f32⟩ : BufTy).Contents (Elt F) → (⟨S8x32x2x2, .f32⟩ : BufTy).Contents (Elt F)),
    StableHlo.unary main_v8 main_v350 ((extractStridedSlice S8x32x1x1 ![0, 0, 127, 0] · slices_S8x32x128x128_S8x32x1x1_0_0_127_0) : (⟨S8x32x128x128, .f32⟩ : BufTy).Contents (Elt F) → (⟨S8x32x1x1, .f32⟩ : BufTy).Contents (Elt F)),
    StableHlo.reshape main_v350 main_v351 rfl shapeCasts_S8x32x1x1_S8x32,
    StableHlo.nullary main_cst_77 (constant S_ .f32 0x3F000000#32),
    StableHlo.unary main_cst_77 main_v352 (broadcastInDim S8x32 ![] bcast_S_S8x32 : (⟨S_, .f32⟩ : BufTy).Contents (Elt F) → (⟨S8x32, .f32⟩ : BufTy).Contents (Elt F)),
    StableHlo.binary main_v352 main_v351 main_v353 (mulf : (⟨S8x32, .f32⟩ : BufTy).Contents (Elt F) → (⟨S8x32, .f32⟩ : BufTy).Contents (Elt F) → (⟨S8x32, .f32⟩ : BufTy).Contents (Elt F)),
    StableHlo.unary main_v6 main_v354 ((extractStridedSlice S8x32x1x1 ![0, 0, 0, 127] · slices_S8x32x128x128_S8x32x1x1_0_0_0_127) : (⟨S8x32x128x128, .f32⟩ : BufTy).Contents (Elt F) → (⟨S8x32x1x1, .f32⟩ : BufTy).Contents (Elt F)),
    StableHlo.reshape main_v354 main_v355 rfl shapeCasts_S8x32x1x1_S8x32,
    StableHlo.nullary main_cst_78 (constant S_ .f32 0x3F000000#32),
    StableHlo.unary main_cst_78 main_v356 (broadcastInDim S8x32 ![] bcast_S_S8x32 : (⟨S_, .f32⟩ : BufTy).Contents (Elt F) → (⟨S8x32, .f32⟩ : BufTy).Contents (Elt F)),
    StableHlo.binary main_v356 main_v355 main_v357 (mulf : (⟨S8x32, .f32⟩ : BufTy).Contents (Elt F) → (⟨S8x32, .f32⟩ : BufTy).Contents (Elt F) → (⟨S8x32, .f32⟩ : BufTy).Contents (Elt F)),
    StableHlo.binary main_v353 main_v357 main_v358 (addf : (⟨S8x32, .f32⟩ : BufTy).Contents (Elt F) → (⟨S8x32, .f32⟩ : BufTy).Contents (Elt F) → (⟨S8x32, .f32⟩ : BufTy).Contents (Elt F)),
    StableHlo.nullary main_c_79 (constantI S_ 32 1#32),
    StableHlo.unary main_c_79 main_v359 (broadcastInDim S1 ![] bcast_S_S1 : (⟨S_, .i32⟩ : BufTy).Contents (Elt F) → (⟨S1, .i32⟩ : BufTy).Contents (Elt F)),
    StableHlo.nullary main_c_80 (constantI S_ 32 1#32),
    StableHlo.unary main_c_80 main_v360 (broadcastInDim S1 ![] bcast_S_S1 : (⟨S_, .i32⟩ : BufTy).Contents (Elt F) → (⟨S1, .i32⟩ : BufTy).Contents (Elt F)),
    StableHlo.binary main_v359 main_v360 main_v361 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v349 main_v361 main_v358 main_v362 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v8 main_v363 ((extractStridedSlice S8x32x1x1 ![0, 0, 126, 0] · slices_S8x32x128x128_S8x32x1x1_0_0_126_0) : (⟨S8x32x128x128, .f32⟩ : BufTy).Contents (Elt F) → (⟨S8x32x1x1, .f32⟩ : BufTy).Contents (Elt F)),
    StableHlo.reshape main_v363 main_v364 rfl shapeCasts_S8x32x1x1_S8x32x1,
    StableHlo.nullary main_c_81 (constantI S_ 32 0#32),
    StableHlo.unary main_c_81 main_v365 (broadcastInDim S1 ![] bcast_S_S1 : (⟨S_, .i32⟩ : BufTy).Contents (Elt F) → (⟨S1, .i32⟩ : BufTy).Contents (Elt F)),
    StableHlo.nullary main_c_82 (constantI S_ 32 1#32),
    StableHlo.unary main_c_82 main_v366 (broadcastInDim S1 ![] bcast_S_S1 : (⟨S_, .i32⟩ : BufTy).Contents (Elt F) → (⟨S1, .i32⟩ : BufTy).Contents (Elt F)),
    StableHlo.binary main_v365 main_v366 main_v367 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v362 main_v367 main_v364 main_v368 ((fun x i u => Host.scatter scatter_S8x32x2x2_S2_S8x32x1_012_2_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v6 main_v369 ((extractStridedSlice S8x32x1x1 ![0, 0, 0, 126] · slices_S8x32x128x128_S8x32x1x1_0_0_0_126) : (⟨S8x32x128x128, .f32⟩ : BufTy).Contents (Elt F) → (⟨S8x32x1x1, .f32⟩ : BufTy).Contents (Elt F)),
    StableHlo.reshape main_v369 main_v370 rfl shapeCasts_S8x32x1x1_S8x32x1,
    StableHlo.nullary main_c_83 (constantI S_ 32 1#32),
    StableHlo.unary main_c_83 main_v371 (broadcastInDim S1 ![] bcast_S_S1 : (⟨S_, .i32⟩ : BufTy).Contents (Elt F) → (⟨S1, .i32⟩ : BufTy).Contents (Elt F)),
    StableHlo.nullary main_c_84 (constantI S_ 32 0#32),
    StableHlo.unary main_c_84 main_v372 (broadcastInDim S1 ![] bcast_S_S1 : (⟨S_, .i32⟩ : BufTy).Contents (Elt F) → (⟨S1, .i32⟩ : BufTy).Contents (Elt F)),
    StableHlo.binary main_v371 main_v372 main_v373 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v368 main_v373 main_v370 main_v374 ((fun x i u => Host.scatter scatter_S8x32x2x2_S2_S8x32x1_012_3_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v8 main_v375 ((extractStridedSlice S8x32x1x1 ![0, 0, 126, 0] · slices_S8x32x128x128_S8x32x1x1_0_0_126_0) : (⟨S8x32x128x128, .f32⟩ : BufTy).Contents (Elt F) → (⟨S8x32x1x1, .f32⟩ : BufTy).Contents (Elt F)),
    StableHlo.reshape main_v375 main_v376 rfl shapeCasts_S8x32x1x1_S8x32,
    StableHlo.nullary main_cst_85 (constant S_ .f32 0x3F000000#32),
    StableHlo.unary main_cst_85 main_v377 (broadcastInDim S8x32 ![] bcast_S_S8x32 : (⟨S_, .f32⟩ : BufTy).Contents (Elt F) → (⟨S8x32, .f32⟩ : BufTy).Contents (Elt F)),
    StableHlo.binary main_v377 main_v376 main_v378 (mulf : (⟨S8x32, .f32⟩ : BufTy).Contents (Elt F) → (⟨S8x32, .f32⟩ : BufTy).Contents (Elt F) → (⟨S8x32, .f32⟩ : BufTy).Contents (Elt F)),
    StableHlo.unary main_v6 main_v379 ((extractStridedSlice S8x32x1x1 ![0, 0, 0, 126] · slices_S8x32x128x128_S8x32x1x1_0_0_0_126) : (⟨S8x32x128x128, .f32⟩ : BufTy).Contents (Elt F) → (⟨S8x32x1x1, .f32⟩ : BufTy).Contents (Elt F)),
    StableHlo.reshape main_v379 main_v380 rfl shapeCasts_S8x32x1x1_S8x32,
    StableHlo.nullary main_cst_86 (constant S_ .f32 0x3F000000#32),
    StableHlo.unary main_cst_86 main_v381 (broadcastInDim S8x32 ![] bcast_S_S8x32 : (⟨S_, .f32⟩ : BufTy).Contents (Elt F) → (⟨S8x32, .f32⟩ : BufTy).Contents (Elt F)),
    StableHlo.binary main_v381 main_v380 main_v382 (mulf : (⟨S8x32, .f32⟩ : BufTy).Contents (Elt F) → (⟨S8x32, .f32⟩ : BufTy).Contents (Elt F) → (⟨S8x32, .f32⟩ : BufTy).Contents (Elt F)),
    StableHlo.binary main_v378 main_v382 main_v383 (addf : (⟨S8x32, .f32⟩ : BufTy).Contents (Elt F) → (⟨S8x32, .f32⟩ : BufTy).Contents (Elt F) → (⟨S8x32, .f32⟩ : BufTy).Contents (Elt F)),
    StableHlo.nullary main_c_87 (constantI S_ 32 0#32),
    StableHlo.unary main_c_87 main_v384 (broadcastInDim S1 ![] bcast_S_S1 : (⟨S_, .i32⟩ : BufTy).Contents (Elt F) → (⟨S1, .i32⟩ : BufTy).Contents (Elt F)),
    StableHlo.nullary main_c_88 (constantI S_ 32 0#32),
    StableHlo.unary main_c_88 main_v385 (broadcastInDim S1 ![] bcast_S_S1 : (⟨S_, .i32⟩ : BufTy).Contents (Elt F) → (⟨S1, .i32⟩ : BufTy).Contents (Elt F)),
    StableHlo.binary main_v384 main_v385 main_v386 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v374 main_v386 main_v383 main_v387 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.nullary main_cst_89 (constant S_ .f32 0x00000000#32) ]

/-- The buffers the window's operations write, one per operation, in order. -/
abbrev ops7_W : List (Ref sig .tc) := [main_v342, main_v343, main_v344, main_v345, main_v346, main_v347, main_v348, main_cst_76, main_v349, main_v350, main_v351, main_cst_77, main_v352, main_v353, main_v354, main_v355, main_cst_78, main_v356, main_v357, main_v358, main_c_79, main_v359, main_c_80, main_v360, main_v361, main_v362, main_v363, main_v364, main_c_81, main_v365, main_c_82, main_v366, main_v367, main_v368, main_v369, main_v370, main_c_83, main_v371, main_c_84, main_v372, main_v373, main_v374, main_v375, main_v376, main_cst_85, main_v377, main_v378, main_v379, main_v380, main_cst_86, main_v381, main_v382, main_v383, main_c_87, main_v384, main_c_88, main_v385, main_v386, main_v387, main_cst_89]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops7_all (d : Dev nD) :
    (main_part7 (F := F) d = StableHlo.seq ops7) ∧
    ((ops7 : List (HloOp τ sig (Elt F))).Forall fun op => op.bufs ⊆ StableHlo.tcRefs τ sig) ∧
    ((ops7 : List (HloOp τ sig (Elt F))).Forall fun op => op.fresh = ∅) ∧
    ((ops7 : List (HloOp τ sig (Elt F))).Forall fun op => op.writes ⊆ (ops7_W.map (Proc.devRef (τ := τ) .tc)).toFinset) :=
  ⟨rfl,
   ⟨StableHlo.unary_bufs_sub .., StableHlo.unary_bufs_sub .., StableHlo.nary_bufs_sub .., StableHlo.unary_bufs_sub .., StableHlo.unary_bufs_sub .., StableHlo.nary_bufs_sub .., StableHlo.nary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.nary_writes ..) (by decide), writes_sub (StableHlo.nary_writes ..) (by decide), writes_sub (StableHlo.nullary_writes ..) (by decide), writes_sub (StableHlo.unary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.nullary_writes ..) (by decide)⟩⟩

theorem main_part7_eq (d : Dev nD) : main_part7 (F := F) d = StableHlo.seq ops7 := (ops7_all d).1
theorem ops7_sub : (ops7 : List (HloOp τ sig (Elt F))).Forall fun op => op.bufs ⊆ StableHlo.tcRefs τ sig := (ops7_all ⟨0, Nat.one_pos⟩).2.1
theorem ops7_fresh : (ops7 : List (HloOp τ sig (Elt F))).Forall fun op => op.fresh = ∅ := (ops7_all ⟨0, Nat.one_pos⟩).2.2.1
theorem ops7_writes : (ops7 : List (HloOp τ sig (Elt F))).Forall fun op => op.writes ⊆ (ops7_W.map (Proc.devRef (τ := τ) .tc)).toFinset :=
  (ops7_all ⟨0, Nat.one_pos⟩).2.2.2

/-- A buffer outside the written list keeps its contents through the window. -/
theorem ops7_keeps (V : Valuation τ sig (Elt F)) (r : Ref sig .tc) (h : r ∉ ops7_W) :
    StableHlo.after ops7 V (Proc.devRef .tc r) = V (Proc.devRef .tc r) :=
  StableHlo.after_of_writes_sub ops7 V ops7_writes h

/-- The argument is none of the written buffers: it keeps its contents through the window. -/
theorem ops7_keeps_arg0 (V : Valuation τ sig (Elt F)) :
    StableHlo.after ops7 V (Proc.devRef .tc main_arg0) = V (Proc.devRef .tc main_arg0) :=
  ops7_keeps V main_arg0 (by decide)

end Cert.ReferenceIdeal.Hand

end
-- ==== Proof.RefOps8.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 8 of the reference's @main, in program order; where the program calls a local function,
    the callee's operations stand in its place, over the buffers of that call. -/
abbrev ops8 : List (HloOp τ sig (Elt F)) :=
  [ StableHlo.unary main_cst_89 main_v388 (broadcastInDim S8x32x2x2 ![] bcast_S_S8x32x2x2 : (⟨S_, .f32⟩ : BufTy).Contents (Elt F) → (⟨S8x32x2x2, .f32⟩ : BufTy).Contents (Elt F)),
    StableHlo.unary main_v22 main_v389 ((extractStridedSlice S8x32x1x1 ![0, 0, 0, 127] · slices_S8x32x128x128_S8x32x1x1_0_0_0_127) : (⟨S8x32x128x128, .f32⟩ : BufTy).Contents (Elt F) → (⟨S8x32x1x1, .f32⟩ : BufTy).Contents (Elt F)),
    StableHlo.reshape main_v389 main_v390 rfl shapeCasts_S8x32x1x1_S8x32,
    StableHlo.nullary main_cst_90 (constant S_ .f32 0x3F000000#32),
    StableHlo.unary main_cst_90 main_v391 (broadcastInDim S8x32 ![] bcast_S_S8x32 : (⟨S_, .f32⟩ : BufTy).Contents (Elt F) → (⟨S8x32, .f32⟩ : BufTy).Contents (Elt F)),
    StableHlo.binary main_v391 main_v390 main_v392 (mulf : (⟨S8x32, .f32⟩ : BufTy).Contents (Elt F) → (⟨S8x32, .f32⟩ : BufTy).Contents (Elt F) → (⟨S8x32, .f32⟩ : BufTy).Contents (Elt F)),
    StableHlo.unary main_v24 main_v393 ((extractStridedSlice S8x32x1x1 ![0, 0, 127, 0] · slices_S8x32x128x128_S8x32x1x1_0_0_127_0) : (⟨S8x32x128x128, .f32⟩ : BufTy).Contents (Elt F) → (⟨S8x32x1x1, .f32⟩ : BufTy).Contents (Elt F)),
    StableHlo.reshape main_v393 main_v394 rfl shapeCasts_S8x32x1x1_S8x32,
    StableHlo.nullary main_cst_91 (constant S_ .f32 0x3F000000#32),
    StableHlo.unary main_cst_91 main_v395 (broadcastInDim S8x32 ![] bcast_S_S8x32 : (⟨S_, .f32⟩ : BufTy).Contents (Elt F) → (⟨S8x32, .f32⟩ : BufTy).Contents (Elt F)),
    StableHlo.binary main_v395 main_v394 main_v396 (mulf : (⟨S8x32, .f32⟩ : BufTy).Contents (Elt F) → (⟨S8x32, .f32⟩ : BufTy).Contents (Elt F) → (⟨S8x32, .f32⟩ : BufTy).Contents (Elt F)),
    StableHlo.binary main_v392 main_v396 main_v397 (addf : (⟨S8x32, .f32⟩ : BufTy).Contents (Elt F) → (⟨S8x32, .f32⟩ : BufTy).Contents (Elt F) → (⟨S8x32, .f32⟩ : BufTy).Contents (Elt F)),
    StableHlo.nullary main_c_92 (constantI S_ 32 0#32),
    StableHlo.unary main_c_92 main_v398 (broadcastInDim S1 ![] bcast_S_S1 : (⟨S_, .i32⟩ : BufTy).Contents (Elt F) → (⟨S1, .i32⟩ : BufTy).Contents (Elt F)),
    StableHlo.nullary main_c_93 (constantI S_ 32 0#32),
    StableHlo.unary main_c_93 main_v399 (broadcastInDim S1 ![] bcast_S_S1 : (⟨S_, .i32⟩ : BufTy).Contents (Elt F) → (⟨S1, .i32⟩ : BufTy).Contents (Elt F)),
    StableHlo.binary main_v398 main_v399 main_v400 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v388 main_v400 main_v397 main_v401 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v24 main_v402 ((extractStridedSlice S8x32x1x1 ![0, 0, 127, 1] · slices_S8x32x128x128_S8x32x1x1_0_0_127_1) : (⟨S8x32x128x128, .f32⟩ : BufTy).Contents (Elt F) → (⟨S8x32x1x1, .f32⟩ : BufTy).Contents (Elt F)),
    StableHlo.reshape main_v402 main_v403 rfl shapeCasts_S8x32x1x1_S8x32x1,
    StableHlo.nullary main_c_94 (constantI S_ 32 0#32),
    StableHlo.unary main_c_94 main_v404 (broadcastInDim S1 ![] bcast_S_S1 : (⟨S_, .i32⟩ : BufTy).Contents (Elt F) → (⟨S1, .i32⟩ : BufTy).Contents (Elt F)),
    StableHlo.nullary main_c_95 (constantI S_ 32 1#32),
    StableHlo.unary main_c_95 main_v405 (broadcastInDim S1 ![] bcast_S_S1 : (⟨S_, .i32⟩ : BufTy).Contents (Elt F) → (⟨S1, .i32⟩ : BufTy).Contents (Elt F)),
    StableHlo.binary main_v404 main_v405 main_v406 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v401 main_v406 main_v403 main_v407 ((fun x i u => Host.scatter scatter_S8x32x2x2_S2_S8x32x1_012_3_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v22 main_v408 ((extractStridedSlice S8x32x1x1 ![0, 0, 1, 127] · slices_S8x32x128x128_S8x32x1x1_0_0_1_127) : (⟨S8x32x128x128, .f32⟩ : BufTy).Contents (Elt F) → (⟨S8x32x1x1, .f32⟩ : BufTy).Contents (Elt F)),
    StableHlo.reshape main_v408 main_v409 rfl shapeCasts_S8x32x1x1_S8x32x1,
    StableHlo.nullary main_c_96 (constantI S_ 32 1#32),
    StableHlo.unary main_c_96 main_v410 (broadcastInDim S1 ![] bcast_S_S1 : (⟨S_, .i32⟩ : BufTy).Contents (Elt F) → (⟨S1, .i32⟩ : BufTy).Contents (Elt F)),
    StableHlo.nullary main_c_97 (constantI S_ 32 0#32),
    StableHlo.unary main_c_97 main_v411 (broadcastInDim S1 ![] bcast_S_S1 : (⟨S_, .i32⟩ : BufTy).Contents (Elt F) → (⟨S1, .i32⟩ : BufTy).Contents (Elt F)),
    StableHlo.binary main_v410 main_v411 main_v412 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v407 main_v412 main_v409 main_v413 ((fun x i u => Host.scatter scatter_S8x32x2x2_S2_S8x32x1_012_2_23_0 (fun _ b => b) x i u) : (⟨S8x32x2x2, .f32⟩ : BufTy).Contents (Elt F) → (⟨S2, .i32⟩ : BufTy).Contents (Elt F) → (⟨S8x32x1, .f32⟩ : BufTy).Contents (Elt F) → (⟨S8x32x2x2, .f32⟩ : BufTy).Contents (Elt F)),
    StableHlo.unary main_v22 main_v414 ((extractStridedSlice S8x32x1x1 ![0, 0, 1, 127] · slices_S8x32x128x128_S8x32x1x1_0_0_1_127) : (⟨S8x32x128x128, .f32⟩ : BufTy).Contents (Elt F) → (⟨S8x32x1x1, .f32⟩ : BufTy).Contents (Elt F)),
    StableHlo.reshape main_v414 main_v415 rfl shapeCasts_S8x32x1x1_S8x32,
    StableHlo.nullary main_cst_98 (constant S_ .f32 0x3F000000#32),
    StableHlo.unary main_cst_98 main_v416 (broadcastInDim S8x32 ![] bcast_S_S8x32 : (⟨S_, .f32⟩ : BufTy).Contents (Elt F) → (⟨S8x32, .f32⟩ : BufTy).Contents (Elt F)),
    StableHlo.binary main_v416 main_v415 main_v417 (mulf : (⟨S8x32, .f32⟩ : BufTy).Contents (Elt F) → (⟨S8x32, .f32⟩ : BufTy).Contents (Elt F) → (⟨S8x32, .f32⟩ : BufTy).Contents (Elt F)),
    StableHlo.unary main_v24 main_v418 ((extractStridedSlice S8x32x1x1 ![0, 0, 127, 1] · slices_S8x32x128x128_S8x32x1x1_0_0_127_1) : (⟨S8x32x128x128, .f32⟩ : BufTy).Contents (Elt F) → (⟨S8x32x1x1, .f32⟩ : BufTy).Contents (Elt F)),
    StableHlo.reshape main_v418 main_v419 rfl shapeCasts_S8x32x1x1_S8x32,
    StableHlo.nullary main_cst_99 (constant S_ .f32 0x3F000000#32),
    StableHlo.unary main_cst_99 main_v420 (broadcastInDim S8x32 ![] bcast_S_S8x32 : (⟨S_, .f32⟩ : BufTy).Contents (Elt F) → (⟨S8x32, .f32⟩ : BufTy).Contents (Elt F)),
    StableHlo.binary main_v420 main_v419 main_v421 (mulf : (⟨S8x32, .f32⟩ : BufTy).Contents (Elt F) → (⟨S8x32, .f32⟩ : BufTy).Contents (Elt F) → (⟨S8x32, .f32⟩ : BufTy).Contents (Elt F)),
    StableHlo.binary main_v417 main_v421 main_v422 (addf : (⟨S8x32, .f32⟩ : BufTy).Contents (Elt F) → (⟨S8x32, .f32⟩ : BufTy).Contents (Elt F) → (⟨S8x32, .f32⟩ : BufTy).Contents (Elt F)),
    StableHlo.nullary main_c_100 (constantI S_ 32 1#32),
    StableHlo.unary main_c_100 main_v423 (broadcastInDim S1 ![] bcast_S_S1 : (⟨S_, .i32⟩ : BufTy).Contents (Elt F) → (⟨S1, .i32⟩ : BufTy).Contents (Elt F)),
    StableHlo.nullary main_c_101 (constantI S_ 32 1#32),
    StableHlo.unary main_c_101 main_v424 (broadcastInDim S1 ![] bcast_S_S1 : (⟨S_, .i32⟩ : BufTy).Contents (Elt F) → (⟨S1, .i32⟩ : BufTy).Contents (Elt F)),
    StableHlo.binary main_v423 main_v424 main_v425 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v413 main_v425 main_v422 main_v426 ((fun x i u => Host.scatter scatter_S8x32x2x2_S2_S8x32_01_23_23_0 (fun _ b => b) x i u) : (⟨S8x32x2x2, .f32⟩ : BufTy).Contents (Elt F) → (⟨S2, .i32⟩ : BufTy).Contents (Elt F) → (⟨S8x32, .f32⟩ : BufTy).Contents (Elt F) → (⟨S8x32x2x2, .f32⟩ : BufTy).Contents (Elt F)),
    StableHlo.unary main_v8 main_v427 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.unary main_v22 main_v428 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v427, main_v16, main_v428] main_v429 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.unary main_v6 main_v430 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v14 main_v431 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v387, main_v430, main_v431] main_v432 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v10 main_v433 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.unary main_v24 main_v434 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.nary ![main_v433, main_v434, main_v426] main_v435 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) ]

/-- The buffers the window's operations write, one per operation, in order. -/
abbrev ops8_W : List (Ref sig .tc) := [main_v388, main_v389, main_v390, main_cst_90, main_v391, main_v392, main_v393, main_v394, main_cst_91, main_v395, main_v396, main_v397, main_c_92, main_v398, main_c_93, main_v399, main_v400, main_v401, main_v402, main_v403, main_c_94, main_v404, main_c_95, main_v405, main_v406, main_v407, main_v408, main_v409, main_c_96, main_v410, main_c_97, main_v411, main_v412, main_v413, main_v414, main_v415, main_cst_98, main_v416, main_v417, main_v418, main_v419, main_cst_99, main_v420, main_v421, main_v422, main_c_100, main_v423, main_c_101, main_v424, main_v425, main_v426, main_v427, main_v428, main_v429, main_v430, main_v431, main_v432, main_v433, main_v434, main_v435]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops8_all (d : Dev nD) :
    (main_part8 (F := F) d = StableHlo.seq ops8) ∧
    ((ops8 : List (HloOp τ sig (Elt F))).Forall fun op => op.bufs ⊆ StableHlo.tcRefs τ sig) ∧
    ((ops8 : List (HloOp τ sig (Elt F))).Forall fun op => op.fresh = ∅) ∧
    ((ops8 : List (HloOp τ sig (Elt F))).Forall fun op => op.writes ⊆ (ops8_W.map (Proc.devRef (τ := τ) .tc)).toFinset) :=
  ⟨rfl,
   ⟨StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.unary_bufs_sub .., StableHlo.nary_bufs_sub .., StableHlo.unary_bufs_sub .., StableHlo.unary_bufs_sub .., StableHlo.nary_bufs_sub .., StableHlo.unary_bufs_sub .., StableHlo.unary_bufs_sub .., StableHlo.nary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.unary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.unary_writes ..) (by decide), writes_sub (StableHlo.reshape_writes ..) (by decide), writes_sub (StableHlo.nullary_writes ..) (by decide), writes_sub (StableHlo.unary_writes ..) (by decide), writes_sub (StableHlo.binary_writes ..) (by decide), writes_sub (StableHlo.binary_writes ..) (by decide), writes_sub (StableHlo.nullary_writes ..) (by decide), writes_sub (StableHlo.unary_writes ..) (by decide), writes_sub (StableHlo.nullary_writes ..) (by decide), writes_sub (StableHlo.unary_writes ..) (by decide), writes_sub (StableHlo.binary_writes ..) (by decide), writes_sub (StableHlo.ternary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.nary_writes ..) (by decide)⟩⟩

theorem main_part8_eq (d : Dev nD) : main_part8 (F := F) d = StableHlo.seq ops8 := (ops8_all d).1
theorem ops8_sub : (ops8 : List (HloOp τ sig (Elt F))).Forall fun op => op.bufs ⊆ StableHlo.tcRefs τ sig := (ops8_all ⟨0, Nat.one_pos⟩).2.1
theorem ops8_fresh : (ops8 : List (HloOp τ sig (Elt F))).Forall fun op => op.fresh = ∅ := (ops8_all ⟨0, Nat.one_pos⟩).2.2.1
theorem ops8_writes : (ops8 : List (HloOp τ sig (Elt F))).Forall fun op => op.writes ⊆ (ops8_W.map (Proc.devRef (τ := τ) .tc)).toFinset :=
  (ops8_all ⟨0, Nat.one_pos⟩).2.2.2

/-- A buffer outside the written list keeps its contents through the window. -/
theorem ops8_keeps (V : Valuation τ sig (Elt F)) (r : Ref sig .tc) (h : r ∉ ops8_W) :
    StableHlo.after ops8 V (Proc.devRef .tc r) = V (Proc.devRef .tc r) :=
  StableHlo.after_of_writes_sub ops8 V ops8_writes h

/-- The argument is none of the written buffers: it keeps its contents through the window. -/
theorem ops8_keeps_arg0 (V : Valuation τ sig (Elt F)) :
    StableHlo.after ops8 V (Proc.devRef .tc main_arg0) = V (Proc.devRef .tc main_arg0) :=
  ops8_keeps V main_arg0 (by decide)

end Cert.ReferenceIdeal.Hand

end
-- ==== Proof.RefSplit.lean ====
import Idealize.ShloMosaic.Lib.StableHlo.Run

namespace Cert.ReferenceIdeal.Hand

open Idealize.ShloMosaic Idealize.SL.Sem

variable {τ : Topo} {sig : RefSig} {Val : EltTy → Type}

/-- Operations that write inside a list of references write inside any longer list. -/
theorem forall_writes_mono {l : List (HloOp τ sig Val)} {W W' : List (Ref sig .tc)}
    (h : l.Forall fun op => op.writes ⊆ (W.map (Proc.devRef (τ := τ) .tc)).toFinset) (hW : W ⊆ W') :
    l.Forall fun op => op.writes ⊆ (W'.map (Proc.devRef (τ := τ) .tc)).toFinset :=
  List.forall_iff_forall_mem.mpr fun op hop => (List.forall_iff_forall_mem.mp h op hop).trans
    fun x hx => List.mem_toFinset.mpr (List.map_subset _ hW (List.mem_toFinset.mp hx))

end Cert.ReferenceIdeal.Hand
-- ==== Proof.RefOps9a.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The first 36 operations of window 9 of the reference's @main, in program order, calls unfolded over the call's buffers. -/
abbrev ops9a : List (HloOp τ sig (Elt F)) :=
  [ StableHlo.nary ![main_v432, main_v429, main_v435] main_v436 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.unary main_v12 main_v437 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.TRef.unary (.of main_v24 : StableHlo.TRef sig ⟨S8x32x128x128, .f32⟩) main_call12.call0.v0 (Host.reverse [3]),
    StableHlo.TRef.unary main_call12.call0.v0 main_call12.v1 (transpose S8x32x128x128 [0, 1, 3, 2] · transposes_S8x32x128x128_S8x32x128x128_0_1_3_2),
    StableHlo.unary main_v438 main_v439 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v437, main_v18, main_v439] main_v440 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.unary main_v2 main_v441 ((extractStridedSlice S8x32x2x2 ![0, 0, 126, 126] · slices_S8x32x128x128_S8x32x2x2_0_0_126_126) : (⟨S8x32x128x128, .f32⟩ : BufTy).Contents (Elt F) → (⟨S8x32x2x2, .f32⟩ : BufTy).Contents (Elt F)),
    StableHlo.unary main_v10 main_v442 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v24 main_v443 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v441, main_v442, main_v443] main_v444 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v20 main_v445 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.TRef.unary (.of main_v20 : StableHlo.TRef sig ⟨S8x32x128x128, .f32⟩) main_call13.v0 (transpose S8x32x128x128 [0, 1, 3, 2] · transposes_S8x32x128x128_S8x32x128x128_0_1_3_2),
    StableHlo.TRef.unary main_call13.v0 main_call13.call0.v0 (Host.reverse [3]),
    StableHlo.unary main_v446 main_v447 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.TRef.unary (.of main_v22 : StableHlo.TRef sig ⟨S8x32x128x128, .f32⟩) main_call14.call0.v0 (Host.reverse [2]),
    StableHlo.TRef.unary main_call14.call0.v0 main_call14.call1.v0 (Host.reverse [3]),
    StableHlo.unary main_v448 main_v449 ((extractStridedSlice S8x32x2x2 ![0, 0, 0, 0] · slices_S8x32x128x128_S8x32x2x2_0_0_0_0) : (⟨S8x32x128x128, .f32⟩ : BufTy).Contents (Elt F) → (⟨S8x32x2x2, .f32⟩ : BufTy).Contents (Elt F)),
    StableHlo.nary ![main_v445, main_v447, main_v449] main_v450 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v444, main_v440, main_v450] main_v451 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.unary main_v14 main_v452 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.TRef.unary (.of main_v18 : StableHlo.TRef sig ⟨S8x32x128x128, .f32⟩) main_call15.call0.v0 (Host.reverse [3]),
    StableHlo.TRef.unary main_call15.call0.v0 main_call15.v1 (transpose S8x32x128x128 [0, 1, 3, 2] · transposes_S8x32x128x128_S8x32x128x128_0_1_3_2),
    StableHlo.unary main_v453 main_v454 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v452, main_v20, main_v454] main_v455 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.unary main_v4 main_v456 ((extractStridedSlice S8x32x2x2 ![0, 0, 126, 126] · slices_S8x32x128x128_S8x32x2x2_0_0_126_126) : (⟨S8x32x128x128, .f32⟩ : BufTy).Contents (Elt F) → (⟨S8x32x2x2, .f32⟩ : BufTy).Contents (Elt F)),
    StableHlo.unary main_v12 main_v457 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v18 main_v458 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v456, main_v457, main_v458] main_v459 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v22 main_v460 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.TRef.unary (.of main_v22 : StableHlo.TRef sig ⟨S8x32x128x128, .f32⟩) main_call16.v0 (transpose S8x32x128x128 [0, 1, 3, 2] · transposes_S8x32x128x128_S8x32x128x128_0_1_3_2),
    StableHlo.TRef.unary main_call16.v0 main_call16.call0.v0 (Host.reverse [3]),
    StableHlo.unary main_v461 main_v462 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.TRef.unary (.of main_v24 : StableHlo.TRef sig ⟨S8x32x128x128, .f32⟩) main_call17.call0.v0 (Host.reverse [2]),
    StableHlo.TRef.unary main_call17.call0.v0 main_call17.call1.v0 (Host.reverse [3]),
    StableHlo.unary main_v463 main_v464 ((extractStridedSlice S8x32x2x2 ![0, 0, 0, 0] · slices_S8x32x128x128_S8x32x2x2_0_0_0_0) : (⟨S8x32x128x128, .f32⟩ : BufTy).Contents (Elt F) → (⟨S8x32x2x2, .f32⟩ : BufTy).Contents (Elt F)),
    StableHlo.nary ![main_v460, main_v462, main_v464] main_v465 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) ]

/-- The buffers these operations write, one per operation, in order. -/
abbrev ops9a_W : List (Ref sig .tc) := [main_v436, main_v437, main_call12.call0.v0.ref, main_call12.v1.ref, main_v439, main_v440, main_v441, main_v442, main_v443, main_v444, main_v445, main_call13.v0.ref, main_call13.call0.v0.ref, main_v447, main_call14.call0.v0.ref, main_call14.call1.v0.ref, main_v449, main_v450, main_v451, main_v452, main_call15.call0.v0.ref, main_call15.v1.ref, main_v454, main_v455, main_v456, main_v457, main_v458, main_v459, main_v460, main_call16.v0.ref, main_call16.call0.v0.ref, main_v462, main_call17.call0.v0.ref, main_call17.call1.v0.ref, main_v464, main_v465]

set_option maxRecDepth 8192 in
set_option maxHeartbeats 4000000 in
/-- Stated together (one pass over the operations): every operation touches TensorCore buffers only, determines what it
    writes, and writes a buffer of the list above. -/
theorem ops9a_all :
    ((ops9a : List (HloOp τ sig (Elt F))).Forall fun op => op.bufs ⊆ StableHlo.tcRefs τ sig) ∧
    ((ops9a : List (HloOp τ sig (Elt F))).Forall fun op => op.fresh = ∅) ∧
    ((ops9a : List (HloOp τ sig (Elt F))).Forall fun op => op.writes ⊆ (ops9a_W.map (Proc.devRef (τ := τ) .tc)).toFinset) :=
  ⟨⟨StableHlo.nary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide)⟩⟩

theorem ops9a_sub : (ops9a : List (HloOp τ sig (Elt F))).Forall fun op => op.bufs ⊆ StableHlo.tcRefs τ sig := ops9a_all.1
theorem ops9a_fresh : (ops9a : List (HloOp τ sig (Elt F))).Forall fun op => op.fresh = ∅ := ops9a_all.2.1
theorem ops9a_writes : (ops9a : List (HloOp τ sig (Elt F))).Forall fun op => op.writes ⊆ (ops9a_W.map (Proc.devRef (τ := τ) .tc)).toFinset := ops9a_all.2.2

end Cert.ReferenceIdeal.Hand

end
-- ==== Proof.RefOps9b.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The last 36 operations of window 9 of the reference's @main, in program order, calls unfolded over the call's buffers. -/
abbrev ops9b : List (HloOp τ sig (Elt F)) :=
  [ StableHlo.nary ![main_v459, main_v455, main_v465] main_v466 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.unary main_v16 main_v467 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.TRef.unary (.of main_v20 : StableHlo.TRef sig ⟨S8x32x128x128, .f32⟩) main_call18.call0.v0 (Host.reverse [3]),
    StableHlo.TRef.unary main_call18.call0.v0 main_call18.v1 (transpose S8x32x128x128 [0, 1, 3, 2] · transposes_S8x32x128x128_S8x32x128x128_0_1_3_2),
    StableHlo.unary main_v468 main_v469 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v467, main_v22, main_v469] main_v470 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.unary main_v6 main_v471 ((extractStridedSlice S8x32x2x2 ![0, 0, 126, 126] · slices_S8x32x128x128_S8x32x2x2_0_0_126_126) : (⟨S8x32x128x128, .f32⟩ : BufTy).Contents (Elt F) → (⟨S8x32x2x2, .f32⟩ : BufTy).Contents (Elt F)),
    StableHlo.unary main_v14 main_v472 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v20 main_v473 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v471, main_v472, main_v473] main_v474 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v24 main_v475 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.TRef.unary (.of main_v24 : StableHlo.TRef sig ⟨S8x32x128x128, .f32⟩) main_call19.v0 (transpose S8x32x128x128 [0, 1, 3, 2] · transposes_S8x32x128x128_S8x32x128x128_0_1_3_2),
    StableHlo.TRef.unary main_call19.v0 main_call19.call0.v0 (Host.reverse [3]),
    StableHlo.unary main_v476 main_v477 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.TRef.unary (.of main_v18 : StableHlo.TRef sig ⟨S8x32x128x128, .f32⟩) main_call20.call0.v0 (Host.reverse [2]),
    StableHlo.TRef.unary main_call20.call0.v0 main_call20.call1.v0 (Host.reverse [3]),
    StableHlo.unary main_v478 main_v479 ((extractStridedSlice S8x32x2x2 ![0, 0, 0, 0] · slices_S8x32x128x128_S8x32x2x2_0_0_0_0) : (⟨S8x32x128x128, .f32⟩ : BufTy).Contents (Elt F) → (⟨S8x32x2x2, .f32⟩ : BufTy).Contents (Elt F)),
    StableHlo.nary ![main_v475, main_v477, main_v479] main_v480 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.nary ![main_v474, main_v470, main_v480] main_v481 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.unary main_v10 main_v482 ((extractStridedSlice S8x32x2x128 ![0, 0, 126, 0] · slices_S8x32x128x128_S8x32x2x128_0_0_126_0) : (⟨S8x32x128x128, .f32⟩ : BufTy).Contents (Elt F) → (⟨S8x32x2x128, .f32⟩ : BufTy).Contents (Elt F)),
    StableHlo.TRef.unary (.of main_v22 : StableHlo.TRef sig ⟨S8x32x128x128, .f32⟩) main_call21.call0.v0 (Host.reverse [3]),
    StableHlo.TRef.unary main_call21.call0.v0 main_call21.v1 (transpose S8x32x128x128 [0, 1, 3, 2] · transposes_S8x32x128x128_S8x32x128x128_0_1_3_2),
    StableHlo.unary main_v483 main_v484 ((extractStridedSlice S8x32x2x128 ![0, 0, 0, 0] · slices_S8x32x128x128_S8x32x2x128_0_0_0_0) : (⟨S8x32x128x128, .f32⟩ : BufTy).Contents (Elt F) → (⟨S8x32x2x128, .f32⟩ : BufTy).Contents (Elt F)),
    StableHlo.nary ![main_v482, main_v24, main_v484] main_v485 (fun u => concatenate S8x32x132x128 2 [⟨S8x32x2x128, u 0⟩, ⟨S8x32x128x128, u 1⟩, ⟨S8x32x2x128, u 2⟩] concatenates_S8x32x2x128_S8x32x128x128_S8x32x2x128_S8x32x132x128_d2),
    StableHlo.unary main_v8 main_v486 ((extractStridedSlice S8x32x2x2 ![0, 0, 126, 126] · slices_S8x32x128x128_S8x32x2x2_0_0_126_126) : (⟨S8x32x128x128, .f32⟩ : BufTy).Contents (Elt F) → (⟨S8x32x2x2, .f32⟩ : BufTy).Contents (Elt F)),
    StableHlo.unary main_v16 main_v487 ((extractStridedSlice S8x32x128x2 ![0, 0, 0, 126] · slices_S8x32x128x128_S8x32x128x2_0_0_0_126) : (⟨S8x32x128x128, .f32⟩ : BufTy).Contents (Elt F) → (⟨S8x32x128x2, .f32⟩ : BufTy).Contents (Elt F)),
    StableHlo.unary main_v22 main_v488 ((extractStridedSlice S8x32x2x2 ![0, 0, 0, 126] · slices_S8x32x128x128_S8x32x2x2_0_0_0_126) : (⟨S8x32x128x128, .f32⟩ : BufTy).Contents (Elt F) → (⟨S8x32x2x2, .f32⟩ : BufTy).Contents (Elt F)),
    StableHlo.nary ![main_v486, main_v487, main_v488] main_v489 (fun u => concatenate S8x32x132x2 2 [⟨S8x32x2x2, u 0⟩, ⟨S8x32x128x2, u 1⟩, ⟨S8x32x2x2, u 2⟩] concatenates_S8x32x2x2_S8x32x128x2_S8x32x2x2_S8x32x132x2_d2),
    StableHlo.unary main_v18 main_v490 ((extractStridedSlice S8x32x2x2 ![0, 0, 126, 0] · slices_S8x32x128x128_S8x32x2x2_0_0_126_0) : (⟨S8x32x128x128, .f32⟩ : BufTy).Contents (Elt F) → (⟨S8x32x2x2, .f32⟩ : BufTy).Contents (Elt F)),
    StableHlo.TRef.unary (.of main_v18 : StableHlo.TRef sig ⟨S8x32x128x128, .f32⟩) main_call22.v0 (transpose S8x32x128x128 [0, 1, 3, 2] · transposes_S8x32x128x128_S8x32x128x128_0_1_3_2),
    StableHlo.TRef.unary main_call22.v0 main_call22.call0.v0 (Host.reverse [3]),
    StableHlo.unary main_v491 main_v492 ((extractStridedSlice S8x32x128x2 ![0, 0, 0, 0] · slices_S8x32x128x128_S8x32x128x2_0_0_0_0) : (⟨S8x32x128x128, .f32⟩ : BufTy).Contents (Elt F) → (⟨S8x32x128x2, .f32⟩ : BufTy).Contents (Elt F)),
    StableHlo.TRef.unary (.of main_v20 : StableHlo.TRef sig ⟨S8x32x128x128, .f32⟩) main_call23.call0.v0 (Host.reverse [2]),
    StableHlo.TRef.unary main_call23.call0.v0 main_call23.call1.v0 (Host.reverse [3]),
    StableHlo.unary main_v493 main_v494 ((extractStridedSlice S8x32x2x2 ![0, 0, 0, 0] · slices_S8x32x128x128_S8x32x2x2_0_0_0_0) : (⟨S8x32x128x128, .f32⟩ : BufTy).Contents (Elt F) → (⟨S8x32x2x2, .f32⟩ : BufTy).Contents (Elt F)),
    StableHlo.nary ![main_v490, main_v492, main_v494] main_v495 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) ]

/-- The buffers these operations write, one per operation, in order. -/
abbrev ops9b_W : List (Ref sig .tc) := [main_v466, main_v467, main_call18.call0.v0.ref, main_call18.v1.ref, main_v469, main_v470, main_v471, main_v472, main_v473, main_v474, main_v475, main_call19.v0.ref, main_call19.call0.v0.ref, main_v477, main_call20.call0.v0.ref, main_call20.call1.v0.ref, main_v479, main_v480, main_v481, main_v482, main_call21.call0.v0.ref, main_call21.v1.ref, main_v484, main_v485, main_v486, main_v487, main_v488, main_v489, main_v490, main_call22.v0.ref, main_call22.call0.v0.ref, main_v492, main_call23.call0.v0.ref, main_call23.call1.v0.ref, main_v494, main_v495]

set_option maxRecDepth 8192 in
set_option maxHeartbeats 4000000 in
/-- Stated together (one pass over the operations): every operation touches TensorCore buffers only, determines what it
    writes, and writes a buffer of the list above. -/
theorem ops9b_all :
    ((ops9b : List (HloOp τ sig (Elt F))).Forall fun op => op.bufs ⊆ StableHlo.tcRefs τ sig) ∧
    ((ops9b : List (HloOp τ sig (Elt F))).Forall fun op => op.fresh = ∅) ∧
    ((ops9b : List (HloOp τ sig (Elt F))).Forall fun op => op.writes ⊆ (ops9b_W.map (Proc.devRef (τ := τ) .tc)).toFinset) :=
  ⟨⟨StableHlo.nary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩,
   ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
   ⟨writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide)⟩⟩

theorem ops9b_sub : (ops9b : List (HloOp τ sig (Elt F))).Forall fun op => op.bufs ⊆ StableHlo.tcRefs τ sig := ops9b_all.1
theorem ops9b_fresh : (ops9b : List (HloOp τ sig (Elt F))).Forall fun op => op.fresh = ∅ := ops9b_all.2.1
theorem ops9b_writes : (ops9b : List (HloOp τ sig (Elt F))).Forall fun op => op.writes ⊆ (ops9b_W.map (Proc.devRef (τ := τ) .tc)).toFinset := ops9b_all.2.2

end Cert.ReferenceIdeal.Hand

end
-- ==== Proof.RefOps9.lean ====
import proofs.«156783_j90975997264310_2_alg».proof.Proof.Gen.ReferenceIdeal
import proofs.«156783_j90975997264310_2_alg».proof.Proof.RefBase
import Idealize.ShloMosaic.Lib.StableHlo.Run
import proofs.«156783_j90975997264310_2_alg».proof.Proof.RefSplit
import proofs.«156783_j90975997264310_2_alg».proof.Proof.RefOps9a
import proofs.«156783_j90975997264310_2_alg».proof.Proof.RefOps9b

noncomputable section

namespace Cert.ReferenceIdeal.Hand

open Cert.ReferenceIdeal Cert.ReferenceIdeal.Gen Idealize.ShloMosaic Idealize.SL.Sem

variable {F : FTy → Type} [FloatOps F]

/-- The operations of window 9 of the reference's @main, in program order: its two halves, appended. -/
abbrev ops9 : List (HloOp τ sig (Elt F)) := ops9a ++ ops9b

/-- The buffers the window's operations write, one per operation, in order. -/
abbrev ops9_W : List (Ref sig .tc) := ops9a_W ++ ops9b_W

set_option maxRecDepth 8192 in
set_option maxHeartbeats 4000000 in
/-- The window is the first half's line followed by the second's (sequencing re-associated, each call unfolded to its
    lines), and two lines run in turn are their concatenation. -/
theorem main_part9_eq (d : Dev nD) : main_part9 (F := F) d = StableHlo.seq ops9 :=
  (rfl : main_part9 (F := F) d = (StableHlo.seq ops9a >>= fun _ => StableHlo.seq ops9b)).trans (StableHlo.seq_append ops9a ops9b).symm

theorem ops9_sub : (ops9 : List (HloOp τ sig (Elt F))).Forall fun op => op.bufs ⊆ StableHlo.tcRefs τ sig := forall_append ops9a_sub ops9b_sub
theorem ops9_fresh : (ops9 : List (HloOp τ sig (Elt F))).Forall fun op => op.fresh = ∅ := forall_append ops9a_fresh ops9b_fresh
theorem ops9_writes : (ops9 : List (HloOp τ sig (Elt F))).Forall fun op => op.writes ⊆ (ops9_W.map (Proc.devRef (τ := τ) .tc)).toFinset :=
  forall_append (forall_writes_mono ops9a_writes (List.subset_append_left _ _)) (forall_writes_mono ops9b_writes (List.subset_append_right _ _))

/-- The window's facts, together. -/
theorem ops9_all (d : Dev nD) :
    (main_part9 (F := F) d = StableHlo.seq ops9) ∧
    ((ops9 : List (HloOp τ sig (Elt F))).Forall fun op => op.bufs ⊆ StableHlo.tcRefs τ sig) ∧
    ((ops9 : List (HloOp τ sig (Elt F))).Forall fun op => op.fresh = ∅) ∧
    ((ops9 : List (HloOp τ sig (Elt F))).Forall fun op => op.writes ⊆ (ops9_W.map (Proc.devRef (τ := τ) .tc)).toFinset) :=
  ⟨main_part9_eq d, ops9_sub, ops9_fresh, ops9_writes⟩

/-- A buffer outside the written list keeps its contents through the window. -/
theorem ops9_keeps (V : Valuation τ sig (Elt F)) (r : Ref sig .tc) (h : r ∉ ops9_W) :
    StableHlo.after ops9 V (Proc.devRef .tc r) = V (Proc.devRef .tc r) :=
  StableHlo.after_of_writes_sub ops9 V ops9_writes h

/-- The argument is none of the written buffers: it keeps its contents through the window. -/
theorem ops9_keeps_arg0 (V : Valuation τ sig (Elt F)) :
    StableHlo.after ops9 V (Proc.devRef .tc main_arg0) = V (Proc.devRef .tc main_arg0) :=
  ops9_keeps V main_arg0 (by decide)

end Cert.ReferenceIdeal.Hand

end
-- ==== Proof.RefOps10.lean ====
import proofs.«156783_j90975997264310_2_alg».proof.Proof.Gen.ReferenceIdeal
import proofs.«156783_j90975997264310_2_alg».proof.Proof.RefBase
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The operations of window 10 of the reference's @main, in program order; where the program calls a local function,
    the callee's operations stand in its place, over the buffers of that call. -/
abbrev ops10 : List (HloOp τ sig (Elt F)) :=
  [ StableHlo.nary ![main_v489, main_v485, main_v495] main_v496 (fun u => concatenate S8x32x132x132 3 [⟨S8x32x132x2, u 0⟩, ⟨S8x32x132x128, u 1⟩, ⟨S8x32x132x2, u 2⟩] concatenates_S8x32x132x2_S8x32x132x128_S8x32x132x2_S8x32x132x132_d3),
    StableHlo.unary main_v39 main_v497 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v54 main_v498 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v69 main_v499 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v84 main_v500 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v172 main_v501 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v260 main_v502 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v348 main_v503 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v436 main_v504 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v451 main_v505 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v466 main_v506 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v481 main_v507 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.unary main_v496 main_v508 (broadcastInDim S8x1x32x132x132 ![0, 2, 3, 4] bcast_S8x32x132x132_S8x1x32x132x132_0_2_3_4 : (⟨S8x32x132x132, .f32⟩ : BufTy).Contents (Elt F) → (⟨S8x1x32x132x132, .f32⟩ : BufTy).Contents (Elt F)),
    StableHlo.nary ![main_v497, main_v498, main_v499, main_v500, main_v501, main_v502, main_v503, main_v504, main_v505, main_v506, main_v507, main_v508] main_v509 (fun u => concatenate S8x12x32x132x132 1 [⟨S8x1x32x132x132, u 0⟩, ⟨S8x1x32x132x132, u 1⟩, ⟨S8x1x32x132x132, u 2⟩, ⟨S8x1x32x132x132, u 3⟩, ⟨S8x1x32x132x132, u 4⟩, ⟨S8x1x32x132x132, u 5⟩, ⟨S8x1x32x132x132, u 6⟩, ⟨S8x1x32x132x132, u 7⟩, ⟨S8x1x32x132x132, u 8⟩, ⟨S8x1x32x132x132, u 9⟩, ⟨S8x1x32x132x132, u 10⟩, ⟨S8x1x32x132x132, u 11⟩] concatenates_S8x1x32x132x132_S8x1x32x132x132_S8x1x32x132x132_S8x1x32x132x132_S8x1x32x132x132_S8x1x32x132x132_S8x1x32x132x132_S8x1x32x132x132_S8x1x32x132x132_S8x1x32x132x132_S8x1x32x132x132_S8x1x32x132x132_S8x12x32x132x132_d1),
    StableHlo.reshape main_v509 main_v510 rfl shapeCasts_S8x12x32x132x132_S96x32x132x132 ]

/-- The buffers the window's operations write, one per operation, in order. -/
abbrev ops10_W : List (Ref sig .tc) := [main_v496, main_v497, main_v498, main_v499, main_v500, main_v501, main_v502, main_v503, main_v504, main_v505, main_v506, main_v507, main_v508, main_v509, main_v510]

set_option maxRecDepth 8192 in
set_option maxHeartbeats 4000000 in
/-- The window's facts, stated together (one pass over the operations): the window is that straight line (sequencing
    re-associated, each call unfolded to its lines); every operation touches TensorCore buffers only, determines what it
    writes, and writes a buffer of the list above. -/
theorem ops10_all (d : Dev nD) :
    (main_part10 (F := F) d = StableHlo.seq ops10) ∧
    ((ops10 : List (HloOp τ sig (Elt F))).Forall fun op => op.bufs ⊆ StableHlo.tcRefs τ sig) ∧
    ((ops10 : List (HloOp τ sig (Elt F))).Forall fun op => op.fresh = ∅) ∧
    ((ops10 : List (HloOp τ sig (Elt F))).Forall fun op => op.writes ⊆ (ops10_W.map (Proc.devRef (τ := τ) .tc)).toFinset) :=
  ⟨rfl,
   ⟨StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub ..⟩,
   ⟨rfl, rfl, rfl, rfl, rfl, rfl, rfl, rfl, rfl, rfl, rfl, rfl, rfl, rfl, rfl⟩,
   ⟨writes_sub (StableHlo.nary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.unary_writes ..) (by decide), writes_sub (StableHlo.nary_writes ..) (by decide), writes_sub (StableHlo.reshape_writes ..) (by decide)⟩⟩

theorem main_part10_eq (d : Dev nD) : main_part10 (F := F) d = StableHlo.seq ops10 := (ops10_all d).1
theorem ops10_sub : (ops10 : List (HloOp τ sig (Elt F))).Forall fun op => op.bufs ⊆ StableHlo.tcRefs τ sig := (ops10_all ⟨0, Nat.one_pos⟩).2.1
theorem ops10_fresh : (ops10 : List (HloOp τ sig (Elt F))).Forall fun op => op.fresh = ∅ := (ops10_all ⟨0, Nat.one_pos⟩).2.2.1
theorem ops10_writes : (ops10 : List (HloOp τ sig (Elt F))).Forall fun op => op.writes ⊆ (ops10_W.map (Proc.devRef (τ := τ) .tc)).toFinset :=
  (ops10_all ⟨0, Nat.one_pos⟩).2.2.2

/-- A buffer outside the written list keeps its contents through the window. -/
theorem ops10_keeps (V : Valuation τ sig (Elt F)) (r : Ref sig .tc) (h : r ∉ ops10_W) :
    StableHlo.after ops10 V (Proc.devRef .tc r) = V (Proc.devRef .tc r) :=
  StableHlo.after_of_writes_sub ops10 V ops10_writes h

/-- The argument is none of the written buffers: it keeps its contents through the window. -/
theorem ops10_keeps_arg0 (V : Valuation τ sig (Elt F)) :
    StableHlo.after ops10 V (Proc.devRef .tc main_arg0) = V (Proc.devRef .tc main_arg0) :=
  ops10_keeps V main_arg0 (by decide)

end Cert.ReferenceIdeal.Hand

end
-- ==== Proof.RefRun.lean ====
import proofs.«156783_j90975997264310_2_alg».proof.Proof.Gen.ReferenceIdeal
import proofs.«156783_j90975997264310_2_alg».proof.Proof.RefBase
import proofs.«156783_j90975997264310_2_alg».proof.Proof.RefOps0
import proofs.«156783_j90975997264310_2_alg».proof.Proof.RefOps1
import proofs.«156783_j90975997264310_2_alg».proof.Proof.RefOps2
import proofs.«156783_j90975997264310_2_alg».proof.Proof.RefOps3
import proofs.«156783_j90975997264310_2_alg».proof.Proof.RefOps4
import proofs.«156783_j90975997264310_2_alg».proof.Proof.RefOps5
import proofs.«156783_j90975997264310_2_alg».proof.Proof.RefOps6
import proofs.«156783_j90975997264310_2_alg».proof.Proof.RefOps7
import proofs.«156783_j90975997264310_2_alg».proof.Proof.RefOps8
import proofs.«156783_j90975997264310_2_alg».proof.Proof.RefOps9
import proofs.«156783_j90975997264310_2_alg».proof.Proof.RefOps10
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.SL.Sem

variable {F : FTy → Type} [FloatOps F]

/-- The reference's @main as one line of host operations: its windows' lines, in order (right-nested appends). -/
abbrev ops : List (HloOp τ sig (Elt F)) :=
  ops0 ++ (ops1 ++ (ops2 ++ (ops3 ++ (ops4 ++ (ops5 ++ (ops6 ++ (ops7 ++ (ops8 ++ (ops9 ++ (ops10))))))))))

/-- Two programs that are lines, run in turn, are the concatenated line. -/
theorem seq_append_eq {nD : Nat} {τ : Topo} {sig : RefSig} {Val : EltTy → Type} {Λ : Labels}
    {p₁ p₂ : Prog (TpuEff nD τ sig Val Λ .tc) PUnit} {l₁ l₂ : List (HloOp τ sig Val)}
    (h₁ : p₁ = StableHlo.seq l₁) (h₂ : p₂ = StableHlo.seq l₂) : (p₁ >>= fun _ => p₂) = StableHlo.seq (l₁ ++ l₂) := by
  rw [StableHlo.seq_append, h₁, h₂]

/-- @main runs its windows in order, each window is its line, and lines run in turn are their concatenation. -/
theorem main_eq (d : Dev nD) : main (F := F) d = StableHlo.seq ops :=
  seq_append_eq (main_part0_eq d) (seq_append_eq (main_part1_eq d) (seq_append_eq (main_part2_eq d) (seq_append_eq (main_part3_eq d) (seq_append_eq (main_part4_eq d) (seq_append_eq (main_part5_eq d) (seq_append_eq (main_part6_eq d) (seq_append_eq (main_part7_eq d) (seq_append_eq (main_part8_eq d) (seq_append_eq (main_part9_eq d) (main_part10_eq d))))))))))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  forall_append ops0_sub (forall_append ops1_sub (forall_append ops2_sub (forall_append ops3_sub (forall_append ops4_sub (forall_append ops5_sub (forall_append ops6_sub (forall_append ops7_sub (forall_append ops8_sub (forall_append ops9_sub (ops10_sub))))))))))

theorem ops_fresh : ∀ op ∈ (ops : List (HloOp τ sig (Elt F))), op.fresh = ∅ :=
  List.forall_iff_forall_mem.mp (forall_append ops0_fresh (forall_append ops1_fresh (forall_append ops2_fresh (forall_append ops3_fresh (forall_append ops4_fresh (forall_append ops5_fresh (forall_append ops6_fresh (forall_append ops7_fresh (forall_append ops8_fresh (forall_append ops9_fresh (ops10_fresh)))))))))))

/-- On every device, for any float values, from any memory with zero counters: every weakly fair execution of @main
    terminates, and every TensorCore buffer ends at the fold of the operations over the launch contents. -/
theorem run (m : (ℓ : Loc nD τ sig) → Buf (Elt F) ℓ) (ρ : Dev nD → PrngReg) :
    θ_run (defs (F := F)) (onTc (τ := τ) (main (F := F))) ⟨m, fun _ => 0, ρ⟩ (fun r => ∀ (d : Dev nD) (b : Ref sig .tc),
      r.2.mem ((d.tc : Thread nD τ).loc b) = StableHlo.after ops (StableHlo.launchContents m d) (Proc.devRef .tc b)) :=
  StableHlo.run_seq scopedRefs_eq scopedSems_eq defs main (fun _ => ops) main_eq (fun _ => ops_sub) m ρ (fun _ => ops_fresh)

/-- No operation writes the argument: the whole line leaves it as launched. -/
theorem kept_arg0 (m : (ℓ : Loc nD τ sig) → Buf (Elt F) ℓ) (d : Dev nD) :
    StableHlo.after ops (StableHlo.launchContents m d) (Proc.devRef .tc main_arg0) = m ((d.tc : Thread nD τ).loc main_arg0) :=
  keeps_append ops0_keeps_arg0 (keeps_append ops1_keeps_arg0 (keeps_append ops2_keeps_arg0 (keeps_append ops3_keeps_arg0 (keeps_append ops4_keeps_arg0 (keeps_append ops5_keeps_arg0 (keeps_append ops6_keeps_arg0 (keeps_append ops7_keeps_arg0 (keeps_append ops8_keeps_arg0 (keeps_append ops9_keeps_arg0 (ops10_keeps_arg0)))))))))) (StableHlo.launchContents m d)

/-- The reference runs, and its argument ends unchanged. -/
theorem frame_ri (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => (h c main_arg0).trans (kept_arg0 m c)) (run m ρ)

end Cert.ReferenceIdeal.Hand

end
-- ==== Proof.KOps.lean ====
/-
  The kernel program's host operations before its one region, all 49 stretches in program order, as one list: the
  contents of every buffer when the region is entered are the fold of this list over the launch contents.
-/
import proofs.«156783_j90975997264310_2_alg».proof.Proof.Gen.KernelIdeal.Launch
import Idealize.ShloMosaic.Lib.StableHlo.Run

noncomputable section

namespace Cert.KernelIdeal.Hand

open Idealize.ShloMosaic Cert.KernelIdeal Cert.KernelIdeal.Gen

variable {F : FTy → Type} [FloatOps F]

/-- Every host operation of the program before the region, in order. -/
abbrev kops : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]

end Cert.KernelIdeal.Hand

end
-- ==== Proof.KOpsSplit.lean ====
/-
  The kernel program's host operations split as everything before the last stretch, then the last stretch (which
  finishes the last face's right strip and then builds the four border arrays): the fold over the whole list is the
  fold over the last stretch of the fold over the rest.
-/
import proofs.«156783_j90975997264310_2_alg».proof.Proof.KOps

noncomputable section

namespace Cert.KernelIdeal.Hand

open Idealize.ShloMosaic Cert.KernelIdeal Cert.KernelIdeal.Gen

variable {F : FTy → Type} [FloatOps F]

/-- The fold over a concatenation is the fold over the second list of the fold over the first. -/
theorem after_append {τ' : Topo} {sig' : RefSig} {Val : EltTy → Type} (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => exact ih (op.result V)

/-- Every host operation before the last stretch, in order. -/
abbrev kopsPre : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47]

theorem kops_split : (kops : List (HloOp τ sig (Elt F))) = kopsPre ++ hostOps0_48 := by
  show List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47] ++ [hostOps0_48]) = _
  rw [List.flatten_append]
  simp only [List.flatten_cons, List.flatten_nil, List.append_nil]

/-- Reading the whole fold is reading the last stretch's fold over the fold of the rest. -/
theorem after_kops (M : Valuation τ sig (Elt F)) : StableHlo.after kops M = StableHlo.after hostOps0_48 (StableHlo.after kopsPre M) := by
  rw [kops_split, after_append]

end Cert.KernelIdeal.Hand

end
-- ==== Proof.LibFaceStack.lean ====
/-
  Twelve arrays of one shape [A, C, H, W] stacked along a new second axis and flattened: what
  `jnp.stack([p0, …, p11], axis=1).reshape(A*12, C, H, W)` lowers to — each piece given a unit axis after the first
  (a broadcast_in_dim with dims = [0, 2, 3, 4]), the twelve concatenated along that axis, the result reshaped so
  that the first two axes become one. Read at an index (n, c, i, j) with n = b·12 + f, the flattened array is piece
  f at (b, c, i, j): row-major order puts the twelve pieces of batch b next to one another.
-/
import Idealize.ShloMosaic.Lib.Pipeline.Value
import Idealize.ShloMosaic.Lib.ValueIdx

namespace Cert.LibFaceStack

open Idealize.ShloMosaic Idealize.ShloMosaic.ValueIdx

variable {α : Type}

/-- Twelve pieces of one shape, in order, as a list of shaped arrays. -/
abbrev pieces12 (s : Shape) (u : Fin 12 → (s.Idx → α)) : List ((s : Shape) × (s.Idx → α)) :=
  [⟨s, u 0⟩, ⟨s, u 1⟩, ⟨s, u 2⟩, ⟨s, u 3⟩, ⟨s, u 4⟩, ⟨s, u 5⟩, ⟨s, u 6⟩, ⟨s, u 7⟩, ⟨s, u 8⟩, ⟨s, u 9⟩, ⟨s, u 10⟩, ⟨s, u 11⟩]

/-- Twelve pieces with a unit second axis concatenated along it: at (b, f, c, i, j) the result is piece f at
    (b, 0, c, i, j) — piece f occupies exactly position f of the axis. -/
theorem concat12_unit_apply {A C H W : ℕ} (u : Fin 12 → ((⟨5, ![A, 1, C, H, W]⟩ : Shape).Idx → α))
    (hc : Shape.Concatenates ((pieces12 ⟨5, ![A, 1, C, H, W]⟩ u).map (·.1)) ⟨5, ![A, 12, C, H, W]⟩ 1)
    (b : Fin A) (f : Fin 12) (c : Fin C) (i : Fin H) (j : Fin W) :
    concatenate ⟨5, ![A, 12, C, H, W]⟩ 1 (pieces12 ⟨5, ![A, 1, C, H, W]⟩ u) hc (ix5 b f c i j)
      = u f (ix5 b 0 c i j) := by
  refine concatenate_apply_piece (1 : Fin 5) (pieces12 ⟨5, ![A, 1, C, H, W]⟩ u) hc (ix5 b f c i j) f.val
    (by have := f.isLt; simpa [pieces12] using this) ⟨5, ![A, 1, C, H, W]⟩ (u f) ?_ rfl f.val ?_ (ix5 b 0 c i j) ?_ ?_
  · fin_cases f <;> rfl
  · fin_cases f <;> rfl
  · intro a ha
    match a, ha with
    | ⟨0, _⟩, _ => rfl
    | ⟨1, _⟩, ha => exact absurd rfl ha
    | ⟨2, _⟩, _ => rfl
    | ⟨3, _⟩, _ => rfl
    | ⟨4, _⟩, _ => rfl
  · show f.val + 0 = f.val
    rfl

/-- The stack of twelve arrays flattened, read at an index: with n = b·12 + f, entry (n, c, i, j) is piece f at
    (b, c, i, j). -/
theorem stack12_apply {A C H W N : ℕ} (p : Fin 12 → ((⟨4, ![A, C, H, W]⟩ : Shape).Idx → α))
    (hb : (⟨4, ![A, C, H, W]⟩ : Shape).BroadcastsInDim ⟨5, ![A, 1, C, H, W]⟩ (![0, 2, 3, 4] : Fin 4 → Fin 5))
    (hc : Shape.Concatenates ((pieces12 ⟨5, ![A, 1, C, H, W]⟩
      (fun k => broadcastInDim ⟨5, ![A, 1, C, H, W]⟩ (![0, 2, 3, 4] : Fin 4 → Fin 5) hb (p k))).map (·.1))
      ⟨5, ![A, 12, C, H, W]⟩ 1)
    (hs : (⟨5, ![A, 12, C, H, W]⟩ : Shape).ShapeCasts ⟨4, ![N, C, H, W]⟩)
    (n : Fin N) (c : Fin C) (i : Fin H) (j : Fin W) (b : Fin A) (f : Fin 12) (hn : n.val = b.val * 12 + f.val) :
    shapeCast ⟨4, ![N, C, H, W]⟩ (concatenate ⟨5, ![A, 12, C, H, W]⟩ 1 (pieces12 ⟨5, ![A, 1, C, H, W]⟩
      (fun k => broadcastInDim ⟨5, ![A, 1, C, H, W]⟩ (![0, 2, 3, 4] : Fin 4 → Fin 5) hb (p k))) hc) hs (ix4 n c i j)
      = p f (ix4 b c i j) := by
  refine (shapeCast_apply _ hs (ix4 n c i j) (ix5 b f c i j) ?_).trans ?_
  · rw [Shape.rowMajor_val_five, Shape.rowMajor_val_four]
    show (((b.val * 12 + f.val) * C + c.val) * H + i.val) * W + j.val = ((n.val * C + c.val) * H + i.val) * W + j.val
    rw [hn]
  · refine (concat12_unit_apply _ hc b f c i j).trans ?_
    refine broadcastInDim_apply _ hb (p f) (ix5 b 0 c i j) (ix4 b c i j) (fun a => ?_)
    match a with
    | ⟨0, _⟩ => show b.val = if A = 1 then 0 else b.val; have := b.isLt; split <;> omega
    | ⟨1, _⟩ => show c.val = if C = 1 then 0 else c.val; have := c.isLt; split <;> omega
    | ⟨2, _⟩ => show i.val = if H = 1 then 0 else i.val; have := i.isLt; split <;> omega
    | ⟨3, _⟩ => show j.val = if W = 1 then 0 else j.val; have := j.isLt; split <;> omega

end Cert.LibFaceStack
-- ==== Proof.KStacks.lean ====
/-
  The four border arrays the region reads, as stacks of per-face strips: each is built by giving every face's strip a
  unit second axis, concatenating the twelve along it, and flattening the first two axes (batch, face) into one. So
  entry (n, c, i, j) of a border array, with n = b·12 + f, is entry (b, c, i, j) of face f's strip.
-/
import proofs.«156783_j90975997264310_2_alg».proof.Proof.KOpsSplit
import proofs.«156783_j90975997264310_2_alg».proof.Proof.LibFaceStack

noncomputable section

namespace Cert.KernelIdeal.Hand

open Idealize.ShloMosaic Idealize.ShloMosaic.StableHlo Idealize.ShloMosaic.ValueIdx Cert.KernelIdeal Cert.KernelIdeal.Gen Cert.LibFaceStack

variable {F : FTy → Type} [FloatOps F]

/-- The twelve faces' top strips, as the host operations leave them. -/
def tops (M : Valuation τ sig (Elt F)) : Fin 12 → (S8x32x2x128.Idx → Elt F .f32) :=
  ![(StableHlo.after kops M (Proc.devRef .tc main_v26) : S8x32x2x128.Idx → Elt F .f32),
    (StableHlo.after kops M (Proc.devRef .tc main_v51) : S8x32x2x128.Idx → Elt F .f32),
    (StableHlo.after kops M (Proc.devRef .tc main_v76) : S8x32x2x128.Idx → Elt F .f32),
    (StableHlo.after kops M (Proc.devRef .tc main_v101) : S8x32x2x128.Idx → Elt F .f32),
    (StableHlo.after kops M (Proc.devRef .tc main_v207) : S8x32x2x128.Idx → Elt F .f32),
    (StableHlo.after kops M (Proc.devRef .tc main_v309) : S8x32x2x128.Idx → Elt F .f32),
    (StableHlo.after kops M (Proc.devRef .tc main_v411) : S8x32x2x128.Idx → Elt F .f32),
    (StableHlo.after kops M (Proc.devRef .tc main_v513) : S8x32x2x128.Idx → Elt F .f32),
    (StableHlo.after kops M (Proc.devRef .tc main_v533) : S8x32x2x128.Idx → Elt F .f32),
    (StableHlo.after kops M (Proc.devRef .tc main_v558) : S8x32x2x128.Idx → Elt F .f32),
    (StableHlo.after kops M (Proc.devRef .tc main_v583) : S8x32x2x128.Idx → Elt F .f32),
    (StableHlo.after kops M (Proc.devRef .tc main_v608) : S8x32x2x128.Idx → Elt F .f32)]

set_option maxHeartbeats 0 in
set_option maxRecDepth 100000 in
/-- Through the last stretch alone: the top border array is the stack of the twelve strips. -/
theorem top_stack_tail (W : Valuation τ sig (Elt F))
    (hb : (S8x32x2x128 : Shape).BroadcastsInDim S8x1x32x2x128 (![0, 2, 3, 4] : Fin 4 → Fin 5))
    (hc : Shape.Concatenates [S8x1x32x2x128, S8x1x32x2x128, S8x1x32x2x128, S8x1x32x2x128, S8x1x32x2x128, S8x1x32x2x128, S8x1x32x2x128, S8x1x32x2x128, S8x1x32x2x128, S8x1x32x2x128, S8x1x32x2x128, S8x1x32x2x128] S8x12x32x2x128 1)
    (hs : (S8x12x32x2x128 : Shape).ShapeCasts S96x32x2x128) :
    (StableHlo.after hostOps0_48 W (Proc.devRef .tc main_v646) : S96x32x2x128.Idx → Elt F .f32)
      = shapeCast S96x32x2x128 (concatenate S8x12x32x2x128 1 (pieces12 S8x1x32x2x128 (fun k => broadcastInDim S8x1x32x2x128 (![0, 2, 3, 4] : Fin 4 → Fin 5) hb
          (![(StableHlo.after hostOps0_48 W (Proc.devRef .tc main_v26) : S8x32x2x128.Idx → Elt F .f32),
      (StableHlo.after hostOps0_48 W (Proc.devRef .tc main_v51) : S8x32x2x128.Idx → Elt F .f32),
      (StableHlo.after hostOps0_48 W (Proc.devRef .tc main_v76) : S8x32x2x128.Idx → Elt F .f32),
      (StableHlo.after hostOps0_48 W (Proc.devRef .tc main_v101) : S8x32x2x128.Idx → Elt F .f32),
      (StableHlo.after hostOps0_48 W (Proc.devRef .tc main_v207) : S8x32x2x128.Idx → Elt F .f32),
      (StableHlo.after hostOps0_48 W (Proc.devRef .tc main_v309) : S8x32x2x128.Idx → Elt F .f32),
      (StableHlo.after hostOps0_48 W (Proc.devRef .tc main_v411) : S8x32x2x128.Idx → Elt F .f32),
      (StableHlo.after hostOps0_48 W (Proc.devRef .tc main_v513) : S8x32x2x128.Idx → Elt F .f32),
      (StableHlo.after hostOps0_48 W (Proc.devRef .tc main_v533) : S8x32x2x128.Idx → Elt F .f32),
      (StableHlo.after hostOps0_48 W (Proc.devRef .tc main_v558) : S8x32x2x128.Idx → Elt F .f32),
      (StableHlo.after hostOps0_48 W (Proc.devRef .tc main_v583) : S8x32x2x128.Idx → Elt F .f32),
      (StableHlo.after hostOps0_48 W (Proc.devRef .tc main_v608) : S8x32x2x128.Idx → Elt F .f32)] k))) hc) hs := by
  simp only [hostOps0_48]
  after_results_simp
  rfl

/-- The top border array is the twelve faces' top strips stacked along a new second axis and flattened. -/
theorem top_stack (M : Valuation τ sig (Elt F))
    (hb : (S8x32x2x128 : Shape).BroadcastsInDim S8x1x32x2x128 (![0, 2, 3, 4] : Fin 4 → Fin 5))
    (hc : Shape.Concatenates [S8x1x32x2x128, S8x1x32x2x128, S8x1x32x2x128, S8x1x32x2x128, S8x1x32x2x128, S8x1x32x2x128, S8x1x32x2x128, S8x1x32x2x128, S8x1x32x2x128, S8x1x32x2x128, S8x1x32x2x128, S8x1x32x2x128] S8x12x32x2x128 1)
    (hs : (S8x12x32x2x128 : Shape).ShapeCasts S96x32x2x128) :
    (StableHlo.after kops M (Proc.devRef .tc main_v646) : S96x32x2x128.Idx → Elt F .f32)
      = shapeCast S96x32x2x128 (concatenate S8x12x32x2x128 1 (pieces12 S8x1x32x2x128 (fun k => broadcastInDim S8x1x32x2x128 (![0, 2, 3, 4] : Fin 4 → Fin 5) hb (tops M k))) hc) hs := by
  unfold tops
  rw [after_kops]
  exact top_stack_tail (StableHlo.after kopsPre M) hb hc hs

/-- Entry (n, c, i, j) of the top border array, n = b·12 + f, is entry (b, c, i, j) of face f's top strip. -/
theorem top_at (M : Valuation τ sig (Elt F))
    (hb : (S8x32x2x128 : Shape).BroadcastsInDim S8x1x32x2x128 (![0, 2, 3, 4] : Fin 4 → Fin 5))
    (hc : Shape.Concatenates [S8x1x32x2x128, S8x1x32x2x128, S8x1x32x2x128, S8x1x32x2x128, S8x1x32x2x128, S8x1x32x2x128, S8x1x32x2x128, S8x1x32x2x128, S8x1x32x2x128, S8x1x32x2x128, S8x1x32x2x128, S8x1x32x2x128] S8x12x32x2x128 1)
    (hs : (S8x12x32x2x128 : Shape).ShapeCasts S96x32x2x128)
    (f : Fin 12) (b : Fin 8) (c : Fin 32) (i : Fin 2) (j : Fin 128) (n : Fin 96) (hn : n.val = b.val * 12 + f.val) :
    (StableHlo.after kops M (Proc.devRef .tc main_v646) : S96x32x2x128.Idx → Elt F .f32) (ix4 n c i j) = tops M f (ix4 b c i j) := by
  rw [top_stack M hb hc hs]
  exact stack12_apply (tops M) hb hc hs n c i j b f hn

/-- The twelve faces' bottom strips, as the host operations leave them. -/
def bottoms (M : Valuation τ sig (Elt F)) : Fin 12 → (S8x32x2x128.Idx → Elt F .f32) :=
  ![(StableHlo.after kops M (Proc.devRef .tc main_v27) : S8x32x2x128.Idx → Elt F .f32),
    (StableHlo.after kops M (Proc.devRef .tc main_v52) : S8x32x2x128.Idx → Elt F .f32),
    (StableHlo.after kops M (Proc.devRef .tc main_v77) : S8x32x2x128.Idx → Elt F .f32),
    (StableHlo.after kops M (Proc.devRef .tc main_v102) : S8x32x2x128.Idx → Elt F .f32),
    (StableHlo.after kops M (Proc.devRef .tc main_v208) : S8x32x2x128.Idx → Elt F .f32),
    (StableHlo.after kops M (Proc.devRef .tc main_v310) : S8x32x2x128.Idx → Elt F .f32),
    (StableHlo.after kops M (Proc.devRef .tc main_v412) : S8x32x2x128.Idx → Elt F .f32),
    (StableHlo.after kops M (Proc.devRef .tc main_v514) : S8x32x2x128.Idx → Elt F .f32),
    (StableHlo.after kops M (Proc.devRef .tc main_v535) : S8x32x2x128.Idx → Elt F .f32),
    (StableHlo.after kops M (Proc.devRef .tc main_v560) : S8x32x2x128.Idx → Elt F .f32),
    (StableHlo.after kops M (Proc.devRef .tc main_v585) : S8x32x2x128.Idx → Elt F .f32),
    (StableHlo.after kops M (Proc.devRef .tc main_v610) : S8x32x2x128.Idx → Elt F .f32)]

set_option maxHeartbeats 0 in
set_option maxRecDepth 100000 in
/-- Through the last stretch alone: the bottom border array is the stack of the twelve strips. -/
theorem bottom_stack_tail (W : Valuation τ sig (Elt F))
    (hb : (S8x32x2x128 : Shape).BroadcastsInDim S8x1x32x2x128 (![0, 2, 3, 4] : Fin 4 → Fin 5))
    (hc : Shape.Concatenates [S8x1x32x2x128, S8x1x32x2x128, S8x1x32x2x128, S8x1x32x2x128, S8x1x32x2x128, S8x1x32x2x128, S8x1x32x2x128, S8x1x32x2x128, S8x1x32x2x128, S8x1x32x2x128, S8x1x32x2x128, S8x1x32x2x128] S8x12x32x2x128 1)
    (hs : (S8x12x32x2x128 : Shape).ShapeCasts S96x32x2x128) :
    (StableHlo.after hostOps0_48 W (Proc.devRef .tc main_v660) : S96x32x2x128.Idx → Elt F .f32)
      = shapeCast S96x32x2x128 (concatenate S8x12x32x2x128 1 (pieces12 S8x1x32x2x128 (fun k => broadcastInDim S8x1x32x2x128 (![0, 2, 3, 4] : Fin 4 → Fin 5) hb
          (![(StableHlo.after hostOps0_48 W (Proc.devRef .tc main_v27) : S8x32x2x128.Idx → Elt F .f32),
      (StableHlo.after hostOps0_48 W (Proc.devRef .tc main_v52) : S8x32x2x128.Idx → Elt F .f32),
      (StableHlo.after hostOps0_48 W (Proc.devRef .tc main_v77) : S8x32x2x128.Idx → Elt F .f32),
      (StableHlo.after hostOps0_48 W (Proc.devRef .tc main_v102) : S8x32x2x128.Idx → Elt F .f32),
      (StableHlo.after hostOps0_48 W (Proc.devRef .tc main_v208) : S8x32x2x128.Idx → Elt F .f32),
      (StableHlo.after hostOps0_48 W (Proc.devRef .tc main_v310) : S8x32x2x128.Idx → Elt F .f32),
      (StableHlo.after hostOps0_48 W (Proc.devRef .tc main_v412) : S8x32x2x128.Idx → Elt F .f32),
      (StableHlo.after hostOps0_48 W (Proc.devRef .tc main_v514) : S8x32x2x128.Idx → Elt F .f32),
      (StableHlo.after hostOps0_48 W (Proc.devRef .tc main_v535) : S8x32x2x128.Idx → Elt F .f32),
      (StableHlo.after hostOps0_48 W (Proc.devRef .tc main_v560) : S8x32x2x128.Idx → Elt F .f32),
      (StableHlo.after hostOps0_48 W (Proc.devRef .tc main_v585) : S8x32x2x128.Idx → Elt F .f32),
      (StableHlo.after hostOps0_48 W (Proc.devRef .tc main_v610) : S8x32x2x128.Idx → Elt F .f32)] k))) hc) hs := by
  simp only [hostOps0_48]
  after_results_simp
  rfl

/-- The bottom border array is the twelve faces' bottom strips stacked along a new second axis and flattened. -/
theorem bottom_stack (M : Valuation τ sig (Elt F))
    (hb : (S8x32x2x128 : Shape).BroadcastsInDim S8x1x32x2x128 (![0, 2, 3, 4] : Fin 4 → Fin 5))
    (hc : Shape.Concatenates [S8x1x32x2x128, S8x1x32x2x128, S8x1x32x2x128, S8x1x32x2x128, S8x1x32x2x128, S8x1x32x2x128, S8x1x32x2x128, S8x1x32x2x128, S8x1x32x2x128, S8x1x32x2x128, S8x1x32x2x128, S8x1x32x2x128] S8x12x32x2x128 1)
    (hs : (S8x12x32x2x128 : Shape).ShapeCasts S96x32x2x128) :
    (StableHlo.after kops M (Proc.devRef .tc main_v660) : S96x32x2x128.Idx → Elt F .f32)
      = shapeCast S96x32x2x128 (concatenate S8x12x32x2x128 1 (pieces12 S8x1x32x2x128 (fun k => broadcastInDim S8x1x32x2x128 (![0, 2, 3, 4] : Fin 4 → Fin 5) hb (bottoms M k))) hc) hs := by
  unfold bottoms
  rw [after_kops]
  exact bottom_stack_tail (StableHlo.after kopsPre M) hb hc hs

/-- Entry (n, c, i, j) of the bottom border array, n = b·12 + f, is entry (b, c, i, j) of face f's bottom strip. -/
theorem bottom_at (M : Valuation τ sig (Elt F))
    (hb : (S8x32x2x128 : Shape).BroadcastsInDim S8x1x32x2x128 (![0, 2, 3, 4] : Fin 4 → Fin 5))
    (hc : Shape.Concatenates [S8x1x32x2x128, S8x1x32x2x128, S8x1x32x2x128, S8x1x32x2x128, S8x1x32x2x128, S8x1x32x2x128, S8x1x32x2x128, S8x1x32x2x128, S8x1x32x2x128, S8x1x32x2x128, S8x1x32x2x128, S8x1x32x2x128] S8x12x32x2x128 1)
    (hs : (S8x12x32x2x128 : Shape).ShapeCasts S96x32x2x128)
    (f : Fin 12) (b : Fin 8) (c : Fin 32) (i : Fin 2) (j : Fin 128) (n : Fin 96) (hn : n.val = b.val * 12 + f.val) :
    (StableHlo.after kops M (Proc.devRef .tc main_v660) : S96x32x2x128.Idx → Elt F .f32) (ix4 n c i j) = bottoms M f (ix4 b c i j) := by
  rw [bottom_stack M hb hc hs]
  exact stack12_apply (bottoms M) hb hc hs n c i j b f hn

/-- The twelve faces' left strips, as the host operations leave them. -/
def lefts (M : Valuation τ sig (Elt F)) : Fin 12 → (S8x32x132x2.Idx → Elt F .f32) :=
  ![(StableHlo.after kops M (Proc.devRef .tc main_v39) : S8x32x132x2.Idx → Elt F .f32),
    (StableHlo.after kops M (Proc.devRef .tc main_v64) : S8x32x132x2.Idx → Elt F .f32),
    (StableHlo.after kops M (Proc.devRef .tc main_v89) : S8x32x132x2.Idx → Elt F .f32),
    (StableHlo.after kops M (Proc.devRef .tc main_v114) : S8x32x132x2.Idx → Elt F .f32),
    (StableHlo.after kops M (Proc.devRef .tc main_v217) : S8x32x132x2.Idx → Elt F .f32),
    (StableHlo.after kops M (Proc.devRef .tc main_v319) : S8x32x132x2.Idx → Elt F .f32),
    (StableHlo.after kops M (Proc.devRef .tc main_v421) : S8x32x132x2.Idx → Elt F .f32),
    (StableHlo.after kops M (Proc.devRef .tc main_v523) : S8x32x132x2.Idx → Elt F .f32),
    (StableHlo.after kops M (Proc.devRef .tc main_v545) : S8x32x132x2.Idx → Elt F .f32),
    (StableHlo.after kops M (Proc.devRef .tc main_v570) : S8x32x132x2.Idx → Elt F .f32),
    (StableHlo.after kops M (Proc.devRef .tc main_v595) : S8x32x132x2.Idx → Elt F .f32),
    (StableHlo.after kops M (Proc.devRef .tc main_v620) : S8x32x132x2.Idx → Elt F .f32)]

set_option maxHeartbeats 0 in
set_option maxRecDepth 100000 in
/-- Through the last stretch alone: the left border array is the stack of the twelve strips. -/
theorem left_stack_tail (W : Valuation τ sig (Elt F))
    (hb : (S8x32x132x2 : Shape).BroadcastsInDim S8x1x32x132x2 (![0, 2, 3, 4] : Fin 4 → Fin 5))
    (hc : Shape.Concatenates [S8x1x32x132x2, S8x1x32x132x2, S8x1x32x132x2, S8x1x32x132x2, S8x1x32x132x2, S8x1x32x132x2, S8x1x32x132x2, S8x1x32x132x2, S8x1x32x132x2, S8x1x32x132x2, S8x1x32x132x2, S8x1x32x132x2] S8x12x32x132x2 1)
    (hs : (S8x12x32x132x2 : Shape).ShapeCasts S96x32x132x2) :
    (StableHlo.after hostOps0_48 W (Proc.devRef .tc main_v674) : S96x32x132x2.Idx → Elt F .f32)
      = shapeCast S96x32x132x2 (concatenate S8x12x32x132x2 1 (pieces12 S8x1x32x132x2 (fun k => broadcastInDim S8x1x32x132x2 (![0, 2, 3, 4] : Fin 4 → Fin 5) hb
          (![(StableHlo.after hostOps0_48 W (Proc.devRef .tc main_v39) : S8x32x132x2.Idx → Elt F .f32),
      (StableHlo.after hostOps0_48 W (Proc.devRef .tc main_v64) : S8x32x132x2.Idx → Elt F .f32),
      (StableHlo.after hostOps0_48 W (Proc.devRef .tc main_v89) : S8x32x132x2.Idx → Elt F .f32),
      (StableHlo.after hostOps0_48 W (Proc.devRef .tc main_v114) : S8x32x132x2.Idx → Elt F .f32),
      (StableHlo.after hostOps0_48 W (Proc.devRef .tc main_v217) : S8x32x132x2.Idx → Elt F .f32),
      (StableHlo.after hostOps0_48 W (Proc.devRef .tc main_v319) : S8x32x132x2.Idx → Elt F .f32),
      (StableHlo.after hostOps0_48 W (Proc.devRef .tc main_v421) : S8x32x132x2.Idx → Elt F .f32),
      (StableHlo.after hostOps0_48 W (Proc.devRef .tc main_v523) : S8x32x132x2.Idx → Elt F .f32),
      (StableHlo.after hostOps0_48 W (Proc.devRef .tc main_v545) : S8x32x132x2.Idx → Elt F .f32),
      (StableHlo.after hostOps0_48 W (Proc.devRef .tc main_v570) : S8x32x132x2.Idx → Elt F .f32),
      (StableHlo.after hostOps0_48 W (Proc.devRef .tc main_v595) : S8x32x132x2.Idx → Elt F .f32),
      (StableHlo.after hostOps0_48 W (Proc.devRef .tc main_v620) : S8x32x132x2.Idx → Elt F .f32)] k))) hc) hs := by
  simp only [hostOps0_48]
  after_results_simp
  rfl

/-- The left border array is the twelve faces' left strips stacked along a new second axis and flattened. -/
theorem left_stack (M : Valuation τ sig (Elt F))
    (hb : (S8x32x132x2 : Shape).BroadcastsInDim S8x1x32x132x2 (![0, 2, 3, 4] : Fin 4 → Fin 5))
    (hc : Shape.Concatenates [S8x1x32x132x2, S8x1x32x132x2, S8x1x32x132x2, S8x1x32x132x2, S8x1x32x132x2, S8x1x32x132x2, S8x1x32x132x2, S8x1x32x132x2, S8x1x32x132x2, S8x1x32x132x2, S8x1x32x132x2, S8x1x32x132x2] S8x12x32x132x2 1)
    (hs : (S8x12x32x132x2 : Shape).ShapeCasts S96x32x132x2) :
    (StableHlo.after kops M (Proc.devRef .tc main_v674) : S96x32x132x2.Idx → Elt F .f32)
      = shapeCast S96x32x132x2 (concatenate S8x12x32x132x2 1 (pieces12 S8x1x32x132x2 (fun k => broadcastInDim S8x1x32x132x2 (![0, 2, 3, 4] : Fin 4 → Fin 5) hb (lefts M k))) hc) hs := by
  unfold lefts
  rw [after_kops]
  exact left_stack_tail (StableHlo.after kopsPre M) hb hc hs

/-- Entry (n, c, i, j) of the left border array, n = b·12 + f, is entry (b, c, i, j) of face f's left strip. -/
theorem left_at (M : Valuation τ sig (Elt F))
    (hb : (S8x32x132x2 : Shape).BroadcastsInDim S8x1x32x132x2 (![0, 2, 3, 4] : Fin 4 → Fin 5))
    (hc : Shape.Concatenates [S8x1x32x132x2, S8x1x32x132x2, S8x1x32x132x2, S8x1x32x132x2, S8x1x32x132x2, S8x1x32x132x2, S8x1x32x132x2, S8x1x32x132x2, S8x1x32x132x2, S8x1x32x132x2, S8x1x32x132x2, S8x1x32x132x2] S8x12x32x132x2 1)
    (hs : (S8x12x32x132x2 : Shape).ShapeCasts S96x32x132x2)
    (f : Fin 12) (b : Fin 8) (c : Fin 32) (i : Fin 132) (j : Fin 2) (n : Fin 96) (hn : n.val = b.val * 12 + f.val) :
    (StableHlo.after kops M (Proc.devRef .tc main_v674) : S96x32x132x2.Idx → Elt F .f32) (ix4 n c i j) = lefts M f (ix4 b c i j) := by
  rw [left_stack M hb hc hs]
  exact stack12_apply (lefts M) hb hc hs n c i j b f hn

/-- The twelve faces' right strips, as the host operations leave them. -/
def rights (M : Valuation τ sig (Elt F)) : Fin 12 → (S8x32x132x2.Idx → Elt F .f32) :=
  ![(StableHlo.after kops M (Proc.devRef .tc main_v49) : S8x32x132x2.Idx → Elt F .f32),
    (StableHlo.after kops M (Proc.devRef .tc main_v74) : S8x32x132x2.Idx → Elt F .f32),
    (StableHlo.after kops M (Proc.devRef .tc main_v99) : S8x32x132x2.Idx → Elt F .f32),
    (StableHlo.after kops M (Proc.devRef .tc main_v124) : S8x32x132x2.Idx → Elt F .f32),
    (StableHlo.after kops M (Proc.devRef .tc main_v226) : S8x32x132x2.Idx → Elt F .f32),
    (StableHlo.after kops M (Proc.devRef .tc main_v328) : S8x32x132x2.Idx → Elt F .f32),
    (StableHlo.after kops M (Proc.devRef .tc main_v430) : S8x32x132x2.Idx → Elt F .f32),
    (StableHlo.after kops M (Proc.devRef .tc main_v532) : S8x32x132x2.Idx → Elt F .f32),
    (StableHlo.after kops M (Proc.devRef .tc main_v557) : S8x32x132x2.Idx → Elt F .f32),
    (StableHlo.after kops M (Proc.devRef .tc main_v582) : S8x32x132x2.Idx → Elt F .f32),
    (StableHlo.after kops M (Proc.devRef .tc main_v607) : S8x32x132x2.Idx → Elt F .f32),
    (StableHlo.after kops M (Proc.devRef .tc main_v632) : S8x32x132x2.Idx → Elt F .f32)]

set_option maxHeartbeats 0 in
set_option maxRecDepth 100000 in
/-- Through the last stretch alone: the right border array is the stack of the twelve strips. -/
theorem right_stack_tail (W : Valuation τ sig (Elt F))
    (hb : (S8x32x132x2 : Shape).BroadcastsInDim S8x1x32x132x2 (![0, 2, 3, 4] : Fin 4 → Fin 5))
    (hc : Shape.Concatenates [S8x1x32x132x2, S8x1x32x132x2, S8x1x32x132x2, S8x1x32x132x2, S8x1x32x132x2, S8x1x32x132x2, S8x1x32x132x2, S8x1x32x132x2, S8x1x32x132x2, S8x1x32x132x2, S8x1x32x132x2, S8x1x32x132x2] S8x12x32x132x2 1)
    (hs : (S8x12x32x132x2 : Shape).ShapeCasts S96x32x132x2) :
    (StableHlo.after hostOps0_48 W (Proc.devRef .tc main_v688) : S96x32x132x2.Idx → Elt F .f32)
      = shapeCast S96x32x132x2 (concatenate S8x12x32x132x2 1 (pieces12 S8x1x32x132x2 (fun k => broadcastInDim S8x1x32x132x2 (![0, 2, 3, 4] : Fin 4 → Fin 5) hb
          (![(StableHlo.after hostOps0_48 W (Proc.devRef .tc main_v49) : S8x32x132x2.Idx → Elt F .f32),
      (StableHlo.after hostOps0_48 W (Proc.devRef .tc main_v74) : S8x32x132x2.Idx → Elt F .f32),
      (StableHlo.after hostOps0_48 W (Proc.devRef .tc main_v99) : S8x32x132x2.Idx → Elt F .f32),
      (StableHlo.after hostOps0_48 W (Proc.devRef .tc main_v124) : S8x32x132x2.Idx → Elt F .f32),
      (StableHlo.after hostOps0_48 W (Proc.devRef .tc main_v226) : S8x32x132x2.Idx → Elt F .f32),
      (StableHlo.after hostOps0_48 W (Proc.devRef .tc main_v328) : S8x32x132x2.Idx → Elt F .f32),
      (StableHlo.after hostOps0_48 W (Proc.devRef .tc main_v430) : S8x32x132x2.Idx → Elt F .f32),
      (StableHlo.after hostOps0_48 W (Proc.devRef .tc main_v532) : S8x32x132x2.Idx → Elt F .f32),
      (StableHlo.after hostOps0_48 W (Proc.devRef .tc main_v557) : S8x32x132x2.Idx → Elt F .f32),
      (StableHlo.after hostOps0_48 W (Proc.devRef .tc main_v582) : S8x32x132x2.Idx → Elt F .f32),
      (StableHlo.after hostOps0_48 W (Proc.devRef .tc main_v607) : S8x32x132x2.Idx → Elt F .f32),
      (StableHlo.after hostOps0_48 W (Proc.devRef .tc main_v632) : S8x32x132x2.Idx → Elt F .f32)] k))) hc) hs := by
  simp only [hostOps0_48]
  after_results_simp
  rfl

/-- The right border array is the twelve faces' right strips stacked along a new second axis and flattened. -/
theorem right_stack (M : Valuation τ sig (Elt F))
    (hb : (S8x32x132x2 : Shape).BroadcastsInDim S8x1x32x132x2 (![0, 2, 3, 4] : Fin 4 → Fin 5))
    (hc : Shape.Concatenates [S8x1x32x132x2, S8x1x32x132x2, S8x1x32x132x2, S8x1x32x132x2, S8x1x32x132x2, S8x1x32x132x2, S8x1x32x132x2, S8x1x32x132x2, S8x1x32x132x2, S8x1x32x132x2, S8x1x32x132x2, S8x1x32x132x2] S8x12x32x132x2 1)
    (hs : (S8x12x32x132x2 : Shape).ShapeCasts S96x32x132x2) :
    (StableHlo.after kops M (Proc.devRef .tc main_v688) : S96x32x132x2.Idx → Elt F .f32)
      = shapeCast S96x32x132x2 (concatenate S8x12x32x132x2 1 (pieces12 S8x1x32x132x2 (fun k => broadcastInDim S8x1x32x132x2 (![0, 2, 3, 4] : Fin 4 → Fin 5) hb (rights M k))) hc) hs := by
  unfold rights
  rw [after_kops]
  exact right_stack_tail (StableHlo.after kopsPre M) hb hc hs

/-- Entry (n, c, i, j) of the right border array, n = b·12 + f, is entry (b, c, i, j) of face f's right strip. -/
theorem right_at (M : Valuation τ sig (Elt F))
    (hb : (S8x32x132x2 : Shape).BroadcastsInDim S8x1x32x132x2 (![0, 2, 3, 4] : Fin 4 → Fin 5))
    (hc : Shape.Concatenates [S8x1x32x132x2, S8x1x32x132x2, S8x1x32x132x2, S8x1x32x132x2, S8x1x32x132x2, S8x1x32x132x2, S8x1x32x132x2, S8x1x32x132x2, S8x1x32x132x2, S8x1x32x132x2, S8x1x32x132x2, S8x1x32x132x2] S8x12x32x132x2 1)
    (hs : (S8x12x32x132x2 : Shape).ShapeCasts S96x32x132x2)
    (f : Fin 12) (b : Fin 8) (c : Fin 32) (i : Fin 132) (j : Fin 2) (n : Fin 96) (hn : n.val = b.val * 12 + f.val) :
    (StableHlo.after kops M (Proc.devRef .tc main_v688) : S96x32x132x2.Idx → Elt F .f32) (ix4 n c i j) = rights M f (ix4 b c i j) := by
  rw [right_stack M hb hc hs]
  exact stack12_apply (rights M) hb hc hs n c i j b f hn

end Cert.KernelIdeal.Hand

end
-- ==== Proof.PureSpec.lean ====
/-
  The specification both programs meet: the padded array as ONE pure function of the argument. The argument holds,
  for each of 8 batches, twelve faces; every face gets a border of two rows and columns. Its four border strips are
  pure functions of the whole argument (which neighbouring faces they are cut from, turned how, is in the strips'
  definitions); the padded face is the left strip, the column (top strip, face, bottom strip) and the right strip
  side by side; the result stacks the twelve padded faces of every batch, face f of batch b at position b·12 + f.
-/
import proofs.«156783_j90975997264310_2_alg».proof.Proof.KValue.Pad
import Idealize.ShloMosaic.Lib.ValueIdx
import Idealize.ShloMosaic.PureOps.Ideal

noncomputable section

namespace Cert.Spec

open Idealize.ShloMosaic Idealize.ShloMosaic.ValueIdx

/-- The argument: 8 batches of 12 faces, 32 channels, 128 × 128. -/
abbrev X : Type := (⟨4, ![96, 32, 128, 128]⟩ : Shape).Idx → Elt Ideal .f32

/-- Twelve per-face arrays [8, 32, H, W] stacked into one array [96, 32, H, W]: entry n = b·12 + f is entry b of
    piece f. -/
def stack12 {α : Type} {H W : ℕ} (p : Fin 12 → ((⟨4, ![8, 32, H, W]⟩ : Shape).Idx → α)) :
    (⟨4, ![96, 32, H, W]⟩ : Shape).Idx → α := fun k =>
  have h0 : (k 0).val < 96 := (k 0).isLt
  p ⟨(k 0).val % 12, Nat.mod_lt _ (by norm_num)⟩ (ix4 (⟨(k 0).val / 12, by omega⟩ : Fin 8) (k 1) (k 2) (k 3))

/-- The stack read at n = b·12 + f. -/
theorem stack12_apply {α : Type} {H W : ℕ} (p : Fin 12 → ((⟨4, ![8, 32, H, W]⟩ : Shape).Idx → α))
    (f : Fin 12) (b : Fin 8) (c : Fin 32) (i : Fin H) (j : Fin W) (n : Fin 96) (hn : n.val = b.val * 12 + f.val) :
    stack12 p (ix4 n c i j) = p f (ix4 b c i j) := by
  have hf : (⟨n.val % 12, Nat.mod_lt _ (by norm_num)⟩ : Fin 12) = f := Fin.ext (by show n.val % 12 = f.val; omega)
  have hb : (⟨n.val / 12, by have := n.isLt; omega⟩ : Fin 8) = b := Fin.ext (by show n.val / 12 = b.val; omega)
  show p ⟨n.val % 12, _⟩ (ix4 (⟨n.val / 12, _⟩ : Fin 8) c i j) = p f (ix4 b c i j)
  rw [hf, hb]

/-- An array whose entry n = b·12 + f is entry b of piece f is the stack of the pieces, entry by entry. -/
theorem stack12_of_at {α : Type} {H W : ℕ} (K : (⟨4, ![96, 32, H, W]⟩ : Shape).Idx → α)
    (p : Fin 12 → ((⟨4, ![8, 32, H, W]⟩ : Shape).Idx → α))
    (h : ∀ (f : Fin 12) (b : Fin 8) (c : Fin 32) (i : Fin H) (j : Fin W) (n : Fin 96), n.val = b.val * 12 + f.val →
      K (ix4 n c i j) = p f (ix4 b c i j))
    (n : Fin 96) (c : Fin 32) (i : Fin H) (j : Fin W) : K (ix4 n c i j) = stack12 p (ix4 n c i j) := by
  have hn : n.val = (⟨n.val / 12, by have := n.isLt; omega⟩ : Fin 8).val * 12
      + (⟨n.val % 12, Nat.mod_lt _ (by norm_num)⟩ : Fin 12).val := by
    show n.val = n.val / 12 * 12 + n.val % 12
    omega
  rw [h _ _ c i j n hn, stack12_apply p _ _ c i j n hn]

/-- Face `f` of every batch. -/
def pface (f : Fin 12) (x : X) : (⟨4, ![8, 32, 128, 128]⟩ : Shape).Idx → Elt Ideal .f32 := fun k =>
  have h0 : (k 0).val < 8 := (k 0).isLt
  x (ix4 (⟨(k 0).val * 12 + f.val, by have := f.isLt; omega⟩ : Fin 96) (k 1) (k 2) (k 3))

/-- Face `f` read at an index. -/
theorem pface_apply (f : Fin 12) (x : X) (b : Fin 8) (c : Fin 32) (i j : Fin 128) (n : Fin 96)
    (hn : n.val = b.val * 12 + f.val) : pface f x (ix4 b c i j) = x (ix4 n c i j) := by
  have e : (⟨b.val * 12 + f.val, by have := f.isLt; have := b.isLt; omega⟩ : Fin 96) = n := Fin.ext hn.symm
  show x (ix4 (⟨b.val * 12 + f.val, _⟩ : Fin 96) c i j) = x (ix4 n c i j)
  rw [e]

/-- The padded entry depends on its five arrays only through their entries. -/
theorem pad_congr {α : Type} {N : ℕ} {x x' : (⟨4, ![N, 32, 128, 128]⟩ : Shape).Idx → α}
    {tp tp' bt bt' : (⟨4, ![N, 32, 2, 128]⟩ : Shape).Idx → α} {lf lf' rt rt' : (⟨4, ![N, 32, 132, 2]⟩ : Shape).Idx → α}
    (hx : ∀ n c i j, x (ix4 n c i j) = x' (ix4 n c i j))
    (ht : ∀ n c i j, tp (ix4 n c i j) = tp' (ix4 n c i j)) (hb : ∀ n c i j, bt (ix4 n c i j) = bt' (ix4 n c i j))
    (hl : ∀ n c i j, lf (ix4 n c i j) = lf' (ix4 n c i j)) (hr : ∀ n c i j, rt (ix4 n c i j) = rt' (ix4 n c i j))
    (n : Fin N) (c : Fin 32) (i j : Fin 132) :
    Cert.KernelIdeal.HandValue.pad x tp bt lf rt n c i j = Cert.KernelIdeal.HandValue.pad x' tp' bt' lf' rt' n c i j := by
  unfold Cert.KernelIdeal.HandValue.pad
  exact dite_congr rfl (fun _ => hl _ _ _ _) fun _ =>
    dite_congr rfl (fun _ => dite_congr rfl (fun _ => ht _ _ _ _) fun _ =>
      dite_congr rfl (fun _ => hx _ _ _ _) fun _ => hb _ _ _ _) fun _ => hr _ _ _ _

/-- **The specification**, for given strip families: the padded array as one function of the argument. Entry
    (n, c, i, j), n = b·12 + f, is the padded entry of face f of batch b: read from the face's left strip (j < 2), its
    right strip (130 ≤ j), or its top strip, the face itself, or its bottom strip, by the row. -/
def PpadOf (T B : Fin 12 → X → ((⟨4, ![8, 32, 2, 128]⟩ : Shape).Idx → Elt Ideal .f32)) (L R : Fin 12 → X → ((⟨4, ![8, 32, 132, 2]⟩ : Shape).Idx → Elt Ideal .f32))
    (x : X) : (⟨4, ![96, 32, 132, 132]⟩ : Shape).Idx → Elt Ideal .f32 := fun k =>
  Cert.KernelIdeal.HandValue.pad x (stack12 fun f => T f x) (stack12 fun f => B f x) (stack12 fun f => L f x) (stack12 fun f => R f x)
    (k 0) (k 1) (k 2) (k 3)

end Cert.Spec

end
-- ==== Proof.KAssemblyGen_c.lean ====
/-
  Kernel side of the specification: the array the region writes — the padded entries of the argument and the four
  border arrays as the region finds them — is the specification of the argument. Each border array is the stack of
  its twelve strips; each strip is its pure function of the argument, which no host operation writes.
-/
import proofs.«156783_j90975997264310_2_alg».proof.Proof.KValue.Final
import proofs.«156783_j90975997264310_2_alg».proof.Proof.KStacks
import proofs.«156783_j90975997264310_2_alg».proof.Proof.PureSpec

noncomputable section

namespace Cert.KAssembly

open Idealize.ShloMosaic Idealize.ShloMosaic.ValueIdx Idealize.SL.Sem

/-- The kernel's result is the specification of its argument, given that each strip the host operations leave is
    the strip family's function of the argument. -/
theorem kfinal_of (T B : Fin 12 → Cert.Spec.X → ((⟨4, ![8, 32, 2, 128]⟩ : Shape).Idx → Elt Ideal .f32)) (L R : Fin 12 → Cert.Spec.X → ((⟨4, ![8, 32, 132, 2]⟩ : Shape).Idx → Elt Ideal .f32))
    (hT : ∀ (M : Valuation Cert.KernelIdeal.τ Cert.KernelIdeal.sig (Elt Ideal)) (f : Fin 12), Cert.KernelIdeal.Hand.tops M f = T f (M (Proc.devRef .tc Cert.KernelIdeal.main_arg0)))
    (hB : ∀ (M : Valuation Cert.KernelIdeal.τ Cert.KernelIdeal.sig (Elt Ideal)) (f : Fin 12), Cert.KernelIdeal.Hand.bottoms M f = B f (M (Proc.devRef .tc Cert.KernelIdeal.main_arg0)))
    (hL : ∀ (M : Valuation Cert.KernelIdeal.τ Cert.KernelIdeal.sig (Elt Ideal)) (f : Fin 12), Cert.KernelIdeal.Hand.lefts M f = L f (M (Proc.devRef .tc Cert.KernelIdeal.main_arg0)))
    (hR : ∀ (M : Valuation Cert.KernelIdeal.τ Cert.KernelIdeal.sig (Elt Ideal)) (f : Fin 12), Cert.KernelIdeal.Hand.rights M f = R f (M (Proc.devRef .tc Cert.KernelIdeal.main_arg0)))
    (m : (ℓ : Loc Cert.KernelIdeal.nD Cert.KernelIdeal.τ Cert.KernelIdeal.sig) → Buf (Elt Ideal) ℓ) (c : Dev Cert.KernelIdeal.nD) :
    (Cert.KernelIdeal.HandValue.G (F := Ideal) m c : Cert.KernelIdeal.S96x32x132x132.Idx → Elt Ideal .f32)
      = Cert.Spec.PpadOf T B L R (m ((c.tc : Thread Cert.KernelIdeal.nD Cert.KernelIdeal.τ).loc Cert.KernelIdeal.main_arg0)) := by
  have hV : (Cert.KernelIdeal.Hand.V m c Cert.KernelIdeal.main_arg0 : Cert.KernelIdeal.S96x32x128x128.Idx → Elt Ideal .f32)
      = (m ((c.tc : Thread Cert.KernelIdeal.nD Cert.KernelIdeal.τ).loc Cert.KernelIdeal.main_arg0) : Cert.KernelIdeal.S96x32x128x128.Idx → Elt Ideal .f32) :=
    Cert.KernelIdeal.Hand.V_main_arg0 m c
  funext k
  obtain ⟨n, ch, i, j, rfl⟩ : ∃ (n : Fin 96) (ch : Fin 32) (i j : Fin 132), k = ix4 n ch i j :=
    ⟨_, _, _, _, eq_ix4 (n0 := 96) (n1 := 32) (n2 := 132) (n3 := 132) k⟩
  exact Cert.Spec.pad_congr
    (x := (Cert.KernelIdeal.Hand.V m c Cert.KernelIdeal.main_arg0 : Cert.KernelIdeal.S96x32x128x128.Idx → Elt Ideal .f32))
    (tp := (Cert.KernelIdeal.Hand.V m c Cert.KernelIdeal.main_v646 : Cert.KernelIdeal.S96x32x2x128.Idx → Elt Ideal .f32))
    (bt := (Cert.KernelIdeal.Hand.V m c Cert.KernelIdeal.main_v660 : Cert.KernelIdeal.S96x32x2x128.Idx → Elt Ideal .f32))
    (lf := (Cert.KernelIdeal.Hand.V m c Cert.KernelIdeal.main_v674 : Cert.KernelIdeal.S96x32x132x2.Idx → Elt Ideal .f32))
    (rt := (Cert.KernelIdeal.Hand.V m c Cert.KernelIdeal.main_v688 : Cert.KernelIdeal.S96x32x132x2.Idx → Elt Ideal .f32))
    (fun _ _ _ _ => congrFun hV _)
    (Cert.Spec.stack12_of_at _ _ fun f b c' i' j' n' hn =>
      (Cert.KernelIdeal.Hand.top_at (StableHlo.launchContents m c)
        Cert.KernelIdeal.Facts₀.bcast_S8x32x2x128_S8x1x32x2x128_0_2_3_4
        Cert.KernelIdeal.Facts₀.concatenates_S8x1x32x2x128_S8x1x32x2x128_S8x1x32x2x128_S8x1x32x2x128_S8x1x32x2x128_S8x1x32x2x128_S8x1x32x2x128_S8x1x32x2x128_S8x1x32x2x128_S8x1x32x2x128_S8x1x32x2x128_S8x1x32x2x128_S8x12x32x2x128_d1
        Cert.KernelIdeal.Facts₀.shapeCasts_S8x12x32x2x128_S96x32x2x128 f b c' i' j' n' hn).trans
        (congrFun (hT (StableHlo.launchContents m c) f) _))
    (Cert.Spec.stack12_of_at _ _ fun f b c' i' j' n' hn =>
      (Cert.KernelIdeal.Hand.bottom_at (StableHlo.launchContents m c)
        Cert.KernelIdeal.Facts₀.bcast_S8x32x2x128_S8x1x32x2x128_0_2_3_4
        Cert.KernelIdeal.Facts₀.concatenates_S8x1x32x2x128_S8x1x32x2x128_S8x1x32x2x128_S8x1x32x2x128_S8x1x32x2x128_S8x1x32x2x128_S8x1x32x2x128_S8x1x32x2x128_S8x1x32x2x128_S8x1x32x2x128_S8x1x32x2x128_S8x1x32x2x128_S8x12x32x2x128_d1
        Cert.KernelIdeal.Facts₀.shapeCasts_S8x12x32x2x128_S96x32x2x128 f b c' i' j' n' hn).trans
        (congrFun (hB (StableHlo.launchContents m c) f) _))
    (Cert.Spec.stack12_of_at _ _ fun f b c' i' j' n' hn =>
      (Cert.KernelIdeal.Hand.left_at (StableHlo.launchContents m c)
        Cert.KernelIdeal.Facts₀.bcast_S8x32x132x2_S8x1x32x132x2_0_2_3_4
        Cert.KernelIdeal.Facts₀.concatenates_S8x1x32x132x2_S8x1x32x132x2_S8x1x32x132x2_S8x1x32x132x2_S8x1x32x132x2_S8x1x32x132x2_S8x1x32x132x2_S8x1x32x132x2_S8x1x32x132x2_S8x1x32x132x2_S8x1x32x132x2_S8x1x32x132x2_S8x12x32x132x2_d1
        Cert.KernelIdeal.Facts₀.shapeCasts_S8x12x32x132x2_S96x32x132x2 f b c' i' j' n' hn).trans
        (congrFun (hL (StableHlo.launchContents m c) f) _))
    (Cert.Spec.stack12_of_at _ _ fun f b c' i' j' n' hn =>
      (Cert.KernelIdeal.Hand.right_at (StableHlo.launchContents m c)
        Cert.KernelIdeal.Facts₀.bcast_S8x32x132x2_S8x1x32x132x2_0_2_3_4
        Cert.KernelIdeal.Facts₀.concatenates_S8x1x32x132x2_S8x1x32x132x2_S8x1x32x132x2_S8x1x32x132x2_S8x1x32x132x2_S8x1x32x132x2_S8x1x32x132x2_S8x1x32x132x2_S8x1x32x132x2_S8x1x32x132x2_S8x1x32x132x2_S8x1x32x132x2_S8x12x32x132x2_d1
        Cert.KernelIdeal.Facts₀.shapeCasts_S8x12x32x132x2_S96x32x132x2 f b c' i' j' n' hn).trans
        (congrFun (hR (StableHlo.launchContents m c) f) _))
    n ch i j

end Cert.KAssembly

end
-- ==== Proof.LibQuarterTurns.lean ====
/-
  Quarter turns of the last two axes of a rank-4 array, read at an index. A reverse along an axis reads the
  mirrored coordinate, a transpose of the last two axes swaps their coordinates, a unit-stride slice adds its
  offsets. A quarter turn counter-clockwise is a reverse along the columns followed by a transpose, a quarter turn
  clockwise a transpose followed by a reverse along the columns, a half turn a reverse along the rows followed by a
  reverse along the columns. Turning a rectangular block cut out of an array gives the same array as cutting the
  turned block out of the turned array: the block's offsets turn with it.
-/
import Idealize.ShloMosaic.Lib.Pipeline.Value
import Idealize.ShloMosaic.Lib.ValueIdx

namespace Cert.LibQuarterTurns

open Idealize.ShloMosaic Idealize.ShloMosaic.ValueIdx

variable {α : Type} {A B H W : ℕ}

/-! ## The three layout operations at an index -/

/-- A reverse along the rows reads the mirrored row. -/
theorem reverse2_apply (x : (⟨4, ![A, B, H, W]⟩ : Shape).Idx → α) (a : Fin A) (b : Fin B) (i : Fin H) (j : Fin W) :
    Host.reverse [2] x (ix4 a b i j) = x (ix4 a b i.rev j) := by
  unfold Host.reverse
  congr 1
  funext c
  fin_cases c <;> rfl

/-- A reverse along the columns reads the mirrored column. -/
theorem reverse3_apply (x : (⟨4, ![A, B, H, W]⟩ : Shape).Idx → α) (a : Fin A) (b : Fin B) (i : Fin H) (j : Fin W) :
    Host.reverse [3] x (ix4 a b i j) = x (ix4 a b i j.rev) := by
  unfold Host.reverse
  congr 1
  funext c
  fin_cases c <;> rfl

/-- A transpose of the last two axes swaps the row and the column. -/
theorem transpose_apply4 (x : (⟨4, ![A, B, H, W]⟩ : Shape).Idx → α)
    (ht : (⟨4, ![A, B, H, W]⟩ : Shape).Transposes [0, 1, 3, 2] ⟨4, ![A, B, W, H]⟩)
    (a : Fin A) (b : Fin B) (i : Fin W) (j : Fin H) :
    transpose ⟨4, ![A, B, W, H]⟩ [0, 1, 3, 2] x ht (ix4 a b i j) = x (ix4 a b j i) := by
  refine transpose_apply _ x ht _ _ (fun c => ?_)
  fin_cases c <;> rfl

/-- The bounds a slice's shape relation gives its offsets. -/
theorem slice_bounds {A' B' h w : ℕ} {oa ob oh ow : ℕ}
    (hs : (⟨4, ![A, B, H, W]⟩ : Shape).Slices ![oa, ob, oh, ow] ⟨4, ![A', B', h, w]⟩) :
    oa + A' ≤ A ∧ ob + B' ≤ B ∧ oh + h ≤ H ∧ ow + w ≤ W :=
  ⟨hs.2 0, hs.2 1, hs.2 2, hs.2 3⟩

/-- A unit-stride slice reads the operand at the index moved by the offsets. -/
theorem slice_apply4 {A' B' h w : ℕ} {oa ob oh ow : ℕ} (x : (⟨4, ![A, B, H, W]⟩ : Shape).Idx → α)
    (hs : (⟨4, ![A, B, H, W]⟩ : Shape).Slices ![oa, ob, oh, ow] ⟨4, ![A', B', h, w]⟩)
    (a : Fin A') (b : Fin B') (i : Fin h) (j : Fin w) :
    extractStridedSlice ⟨4, ![A', B', h, w]⟩ ![oa, ob, oh, ow] x hs (ix4 a b i j)
      = x (ix4 (⟨oa + a.val, by have := (slice_bounds hs).1; omega⟩ : Fin A)
            (⟨ob + b.val, by have := (slice_bounds hs).2.1; omega⟩ : Fin B)
            (⟨oh + i.val, by have := (slice_bounds hs).2.2.1; omega⟩ : Fin H)
            (⟨ow + j.val, by have := (slice_bounds hs).2.2.2; omega⟩ : Fin W)) := by
  refine extractStridedSlice_apply _ x hs _ _ (fun c => ?_)
  fin_cases c <;> rfl

/-- Two rank-4 indices with equal coordinates are equal. -/
theorem ix4_congr {n0 n1 n2 n3 : ℕ} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  rw [Fin.ext ha, Fin.ext hb, Fin.ext hc, Fin.ext hd]

/-! ## Quarter turns at an index -/

/-- A quarter turn counter-clockwise (reverse the columns, then transpose): entry (i, j) is the operand's (j, W-1-i). -/
theorem rot1_apply (x : (⟨4, ![A, B, H, W]⟩ : Shape).Idx → α)
    (ht : (⟨4, ![A, B, H, W]⟩ : Shape).Transposes [0, 1, 3, 2] ⟨4, ![A, B, W, H]⟩)
    (a : Fin A) (b : Fin B) (i : Fin W) (j : Fin H) :
    transpose ⟨4, ![A, B, W, H]⟩ [0, 1, 3, 2] (Host.reverse [3] x) ht (ix4 a b i j) = x (ix4 a b j i.rev) := by
  rw [transpose_apply4, reverse3_apply]

/-- A quarter turn clockwise (transpose, then reverse the columns): entry (i, j) is the operand's (H-1-j, i). -/
theorem rot3_apply (x : (⟨4, ![A, B, H, W]⟩ : Shape).Idx → α)
    (ht : (⟨4, ![A, B, H, W]⟩ : Shape).Transposes [0, 1, 3, 2] ⟨4, ![A, B, W, H]⟩)
    (a : Fin A) (b : Fin B) (i : Fin W) (j : Fin H) :
    Host.reverse [3] (transpose ⟨4, ![A, B, W, H]⟩ [0, 1, 3, 2] x ht) (ix4 a b i j) = x (ix4 a b j.rev i) := by
  rw [reverse3_apply, transpose_apply4]

/-- A half turn (reverse the rows, then the columns): entry (i, j) is the operand's (H-1-i, W-1-j). -/
theorem rot2_apply (x : (⟨4, ![A, B, H, W]⟩ : Shape).Idx → α) (a : Fin A) (b : Fin B) (i : Fin H) (j : Fin W) :
    Host.reverse [3] (Host.reverse [2] x) (ix4 a b i j) = x (ix4 a b i.rev j.rev) := by
  rw [reverse3_apply, reverse2_apply]

/-- A half turn with the two reverses in the other order. -/
theorem rot2_apply' (x : (⟨4, ![A, B, H, W]⟩ : Shape).Idx → α) (a : Fin A) (b : Fin B) (i : Fin H) (j : Fin W) :
    Host.reverse [2] (Host.reverse [3] x) (ix4 a b i j) = x (ix4 a b i.rev j.rev) := by
  rw [reverse2_apply, reverse3_apply]

/-! ## A turned block is the block of the turned array -/

section Blocks
variable {A' B' h w : ℕ} {oa ob oh ow oh' ow' : ℕ}

/-- Counter-clockwise: the `h × w` block at `(oh, ow)`, turned, is the `w × h` block of the turned array at
    `(W - ow - w, oh)`. -/
theorem rot1_slice (x : (⟨4, ![A, B, H, W]⟩ : Shape).Idx → α)
    (hs : (⟨4, ![A, B, H, W]⟩ : Shape).Slices ![oa, ob, oh, ow] ⟨4, ![A', B', h, w]⟩)
    (ht : (⟨4, ![A', B', h, w]⟩ : Shape).Transposes [0, 1, 3, 2] ⟨4, ![A', B', w, h]⟩)
    (ht' : (⟨4, ![A, B, H, W]⟩ : Shape).Transposes [0, 1, 3, 2] ⟨4, ![A, B, W, H]⟩)
    (hs' : (⟨4, ![A, B, W, H]⟩ : Shape).Slices ![oa, ob, oh', ow'] ⟨4, ![A', B', w, h]⟩)
    (e1 : oh' + ow + w = W) (e2 : ow' = oh) :
    transpose ⟨4, ![A', B', w, h]⟩ [0, 1, 3, 2]
        (Host.reverse [3] (extractStridedSlice ⟨4, ![A', B', h, w]⟩ ![oa, ob, oh, ow] x hs)) ht
      = extractStridedSlice ⟨4, ![A', B', w, h]⟩ ![oa, ob, oh', ow']
          (transpose ⟨4, ![A, B, W, H]⟩ [0, 1, 3, 2] (Host.reverse [3] x) ht') hs' := by
  funext q
  obtain ⟨a, b, i, j, rfl⟩ : ∃ (a : Fin A') (b : Fin B') (i : Fin w) (j : Fin h), q = ix4 a b i j :=
    ⟨_, _, _, _, eq_ix4 (n0 := A') (n1 := B') (n2 := w) (n3 := h) q⟩
  rw [rot1_apply, slice_apply4, slice_apply4, rot1_apply]
  have := i.isLt
  refine congrArg x (ix4_congr rfl rfl ?_ ?_) <;> simp only [Fin.val_rev] <;> omega

/-- Clockwise: the `h × w` block at `(oh, ow)`, turned, is the `w × h` block of the turned array at
    `(ow, H - oh - h)`. -/
theorem rot3_slice (x : (⟨4, ![A, B, H, W]⟩ : Shape).Idx → α)
    (hs : (⟨4, ![A, B, H, W]⟩ : Shape).Slices ![oa, ob, oh, ow] ⟨4, ![A', B', h, w]⟩)
    (ht : (⟨4, ![A', B', h, w]⟩ : Shape).Transposes [0, 1, 3, 2] ⟨4, ![A', B', w, h]⟩)
    (ht' : (⟨4, ![A, B, H, W]⟩ : Shape).Transposes [0, 1, 3, 2] ⟨4, ![A, B, W, H]⟩)
    (hs' : (⟨4, ![A, B, W, H]⟩ : Shape).Slices ![oa, ob, oh', ow'] ⟨4, ![A', B', w, h]⟩)
    (e1 : oh' = ow) (e2 : ow' + oh + h = H) :
    Host.reverse [3] (transpose ⟨4, ![A', B', w, h]⟩ [0, 1, 3, 2]
        (extractStridedSlice ⟨4, ![A', B', h, w]⟩ ![oa, ob, oh, ow] x hs) ht)
      = extractStridedSlice ⟨4, ![A', B', w, h]⟩ ![oa, ob, oh', ow']
          (Host.reverse [3] (transpose ⟨4, ![A, B, W, H]⟩ [0, 1, 3, 2] x ht')) hs' := by
  funext q
  obtain ⟨a, b, i, j, rfl⟩ : ∃ (a : Fin A') (b : Fin B') (i : Fin w) (j : Fin h), q = ix4 a b i j :=
    ⟨_, _, _, _, eq_ix4 (n0 := A') (n1 := B') (n2 := w) (n3 := h) q⟩
  rw [rot3_apply, slice_apply4, slice_apply4, rot3_apply]
  have := j.isLt
  refine congrArg x (ix4_congr rfl rfl ?_ ?_) <;> simp only [Fin.val_rev] <;> omega

/-- Half turn: the `h × w` block at `(oh, ow)`, turned, is the `h × w` block of the turned array at
    `(H - oh - h, W - ow - w)`. -/
theorem rot2_slice (x : (⟨4, ![A, B, H, W]⟩ : Shape).Idx → α)
    (hs : (⟨4, ![A, B, H, W]⟩ : Shape).Slices ![oa, ob, oh, ow] ⟨4, ![A', B', h, w]⟩)
    (hs' : (⟨4, ![A, B, H, W]⟩ : Shape).Slices ![oa, ob, oh', ow'] ⟨4, ![A', B', h, w]⟩)
    (e1 : oh' + oh + h = H) (e2 : ow' + ow + w = W) :
    Host.reverse [3] (Host.reverse [2] (extractStridedSlice ⟨4, ![A', B', h, w]⟩ ![oa, ob, oh, ow] x hs))
      = extractStridedSlice ⟨4, ![A', B', h, w]⟩ ![oa, ob, oh', ow'] (Host.reverse [3] (Host.reverse [2] x)) hs' := by
  funext q
  obtain ⟨a, b, i, j, rfl⟩ : ∃ (a : Fin A') (b : Fin B') (i : Fin h) (j : Fin w), q = ix4 a b i j :=
    ⟨_, _, _, _, eq_ix4 (n0 := A') (n1 := B') (n2 := h) (n3 := w) q⟩
  rw [rot2_apply, slice_apply4, slice_apply4, rot2_apply]
  have := i.isLt
  have := j.isLt
  refine congrArg x (ix4_congr rfl rfl ?_ ?_) <;> simp only [Fin.val_rev] <;> omega

end Blocks

end Cert.LibQuarterTurns
-- ==== Proof.KindsD.lean ====
/-
  The four border strips of a northern face, written two ways, as functions of the neighbouring faces they read.

  One way cuts a thin piece out of a face first and turns the piece (a quarter turn is a reverse along the columns
  and a transpose of the last two axes, in one order or the other; a half turn is a reverse along the rows and one
  along the columns), and assembles a 132-row strip by writing its three pieces as row windows into an array of
  zeros. The other way turns the whole face, cuts the piece out of the turned face, and lays the three pieces of a
  strip end to end. Both ways read the same entries of the same faces:

  * top strip, rows i < 2, columns j < 128: entry (j, 1 - i) of the face above;
  * upper-left corner, i, j < 2: entry (1 - i, 1 - j) of the diagonal face (a half turn);
  * left slab, i < 128, j < 2: entry (1 - j, i) of the face to the left (a quarter turn the other way);
  * the three window writes at rows 0, 2 and 130 cover all 132 rows, so nothing of the zeros is left and the
    written array is the concatenation of the pieces.
-/
import Idealize.ShloMosaic.Lib.Pipeline.Value
import Idealize.ShloMosaic.Lib.ValueIdx
import proofs.«156783_j90975997264310_2_alg».proof.Proof.LibWindowScatter
import proofs.«156783_j90975997264310_2_alg».proof.Proof.LibConcat3
import proofs.«156783_j90975997264310_2_alg».proof.Proof.LibQuarterTurns

namespace Cert.KindsD

open Idealize.ShloMosaic Idealize.ShloMosaic.ValueIdx Cert.LibQuarterTurns

variable {α : Type}

/-- A face of one batch: 8 batches, 32 channels, 128 rows, 128 columns. -/
abbrev SF : Shape := ⟨4, ![8, 32, 128, 128]⟩
/-- A top or bottom strip: 2 rows. -/
abbrev ST : Shape := ⟨4, ![8, 32, 2, 128]⟩
/-- A slab of 2 columns. -/
abbrev SC : Shape := ⟨4, ![8, 32, 128, 2]⟩
/-- A 2 × 2 corner. -/
abbrev SQ : Shape := ⟨4, ![8, 32, 2, 2]⟩
/-- A left or right strip: 132 rows of 2 columns. -/
abbrev SL : Shape := ⟨4, ![8, 32, 132, 2]⟩

/-- **The top strip.** The first two columns of a face, turned a quarter turn counter-clockwise, are the last two
    rows of the whole face turned a quarter turn counter-clockwise: both read entry (j, 1 - i). -/
theorem top_eq (t : SF.Idx → α)
    (hs : SF.Slices ![0, 0, 0, 0] SC) (ht : SC.Transposes [0, 1, 3, 2] ST)
    (ht' : SF.Transposes [0, 1, 3, 2] SF) (hs' : SF.Slices ![0, 0, 126, 0] ST) :
    transpose ST [0, 1, 3, 2] (Host.reverse [3] (extractStridedSlice SC ![0, 0, 0, 0] t hs)) ht
      = extractStridedSlice ST ![0, 0, 126, 0] (transpose SF [0, 1, 3, 2] (Host.reverse [3] t) ht') hs' := by
  funext q
  obtain ⟨a, b, i, j, rfl⟩ : ∃ (a : Fin 8) (b : Fin 32) (i : Fin 2) (j : Fin 128), q = ix4 a b i j :=
    ⟨_, _, _, _, eq_ix4 (n0 := 8) (n1 := 32) (n2 := 2) (n3 := 128) q⟩
  rw [transpose_apply4, reverse3_apply, slice_apply4, slice_apply4, transpose_apply4, reverse3_apply]
  congr 1
  funext c
  have hi := i.isLt
  have hj := j.isLt
  match c with
  | ⟨0, _⟩ => apply Fin.ext; simp
  | ⟨1, _⟩ => apply Fin.ext; simp
  | ⟨2, _⟩ => apply Fin.ext; simp
  | ⟨3, _⟩ => apply Fin.ext; simp [Fin.rev]; omega

/-- **The upper-left corner.** The first 2 × 2 block of a face, turned a half turn, is the last 2 × 2 block of the
    whole face turned a half turn: both read entry (1 - i, 1 - j). -/
theorem corner_eq (t : SF.Idx → α)
    (hs : SF.Slices ![0, 0, 0, 0] SQ) (hs' : SF.Slices ![0, 0, 126, 126] SQ) :
    Host.reverse [3] (Host.reverse [2] (extractStridedSlice SQ ![0, 0, 0, 0] t hs))
      = extractStridedSlice SQ ![0, 0, 126, 126] (Host.reverse [3] (Host.reverse [2] t)) hs' := by
  funext q
  obtain ⟨a, b, i, j, rfl⟩ : ∃ (a : Fin 8) (b : Fin 32) (i : Fin 2) (j : Fin 2), q = ix4 a b i j :=
    ⟨_, _, _, _, eq_ix4 (n0 := 8) (n1 := 32) (n2 := 2) (n3 := 2) q⟩
  rw [reverse3_apply, reverse2_apply, slice_apply4, slice_apply4, reverse3_apply, reverse2_apply]
  congr 1
  funext c
  have hi := i.isLt
  have hj := j.isLt
  match c with
  | ⟨0, _⟩ => apply Fin.ext; simp
  | ⟨1, _⟩ => apply Fin.ext; simp
  | ⟨2, _⟩ => apply Fin.ext; simp [Fin.rev]; omega
  | ⟨3, _⟩ => apply Fin.ext; simp [Fin.rev]; omega

/-- **The left slab.** The first two rows of a face, turned a quarter turn clockwise, are the last two columns of
    the whole face turned a quarter turn clockwise: both read entry (1 - j, i). -/
theorem slab_eq (t : SF.Idx → α)
    (hs : SF.Slices ![0, 0, 0, 0] ST) (ht : ST.Transposes [0, 1, 3, 2] SC)
    (ht' : SF.Transposes [0, 1, 3, 2] SF) (hs' : SF.Slices ![0, 0, 0, 126] SC) :
    Host.reverse [3] (transpose SC [0, 1, 3, 2] (extractStridedSlice ST ![0, 0, 0, 0] t hs) ht)
      = extractStridedSlice SC ![0, 0, 0, 126] (Host.reverse [3] (transpose SF [0, 1, 3, 2] t ht')) hs' := by
  funext q
  obtain ⟨a, b, i, j, rfl⟩ : ∃ (a : Fin 8) (b : Fin 32) (i : Fin 128) (j : Fin 2), q = ix4 a b i j :=
    ⟨_, _, _, _, eq_ix4 (n0 := 8) (n1 := 32) (n2 := 128) (n3 := 2) q⟩
  rw [reverse3_apply, transpose_apply4, slice_apply4, slice_apply4, reverse3_apply, transpose_apply4]
  congr 1
  funext c
  have hi := i.isLt
  have hj := j.isLt
  match c with
  | ⟨0, _⟩ => apply Fin.ext; simp
  | ⟨1, _⟩ => apply Fin.ext; simp
  | ⟨2, _⟩ => apply Fin.ext; simp [Fin.rev]; omega
  | ⟨3, _⟩ => apply Fin.ext; simp

/-- Concatenations of equal pieces are equal, whatever proofs of the shape relation they carry. -/
theorem concat3_congr {x1 x1' : SQ.Idx → α} {x2 x2' : SC.Idx → α} {x3 x3' : SQ.Idx → α}
    (h1 : x1 = x1') (h2 : x2 = x2') (h3 : x3 = x3')
    (hc hc' : Shape.Concatenates [SQ, SC, SQ] SL 2) :
    concatenate SL 2 [⟨SQ, x1⟩, ⟨SC, x2⟩, ⟨SQ, x3⟩] hc = concatenate SL 2 [⟨SQ, x1'⟩, ⟨SC, x2'⟩, ⟨SQ, x3'⟩] hc' := by
  subst h1 h2 h3
  rfl

/-- **A side strip.** Three pieces (a corner, a slab, a corner) written as row windows at rows 0, 2 and 130 into any
    132-row array are the three pieces laid end to end. -/
theorem strip_eq
    (d1 : ScatterDims SL ⟨1, ![1]⟩ SQ) (d2 : ScatterDims SL ⟨1, ![1]⟩ SC) (d3 : ScatterDims SL ⟨1, ![1]⟩ SQ)
    (hd1 : d1.updateWindowDims = [0, 1, 2, 3] ∧ d1.insertedWindowDims = [] ∧ d1.scatterDimsToOperandDims = [2] ∧ d1.indexVectorDim = 0)
    (hd2 : d2.updateWindowDims = [0, 1, 2, 3] ∧ d2.insertedWindowDims = [] ∧ d2.scatterDimsToOperandDims = [2] ∧ d2.indexVectorDim = 0)
    (hd3 : d3.updateWindowDims = [0, 1, 2, 3] ∧ d3.insertedWindowDims = [] ∧ d3.scatterDimsToOperandDims = [2] ∧ d3.indexVectorDim = 0)
    (z : SL.Idx → α) (i1 i2 i3 : IVec ⟨1, ![1]⟩ 32)
    (hi1 : ∀ k, (i1 k).toInt = ((0 : ℕ) : ℤ)) (hi2 : ∀ k, (i2 k).toInt = ((2 : ℕ) : ℤ)) (hi3 : ∀ k, (i3 k).toInt = ((130 : ℕ) : ℤ))
    (x1 : SQ.Idx → α) (x2 : SC.Idx → α) (x3 : SQ.Idx → α)
    (hc : Shape.Concatenates [SQ, SC, SQ] SL 2) :
    Host.scatter d3 (fun _ b => b) (Host.scatter d2 (fun _ b => b) (Host.scatter d1 (fun _ b => b) z i1 x1) i2 x2) i3 x3
      = concatenate SL 2 [⟨SQ, x1⟩, ⟨SC, x2⟩, ⟨SQ, x3⟩] hc :=
  Cert.LibConcat3.windowSet3_eq_concat3 (A := 8) (B := 32) (H1 := 2) (H2 := 128) (H3 := 2) (H := 132) (W := 2)
    d1 d2 d3 hd1 hd2 hd3 z i1 i2 i3 x1 x2 x3 0 2 130 rfl rfl rfl hi1 hi2 hi3 hc rfl

/-- **The left strip.** Cutting the corner and the slab out first and turning them, then writing the three pieces as
    row windows into any 132-row array, gives what turning the whole faces, cutting after and concatenating gives. -/
theorem left_eq
    (d1 : ScatterDims SL ⟨1, ![1]⟩ SQ) (d2 : ScatterDims SL ⟨1, ![1]⟩ SC) (d3 : ScatterDims SL ⟨1, ![1]⟩ SQ)
    (hd1 : d1.updateWindowDims = [0, 1, 2, 3] ∧ d1.insertedWindowDims = [] ∧ d1.scatterDimsToOperandDims = [2] ∧ d1.indexVectorDim = 0)
    (hd2 : d2.updateWindowDims = [0, 1, 2, 3] ∧ d2.insertedWindowDims = [] ∧ d2.scatterDimsToOperandDims = [2] ∧ d2.indexVectorDim = 0)
    (hd3 : d3.updateWindowDims = [0, 1, 2, 3] ∧ d3.insertedWindowDims = [] ∧ d3.scatterDimsToOperandDims = [2] ∧ d3.indexVectorDim = 0)
    (z : SL.Idx → α) (i1 i2 i3 : IVec ⟨1, ![1]⟩ 32)
    (hi1 : ∀ k, (i1 k).toInt = ((0 : ℕ) : ℤ)) (hi2 : ∀ k, (i2 k).toInt = ((2 : ℕ) : ℤ)) (hi3 : ∀ k, (i3 k).toInt = ((130 : ℕ) : ℤ))
    (tl lft : SF.Idx → α)
    (hq : SF.Slices ![0, 0, 0, 0] SQ) (hr : SF.Slices ![0, 0, 0, 0] ST) (htr : ST.Transposes [0, 1, 3, 2] SC)
    (hb : SF.Slices ![0, 0, 0, 126] SQ)
    (hq' : SF.Slices ![0, 0, 126, 126] SQ) (htr' : SF.Transposes [0, 1, 3, 2] SF) (hc' : SF.Slices ![0, 0, 0, 126] SC)
    (hb' : SF.Slices ![0, 0, 0, 126] SQ)
    (hc : Shape.Concatenates [SQ, SC, SQ] SL 2) :
    Host.scatter d3 (fun _ b => b)
        (Host.scatter d2 (fun _ b => b)
          (Host.scatter d1 (fun _ b => b) z i1 (Host.reverse [3] (Host.reverse [2] (extractStridedSlice SQ ![0, 0, 0, 0] tl hq))))
          i2 (Host.reverse [3] (transpose SC [0, 1, 3, 2] (extractStridedSlice ST ![0, 0, 0, 0] lft hr) htr)))
        i3 (extractStridedSlice SQ ![0, 0, 0, 126] lft hb)
      = concatenate SL 2
          [⟨SQ, extractStridedSlice SQ ![0, 0, 126, 126] (Host.reverse [3] (Host.reverse [2] tl)) hq'⟩,
           ⟨SC, extractStridedSlice SC ![0, 0, 0, 126] (Host.reverse [3] (transpose SF [0, 1, 3, 2] lft htr')) hc'⟩,
           ⟨SQ, extractStridedSlice SQ ![0, 0, 0, 126] lft hb'⟩] hc :=
  (strip_eq d1 d2 d3 hd1 hd2 hd3 z i1 i2 i3 hi1 hi2 hi3 _ _ _ hc).trans
    (concat3_congr (corner_eq tl hq hq') (slab_eq lft hr htr htr' hc') rfl hc hc)

/-! ## The strips as functions of the faces -/

noncomputable section Kinds

/-- The whole input: 96 = 8 batches × 12 faces. -/
abbrev SX : Shape := ⟨4, ![96, 32, 128, 128]⟩
/-- The input with batch and face as separate axes. -/
abbrev S12 : Shape := ⟨5, ![8, 12, 32, 128, 128]⟩
/-- One face of every batch, the face axis kept as a unit axis. -/
abbrev S1F : Shape := ⟨5, ![8, 1, 32, 128, 128]⟩

/-- Face `k` of every batch: the input with batch and face separated, cut at face `k`, the unit axis dropped. -/
def face (x : SX.Idx → α) (k : ℕ) (hk : S12.Slices ![0, k, 0, 0, 0] S1F := by decide) : SF.Idx → α :=
  shapeCast SF (extractStridedSlice S1F ![0, k, 0, 0, 0] (shapeCast S12 x (by decide)) hk) (by decide)

/-- The top strip, cutting first: the first two columns of the face above, turned a quarter turn. -/
def kTop (t : SF.Idx → α) : ST.Idx → α :=
  transpose ST [0, 1, 3, 2] (Host.reverse [3] (extractStridedSlice SC ![0, 0, 0, 0] t (by decide))) (by decide)

/-- The top strip, turning first: the last two rows of the face above turned a quarter turn. -/
def rTop (t : SF.Idx → α) : ST.Idx → α :=
  extractStridedSlice ST ![0, 0, 126, 0] (transpose SF [0, 1, 3, 2] (Host.reverse [3] t) (by decide)) (by decide)

theorem kTop_eq_rTop (t : SF.Idx → α) : kTop t = rTop t := top_eq t _ _ _ _

/-- The bottom strip: the first two rows of the face below (the same on both sides). -/
def bottom (b : SF.Idx → α) : ST.Idx → α := extractStridedSlice ST ![0, 0, 0, 0] b (by decide)

/-- The left strip, cutting first and writing three row windows into `z`. -/
def kLeft (d1 : ScatterDims SL ⟨1, ![1]⟩ SQ) (d2 : ScatterDims SL ⟨1, ![1]⟩ SC) (d3 : ScatterDims SL ⟨1, ![1]⟩ SQ)
    (z : SL.Idx → α) (i1 i2 i3 : IVec ⟨1, ![1]⟩ 32) (tl lft : SF.Idx → α) : SL.Idx → α :=
  Host.scatter d3 (fun _ b => b)
    (Host.scatter d2 (fun _ b => b)
      (Host.scatter d1 (fun _ b => b) z i1 (Host.reverse [3] (Host.reverse [2] (extractStridedSlice SQ ![0, 0, 0, 0] tl (by decide)))))
      i2 (Host.reverse [3] (transpose SC [0, 1, 3, 2] (extractStridedSlice ST ![0, 0, 0, 0] lft (by decide)) (by decide))))
    i3 (extractStridedSlice SQ ![0, 0, 0, 126] lft (by decide))

/-- The left strip, turning first and concatenating. -/
def rLeft (tl lft : SF.Idx → α) : SL.Idx → α :=
  concatenate SL 2
    [⟨SQ, extractStridedSlice SQ ![0, 0, 126, 126] (Host.reverse [3] (Host.reverse [2] tl)) (by decide)⟩,
     ⟨SC, extractStridedSlice SC ![0, 0, 0, 126] (Host.reverse [3] (transpose SF [0, 1, 3, 2] lft (by decide))) (by decide)⟩,
     ⟨SQ, extractStridedSlice SQ ![0, 0, 0, 126] lft (by decide)⟩] (show Shape.Concatenates [SQ, SC, SQ] SL 2 by decide)

/-- The right strip, written as three row windows into `z`. -/
def kRight (d1 : ScatterDims SL ⟨1, ![1]⟩ SQ) (d2 : ScatterDims SL ⟨1, ![1]⟩ SC) (d3 : ScatterDims SL ⟨1, ![1]⟩ SQ)
    (z : SL.Idx → α) (i1 i2 i3 : IVec ⟨1, ![1]⟩ 32) (tr rgt br : SF.Idx → α) : SL.Idx → α :=
  Host.scatter d3 (fun _ b => b)
    (Host.scatter d2 (fun _ b => b)
      (Host.scatter d1 (fun _ b => b) z i1 (extractStridedSlice SQ ![0, 0, 126, 0] tr (by decide)))
      i2 (extractStridedSlice SC ![0, 0, 0, 0] rgt (by decide)))
    i3 (extractStridedSlice SQ ![0, 0, 0, 0] br (by decide))

/-- The right strip, concatenated. -/
def rRight (tr rgt br : SF.Idx → α) : SL.Idx → α :=
  concatenate SL 2
    [⟨SQ, extractStridedSlice SQ ![0, 0, 126, 0] tr (by decide)⟩,
     ⟨SC, extractStridedSlice SC ![0, 0, 0, 0] rgt (by decide)⟩,
     ⟨SQ, extractStridedSlice SQ ![0, 0, 0, 0] br (by decide)⟩] (show Shape.Concatenates [SQ, SC, SQ] SL 2 by decide)

theorem kLeft_eq_rLeft (d1 : ScatterDims SL ⟨1, ![1]⟩ SQ) (d2 : ScatterDims SL ⟨1, ![1]⟩ SC) (d3 : ScatterDims SL ⟨1, ![1]⟩ SQ)
    (hd1 : d1.updateWindowDims = [0, 1, 2, 3] ∧ d1.insertedWindowDims = [] ∧ d1.scatterDimsToOperandDims = [2] ∧ d1.indexVectorDim = 0)
    (hd2 : d2.updateWindowDims = [0, 1, 2, 3] ∧ d2.insertedWindowDims = [] ∧ d2.scatterDimsToOperandDims = [2] ∧ d2.indexVectorDim = 0)
    (hd3 : d3.updateWindowDims = [0, 1, 2, 3] ∧ d3.insertedWindowDims = [] ∧ d3.scatterDimsToOperandDims = [2] ∧ d3.indexVectorDim = 0)
    (z : SL.Idx → α) (i1 i2 i3 : IVec ⟨1, ![1]⟩ 32)
    (hi1 : ∀ k, (i1 k).toInt = ((0 : ℕ) : ℤ)) (hi2 : ∀ k, (i2 k).toInt = ((2 : ℕ) : ℤ)) (hi3 : ∀ k, (i3 k).toInt = ((130 : ℕ) : ℤ))
    (tl lft : SF.Idx → α) : kLeft d1 d2 d3 z i1 i2 i3 tl lft = rLeft tl lft :=
  left_eq d1 d2 d3 hd1 hd2 hd3 z i1 i2 i3 hi1 hi2 hi3 tl lft _ _ _ _ _ _ _ _ _

theorem kRight_eq_rRight (d1 : ScatterDims SL ⟨1, ![1]⟩ SQ) (d2 : ScatterDims SL ⟨1, ![1]⟩ SC) (d3 : ScatterDims SL ⟨1, ![1]⟩ SQ)
    (hd1 : d1.updateWindowDims = [0, 1, 2, 3] ∧ d1.insertedWindowDims = [] ∧ d1.scatterDimsToOperandDims = [2] ∧ d1.indexVectorDim = 0)
    (hd2 : d2.updateWindowDims = [0, 1, 2, 3] ∧ d2.insertedWindowDims = [] ∧ d2.scatterDimsToOperandDims = [2] ∧ d2.indexVectorDim = 0)
    (hd3 : d3.updateWindowDims = [0, 1, 2, 3] ∧ d3.insertedWindowDims = [] ∧ d3.scatterDimsToOperandDims = [2] ∧ d3.indexVectorDim = 0)
    (z : SL.Idx → α) (i1 i2 i3 : IVec ⟨1, ![1]⟩ 32)
    (hi1 : ∀ k, (i1 k).toInt = ((0 : ℕ) : ℤ)) (hi2 : ∀ k, (i2 k).toInt = ((2 : ℕ) : ℤ)) (hi3 : ∀ k, (i3 k).toInt = ((130 : ℕ) : ℤ))
    (tr rgt br : SF.Idx → α) : kRight d1 d2 d3 z i1 i2 i3 tr rgt br = rRight tr rgt br :=
  strip_eq d1 d2 d3 hd1 hd2 hd3 z i1 i2 i3 hi1 hi2 hi3 _ _ _ _

end Kinds

end Cert.KindsD
-- ==== Proof.KindsP_d.lean ====
/-
  The border strips of the four northern faces, each as ONE function of the whole input (96 = 8 batches × 12 faces):
  the faces a strip reads are cut out of the input, and the strip is written from them by turning whole faces,
  cutting the turned pieces and laying them end to end. Northern face k has, going round, the northern faces k+1,
  k+2, k+3 above, diagonally and to its left, the equatorial faces k+4 below and k+5 to the right, and the southern
  face k+8 at the lower right (indices of the northern ring modulo 4, of the equatorial ring within 4..7).
-/
import proofs.«156783_j90975997264310_2_alg».proof.Proof.KindsD
import Idealize.ShloMosaic.PureOps.Ideal

noncomputable section

namespace Cert.Strips

open Idealize.ShloMosaic Cert.KindsD

/-- The top strip of face 0 as a function of the whole argument. -/
def ptop0 (x : SX.Idx → Elt Ideal .f32) : ST.Idx → Elt Ideal .f32 := rTop (face x 1)
/-- The bottom strip of face 0 as a function of the whole argument. -/
def pbottom0 (x : SX.Idx → Elt Ideal .f32) : ST.Idx → Elt Ideal .f32 := bottom (face x 4)
/-- The left strip of face 0 as a function of the whole argument. -/
def pleft0 (x : SX.Idx → Elt Ideal .f32) : SL.Idx → Elt Ideal .f32 := rLeft (face x 2) (face x 3)
/-- The right strip of face 0 as a function of the whole argument. -/
def pright0 (x : SX.Idx → Elt Ideal .f32) : SL.Idx → Elt Ideal .f32 := rRight (face x 1) (face x 5) (face x 8)

/-- The top strip of face 1 as a function of the whole argument. -/
def ptop1 (x : SX.Idx → Elt Ideal .f32) : ST.Idx → Elt Ideal .f32 := rTop (face x 2)
/-- The bottom strip of face 1 as a function of the whole argument. -/
def pbottom1 (x : SX.Idx → Elt Ideal .f32) : ST.Idx → Elt Ideal .f32 := bottom (face x 5)
/-- The left strip of face 1 as a function of the whole argument. -/
def pleft1 (x : SX.Idx → Elt Ideal .f32) : SL.Idx → Elt Ideal .f32 := rLeft (face x 3) (face x 0)
/-- The right strip of face 1 as a function of the whole argument. -/
def pright1 (x : SX.Idx → Elt Ideal .f32) : SL.Idx → Elt Ideal .f32 := rRight (face x 2) (face x 6) (face x 9)

/-- The top strip of face 2 as a function of the whole argument. -/
def ptop2 (x : SX.Idx → Elt Ideal .f32) : ST.Idx → Elt Ideal .f32 := rTop (face x 3)
/-- The bottom strip of face 2 as a function of the whole argument. -/
def pbottom2 (x : SX.Idx → Elt Ideal .f32) : ST.Idx → Elt Ideal .f32 := bottom (face x 6)
/-- The left strip of face 2 as a function of the whole argument. -/
def pleft2 (x : SX.Idx → Elt Ideal .f32) : SL.Idx → Elt Ideal .f32 := rLeft (face x 0) (face x 1)
/-- The right strip of face 2 as a function of the whole argument. -/
def pright2 (x : SX.Idx → Elt Ideal .f32) : SL.Idx → Elt Ideal .f32 := rRight (face x 3) (face x 7) (face x 10)

/-- The top strip of face 3 as a function of the whole argument. -/
def ptop3 (x : SX.Idx → Elt Ideal .f32) : ST.Idx → Elt Ideal .f32 := rTop (face x 0)
/-- The bottom strip of face 3 as a function of the whole argument. -/
def pbottom3 (x : SX.Idx → Elt Ideal .f32) : ST.Idx → Elt Ideal .f32 := bottom (face x 7)
/-- The left strip of face 3 as a function of the whole argument. -/
def pleft3 (x : SX.Idx → Elt Ideal .f32) : SL.Idx → Elt Ideal .f32 := rLeft (face x 1) (face x 2)
/-- The right strip of face 3 as a function of the whole argument. -/
def pright3 (x : SX.Idx → Elt Ideal .f32) : SL.Idx → Elt Ideal .f32 := rRight (face x 0) (face x 4) (face x 11)

end Cert.Strips

end
-- ==== Proof.LibFaceSlice.lean ====
/-
  One face of a stack of twelve, read at an index, and a block of a block.
  An array [N, C, H, W] with N = A·12 holds, for each of A batches, twelve faces one after the other. Face f is
  cut out by viewing the array as [A, 12, C, H, W], taking position f of the second axis, and dropping that axis:
  entry (b, c, i, j) of the result is entry (b·12 + f, c, i, j) of the array, because both reshapes keep row-major
  order. A unit-stride block of a unit-stride block is the block at the sum of the offsets.
-/
import Idealize.ShloMosaic.Lib.Pipeline.Value
import Idealize.ShloMosaic.Lib.ValueIdx
import proofs.«156783_j90975997264310_2_alg».proof.Proof.LibQuarterTurns

namespace Cert.LibFaceSlice

open Idealize.ShloMosaic Idealize.ShloMosaic.ValueIdx

/-- Face `f` of a stack of twelve, read at an index. -/
theorem face_apply {α : Type} {A C H W N : ℕ} (x : (⟨4, ![N, C, H, W]⟩ : Shape).Idx → α) (f : ℕ) (hf : f < 12)
    (h1 : (⟨4, ![N, C, H, W]⟩ : Shape).ShapeCasts ⟨5, ![A, 12, C, H, W]⟩)
    (h2 : (⟨5, ![A, 12, C, H, W]⟩ : Shape).Slices ![0, f, 0, 0, 0] ⟨5, ![A, 1, C, H, W]⟩)
    (h3 : (⟨5, ![A, 1, C, H, W]⟩ : Shape).ShapeCasts ⟨4, ![A, C, H, W]⟩)
    (b : Fin A) (c : Fin C) (i : Fin H) (j : Fin W) (n : Fin N) (hn : n.val = b.val * 12 + f) :
    shapeCast ⟨4, ![A, C, H, W]⟩ (extractStridedSlice ⟨5, ![A, 1, C, H, W]⟩ ![0, f, 0, 0, 0] (shapeCast ⟨5, ![A, 12, C, H, W]⟩ x h1) h2) h3 (ix4 b c i j) = x (ix4 n c i j) := by
  refine (shapeCast_apply _ h3 (ix4 b c i j) (ix5 b 0 c i j) ?_).trans ?_
  · rw [Shape.rowMajor_val_five, Shape.rowMajor_val_four]
    show (((b.val * 1 + 0) * C + c.val) * H + i.val) * W + j.val = ((b.val * C + c.val) * H + i.val) * W + j.val
    rw [Nat.mul_one, Nat.add_zero]
  · refine (extractStridedSlice_apply _ _ h2 (ix5 b 0 c i j) (ix5 b (⟨f, hf⟩ : Fin 12) c i j) (fun e => ?_)).trans ?_
    · match e with
      | ⟨0, _⟩ => exact (Nat.zero_add _).symm
      | ⟨1, _⟩ => rfl
      | ⟨2, _⟩ => exact (Nat.zero_add _).symm
      | ⟨3, _⟩ => exact (Nat.zero_add _).symm
      | ⟨4, _⟩ => exact (Nat.zero_add _).symm
    · refine shapeCast_apply x h1 (ix5 b (⟨f, hf⟩ : Fin 12) c i j) (ix4 n c i j) ?_
      rw [Shape.rowMajor_val_five, Shape.rowMajor_val_four]
      show ((n.val * C + c.val) * H + i.val) * W + j.val = (((b.val * 12 + f) * C + c.val) * H + i.val) * W + j.val
      rw [hn]

/-- The same with the inner reshape written as a function of the index. -/
theorem face_apply' {α : Type} {A C H W N : ℕ} (x : (⟨4, ![N, C, H, W]⟩ : Shape).Idx → α) (f : ℕ) (hf : f < 12)
    (h1 : (⟨4, ![N, C, H, W]⟩ : Shape).ShapeCasts ⟨5, ![A, 12, C, H, W]⟩)
    (h2 : (⟨5, ![A, 12, C, H, W]⟩ : Shape).Slices ![0, f, 0, 0, 0] ⟨5, ![A, 1, C, H, W]⟩)
    (h3 : (⟨5, ![A, 1, C, H, W]⟩ : Shape).ShapeCasts ⟨4, ![A, C, H, W]⟩)
    (b : Fin A) (c : Fin C) (i : Fin H) (j : Fin W) (n : Fin N) (hn : n.val = b.val * 12 + f) :
    shapeCast ⟨4, ![A, C, H, W]⟩ (extractStridedSlice ⟨5, ![A, 1, C, H, W]⟩ ![0, f, 0, 0, 0]
      (fun k => shapeCast ⟨5, ![A, 12, C, H, W]⟩ x h1 k) h2) h3 (ix4 b c i j) = x (ix4 n c i j) :=
  face_apply x f hf h1 h2 h3 b c i j n hn

section SliceSlice
variable {α : Type} {A B H W A1 B1 h1 w1 A2 B2 h2 w2 : ℕ} {a1 b1 r1 c1 a2 b2 r2 c2 : ℕ}

/-- A block of a block is the block at the sum of the offsets. -/
theorem slice_slice (x : (⟨4, ![A, B, H, W]⟩ : Shape).Idx → α)
    (hs1 : (⟨4, ![A, B, H, W]⟩ : Shape).Slices ![a1, b1, r1, c1] ⟨4, ![A1, B1, h1, w1]⟩)
    (hs2 : (⟨4, ![A1, B1, h1, w1]⟩ : Shape).Slices ![a2, b2, r2, c2] ⟨4, ![A2, B2, h2, w2]⟩)
    (hs : (⟨4, ![A, B, H, W]⟩ : Shape).Slices ![a1 + a2, b1 + b2, r1 + r2, c1 + c2] ⟨4, ![A2, B2, h2, w2]⟩) :
    extractStridedSlice ⟨4, ![A2, B2, h2, w2]⟩ ![a2, b2, r2, c2]
        (extractStridedSlice ⟨4, ![A1, B1, h1, w1]⟩ ![a1, b1, r1, c1] x hs1) hs2
      = extractStridedSlice ⟨4, ![A2, B2, h2, w2]⟩ ![a1 + a2, b1 + b2, r1 + r2, c1 + c2] x hs := by
  funext q
  obtain ⟨a, b, i, j, rfl⟩ : ∃ (a : Fin A2) (b : Fin B2) (i : Fin h2) (j : Fin w2), q = ix4 a b i j :=
    ⟨_, _, _, _, eq_ix4 (n0 := A2) (n1 := B2) (n2 := h2) (n3 := w2) q⟩
  rw [Cert.LibQuarterTurns.slice_apply4, Cert.LibQuarterTurns.slice_apply4, Cert.LibQuarterTurns.slice_apply4]
  refine congrArg x (Cert.LibQuarterTurns.ix4_congr ?_ ?_ ?_ ?_) <;> simp only [] <;> omega

/-- The same with the combined offsets given by equations, so that it applies to offsets printed as numerals. -/
theorem slice_slice' {a b r c : ℕ} (x : (⟨4, ![A, B, H, W]⟩ : Shape).Idx → α)
    (hs1 : (⟨4, ![A, B, H, W]⟩ : Shape).Slices ![a1, b1, r1, c1] ⟨4, ![A1, B1, h1, w1]⟩)
    (hs2 : (⟨4, ![A1, B1, h1, w1]⟩ : Shape).Slices ![a2, b2, r2, c2] ⟨4, ![A2, B2, h2, w2]⟩)
    (hs : (⟨4, ![A, B, H, W]⟩ : Shape).Slices ![a, b, r, c] ⟨4, ![A2, B2, h2, w2]⟩)
    (ea : a = a1 + a2) (eb : b = b1 + b2) (er : r = r1 + r2) (ec : c = c1 + c2) :
    extractStridedSlice ⟨4, ![A2, B2, h2, w2]⟩ ![a2, b2, r2, c2]
        (extractStridedSlice ⟨4, ![A1, B1, h1, w1]⟩ ![a1, b1, r1, c1] x hs1) hs2
      = extractStridedSlice ⟨4, ![A2, B2, h2, w2]⟩ ![a, b, r, c] x hs := by
  subst ea eb er ec
  exact slice_slice x hs1 hs2 hs

end SliceSlice

end Cert.LibFaceSlice
-- ==== Proof.KindsE.lean ====
/-
  The four border strips of an equatorial face, written two ways, as functions of the neighbouring faces they read.

  Top and bottom strips are the last two rows of the face above and the first two rows of the face below, the same
  block cut either way. A left or right strip is 132 rows of 2 columns: a 2 × 2 corner, a 128 × 2 slab of a
  neighbouring face, and another 2 × 2 corner. One way writes the three pieces as row windows at rows 0, 2 and 130
  into an array of zeros; the other lays them end to end. The windows cover all 132 rows, so the two agree.

  One corner of each side strip is interpolated: a 2 × 2 array of zeros receives four writes, the entry next to the
  face's own corner and the far entry each the mean 0.5·a + 0.5·b of one entry of each of two neighbouring faces, the
  other two a single entry of one face. The entries are taken either from 2 × 2 corner blocks cut out first
  (a block of a block) or from the whole faces directly; a block of a block is the block at the sum of the offsets,
  so the same entries are written at the same places.
-/
import Idealize.ShloMosaic.Lib.Pipeline.Value
import Idealize.ShloMosaic.Lib.ValueIdx
import Idealize.ShloMosaic.Lib.StableHlo.Run
import proofs.«156783_j90975997264310_2_alg».proof.Proof.LibWindowScatter
import proofs.«156783_j90975997264310_2_alg».proof.Proof.LibConcat3
import proofs.«156783_j90975997264310_2_alg».proof.Proof.LibFaceSlice

noncomputable section

namespace Cert.KindsE

open Idealize.ShloMosaic Idealize.ShloMosaic.ValueIdx

variable {F : FTy → Type} [FloatOps F]

/-- The whole argument: 8 batches of 12 faces. -/
abbrev SX : Shape := ⟨4, ![96, 32, 128, 128]⟩
/-- The argument with batch and face apart. -/
abbrev S5 : Shape := ⟨5, ![8, 12, 32, 128, 128]⟩
/-- One face of every batch, the face axis kept. -/
abbrev S5f : Shape := ⟨5, ![8, 1, 32, 128, 128]⟩
/-- A face of every batch: 8 batches, 32 channels, 128 rows, 128 columns. -/
abbrev SF : Shape := ⟨4, ![8, 32, 128, 128]⟩
/-- A top or bottom strip: 2 rows. -/
abbrev ST : Shape := ⟨4, ![8, 32, 2, 128]⟩
/-- A slab of 2 columns. -/
abbrev SC : Shape := ⟨4, ![8, 32, 128, 2]⟩
/-- A 2 × 2 corner. -/
abbrev SQ : Shape := ⟨4, ![8, 32, 2, 2]⟩
/-- A left or right strip: 132 rows of 2 columns. -/
abbrev SL : Shape := ⟨4, ![8, 32, 132, 2]⟩
/-- One entry per batch and channel, as a 1 × 1 block. -/
abbrev SP : Shape := ⟨4, ![8, 32, 1, 1]⟩
/-- One entry per batch and channel. -/
abbrev SV : Shape := ⟨2, ![8, 32]⟩
/-- One entry per batch and channel, as a row or column of length one. -/
abbrev SW : Shape := ⟨3, ![8, 32, 1]⟩
/-- A scalar. -/
abbrev S0 : Shape := ⟨0, ![]⟩
/-- One start index. -/
abbrev I1 : Shape := ⟨1, ![1]⟩
/-- Two start indices. -/
abbrev I2 : Shape := ⟨1, ![2]⟩

/-- Face `k` of every batch. -/
def face (k : ℕ) (x : SX.Idx → F .f32) (h2 : S5.Slices ![0, k, 0, 0, 0] S5f := by decide) : SF.Idx → F .f32 :=
  fun i => shapeCast SF (extractStridedSlice S5f ![0, k, 0, 0, 0] (fun i => shapeCast S5 x (by decide) i) h2) (by decide) i

/-- A one-entry index vector holding `n`. -/
def ivec (n : BitVec 32) : IVec I1 32 := broadcastInDim I1 (![] : Fin 0 → Fin I1.rank) (by decide) (constantI S0 32 n)

/-- Two one-entry index vectors joined: a (row, column) start. -/
def idx2 (a b : IVec I1 32) : IVec I2 32 := concatenate I2 0 [⟨I1, a⟩, ⟨I1, b⟩] (show Shape.Concatenates [I1, I1] I2 0 by decide)

theorem idx2_eq (a b : IVec I1 32) (hc : Shape.Concatenates (([⟨I1, a⟩, ⟨I1, b⟩] : List ((s : Shape) × (s.Idx → BitVec 32))).map (·.1)) I2 0) :
    concatenate I2 0 [⟨I1, a⟩, ⟨I1, b⟩] hc = idx2 a b := rfl

/-- Three pieces laid end to end along the rows. -/
def cat3 (x1 : SQ.Idx → F .f32) (x2 : SC.Idx → F .f32) (x3 : SQ.Idx → F .f32) : SL.Idx → F .f32 :=
  concatenate SL 2 [⟨SQ, x1⟩, ⟨SC, x2⟩, ⟨SQ, x3⟩] (show Shape.Concatenates [SQ, SC, SQ] SL 2 by decide)

theorem cat3_eq (x1 : SQ.Idx → F .f32) (x2 : SC.Idx → F .f32) (x3 : SQ.Idx → F .f32)
    (hc : Shape.Concatenates (([⟨SQ, x1⟩, ⟨SC, x2⟩, ⟨SQ, x3⟩] : List ((s : Shape) × (s.Idx → F .f32))).map (·.1)) SL 2) :
    concatenate SL 2 [⟨SQ, x1⟩, ⟨SC, x2⟩, ⟨SQ, x3⟩] hc = cat3 x1 x2 x3 := rfl

/-- The dimension numbers of a row-window write of a 2 × 2 piece into a strip. -/
def dWq : ScatterDims SL I1 SQ :=
  { updateWindowDims := [0, 1, 2, 3], insertedWindowDims := [], scatterDimsToOperandDims := [2], indexVectorDim := 0, wf := by decide }
/-- The dimension numbers of a row-window write of a slab into a strip. -/
def dWc : ScatterDims SL I1 SC :=
  { updateWindowDims := [0, 1, 2, 3], insertedWindowDims := [], scatterDimsToOperandDims := [2], indexVectorDim := 0, wf := by decide }
/-- A write of one entry (per batch and channel) of a corner. -/
def dPt : ScatterDims SQ I2 SV :=
  { updateWindowDims := [0, 1], insertedWindowDims := [2, 3], scatterDimsToOperandDims := [2, 3], indexVectorDim := 0, wf := by decide }
/-- A write of a length-one piece of a row of a corner. -/
def dRow : ScatterDims SQ I2 SW :=
  { updateWindowDims := [0, 1, 2], insertedWindowDims := [2], scatterDimsToOperandDims := [2, 3], indexVectorDim := 0, wf := by decide }
/-- A write of a length-one piece of a column of a corner. -/
def dCol : ScatterDims SQ I2 SW :=
  { updateWindowDims := [0, 1, 2], insertedWindowDims := [3], scatterDimsToOperandDims := [2, 3], indexVectorDim := 0, wf := by decide }

/-- Three pieces written as row windows at rows 0, 2 and 130 into zeros. -/
def win3 (x1 : SQ.Idx → F .f32) (x2 : SC.Idx → F .f32) (x3 : SQ.Idx → F .f32) : SL.Idx → F .f32 :=
  Host.scatter dWq (fun _ b => b)
    (Host.scatter dWc (fun _ b => b)
      (Host.scatter dWq (fun _ b => b)
        (broadcastInDim SL (![] : Fin 0 → Fin SL.rank) (by decide) (constant S0 .f32 0#32))
        (ivec 0) x1)
      (ivec 2) x2)
    (ivec 130) x3

/-- The windows cover every row: the written array is the concatenation. -/
theorem win3_eq_cat3 (x1 : SQ.Idx → F .f32) (x2 : SC.Idx → F .f32) (x3 : SQ.Idx → F .f32) : win3 x1 x2 x3 = cat3 x1 x2 x3 :=
  Cert.LibConcat3.windowSet3_eq_concat3 (A := 8) (B := 32) (H1 := 2) (H2 := 128) (H3 := 2) (H := 132) (W := 2) dWq dWc dWq ⟨rfl, rfl, rfl, rfl⟩ ⟨rfl, rfl, rfl, rfl⟩ ⟨rfl, rfl, rfl, rfl⟩ _
    (ivec 0) (ivec 2) (ivec 130) x1 x2 x3 0 2 130 rfl rfl rfl (fun _ => rfl) (fun _ => rfl) (fun _ => rfl) (show Shape.Concatenates [SQ, SC, SQ] SL 2 by decide) rfl

/-- One half, per batch and channel. -/
def half : SV.Idx → F .f32 := broadcastInDim SV (![] : Fin 0 → Fin SV.rank) (by decide) (constant S0 .f32 1056964608#32)

/-- The mean of two entries. -/
def blend (p q : SV.Idx → F .f32) : SV.Idx → F .f32 := addf (mulf half p) (mulf half q)

/-- Entry (r2, c2) of the 2 × 2 block at (r1, c1) of a face, as shape `T`. -/
def ptK (T : Shape) (r1 c1 r2 c2 : ℕ) (f : SF.Idx → F .f32) (h1 : SF.Slices ![0, 0, r1, c1] SQ := by decide)
    (h2 : SQ.Slices ![0, 0, r2, c2] SP := by decide) (h3 : SP.ShapeCasts T := by decide) : T.Idx → F .f32 :=
  fun i => shapeCast T (extractStridedSlice SP ![0, 0, r2, c2] (extractStridedSlice SQ ![0, 0, r1, c1] f h1) h2) h3 i

/-- Entry (r, c) of a face, as shape `T`. -/
def ptR (T : Shape) (r c : ℕ) (f : SF.Idx → F .f32) (h : SF.Slices ![0, 0, r, c] SP := by decide) (h3 : SP.ShapeCasts T := by decide) :
    T.Idx → F .f32 :=
  fun i => shapeCast T (extractStridedSlice SP ![0, 0, r, c] f h) h3 i

/-- An entry of a corner block is the face's entry at the sum of the offsets. -/
theorem ptK_eq_ptR (T : Shape) (r1 c1 r2 c2 r c : ℕ) (f : SF.Idx → F .f32) (h1 : SF.Slices ![0, 0, r1, c1] SQ)
    (h2 : SQ.Slices ![0, 0, r2, c2] SP) (h : SF.Slices ![0, 0, r, c] SP) (h3 : SP.ShapeCasts T) (er : r = r1 + r2) (ec : c = c1 + c2) :
    ptK T r1 c1 r2 c2 f h1 h2 h3 = ptR T r c f h h3 := by
  unfold ptK ptR
  rw [Cert.LibFaceSlice.slice_slice' f h1 h2 h rfl rfl er ec]

/-- Four writes into a 2 × 2 array of zeros: one entry, a piece along one axis, a piece along the other, one entry;
    the starts are (n1a, n1b) … (n4a, n4b). -/
def corner (dA dB : ScatterDims SQ I2 SW) (n1a n1b n2a n2b n3a n3b n4a n4b : BitVec 32)
    (u1 : SV.Idx → F .f32) (u2 u3 : SW.Idx → F .f32) (u4 : SV.Idx → F .f32) : SQ.Idx → F .f32 :=
  Host.scatter dPt (fun _ b => b)
    (Host.scatter dB (fun _ b => b)
      (Host.scatter dA (fun _ b => b)
        (Host.scatter dPt (fun _ b => b)
          (broadcastInDim SQ (![] : Fin 0 → Fin SQ.rank) (by decide) (constant S0 .f32 0#32))
          (idx2 (ivec n1a) (ivec n1b)) u1)
        (idx2 (ivec n2a) (ivec n2b)) u2)
      (idx2 (ivec n3a) (ivec n3b)) u3)
    (idx2 (ivec n4a) (ivec n4b)) u4

/-- The interpolated upper-left corner, from the corner blocks of the face above (`t`, its last two rows and first
    two columns) and of the face to the left (`l`, its first two rows and last two columns). -/
def tlK (t l : SF.Idx → F .f32) : SQ.Idx → F .f32 :=
  corner dRow dCol 1 1 0 1 1 0 0 0
    (blend (ptK SV 126 0 1 0 t) (ptK SV 0 126 0 1 l)) (ptK SW 126 0 0 0 t) (ptK SW 0 126 0 0 l)
    (blend (ptK SV 126 0 0 0 t) (ptK SV 0 126 0 0 l))

/-- The interpolated upper-left corner, from the whole faces. -/
def tlR (t l : SF.Idx → F .f32) : SQ.Idx → F .f32 :=
  corner dRow dCol 1 1 0 1 1 0 0 0
    (blend (ptR SV 127 0 t) (ptR SV 0 127 l)) (ptR SW 126 0 t) (ptR SW 0 126 l)
    (blend (ptR SV 126 0 t) (ptR SV 0 126 l))

theorem tlK_eq_tlR (t l : SF.Idx → F .f32) : tlK t l = tlR t l := by
  unfold tlK tlR
  rw [ptK_eq_ptR SV 126 0 1 0 127 0 t _ _ (by decide) _ rfl rfl, ptK_eq_ptR SV 0 126 0 1 0 127 l _ _ (by decide) _ rfl rfl,
    ptK_eq_ptR SW 126 0 0 0 126 0 t _ _ (by decide) _ rfl rfl, ptK_eq_ptR SW 0 126 0 0 0 126 l _ _ (by decide) _ rfl rfl,
    ptK_eq_ptR SV 126 0 0 0 126 0 t _ _ (by decide) _ rfl rfl, ptK_eq_ptR SV 0 126 0 0 0 126 l _ _ (by decide) _ rfl rfl]

/-- The interpolated lower-right corner, from the corner blocks of the face below (`b`, its first two rows and last
    two columns) and of the face to the right (`r`, its last two rows and first two columns). -/
def brK (b r : SF.Idx → F .f32) : SQ.Idx → F .f32 :=
  corner dCol dRow 0 0 0 1 1 0 1 1
    (blend (ptK SV 0 126 0 1 b) (ptK SV 126 0 1 0 r)) (ptK SW 126 0 1 1 r) (ptK SW 0 126 1 1 b)
    (blend (ptK SV 0 126 1 1 b) (ptK SV 126 0 1 1 r))

/-- The interpolated lower-right corner, from the whole faces. -/
def brR (b r : SF.Idx → F .f32) : SQ.Idx → F .f32 :=
  corner dCol dRow 0 0 0 1 1 0 1 1
    (blend (ptR SV 0 127 b) (ptR SV 127 0 r)) (ptR SW 127 1 r) (ptR SW 1 127 b)
    (blend (ptR SV 1 127 b) (ptR SV 127 1 r))

theorem brK_eq_brR (b r : SF.Idx → F .f32) : brK b r = brR b r := by
  unfold brK brR
  rw [ptK_eq_ptR SV 0 126 0 1 0 127 b _ _ (by decide) _ rfl rfl, ptK_eq_ptR SV 126 0 1 0 127 0 r _ _ (by decide) _ rfl rfl,
    ptK_eq_ptR SW 126 0 1 1 127 1 r _ _ (by decide) _ rfl rfl, ptK_eq_ptR SW 0 126 1 1 1 127 b _ _ (by decide) _ rfl rfl,
    ptK_eq_ptR SV 0 126 1 1 1 127 b _ _ (by decide) _ rfl rfl, ptK_eq_ptR SV 126 0 1 1 127 1 r _ _ (by decide) _ rfl rfl]

/-- The top strip: the last two rows of the face above. -/
def topS (t : SF.Idx → F .f32) : ST.Idx → F .f32 := extractStridedSlice ST ![0, 0, 126, 0] t (by decide)
/-- The bottom strip: the first two rows of the face below. -/
def botS (b : SF.Idx → F .f32) : ST.Idx → F .f32 := extractStridedSlice ST ![0, 0, 0, 0] b (by decide)

/-- The last two columns of a face. -/
def colsLast (f : SF.Idx → F .f32) : SC.Idx → F .f32 := extractStridedSlice SC ![0, 0, 0, 126] f (by decide)
/-- The first two columns of a face. -/
def colsFirst (f : SF.Idx → F .f32) : SC.Idx → F .f32 := extractStridedSlice SC ![0, 0, 0, 0] f (by decide)
/-- The 2 × 2 block of a face at rows `r`…, columns `c`…. -/
def blk (r c : ℕ) (f : SF.Idx → F .f32) (h : SF.Slices ![0, 0, r, c] SQ := by decide) : SQ.Idx → F .f32 :=
  extractStridedSlice SQ ![0, 0, r, c] f h

/-- The left strip, written as windows: interpolated corner of `t` and `l`, last two columns of `l`, the
    upper-right block of the lower-left face `bl`. -/
def leftK (t l bl : SF.Idx → F .f32) : SL.Idx → F .f32 := win3 (tlK t l) (colsLast l) (blk 0 126 bl)
/-- The left strip, laid end to end. -/
def leftR (t l bl : SF.Idx → F .f32) : SL.Idx → F .f32 := cat3 (tlR t l) (colsLast l) (blk 0 126 bl)

theorem leftK_eq_leftR (t l bl : SF.Idx → F .f32) : leftK t l bl = leftR t l bl := by
  unfold leftK leftR
  rw [win3_eq_cat3, tlK_eq_tlR]

/-- The right strip, written as windows: the lower-left block of the upper-right face `tr`, the first two columns
    of the right face `r`, the interpolated corner of `b` and `r`. -/
def rightK (tr r b : SF.Idx → F .f32) : SL.Idx → F .f32 := win3 (blk 126 0 tr) (colsFirst r) (brK b r)
/-- The right strip, laid end to end. -/
def rightR (tr r b : SF.Idx → F .f32) : SL.Idx → F .f32 := cat3 (blk 126 0 tr) (colsFirst r) (brR b r)

theorem rightK_eq_rightR (tr r b : SF.Idx → F .f32) : rightK tr r b = rightR tr r b := by
  unfold rightK rightR
  rw [win3_eq_cat3, brK_eq_brR]

end Cert.KindsE

end
-- ==== Proof.StripsP_e.lean ====
/-
  The four border strips of each equatorial face (faces 4 to 7) as pure functions of the whole argument: the top strip
  is the last two rows of the face above, the bottom strip the first two rows of the face below; a side strip is a
  2 × 2 corner, a 128 × 2 slab of a neighbouring face and another 2 × 2 corner laid end to end, one corner of each
  side strip interpolated from two neighbouring faces.
-/
import proofs.«156783_j90975997264310_2_alg».proof.Proof.KindsE
import Idealize.ShloMosaic.PureOps.Ideal

noncomputable section

namespace Cert.Strips

open Idealize.ShloMosaic Cert.KindsE

/-- The top strip of face 4, as a function of the whole argument. -/
def ptop4 (x : (⟨4, ![96, 32, 128, 128]⟩ : Shape).Idx → Elt Ideal .f32) : (⟨4, ![8, 32, 2, 128]⟩ : Shape).Idx → Elt Ideal .f32 :=
  topS (F := Ideal) (face 0 x)
/-- The bottom strip of face 4, as a function of the whole argument. -/
def pbottom4 (x : (⟨4, ![96, 32, 128, 128]⟩ : Shape).Idx → Elt Ideal .f32) : (⟨4, ![8, 32, 2, 128]⟩ : Shape).Idx → Elt Ideal .f32 :=
  botS (F := Ideal) (face 11 x)
/-- The left strip of face 4, as a function of the whole argument. -/
def pleft4 (x : (⟨4, ![96, 32, 128, 128]⟩ : Shape).Idx → Elt Ideal .f32) : (⟨4, ![8, 32, 132, 2]⟩ : Shape).Idx → Elt Ideal .f32 :=
  leftR (F := Ideal) (face 0 x) (face 3 x) (face 7 x)
/-- The right strip of face 4, as a function of the whole argument. -/
def pright4 (x : (⟨4, ![96, 32, 128, 128]⟩ : Shape).Idx → Elt Ideal .f32) : (⟨4, ![8, 32, 132, 2]⟩ : Shape).Idx → Elt Ideal .f32 :=
  rightR (F := Ideal) (face 5 x) (face 8 x) (face 11 x)
/-- The top strip of face 5, as a function of the whole argument. -/
def ptop5 (x : (⟨4, ![96, 32, 128, 128]⟩ : Shape).Idx → Elt Ideal .f32) : (⟨4, ![8, 32, 2, 128]⟩ : Shape).Idx → Elt Ideal .f32 :=
  topS (F := Ideal) (face 1 x)
/-- The bottom strip of face 5, as a function of the whole argument. -/
def pbottom5 (x : (⟨4, ![96, 32, 128, 128]⟩ : Shape).Idx → Elt Ideal .f32) : (⟨4, ![8, 32, 2, 128]⟩ : Shape).Idx → Elt Ideal .f32 :=
  botS (F := Ideal) (face 8 x)
/-- The left strip of face 5, as a function of the whole argument. -/
def pleft5 (x : (⟨4, ![96, 32, 128, 128]⟩ : Shape).Idx → Elt Ideal .f32) : (⟨4, ![8, 32, 132, 2]⟩ : Shape).Idx → Elt Ideal .f32 :=
  leftR (F := Ideal) (face 1 x) (face 0 x) (face 4 x)
/-- The right strip of face 5, as a function of the whole argument. -/
def pright5 (x : (⟨4, ![96, 32, 128, 128]⟩ : Shape).Idx → Elt Ideal .f32) : (⟨4, ![8, 32, 132, 2]⟩ : Shape).Idx → Elt Ideal .f32 :=
  rightR (F := Ideal) (face 6 x) (face 9 x) (face 8 x)
/-- The top strip of face 6, as a function of the whole argument. -/
def ptop6 (x : (⟨4, ![96, 32, 128, 128]⟩ : Shape).Idx → Elt Ideal .f32) : (⟨4, ![8, 32, 2, 128]⟩ : Shape).Idx → Elt Ideal .f32 :=
  topS (F := Ideal) (face 2 x)
/-- The bottom strip of face 6, as a function of the whole argument. -/
def pbottom6 (x : (⟨4, ![96, 32, 128, 128]⟩ : Shape).Idx → Elt Ideal .f32) : (⟨4, ![8, 32, 2, 128]⟩ : Shape).Idx → Elt Ideal .f32 :=
  botS (F := Ideal) (face 9 x)
/-- The left strip of face 6, as a function of the whole argument. -/
def pleft6 (x : (⟨4, ![96, 32, 128, 128]⟩ : Shape).Idx → Elt Ideal .f32) : (⟨4, ![8, 32, 132, 2]⟩ : Shape).Idx → Elt Ideal .f32 :=
  leftR (F := Ideal) (face 2 x) (face 1 x) (face 5 x)
/-- The right strip of face 6, as a function of the whole argument. -/
def pright6 (x : (⟨4, ![96, 32, 128, 128]⟩ : Shape).Idx → Elt Ideal .f32) : (⟨4, ![8, 32, 132, 2]⟩ : Shape).Idx → Elt Ideal .f32 :=
  rightR (F := Ideal) (face 7 x) (face 10 x) (face 9 x)
/-- The top strip of face 7, as a function of the whole argument. -/
def ptop7 (x : (⟨4, ![96, 32, 128, 128]⟩ : Shape).Idx → Elt Ideal .f32) : (⟨4, ![8, 32, 2, 128]⟩ : Shape).Idx → Elt Ideal .f32 :=
  topS (F := Ideal) (face 3 x)
/-- The bottom strip of face 7, as a function of the whole argument. -/
def pbottom7 (x : (⟨4, ![96, 32, 128, 128]⟩ : Shape).Idx → Elt Ideal .f32) : (⟨4, ![8, 32, 2, 128]⟩ : Shape).Idx → Elt Ideal .f32 :=
  botS (F := Ideal) (face 10 x)
/-- The left strip of face 7, as a function of the whole argument. -/
def pleft7 (x : (⟨4, ![96, 32, 128, 128]⟩ : Shape).Idx → Elt Ideal .f32) : (⟨4, ![8, 32, 132, 2]⟩ : Shape).Idx → Elt Ideal .f32 :=
  leftR (F := Ideal) (face 3 x) (face 2 x) (face 6 x)
/-- The right strip of face 7, as a function of the whole argument. -/
def pright7 (x : (⟨4, ![96, 32, 128, 128]⟩ : Shape).Idx → Elt Ideal .f32) : (⟨4, ![8, 32, 132, 2]⟩ : Shape).Idx → Elt Ideal .f32 :=
  rightR (F := Ideal) (face 4 x) (face 11 x) (face 10 x)

end Cert.Strips

end
-- ==== Proof.KindsF.lean ====
/-
  The border strips of a southern face, as functions of the neighbouring faces they are cut from.

  A southern face takes its bottom strip from a neighbour turned a quarter turn counter-clockwise, the middle of its
  right strip from a neighbour turned a quarter turn clockwise, and the lower corner of its right strip from a
  neighbour turned a half turn. One program turns the whole neighbour and then cuts the strip out; the other cuts a
  thin block out first and turns only that block. Both read the same entries: a block's offsets turn with the block.
  One program assembles the 132-row side strips by writing three row windows into zeros, the other by a 3-piece
  concatenate along the rows; the windows tile the rows, so nothing of the zeros is left.
-/
import Idealize.ShloMosaic.Lib.Pipeline.Value
import Idealize.ShloMosaic.Lib.ValueIdx
import proofs.«156783_j90975997264310_2_alg».proof.Proof.LibQuarterTurns
import proofs.«156783_j90975997264310_2_alg».proof.Proof.LibConcat3

namespace Cert.KindsF

open Idealize.ShloMosaic Idealize.ShloMosaic.ValueIdx Cert.LibQuarterTurns

variable {α : Type} {A B : ℕ}

/-- Two rank-4 indices with equal coordinates are equal. -/
theorem ix4_congr {n0 n1 n2 n3 : ℕ} {a a' : Fin n0} {b b' : Fin n1} {i i' : Fin n2} {j j' : Fin n3}
    (ha : a = a') (hb : b = b') (hi : i = i') (hj : j = j') : ix4 a b i j = ix4 a' b' i' j' := by
  subst ha hb hi hj; rfl

/-! ## A turn of a thin block is the block of the turn -/

/-- Counter-clockwise quarter turn (reverse the columns, then transpose) of the last two columns of a face: the
    first two rows of the turned face. Entry `(i, j)` of either is entry `(j, 127 - i)` of the face. -/
theorem turnCCW_lastCols (f : (⟨4, ![A, B, 128, 128]⟩ : Shape).Idx → α)
    (hs : (⟨4, ![A, B, 128, 128]⟩ : Shape).Slices ![0, 0, 0, 126] ⟨4, ![A, B, 128, 2]⟩)
    (ht : (⟨4, ![A, B, 128, 2]⟩ : Shape).Transposes [0, 1, 3, 2] ⟨4, ![A, B, 2, 128]⟩)
    (ht' : (⟨4, ![A, B, 128, 128]⟩ : Shape).Transposes [0, 1, 3, 2] ⟨4, ![A, B, 128, 128]⟩)
    (hs' : (⟨4, ![A, B, 128, 128]⟩ : Shape).Slices ![0, 0, 0, 0] ⟨4, ![A, B, 2, 128]⟩) :
    transpose ⟨4, ![A, B, 2, 128]⟩ [0, 1, 3, 2] (Host.reverse [3] (extractStridedSlice ⟨4, ![A, B, 128, 2]⟩ ![0, 0, 0, 126] f hs)) ht
      = extractStridedSlice ⟨4, ![A, B, 2, 128]⟩ ![0, 0, 0, 0] (transpose ⟨4, ![A, B, 128, 128]⟩ [0, 1, 3, 2] (Host.reverse [3] f) ht') hs' := by
  funext q
  obtain ⟨a, b, i, j, rfl⟩ : ∃ a b i j, q = ix4 a b i j := ⟨_, _, _, _, eq_ix4 _⟩
  rw [transpose_apply4, reverse3_apply, slice_apply4, slice_apply4, transpose_apply4, reverse3_apply]
  refine congrArg f (ix4_congr (Fin.ext ?_) (Fin.ext ?_) (Fin.ext ?_) (Fin.ext ?_)) <;> simp only [Fin.val_rev] <;> omega

/-- Clockwise quarter turn (transpose, then reverse the columns) of the last two rows of a face: the first two
    columns of the turned face. Entry `(i, j)` of either is entry `(127 - j, i)` of the face. -/
theorem turnCW_lastRows (f : (⟨4, ![A, B, 128, 128]⟩ : Shape).Idx → α)
    (hs : (⟨4, ![A, B, 128, 128]⟩ : Shape).Slices ![0, 0, 126, 0] ⟨4, ![A, B, 2, 128]⟩)
    (ht : (⟨4, ![A, B, 2, 128]⟩ : Shape).Transposes [0, 1, 3, 2] ⟨4, ![A, B, 128, 2]⟩)
    (ht' : (⟨4, ![A, B, 128, 128]⟩ : Shape).Transposes [0, 1, 3, 2] ⟨4, ![A, B, 128, 128]⟩)
    (hs' : (⟨4, ![A, B, 128, 128]⟩ : Shape).Slices ![0, 0, 0, 0] ⟨4, ![A, B, 128, 2]⟩) :
    Host.reverse [3] (transpose ⟨4, ![A, B, 128, 2]⟩ [0, 1, 3, 2] (extractStridedSlice ⟨4, ![A, B, 2, 128]⟩ ![0, 0, 126, 0] f hs) ht)
      = extractStridedSlice ⟨4, ![A, B, 128, 2]⟩ ![0, 0, 0, 0] (Host.reverse [3] (transpose ⟨4, ![A, B, 128, 128]⟩ [0, 1, 3, 2] f ht')) hs' := by
  funext q
  obtain ⟨a, b, i, j, rfl⟩ : ∃ a b i j, q = ix4 a b i j := ⟨_, _, _, _, eq_ix4 _⟩
  rw [reverse3_apply, transpose_apply4, slice_apply4, slice_apply4, reverse3_apply, transpose_apply4]
  refine congrArg f (ix4_congr (Fin.ext ?_) (Fin.ext ?_) (Fin.ext ?_) (Fin.ext ?_)) <;> simp only [Fin.val_rev] <;> omega

/-- Half turn (reverse the rows, then the columns) of the last 2×2 corner of a face: the first 2×2 corner of the
    turned face. Entry `(i, j)` of either is entry `(127 - i, 127 - j)` of the face. -/
theorem turnHalf_lastCorner (f : (⟨4, ![A, B, 128, 128]⟩ : Shape).Idx → α)
    (hs : (⟨4, ![A, B, 128, 128]⟩ : Shape).Slices ![0, 0, 126, 126] ⟨4, ![A, B, 2, 2]⟩)
    (hs' : (⟨4, ![A, B, 128, 128]⟩ : Shape).Slices ![0, 0, 0, 0] ⟨4, ![A, B, 2, 2]⟩) :
    Host.reverse [3] (Host.reverse [2] (extractStridedSlice ⟨4, ![A, B, 2, 2]⟩ ![0, 0, 126, 126] f hs))
      = extractStridedSlice ⟨4, ![A, B, 2, 2]⟩ ![0, 0, 0, 0] (Host.reverse [3] (Host.reverse [2] f)) hs' := by
  funext q
  obtain ⟨a, b, i, j, rfl⟩ : ∃ a b i j, q = ix4 a b i j := ⟨_, _, _, _, eq_ix4 _⟩
  rw [reverse3_apply, reverse2_apply, slice_apply4, slice_apply4, reverse3_apply, reverse2_apply]
  refine congrArg f (ix4_congr (Fin.ext ?_) (Fin.ext ?_) (Fin.ext ?_) (Fin.ext ?_)) <;> simp only [Fin.val_rev] <;> omega

/-! ## The right strip

Rows 0-1 come from one neighbour unturned, rows 2-129 from a neighbour turned a quarter turn clockwise, rows 130-131
from a neighbour turned a half turn. -/

/-- **The right strip of a southern face.** Writing, as row windows at rows 0, 2 and 130 into any array, a first
    piece `x1`, the clockwise quarter turn of the last two rows of `g` and the half turn of the last corner of `h`
    gives the 3-piece row concatenate of `x1`, the first two columns of `g` turned clockwise and the first corner of
    `h` turned a half turn. -/
theorem right_eq
    (d1 : ScatterDims ⟨4, ![A, B, 132, 2]⟩ ⟨1, ![1]⟩ ⟨4, ![A, B, 2, 2]⟩)
    (d2 : ScatterDims ⟨4, ![A, B, 132, 2]⟩ ⟨1, ![1]⟩ ⟨4, ![A, B, 128, 2]⟩)
    (d3 : ScatterDims ⟨4, ![A, B, 132, 2]⟩ ⟨1, ![1]⟩ ⟨4, ![A, B, 2, 2]⟩)
    (hd1 : d1.updateWindowDims = [0, 1, 2, 3] ∧ d1.insertedWindowDims = [] ∧ d1.scatterDimsToOperandDims = [2] ∧ d1.indexVectorDim = 0)
    (hd2 : d2.updateWindowDims = [0, 1, 2, 3] ∧ d2.insertedWindowDims = [] ∧ d2.scatterDimsToOperandDims = [2] ∧ d2.indexVectorDim = 0)
    (hd3 : d3.updateWindowDims = [0, 1, 2, 3] ∧ d3.insertedWindowDims = [] ∧ d3.scatterDimsToOperandDims = [2] ∧ d3.indexVectorDim = 0)
    (z : (⟨4, ![A, B, 132, 2]⟩ : Shape).Idx → α) (i1 i2 i3 : IVec ⟨1, ![1]⟩ 32)
    (hi1 : ∀ k, (i1 k).toInt = ((0 : ℕ) : ℤ)) (hi2 : ∀ k, (i2 k).toInt = ((2 : ℕ) : ℤ)) (hi3 : ∀ k, (i3 k).toInt = ((130 : ℕ) : ℤ))
    (x1 : (⟨4, ![A, B, 2, 2]⟩ : Shape).Idx → α)
    (g h : (⟨4, ![A, B, 128, 128]⟩ : Shape).Idx → α)
    (hsg : (⟨4, ![A, B, 128, 128]⟩ : Shape).Slices ![0, 0, 126, 0] ⟨4, ![A, B, 2, 128]⟩)
    (htg : (⟨4, ![A, B, 2, 128]⟩ : Shape).Transposes [0, 1, 3, 2] ⟨4, ![A, B, 128, 2]⟩)
    (htg' : (⟨4, ![A, B, 128, 128]⟩ : Shape).Transposes [0, 1, 3, 2] ⟨4, ![A, B, 128, 128]⟩)
    (hsg' : (⟨4, ![A, B, 128, 128]⟩ : Shape).Slices ![0, 0, 0, 0] ⟨4, ![A, B, 128, 2]⟩)
    (hsh : (⟨4, ![A, B, 128, 128]⟩ : Shape).Slices ![0, 0, 126, 126] ⟨4, ![A, B, 2, 2]⟩)
    (hsh' : (⟨4, ![A, B, 128, 128]⟩ : Shape).Slices ![0, 0, 0, 0] ⟨4, ![A, B, 2, 2]⟩)
    (hc : Shape.Concatenates (([⟨⟨4, ![A, B, 2, 2]⟩, x1⟩,
        ⟨⟨4, ![A, B, 128, 2]⟩, extractStridedSlice ⟨4, ![A, B, 128, 2]⟩ ![0, 0, 0, 0] (Host.reverse [3] (transpose ⟨4, ![A, B, 128, 128]⟩ [0, 1, 3, 2] g htg')) hsg'⟩,
        ⟨⟨4, ![A, B, 2, 2]⟩, extractStridedSlice ⟨4, ![A, B, 2, 2]⟩ ![0, 0, 0, 0] (Host.reverse [3] (Host.reverse [2] h)) hsh'⟩] : List ((s : Shape) × (s.Idx → α))).map (·.1)) ⟨4, ![A, B, 132, 2]⟩ 2) :
    Host.scatter d3 (fun _ b => b) (Host.scatter d2 (fun _ b => b) (Host.scatter d1 (fun _ b => b) z i1 x1) i2
        (Host.reverse [3] (transpose ⟨4, ![A, B, 128, 2]⟩ [0, 1, 3, 2] (extractStridedSlice ⟨4, ![A, B, 2, 128]⟩ ![0, 0, 126, 0] g hsg) htg))) i3
        (Host.reverse [3] (Host.reverse [2] (extractStridedSlice ⟨4, ![A, B, 2, 2]⟩ ![0, 0, 126, 126] h hsh)))
      = concatenate ⟨4, ![A, B, 132, 2]⟩ 2 [⟨⟨4, ![A, B, 2, 2]⟩, x1⟩,
        ⟨⟨4, ![A, B, 128, 2]⟩, extractStridedSlice ⟨4, ![A, B, 128, 2]⟩ ![0, 0, 0, 0] (Host.reverse [3] (transpose ⟨4, ![A, B, 128, 128]⟩ [0, 1, 3, 2] g htg')) hsg'⟩,
        ⟨⟨4, ![A, B, 2, 2]⟩, extractStridedSlice ⟨4, ![A, B, 2, 2]⟩ ![0, 0, 0, 0] (Host.reverse [3] (Host.reverse [2] h)) hsh'⟩] hc := by
  rw [turnCW_lastRows g hsg htg htg' hsg', turnHalf_lastCorner h hsh hsh']
  exact Cert.LibConcat3.windowSet3_eq_concat3 d1 d2 d3 hd1 hd2 hd3 z i1 i2 i3 _ _ _ 0 2 130 rfl rfl rfl hi1 hi2 hi3 hc rfl

/-! ## The strips as functions of the faces -/

noncomputable section Kinds

/-- A face of every batch: 8 batches, 32 channels, 128 rows, 128 columns. -/
abbrev SF : Shape := ⟨4, ![8, 32, 128, 128]⟩
/-- A top or bottom strip: 2 rows. -/
abbrev ST : Shape := ⟨4, ![8, 32, 2, 128]⟩
/-- A slab of 2 columns. -/
abbrev SC : Shape := ⟨4, ![8, 32, 128, 2]⟩
/-- A 2 × 2 corner. -/
abbrev SQ : Shape := ⟨4, ![8, 32, 2, 2]⟩
/-- A left or right strip: 132 rows of 2 columns. -/
abbrev SL : Shape := ⟨4, ![8, 32, 132, 2]⟩
/-- The whole input: 96 = 8 batches × 12 faces. -/
abbrev SX : Shape := ⟨4, ![96, 32, 128, 128]⟩
/-- The input with batch and face as separate axes. -/
abbrev S12 : Shape := ⟨5, ![8, 12, 32, 128, 128]⟩
/-- One face of every batch, the face axis kept as a unit axis. -/
abbrev S1F : Shape := ⟨5, ![8, 1, 32, 128, 128]⟩

/-- Face `k` of every batch: the input with batch and face separated, cut at face `k`, the unit axis dropped. -/
def face (x : SX.Idx → α) (k : ℕ) (hk : S12.Slices ![0, k, 0, 0, 0] S1F := by decide) : SF.Idx → α :=
  shapeCast SF (extractStridedSlice S1F ![0, k, 0, 0, 0] (shapeCast S12 x (by decide)) hk) (by decide)

/-- The top strip: the last two rows of the face above (the same on both sides). -/
def top (t : SF.Idx → α) : ST.Idx → α := extractStridedSlice ST ![0, 0, 126, 0] t (by decide)

/-- The bottom strip, cutting first: the last two columns of the face below, turned a quarter turn counter-clockwise. -/
def kBottom (b : SF.Idx → α) : ST.Idx → α :=
  transpose ST [0, 1, 3, 2] (Host.reverse [3] (extractStridedSlice SC ![0, 0, 0, 126] b (by decide))) (by decide)

/-- The bottom strip, turning first: the first two rows of the face below turned a quarter turn counter-clockwise. -/
def rBottom (b : SF.Idx → α) : ST.Idx → α :=
  extractStridedSlice ST ![0, 0, 0, 0] (transpose SF [0, 1, 3, 2] (Host.reverse [3] b) (by decide)) (by decide)

theorem kBottom_eq_rBottom (b : SF.Idx → α) : kBottom b = rBottom b := turnCCW_lastCols b _ _ _ _

/-- The left strip, written as three row windows into `z`: a corner of one neighbour, the last two columns of a
    second, a corner of a third, none of them turned. -/
def kLeft (d1 : ScatterDims SL ⟨1, ![1]⟩ SQ) (d2 : ScatterDims SL ⟨1, ![1]⟩ SC) (d3 : ScatterDims SL ⟨1, ![1]⟩ SQ)
    (z : SL.Idx → α) (i1 i2 i3 : IVec ⟨1, ![1]⟩ 32) (tl lft bl : SF.Idx → α) : SL.Idx → α :=
  Host.scatter d3 (fun _ b => b)
    (Host.scatter d2 (fun _ b => b)
      (Host.scatter d1 (fun _ b => b) z i1 (extractStridedSlice SQ ![0, 0, 126, 126] tl (by decide)))
      i2 (extractStridedSlice SC ![0, 0, 0, 126] lft (by decide)))
    i3 (extractStridedSlice SQ ![0, 0, 0, 126] bl (by decide))

/-- The left strip, concatenated. -/
def rLeft (tl lft bl : SF.Idx → α) : SL.Idx → α :=
  concatenate SL 2
    [⟨SQ, extractStridedSlice SQ ![0, 0, 126, 126] tl (by decide)⟩,
     ⟨SC, extractStridedSlice SC ![0, 0, 0, 126] lft (by decide)⟩,
     ⟨SQ, extractStridedSlice SQ ![0, 0, 0, 126] bl (by decide)⟩] (show Shape.Concatenates [SQ, SC, SQ] SL 2 by decide)

/-- The right strip, cutting first and writing three row windows into `z`. -/
def kRight (d1 : ScatterDims SL ⟨1, ![1]⟩ SQ) (d2 : ScatterDims SL ⟨1, ![1]⟩ SC) (d3 : ScatterDims SL ⟨1, ![1]⟩ SQ)
    (z : SL.Idx → α) (i1 i2 i3 : IVec ⟨1, ![1]⟩ 32) (tr rgt br : SF.Idx → α) : SL.Idx → α :=
  Host.scatter d3 (fun _ b => b)
    (Host.scatter d2 (fun _ b => b)
      (Host.scatter d1 (fun _ b => b) z i1 (extractStridedSlice SQ ![0, 0, 126, 0] tr (by decide)))
      i2 (Host.reverse [3] (transpose SC [0, 1, 3, 2] (extractStridedSlice ST ![0, 0, 126, 0] rgt (by decide)) (by decide))))
    i3 (Host.reverse [3] (Host.reverse [2] (extractStridedSlice SQ ![0, 0, 126, 126] br (by decide))))

/-- The right strip, turning first and concatenating. -/
def rRight (tr rgt br : SF.Idx → α) : SL.Idx → α :=
  concatenate SL 2
    [⟨SQ, extractStridedSlice SQ ![0, 0, 126, 0] tr (by decide)⟩,
     ⟨SC, extractStridedSlice SC ![0, 0, 0, 0] (Host.reverse [3] (transpose SF [0, 1, 3, 2] rgt (by decide))) (by decide)⟩,
     ⟨SQ, extractStridedSlice SQ ![0, 0, 0, 0] (Host.reverse [3] (Host.reverse [2] br)) (by decide)⟩] (show Shape.Concatenates [SQ, SC, SQ] SL 2 by decide)

theorem kLeft_eq_rLeft (d1 : ScatterDims SL ⟨1, ![1]⟩ SQ) (d2 : ScatterDims SL ⟨1, ![1]⟩ SC) (d3 : ScatterDims SL ⟨1, ![1]⟩ SQ)
    (hd1 : d1.updateWindowDims = [0, 1, 2, 3] ∧ d1.insertedWindowDims = [] ∧ d1.scatterDimsToOperandDims = [2] ∧ d1.indexVectorDim = 0)
    (hd2 : d2.updateWindowDims = [0, 1, 2, 3] ∧ d2.insertedWindowDims = [] ∧ d2.scatterDimsToOperandDims = [2] ∧ d2.indexVectorDim = 0)
    (hd3 : d3.updateWindowDims = [0, 1, 2, 3] ∧ d3.insertedWindowDims = [] ∧ d3.scatterDimsToOperandDims = [2] ∧ d3.indexVectorDim = 0)
    (z : SL.Idx → α) (i1 i2 i3 : IVec ⟨1, ![1]⟩ 32)
    (hi1 : ∀ k, (i1 k).toInt = ((0 : ℕ) : ℤ)) (hi2 : ∀ k, (i2 k).toInt = ((2 : ℕ) : ℤ)) (hi3 : ∀ k, (i3 k).toInt = ((130 : ℕ) : ℤ))
    (tl lft bl : SF.Idx → α) : kLeft d1 d2 d3 z i1 i2 i3 tl lft bl = rLeft tl lft bl :=
  Cert.LibConcat3.windowSet3_eq_concat3 (A := 8) (B := 32) (H1 := 2) (H2 := 128) (H3 := 2) (H := 132) (W := 2)
    d1 d2 d3 hd1 hd2 hd3 z i1 i2 i3 _ _ _ 0 2 130 rfl rfl rfl hi1 hi2 hi3 _ rfl

theorem kRight_eq_rRight (d1 : ScatterDims SL ⟨1, ![1]⟩ SQ) (d2 : ScatterDims SL ⟨1, ![1]⟩ SC) (d3 : ScatterDims SL ⟨1, ![1]⟩ SQ)
    (hd1 : d1.updateWindowDims = [0, 1, 2, 3] ∧ d1.insertedWindowDims = [] ∧ d1.scatterDimsToOperandDims = [2] ∧ d1.indexVectorDim = 0)
    (hd2 : d2.updateWindowDims = [0, 1, 2, 3] ∧ d2.insertedWindowDims = [] ∧ d2.scatterDimsToOperandDims = [2] ∧ d2.indexVectorDim = 0)
    (hd3 : d3.updateWindowDims = [0, 1, 2, 3] ∧ d3.insertedWindowDims = [] ∧ d3.scatterDimsToOperandDims = [2] ∧ d3.indexVectorDim = 0)
    (z : SL.Idx → α) (i1 i2 i3 : IVec ⟨1, ![1]⟩ 32)
    (hi1 : ∀ k, (i1 k).toInt = ((0 : ℕ) : ℤ)) (hi2 : ∀ k, (i2 k).toInt = ((2 : ℕ) : ℤ)) (hi3 : ∀ k, (i3 k).toInt = ((130 : ℕ) : ℤ))
    (tr rgt br : SF.Idx → α) : kRight d1 d2 d3 z i1 i2 i3 tr rgt br = rRight tr rgt br :=
  right_eq d1 d2 d3 hd1 hd2 hd3 z i1 i2 i3 hi1 hi2 hi3 _ rgt br _ _ _ _ _ _ _

end Kinds

end Cert.KindsF
-- ==== Proof.KindsFP_f.lean ====
/-
  The four border strips of each southern face as ONE function of the whole argument: the strip's function of the
  faces it reads (the module of the strips' kinds, in the form that turns a face first and cuts after, and
  concatenates), applied to the faces cut out of the argument.
-/
import proofs.«156783_j90975997264310_2_alg».proof.Proof.KindsF
import Idealize.ShloMosaic.PureOps.Ideal

open Idealize.ShloMosaic Cert.KindsF

noncomputable section

namespace Cert.Strips

/-- The top strip of face 8: the last two rows of face 5. -/
def ptop8 : ((⟨4, ![96, 32, 128, 128]⟩ : Shape).Idx → Elt Ideal .f32) → ((⟨4, ![8, 32, 2, 128]⟩ : Shape).Idx → Elt Ideal .f32) :=
  fun x => top (face x 5)
/-- The bottom strip of face 8: the first two rows of face 11 turned a quarter turn counter-clockwise. -/
def pbottom8 : ((⟨4, ![96, 32, 128, 128]⟩ : Shape).Idx → Elt Ideal .f32) → ((⟨4, ![8, 32, 2, 128]⟩ : Shape).Idx → Elt Ideal .f32) :=
  fun x => rBottom (face x 11)
/-- The left strip of face 8: a corner of face 0, the last two columns of face 4, a corner of face 11. -/
def pleft8 : ((⟨4, ![96, 32, 128, 128]⟩ : Shape).Idx → Elt Ideal .f32) → ((⟨4, ![8, 32, 132, 2]⟩ : Shape).Idx → Elt Ideal .f32) :=
  fun x => rLeft (face x 0) (face x 4) (face x 11)
/-- The right strip of face 8: a corner of face 9, the first two columns of face 9 turned a quarter turn
    clockwise, the first corner of face 10 turned a half turn. -/
def pright8 : ((⟨4, ![96, 32, 128, 128]⟩ : Shape).Idx → Elt Ideal .f32) → ((⟨4, ![8, 32, 132, 2]⟩ : Shape).Idx → Elt Ideal .f32) :=
  fun x => rRight (face x 9) (face x 9) (face x 10)

/-- The top strip of face 9: the last two rows of face 6. -/
def ptop9 : ((⟨4, ![96, 32, 128, 128]⟩ : Shape).Idx → Elt Ideal .f32) → ((⟨4, ![8, 32, 2, 128]⟩ : Shape).Idx → Elt Ideal .f32) :=
  fun x => top (face x 6)
/-- The bottom strip of face 9: the first two rows of face 8 turned a quarter turn counter-clockwise. -/
def pbottom9 : ((⟨4, ![96, 32, 128, 128]⟩ : Shape).Idx → Elt Ideal .f32) → ((⟨4, ![8, 32, 2, 128]⟩ : Shape).Idx → Elt Ideal .f32) :=
  fun x => rBottom (face x 8)
/-- The left strip of face 9: a corner of face 1, the last two columns of face 5, a corner of face 8. -/
def pleft9 : ((⟨4, ![96, 32, 128, 128]⟩ : Shape).Idx → Elt Ideal .f32) → ((⟨4, ![8, 32, 132, 2]⟩ : Shape).Idx → Elt Ideal .f32) :=
  fun x => rLeft (face x 1) (face x 5) (face x 8)
/-- The right strip of face 9: a corner of face 10, the first two columns of face 10 turned a quarter turn
    clockwise, the first corner of face 11 turned a half turn. -/
def pright9 : ((⟨4, ![96, 32, 128, 128]⟩ : Shape).Idx → Elt Ideal .f32) → ((⟨4, ![8, 32, 132, 2]⟩ : Shape).Idx → Elt Ideal .f32) :=
  fun x => rRight (face x 10) (face x 10) (face x 11)

/-- The top strip of face 10: the last two rows of face 7. -/
def ptop10 : ((⟨4, ![96, 32, 128, 128]⟩ : Shape).Idx → Elt Ideal .f32) → ((⟨4, ![8, 32, 2, 128]⟩ : Shape).Idx → Elt Ideal .f32) :=
  fun x => top (face x 7)
/-- The bottom strip of face 10: the first two rows of face 9 turned a quarter turn counter-clockwise. -/
def pbottom10 : ((⟨4, ![96, 32, 128, 128]⟩ : Shape).Idx → Elt Ideal .f32) → ((⟨4, ![8, 32, 2, 128]⟩ : Shape).Idx → Elt Ideal .f32) :=
  fun x => rBottom (face x 9)
/-- The left strip of face 10: a corner of face 2, the last two columns of face 6, a corner of face 9. -/
def pleft10 : ((⟨4, ![96, 32, 128, 128]⟩ : Shape).Idx → Elt Ideal .f32) → ((⟨4, ![8, 32, 132, 2]⟩ : Shape).Idx → Elt Ideal .f32) :=
  fun x => rLeft (face x 2) (face x 6) (face x 9)
/-- The right strip of face 10: a corner of face 11, the first two columns of face 11 turned a quarter turn
    clockwise, the first corner of face 8 turned a half turn. -/
def pright10 : ((⟨4, ![96, 32, 128, 128]⟩ : Shape).Idx → Elt Ideal .f32) → ((⟨4, ![8, 32, 132, 2]⟩ : Shape).Idx → Elt Ideal .f32) :=
  fun x => rRight (face x 11) (face x 11) (face x 8)

/-- The top strip of face 11: the last two rows of face 4. -/
def ptop11 : ((⟨4, ![96, 32, 128, 128]⟩ : Shape).Idx → Elt Ideal .f32) → ((⟨4, ![8, 32, 2, 128]⟩ : Shape).Idx → Elt Ideal .f32) :=
  fun x => top (face x 4)
/-- The bottom strip of face 11: the first two rows of face 10 turned a quarter turn counter-clockwise. -/
def pbottom11 : ((⟨4, ![96, 32, 128, 128]⟩ : Shape).Idx → Elt Ideal .f32) → ((⟨4, ![8, 32, 2, 128]⟩ : Shape).Idx → Elt Ideal .f32) :=
  fun x => rBottom (face x 10)
/-- The left strip of face 11: a corner of face 3, the last two columns of face 7, a corner of face 10. -/
def pleft11 : ((⟨4, ![96, 32, 128, 128]⟩ : Shape).Idx → Elt Ideal .f32) → ((⟨4, ![8, 32, 132, 2]⟩ : Shape).Idx → Elt Ideal .f32) :=
  fun x => rLeft (face x 3) (face x 7) (face x 10)
/-- The right strip of face 11: a corner of face 8, the first two columns of face 8 turned a quarter turn
    clockwise, the first corner of face 9 turned a half turn. -/
def pright11 : ((⟨4, ![96, 32, 128, 128]⟩ : Shape).Idx → Elt Ideal .f32) → ((⟨4, ![8, 32, 132, 2]⟩ : Shape).Idx → Elt Ideal .f32) :=
  fun x => rRight (face x 8) (face x 8) (face x 9)

end Cert.Strips

end
-- ==== Proof.PureStrips_c.lean ====
/-
  The 48 border strips as four families of pure functions of the whole argument, and the specification at these
  families: the padded array as one pure function of the argument.
-/
import proofs.«156783_j90975997264310_2_alg».proof.Proof.PureSpec
import proofs.«156783_j90975997264310_2_alg».proof.Proof.KindsP_d
import proofs.«156783_j90975997264310_2_alg».proof.Proof.StripsP_e
import proofs.«156783_j90975997264310_2_alg».proof.Proof.KindsFP_f

noncomputable section

namespace Cert.Spec

open Idealize.ShloMosaic

/-- Face by face, the top strip as a function of the argument. -/
def ptops : Fin 12 → X → ((⟨4, ![8, 32, 2, 128]⟩ : Shape).Idx → Elt Ideal .f32) :=
  ![Cert.Strips.ptop0, Cert.Strips.ptop1, Cert.Strips.ptop2, Cert.Strips.ptop3, Cert.Strips.ptop4, Cert.Strips.ptop5, Cert.Strips.ptop6, Cert.Strips.ptop7, Cert.Strips.ptop8, Cert.Strips.ptop9, Cert.Strips.ptop10, Cert.Strips.ptop11]

/-- Face by face, the bottom strip as a function of the argument. -/
def pbottoms : Fin 12 → X → ((⟨4, ![8, 32, 2, 128]⟩ : Shape).Idx → Elt Ideal .f32) :=
  ![Cert.Strips.pbottom0, Cert.Strips.pbottom1, Cert.Strips.pbottom2, Cert.Strips.pbottom3, Cert.Strips.pbottom4, Cert.Strips.pbottom5, Cert.Strips.pbottom6, Cert.Strips.pbottom7, Cert.Strips.pbottom8, Cert.Strips.pbottom9, Cert.Strips.pbottom10, Cert.Strips.pbottom11]

/-- Face by face, the left strip as a function of the argument. -/
def plefts : Fin 12 → X → ((⟨4, ![8, 32, 132, 2]⟩ : Shape).Idx → Elt Ideal .f32) :=
  ![Cert.Strips.pleft0, Cert.Strips.pleft1, Cert.Strips.pleft2, Cert.Strips.pleft3, Cert.Strips.pleft4, Cert.Strips.pleft5, Cert.Strips.pleft6, Cert.Strips.pleft7, Cert.Strips.pleft8, Cert.Strips.pleft9, Cert.Strips.pleft10, Cert.Strips.pleft11]

/-- Face by face, the right strip as a function of the argument. -/
def prights : Fin 12 → X → ((⟨4, ![8, 32, 132, 2]⟩ : Shape).Idx → Elt Ideal .f32) :=
  ![Cert.Strips.pright0, Cert.Strips.pright1, Cert.Strips.pright2, Cert.Strips.pright3, Cert.Strips.pright4, Cert.Strips.pright5, Cert.Strips.pright6, Cert.Strips.pright7, Cert.Strips.pright8, Cert.Strips.pright9, Cert.Strips.pright10, Cert.Strips.pright11]

/-- **The specification**: the padded array as one function of the argument. -/
def Ppad (x : X) : (⟨4, ![96, 32, 132, 132]⟩ : Shape).Idx → Elt Ideal .f32 := PpadOf ptops pbottoms plefts prights x

end Cert.Spec

end
-- ==== Proof.StripsKF0.lean ====
/-
  The four border strips of northern face 0 as the kernel program's host operations compute them: each strip's
  buffer, after the whole line of host operations, holds the strip written as a function of the faces it reads (the
  functions of the module of the strips' kinds) — the line's operations composed down to the argument.
-/
import proofs.«156783_j90975997264310_2_alg».proof.Proof.KOps
import proofs.«156783_j90975997264310_2_alg».proof.Proof.KindsD
import Idealize.ShloMosaic.PureOps.Ideal

open Idealize.ShloMosaic Idealize.ShloMosaic.StableHlo Cert.KindsD

namespace Cert.Strips.K
open Cert.KernelIdeal Cert.KernelIdeal.Gen

set_option maxHeartbeats 0 in
set_option maxRecDepth 100000 in
theorem kTop0 (M : Valuation τ sig (Elt Ideal)) :
    (StableHlo.after (Cert.KernelIdeal.Hand.kops (F := Ideal)) M (Proc.devRef .tc main_v26) : Cert.KernelIdeal.S8x32x2x128.Idx → Elt Ideal .f32)
      = kTop (face (M (Proc.devRef .tc main_arg0)) 1) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kBottom0 (M : Valuation τ sig (Elt Ideal)) :
    (StableHlo.after (Cert.KernelIdeal.Hand.kops (F := Ideal)) M (Proc.devRef .tc main_v27) : Cert.KernelIdeal.S8x32x2x128.Idx → Elt Ideal .f32)
      = bottom (face (M (Proc.devRef .tc main_arg0)) 4) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kLeft0 (M : Valuation τ sig (Elt Ideal)) :
    (StableHlo.after (Cert.KernelIdeal.Hand.kops (F := Ideal)) M (Proc.devRef .tc main_v39) : Cert.KernelIdeal.S8x32x132x2.Idx → Elt Ideal .f32)
      = kLeft scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 2) (face (M (Proc.devRef .tc main_arg0)) 3) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kRight0 (M : Valuation τ sig (Elt Ideal)) :
    (StableHlo.after (Cert.KernelIdeal.Hand.kops (F := Ideal)) M (Proc.devRef .tc main_v49) : Cert.KernelIdeal.S8x32x132x2.Idx → Elt Ideal .f32)
      = kRight scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 1) (face (M (Proc.devRef .tc main_arg0)) 5) (face (M (Proc.devRef .tc main_arg0)) 8) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

end Cert.Strips.K
-- ==== Proof.StripsKF1.lean ====
/-
  The four border strips of northern face 1 as the kernel program's host operations compute them: each strip's
  buffer, after the whole line of host operations, holds the strip written as a function of the faces it reads (the
  functions of the module of the strips' kinds) — the line's operations composed down to the argument.
-/
import proofs.«156783_j90975997264310_2_alg».proof.Proof.KOps
import proofs.«156783_j90975997264310_2_alg».proof.Proof.KindsD
import Idealize.ShloMosaic.PureOps.Ideal

open Idealize.ShloMosaic Idealize.ShloMosaic.StableHlo Cert.KindsD

namespace Cert.Strips.K
open Cert.KernelIdeal Cert.KernelIdeal.Gen

set_option maxHeartbeats 0 in
set_option maxRecDepth 100000 in
theorem kTop1 (M : Valuation τ sig (Elt Ideal)) :
    (StableHlo.after (Cert.KernelIdeal.Hand.kops (F := Ideal)) M (Proc.devRef .tc main_v51) : Cert.KernelIdeal.S8x32x2x128.Idx → Elt Ideal .f32)
      = kTop (face (M (Proc.devRef .tc main_arg0)) 2) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kBottom1 (M : Valuation τ sig (Elt Ideal)) :
    (StableHlo.after (Cert.KernelIdeal.Hand.kops (F := Ideal)) M (Proc.devRef .tc main_v52) : Cert.KernelIdeal.S8x32x2x128.Idx → Elt Ideal .f32)
      = bottom (face (M (Proc.devRef .tc main_arg0)) 5) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kLeft1 (M : Valuation τ sig (Elt Ideal)) :
    (StableHlo.after (Cert.KernelIdeal.Hand.kops (F := Ideal)) M (Proc.devRef .tc main_v64) : Cert.KernelIdeal.S8x32x132x2.Idx → Elt Ideal .f32)
      = kLeft scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 3) (face (M (Proc.devRef .tc main_arg0)) 0) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kRight1 (M : Valuation τ sig (Elt Ideal)) :
    (StableHlo.after (Cert.KernelIdeal.Hand.kops (F := Ideal)) M (Proc.devRef .tc main_v74) : Cert.KernelIdeal.S8x32x132x2.Idx → Elt Ideal .f32)
      = kRight scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 2) (face (M (Proc.devRef .tc main_arg0)) 6) (face (M (Proc.devRef .tc main_arg0)) 9) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

end Cert.Strips.K
-- ==== Proof.StripsKF2.lean ====
/-
  The four border strips of northern face 2 as the kernel program's host operations compute them: each strip's
  buffer, after the whole line of host operations, holds the strip written as a function of the faces it reads (the
  functions of the module of the strips' kinds) — the line's operations composed down to the argument.
-/
import proofs.«156783_j90975997264310_2_alg».proof.Proof.KOps
import proofs.«156783_j90975997264310_2_alg».proof.Proof.KindsD
import Idealize.ShloMosaic.PureOps.Ideal

open Idealize.ShloMosaic Idealize.ShloMosaic.StableHlo Cert.KindsD

namespace Cert.Strips.K
open Cert.KernelIdeal Cert.KernelIdeal.Gen

set_option maxHeartbeats 0 in
set_option maxRecDepth 100000 in
theorem kTop2 (M : Valuation τ sig (Elt Ideal)) :
    (StableHlo.after (Cert.KernelIdeal.Hand.kops (F := Ideal)) M (Proc.devRef .tc main_v76) : Cert.KernelIdeal.S8x32x2x128.Idx → Elt Ideal .f32)
      = kTop (face (M (Proc.devRef .tc main_arg0)) 3) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kBottom2 (M : Valuation τ sig (Elt Ideal)) :
    (StableHlo.after (Cert.KernelIdeal.Hand.kops (F := Ideal)) M (Proc.devRef .tc main_v77) : Cert.KernelIdeal.S8x32x2x128.Idx → Elt Ideal .f32)
      = bottom (face (M (Proc.devRef .tc main_arg0)) 6) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kLeft2 (M : Valuation τ sig (Elt Ideal)) :
    (StableHlo.after (Cert.KernelIdeal.Hand.kops (F := Ideal)) M (Proc.devRef .tc main_v89) : Cert.KernelIdeal.S8x32x132x2.Idx → Elt Ideal .f32)
      = kLeft scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 0) (face (M (Proc.devRef .tc main_arg0)) 1) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kRight2 (M : Valuation τ sig (Elt Ideal)) :
    (StableHlo.after (Cert.KernelIdeal.Hand.kops (F := Ideal)) M (Proc.devRef .tc main_v99) : Cert.KernelIdeal.S8x32x132x2.Idx → Elt Ideal .f32)
      = kRight scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 3) (face (M (Proc.devRef .tc main_arg0)) 7) (face (M (Proc.devRef .tc main_arg0)) 10) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

end Cert.Strips.K
-- ==== Proof.StripsKF3.lean ====
/-
  The four border strips of northern face 3 as the kernel program's host operations compute them: each strip's
  buffer, after the whole line of host operations, holds the strip written as a function of the faces it reads (the
  functions of the module of the strips' kinds) — the line's operations composed down to the argument.
-/
import proofs.«156783_j90975997264310_2_alg».proof.Proof.KOps
import proofs.«156783_j90975997264310_2_alg».proof.Proof.KindsD
import Idealize.ShloMosaic.PureOps.Ideal

open Idealize.ShloMosaic Idealize.ShloMosaic.StableHlo Cert.KindsD

namespace Cert.Strips.K
open Cert.KernelIdeal Cert.KernelIdeal.Gen

set_option maxHeartbeats 0 in
set_option maxRecDepth 100000 in
theorem kTop3 (M : Valuation τ sig (Elt Ideal)) :
    (StableHlo.after (Cert.KernelIdeal.Hand.kops (F := Ideal)) M (Proc.devRef .tc main_v101) : Cert.KernelIdeal.S8x32x2x128.Idx → Elt Ideal .f32)
      = kTop (face (M (Proc.devRef .tc main_arg0)) 0) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kBottom3 (M : Valuation τ sig (Elt Ideal)) :
    (StableHlo.after (Cert.KernelIdeal.Hand.kops (F := Ideal)) M (Proc.devRef .tc main_v102) : Cert.KernelIdeal.S8x32x2x128.Idx → Elt Ideal .f32)
      = bottom (face (M (Proc.devRef .tc main_arg0)) 7) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kLeft3 (M : Valuation τ sig (Elt Ideal)) :
    (StableHlo.after (Cert.KernelIdeal.Hand.kops (F := Ideal)) M (Proc.devRef .tc main_v114) : Cert.KernelIdeal.S8x32x132x2.Idx → Elt Ideal .f32)
      = kLeft scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 1) (face (M (Proc.devRef .tc main_arg0)) 2) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

set_option maxHeartbeats 0 in
set_option maxRecDepth 100000 in
theorem kRight3 (M : Valuation τ sig (Elt Ideal)) :
    (StableHlo.after (Cert.KernelIdeal.Hand.kops (F := Ideal)) M (Proc.devRef .tc main_v124) : Cert.KernelIdeal.S8x32x132x2.Idx → Elt Ideal .f32)
      = kRight scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 0) (face (M (Proc.devRef .tc main_arg0)) 4) (face (M (Proc.devRef .tc main_arg0)) 11) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  rfl

end Cert.Strips.K
-- ==== Proof.StripsKP_d.lean ====
/-
  The kernel program's host operations leave, in the buffer of each border strip of the four northern faces, the
  strip's function of the argument: the operations cut a piece first and turn it, and write the three pieces of a
  side strip as row windows; that agrees with turning first, cutting after and concatenating.
-/
import proofs.«156783_j90975997264310_2_alg».proof.Proof.StripsKF0
import proofs.«156783_j90975997264310_2_alg».proof.Proof.StripsKF1
import proofs.«156783_j90975997264310_2_alg».proof.Proof.StripsKF2
import proofs.«156783_j90975997264310_2_alg».proof.Proof.StripsKF3
import proofs.«156783_j90975997264310_2_alg».proof.Proof.KindsP_d

open Idealize.ShloMosaic Idealize.ShloMosaic.StableHlo Cert.KindsD

namespace Cert.Strips

theorem ktop0 (M : Valuation Cert.KernelIdeal.τ Cert.KernelIdeal.sig (Elt Ideal)) :
    (StableHlo.after (Cert.KernelIdeal.Hand.kops (F := Ideal)) M (Proc.devRef .tc Cert.KernelIdeal.main_v26) : Cert.KernelIdeal.S8x32x2x128.Idx → Elt Ideal .f32)
      = ptop0 (M (Proc.devRef .tc Cert.KernelIdeal.main_arg0)) :=
  (K.kTop0 M).trans (kTop_eq_rTop _)

theorem kbottom0 (M : Valuation Cert.KernelIdeal.τ Cert.KernelIdeal.sig (Elt Ideal)) :
    (StableHlo.after (Cert.KernelIdeal.Hand.kops (F := Ideal)) M (Proc.devRef .tc Cert.KernelIdeal.main_v27) : Cert.KernelIdeal.S8x32x2x128.Idx → Elt Ideal .f32)
      = pbottom0 (M (Proc.devRef .tc Cert.KernelIdeal.main_arg0)) :=
  K.kBottom0 M

theorem kleft0 (M : Valuation Cert.KernelIdeal.τ Cert.KernelIdeal.sig (Elt Ideal)) :
    (StableHlo.after (Cert.KernelIdeal.Hand.kops (F := Ideal)) M (Proc.devRef .tc Cert.KernelIdeal.main_v39) : Cert.KernelIdeal.S8x32x132x2.Idx → Elt Ideal .f32)
      = pleft0 (M (Proc.devRef .tc Cert.KernelIdeal.main_arg0)) :=
  (K.kLeft0 M).trans (kLeft_eq_rLeft _ _ _ ⟨rfl, rfl, rfl, rfl⟩ ⟨rfl, rfl, rfl, rfl⟩ ⟨rfl, rfl, rfl, rfl⟩ _ _ _ _ (fun _ => rfl) (fun _ => rfl) (fun _ => rfl) _ _)

theorem kright0 (M : Valuation Cert.KernelIdeal.τ Cert.KernelIdeal.sig (Elt Ideal)) :
    (StableHlo.after (Cert.KernelIdeal.Hand.kops (F := Ideal)) M (Proc.devRef .tc Cert.KernelIdeal.main_v49) : Cert.KernelIdeal.S8x32x132x2.Idx → Elt Ideal .f32)
      = pright0 (M (Proc.devRef .tc Cert.KernelIdeal.main_arg0)) :=
  (K.kRight0 M).trans (kRight_eq_rRight _ _ _ ⟨rfl, rfl, rfl, rfl⟩ ⟨rfl, rfl, rfl, rfl⟩ ⟨rfl, rfl, rfl, rfl⟩ _ _ _ _ (fun _ => rfl) (fun _ => rfl) (fun _ => rfl) _ _ _)

theorem ktop1 (M : Valuation Cert.KernelIdeal.τ Cert.KernelIdeal.sig (Elt Ideal)) :
    (StableHlo.after (Cert.KernelIdeal.Hand.kops (F := Ideal)) M (Proc.devRef .tc Cert.KernelIdeal.main_v51) : Cert.KernelIdeal.S8x32x2x128.Idx → Elt Ideal .f32)
      = ptop1 (M (Proc.devRef .tc Cert.KernelIdeal.main_arg0)) :=
  (K.kTop1 M).trans (kTop_eq_rTop _)

theorem kbottom1 (M : Valuation Cert.KernelIdeal.τ Cert.KernelIdeal.sig (Elt Ideal)) :
    (StableHlo.after (Cert.KernelIdeal.Hand.kops (F := Ideal)) M (Proc.devRef .tc Cert.KernelIdeal.main_v52) : Cert.KernelIdeal.S8x32x2x128.Idx → Elt Ideal .f32)
      = pbottom1 (M (Proc.devRef .tc Cert.KernelIdeal.main_arg0)) :=
  K.kBottom1 M

theorem kleft1 (M : Valuation Cert.KernelIdeal.τ Cert.KernelIdeal.sig (Elt Ideal)) :
    (StableHlo.after (Cert.KernelIdeal.Hand.kops (F := Ideal)) M (Proc.devRef .tc Cert.KernelIdeal.main_v64) : Cert.KernelIdeal.S8x32x132x2.Idx → Elt Ideal .f32)
      = pleft1 (M (Proc.devRef .tc Cert.KernelIdeal.main_arg0)) :=
  (K.kLeft1 M).trans (kLeft_eq_rLeft _ _ _ ⟨rfl, rfl, rfl, rfl⟩ ⟨rfl, rfl, rfl, rfl⟩ ⟨rfl, rfl, rfl, rfl⟩ _ _ _ _ (fun _ => rfl) (fun _ => rfl) (fun _ => rfl) _ _)

theorem kright1 (M : Valuation Cert.KernelIdeal.τ Cert.KernelIdeal.sig (Elt Ideal)) :
    (StableHlo.after (Cert.KernelIdeal.Hand.kops (F := Ideal)) M (Proc.devRef .tc Cert.KernelIdeal.main_v74) : Cert.KernelIdeal.S8x32x132x2.Idx → Elt Ideal .f32)
      = pright1 (M (Proc.devRef .tc Cert.KernelIdeal.main_arg0)) :=
  (K.kRight1 M).trans (kRight_eq_rRight _ _ _ ⟨rfl, rfl, rfl, rfl⟩ ⟨rfl, rfl, rfl, rfl⟩ ⟨rfl, rfl, rfl, rfl⟩ _ _ _ _ (fun _ => rfl) (fun _ => rfl) (fun _ => rfl) _ _ _)

theorem ktop2 (M : Valuation Cert.KernelIdeal.τ Cert.KernelIdeal.sig (Elt Ideal)) :
    (StableHlo.after (Cert.KernelIdeal.Hand.kops (F := Ideal)) M (Proc.devRef .tc Cert.KernelIdeal.main_v76) : Cert.KernelIdeal.S8x32x2x128.Idx → Elt Ideal .f32)
      = ptop2 (M (Proc.devRef .tc Cert.KernelIdeal.main_arg0)) :=
  (K.kTop2 M).trans (kTop_eq_rTop _)

theorem kbottom2 (M : Valuation Cert.KernelIdeal.τ Cert.KernelIdeal.sig (Elt Ideal)) :
    (StableHlo.after (Cert.KernelIdeal.Hand.kops (F := Ideal)) M (Proc.devRef .tc Cert.KernelIdeal.main_v77) : Cert.KernelIdeal.S8x32x2x128.Idx → Elt Ideal .f32)
      = pbottom2 (M (Proc.devRef .tc Cert.KernelIdeal.main_arg0)) :=
  K.kBottom2 M

theorem kleft2 (M : Valuation Cert.KernelIdeal.τ Cert.KernelIdeal.sig (Elt Ideal)) :
    (StableHlo.after (Cert.KernelIdeal.Hand.kops (F := Ideal)) M (Proc.devRef .tc Cert.KernelIdeal.main_v89) : Cert.KernelIdeal.S8x32x132x2.Idx → Elt Ideal .f32)
      = pleft2 (M (Proc.devRef .tc Cert.KernelIdeal.main_arg0)) :=
  (K.kLeft2 M).trans (kLeft_eq_rLeft _ _ _ ⟨rfl, rfl, rfl, rfl⟩ ⟨rfl, rfl, rfl, rfl⟩ ⟨rfl, rfl, rfl, rfl⟩ _ _ _ _ (fun _ => rfl) (fun _ => rfl) (fun _ => rfl) _ _)

theorem kright2 (M : Valuation Cert.KernelIdeal.τ Cert.KernelIdeal.sig (Elt Ideal)) :
    (StableHlo.after (Cert.KernelIdeal.Hand.kops (F := Ideal)) M (Proc.devRef .tc Cert.KernelIdeal.main_v99) : Cert.KernelIdeal.S8x32x132x2.Idx → Elt Ideal .f32)
      = pright2 (M (Proc.devRef .tc Cert.KernelIdeal.main_arg0)) :=
  (K.kRight2 M).trans (kRight_eq_rRight _ _ _ ⟨rfl, rfl, rfl, rfl⟩ ⟨rfl, rfl, rfl, rfl⟩ ⟨rfl, rfl, rfl, rfl⟩ _ _ _ _ (fun _ => rfl) (fun _ => rfl) (fun _ => rfl) _ _ _)

theorem ktop3 (M : Valuation Cert.KernelIdeal.τ Cert.KernelIdeal.sig (Elt Ideal)) :
    (StableHlo.after (Cert.KernelIdeal.Hand.kops (F := Ideal)) M (Proc.devRef .tc Cert.KernelIdeal.main_v101) : Cert.KernelIdeal.S8x32x2x128.Idx → Elt Ideal .f32)
      = ptop3 (M (Proc.devRef .tc Cert.KernelIdeal.main_arg0)) :=
  (K.kTop3 M).trans (kTop_eq_rTop _)

theorem kbottom3 (M : Valuation Cert.KernelIdeal.τ Cert.KernelIdeal.sig (Elt Ideal)) :
    (StableHlo.after (Cert.KernelIdeal.Hand.kops (F := Ideal)) M (Proc.devRef .tc Cert.KernelIdeal.main_v102) : Cert.KernelIdeal.S8x32x2x128.Idx → Elt Ideal .f32)
      = pbottom3 (M (Proc.devRef .tc Cert.KernelIdeal.main_arg0)) :=
  K.kBottom3 M

theorem kleft3 (M : Valuation Cert.KernelIdeal.τ Cert.KernelIdeal.sig (Elt Ideal)) :
    (StableHlo.after (Cert.KernelIdeal.Hand.kops (F := Ideal)) M (Proc.devRef .tc Cert.KernelIdeal.main_v114) : Cert.KernelIdeal.S8x32x132x2.Idx → Elt Ideal .f32)
      = pleft3 (M (Proc.devRef .tc Cert.KernelIdeal.main_arg0)) :=
  (K.kLeft3 M).trans (kLeft_eq_rLeft _ _ _ ⟨rfl, rfl, rfl, rfl⟩ ⟨rfl, rfl, rfl, rfl⟩ ⟨rfl, rfl, rfl, rfl⟩ _ _ _ _ (fun _ => rfl) (fun _ => rfl) (fun _ => rfl) _ _)

theorem kright3 (M : Valuation Cert.KernelIdeal.τ Cert.KernelIdeal.sig (Elt Ideal)) :
    (StableHlo.after (Cert.KernelIdeal.Hand.kops (F := Ideal)) M (Proc.devRef .tc Cert.KernelIdeal.main_v124) : Cert.KernelIdeal.S8x32x132x2.Idx → Elt Ideal .f32)
      = pright3 (M (Proc.devRef .tc Cert.KernelIdeal.main_arg0)) :=
  (K.kRight3 M).trans (kRight_eq_rRight _ _ _ ⟨rfl, rfl, rfl, rfl⟩ ⟨rfl, rfl, rfl, rfl⟩ ⟨rfl, rfl, rfl, rfl⟩ _ _ _ _ (fun _ => rfl) (fun _ => rfl) (fun _ => rfl) _ _ _)

end Cert.Strips
-- ==== Proof.SplitKE.lean ====
/-
  The kernel program's host operations split in two: the stretches that build the border strips of the first eight
  faces, then the rest. No operation of the rest writes a strip of an equatorial face, so reading such a strip from
  the whole fold is reading it from the fold over the first part.
-/
import proofs.«156783_j90975997264310_2_alg».proof.Proof.KOps
import Idealize.ShloMosaic.Lib.StableHlo.Run

noncomputable section

namespace Cert.StripsE

open Idealize.ShloMosaic Idealize.ShloMosaic.StableHlo Cert.KernelIdeal Cert.KernelIdeal.Gen

variable {F : FTy → Type} [FloatOps F]

/-- The fold over a concatenation is the fold over the second list of the fold over the first. -/
theorem after_append' {τ' : Topo} {sig' : RefSig} {Val : EltTy → Type} (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => exact ih (op.result V)

/-- The stretches up to the one that builds the equatorial faces' strips. -/
abbrev kpre : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- The stretches after it. -/
abbrev ksuf : List (HloOp τ sig (Elt F)) :=
  List.flatten [hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]

theorem kops_split : (Cert.KernelIdeal.Hand.kops : List (HloOp τ sig (Elt F))) = kpre ++ ksuf := by
  show List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] ++ [hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]) = _
  rw [List.flatten_append]

/-- The sixteen strips of the four equatorial faces. -/
abbrev strips : List (Ref sig .tc) := [main_v207, main_v208, main_v217, main_v226, main_v309, main_v310, main_v319, main_v328, main_v411, main_v412, main_v421, main_v430, main_v513, main_v514, main_v523, main_v532]

/-- An operation whose one written buffer is not a strip writes no strip. -/
theorem keeps_of (op : HloOp τ sig (Elt F)) (y : Ref sig .tc) (hw : op.writes = {Proc.devRef .tc y}) (hy : y ∉ strips) :
    ∀ r ∈ strips, Proc.devRef (τ := τ) .tc r ∉ op.writes := by
  intro r hr hm
  rw [hw, Finset.mem_singleton] at hm
  exact hy (Proc.devRef_injective _ hm ▸ hr)

set_option maxHeartbeats 0 in
set_option maxRecDepth 100000 in
/-- No operation after the first part writes a strip of an equatorial face. -/
theorem ksuf_keeps : ∀ op ∈ (ksuf : List (HloOp τ sig (Elt F))), ∀ r ∈ strips, Proc.devRef (τ := τ) .tc r ∉ op.writes := by
  simp only [ksuf, List.flatten_cons, List.flatten_nil, List.append_nil, List.cons_append, List.nil_append, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  repeat (refine List.forall_mem_cons.mpr ⟨keeps_of _ _ rfl (by decide), ?_⟩)
  exact fun _ h => absurd h List.not_mem_nil

/-- A strip of an equatorial face read from the whole fold is read from the fold over the first part. -/
theorem after_kops_strip (M : Valuation τ sig (Elt F)) (r : Ref sig .tc) (hr : r ∈ strips) :
    StableHlo.after Cert.KernelIdeal.Hand.kops M (Proc.devRef .tc r) = StableHlo.after kpre M (Proc.devRef .tc r) := by
  rw [kops_split, after_append']
  exact StableHlo.after_of_forall_not_mem ksuf _ fun op hop => ksuf_keeps op hop r hr

end Cert.StripsE

end
-- ==== Proof.LibNary3E.lean ====
/-
  The result of an operation with three operands given as a literal family, with each operand's contents read at its
  own reference, so that a rewriting pass goes on into the operands.
-/
import Idealize.ShloMosaic.Lib.StableHlo.Run

namespace Cert.LibNary3E

open Idealize.ShloMosaic Idealize.ShloMosaic.StableHlo

/-- A dependent family over three positions from its three members. -/
def tri {β : Fin 3 → Type} (a : β 0) (b : β 1) (c : β 2) : (k : Fin 3) → β k :=
  fun k => match k with
    | ⟨0, _⟩ => a
    | ⟨1, _⟩ => b
    | ⟨2, _⟩ => c

theorem tri_0 {β : Fin 3 → Type} (a : β 0) (b : β 1) (c : β 2) : tri a b c 0 = a := rfl
theorem tri_1 {β : Fin 3 → Type} (a : β 0) (b : β 1) (c : β 2) : tri a b c 1 = b := rfl
theorem tri_2 {β : Fin 3 → Type} (a : β 0) (b : β 1) (c : β 2) : tri a b c 2 = c := rfl

variable {τ : Topo} {sig : RefSig} {Val : EltTy → Type} {x a b y : Ref sig .tc}

/-- The result of a three-operand operation over a literal family of references, each operand's contents at its own
    reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (tri (β := fun k => ((![x, a, b] : Fin 3 → Ref sig .tc) k).ty.Contents Val)
            (F (Proc.devRef .tc x)) (F (Proc.devRef .tc a)) (F (Proc.devRef .tc b))) := by
  rw [nary_result]; congr 1; funext k; fin_cases k <;> rfl

end Cert.LibNary3E
-- ==== Proof.StripsK4_e.lean ====
/-
  Face 4 (equatorial), kernel side: the four border strips the kernel program's host operations build, read out of
  the fold of the operations as functions of the argument's faces.
-/
import proofs.«156783_j90975997264310_2_alg».proof.Proof.SplitKE
import proofs.«156783_j90975997264310_2_alg».proof.Proof.KindsE
import proofs.«156783_j90975997264310_2_alg».proof.Proof.LibNary3E
import Idealize.ShloMosaic.PureOps.Ideal

noncomputable section

namespace Cert.StripsE

open Idealize.ShloMosaic Idealize.ShloMosaic.StableHlo Cert.KindsE

section K
open Cert.KernelIdeal Cert.KernelIdeal.Gen

set_option maxHeartbeats 0 in
set_option maxRecDepth 100000 in
/-- The kernel program's four border strips of face 4, as functions of the argument's faces. -/
theorem kface4 (M : Valuation τ sig (Elt Ideal)) :
    (StableHlo.after kpre M (Proc.devRef .tc main_v207) : ST.Idx → Ideal .f32) = topS (F := Ideal) (face 0 (M (Proc.devRef .tc main_arg0))) ∧
    (StableHlo.after kpre M (Proc.devRef .tc main_v208) : ST.Idx → Ideal .f32) = botS (F := Ideal) (face 11 (M (Proc.devRef .tc main_arg0))) ∧
    (StableHlo.after kpre M (Proc.devRef .tc main_v217) : SL.Idx → Ideal .f32)
      = leftK (F := Ideal) (face 0 (M (Proc.devRef .tc main_arg0))) (face 3 (M (Proc.devRef .tc main_arg0))) (face 7 (M (Proc.devRef .tc main_arg0))) ∧
    (StableHlo.after kpre M (Proc.devRef .tc main_v226) : SL.Idx → Ideal .f32)
      = rightK (F := Ideal) (face 5 (M (Proc.devRef .tc main_arg0))) (face 8 (M (Proc.devRef .tc main_arg0))) (face 11 (M (Proc.devRef .tc main_arg0))) := by
  simp only [kpre, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]
  simp (disch := decide) only [after_cons, after_nil,
      nullary_result', unary_result', binary_result', ternary_result', quaternary_result', reshape_result', nary4_result', Cert.LibNary3E.nary3_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.KindsE.idx2_eq, Cert.KindsE.cat3_eq, Cert.LibNary3E.tri_0, Cert.LibNary3E.tri_1, Cert.LibNary3E.tri_2]
  exact ⟨rfl, rfl, rfl, rfl⟩

end K

end Cert.StripsE

end
-- ==== Proof.StripsK5_e.lean ====
/-
  Face 5 (equatorial), kernel side: the four border strips the kernel program's host operations build, read out of
  the fold of the operations as functions of the argument's faces.
-/
import proofs.«156783_j90975997264310_2_alg».proof.Proof.SplitKE
import proofs.«156783_j90975997264310_2_alg».proof.Proof.KindsE
import proofs.«156783_j90975997264310_2_alg».proof.Proof.LibNary3E
import Idealize.ShloMosaic.PureOps.Ideal

noncomputable section

namespace Cert.StripsE

open Idealize.ShloMosaic Idealize.ShloMosaic.StableHlo Cert.KindsE

section K
open Cert.KernelIdeal Cert.KernelIdeal.Gen

set_option maxHeartbeats 0 in
set_option maxRecDepth 100000 in
/-- The kernel program's four border strips of face 5, as functions of the argument's faces. -/
theorem kface5 (M : Valuation τ sig (Elt Ideal)) :
    (StableHlo.after kpre M (Proc.devRef .tc main_v309) : ST.Idx → Ideal .f32) = topS (F := Ideal) (face 1 (M (Proc.devRef .tc main_arg0))) ∧
    (StableHlo.after kpre M (Proc.devRef .tc main_v310) : ST.Idx → Ideal .f32) = botS (F := Ideal) (face 8 (M (Proc.devRef .tc main_arg0))) ∧
    (StableHlo.after kpre M (Proc.devRef .tc main_v319) : SL.Idx → Ideal .f32)
      = leftK (F := Ideal) (face 1 (M (Proc.devRef .tc main_arg0))) (face 0 (M (Proc.devRef .tc main_arg0))) (face 4 (M (Proc.devRef .tc main_arg0))) ∧
    (StableHlo.after kpre M (Proc.devRef .tc main_v328) : SL.Idx → Ideal .f32)
      = rightK (F := Ideal) (face 6 (M (Proc.devRef .tc main_arg0))) (face 9 (M (Proc.devRef .tc main_arg0))) (face 8 (M (Proc.devRef .tc main_arg0))) := by
  simp only [kpre, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]
  simp (disch := decide) only [after_cons, after_nil,
      nullary_result', unary_result', binary_result', ternary_result', quaternary_result', reshape_result', nary4_result', Cert.LibNary3E.nary3_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.KindsE.idx2_eq, Cert.KindsE.cat3_eq, Cert.LibNary3E.tri_0, Cert.LibNary3E.tri_1, Cert.LibNary3E.tri_2]
  exact ⟨rfl, rfl, rfl, rfl⟩

end K

end Cert.StripsE

end
-- ==== Proof.StripsK6_e.lean ====
/-
  Face 6 (equatorial), kernel side: the four border strips the kernel program's host operations build, read out of
  the fold of the operations as functions of the argument's faces.
-/
import proofs.«156783_j90975997264310_2_alg».proof.Proof.SplitKE
import proofs.«156783_j90975997264310_2_alg».proof.Proof.KindsE
import proofs.«156783_j90975997264310_2_alg».proof.Proof.LibNary3E
import Idealize.ShloMosaic.PureOps.Ideal

noncomputable section

namespace Cert.StripsE

open Idealize.ShloMosaic Idealize.ShloMosaic.StableHlo Cert.KindsE

section K
open Cert.KernelIdeal Cert.KernelIdeal.Gen

set_option maxHeartbeats 0 in
set_option maxRecDepth 100000 in
/-- The kernel program's four border strips of face 6, as functions of the argument's faces. -/
theorem kface6 (M : Valuation τ sig (Elt Ideal)) :
    (StableHlo.after kpre M (Proc.devRef .tc main_v411) : ST.Idx → Ideal .f32) = topS (F := Ideal) (face 2 (M (Proc.devRef .tc main_arg0))) ∧
    (StableHlo.after kpre M (Proc.devRef .tc main_v412) : ST.Idx → Ideal .f32) = botS (F := Ideal) (face 9 (M (Proc.devRef .tc main_arg0))) ∧
    (StableHlo.after kpre M (Proc.devRef .tc main_v421) : SL.Idx → Ideal .f32)
      = leftK (F := Ideal) (face 2 (M (Proc.devRef .tc main_arg0))) (face 1 (M (Proc.devRef .tc main_arg0))) (face 5 (M (Proc.devRef .tc main_arg0))) ∧
    (StableHlo.after kpre M (Proc.devRef .tc main_v430) : SL.Idx → Ideal .f32)
      = rightK (F := Ideal) (face 7 (M (Proc.devRef .tc main_arg0))) (face 10 (M (Proc.devRef .tc main_arg0))) (face 9 (M (Proc.devRef .tc main_arg0))) := by
  simp only [kpre, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]
  simp (disch := decide) only [after_cons, after_nil,
      nullary_result', unary_result', binary_result', ternary_result', quaternary_result', reshape_result', nary4_result', Cert.LibNary3E.nary3_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.KindsE.idx2_eq, Cert.KindsE.cat3_eq, Cert.LibNary3E.tri_0, Cert.LibNary3E.tri_1, Cert.LibNary3E.tri_2]
  exact ⟨rfl, rfl, rfl, rfl⟩

end K

end Cert.StripsE

end
-- ==== Proof.StripsK7_e.lean ====
/-
  Face 7 (equatorial), kernel side: the four border strips the kernel program's host operations build, read out of
  the fold of the operations as functions of the argument's faces.
-/
import proofs.«156783_j90975997264310_2_alg».proof.Proof.SplitKE
import proofs.«156783_j90975997264310_2_alg».proof.Proof.KindsE
import proofs.«156783_j90975997264310_2_alg».proof.Proof.LibNary3E
import Idealize.ShloMosaic.PureOps.Ideal

noncomputable section

namespace Cert.StripsE

open Idealize.ShloMosaic Idealize.ShloMosaic.StableHlo Cert.KindsE

section K
open Cert.KernelIdeal Cert.KernelIdeal.Gen

set_option maxHeartbeats 0 in
set_option maxRecDepth 100000 in
/-- The kernel program's four border strips of face 7, as functions of the argument's faces. -/
theorem kface7 (M : Valuation τ sig (Elt Ideal)) :
    (StableHlo.after kpre M (Proc.devRef .tc main_v513) : ST.Idx → Ideal .f32) = topS (F := Ideal) (face 3 (M (Proc.devRef .tc main_arg0))) ∧
    (StableHlo.after kpre M (Proc.devRef .tc main_v514) : ST.Idx → Ideal .f32) = botS (F := Ideal) (face 10 (M (Proc.devRef .tc main_arg0))) ∧
    (StableHlo.after kpre M (Proc.devRef .tc main_v523) : SL.Idx → Ideal .f32)
      = leftK (F := Ideal) (face 3 (M (Proc.devRef .tc main_arg0))) (face 2 (M (Proc.devRef .tc main_arg0))) (face 6 (M (Proc.devRef .tc main_arg0))) ∧
    (StableHlo.after kpre M (Proc.devRef .tc main_v532) : SL.Idx → Ideal .f32)
      = rightK (F := Ideal) (face 4 (M (Proc.devRef .tc main_arg0))) (face 11 (M (Proc.devRef .tc main_arg0))) (face 10 (M (Proc.devRef .tc main_arg0))) := by
  simp only [kpre, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]
  simp (disch := decide) only [after_cons, after_nil,
      nullary_result', unary_result', binary_result', ternary_result', quaternary_result', reshape_result', nary4_result', Cert.LibNary3E.nary3_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.KindsE.idx2_eq, Cert.KindsE.cat3_eq, Cert.LibNary3E.tri_0, Cert.LibNary3E.tri_1, Cert.LibNary3E.tri_2]
  exact ⟨rfl, rfl, rfl, rfl⟩

end K

end Cert.StripsE

end
-- ==== Proof.StripsKP_e.lean ====
/-
  Faces 4 to 7 (equatorial), kernel side: each border strip the kernel program's host operations build is the pure
  strip of the argument. The strip is read from the fold over the first part of the operations (no later operation
  writes it), where it is a function of the argument's faces; for the side strips, three row windows covering all
  rows are the three pieces laid end to end, and the interpolated corner built from corner blocks is the one built
  from the whole faces.
-/
import proofs.«156783_j90975997264310_2_alg».proof.Proof.StripsK4_e
import proofs.«156783_j90975997264310_2_alg».proof.Proof.StripsK5_e
import proofs.«156783_j90975997264310_2_alg».proof.Proof.StripsK6_e
import proofs.«156783_j90975997264310_2_alg».proof.Proof.StripsK7_e
import proofs.«156783_j90975997264310_2_alg».proof.Proof.StripsP_e

noncomputable section

namespace Cert.Strips

open Idealize.ShloMosaic Idealize.ShloMosaic.StableHlo

/-- The kernel program's top strip of face 4 is the pure top strip of the argument. -/
theorem ktop4 (M : Valuation Cert.KernelIdeal.τ Cert.KernelIdeal.sig (Elt Ideal)) :
    (StableHlo.after (Cert.KernelIdeal.Hand.kops (F := Ideal)) M (Proc.devRef .tc Cert.KernelIdeal.main_v207) : Cert.KernelIdeal.S8x32x2x128.Idx → Elt Ideal .f32)
      = ptop4 (M (Proc.devRef .tc Cert.KernelIdeal.main_arg0)) :=
  (Cert.StripsE.after_kops_strip M Cert.KernelIdeal.main_v207 (by decide)).trans ((Cert.StripsE.kface4 M).1)

/-- The kernel program's bottom strip of face 4 is the pure bottom strip of the argument. -/
theorem kbottom4 (M : Valuation Cert.KernelIdeal.τ Cert.KernelIdeal.sig (Elt Ideal)) :
    (StableHlo.after (Cert.KernelIdeal.Hand.kops (F := Ideal)) M (Proc.devRef .tc Cert.KernelIdeal.main_v208) : Cert.KernelIdeal.S8x32x2x128.Idx → Elt Ideal .f32)
      = pbottom4 (M (Proc.devRef .tc Cert.KernelIdeal.main_arg0)) :=
  (Cert.StripsE.after_kops_strip M Cert.KernelIdeal.main_v208 (by decide)).trans ((Cert.StripsE.kface4 M).2.1)

/-- The kernel program's left strip of face 4 is the pure left strip of the argument. -/
theorem kleft4 (M : Valuation Cert.KernelIdeal.τ Cert.KernelIdeal.sig (Elt Ideal)) :
    (StableHlo.after (Cert.KernelIdeal.Hand.kops (F := Ideal)) M (Proc.devRef .tc Cert.KernelIdeal.main_v217) : Cert.KernelIdeal.S8x32x132x2.Idx → Elt Ideal .f32)
      = pleft4 (M (Proc.devRef .tc Cert.KernelIdeal.main_arg0)) :=
  (Cert.StripsE.after_kops_strip M Cert.KernelIdeal.main_v217 (by decide)).trans (((Cert.StripsE.kface4 M).2.2.1).trans (Cert.KindsE.leftK_eq_leftR _ _ _))

/-- The kernel program's right strip of face 4 is the pure right strip of the argument. -/
theorem kright4 (M : Valuation Cert.KernelIdeal.τ Cert.KernelIdeal.sig (Elt Ideal)) :
    (StableHlo.after (Cert.KernelIdeal.Hand.kops (F := Ideal)) M (Proc.devRef .tc Cert.KernelIdeal.main_v226) : Cert.KernelIdeal.S8x32x132x2.Idx → Elt Ideal .f32)
      = pright4 (M (Proc.devRef .tc Cert.KernelIdeal.main_arg0)) :=
  (Cert.StripsE.after_kops_strip M Cert.KernelIdeal.main_v226 (by decide)).trans (((Cert.StripsE.kface4 M).2.2.2).trans (Cert.KindsE.rightK_eq_rightR _ _ _))

/-- The kernel program's top strip of face 5 is the pure top strip of the argument. -/
theorem ktop5 (M : Valuation Cert.KernelIdeal.τ Cert.KernelIdeal.sig (Elt Ideal)) :
    (StableHlo.after (Cert.KernelIdeal.Hand.kops (F := Ideal)) M (Proc.devRef .tc Cert.KernelIdeal.main_v309) : Cert.KernelIdeal.S8x32x2x128.Idx → Elt Ideal .f32)
      = ptop5 (M (Proc.devRef .tc Cert.KernelIdeal.main_arg0)) :=
  (Cert.StripsE.after_kops_strip M Cert.KernelIdeal.main_v309 (by decide)).trans ((Cert.StripsE.kface5 M).1)

/-- The kernel program's bottom strip of face 5 is the pure bottom strip of the argument. -/
theorem kbottom5 (M : Valuation Cert.KernelIdeal.τ Cert.KernelIdeal.sig (Elt Ideal)) :
    (StableHlo.after (Cert.KernelIdeal.Hand.kops (F := Ideal)) M (Proc.devRef .tc Cert.KernelIdeal.main_v310) : Cert.KernelIdeal.S8x32x2x128.Idx → Elt Ideal .f32)
      = pbottom5 (M (Proc.devRef .tc Cert.KernelIdeal.main_arg0)) :=
  (Cert.StripsE.after_kops_strip M Cert.KernelIdeal.main_v310 (by decide)).trans ((Cert.StripsE.kface5 M).2.1)

/-- The kernel program's left strip of face 5 is the pure left strip of the argument. -/
theorem kleft5 (M : Valuation Cert.KernelIdeal.τ Cert.KernelIdeal.sig (Elt Ideal)) :
    (StableHlo.after (Cert.KernelIdeal.Hand.kops (F := Ideal)) M (Proc.devRef .tc Cert.KernelIdeal.main_v319) : Cert.KernelIdeal.S8x32x132x2.Idx → Elt Ideal .f32)
      = pleft5 (M (Proc.devRef .tc Cert.KernelIdeal.main_arg0)) :=
  (Cert.StripsE.after_kops_strip M Cert.KernelIdeal.main_v319 (by decide)).trans (((Cert.StripsE.kface5 M).2.2.1).trans (Cert.KindsE.leftK_eq_leftR _ _ _))

/-- The kernel program's right strip of face 5 is the pure right strip of the argument. -/
theorem kright5 (M : Valuation Cert.KernelIdeal.τ Cert.KernelIdeal.sig (Elt Ideal)) :
    (StableHlo.after (Cert.KernelIdeal.Hand.kops (F := Ideal)) M (Proc.devRef .tc Cert.KernelIdeal.main_v328) : Cert.KernelIdeal.S8x32x132x2.Idx → Elt Ideal .f32)
      = pright5 (M (Proc.devRef .tc Cert.KernelIdeal.main_arg0)) :=
  (Cert.StripsE.after_kops_strip M Cert.KernelIdeal.main_v328 (by decide)).trans (((Cert.StripsE.kface5 M).2.2.2).trans (Cert.KindsE.rightK_eq_rightR _ _ _))

/-- The kernel program's top strip of face 6 is the pure top strip of the argument. -/
theorem ktop6 (M : Valuation Cert.KernelIdeal.τ Cert.KernelIdeal.sig (Elt Ideal)) :
    (StableHlo.after (Cert.KernelIdeal.Hand.kops (F := Ideal)) M (Proc.devRef .tc Cert.KernelIdeal.main_v411) : Cert.KernelIdeal.S8x32x2x128.Idx → Elt Ideal .f32)
      = ptop6 (M (Proc.devRef .tc Cert.KernelIdeal.main_arg0)) :=
  (Cert.StripsE.after_kops_strip M Cert.KernelIdeal.main_v411 (by decide)).trans ((Cert.StripsE.kface6 M).1)

/-- The kernel program's bottom strip of face 6 is the pure bottom strip of the argument. -/
theorem kbottom6 (M : Valuation Cert.KernelIdeal.τ Cert.KernelIdeal.sig (Elt Ideal)) :
    (StableHlo.after (Cert.KernelIdeal.Hand.kops (F := Ideal)) M (Proc.devRef .tc Cert.KernelIdeal.main_v412) : Cert.KernelIdeal.S8x32x2x128.Idx → Elt Ideal .f32)
      = pbottom6 (M (Proc.devRef .tc Cert.KernelIdeal.main_arg0)) :=
  (Cert.StripsE.after_kops_strip M Cert.KernelIdeal.main_v412 (by decide)).trans ((Cert.StripsE.kface6 M).2.1)

/-- The kernel program's left strip of face 6 is the pure left strip of the argument. -/
theorem kleft6 (M : Valuation Cert.KernelIdeal.τ Cert.KernelIdeal.sig (Elt Ideal)) :
    (StableHlo.after (Cert.KernelIdeal.Hand.kops (F := Ideal)) M (Proc.devRef .tc Cert.KernelIdeal.main_v421) : Cert.KernelIdeal.S8x32x132x2.Idx → Elt Ideal .f32)
      = pleft6 (M (Proc.devRef .tc Cert.KernelIdeal.main_arg0)) :=
  (Cert.StripsE.after_kops_strip M Cert.KernelIdeal.main_v421 (by decide)).trans (((Cert.StripsE.kface6 M).2.2.1).trans (Cert.KindsE.leftK_eq_leftR _ _ _))

/-- The kernel program's right strip of face 6 is the pure right strip of the argument. -/
theorem kright6 (M : Valuation Cert.KernelIdeal.τ Cert.KernelIdeal.sig (Elt Ideal)) :
    (StableHlo.after (Cert.KernelIdeal.Hand.kops (F := Ideal)) M (Proc.devRef .tc Cert.KernelIdeal.main_v430) : Cert.KernelIdeal.S8x32x132x2.Idx → Elt Ideal .f32)
      = pright6 (M (Proc.devRef .tc Cert.KernelIdeal.main_arg0)) :=
  (Cert.StripsE.after_kops_strip M Cert.KernelIdeal.main_v430 (by decide)).trans (((Cert.StripsE.kface6 M).2.2.2).trans (Cert.KindsE.rightK_eq_rightR _ _ _))

/-- The kernel program's top strip of face 7 is the pure top strip of the argument. -/
theorem ktop7 (M : Valuation Cert.KernelIdeal.τ Cert.KernelIdeal.sig (Elt Ideal)) :
    (StableHlo.after (Cert.KernelIdeal.Hand.kops (F := Ideal)) M (Proc.devRef .tc Cert.KernelIdeal.main_v513) : Cert.KernelIdeal.S8x32x2x128.Idx → Elt Ideal .f32)
      = ptop7 (M (Proc.devRef .tc Cert.KernelIdeal.main_arg0)) :=
  (Cert.StripsE.after_kops_strip M Cert.KernelIdeal.main_v513 (by decide)).trans ((Cert.StripsE.kface7 M).1)

/-- The kernel program's bottom strip of face 7 is the pure bottom strip of the argument. -/
theorem kbottom7 (M : Valuation Cert.KernelIdeal.τ Cert.KernelIdeal.sig (Elt Ideal)) :
    (StableHlo.after (Cert.KernelIdeal.Hand.kops (F := Ideal)) M (Proc.devRef .tc Cert.KernelIdeal.main_v514) : Cert.KernelIdeal.S8x32x2x128.Idx → Elt Ideal .f32)
      = pbottom7 (M (Proc.devRef .tc Cert.KernelIdeal.main_arg0)) :=
  (Cert.StripsE.after_kops_strip M Cert.KernelIdeal.main_v514 (by decide)).trans ((Cert.StripsE.kface7 M).2.1)

/-- The kernel program's left strip of face 7 is the pure left strip of the argument. -/
theorem kleft7 (M : Valuation Cert.KernelIdeal.τ Cert.KernelIdeal.sig (Elt Ideal)) :
    (StableHlo.after (Cert.KernelIdeal.Hand.kops (F := Ideal)) M (Proc.devRef .tc Cert.KernelIdeal.main_v523) : Cert.KernelIdeal.S8x32x132x2.Idx → Elt Ideal .f32)
      = pleft7 (M (Proc.devRef .tc Cert.KernelIdeal.main_arg0)) :=
  (Cert.StripsE.after_kops_strip M Cert.KernelIdeal.main_v523 (by decide)).trans (((Cert.StripsE.kface7 M).2.2.1).trans (Cert.KindsE.leftK_eq_leftR _ _ _))

/-- The kernel program's right strip of face 7 is the pure right strip of the argument. -/
theorem kright7 (M : Valuation Cert.KernelIdeal.τ Cert.KernelIdeal.sig (Elt Ideal)) :
    (StableHlo.after (Cert.KernelIdeal.Hand.kops (F := Ideal)) M (Proc.devRef .tc Cert.KernelIdeal.main_v532) : Cert.KernelIdeal.S8x32x132x2.Idx → Elt Ideal .f32)
      = pright7 (M (Proc.devRef .tc Cert.KernelIdeal.main_arg0)) :=
  (Cert.StripsE.after_kops_strip M Cert.KernelIdeal.main_v532 (by decide)).trans (((Cert.StripsE.kface7 M).2.2.2).trans (Cert.KindsE.rightK_eq_rightR _ _ _))

end Cert.Strips

end
-- ==== Proof.StripsK8_f.lean ====
/-
  The four border strips of southern face 8 as the kernel program's host operations compute them: each strip's
  buffer, after the whole line of host operations, holds the strip written as a function of the faces it reads (the
  functions of the module of the strips' kinds) — the line's operations composed down to the argument. The four
  facts are read off one pass over the line.
-/
import proofs.«156783_j90975997264310_2_alg».proof.Proof.KOps
import proofs.«156783_j90975997264310_2_alg».proof.Proof.KindsF
import Idealize.ShloMosaic.PureOps.Ideal

open Idealize.ShloMosaic Idealize.ShloMosaic.StableHlo Cert.KindsF

namespace Cert.Strips.K
open Cert.KernelIdeal Cert.KernelIdeal.Gen

set_option maxHeartbeats 0 in
set_option maxRecDepth 100000 in
/-- The top, bottom, left and right strips of face 8, after the kernel program's host operations. -/
theorem kStrips8 (M : Valuation τ sig (Elt Ideal)) :
    ((StableHlo.after (Cert.KernelIdeal.Hand.kops (F := Ideal)) M (Proc.devRef .tc main_v533) : Cert.KernelIdeal.S8x32x2x128.Idx → Elt Ideal .f32)
      = top (face (M (Proc.devRef .tc main_arg0)) 5))
    ∧ ((StableHlo.after (Cert.KernelIdeal.Hand.kops (F := Ideal)) M (Proc.devRef .tc main_v535) : Cert.KernelIdeal.S8x32x2x128.Idx → Elt Ideal .f32)
      = kBottom (face (M (Proc.devRef .tc main_arg0)) 11))
    ∧ ((StableHlo.after (Cert.KernelIdeal.Hand.kops (F := Ideal)) M (Proc.devRef .tc main_v545) : Cert.KernelIdeal.S8x32x132x2.Idx → Elt Ideal .f32)
      = kLeft scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 0) (face (M (Proc.devRef .tc main_arg0)) 4) (face (M (Proc.devRef .tc main_arg0)) 11))
    ∧ ((StableHlo.after (Cert.KernelIdeal.Hand.kops (F := Ideal)) M (Proc.devRef .tc main_v557) : Cert.KernelIdeal.S8x32x132x2.Idx → Elt Ideal .f32)
      = kRight scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 9) (face (M (Proc.devRef .tc main_arg0)) 9) (face (M (Proc.devRef .tc main_arg0)) 10)) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  exact ⟨rfl, rfl, rfl, rfl⟩

end Cert.Strips.K
-- ==== Proof.StripsK9_f.lean ====
/-
  The four border strips of southern face 9 as the kernel program's host operations compute them: each strip's
  buffer, after the whole line of host operations, holds the strip written as a function of the faces it reads (the
  functions of the module of the strips' kinds) — the line's operations composed down to the argument. The four
  facts are read off one pass over the line.
-/
import proofs.«156783_j90975997264310_2_alg».proof.Proof.KOps
import proofs.«156783_j90975997264310_2_alg».proof.Proof.KindsF
import Idealize.ShloMosaic.PureOps.Ideal

open Idealize.ShloMosaic Idealize.ShloMosaic.StableHlo Cert.KindsF

namespace Cert.Strips.K
open Cert.KernelIdeal Cert.KernelIdeal.Gen

set_option maxHeartbeats 0 in
set_option maxRecDepth 100000 in
/-- The top, bottom, left and right strips of face 9, after the kernel program's host operations. -/
theorem kStrips9 (M : Valuation τ sig (Elt Ideal)) :
    ((StableHlo.after (Cert.KernelIdeal.Hand.kops (F := Ideal)) M (Proc.devRef .tc main_v558) : Cert.KernelIdeal.S8x32x2x128.Idx → Elt Ideal .f32)
      = top (face (M (Proc.devRef .tc main_arg0)) 6))
    ∧ ((StableHlo.after (Cert.KernelIdeal.Hand.kops (F := Ideal)) M (Proc.devRef .tc main_v560) : Cert.KernelIdeal.S8x32x2x128.Idx → Elt Ideal .f32)
      = kBottom (face (M (Proc.devRef .tc main_arg0)) 8))
    ∧ ((StableHlo.after (Cert.KernelIdeal.Hand.kops (F := Ideal)) M (Proc.devRef .tc main_v570) : Cert.KernelIdeal.S8x32x132x2.Idx → Elt Ideal .f32)
      = kLeft scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 1) (face (M (Proc.devRef .tc main_arg0)) 5) (face (M (Proc.devRef .tc main_arg0)) 8))
    ∧ ((StableHlo.after (Cert.KernelIdeal.Hand.kops (F := Ideal)) M (Proc.devRef .tc main_v582) : Cert.KernelIdeal.S8x32x132x2.Idx → Elt Ideal .f32)
      = kRight scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 10) (face (M (Proc.devRef .tc main_arg0)) 10) (face (M (Proc.devRef .tc main_arg0)) 11)) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  exact ⟨rfl, rfl, rfl, rfl⟩

end Cert.Strips.K
-- ==== Proof.StripsK10_f.lean ====
/-
  The four border strips of southern face 10 as the kernel program's host operations compute them: each strip's
  buffer, after the whole line of host operations, holds the strip written as a function of the faces it reads (the
  functions of the module of the strips' kinds) — the line's operations composed down to the argument. The four
  facts are read off one pass over the line.
-/
import proofs.«156783_j90975997264310_2_alg».proof.Proof.KOps
import proofs.«156783_j90975997264310_2_alg».proof.Proof.KindsF
import Idealize.ShloMosaic.PureOps.Ideal

open Idealize.ShloMosaic Idealize.ShloMosaic.StableHlo Cert.KindsF

namespace Cert.Strips.K
open Cert.KernelIdeal Cert.KernelIdeal.Gen

set_option maxHeartbeats 0 in
set_option maxRecDepth 100000 in
/-- The top, bottom, left and right strips of face 10, after the kernel program's host operations. -/
theorem kStrips10 (M : Valuation τ sig (Elt Ideal)) :
    ((StableHlo.after (Cert.KernelIdeal.Hand.kops (F := Ideal)) M (Proc.devRef .tc main_v583) : Cert.KernelIdeal.S8x32x2x128.Idx → Elt Ideal .f32)
      = top (face (M (Proc.devRef .tc main_arg0)) 7))
    ∧ ((StableHlo.after (Cert.KernelIdeal.Hand.kops (F := Ideal)) M (Proc.devRef .tc main_v585) : Cert.KernelIdeal.S8x32x2x128.Idx → Elt Ideal .f32)
      = kBottom (face (M (Proc.devRef .tc main_arg0)) 9))
    ∧ ((StableHlo.after (Cert.KernelIdeal.Hand.kops (F := Ideal)) M (Proc.devRef .tc main_v595) : Cert.KernelIdeal.S8x32x132x2.Idx → Elt Ideal .f32)
      = kLeft scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 2) (face (M (Proc.devRef .tc main_arg0)) 6) (face (M (Proc.devRef .tc main_arg0)) 9))
    ∧ ((StableHlo.after (Cert.KernelIdeal.Hand.kops (F := Ideal)) M (Proc.devRef .tc main_v607) : Cert.KernelIdeal.S8x32x132x2.Idx → Elt Ideal .f32)
      = kRight scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 11) (face (M (Proc.devRef .tc main_arg0)) 11) (face (M (Proc.devRef .tc main_arg0)) 8)) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  exact ⟨rfl, rfl, rfl, rfl⟩

end Cert.Strips.K
-- ==== Proof.StripsK11_f.lean ====
/-
  The four border strips of southern face 11 as the kernel program's host operations compute them: each strip's
  buffer, after the whole line of host operations, holds the strip written as a function of the faces it reads (the
  functions of the module of the strips' kinds) — the line's operations composed down to the argument. The four
  facts are read off one pass over the line.
-/
import proofs.«156783_j90975997264310_2_alg».proof.Proof.KOps
import proofs.«156783_j90975997264310_2_alg».proof.Proof.KindsF
import Idealize.ShloMosaic.PureOps.Ideal

open Idealize.ShloMosaic Idealize.ShloMosaic.StableHlo Cert.KindsF

namespace Cert.Strips.K
open Cert.KernelIdeal Cert.KernelIdeal.Gen

set_option maxHeartbeats 0 in
set_option maxRecDepth 100000 in
/-- The top, bottom, left and right strips of face 11, after the kernel program's host operations. -/
theorem kStrips11 (M : Valuation τ sig (Elt Ideal)) :
    ((StableHlo.after (Cert.KernelIdeal.Hand.kops (F := Ideal)) M (Proc.devRef .tc main_v608) : Cert.KernelIdeal.S8x32x2x128.Idx → Elt Ideal .f32)
      = top (face (M (Proc.devRef .tc main_arg0)) 4))
    ∧ ((StableHlo.after (Cert.KernelIdeal.Hand.kops (F := Ideal)) M (Proc.devRef .tc main_v610) : Cert.KernelIdeal.S8x32x2x128.Idx → Elt Ideal .f32)
      = kBottom (face (M (Proc.devRef .tc main_arg0)) 10))
    ∧ ((StableHlo.after (Cert.KernelIdeal.Hand.kops (F := Ideal)) M (Proc.devRef .tc main_v620) : Cert.KernelIdeal.S8x32x132x2.Idx → Elt Ideal .f32)
      = kLeft scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 3) (face (M (Proc.devRef .tc main_arg0)) 7) (face (M (Proc.devRef .tc main_arg0)) 10))
    ∧ ((StableHlo.after (Cert.KernelIdeal.Hand.kops (F := Ideal)) M (Proc.devRef .tc main_v632) : Cert.KernelIdeal.S8x32x132x2.Idx → Elt Ideal .f32)
      = kRight scatter_S8x32x132x2_S1_S8x32x2x2_0123_n_2_0 scatter_S8x32x132x2_S1_S8x32x128x2_0123_n_2_0 scatter_S8x32x132x2_S1_S8x32x2x2_0123_n_2_0 (broadcastInDim Cert.KernelIdeal.S8x32x132x2 ![] bcast_S_S8x32x132x2 (constant (F := Ideal) Cert.KernelIdeal.S_ .f32 0x00000000#32)) (broadcastInDim Cert.KernelIdeal.S1 ![] bcast_S_S1 (constantI Cert.KernelIdeal.S_ 32 0#32)) (broadcastInDim Cert.KernelIdeal.S1 ![] bcast_S_S1 (constantI Cert.KernelIdeal.S_ 32 2#32)) (broadcastInDim Cert.KernelIdeal.S1 ![] bcast_S_S1 (constantI Cert.KernelIdeal.S_ 32 130#32)) (face (M (Proc.devRef .tc main_arg0)) 8) (face (M (Proc.devRef .tc main_arg0)) 8) (face (M (Proc.devRef .tc main_arg0)) 9)) := by
  simp only [Cert.KernelIdeal.Hand.kops, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  after_results_simp
  exact ⟨rfl, rfl, rfl, rfl⟩

end Cert.Strips.K
-- ==== Proof.StripsKP_f.lean ====
/-
  The border strips of the southern faces as the kernel program's host operations compute them, each as the strip's
  one function of the whole argument: the strip's buffer holds the strip cut thin first and turned (and written as
  three row windows), which is the strip turned first and cut after (and concatenated).
-/
import proofs.«156783_j90975997264310_2_alg».proof.Proof.StripsK8_f
import proofs.«156783_j90975997264310_2_alg».proof.Proof.StripsK9_f
import proofs.«156783_j90975997264310_2_alg».proof.Proof.StripsK10_f
import proofs.«156783_j90975997264310_2_alg».proof.Proof.StripsK11_f
import proofs.«156783_j90975997264310_2_alg».proof.Proof.KindsFP_f

open Idealize.ShloMosaic Idealize.ShloMosaic.StableHlo Cert.KindsF

namespace Cert.Strips

/-- The top strip of face 8. -/
theorem ktop8 (M : Valuation Cert.KernelIdeal.τ Cert.KernelIdeal.sig (Elt Ideal)) :
    (StableHlo.after (Cert.KernelIdeal.Hand.kops (F := Ideal)) M (Proc.devRef .tc Cert.KernelIdeal.main_v533) : Cert.KernelIdeal.S8x32x2x128.Idx → Elt Ideal .f32)
      = ptop8 (M (Proc.devRef .tc Cert.KernelIdeal.main_arg0)) :=
  (K.kStrips8 M).1

/-- The bottom strip of face 8. -/
theorem kbottom8 (M : Valuation Cert.KernelIdeal.τ Cert.KernelIdeal.sig (Elt Ideal)) :
    (StableHlo.after (Cert.KernelIdeal.Hand.kops (F := Ideal)) M (Proc.devRef .tc Cert.KernelIdeal.main_v535) : Cert.KernelIdeal.S8x32x2x128.Idx → Elt Ideal .f32)
      = pbottom8 (M (Proc.devRef .tc Cert.KernelIdeal.main_arg0)) :=
  (K.kStrips8 M).2.1.trans (kBottom_eq_rBottom _)

/-- The left strip of face 8. -/
theorem kleft8 (M : Valuation Cert.KernelIdeal.τ Cert.KernelIdeal.sig (Elt Ideal)) :
    (StableHlo.after (Cert.KernelIdeal.Hand.kops (F := Ideal)) M (Proc.devRef .tc Cert.KernelIdeal.main_v545) : Cert.KernelIdeal.S8x32x132x2.Idx → Elt Ideal .f32)
      = pleft8 (M (Proc.devRef .tc Cert.KernelIdeal.main_arg0)) :=
  (K.kStrips8 M).2.2.1.trans (kLeft_eq_rLeft _ _ _ ⟨rfl, rfl, rfl, rfl⟩ ⟨rfl, rfl, rfl, rfl⟩ ⟨rfl, rfl, rfl, rfl⟩ _ _ _ _ (fun _ => rfl) (fun _ => rfl) (fun _ => rfl) _ _ _)

/-- The right strip of face 8. -/
theorem kright8 (M : Valuation Cert.KernelIdeal.τ Cert.KernelIdeal.sig (Elt Ideal)) :
    (StableHlo.after (Cert.KernelIdeal.Hand.kops (F := Ideal)) M (Proc.devRef .tc Cert.KernelIdeal.main_v557) : Cert.KernelIdeal.S8x32x132x2.Idx → Elt Ideal .f32)
      = pright8 (M (Proc.devRef .tc Cert.KernelIdeal.main_arg0)) :=
  (K.kStrips8 M).2.2.2.trans (kRight_eq_rRight _ _ _ ⟨rfl, rfl, rfl, rfl⟩ ⟨rfl, rfl, rfl, rfl⟩ ⟨rfl, rfl, rfl, rfl⟩ _ _ _ _ (fun _ => rfl) (fun _ => rfl) (fun _ => rfl) _ _ _)

/-- The top strip of face 9. -/
theorem ktop9 (M : Valuation Cert.KernelIdeal.τ Cert.KernelIdeal.sig (Elt Ideal)) :
    (StableHlo.after (Cert.KernelIdeal.Hand.kops (F := Ideal)) M (Proc.devRef .tc Cert.KernelIdeal.main_v558) : Cert.KernelIdeal.S8x32x2x128.Idx → Elt Ideal .f32)
      = ptop9 (M (Proc.devRef .tc Cert.KernelIdeal.main_arg0)) :=
  (K.kStrips9 M).1

/-- The bottom strip of face 9. -/
theorem kbottom9 (M : Valuation Cert.KernelIdeal.τ Cert.KernelIdeal.sig (Elt Ideal)) :
    (StableHlo.after (Cert.KernelIdeal.Hand.kops (F := Ideal)) M (Proc.devRef .tc Cert.KernelIdeal.main_v560) : Cert.KernelIdeal.S8x32x2x128.Idx → Elt Ideal .f32)
      = pbottom9 (M (Proc.devRef .tc Cert.KernelIdeal.main_arg0)) :=
  (K.kStrips9 M).2.1.trans (kBottom_eq_rBottom _)

/-- The left strip of face 9. -/
theorem kleft9 (M : Valuation Cert.KernelIdeal.τ Cert.KernelIdeal.sig (Elt Ideal)) :
    (StableHlo.after (Cert.KernelIdeal.Hand.kops (F := Ideal)) M (Proc.devRef .tc Cert.KernelIdeal.main_v570) : Cert.KernelIdeal.S8x32x132x2.Idx → Elt Ideal .f32)
      = pleft9 (M (Proc.devRef .tc Cert.KernelIdeal.main_arg0)) :=
  (K.kStrips9 M).2.2.1.trans (kLeft_eq_rLeft _ _ _ ⟨rfl, rfl, rfl, rfl⟩ ⟨rfl, rfl, rfl, rfl⟩ ⟨rfl, rfl, rfl, rfl⟩ _ _ _ _ (fun _ => rfl) (fun _ => rfl) (fun _ => rfl) _ _ _)

/-- The right strip of face 9. -/
theorem kright9 (M : Valuation Cert.KernelIdeal.τ Cert.KernelIdeal.sig (Elt Ideal)) :
    (StableHlo.after (Cert.KernelIdeal.Hand.kops (F := Ideal)) M (Proc.devRef .tc Cert.KernelIdeal.main_v582) : Cert.KernelIdeal.S8x32x132x2.Idx → Elt Ideal .f32)
      = pright9 (M (Proc.devRef .tc Cert.KernelIdeal.main_arg0)) :=
  (K.kStrips9 M).2.2.2.trans (kRight_eq_rRight _ _ _ ⟨rfl, rfl, rfl, rfl⟩ ⟨rfl, rfl, rfl, rfl⟩ ⟨rfl, rfl, rfl, rfl⟩ _ _ _ _ (fun _ => rfl) (fun _ => rfl) (fun _ => rfl) _ _ _)

/-- The top strip of face 10. -/
theorem ktop10 (M : Valuation Cert.KernelIdeal.τ Cert.KernelIdeal.sig (Elt Ideal)) :
    (StableHlo.after (Cert.KernelIdeal.Hand.kops (F := Ideal)) M (Proc.devRef .tc Cert.KernelIdeal.main_v583) : Cert.KernelIdeal.S8x32x2x128.Idx → Elt Ideal .f32)
      = ptop10 (M (Proc.devRef .tc Cert.KernelIdeal.main_arg0)) :=
  (K.kStrips10 M).1

/-- The bottom strip of face 10. -/
theorem kbottom10 (M : Valuation Cert.KernelIdeal.τ Cert.KernelIdeal.sig (Elt Ideal)) :
    (StableHlo.after (Cert.KernelIdeal.Hand.kops (F := Ideal)) M (Proc.devRef .tc Cert.KernelIdeal.main_v585) : Cert.KernelIdeal.S8x32x2x128.Idx → Elt Ideal .f32)
      = pbottom10 (M (Proc.devRef .tc Cert.KernelIdeal.main_arg0)) :=
  (K.kStrips10 M).2.1.trans (kBottom_eq_rBottom _)

/-- The left strip of face 10. -/
theorem kleft10 (M : Valuation Cert.KernelIdeal.τ Cert.KernelIdeal.sig (Elt Ideal)) :
    (StableHlo.after (Cert.KernelIdeal.Hand.kops (F := Ideal)) M (Proc.devRef .tc Cert.KernelIdeal.main_v595) : Cert.KernelIdeal.S8x32x132x2.Idx → Elt Ideal .f32)
      = pleft10 (M (Proc.devRef .tc Cert.KernelIdeal.main_arg0)) :=
  (K.kStrips10 M).2.2.1.trans (kLeft_eq_rLeft _ _ _ ⟨rfl, rfl, rfl, rfl⟩ ⟨rfl, rfl, rfl, rfl⟩ ⟨rfl, rfl, rfl, rfl⟩ _ _ _ _ (fun _ => rfl) (fun _ => rfl) (fun _ => rfl) _ _ _)

/-- The right strip of face 10. -/
theorem kright10 (M : Valuation Cert.KernelIdeal.τ Cert.KernelIdeal.sig (Elt Ideal)) :
    (StableHlo.after (Cert.KernelIdeal.Hand.kops (F := Ideal)) M (Proc.devRef .tc Cert.KernelIdeal.main_v607) : Cert.KernelIdeal.S8x32x132x2.Idx → Elt Ideal .f32)
      = pright10 (M (Proc.devRef .tc Cert.KernelIdeal.main_arg0)) :=
  (K.kStrips10 M).2.2.2.trans (kRight_eq_rRight _ _ _ ⟨rfl, rfl, rfl, rfl⟩ ⟨rfl, rfl, rfl, rfl⟩ ⟨rfl, rfl, rfl, rfl⟩ _ _ _ _ (fun _ => rfl) (fun _ => rfl) (fun _ => rfl) _ _ _)

/-- The top strip of face 11. -/
theorem ktop11 (M : Valuation Cert.KernelIdeal.τ Cert.KernelIdeal.sig (Elt Ideal)) :
    (StableHlo.after (Cert.KernelIdeal.Hand.kops (F := Ideal)) M (Proc.devRef .tc Cert.KernelIdeal.main_v608) : Cert.KernelIdeal.S8x32x2x128.Idx → Elt Ideal .f32)
      = ptop11 (M (Proc.devRef .tc Cert.KernelIdeal.main_arg0)) :=
  (K.kStrips11 M).1

/-- The bottom strip of face 11. -/
theorem kbottom11 (M : Valuation Cert.KernelIdeal.τ Cert.KernelIdeal.sig (Elt Ideal)) :
    (StableHlo.after (Cert.KernelIdeal.Hand.kops (F := Ideal)) M (Proc.devRef .tc Cert.KernelIdeal.main_v610) : Cert.KernelIdeal.S8x32x2x128.Idx → Elt Ideal .f32)
      = pbottom11 (M (Proc.devRef .tc Cert.KernelIdeal.main_arg0)) :=
  (K.kStrips11 M).2.1.trans (kBottom_eq_rBottom _)

/-- The left strip of face 11. -/
theorem kleft11 (M : Valuation Cert.KernelIdeal.τ Cert.KernelIdeal.sig (Elt Ideal)) :
    (StableHlo.after (Cert.KernelIdeal.Hand.kops (F := Ideal)) M (Proc.devRef .tc Cert.KernelIdeal.main_v620) : Cert.KernelIdeal.S8x32x132x2.Idx → Elt Ideal .f32)
      = pleft11 (M (Proc.devRef .tc Cert.KernelIdeal.main_arg0)) :=
  (K.kStrips11 M).2.2.1.trans (kLeft_eq_rLeft _ _ _ ⟨rfl, rfl, rfl, rfl⟩ ⟨rfl, rfl, rfl, rfl⟩ ⟨rfl, rfl, rfl, rfl⟩ _ _ _ _ (fun _ => rfl) (fun _ => rfl) (fun _ => rfl) _ _ _)

/-- The right strip of face 11. -/
theorem kright11 (M : Valuation Cert.KernelIdeal.τ Cert.KernelIdeal.sig (Elt Ideal)) :
    (StableHlo.after (Cert.KernelIdeal.Hand.kops (F := Ideal)) M (Proc.devRef .tc Cert.KernelIdeal.main_v632) : Cert.KernelIdeal.S8x32x132x2.Idx → Elt Ideal .f32)
      = pright11 (M (Proc.devRef .tc Cert.KernelIdeal.main_arg0)) :=
  (K.kStrips11 M).2.2.2.trans (kRight_eq_rRight _ _ _ ⟨rfl, rfl, rfl, rfl⟩ ⟨rfl, rfl, rfl, rfl⟩ ⟨rfl, rfl, rfl, rfl⟩ _ _ _ _ (fun _ => rfl) (fun _ => rfl) (fun _ => rfl) _ _ _)

end Cert.Strips
-- ==== Proof.KAssembly.lean ====
/-
  The kernel's result is the specification of its argument: the generic statement at the 48 pure strip functions,
  each strip the host operations leave being its pure function of the argument.
-/
import proofs.«156783_j90975997264310_2_alg».proof.Proof.KAssemblyGen_c
import proofs.«156783_j90975997264310_2_alg».proof.Proof.PureStrips_c
import proofs.«156783_j90975997264310_2_alg».proof.Proof.StripsKP_d
import proofs.«156783_j90975997264310_2_alg».proof.Proof.StripsKP_e
import proofs.«156783_j90975997264310_2_alg».proof.Proof.StripsKP_f

noncomputable section

namespace Cert.KAssembly

open Idealize.ShloMosaic Idealize.ShloMosaic.ValueIdx Idealize.SL.Sem

/-- Face by face, the kernel's top strip is the pure top strip of its argument. -/
theorem tops_pure (M : Valuation Cert.KernelIdeal.τ Cert.KernelIdeal.sig (Elt Ideal)) (f : Fin 12) :
    Cert.KernelIdeal.Hand.tops M f = Cert.Spec.ptops f (M (Proc.devRef .tc Cert.KernelIdeal.main_arg0)) := by
  have h : Cert.KernelIdeal.Hand.tops M = fun f => Cert.Spec.ptops f (M (Proc.devRef .tc Cert.KernelIdeal.main_arg0)) := by
    unfold Cert.KernelIdeal.Hand.tops
    rw [Cert.Strips.ktop0 M, Cert.Strips.ktop1 M, Cert.Strips.ktop2 M, Cert.Strips.ktop3 M, Cert.Strips.ktop4 M, Cert.Strips.ktop5 M, Cert.Strips.ktop6 M, Cert.Strips.ktop7 M, Cert.Strips.ktop8 M, Cert.Strips.ktop9 M, Cert.Strips.ktop10 M, Cert.Strips.ktop11 M]
    funext f
    fin_cases f <;> rfl
  exact congrFun h f

/-- Face by face, the kernel's bottom strip is the pure bottom strip of its argument. -/
theorem bottoms_pure (M : Valuation Cert.KernelIdeal.τ Cert.KernelIdeal.sig (Elt Ideal)) (f : Fin 12) :
    Cert.KernelIdeal.Hand.bottoms M f = Cert.Spec.pbottoms f (M (Proc.devRef .tc Cert.KernelIdeal.main_arg0)) := by
  have h : Cert.KernelIdeal.Hand.bottoms M = fun f => Cert.Spec.pbottoms f (M (Proc.devRef .tc Cert.KernelIdeal.main_arg0)) := by
    unfold Cert.KernelIdeal.Hand.bottoms
    rw [Cert.Strips.kbottom0 M, Cert.Strips.kbottom1 M, Cert.Strips.kbottom2 M, Cert.Strips.kbottom3 M, Cert.Strips.kbottom4 M, Cert.Strips.kbottom5 M, Cert.Strips.kbottom6 M, Cert.Strips.kbottom7 M, Cert.Strips.kbottom8 M, Cert.Strips.kbottom9 M, Cert.Strips.kbottom10 M, Cert.Strips.kbottom11 M]
    funext f
    fin_cases f <;> rfl
  exact congrFun h f

/-- Face by face, the kernel's left strip is the pure left strip of its argument. -/
theorem lefts_pure (M : Valuation Cert.KernelIdeal.τ Cert.KernelIdeal.sig (Elt Ideal)) (f : Fin 12) :
    Cert.KernelIdeal.Hand.lefts M f = Cert.Spec.plefts f (M (Proc.devRef .tc Cert.KernelIdeal.main_arg0)) := by
  have h : Cert.KernelIdeal.Hand.lefts M = fun f => Cert.Spec.plefts f (M (Proc.devRef .tc Cert.KernelIdeal.main_arg0)) := by
    unfold Cert.KernelIdeal.Hand.lefts
    rw [Cert.Strips.kleft0 M, Cert.Strips.kleft1 M, Cert.Strips.kleft2 M, Cert.Strips.kleft3 M, Cert.Strips.kleft4 M, Cert.Strips.kleft5 M, Cert.Strips.kleft6 M, Cert.Strips.kleft7 M, Cert.Strips.kleft8 M, Cert.Strips.kleft9 M, Cert.Strips.kleft10 M, Cert.Strips.kleft11 M]
    funext f
    fin_cases f <;> rfl
  exact congrFun h f

/-- Face by face, the kernel's right strip is the pure right strip of its argument. -/
theorem rights_pure (M : Valuation Cert.KernelIdeal.τ Cert.KernelIdeal.sig (Elt Ideal)) (f : Fin 12) :
    Cert.KernelIdeal.Hand.rights M f = Cert.Spec.prights f (M (Proc.devRef .tc Cert.KernelIdeal.main_arg0)) := by
  have h : Cert.KernelIdeal.Hand.rights M = fun f => Cert.Spec.prights f (M (Proc.devRef .tc Cert.KernelIdeal.main_arg0)) := by
    unfold Cert.KernelIdeal.Hand.rights
    rw [Cert.Strips.kright0 M, Cert.Strips.kright1 M, Cert.Strips.kright2 M, Cert.Strips.kright3 M, Cert.Strips.kright4 M, Cert.Strips.kright5 M, Cert.Strips.kright6 M, Cert.Strips.kright7 M, Cert.Strips.kright8 M, Cert.Strips.kright9 M, Cert.Strips.kright10 M, Cert.Strips.kright11 M]
    funext f
    fin_cases f <;> rfl
  exact congrFun h f
/-- **The kernel's result is the specification of its argument.** -/
theorem kfinal (m : (ℓ : Loc Cert.KernelIdeal.nD Cert.KernelIdeal.τ Cert.KernelIdeal.sig) → Buf (Elt Ideal) ℓ) (c : Dev Cert.KernelIdeal.nD) :
    (Cert.KernelIdeal.HandValue.G (F := Ideal) m c : Cert.KernelIdeal.S96x32x132x132.Idx → Elt Ideal .f32)
      = Cert.Spec.Ppad (m ((c.tc : Thread Cert.KernelIdeal.nD Cert.KernelIdeal.τ).loc Cert.KernelIdeal.main_arg0)) :=
  kfinal_of _ _ _ _ tops_pure bottoms_pure lefts_pure rights_pure m c

end Cert.KAssembly

end
-- ==== Proof.RSplit.lean ====
/-
  The reference's operations, window by window. The fold over the whole line is the fold over the last window of
  the fold over the one before, and so on down to the first; a buffer that no later window writes is read off the fold
  up to its own window.
-/
import proofs.«156783_j90975997264310_2_alg».proof.Proof.RefRun

noncomputable section

namespace Cert.ReferenceIdeal.Hand

open Idealize.ShloMosaic Idealize.ShloMosaic.StableHlo Cert.ReferenceIdeal Cert.ReferenceIdeal.Gen

variable {F : FTy → Type} [FloatOps F]

/-- The whole line's fold, window after window. -/
theorem ops_split (M' : Valuation τ sig (Elt F)) :
    StableHlo.after ops M' = StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 M')))))))))) := by
  show StableHlo.after (ops0 ++ (ops1 ++ (ops2 ++ (ops3 ++ (ops4 ++ (ops5 ++ (ops6 ++ (ops7 ++ (ops8 ++ (ops9 ++ ops10)))))))))) M' = _
  rw [StableHlo.after_append, StableHlo.after_append, StableHlo.after_append, StableHlo.after_append, StableHlo.after_append, StableHlo.after_append, StableHlo.after_append, StableHlo.after_append, StableHlo.after_append, StableHlo.after_append]

/-- A buffer no window after window 0 writes is read off the fold up to window 0. -/
theorem upto0 (M' : Valuation τ sig (Elt F)) (r : Ref sig .tc) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) :
    StableHlo.after ops M' (Proc.devRef .tc r) = StableHlo.after ops0 M' (Proc.devRef .tc r) := by
  rw [ops_split, ops10_keeps _ r h10, ops9_keeps _ r h9, ops8_keeps _ r h8, ops7_keeps _ r h7, ops6_keeps _ r h6, ops5_keeps _ r h5, ops4_keeps _ r h4, ops3_keeps _ r h3, ops2_keeps _ r h2, ops1_keeps _ r h1]

/-- A buffer no window after window 1 writes is read off the fold up to window 1. -/
theorem upto1 (M' : Valuation τ sig (Elt F)) (r : Ref sig .tc) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) :
    StableHlo.after ops M' (Proc.devRef .tc r) = StableHlo.after ops1 (StableHlo.after ops0 M') (Proc.devRef .tc r) := by
  rw [ops_split, ops10_keeps _ r h10, ops9_keeps _ r h9, ops8_keeps _ r h8, ops7_keeps _ r h7, ops6_keeps _ r h6, ops5_keeps _ r h5, ops4_keeps _ r h4, ops3_keeps _ r h3, ops2_keeps _ r h2]

/-- A buffer no window after window 2 writes is read off the fold up to window 2. -/
theorem upto2 (M' : Valuation τ sig (Elt F)) (r : Ref sig .tc) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) :
    StableHlo.after ops M' (Proc.devRef .tc r) = StableHlo.after ops2 (StableHlo.after ops1 (StableHlo.after ops0 M')) (Proc.devRef .tc r) := by
  rw [ops_split, ops10_keeps _ r h10, ops9_keeps _ r h9, ops8_keeps _ r h8, ops7_keeps _ r h7, ops6_keeps _ r h6, ops5_keeps _ r h5, ops4_keeps _ r h4, ops3_keeps _ r h3]

/-- A buffer no window after window 3 writes is read off the fold up to window 3. -/
theorem upto3 (M' : Valuation τ sig (Elt F)) (r : Ref sig .tc) (h4 : r ∉ ops4_W) (h5 : r ∉ ops5_W) (h6 : r ∉ ops6_W) (h7 : r ∉ ops7_W) (h8 : r ∉ ops8_W) (h9 : r ∉ ops9_W) (h10 : r ∉ ops10_W) :
    StableHlo.after ops M' (Proc.devRef .tc r) = StableHlo.after ops3 (StableHlo.after ops2 (StableHlo.after ops1 (StableHlo.after ops0 M'))) (Proc.devRef .tc r) := by
  rw [ops_split, ops10_keeps _ r h10, ops9_keeps _ r h9, ops8_keeps _ r h8, ops7_keeps _ r h7, ops6_keeps _ r h6, ops5_keeps _ r h5, ops4_keeps _ r h4]

/-- A buffer no window after window 4 writes is read off the fold up to window 4. -/
theorem upto4 (M' : Valuation τ sig (Elt F)) (r : Ref sig .tc) (h5 : r ∉ ops5_W) (h6 : r ∉ ops6_W) (h7 : r ∉ ops7_W) (h8 : r ∉ ops8_W) (h9 : r ∉ ops9_W) (h10 : r ∉ ops10_W) :
    StableHlo.after ops M' (Proc.devRef .tc r) = StableHlo.after ops4 (StableHlo.after ops3 (StableHlo.after ops2 (StableHlo.after ops1 (StableHlo.after ops0 M')))) (Proc.devRef .tc r) := by
  rw [ops_split, ops10_keeps _ r h10, ops9_keeps _ r h9, ops8_keeps _ r h8, ops7_keeps _ r h7, ops6_keeps _ r h6, ops5_keeps _ r h5]

/-- A buffer no window after window 5 writes is read off the fold up to window 5. -/
theorem upto5 (M' : Valuation τ sig (Elt F)) (r : Ref sig .tc) (h6 : r ∉ ops6_W) (h7 : r ∉ ops7_W) (h8 : r ∉ ops8_W) (h9 : r ∉ ops9_W) (h10 : r ∉ ops10_W) :
    StableHlo.after ops M' (Proc.devRef .tc r) = StableHlo.after ops5 (StableHlo.after ops4 (StableHlo.after ops3 (StableHlo.after ops2 (StableHlo.after ops1 (StableHlo.after ops0 M'))))) (Proc.devRef .tc r) := by
  rw [ops_split, ops10_keeps _ r h10, ops9_keeps _ r h9, ops8_keeps _ r h8, ops7_keeps _ r h7, ops6_keeps _ r h6]

/-- A buffer no window after window 6 writes is read off the fold up to window 6. -/
theorem upto6 (M' : Valuation τ sig (Elt F)) (r : Ref sig .tc) (h7 : r ∉ ops7_W) (h8 : r ∉ ops8_W) (h9 : r ∉ ops9_W) (h10 : r ∉ ops10_W) :
    StableHlo.after ops M' (Proc.devRef .tc r) = StableHlo.after ops6 (StableHlo.after ops5 (StableHlo.after ops4 (StableHlo.after ops3 (StableHlo.after ops2 (StableHlo.after ops1 (StableHlo.after ops0 M')))))) (Proc.devRef .tc r) := by
  rw [ops_split, ops10_keeps _ r h10, ops9_keeps _ r h9, ops8_keeps _ r h8, ops7_keeps _ r h7]

/-- A buffer no window after window 7 writes is read off the fold up to window 7. -/
theorem upto7 (M' : Valuation τ sig (Elt F)) (r : Ref sig .tc) (h8 : r ∉ ops8_W) (h9 : r ∉ ops9_W) (h10 : r ∉ ops10_W) :
    StableHlo.after ops M' (Proc.devRef .tc r) = StableHlo.after ops7 (StableHlo.after ops6 (StableHlo.after ops5 (StableHlo.after ops4 (StableHlo.after ops3 (StableHlo.after ops2 (StableHlo.after ops1 (StableHlo.after ops0 M'))))))) (Proc.devRef .tc r) := by
  rw [ops_split, ops10_keeps _ r h10, ops9_keeps _ r h9, ops8_keeps _ r h8]

/-- A buffer no window after window 8 writes is read off the fold up to window 8. -/
theorem upto8 (M' : Valuation τ sig (Elt F)) (r : Ref sig .tc) (h9 : r ∉ ops9_W) (h10 : r ∉ ops10_W) :
    StableHlo.after ops M' (Proc.devRef .tc r) = StableHlo.after ops8 (StableHlo.after ops7 (StableHlo.after ops6 (StableHlo.after ops5 (StableHlo.after ops4 (StableHlo.after ops3 (StableHlo.after ops2 (StableHlo.after ops1 (StableHlo.after ops0 M')))))))) (Proc.devRef .tc r) := by
  rw [ops_split, ops10_keeps _ r h10, ops9_keeps _ r h9]

/-- A buffer no window after window 9 writes is read off the fold up to window 9. -/
theorem upto9 (M' : Valuation τ sig (Elt F)) (r : Ref sig .tc) (h10 : r ∉ ops10_W) :
    StableHlo.after ops M' (Proc.devRef .tc r) = StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc r) := by
  rw [ops_split, ops10_keeps _ r h10]

/-- A buffer no window after window 10 writes is read off the fold up to window 10. -/
theorem upto10 (M' : Valuation τ sig (Elt F)) (r : Ref sig .tc)  :
    StableHlo.after ops M' (Proc.devRef .tc r) = StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc r) := by
  rw [ops_split]

end Cert.ReferenceIdeal.Hand

end
-- ==== Proof.LibNary3.lean ====
/-
  An operation with a literal family of three operands, read at its result: the operation's function applied to
  the three operands' contents, each AT ITS OWN REFERENCE. Stated with the family as a function of the position the
  contents would be read at a reference that is not a literal, and a fold over a line of operations could not go on
  through it to the operands' own values.
-/
import Idealize.ShloMosaic.Lib.StableHlo.Run

namespace Cert.LibNary3

open Idealize.ShloMosaic Idealize.ShloMosaic.StableHlo

variable {τ : Topo} {sig : RefSig} {Val : EltTy → Type} {x a b y : Ref sig .tc}

/-- A three-operand operation's result, the operands' contents each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for one simplification pass (the result reference left out of the index). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One simplification pass computing what a buffer holds after a line of operations whose many-operand operations
    read have three operands: each operation's result at its own buffer, what was there at any other. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibNary3
-- ==== Proof.RWin0.lean ====
/-
  Window 0 of the reference's operations, read by itself over an arbitrary valuation `W` of the buffers before it:
  the twelve faces cut out of the argument; the middles of faces 0, 1, 2; the padded faces 0, 1. Each fact says that a
  buffer written in the window holds the operation's function of its operands' contents, the operands also read
  through the window. The facts are proved together, in one pass over the window's operations.
-/
import proofs.«156783_j90975997264310_2_alg».proof.Proof.RefOps0
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- Window 0's facts: each face buffer holds the reshape of the slice of the reshape of the argument (whatever the proofs
    of the shapes' side conditions); the middles of faces 0, 1, 2; the padded faces 0, 1. -/
theorem win0_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    (∀ (h1 : (S96x32x128x128 : Shape).ShapeCasts S8x12x32x128x128) (h2 : ∀ f : ℕ, f < 12 → (S8x12x32x128x128 : Shape).Slices ![0, f, 0, 0, 0] S8x1x32x128x128) (h3 : (S8x1x32x128x128 : Shape).ShapeCasts S8x32x128x128),
      ((StableHlo.after ops0 W (Proc.devRef .tc main_v2) : S8x32x128x128.Idx → Elt F .f32) = shapeCast S8x32x128x128 (extractStridedSlice S8x1x32x128x128 ![0, 0, 0, 0, 0] (fun k => shapeCast S8x12x32x128x128 (W (Proc.devRef .tc main_arg0) : S96x32x128x128.Idx → Elt F .f32) h1 k) (h2 0 (by decide))) h3)
      ∧ ((StableHlo.after ops0 W (Proc.devRef .tc main_v4) : S8x32x128x128.Idx → Elt F .f32) = shapeCast S8x32x128x128 (extractStridedSlice S8x1x32x128x128 ![0, 1, 0, 0, 0] (fun k => shapeCast S8x12x32x128x128 (W (Proc.devRef .tc main_arg0) : S96x32x128x128.Idx → Elt F .f32) h1 k) (h2 1 (by decide))) h3)
      ∧ ((StableHlo.after ops0 W (Proc.devRef .tc main_v6) : S8x32x128x128.Idx → Elt F .f32) = shapeCast S8x32x128x128 (extractStridedSlice S8x1x32x128x128 ![0, 2, 0, 0, 0] (fun k => shapeCast S8x12x32x128x128 (W (Proc.devRef .tc main_arg0) : S96x32x128x128.Idx → Elt F .f32) h1 k) (h2 2 (by decide))) h3)
      ∧ ((StableHlo.after ops0 W (Proc.devRef .tc main_v8) : S8x32x128x128.Idx → Elt F .f32) = shapeCast S8x32x128x128 (extractStridedSlice S8x1x32x128x128 ![0, 3, 0, 0, 0] (fun k => shapeCast S8x12x32x128x128 (W (Proc.devRef .tc main_arg0) : S96x32x128x128.Idx → Elt F .f32) h1 k) (h2 3 (by decide))) h3)
      ∧ ((StableHlo.after ops0 W (Proc.devRef .tc main_v10) : S8x32x128x128.Idx → Elt F .f32) = shapeCast S8x32x128x128 (extractStridedSlice S8x1x32x128x128 ![0, 4, 0, 0, 0] (fun k => shapeCast S8x12x32x128x128 (W (Proc.devRef .tc main_arg0) : S96x32x128x128.Idx → Elt F .f32) h1 k) (h2 4 (by decide))) h3)
      ∧ ((StableHlo.after ops0 W (Proc.devRef .tc main_v12) : S8x32x128x128.Idx → Elt F .f32) = shapeCast S8x32x128x128 (extractStridedSlice S8x1x32x128x128 ![0, 5, 0, 0, 0] (fun k => shapeCast S8x12x32x128x128 (W (Proc.devRef .tc main_arg0) : S96x32x128x128.Idx → Elt F .f32) h1 k) (h2 5 (by decide))) h3)
      ∧ ((StableHlo.after ops0 W (Proc.devRef .tc main_v14) : S8x32x128x128.Idx → Elt F .f32) = shapeCast S8x32x128x128 (extractStridedSlice S8x1x32x128x128 ![0, 6, 0, 0, 0] (fun k => shapeCast S8x12x32x128x128 (W (Proc.devRef .tc main_arg0) : S96x32x128x128.Idx → Elt F .f32) h1 k) (h2 6 (by decide))) h3)
      ∧ ((StableHlo.after ops0 W (Proc.devRef .tc main_v16) : S8x32x128x128.Idx → Elt F .f32) = shapeCast S8x32x128x128 (extractStridedSlice S8x1x32x128x128 ![0, 7, 0, 0, 0] (fun k => shapeCast S8x12x32x128x128 (W (Proc.devRef .tc main_arg0) : S96x32x128x128.Idx → Elt F .f32) h1 k) (h2 7 (by decide))) h3)
      ∧ ((StableHlo.after ops0 W (Proc.devRef .tc main_v18) : S8x32x128x128.Idx → Elt F .f32) = shapeCast S8x32x128x128 (extractStridedSlice S8x1x32x128x128 ![0, 8, 0, 0, 0] (fun k => shapeCast S8x12x32x128x128 (W (Proc.devRef .tc main_arg0) : S96x32x128x128.Idx → Elt F .f32) h1 k) (h2 8 (by decide))) h3)
      ∧ ((StableHlo.after ops0 W (Proc.devRef .tc main_v20) : S8x32x128x128.Idx → Elt F .f32) = shapeCast S8x32x128x128 (extractStridedSlice S8x1x32x128x128 ![0, 9, 0, 0, 0] (fun k => shapeCast S8x12x32x128x128 (W (Proc.devRef .tc main_arg0) : S96x32x128x128.Idx → Elt F .f32) h1 k) (h2 9 (by decide))) h3)
      ∧ ((StableHlo.after ops0 W (Proc.devRef .tc main_v22) : S8x32x128x128.Idx → Elt F .f32) = shapeCast S8x32x128x128 (extractStridedSlice S8x1x32x128x128 ![0, 10, 0, 0, 0] (fun k => shapeCast S8x12x32x128x128 (W (Proc.devRef .tc main_arg0) : S96x32x128x128.Idx → Elt F .f32) h1 k) (h2 10 (by decide))) h3)
      ∧ ((StableHlo.after ops0 W (Proc.devRef .tc main_v24) : S8x32x128x128.Idx → Elt F .f32) = shapeCast S8x32x128x128 (extractStridedSlice S8x1x32x128x128 ![0, 11, 0, 0, 0] (fun k => shapeCast S8x12x32x128x128 (W (Proc.devRef .tc main_arg0) : S96x32x128x128.Idx → Elt F .f32) h1 k) (h2 11 (by decide))) h3))
    ∧ ((StableHlo.after ops0 W (Proc.devRef .tc main_v28) : S8x32x132x128.Idx → Elt F .f32)
      = concatenate S8x32x132x128 2 [⟨S8x32x2x128, (StableHlo.after ops0 W (Proc.devRef .tc main_v26) : S8x32x2x128.Idx → Elt F .f32)⟩,
          ⟨S8x32x128x128, (StableHlo.after ops0 W (Proc.devRef .tc main_v2) : S8x32x128x128.Idx → Elt F .f32)⟩,
          ⟨S8x32x2x128, (StableHlo.after ops0 W (Proc.devRef .tc main_v27) : S8x32x2x128.Idx → Elt F .f32)⟩] hc1)
    ∧ ((StableHlo.after ops0 W (Proc.devRef .tc main_v43) : S8x32x132x128.Idx → Elt F .f32)
      = concatenate S8x32x132x128 2 [⟨S8x32x2x128, (StableHlo.after ops0 W (Proc.devRef .tc main_v41) : S8x32x2x128.Idx → Elt F .f32)⟩,
          ⟨S8x32x128x128, (StableHlo.after ops0 W (Proc.devRef .tc main_v4) : S8x32x128x128.Idx → Elt F .f32)⟩,
          ⟨S8x32x2x128, (StableHlo.after ops0 W (Proc.devRef .tc main_v42) : S8x32x2x128.Idx → Elt F .f32)⟩] hc1)
    ∧ ((StableHlo.after ops0 W (Proc.devRef .tc main_v58) : S8x32x132x128.Idx → Elt F .f32)
      = concatenate S8x32x132x128 2 [⟨S8x32x2x128, (StableHlo.after ops0 W (Proc.devRef .tc main_v56) : S8x32x2x128.Idx → Elt F .f32)⟩,
          ⟨S8x32x128x128, (StableHlo.after ops0 W (Proc.devRef .tc main_v6) : S8x32x128x128.Idx → Elt F .f32)⟩,
          ⟨S8x32x2x128, (StableHlo.after ops0 W (Proc.devRef .tc main_v57) : S8x32x2x128.Idx → Elt F .f32)⟩] hc1)
    ∧ ((StableHlo.after ops0 W (Proc.devRef .tc main_v39) : S8x32x132x132.Idx → Elt F .f32)
      = concatenate S8x32x132x132 3 [⟨S8x32x132x2, (StableHlo.after ops0 W (Proc.devRef .tc main_v34) : S8x32x132x2.Idx → Elt F .f32)⟩,
          ⟨S8x32x132x128, (StableHlo.after ops0 W (Proc.devRef .tc main_v28) : S8x32x132x128.Idx → Elt F .f32)⟩,
          ⟨S8x32x132x2, (StableHlo.after ops0 W (Proc.devRef .tc main_v38) : S8x32x132x2.Idx → Elt F .f32)⟩] hc2)
    ∧ ((StableHlo.after ops0 W (Proc.devRef .tc main_v54) : S8x32x132x132.Idx → Elt F .f32)
      = concatenate S8x32x132x132 3 [⟨S8x32x132x2, (StableHlo.after ops0 W (Proc.devRef .tc main_v49) : S8x32x132x2.Idx → Elt F .f32)⟩,
          ⟨S8x32x132x128, (StableHlo.after ops0 W (Proc.devRef .tc main_v43) : S8x32x132x128.Idx → Elt F .f32)⟩,
          ⟨S8x32x132x2, (StableHlo.after ops0 W (Proc.devRef .tc main_v53) : S8x32x132x2.Idx → Elt F .f32)⟩] hc2) := by
  simp only [ops0]
  after_results_simp3
  refine ⟨fun h1 h2 h3 => ⟨rfl, rfl, rfl, rfl, rfl, rfl, rfl, rfl, rfl, rfl, rfl, rfl⟩, ?_, ?_, ?_, ?_, ?_⟩ <;> rfl

end Cert.ReferenceIdeal.Hand

end
-- ==== Proof.RStacksA.lean ====
/-
  The pieces the reference's result is assembled from, as the operations leave them: the twelve faces, their four
  strips each and the padded faces, as vectors of buffers' contents; the two joins that pad a face as functions of plain
  arrays; and the faces as slices of the argument: entry (b, c, i, j) of face f is entry (b·12 + f, c, i, j) of the argument.
-/
import proofs.«156783_j90975997264310_2_alg».proof.Proof.RSplit
import proofs.«156783_j90975997264310_2_alg».proof.Proof.RWin0
import proofs.«156783_j90975997264310_2_alg».proof.Proof.LibFaceSlice
import proofs.«156783_j90975997264310_2_alg».proof.Proof.LibFaceStack

noncomputable section

namespace Cert.ReferenceIdeal.Hand

open Idealize.ShloMosaic Idealize.ShloMosaic.StableHlo Idealize.ShloMosaic.ValueIdx Cert.ReferenceIdeal Cert.ReferenceIdeal.Gen Cert.LibFaceStack

variable {F : FTy → Type} [FloatOps F]

/-! ## Congruences -/

/-- A face's middle: its top strip, the face and its bottom strip joined along the rows. -/
def mid3 {α : Type} (hc1 : Shape.Concatenates [S8x32x2x128, S8x32x128x128, S8x32x2x128] S8x32x132x128 2)
    (t : S8x32x2x128.Idx → α) (x : S8x32x128x128.Idx → α) (b : S8x32x2x128.Idx → α) : S8x32x132x128.Idx → α :=
  concatenate S8x32x132x128 2 [⟨S8x32x2x128, t⟩, ⟨S8x32x128x128, x⟩, ⟨S8x32x2x128, b⟩] hc1

/-- A padded face: its left strip, its middle and its right strip joined along the columns. -/
def pad3 {α : Type} (hc2 : Shape.Concatenates [S8x32x132x2, S8x32x132x128, S8x32x132x2] S8x32x132x132 3)
    (l : S8x32x132x2.Idx → α) (m : S8x32x132x128.Idx → α) (r : S8x32x132x2.Idx → α) : S8x32x132x132.Idx → α :=
  concatenate S8x32x132x132 3 [⟨S8x32x132x2, l⟩, ⟨S8x32x132x128, m⟩, ⟨S8x32x132x2, r⟩] hc2

/-- Twelve entries, equal one by one, make equal vectors. -/
theorem vec12_congr {α : Type} {a0 a1 a2 a3 a4 a5 a6 a7 a8 a9 a10 a11 b0 b1 b2 b3 b4 b5 b6 b7 b8 b9 b10 b11 : α}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (h10 : a10 = b10) (h11 : a11 = b11) :
    (![a0, a1, a2, a3, a4, a5, a6, a7, a8, a9, a10, a11] : Fin 12 → α) = ![b0, b1, b2, b3, b4, b5, b6, b7, b8, b9, b10, b11] := by
  subst h0 h1 h2 h3 h4 h5 h6 h7 h8 h9 h10 h11; rfl

/-- The flattened stack respects equality of the twelve pieces. -/
theorem stack_congr {α : Type} (hb : (S8x32x132x132 : Shape).BroadcastsInDim S8x1x32x132x132 (![0, 2, 3, 4] : Fin 4 → Fin 5))
    (hc : Shape.Concatenates [S8x1x32x132x132, S8x1x32x132x132, S8x1x32x132x132, S8x1x32x132x132, S8x1x32x132x132, S8x1x32x132x132, S8x1x32x132x132, S8x1x32x132x132, S8x1x32x132x132, S8x1x32x132x132, S8x1x32x132x132, S8x1x32x132x132] S8x12x32x132x132 1)
    (hs : (S8x12x32x132x132 : Shape).ShapeCasts S96x32x132x132) {p q : Fin 12 → (S8x32x132x132.Idx → α)} (h : p = q) :
    shapeCast S96x32x132x132 (concatenate S8x12x32x132x132 1 (pieces12 S8x1x32x132x132 (fun k => broadcastInDim S8x1x32x132x132 (![0, 2, 3, 4] : Fin 4 → Fin 5) hb (p k))) hc) hs
      = shapeCast S96x32x132x132 (concatenate S8x12x32x132x132 1 (pieces12 S8x1x32x132x132 (fun k => broadcastInDim S8x1x32x132x132 (![0, 2, 3, 4] : Fin 4 → Fin 5) hb (q k))) hc) hs := by
  subst h; rfl

/-! ## The pieces, as the operations leave them -/

/-- The twelve faces, as the operations leave them. -/
def rfaces (M' : Valuation τ sig (Elt F)) : Fin 12 → (S8x32x128x128.Idx → Elt F .f32) :=
  ![(StableHlo.after ops M' (Proc.devRef .tc main_v2) : S8x32x128x128.Idx → Elt F .f32),
    (StableHlo.after ops M' (Proc.devRef .tc main_v4) : S8x32x128x128.Idx → Elt F .f32),
    (StableHlo.after ops M' (Proc.devRef .tc main_v6) : S8x32x128x128.Idx → Elt F .f32),
    (StableHlo.after ops M' (Proc.devRef .tc main_v8) : S8x32x128x128.Idx → Elt F .f32),
    (StableHlo.after ops M' (Proc.devRef .tc main_v10) : S8x32x128x128.Idx → Elt F .f32),
    (StableHlo.after ops M' (Proc.devRef .tc main_v12) : S8x32x128x128.Idx → Elt F .f32),
    (StableHlo.after ops M' (Proc.devRef .tc main_v14) : S8x32x128x128.Idx → Elt F .f32),
    (StableHlo.after ops M' (Proc.devRef .tc main_v16) : S8x32x128x128.Idx → Elt F .f32),
    (StableHlo.after ops M' (Proc.devRef .tc main_v18) : S8x32x128x128.Idx → Elt F .f32),
    (StableHlo.after ops M' (Proc.devRef .tc main_v20) : S8x32x128x128.Idx → Elt F .f32),
    (StableHlo.after ops M' (Proc.devRef .tc main_v22) : S8x32x128x128.Idx → Elt F .f32),
    (StableHlo.after ops M' (Proc.devRef .tc main_v24) : S8x32x128x128.Idx → Elt F .f32)]

/-- The twelve faces' top strips. -/
def rtops (M' : Valuation τ sig (Elt F)) : Fin 12 → (S8x32x2x128.Idx → Elt F .f32) :=
  ![(StableHlo.after ops M' (Proc.devRef .tc main_v26) : S8x32x2x128.Idx → Elt F .f32),
    (StableHlo.after ops M' (Proc.devRef .tc main_v41) : S8x32x2x128.Idx → Elt F .f32),
    (StableHlo.after ops M' (Proc.devRef .tc main_v56) : S8x32x2x128.Idx → Elt F .f32),
    (StableHlo.after ops M' (Proc.devRef .tc main_v71) : S8x32x2x128.Idx → Elt F .f32),
    (StableHlo.after ops M' (Proc.devRef .tc main_v163) : S8x32x2x128.Idx → Elt F .f32),
    (StableHlo.after ops M' (Proc.devRef .tc main_v251) : S8x32x2x128.Idx → Elt F .f32),
    (StableHlo.after ops M' (Proc.devRef .tc main_v339) : S8x32x2x128.Idx → Elt F .f32),
    (StableHlo.after ops M' (Proc.devRef .tc main_v427) : S8x32x2x128.Idx → Elt F .f32),
    (StableHlo.after ops M' (Proc.devRef .tc main_v437) : S8x32x2x128.Idx → Elt F .f32),
    (StableHlo.after ops M' (Proc.devRef .tc main_v452) : S8x32x2x128.Idx → Elt F .f32),
    (StableHlo.after ops M' (Proc.devRef .tc main_v467) : S8x32x2x128.Idx → Elt F .f32),
    (StableHlo.after ops M' (Proc.devRef .tc main_v482) : S8x32x2x128.Idx → Elt F .f32)]

/-- The twelve faces' bottom strips. -/
def rbottoms (M' : Valuation τ sig (Elt F)) : Fin 12 → (S8x32x2x128.Idx → Elt F .f32) :=
  ![(StableHlo.after ops M' (Proc.devRef .tc main_v27) : S8x32x2x128.Idx → Elt F .f32),
    (StableHlo.after ops M' (Proc.devRef .tc main_v42) : S8x32x2x128.Idx → Elt F .f32),
    (StableHlo.after ops M' (Proc.devRef .tc main_v57) : S8x32x2x128.Idx → Elt F .f32),
    (StableHlo.after ops M' (Proc.devRef .tc main_v72) : S8x32x2x128.Idx → Elt F .f32),
    (StableHlo.after ops M' (Proc.devRef .tc main_v164) : S8x32x2x128.Idx → Elt F .f32),
    (StableHlo.after ops M' (Proc.devRef .tc main_v252) : S8x32x2x128.Idx → Elt F .f32),
    (StableHlo.after ops M' (Proc.devRef .tc main_v340) : S8x32x2x128.Idx → Elt F .f32),
    (StableHlo.after ops M' (Proc.devRef .tc main_v428) : S8x32x2x128.Idx → Elt F .f32),
    (StableHlo.after ops M' (Proc.devRef .tc main_v439) : S8x32x2x128.Idx → Elt F .f32),
    (StableHlo.after ops M' (Proc.devRef .tc main_v454) : S8x32x2x128.Idx → Elt F .f32),
    (StableHlo.after ops M' (Proc.devRef .tc main_v469) : S8x32x2x128.Idx → Elt F .f32),
    (StableHlo.after ops M' (Proc.devRef .tc main_v484) : S8x32x2x128.Idx → Elt F .f32)]

/-- The twelve faces' left strips. -/
def rlefts (M' : Valuation τ sig (Elt F)) : Fin 12 → (S8x32x132x2.Idx → Elt F .f32) :=
  ![(StableHlo.after ops M' (Proc.devRef .tc main_v34) : S8x32x132x2.Idx → Elt F .f32),
    (StableHlo.after ops M' (Proc.devRef .tc main_v49) : S8x32x132x2.Idx → Elt F .f32),
    (StableHlo.after ops M' (Proc.devRef .tc main_v64) : S8x32x132x2.Idx → Elt F .f32),
    (StableHlo.after ops M' (Proc.devRef .tc main_v79) : S8x32x132x2.Idx → Elt F .f32),
    (StableHlo.after ops M' (Proc.devRef .tc main_v168) : S8x32x132x2.Idx → Elt F .f32),
    (StableHlo.after ops M' (Proc.devRef .tc main_v256) : S8x32x132x2.Idx → Elt F .f32),
    (StableHlo.after ops M' (Proc.devRef .tc main_v344) : S8x32x132x2.Idx → Elt F .f32),
    (StableHlo.after ops M' (Proc.devRef .tc main_v432) : S8x32x132x2.Idx → Elt F .f32),
    (StableHlo.after ops M' (Proc.devRef .tc main_v444) : S8x32x132x2.Idx → Elt F .f32),
    (StableHlo.after ops M' (Proc.devRef .tc main_v459) : S8x32x132x2.Idx → Elt F .f32),
    (StableHlo.after ops M' (Proc.devRef .tc main_v474) : S8x32x132x2.Idx → Elt F .f32),
    (StableHlo.after ops M' (Proc.devRef .tc main_v489) : S8x32x132x2.Idx → Elt F .f32)]

/-- The twelve faces' right strips. -/
def rrights (M' : Valuation τ sig (Elt F)) : Fin 12 → (S8x32x132x2.Idx → Elt F .f32) :=
  ![(StableHlo.after ops M' (Proc.devRef .tc main_v38) : S8x32x132x2.Idx → Elt F .f32),
    (StableHlo.after ops M' (Proc.devRef .tc main_v53) : S8x32x132x2.Idx → Elt F .f32),
    (StableHlo.after ops M' (Proc.devRef .tc main_v68) : S8x32x132x2.Idx → Elt F .f32),
    (StableHlo.after ops M' (Proc.devRef .tc main_v83) : S8x32x132x2.Idx → Elt F .f32),
    (StableHlo.after ops M' (Proc.devRef .tc main_v171) : S8x32x132x2.Idx → Elt F .f32),
    (StableHlo.after ops M' (Proc.devRef .tc main_v259) : S8x32x132x2.Idx → Elt F .f32),
    (StableHlo.after ops M' (Proc.devRef .tc main_v347) : S8x32x132x2.Idx → Elt F .f32),
    (StableHlo.after ops M' (Proc.devRef .tc main_v435) : S8x32x132x2.Idx → Elt F .f32),
    (StableHlo.after ops M' (Proc.devRef .tc main_v450) : S8x32x132x2.Idx → Elt F .f32),
    (StableHlo.after ops M' (Proc.devRef .tc main_v465) : S8x32x132x2.Idx → Elt F .f32),
    (StableHlo.after ops M' (Proc.devRef .tc main_v480) : S8x32x132x2.Idx → Elt F .f32),
    (StableHlo.after ops M' (Proc.devRef .tc main_v495) : S8x32x132x2.Idx → Elt F .f32)]

/-- The twelve padded faces. -/
def rpads (M' : Valuation τ sig (Elt F)) : Fin 12 → (S8x32x132x132.Idx → Elt F .f32) :=
  ![(StableHlo.after ops M' (Proc.devRef .tc main_v39) : S8x32x132x132.Idx → Elt F .f32),
    (StableHlo.after ops M' (Proc.devRef .tc main_v54) : S8x32x132x132.Idx → Elt F .f32),
    (StableHlo.after ops M' (Proc.devRef .tc main_v69) : S8x32x132x132.Idx → Elt F .f32),
    (StableHlo.after ops M' (Proc.devRef .tc main_v84) : S8x32x132x132.Idx → Elt F .f32),
    (StableHlo.after ops M' (Proc.devRef .tc main_v172) : S8x32x132x132.Idx → Elt F .f32),
    (StableHlo.after ops M' (Proc.devRef .tc main_v260) : S8x32x132x132.Idx → Elt F .f32),
    (StableHlo.after ops M' (Proc.devRef .tc main_v348) : S8x32x132x132.Idx → Elt F .f32),
    (StableHlo.after ops M' (Proc.devRef .tc main_v436) : S8x32x132x132.Idx → Elt F .f32),
    (StableHlo.after ops M' (Proc.devRef .tc main_v451) : S8x32x132x132.Idx → Elt F .f32),
    (StableHlo.after ops M' (Proc.devRef .tc main_v466) : S8x32x132x132.Idx → Elt F .f32),
    (StableHlo.after ops M' (Proc.devRef .tc main_v481) : S8x32x132x132.Idx → Elt F .f32),
    (StableHlo.after ops M' (Proc.devRef .tc main_v496) : S8x32x132x132.Idx → Elt F .f32)]

/-! ## The faces -/

/-- Each face buffer, over the whole line, holds the reshape of the slice of the reshape of the argument. -/
theorem faces_all (M' : Valuation τ sig (Elt F))
    (h1 : (S96x32x128x128 : Shape).ShapeCasts S8x12x32x128x128)
    (h2 : ∀ f : ℕ, f < 12 → (S8x12x32x128x128 : Shape).Slices ![0, f, 0, 0, 0] S8x1x32x128x128)
    (h3 : (S8x1x32x128x128 : Shape).ShapeCasts S8x32x128x128) :
    ((StableHlo.after ops M' (Proc.devRef .tc main_v2) : S8x32x128x128.Idx → Elt F .f32) = shapeCast S8x32x128x128 (extractStridedSlice S8x1x32x128x128 ![0, 0, 0, 0, 0] (fun k => shapeCast S8x12x32x128x128 (M' (Proc.devRef .tc main_arg0) : S96x32x128x128.Idx → Elt F .f32) h1 k) (h2 0 (by decide))) h3)
    ∧ ((StableHlo.after ops M' (Proc.devRef .tc main_v4) : S8x32x128x128.Idx → Elt F .f32) = shapeCast S8x32x128x128 (extractStridedSlice S8x1x32x128x128 ![0, 1, 0, 0, 0] (fun k => shapeCast S8x12x32x128x128 (M' (Proc.devRef .tc main_arg0) : S96x32x128x128.Idx → Elt F .f32) h1 k) (h2 1 (by decide))) h3)
    ∧ ((StableHlo.after ops M' (Proc.devRef .tc main_v6) : S8x32x128x128.Idx → Elt F .f32) = shapeCast S8x32x128x128 (extractStridedSlice S8x1x32x128x128 ![0, 2, 0, 0, 0] (fun k => shapeCast S8x12x32x128x128 (M' (Proc.devRef .tc main_arg0) : S96x32x128x128.Idx → Elt F .f32) h1 k) (h2 2 (by decide))) h3)
    ∧ ((StableHlo.after ops M' (Proc.devRef .tc main_v8) : S8x32x128x128.Idx → Elt F .f32) = shapeCast S8x32x128x128 (extractStridedSlice S8x1x32x128x128 ![0, 3, 0, 0, 0] (fun k => shapeCast S8x12x32x128x128 (M' (Proc.devRef .tc main_arg0) : S96x32x128x128.Idx → Elt F .f32) h1 k) (h2 3 (by decide))) h3)
    ∧ ((StableHlo.after ops M' (Proc.devRef .tc main_v10) : S8x32x128x128.Idx → Elt F .f32) = shapeCast S8x32x128x128 (extractStridedSlice S8x1x32x128x128 ![0, 4, 0, 0, 0] (fun k => shapeCast S8x12x32x128x128 (M' (Proc.devRef .tc main_arg0) : S96x32x128x128.Idx → Elt F .f32) h1 k) (h2 4 (by decide))) h3)
    ∧ ((StableHlo.after ops M' (Proc.devRef .tc main_v12) : S8x32x128x128.Idx → Elt F .f32) = shapeCast S8x32x128x128 (extractStridedSlice S8x1x32x128x128 ![0, 5, 0, 0, 0] (fun k => shapeCast S8x12x32x128x128 (M' (Proc.devRef .tc main_arg0) : S96x32x128x128.Idx → Elt F .f32) h1 k) (h2 5 (by decide))) h3)
    ∧ ((StableHlo.after ops M' (Proc.devRef .tc main_v14) : S8x32x128x128.Idx → Elt F .f32) = shapeCast S8x32x128x128 (extractStridedSlice S8x1x32x128x128 ![0, 6, 0, 0, 0] (fun k => shapeCast S8x12x32x128x128 (M' (Proc.devRef .tc main_arg0) : S96x32x128x128.Idx → Elt F .f32) h1 k) (h2 6 (by decide))) h3)
    ∧ ((StableHlo.after ops M' (Proc.devRef .tc main_v16) : S8x32x128x128.Idx → Elt F .f32) = shapeCast S8x32x128x128 (extractStridedSlice S8x1x32x128x128 ![0, 7, 0, 0, 0] (fun k => shapeCast S8x12x32x128x128 (M' (Proc.devRef .tc main_arg0) : S96x32x128x128.Idx → Elt F .f32) h1 k) (h2 7 (by decide))) h3)
    ∧ ((StableHlo.after ops M' (Proc.devRef .tc main_v18) : S8x32x128x128.Idx → Elt F .f32) = shapeCast S8x32x128x128 (extractStridedSlice S8x1x32x128x128 ![0, 8, 0, 0, 0] (fun k => shapeCast S8x12x32x128x128 (M' (Proc.devRef .tc main_arg0) : S96x32x128x128.Idx → Elt F .f32) h1 k) (h2 8 (by decide))) h3)
    ∧ ((StableHlo.after ops M' (Proc.devRef .tc main_v20) : S8x32x128x128.Idx → Elt F .f32) = shapeCast S8x32x128x128 (extractStridedSlice S8x1x32x128x128 ![0, 9, 0, 0, 0] (fun k => shapeCast S8x12x32x128x128 (M' (Proc.devRef .tc main_arg0) : S96x32x128x128.Idx → Elt F .f32) h1 k) (h2 9 (by decide))) h3)
    ∧ ((StableHlo.after ops M' (Proc.devRef .tc main_v22) : S8x32x128x128.Idx → Elt F .f32) = shapeCast S8x32x128x128 (extractStridedSlice S8x1x32x128x128 ![0, 10, 0, 0, 0] (fun k => shapeCast S8x12x32x128x128 (M' (Proc.devRef .tc main_arg0) : S96x32x128x128.Idx → Elt F .f32) h1 k) (h2 10 (by decide))) h3)
    ∧ ((StableHlo.after ops M' (Proc.devRef .tc main_v24) : S8x32x128x128.Idx → Elt F .f32) = shapeCast S8x32x128x128 (extractStridedSlice S8x1x32x128x128 ![0, 11, 0, 0, 0] (fun k => shapeCast S8x12x32x128x128 (M' (Proc.devRef .tc main_arg0) : S96x32x128x128.Idx → Elt F .f32) h1 k) (h2 11 (by decide))) h3) :=
  ⟨(upto0 M' main_v2 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).1,
   (upto0 M' main_v4 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.1,
   (upto0 M' main_v6 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.1,
   (upto0 M' main_v8 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.1,
   (upto0 M' main_v10 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.2.1,
   (upto0 M' main_v12 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.2.2.1,
   (upto0 M' main_v14 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.2.2.2.1,
   (upto0 M' main_v16 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.2.2.2.2.1,
   (upto0 M' main_v18 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.2.2.2.2.2.1,
   (upto0 M' main_v20 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.2.2.2.2.2.2.1,
   (upto0 M' main_v22 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.2.2.2.2.2.2.2.1,
   (upto0 M' main_v24 (by decide) (by decide) (by decide) (by decide) (by decide) (by decide) (by decide) (by decide) (by decide) (by decide)).trans ((win0_facts M' Cert.ReferenceIdeal.Gen.concatenates_S8x32x2x128_S8x32x128x128_S8x32x2x128_S8x32x132x128_d2 Cert.ReferenceIdeal.Gen.concatenates_S8x32x132x2_S8x32x132x128_S8x32x132x2_S8x32x132x132_d3).1 h1 h2 h3).2.2.2.2.2.2.2.2.2.2.2⟩

set_option maxHeartbeats 0 in
/-- Entry (b, c, i, j) of face f is entry (b·12 + f, c, i, j) of the argument. -/
theorem rface_at (M' : Valuation τ sig (Elt F))
    (h1 : (S96x32x128x128 : Shape).ShapeCasts S8x12x32x128x128)
    (h2 : ∀ f : ℕ, f < 12 → (S8x12x32x128x128 : Shape).Slices ![0, f, 0, 0, 0] S8x1x32x128x128)
    (h3 : (S8x1x32x128x128 : Shape).ShapeCasts S8x32x128x128)
    (f : Fin 12) (b : Fin 8) (c : Fin 32) (i j : Fin 128) (n : Fin 96) (hn : n.val = b.val * 12 + f.val) :
    rfaces M' f (ix4 b c i j) = (M' (Proc.devRef .tc main_arg0) : S96x32x128x128.Idx → Elt F .f32) (ix4 n c i j) := by
  have key : rfaces M' f = shapeCast S8x32x128x128 (extractStridedSlice S8x1x32x128x128 ![0, f.val, 0, 0, 0]
      (fun k => shapeCast S8x12x32x128x128 (M' (Proc.devRef .tc main_arg0) : S96x32x128x128.Idx → Elt F .f32) h1 k) (h2 f.val f.isLt)) h3 := by
    fin_cases f
    · exact (faces_all M' h1 h2 h3).1
    · exact (faces_all M' h1 h2 h3).2.1
    · exact (faces_all M' h1 h2 h3).2.2.1
    · exact (faces_all M' h1 h2 h3).2.2.2.1
    · exact (faces_all M' h1 h2 h3).2.2.2.2.1
    · exact (faces_all M' h1 h2 h3).2.2.2.2.2.1
    · exact (faces_all M' h1 h2 h3).2.2.2.2.2.2.1
    · exact (faces_all M' h1 h2 h3).2.2.2.2.2.2.2.1
    · exact (faces_all M' h1 h2 h3).2.2.2.2.2.2.2.2.1
    · exact (faces_all M' h1 h2 h3).2.2.2.2.2.2.2.2.2.1
    · exact (faces_all M' h1 h2 h3).2.2.2.2.2.2.2.2.2.2.1
    · exact (faces_all M' h1 h2 h3).2.2.2.2.2.2.2.2.2.2.2
  rw [key]
  exact Cert.LibFaceSlice.face_apply' _ f.val f.isLt h1 (h2 f.val f.isLt) h3 b c i j n hn

end Cert.ReferenceIdeal.Hand

end
-- ==== Proof.RWin10.lean ====
/-
  Window 10 of the reference's operations, read by itself over an arbitrary valuation `W` of the buffers before it:
  the padded faces 11; the final stack. Each fact says that a buffer written in the window holds the
  operation's function of its operands' contents, the operands also read through the window.
-/
import proofs.«156783_j90975997264310_2_alg».proof.Proof.RefOps10
import proofs.«156783_j90975997264310_2_alg».proof.Proof.LibNary3
import proofs.«156783_j90975997264310_2_alg».proof.Proof.LibFaceStack

noncomputable section

namespace Cert.ReferenceIdeal.Hand

open Idealize.ShloMosaic Idealize.ShloMosaic.StableHlo Cert.ReferenceIdeal Cert.ReferenceIdeal.Gen Cert.LibNary3 Cert.LibFaceStack

variable {F : FTy → Type} [FloatOps F]

set_option maxHeartbeats 0 in
set_option maxRecDepth 100000 in
/-- Through window 10 alone: padded face 11 is its left strip, its middle and its right strip, joined along the columns. -/
theorem pad_tail_11 (W : Valuation τ sig (Elt F)) (hc2 : Shape.Concatenates [S8x32x132x2, S8x32x132x128, S8x32x132x2] S8x32x132x132 3) :
    (StableHlo.after ops10 W (Proc.devRef .tc main_v496) : S8x32x132x132.Idx → Elt F .f32)
      = concatenate S8x32x132x132 3 [⟨S8x32x132x2, (StableHlo.after ops10 W (Proc.devRef .tc main_v489) : S8x32x132x2.Idx → Elt F .f32)⟩,
          ⟨S8x32x132x128, (StableHlo.after ops10 W (Proc.devRef .tc main_v485) : S8x32x132x128.Idx → Elt F .f32)⟩,
          ⟨S8x32x132x2, (StableHlo.after ops10 W (Proc.devRef .tc main_v495) : S8x32x132x2.Idx → Elt F .f32)⟩] hc2 := by
  (simp only [ops10]; after_results_simp3) <;> rfl

set_option maxHeartbeats 0 in
set_option maxRecDepth 100000 in
/-- Through window 10 alone: the result is the stack of the twelve padded faces, flattened. -/
theorem stack_tail (W : Valuation τ sig (Elt F)) (hb : (S8x32x132x132 : Shape).BroadcastsInDim S8x1x32x132x132 (![0, 2, 3, 4] : Fin 4 → Fin 5))
    (hc : Shape.Concatenates [S8x1x32x132x132, S8x1x32x132x132, S8x1x32x132x132, S8x1x32x132x132, S8x1x32x132x132, S8x1x32x132x132, S8x1x32x132x132, S8x1x32x132x132, S8x1x32x132x132, S8x1x32x132x132, S8x1x32x132x132, S8x1x32x132x132] S8x12x32x132x132 1)
    (hs : (S8x12x32x132x132 : Shape).ShapeCasts S96x32x132x132) :
    (StableHlo.after ops10 W (Proc.devRef .tc main_v510) : S96x32x132x132.Idx → Elt F .f32)
      = shapeCast S96x32x132x132 (concatenate S8x12x32x132x132 1 (pieces12 S8x1x32x132x132 (fun k => broadcastInDim S8x1x32x132x132 (![0, 2, 3, 4] : Fin 4 → Fin 5) hb
          (![
      (StableHlo.after ops10 W (Proc.devRef .tc main_v39) : S8x32x132x132.Idx → Elt F .f32),
      (StableHlo.after ops10 W (Proc.devRef .tc main_v54) : S8x32x132x132.Idx → Elt F .f32),
      (StableHlo.after ops10 W (Proc.devRef .tc main_v69) : S8x32x132x132.Idx → Elt F .f32),
      (StableHlo.after ops10 W (Proc.devRef .tc main_v84) : S8x32x132x132.Idx → Elt F .f32),
      (StableHlo.after ops10 W (Proc.devRef .tc main_v172) : S8x32x132x132.Idx → Elt F .f32),
      (StableHlo.after ops10 W (Proc.devRef .tc main_v260) : S8x32x132x132.Idx → Elt F .f32),
      (StableHlo.after ops10 W (Proc.devRef .tc main_v348) : S8x32x132x132.Idx → Elt F .f32),
      (StableHlo.after ops10 W (Proc.devRef .tc main_v436) : S8x32x132x132.Idx → Elt F .f32),
      (StableHlo.after ops10 W (Proc.devRef .tc main_v451) : S8x32x132x132.Idx → Elt F .f32),
      (StableHlo.after ops10 W (Proc.devRef .tc main_v466) : S8x32x132x132.Idx → Elt F .f32),
      (StableHlo.after ops10 W (Proc.devRef .tc main_v481) : S8x32x132x132.Idx → Elt F .f32),
      (StableHlo.after ops10 W (Proc.devRef .tc main_v496) : S8x32x132x132.Idx → Elt F .f32)] k))) hc) hs := by
  simp only [ops10]
  after_results_simp
  rfl

end Cert.ReferenceIdeal.Hand

end
-- ==== Proof.RStacksC.lean ====
/-
  The reference's result over the whole line: the twelve padded faces stacked along a new second axis and flattened, so
  that entry (b·12 + f, c, i, j) of the result is entry (b, c, i, j) of padded face f.
-/
import proofs.«156783_j90975997264310_2_alg».proof.Proof.RStacksA
import proofs.«156783_j90975997264310_2_alg».proof.Proof.RWin10

noncomputable section

namespace Cert.ReferenceIdeal.Hand

open Idealize.ShloMosaic Idealize.ShloMosaic.StableHlo Idealize.ShloMosaic.ValueIdx Cert.ReferenceIdeal Cert.ReferenceIdeal.Gen Cert.LibFaceStack

variable {F : FTy → Type} [FloatOps F]

set_option maxHeartbeats 0 in
/-- The result is the twelve padded faces stacked along a new second axis and flattened. -/
theorem result_stack (M' : Valuation τ sig (Elt F)) (hb : (S8x32x132x132 : Shape).BroadcastsInDim S8x1x32x132x132 (![0, 2, 3, 4] : Fin 4 → Fin 5))
    (hc : Shape.Concatenates [S8x1x32x132x132, S8x1x32x132x132, S8x1x32x132x132, S8x1x32x132x132, S8x1x32x132x132, S8x1x32x132x132, S8x1x32x132x132, S8x1x32x132x132, S8x1x32x132x132, S8x1x32x132x132, S8x1x32x132x132, S8x1x32x132x132] S8x12x32x132x132 1)
    (hs : (S8x12x32x132x132 : Shape).ShapeCasts S96x32x132x132) :
    (StableHlo.after ops M' (Proc.devRef .tc main_v510) : S96x32x132x132.Idx → Elt F .f32)
      = shapeCast S96x32x132x132 (concatenate S8x12x32x132x132 1 (pieces12 S8x1x32x132x132 (fun k => broadcastInDim S8x1x32x132x132 (![0, 2, 3, 4] : Fin 4 → Fin 5) hb (rpads M' k))) hc) hs :=
  (upto10 M' main_v510).trans ((stack_tail (StableHlo.after ops9 (StableHlo.after ops8 (StableHlo.after ops7 (StableHlo.after ops6 (StableHlo.after ops5 (StableHlo.after ops4 (StableHlo.after ops3 (StableHlo.after ops2 (StableHlo.after ops1 (StableHlo.after ops0 M')))))))))) hb hc hs).trans
    (stack_congr hb hc hs (vec12_congr (upto10 M' main_v39) (upto10 M' main_v54) (upto10 M' main_v69) (upto10 M' main_v84) (upto10 M' main_v172) (upto10 M' main_v260) (upto10 M' main_v348) (upto10 M' main_v436) (upto10 M' main_v451) (upto10 M' main_v466) (upto10 M' main_v481) (upto10 M' main_v496))).symm)

set_option maxHeartbeats 0 in
/-- Entry (n, c, i, j) of the result, n = b·12 + f, is entry (b, c, i, j) of padded face f. -/
theorem result_at (M' : Valuation τ sig (Elt F)) (hb : (S8x32x132x132 : Shape).BroadcastsInDim S8x1x32x132x132 (![0, 2, 3, 4] : Fin 4 → Fin 5))
    (hc : Shape.Concatenates [S8x1x32x132x132, S8x1x32x132x132, S8x1x32x132x132, S8x1x32x132x132, S8x1x32x132x132, S8x1x32x132x132, S8x1x32x132x132, S8x1x32x132x132, S8x1x32x132x132, S8x1x32x132x132, S8x1x32x132x132, S8x1x32x132x132] S8x12x32x132x132 1)
    (hs : (S8x12x32x132x132 : Shape).ShapeCasts S96x32x132x132)
    (f : Fin 12) (b : Fin 8) (c : Fin 32) (i j : Fin 132) (n : Fin 96) (hn : n.val = b.val * 12 + f.val) :
    (StableHlo.after ops M' (Proc.devRef .tc main_v510) : S96x32x132x132.Idx → Elt F .f32) (ix4 n c i j) = rpads M' f (ix4 b c i j) := by
  rw [result_stack M' hb hc hs]
  exact stack12_apply (rpads M') hb hc hs n c i j b f hn

end Cert.ReferenceIdeal.Hand

end
-- ==== Proof.LibAssemble.lean ====
/-
  The padded array assembled face by face. An array [96, 32, 132, 132] holds, for each of 8 batches, twelve padded
  faces one after the other (entry n = b·12 + f is face f of batch b). If each padded face is the concatenation,
  along the columns, of a left strip, a middle and a right strip, the middle being the concatenation along the rows of
  a top strip, the face and a bottom strip, and if the five arrays the entries are read from hold the same strips and
  faces in the same order, then reading an entry by the position of its row and column (left strip, right strip, or
  top strip / face / bottom strip in between) gives the assembled array.
-/
import proofs.«156783_j90975997264310_2_alg».proof.Proof.KValue.Pad
import proofs.«156783_j90975997264310_2_alg».proof.Proof.LibConcat3

namespace Cert.LibAssemble

open Idealize.ShloMosaic Idealize.ShloMosaic.ValueIdx

/-- Entry by entry, the padded array read from the faces and the four strip arrays is the array assembled per face by
    two 3-piece concatenations. -/
theorem assemble_eq {α : Type} (x : (⟨4, ![96, 32, 128, 128]⟩ : Shape).Idx → α) (KT KB : (⟨4, ![96, 32, 2, 128]⟩ : Shape).Idx → α)
    (KL KR : (⟨4, ![96, 32, 132, 2]⟩ : Shape).Idx → α)
    (face : Fin 12 → ((⟨4, ![8, 32, 128, 128]⟩ : Shape).Idx → α)) (T B : Fin 12 → ((⟨4, ![8, 32, 2, 128]⟩ : Shape).Idx → α))
    (L R : Fin 12 → ((⟨4, ![8, 32, 132, 2]⟩ : Shape).Idx → α))
    (RF : (⟨4, ![96, 32, 132, 132]⟩ : Shape).Idx → α)
    (hc1 : ∀ f : Fin 12, Shape.Concatenates (([⟨⟨4, ![8, 32, 2, 128]⟩, T f⟩, ⟨⟨4, ![8, 32, 128, 128]⟩, face f⟩, ⟨⟨4, ![8, 32, 2, 128]⟩, B f⟩] : List ((s : Shape) × (s.Idx → α))).map (·.1)) ⟨4, ![8, 32, 132, 128]⟩ 2)
    (hc2 : ∀ f : Fin 12, Shape.Concatenates (([⟨⟨4, ![8, 32, 132, 2]⟩, L f⟩, ⟨⟨4, ![8, 32, 132, 128]⟩, concatenate ⟨4, ![8, 32, 132, 128]⟩ 2 [⟨⟨4, ![8, 32, 2, 128]⟩, T f⟩, ⟨⟨4, ![8, 32, 128, 128]⟩, face f⟩, ⟨⟨4, ![8, 32, 2, 128]⟩, B f⟩] (hc1 f)⟩, ⟨⟨4, ![8, 32, 132, 2]⟩, R f⟩] : List ((s : Shape) × (s.Idx → α))).map (·.1)) ⟨4, ![8, 32, 132, 132]⟩ 3)
    (hface : ∀ (f : Fin 12) (b : Fin 8) (c : Fin 32) (i j : Fin 128) (n : Fin 96), n.val = b.val * 12 + f.val →
      face f (ix4 b c i j) = x (ix4 n c i j))
    (hKT : ∀ (f : Fin 12) (b : Fin 8) (c : Fin 32) (i : Fin 2) (j : Fin 128) (n : Fin 96), n.val = b.val * 12 + f.val →
      KT (ix4 n c i j) = T f (ix4 b c i j))
    (hKB : ∀ (f : Fin 12) (b : Fin 8) (c : Fin 32) (i : Fin 2) (j : Fin 128) (n : Fin 96), n.val = b.val * 12 + f.val →
      KB (ix4 n c i j) = B f (ix4 b c i j))
    (hKL : ∀ (f : Fin 12) (b : Fin 8) (c : Fin 32) (i : Fin 132) (j : Fin 2) (n : Fin 96), n.val = b.val * 12 + f.val →
      KL (ix4 n c i j) = L f (ix4 b c i j))
    (hKR : ∀ (f : Fin 12) (b : Fin 8) (c : Fin 32) (i : Fin 132) (j : Fin 2) (n : Fin 96), n.val = b.val * 12 + f.val →
      KR (ix4 n c i j) = R f (ix4 b c i j))
    (hRF : ∀ (f : Fin 12) (b : Fin 8) (c : Fin 32) (i j : Fin 132) (n : Fin 96), n.val = b.val * 12 + f.val →
      RF (ix4 n c i j) = concatenate ⟨4, ![8, 32, 132, 132]⟩ 3 [⟨⟨4, ![8, 32, 132, 2]⟩, L f⟩, ⟨⟨4, ![8, 32, 132, 128]⟩, concatenate ⟨4, ![8, 32, 132, 128]⟩ 2 [⟨⟨4, ![8, 32, 2, 128]⟩, T f⟩, ⟨⟨4, ![8, 32, 128, 128]⟩, face f⟩, ⟨⟨4, ![8, 32, 2, 128]⟩, B f⟩] (hc1 f)⟩, ⟨⟨4, ![8, 32, 132, 2]⟩, R f⟩] (hc2 f) (ix4 b c i j)) :
    ∀ (n : Fin 96) (c : Fin 32) (i j : Fin 132), Cert.KernelIdeal.HandValue.pad x KT KB KL KR n c i j = RF (ix4 n c i j) := by
  intro n c i j
  obtain ⟨b, f, hn⟩ : ∃ (b : Fin 8) (f : Fin 12), n.val = b.val * 12 + f.val :=
    ⟨⟨n.val / 12, by have := n.isLt; omega⟩, ⟨n.val % 12, Nat.mod_lt _ (by norm_num)⟩, by simp only []; omega⟩
  rw [hRF f b c i j n hn,
    Cert.LibConcat3.concat3_cols_apply (W1 := 2) (W2 := 128) (W3 := 2) (W := 132) _ _ _ (hc2 f) rfl b c i j]
  unfold Cert.KernelIdeal.HandValue.pad
  refine dite_congr rfl (fun hj1 => ?_) (fun hj1 => dite_congr rfl (fun hj2 => ?_) (fun hj2 => ?_))
  · exact hKL f b c i ⟨j.val, hj1⟩ n hn
  · refine Eq.trans ?_ (Cert.LibConcat3.concat3_rows_apply (H1 := 2) (H2 := 128) (H3 := 2) (H := 132) _ _ _ (hc1 f) rfl
      b c i _).symm
    refine dite_congr rfl (fun hi1 => ?_) (fun hi1 => dite_congr rfl (fun hi2 => ?_) (fun hi2 => ?_))
    · exact hKT f b c _ _ n hn
    · exact (hface f b c _ _ n hn).symm
    · exact hKB f b c _ _ n hn
  · exact hKR f b c i _ n hn

end Cert.LibAssemble
-- ==== Proof.RAssemblyGen_c.lean ====
/-
  Reference side of the specification: the array the reference's operations leave in its result is the specification
  of its argument. The result is the stack of twelve padded faces; a padded face is two nested 3-piece concatenations
  of its strips and the face; each strip is its pure function of the argument; and reading the nested concatenations
  at an entry is reading the left strip, the right strip, or the top strip, the face or the bottom strip by position.
-/
import proofs.«156783_j90975997264310_2_alg».proof.Proof.RStacksA
import proofs.«156783_j90975997264310_2_alg».proof.Proof.RStacksC
import proofs.«156783_j90975997264310_2_alg».proof.Proof.PureSpec
import proofs.«156783_j90975997264310_2_alg».proof.Proof.LibAssemble

noncomputable section

namespace Cert.RAssembly

open Idealize.ShloMosaic Idealize.ShloMosaic.ValueIdx Idealize.SL.Sem

/-- The reference's result is the specification of its argument, given that each padded face its operations
    compute is the two nested concatenations of the strip families' functions of the argument and the face. -/
theorem rfinal_of (T B : Fin 12 → Cert.Spec.X → ((⟨4, ![8, 32, 2, 128]⟩ : Shape).Idx → Elt Ideal .f32)) (L R : Fin 12 → Cert.Spec.X → ((⟨4, ![8, 32, 132, 2]⟩ : Shape).Idx → Elt Ideal .f32))
    (M' : Valuation Cert.ReferenceIdeal.τ Cert.ReferenceIdeal.sig (Elt Ideal))
    (hc1 : Shape.Concatenates [Cert.ReferenceIdeal.S8x32x2x128, Cert.ReferenceIdeal.S8x32x128x128, Cert.ReferenceIdeal.S8x32x2x128] Cert.ReferenceIdeal.S8x32x132x128 2)
    (hc2 : Shape.Concatenates [Cert.ReferenceIdeal.S8x32x132x2, Cert.ReferenceIdeal.S8x32x132x128, Cert.ReferenceIdeal.S8x32x132x2] Cert.ReferenceIdeal.S8x32x132x132 3)
    (hpad : ∀ f : Fin 12, Cert.ReferenceIdeal.Hand.rpads M' f = concatenate Cert.ReferenceIdeal.S8x32x132x132 3 [⟨Cert.ReferenceIdeal.S8x32x132x2, L f (M' (Proc.devRef .tc Cert.ReferenceIdeal.main_arg0))⟩,
      ⟨Cert.ReferenceIdeal.S8x32x132x128, concatenate Cert.ReferenceIdeal.S8x32x132x128 2 [⟨Cert.ReferenceIdeal.S8x32x2x128, T f (M' (Proc.devRef .tc Cert.ReferenceIdeal.main_arg0))⟩, ⟨Cert.ReferenceIdeal.S8x32x128x128, Cert.ReferenceIdeal.Hand.rfaces M' f⟩, ⟨Cert.ReferenceIdeal.S8x32x2x128, B f (M' (Proc.devRef .tc Cert.ReferenceIdeal.main_arg0))⟩] hc1⟩,
      ⟨Cert.ReferenceIdeal.S8x32x132x2, R f (M' (Proc.devRef .tc Cert.ReferenceIdeal.main_arg0))⟩] hc2) :
    (StableHlo.after (Cert.ReferenceIdeal.Hand.ops (F := Ideal)) M' (Proc.devRef .tc Cert.ReferenceIdeal.main_v510) :
        Cert.ReferenceIdeal.S96x32x132x132.Idx → Elt Ideal .f32)
      = Cert.Spec.PpadOf T B L R (M' (Proc.devRef .tc Cert.ReferenceIdeal.main_arg0)) := by
  funext k
  obtain ⟨n, ch, i, j, rfl⟩ : ∃ (n : Fin 96) (ch : Fin 32) (i j : Fin 132), k = ix4 n ch i j :=
    ⟨_, _, _, _, eq_ix4 (n0 := 96) (n1 := 32) (n2 := 132) (n3 := 132) k⟩
  refine (Cert.LibAssemble.assemble_eq
    (x := ((M' (Proc.devRef .tc Cert.ReferenceIdeal.main_arg0)) : Cert.ReferenceIdeal.S96x32x128x128.Idx → Elt Ideal .f32))
    (KT := Cert.Spec.stack12 fun f => T f (M' (Proc.devRef .tc Cert.ReferenceIdeal.main_arg0))) (KB := Cert.Spec.stack12 fun f => B f (M' (Proc.devRef .tc Cert.ReferenceIdeal.main_arg0)))
    (KL := Cert.Spec.stack12 fun f => L f (M' (Proc.devRef .tc Cert.ReferenceIdeal.main_arg0))) (KR := Cert.Spec.stack12 fun f => R f (M' (Proc.devRef .tc Cert.ReferenceIdeal.main_arg0)))
    (face := Cert.ReferenceIdeal.Hand.rfaces M')
    (T := fun f => T f (M' (Proc.devRef .tc Cert.ReferenceIdeal.main_arg0))) (B := fun f => B f (M' (Proc.devRef .tc Cert.ReferenceIdeal.main_arg0))) (L := fun f => L f (M' (Proc.devRef .tc Cert.ReferenceIdeal.main_arg0))) (R := fun f => R f (M' (Proc.devRef .tc Cert.ReferenceIdeal.main_arg0)))
    (RF := (StableHlo.after (Cert.ReferenceIdeal.Hand.ops (F := Ideal)) M' (Proc.devRef .tc Cert.ReferenceIdeal.main_v510) :
      Cert.ReferenceIdeal.S96x32x132x132.Idx → Elt Ideal .f32))
    (fun _ => hc1) (fun _ => hc2)
    (fun f b c' i' j' n' hn => Cert.ReferenceIdeal.Hand.rface_at M'
        Cert.ReferenceIdeal.Facts₀.shapeCasts_S96x32x128x128_S8x12x32x128x128 (by decide)
        Cert.ReferenceIdeal.Facts₀.shapeCasts_S8x1x32x128x128_S8x32x128x128 f b c' i' j' n' hn)
    (fun f b c' i' j' n' hn => Cert.Spec.stack12_apply _ f b c' i' j' n' hn)
    (fun f b c' i' j' n' hn => Cert.Spec.stack12_apply _ f b c' i' j' n' hn)
    (fun f b c' i' j' n' hn => Cert.Spec.stack12_apply _ f b c' i' j' n' hn)
    (fun f b c' i' j' n' hn => Cert.Spec.stack12_apply _ f b c' i' j' n' hn)
    (fun f b c' i' j' n' hn => (Cert.ReferenceIdeal.Hand.result_at M'
        Cert.ReferenceIdeal.Facts₀.bcast_S8x32x132x132_S8x1x32x132x132_0_2_3_4
        Cert.ReferenceIdeal.Facts₀.concatenates_S8x1x32x132x132_S8x1x32x132x132_S8x1x32x132x132_S8x1x32x132x132_S8x1x32x132x132_S8x1x32x132x132_S8x1x32x132x132_S8x1x32x132x132_S8x1x32x132x132_S8x1x32x132x132_S8x1x32x132x132_S8x1x32x132x132_S8x12x32x132x132_d1
        Cert.ReferenceIdeal.Facts₀.shapeCasts_S8x12x32x132x132_S96x32x132x132 f b c' i' j' n' hn).trans
        (congrFun (hpad f) _))
    n ch i j).symm

end Cert.RAssembly

end
-- ==== Proof.StripsRF0.lean ====
/-
  The four border strips of northern face 0 as the reference program computes them, read through the window of
  the reference's line that writes them: over any contents of the buffers before the line, each strip's buffer
  holds the strip written as a function of the faces it reads (the functions of the module of the strips' kinds) —
  the window's operations composed down to the argument.
-/
import proofs.«156783_j90975997264310_2_alg».proof.Proof.RefOps0
import proofs.«156783_j90975997264310_2_alg».proof.Proof.KindsD
import proofs.«156783_j90975997264310_2_alg».proof.Proof.LibNary3
import Idealize.ShloMosaic.PureOps.Ideal

open Idealize.ShloMosaic Idealize.ShloMosaic.StableHlo Cert.KindsD Cert.LibNary3

namespace Cert.Strips.R
open Cert.ReferenceIdeal Cert.ReferenceIdeal.Gen Cert.ReferenceIdeal.Hand

set_option maxHeartbeats 0 in
set_option maxRecDepth 100000 in
/-- The four strips of face 0 at once, read through the first window of the line. -/
theorem rFace0 (M' : Valuation τ sig (Elt Ideal)) :
    ((StableHlo.after (ops0 (F := Ideal)) M' (Proc.devRef .tc main_v26) : Cert.ReferenceIdeal.S8x32x2x128.Idx → Elt Ideal .f32)
        = rTop (face (M' (Proc.devRef .tc main_arg0)) 1))
    ∧ ((StableHlo.after (ops0 (F := Ideal)) M' (Proc.devRef .tc main_v27) : Cert.ReferenceIdeal.S8x32x2x128.Idx → Elt Ideal .f32)
        = bottom (face (M' (Proc.devRef .tc main_arg0)) 4))
    ∧ ((StableHlo.after (ops0 (F := Ideal)) M' (Proc.devRef .tc main_v34) : Cert.ReferenceIdeal.S8x32x132x2.Idx → Elt Ideal .f32)
        = rLeft (face (M' (Proc.devRef .tc main_arg0)) 2) (face (M' (Proc.devRef .tc main_arg0)) 3))
    ∧ ((StableHlo.after (ops0 (F := Ideal)) M' (Proc.devRef .tc main_v38) : Cert.ReferenceIdeal.S8x32x132x2.Idx → Elt Ideal .f32)
        = rRight (face (M' (Proc.devRef .tc main_arg0)) 1) (face (M' (Proc.devRef .tc main_arg0)) 5) (face (M' (Proc.devRef .tc main_arg0)) 8)) := by
  simp only [ops0]
  after_results_simp3
  exact ⟨rfl, rfl, rfl, rfl⟩

theorem rTop0 (M' : Valuation τ sig (Elt Ideal)) :
    ((StableHlo.after (ops0 (F := Ideal)) M' (Proc.devRef .tc main_v26) : Cert.ReferenceIdeal.S8x32x2x128.Idx → Elt Ideal .f32)
        = rTop (face (M' (Proc.devRef .tc main_arg0)) 1)) := (rFace0 M').1

theorem rBottom0 (M' : Valuation τ sig (Elt Ideal)) :
    ((StableHlo.after (ops0 (F := Ideal)) M' (Proc.devRef .tc main_v27) : Cert.ReferenceIdeal.S8x32x2x128.Idx → Elt Ideal .f32)
        = bottom (face (M' (Proc.devRef .tc main_arg0)) 4)) := (rFace0 M').2.1

theorem rLeft0 (M' : Valuation τ sig (Elt Ideal)) :
    ((StableHlo.after (ops0 (F := Ideal)) M' (Proc.devRef .tc main_v34) : Cert.ReferenceIdeal.S8x32x132x2.Idx → Elt Ideal .f32)
        = rLeft (face (M' (Proc.devRef .tc main_arg0)) 2) (face (M' (Proc.devRef .tc main_arg0)) 3)) := (rFace0 M').2.2.1

theorem rRight0 (M' : Valuation τ sig (Elt Ideal)) :
    ((StableHlo.after (ops0 (F := Ideal)) M' (Proc.devRef .tc main_v38) : Cert.ReferenceIdeal.S8x32x132x2.Idx → Elt Ideal .f32)
        = rRight (face (M' (Proc.devRef .tc main_arg0)) 1) (face (M' (Proc.devRef .tc main_arg0)) 5) (face (M' (Proc.devRef .tc main_arg0)) 8)) := (rFace0 M').2.2.2

end Cert.Strips.R
-- ==== Proof.StripsRF1.lean ====
/-
  The four border strips of northern face 1 as the reference program computes them, read through the window of
  the reference's line that writes them: over any contents of the buffers before the line, each strip's buffer
  holds the strip written as a function of the faces it reads (the functions of the module of the strips' kinds) —
  the window's operations composed down to the argument.
-/
import proofs.«156783_j90975997264310_2_alg».proof.Proof.RefOps0
import proofs.«156783_j90975997264310_2_alg».proof.Proof.StripsRF0
import proofs.«156783_j90975997264310_2_alg».proof.Proof.KindsD
import proofs.«156783_j90975997264310_2_alg».proof.Proof.LibNary3
import Idealize.ShloMosaic.PureOps.Ideal

open Idealize.ShloMosaic Idealize.ShloMosaic.StableHlo Cert.KindsD Cert.LibNary3

namespace Cert.Strips.R
open Cert.ReferenceIdeal Cert.ReferenceIdeal.Gen Cert.ReferenceIdeal.Hand

set_option maxHeartbeats 0 in
set_option maxRecDepth 100000 in
/-- The four strips of face 1 at once, read through the first window of the line. -/
theorem rFace1 (M' : Valuation τ sig (Elt Ideal)) :
    ((StableHlo.after (ops0 (F := Ideal)) M' (Proc.devRef .tc main_v41) : Cert.ReferenceIdeal.S8x32x2x128.Idx → Elt Ideal .f32)
        = rTop (face (M' (Proc.devRef .tc main_arg0)) 2))
    ∧ ((StableHlo.after (ops0 (F := Ideal)) M' (Proc.devRef .tc main_v42) : Cert.ReferenceIdeal.S8x32x2x128.Idx → Elt Ideal .f32)
        = bottom (face (M' (Proc.devRef .tc main_arg0)) 5))
    ∧ ((StableHlo.after (ops0 (F := Ideal)) M' (Proc.devRef .tc main_v49) : Cert.ReferenceIdeal.S8x32x132x2.Idx → Elt Ideal .f32)
        = rLeft (face (M' (Proc.devRef .tc main_arg0)) 3) (face (M' (Proc.devRef .tc main_arg0)) 0))
    ∧ ((StableHlo.after (ops0 (F := Ideal)) M' (Proc.devRef .tc main_v53) : Cert.ReferenceIdeal.S8x32x132x2.Idx → Elt Ideal .f32)
        = rRight (face (M' (Proc.devRef .tc main_arg0)) 2) (face (M' (Proc.devRef .tc main_arg0)) 6) (face (M' (Proc.devRef .tc main_arg0)) 9)) := by
  simp only [ops0]
  after_results_simp3
  exact ⟨rfl, rfl, rfl, rfl⟩

theorem rTop1 (M' : Valuation τ sig (Elt Ideal)) :
    ((StableHlo.after (ops0 (F := Ideal)) M' (Proc.devRef .tc main_v41) : Cert.ReferenceIdeal.S8x32x2x128.Idx → Elt Ideal .f32)
        = rTop (face (M' (Proc.devRef .tc main_arg0)) 2)) := (rFace1 M').1

theorem rBottom1 (M' : Valuation τ sig (Elt Ideal)) :
    ((StableHlo.after (ops0 (F := Ideal)) M' (Proc.devRef .tc main_v42) : Cert.ReferenceIdeal.S8x32x2x128.Idx → Elt Ideal .f32)
        = bottom (face (M' (Proc.devRef .tc main_arg0)) 5)) := (rFace1 M').2.1

theorem rLeft1 (M' : Valuation τ sig (Elt Ideal)) :
    ((StableHlo.after (ops0 (F := Ideal)) M' (Proc.devRef .tc main_v49) : Cert.ReferenceIdeal.S8x32x132x2.Idx → Elt Ideal .f32)
        = rLeft (face (M' (Proc.devRef .tc main_arg0)) 3) (face (M' (Proc.devRef .tc main_arg0)) 0)) := (rFace1 M').2.2.1

theorem rRight1 (M' : Valuation τ sig (Elt Ideal)) :
    ((StableHlo.after (ops0 (F := Ideal)) M' (Proc.devRef .tc main_v53) : Cert.ReferenceIdeal.S8x32x132x2.Idx → Elt Ideal .f32)
        = rRight (face (M' (Proc.devRef .tc main_arg0)) 2) (face (M' (Proc.devRef .tc main_arg0)) 6) (face (M' (Proc.devRef .tc main_arg0)) 9)) := (rFace1 M').2.2.2

end Cert.Strips.R
-- ==== Proof.StripsRF2.lean ====
/-
  The four border strips of northern face 2 as the reference program computes them, read through the window of
  the reference's line that writes them: over any contents of the buffers before the line, each strip's buffer
  holds the strip written as a function of the faces it reads (the functions of the module of the strips' kinds) —
  the window's operations composed down to the argument.
-/
import proofs.«156783_j90975997264310_2_alg».proof.Proof.RefOps0
import proofs.«156783_j90975997264310_2_alg».proof.Proof.StripsRF1
import proofs.«156783_j90975997264310_2_alg».proof.Proof.RefOps1
import proofs.«156783_j90975997264310_2_alg».proof.Proof.KindsD
import proofs.«156783_j90975997264310_2_alg».proof.Proof.LibNary3
import Idealize.ShloMosaic.PureOps.Ideal

open Idealize.ShloMosaic Idealize.ShloMosaic.StableHlo Cert.KindsD Cert.LibNary3

namespace Cert.Strips.R
open Cert.ReferenceIdeal Cert.ReferenceIdeal.Gen Cert.ReferenceIdeal.Hand

set_option maxHeartbeats 0 in
set_option maxRecDepth 100000 in
/-- The four strips of face 2 at once, read through the first two windows of the line. -/
theorem rFace2 (M' : Valuation τ sig (Elt Ideal)) :
    ((StableHlo.after (ops0 (F := Ideal)) M' (Proc.devRef .tc main_v56) : Cert.ReferenceIdeal.S8x32x2x128.Idx → Elt Ideal .f32)
        = rTop (face (M' (Proc.devRef .tc main_arg0)) 3))
    ∧ ((StableHlo.after (ops0 (F := Ideal)) M' (Proc.devRef .tc main_v57) : Cert.ReferenceIdeal.S8x32x2x128.Idx → Elt Ideal .f32)
        = bottom (face (M' (Proc.devRef .tc main_arg0)) 6))
    ∧ ((StableHlo.after (ops1 (F := Ideal)) (StableHlo.after (ops0 (F := Ideal)) M') (Proc.devRef .tc main_v64) : Cert.ReferenceIdeal.S8x32x132x2.Idx → Elt Ideal .f32)
        = rLeft (face (M' (Proc.devRef .tc main_arg0)) 0) (face (M' (Proc.devRef .tc main_arg0)) 1))
    ∧ ((StableHlo.after (ops1 (F := Ideal)) (StableHlo.after (ops0 (F := Ideal)) M') (Proc.devRef .tc main_v68) : Cert.ReferenceIdeal.S8x32x132x2.Idx → Elt Ideal .f32)
        = rRight (face (M' (Proc.devRef .tc main_arg0)) 3) (face (M' (Proc.devRef .tc main_arg0)) 7) (face (M' (Proc.devRef .tc main_arg0)) 10)) := by
  simp only [ops1, ops0]
  after_results_simp3
  exact ⟨rfl, rfl, rfl, rfl⟩

theorem rTop2 (M' : Valuation τ sig (Elt Ideal)) :
    ((StableHlo.after (ops0 (F := Ideal)) M' (Proc.devRef .tc main_v56) : Cert.ReferenceIdeal.S8x32x2x128.Idx → Elt Ideal .f32)
        = rTop (face (M' (Proc.devRef .tc main_arg0)) 3)) := (rFace2 M').1

theorem rBottom2 (M' : Valuation τ sig (Elt Ideal)) :
    ((StableHlo.after (ops0 (F := Ideal)) M' (Proc.devRef .tc main_v57) : Cert.ReferenceIdeal.S8x32x2x128.Idx → Elt Ideal .f32)
        = bottom (face (M' (Proc.devRef .tc main_arg0)) 6)) := (rFace2 M').2.1

theorem rLeft2 (M' : Valuation τ sig (Elt Ideal)) :
    ((StableHlo.after (ops1 (F := Ideal)) (StableHlo.after (ops0 (F := Ideal)) M') (Proc.devRef .tc main_v64) : Cert.ReferenceIdeal.S8x32x132x2.Idx → Elt Ideal .f32)
        = rLeft (face (M' (Proc.devRef .tc main_arg0)) 0) (face (M' (Proc.devRef .tc main_arg0)) 1)) := (rFace2 M').2.2.1

theorem rRight2 (M' : Valuation τ sig (Elt Ideal)) :
    ((StableHlo.after (ops1 (F := Ideal)) (StableHlo.after (ops0 (F := Ideal)) M') (Proc.devRef .tc main_v68) : Cert.ReferenceIdeal.S8x32x132x2.Idx → Elt Ideal .f32)
        = rRight (face (M' (Proc.devRef .tc main_arg0)) 3) (face (M' (Proc.devRef .tc main_arg0)) 7) (face (M' (Proc.devRef .tc main_arg0)) 10)) := (rFace2 M').2.2.2

end Cert.Strips.R
-- ==== Proof.StripsRF3.lean ====
/-
  The four border strips of northern face 3 as the reference program computes them, read through the window of
  the reference's line that writes them: over any contents of the buffers before the line, each strip's buffer
  holds the strip written as a function of the faces it reads (the functions of the module of the strips' kinds) —
  the window's operations composed down to the argument.
-/
import proofs.«156783_j90975997264310_2_alg».proof.Proof.RefOps0
import proofs.«156783_j90975997264310_2_alg».proof.Proof.StripsRF2
import proofs.«156783_j90975997264310_2_alg».proof.Proof.RefOps1
import proofs.«156783_j90975997264310_2_alg».proof.Proof.KindsD
import proofs.«156783_j90975997264310_2_alg».proof.Proof.LibNary3
import Idealize.ShloMosaic.PureOps.Ideal

open Idealize.ShloMosaic Idealize.ShloMosaic.StableHlo Cert.KindsD Cert.LibNary3

namespace Cert.Strips.R
open Cert.ReferenceIdeal Cert.ReferenceIdeal.Gen Cert.ReferenceIdeal.Hand

set_option maxHeartbeats 0 in
set_option maxRecDepth 100000 in
/-- The four strips of face 3 at once, read through the first two windows of the line. -/
theorem rFace3 (M' : Valuation τ sig (Elt Ideal)) :
    ((StableHlo.after (ops1 (F := Ideal)) (StableHlo.after (ops0 (F := Ideal)) M') (Proc.devRef .tc main_v71) : Cert.ReferenceIdeal.S8x32x2x128.Idx → Elt Ideal .f32)
        = rTop (face (M' (Proc.devRef .tc main_arg0)) 0))
    ∧ ((StableHlo.after (ops1 (F := Ideal)) (StableHlo.after (ops0 (F := Ideal)) M') (Proc.devRef .tc main_v72) : Cert.ReferenceIdeal.S8x32x2x128.Idx → Elt Ideal .f32)
        = bottom (face (M' (Proc.devRef .tc main_arg0)) 7))
    ∧ ((StableHlo.after (ops1 (F := Ideal)) (StableHlo.after (ops0 (F := Ideal)) M') (Proc.devRef .tc main_v79) : Cert.ReferenceIdeal.S8x32x132x2.Idx → Elt Ideal .f32)
        = rLeft (face (M' (Proc.devRef .tc main_arg0)) 1) (face (M' (Proc.devRef .tc main_arg0)) 2))
    ∧ ((StableHlo.after (ops1 (F := Ideal)) (StableHlo.after (ops0 (F := Ideal)) M') (Proc.devRef .tc main_v83) : Cert.ReferenceIdeal.S8x32x132x2.Idx → Elt Ideal .f32)
        = rRight (face (M' (Proc.devRef .tc main_arg0)) 0) (face (M' (Proc.devRef .tc main_arg0)) 4) (face (M' (Proc.devRef .tc main_arg0)) 11)) := by
  simp only [ops1, ops0]
  after_results_simp3
  exact ⟨rfl, rfl, rfl, rfl⟩

theorem rTop3 (M' : Valuation τ sig (Elt Ideal)) :
    ((StableHlo.after (ops1 (F := Ideal)) (StableHlo.after (ops0 (F := Ideal)) M') (Proc.devRef .tc main_v71) : Cert.ReferenceIdeal.S8x32x2x128.Idx → Elt Ideal .f32)
        = rTop (face (M' (Proc.devRef .tc main_arg0)) 0)) := (rFace3 M').1

theorem rBottom3 (M' : Valuation τ sig (Elt Ideal)) :
    ((StableHlo.after (ops1 (F := Ideal)) (StableHlo.after (ops0 (F := Ideal)) M') (Proc.devRef .tc main_v72) : Cert.ReferenceIdeal.S8x32x2x128.Idx → Elt Ideal .f32)
        = bottom (face (M' (Proc.devRef .tc main_arg0)) 7)) := (rFace3 M').2.1

theorem rLeft3 (M' : Valuation τ sig (Elt Ideal)) :
    ((StableHlo.after (ops1 (F := Ideal)) (StableHlo.after (ops0 (F := Ideal)) M') (Proc.devRef .tc main_v79) : Cert.ReferenceIdeal.S8x32x132x2.Idx → Elt Ideal .f32)
        = rLeft (face (M' (Proc.devRef .tc main_arg0)) 1) (face (M' (Proc.devRef .tc main_arg0)) 2)) := (rFace3 M').2.2.1

theorem rRight3 (M' : Valuation τ sig (Elt Ideal)) :
    ((StableHlo.after (ops1 (F := Ideal)) (StableHlo.after (ops0 (F := Ideal)) M') (Proc.devRef .tc main_v83) : Cert.ReferenceIdeal.S8x32x132x2.Idx → Elt Ideal .f32)
        = rRight (face (M' (Proc.devRef .tc main_arg0)) 0) (face (M' (Proc.devRef .tc main_arg0)) 4) (face (M' (Proc.devRef .tc main_arg0)) 11)) := (rFace3 M').2.2.2

end Cert.Strips.R
-- ==== Proof.StripsRP_d.lean ====
/-
  The reference program leaves, in the buffer of each border strip of the four northern faces, the strip's function
  of the argument: no later window of the reference's line writes a strip's buffer, so the whole line leaves there
  what the strip's own window wrote.
-/
import proofs.«156783_j90975997264310_2_alg».proof.Proof.StripsRF3
import proofs.«156783_j90975997264310_2_alg».proof.Proof.RSplit
import proofs.«156783_j90975997264310_2_alg».proof.Proof.KindsP_d

open Idealize.ShloMosaic Idealize.ShloMosaic.StableHlo Cert.KindsD

namespace Cert.Strips

theorem rtop0 (M' : Valuation Cert.ReferenceIdeal.τ Cert.ReferenceIdeal.sig (Elt Ideal)) :
    (StableHlo.after (Cert.ReferenceIdeal.Hand.ops (F := Ideal)) M' (Proc.devRef .tc Cert.ReferenceIdeal.main_v26) : Cert.ReferenceIdeal.S8x32x2x128.Idx → Elt Ideal .f32)
      = ptop0 (M' (Proc.devRef .tc Cert.ReferenceIdeal.main_arg0)) :=
  (Cert.ReferenceIdeal.Hand.upto0 (F := Ideal) M' Cert.ReferenceIdeal.main_v26 (by decide) (by decide) (by decide) (by decide) (by decide) (by decide) (by decide) (by decide) (by decide) (by decide)).trans (R.rTop0 M')

theorem rbottom0 (M' : Valuation Cert.ReferenceIdeal.τ Cert.ReferenceIdeal.sig (Elt Ideal)) :
    (StableHlo.after (Cert.ReferenceIdeal.Hand.ops (F := Ideal)) M' (Proc.devRef .tc Cert.ReferenceIdeal.main_v27) : Cert.ReferenceIdeal.S8x32x2x128.Idx → Elt Ideal .f32)
      = pbottom0 (M' (Proc.devRef .tc Cert.ReferenceIdeal.main_arg0)) :=
  (Cert.ReferenceIdeal.Hand.upto0 (F := Ideal) M' Cert.ReferenceIdeal.main_v27 (by decide) (by decide) (by decide) (by decide) (by decide) (by decide) (by decide) (by decide) (by decide) (by decide)).trans (R.rBottom0 M')

theorem rleft0 (M' : Valuation Cert.ReferenceIdeal.τ Cert.ReferenceIdeal.sig (Elt Ideal)) :
    (StableHlo.after (Cert.ReferenceIdeal.Hand.ops (F := Ideal)) M' (Proc.devRef .tc Cert.ReferenceIdeal.main_v34) : Cert.ReferenceIdeal.S8x32x132x2.Idx → Elt Ideal .f32)
      = pleft0 (M' (Proc.devRef .tc Cert.ReferenceIdeal.main_arg0)) :=
  (Cert.ReferenceIdeal.Hand.upto0 (F := Ideal) M' Cert.ReferenceIdeal.main_v34 (by decide) (by decide) (by decide) (by decide) (by decide) (by decide) (by decide) (by decide) (by decide) (by decide)).trans (R.rLeft0 M')

theorem rright0 (M' : Valuation Cert.ReferenceIdeal.τ Cert.ReferenceIdeal.sig (Elt Ideal)) :
    (StableHlo.after (Cert.ReferenceIdeal.Hand.ops (F := Ideal)) M' (Proc.devRef .tc Cert.ReferenceIdeal.main_v38) : Cert.ReferenceIdeal.S8x32x132x2.Idx → Elt Ideal .f32)
      = pright0 (M' (Proc.devRef .tc Cert.ReferenceIdeal.main_arg0)) :=
  (Cert.ReferenceIdeal.Hand.upto0 (F := Ideal) M' Cert.ReferenceIdeal.main_v38 (by decide) (by decide) (by decide) (by decide) (by decide) (by decide) (by decide) (by decide) (by decide) (by decide)).trans (R.rRight0 M')

theorem rtop1 (M' : Valuation Cert.ReferenceIdeal.τ Cert.ReferenceIdeal.sig (Elt Ideal)) :
    (StableHlo.after (Cert.ReferenceIdeal.Hand.ops (F := Ideal)) M' (Proc.devRef .tc Cert.ReferenceIdeal.main_v41) : Cert.ReferenceIdeal.S8x32x2x128.Idx → Elt Ideal .f32)
      = ptop1 (M' (Proc.devRef .tc Cert.ReferenceIdeal.main_arg0)) :=
  (Cert.ReferenceIdeal.Hand.upto0 (F := Ideal) M' Cert.ReferenceIdeal.main_v41 (by decide) (by decide) (by decide) (by decide) (by decide) (by decide) (by decide) (by decide) (by decide) (by decide)).trans (R.rTop1 M')

theorem rbottom1 (M' : Valuation Cert.ReferenceIdeal.τ Cert.ReferenceIdeal.sig (Elt Ideal)) :
    (StableHlo.after (Cert.ReferenceIdeal.Hand.ops (F := Ideal)) M' (Proc.devRef .tc Cert.ReferenceIdeal.main_v42) : Cert.ReferenceIdeal.S8x32x2x128.Idx → Elt Ideal .f32)
      = pbottom1 (M' (Proc.devRef .tc Cert.ReferenceIdeal.main_arg0)) :=
  (Cert.ReferenceIdeal.Hand.upto0 (F := Ideal) M' Cert.ReferenceIdeal.main_v42 (by decide) (by decide) (by decide) (by decide) (by decide) (by decide) (by decide) (by decide) (by decide) (by decide)).trans (R.rBottom1 M')

theorem rleft1 (M' : Valuation Cert.ReferenceIdeal.τ Cert.ReferenceIdeal.sig (Elt Ideal)) :
    (StableHlo.after (Cert.ReferenceIdeal.Hand.ops (F := Ideal)) M' (Proc.devRef .tc Cert.ReferenceIdeal.main_v49) : Cert.ReferenceIdeal.S8x32x132x2.Idx → Elt Ideal .f32)
      = pleft1 (M' (Proc.devRef .tc Cert.ReferenceIdeal.main_arg0)) :=
  (Cert.ReferenceIdeal.Hand.upto0 (F := Ideal) M' Cert.ReferenceIdeal.main_v49 (by decide) (by decide) (by decide) (by decide) (by decide) (by decide) (by decide) (by decide) (by decide) (by decide)).trans (R.rLeft1 M')

theorem rright1 (M' : Valuation Cert.ReferenceIdeal.τ Cert.ReferenceIdeal.sig (Elt Ideal)) :
    (StableHlo.after (Cert.ReferenceIdeal.Hand.ops (F := Ideal)) M' (Proc.devRef .tc Cert.ReferenceIdeal.main_v53) : Cert.ReferenceIdeal.S8x32x132x2.Idx → Elt Ideal .f32)
      = pright1 (M' (Proc.devRef .tc Cert.ReferenceIdeal.main_arg0)) :=
  (Cert.ReferenceIdeal.Hand.upto0 (F := Ideal) M' Cert.ReferenceIdeal.main_v53 (by decide) (by decide) (by decide) (by decide) (by decide) (by decide) (by decide) (by decide) (by decide) (by decide)).trans (R.rRight1 M')

theorem rtop2 (M' : Valuation Cert.ReferenceIdeal.τ Cert.ReferenceIdeal.sig (Elt Ideal)) :
    (StableHlo.after (Cert.ReferenceIdeal.Hand.ops (F := Ideal)) M' (Proc.devRef .tc Cert.ReferenceIdeal.main_v56) : Cert.ReferenceIdeal.S8x32x2x128.Idx → Elt Ideal .f32)
      = ptop2 (M' (Proc.devRef .tc Cert.ReferenceIdeal.main_arg0)) :=
  (Cert.ReferenceIdeal.Hand.upto0 (F := Ideal) M' Cert.ReferenceIdeal.main_v56 (by decide) (by decide) (by decide) (by decide) (by decide) (by decide) (by decide) (by decide) (by decide) (by decide)).trans (R.rTop2 M')

theorem rbottom2 (M' : Valuation Cert.ReferenceIdeal.τ Cert.ReferenceIdeal.sig (Elt Ideal)) :
    (StableHlo.after (Cert.ReferenceIdeal.Hand.ops (F := Ideal)) M' (Proc.devRef .tc Cert.ReferenceIdeal.main_v57) : Cert.ReferenceIdeal.S8x32x2x128.Idx → Elt Ideal .f32)
      = pbottom2 (M' (Proc.devRef .tc Cert.ReferenceIdeal.main_arg0)) :=
  (Cert.ReferenceIdeal.Hand.upto0 (F := Ideal) M' Cert.ReferenceIdeal.main_v57 (by decide) (by decide) (by decide) (by decide) (by decide) (by decide) (by decide) (by decide) (by decide) (by decide)).trans (R.rBottom2 M')

theorem rleft2 (M' : Valuation Cert.ReferenceIdeal.τ Cert.ReferenceIdeal.sig (Elt Ideal)) :
    (StableHlo.after (Cert.ReferenceIdeal.Hand.ops (F := Ideal)) M' (Proc.devRef .tc Cert.ReferenceIdeal.main_v64) : Cert.ReferenceIdeal.S8x32x132x2.Idx → Elt Ideal .f32)
      = pleft2 (M' (Proc.devRef .tc Cert.ReferenceIdeal.main_arg0)) :=
  (Cert.ReferenceIdeal.Hand.upto1 (F := Ideal) M' Cert.ReferenceIdeal.main_v64 (by decide) (by decide) (by decide) (by decide) (by decide) (by decide) (by decide) (by decide) (by decide)).trans (R.rLeft2 M')

theorem rright2 (M' : Valuation Cert.ReferenceIdeal.τ Cert.ReferenceIdeal.sig (Elt Ideal)) :
    (StableHlo.after (Cert.ReferenceIdeal.Hand.ops (F := Ideal)) M' (Proc.devRef .tc Cert.ReferenceIdeal.main_v68) : Cert.ReferenceIdeal.S8x32x132x2.Idx → Elt Ideal .f32)
      = pright2 (M' (Proc.devRef .tc Cert.ReferenceIdeal.main_arg0)) :=
  (Cert.ReferenceIdeal.Hand.upto1 (F := Ideal) M' Cert.ReferenceIdeal.main_v68 (by decide) (by decide) (by decide) (by decide) (by decide) (by decide) (by decide) (by decide) (by decide)).trans (R.rRight2 M')

theorem rtop3 (M' : Valuation Cert.ReferenceIdeal.τ Cert.ReferenceIdeal.sig (Elt Ideal)) :
    (StableHlo.after (Cert.ReferenceIdeal.Hand.ops (F := Ideal)) M' (Proc.devRef .tc Cert.ReferenceIdeal.main_v71) : Cert.ReferenceIdeal.S8x32x2x128.Idx → Elt Ideal .f32)
      = ptop3 (M' (Proc.devRef .tc Cert.ReferenceIdeal.main_arg0)) :=
  (Cert.ReferenceIdeal.Hand.upto1 (F := Ideal) M' Cert.ReferenceIdeal.main_v71 (by decide) (by decide) (by decide) (by decide) (by decide) (by decide) (by decide) (by decide) (by decide)).trans (R.rTop3 M')

theorem rbottom3 (M' : Valuation Cert.ReferenceIdeal.τ Cert.ReferenceIdeal.sig (Elt Ideal)) :
    (StableHlo.after (Cert.ReferenceIdeal.Hand.ops (F := Ideal)) M' (Proc.devRef .tc Cert.ReferenceIdeal.main_v72) : Cert.ReferenceIdeal.S8x32x2x128.Idx → Elt Ideal .f32)
      = pbottom3 (M' (Proc.devRef .tc Cert.ReferenceIdeal.main_arg0)) :=
  (Cert.ReferenceIdeal.Hand.upto1 (F := Ideal) M' Cert.ReferenceIdeal.main_v72 (by decide) (by decide) (by decide) (by decide) (by decide) (by decide) (by decide) (by decide) (by decide)).trans (R.rBottom3 M')

theorem rleft3 (M' : Valuation Cert.ReferenceIdeal.τ Cert.ReferenceIdeal.sig (Elt Ideal)) :
    (StableHlo.after (Cert.ReferenceIdeal.Hand.ops (F := Ideal)) M' (Proc.devRef .tc Cert.ReferenceIdeal.main_v79) : Cert.ReferenceIdeal.S8x32x132x2.Idx → Elt Ideal .f32)
      = pleft3 (M' (Proc.devRef .tc Cert.ReferenceIdeal.main_arg0)) :=
  (Cert.ReferenceIdeal.Hand.upto1 (F := Ideal) M' Cert.ReferenceIdeal.main_v79 (by decide) (by decide) (by decide) (by decide) (by decide) (by decide) (by decide) (by decide) (by decide)).trans (R.rLeft3 M')

theorem rright3 (M' : Valuation Cert.ReferenceIdeal.τ Cert.ReferenceIdeal.sig (Elt Ideal)) :
    (StableHlo.after (Cert.ReferenceIdeal.Hand.ops (F := Ideal)) M' (Proc.devRef .tc Cert.ReferenceIdeal.main_v83) : Cert.ReferenceIdeal.S8x32x132x2.Idx → Elt Ideal .f32)
      = pright3 (M' (Proc.devRef .tc Cert.ReferenceIdeal.main_arg0)) :=
  (Cert.ReferenceIdeal.Hand.upto1 (F := Ideal) M' Cert.ReferenceIdeal.main_v83 (by decide) (by decide) (by decide) (by decide) (by decide) (by decide) (by decide) (by decide) (by decide)).trans (R.rRight3 M')

end Cert.Strips
-- ==== Proof.RFaces0_e.lean ====
/-
  The reference's first window of operations, over any contents before it: the twelve face buffers hold the twelve
  faces of the argument.
-/
import proofs.«156783_j90975997264310_2_alg».proof.Proof.RefOps0
import proofs.«156783_j90975997264310_2_alg».proof.Proof.KindsE
import Idealize.ShloMosaic.PureOps.Ideal

noncomputable section

namespace Cert.StripsE

open Idealize.ShloMosaic Idealize.ShloMosaic.StableHlo Cert.KindsE
open Cert.ReferenceIdeal Cert.ReferenceIdeal.Gen Cert.ReferenceIdeal.Hand

set_option maxHeartbeats 0 in
set_option maxRecDepth 100000 in
/-- After the first window each face buffer holds its face of the argument. -/
theorem rfaces0 (W : Valuation τ sig (Elt Ideal)) :
    (StableHlo.after ops0 W (Proc.devRef .tc main_v2) : SF.Idx → Ideal .f32) = face (F := Ideal) 0 (W (Proc.devRef .tc main_arg0)) ∧
    (StableHlo.after ops0 W (Proc.devRef .tc main_v4) : SF.Idx → Ideal .f32) = face (F := Ideal) 1 (W (Proc.devRef .tc main_arg0)) ∧
    (StableHlo.after ops0 W (Proc.devRef .tc main_v6) : SF.Idx → Ideal .f32) = face (F := Ideal) 2 (W (Proc.devRef .tc main_arg0)) ∧
    (StableHlo.after ops0 W (Proc.devRef .tc main_v8) : SF.Idx → Ideal .f32) = face (F := Ideal) 3 (W (Proc.devRef .tc main_arg0)) ∧
    (StableHlo.after ops0 W (Proc.devRef .tc main_v10) : SF.Idx → Ideal .f32) = face (F := Ideal) 4 (W (Proc.devRef .tc main_arg0)) ∧
    (StableHlo.after ops0 W (Proc.devRef .tc main_v12) : SF.Idx → Ideal .f32) = face (F := Ideal) 5 (W (Proc.devRef .tc main_arg0)) ∧
    (StableHlo.after ops0 W (Proc.devRef .tc main_v14) : SF.Idx → Ideal .f32) = face (F := Ideal) 6 (W (Proc.devRef .tc main_arg0)) ∧
    (StableHlo.after ops0 W (Proc.devRef .tc main_v16) : SF.Idx → Ideal .f32) = face (F := Ideal) 7 (W (Proc.devRef .tc main_arg0)) ∧
    (StableHlo.after ops0 W (Proc.devRef .tc main_v18) : SF.Idx → Ideal .f32) = face (F := Ideal) 8 (W (Proc.devRef .tc main_arg0)) ∧
    (StableHlo.after ops0 W (Proc.devRef .tc main_v20) : SF.Idx → Ideal .f32) = face (F := Ideal) 9 (W (Proc.devRef .tc main_arg0)) ∧
    (StableHlo.after ops0 W (Proc.devRef .tc main_v22) : SF.Idx → Ideal .f32) = face (F := Ideal) 10 (W (Proc.devRef .tc main_arg0)) ∧
    (StableHlo.after ops0 W (Proc.devRef .tc main_v24) : SF.Idx → Ideal .f32) = face (F := Ideal) 11 (W (Proc.devRef .tc main_arg0)) := by
  simp only [ops0]
  simp (disch := decide) only [after_cons, after_nil,
      nullary_result', unary_result', binary_result', ternary_result', quaternary_result', reshape_result',
      nullary_result_ne', unary_result_ne', binary_result_ne', ternary_result_ne', quaternary_result_ne', reshape_result_ne',
      nary_result_ne', unaryIndexed_result_ne', binaryIndexed_result_ne']
  exact ⟨rfl, rfl, rfl, rfl, rfl, rfl, rfl, rfl, rfl, rfl, rfl, rfl⟩

end Cert.StripsE

end
-- ==== Proof.LibCat3_e.lean ====
/-
  Three rank-4 pieces (2, 128 and 2 rows of 2 columns) laid end to end along the rows, with the pieces as direct
  arguments, over any element type.
-/
import Idealize.ShloMosaic.Lib.Pipeline.Value

namespace Cert.LibCat3E

open Idealize.ShloMosaic

/-- Three pieces laid end to end along the rows. -/
def cat3g {α : Type} (x1 : (⟨4, ![8, 32, 2, 2]⟩ : Shape).Idx → α) (x2 : (⟨4, ![8, 32, 128, 2]⟩ : Shape).Idx → α)
    (x3 : (⟨4, ![8, 32, 2, 2]⟩ : Shape).Idx → α) : (⟨4, ![8, 32, 132, 2]⟩ : Shape).Idx → α :=
  concatenate ⟨4, ![8, 32, 132, 2]⟩ 2 [⟨⟨4, ![8, 32, 2, 2]⟩, x1⟩, ⟨⟨4, ![8, 32, 128, 2]⟩, x2⟩, ⟨⟨4, ![8, 32, 2, 2]⟩, x3⟩]
    (show Shape.Concatenates [⟨4, ![8, 32, 2, 2]⟩, ⟨4, ![8, 32, 128, 2]⟩, ⟨4, ![8, 32, 2, 2]⟩] ⟨4, ![8, 32, 132, 2]⟩ 2 by decide)

theorem cat3g_eq {α : Type} (x1 : (⟨4, ![8, 32, 2, 2]⟩ : Shape).Idx → α) (x2 : (⟨4, ![8, 32, 128, 2]⟩ : Shape).Idx → α)
    (x3 : (⟨4, ![8, 32, 2, 2]⟩ : Shape).Idx → α)
    (hc : Shape.Concatenates (([⟨⟨4, ![8, 32, 2, 2]⟩, x1⟩, ⟨⟨4, ![8, 32, 128, 2]⟩, x2⟩, ⟨⟨4, ![8, 32, 2, 2]⟩, x3⟩] : List ((s : Shape) × (s.Idx → α))).map (·.1)) ⟨4, ![8, 32, 132, 2]⟩ 2) :
    concatenate ⟨4, ![8, 32, 132, 2]⟩ 2 [⟨⟨4, ![8, 32, 2, 2]⟩, x1⟩, ⟨⟨4, ![8, 32, 128, 2]⟩, x2⟩, ⟨⟨4, ![8, 32, 2, 2]⟩, x3⟩] hc = cat3g x1 x2 x3 := rfl

end Cert.LibCat3E
-- ==== Proof.StripsR4_e.lean ====
/-
  Face 4 (equatorial), reference side: the four border strips the reference's operations build, read out of the
  windows of operations that build them (windows 1, 2, 3), over any contents before those windows in which the six
  neighbouring face buffers hold their faces.
-/
import proofs.«156783_j90975997264310_2_alg».proof.Proof.RefOps1
import proofs.«156783_j90975997264310_2_alg».proof.Proof.RefOps2
import proofs.«156783_j90975997264310_2_alg».proof.Proof.RefOps3
import proofs.«156783_j90975997264310_2_alg».proof.Proof.KindsE
import proofs.«156783_j90975997264310_2_alg».proof.Proof.LibCat3_e
import Idealize.ShloMosaic.PureOps.Ideal

noncomputable section

namespace Cert.StripsE

open Idealize.ShloMosaic Idealize.ShloMosaic.StableHlo Cert.KindsE
open Cert.ReferenceIdeal Cert.ReferenceIdeal.Gen Cert.ReferenceIdeal.Hand

/-- The three-piece concatenate that writes buffer 168, with its three operands' contents as direct arguments. -/
theorem nary_v168 (V : Valuation τ sig (Elt Ideal)) (hxs) (hy) :
    (StableHlo.nary (τ := τ) ![main_v123, main_v166, main_v167] main_v168 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) hxs hy).result V (no_index (Proc.devRef .tc main_v168))
      = Cert.LibCat3E.cat3g (V (Proc.devRef .tc main_v123)) (V (Proc.devRef .tc main_v166)) (V (Proc.devRef .tc main_v167)) :=
  (StableHlo.nary_result _ _ _ hxs hy V).trans rfl

/-- The three-piece concatenate that writes buffer 171, with its three operands' contents as direct arguments. -/
theorem nary_v171 (V : Valuation τ sig (Elt Ideal)) (hxs) (hy) :
    (StableHlo.nary (τ := τ) ![main_v169, main_v170, main_v162] main_v171 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) hxs hy).result V (no_index (Proc.devRef .tc main_v171))
      = Cert.LibCat3E.cat3g (V (Proc.devRef .tc main_v169)) (V (Proc.devRef .tc main_v170)) (V (Proc.devRef .tc main_v162)) :=
  (StableHlo.nary_result _ _ _ hxs hy V).trans rfl

set_option maxHeartbeats 0 in
set_option maxRecDepth 100000 in
/-- The reference's four border strips of face 4, as functions of the six neighbouring faces. -/
theorem rfaceW4 (W : Valuation τ sig (Elt Ideal)) (x : SX.Idx → Ideal .f32)
    (ht : (W (Proc.devRef .tc main_v2) : SF.Idx → Ideal .f32) = face (F := Ideal) 0 x)
    (hl : (W (Proc.devRef .tc main_v8) : SF.Idx → Ideal .f32) = face (F := Ideal) 3 x)
    (hbl : (W (Proc.devRef .tc main_v16) : SF.Idx → Ideal .f32) = face (F := Ideal) 7 x)
    (hb : (W (Proc.devRef .tc main_v24) : SF.Idx → Ideal .f32) = face (F := Ideal) 11 x)
    (hr : (W (Proc.devRef .tc main_v18) : SF.Idx → Ideal .f32) = face (F := Ideal) 8 x)
    (htr : (W (Proc.devRef .tc main_v12) : SF.Idx → Ideal .f32) = face (F := Ideal) 5 x) :
    ((StableHlo.after ops3 (StableHlo.after ops2 (StableHlo.after ops1 W))) (Proc.devRef .tc main_v163) : ST.Idx → Ideal .f32) = topS (F := Ideal) (face 0 x) ∧
    ((StableHlo.after ops3 (StableHlo.after ops2 (StableHlo.after ops1 W))) (Proc.devRef .tc main_v164) : ST.Idx → Ideal .f32) = botS (F := Ideal) (face 11 x) ∧
    ((StableHlo.after ops3 (StableHlo.after ops2 (StableHlo.after ops1 W))) (Proc.devRef .tc main_v168) : SL.Idx → Ideal .f32)
      = leftR (F := Ideal) (face 0 x) (face 3 x) (face 7 x) ∧
    ((StableHlo.after ops3 (StableHlo.after ops2 (StableHlo.after ops1 W))) (Proc.devRef .tc main_v171) : SL.Idx → Ideal .f32)
      = rightR (F := Ideal) (face 5 x) (face 8 x) (face 11 x) := by
  simp only [ops1, ops2, ops3]
  simp (disch := decide) only [after_cons, after_nil,
      nullary_result', unary_result', binary_result', ternary_result', quaternary_result', reshape_result', nary_v168, nary_v171,
      nullary_result_ne', unary_result_ne', binary_result_ne', ternary_result_ne', quaternary_result_ne', reshape_result_ne',
      nary_result_ne', unaryIndexed_result_ne', binaryIndexed_result_ne', Cert.KindsE.idx2_eq]
  simp only [ht, hl, hbl, hb, hr, htr]
  exact ⟨rfl, rfl, rfl, rfl⟩

end Cert.StripsE

end
-- ==== Proof.StripsR5_e.lean ====
/-
  Face 5 (equatorial), reference side: the four border strips the reference's operations build, read out of the
  windows of operations that build them (windows 3, 4, 5), over any contents before those windows in which the six
  neighbouring face buffers hold their faces.
-/
import proofs.«156783_j90975997264310_2_alg».proof.Proof.RefOps3
import proofs.«156783_j90975997264310_2_alg».proof.Proof.RefOps4
import proofs.«156783_j90975997264310_2_alg».proof.Proof.RefOps5
import proofs.«156783_j90975997264310_2_alg».proof.Proof.KindsE
import proofs.«156783_j90975997264310_2_alg».proof.Proof.LibCat3_e
import Idealize.ShloMosaic.PureOps.Ideal

noncomputable section

namespace Cert.StripsE

open Idealize.ShloMosaic Idealize.ShloMosaic.StableHlo Cert.KindsE
open Cert.ReferenceIdeal Cert.ReferenceIdeal.Gen Cert.ReferenceIdeal.Hand

/-- The three-piece concatenate that writes buffer 256, with its three operands' contents as direct arguments. -/
theorem nary_v256 (V : Valuation τ sig (Elt Ideal)) (hxs) (hy) :
    (StableHlo.nary (τ := τ) ![main_v211, main_v254, main_v255] main_v256 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) hxs hy).result V (no_index (Proc.devRef .tc main_v256))
      = Cert.LibCat3E.cat3g (V (Proc.devRef .tc main_v211)) (V (Proc.devRef .tc main_v254)) (V (Proc.devRef .tc main_v255)) :=
  (StableHlo.nary_result _ _ _ hxs hy V).trans rfl

/-- The three-piece concatenate that writes buffer 259, with its three operands' contents as direct arguments. -/
theorem nary_v259 (V : Valuation τ sig (Elt Ideal)) (hxs) (hy) :
    (StableHlo.nary (τ := τ) ![main_v257, main_v258, main_v250] main_v259 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) hxs hy).result V (no_index (Proc.devRef .tc main_v259))
      = Cert.LibCat3E.cat3g (V (Proc.devRef .tc main_v257)) (V (Proc.devRef .tc main_v258)) (V (Proc.devRef .tc main_v250)) :=
  (StableHlo.nary_result _ _ _ hxs hy V).trans rfl

set_option maxHeartbeats 0 in
set_option maxRecDepth 100000 in
/-- The reference's four border strips of face 5, as functions of the six neighbouring faces. -/
theorem rfaceW5 (W : Valuation τ sig (Elt Ideal)) (x : SX.Idx → Ideal .f32)
    (ht : (W (Proc.devRef .tc main_v4) : SF.Idx → Ideal .f32) = face (F := Ideal) 1 x)
    (hl : (W (Proc.devRef .tc main_v2) : SF.Idx → Ideal .f32) = face (F := Ideal) 0 x)
    (hbl : (W (Proc.devRef .tc main_v10) : SF.Idx → Ideal .f32) = face (F := Ideal) 4 x)
    (hb : (W (Proc.devRef .tc main_v18) : SF.Idx → Ideal .f32) = face (F := Ideal) 8 x)
    (hr : (W (Proc.devRef .tc main_v20) : SF.Idx → Ideal .f32) = face (F := Ideal) 9 x)
    (htr : (W (Proc.devRef .tc main_v14) : SF.Idx → Ideal .f32) = face (F := Ideal) 6 x) :
    ((StableHlo.after ops5 (StableHlo.after ops4 (StableHlo.after ops3 W))) (Proc.devRef .tc main_v251) : ST.Idx → Ideal .f32) = topS (F := Ideal) (face 1 x) ∧
    ((StableHlo.after ops5 (StableHlo.after ops4 (StableHlo.after ops3 W))) (Proc.devRef .tc main_v252) : ST.Idx → Ideal .f32) = botS (F := Ideal) (face 8 x) ∧
    ((StableHlo.after ops5 (StableHlo.after ops4 (StableHlo.after ops3 W))) (Proc.devRef .tc main_v256) : SL.Idx → Ideal .f32)
      = leftR (F := Ideal) (face 1 x) (face 0 x) (face 4 x) ∧
    ((StableHlo.after ops5 (StableHlo.after ops4 (StableHlo.after ops3 W))) (Proc.devRef .tc main_v259) : SL.Idx → Ideal .f32)
      = rightR (F := Ideal) (face 6 x) (face 9 x) (face 8 x) := by
  simp only [ops3, ops4, ops5]
  simp (disch := decide) only [after_cons, after_nil,
      nullary_result', unary_result', binary_result', ternary_result', quaternary_result', reshape_result', nary_v256, nary_v259,
      nullary_result_ne', unary_result_ne', binary_result_ne', ternary_result_ne', quaternary_result_ne', reshape_result_ne',
      nary_result_ne', unaryIndexed_result_ne', binaryIndexed_result_ne', Cert.KindsE.idx2_eq]
  simp only [ht, hl, hbl, hb, hr, htr]
  exact ⟨rfl, rfl, rfl, rfl⟩

end Cert.StripsE

end
-- ==== Proof.StripsR6_e.lean ====
/-
  Face 6 (equatorial), reference side: the four border strips the reference's operations build, read out of the
  windows of operations that build them (windows 5, 6, 7), over any contents before those windows in which the six
  neighbouring face buffers hold their faces.
-/
import proofs.«156783_j90975997264310_2_alg».proof.Proof.RefOps5
import proofs.«156783_j90975997264310_2_alg».proof.Proof.RefOps6
import proofs.«156783_j90975997264310_2_alg».proof.Proof.RefOps7
import proofs.«156783_j90975997264310_2_alg».proof.Proof.KindsE
import proofs.«156783_j90975997264310_2_alg».proof.Proof.LibCat3_e
import Idealize.ShloMosaic.PureOps.Ideal

noncomputable section

namespace Cert.StripsE

open Idealize.ShloMosaic Idealize.ShloMosaic.StableHlo Cert.KindsE
open Cert.ReferenceIdeal Cert.ReferenceIdeal.Gen Cert.ReferenceIdeal.Hand

/-- The three-piece concatenate that writes buffer 344, with its three operands' contents as direct arguments. -/
theorem nary_v344 (V : Valuation τ sig (Elt Ideal)) (hxs) (hy) :
    (StableHlo.nary (τ := τ) ![main_v299, main_v342, main_v343] main_v344 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) hxs hy).result V (no_index (Proc.devRef .tc main_v344))
      = Cert.LibCat3E.cat3g (V (Proc.devRef .tc main_v299)) (V (Proc.devRef .tc main_v342)) (V (Proc.devRef .tc main_v343)) :=
  (StableHlo.nary_result _ _ _ hxs hy V).trans rfl

/-- The three-piece concatenate that writes buffer 347, with its three operands' contents as direct arguments. -/
theorem nary_v347 (V : Valuation τ sig (Elt Ideal)) (hxs) (hy) :
    (StableHlo.nary (τ := τ) ![main_v345, main_v346, main_v338] main_v347 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) hxs hy).result V (no_index (Proc.devRef .tc main_v347))
      = Cert.LibCat3E.cat3g (V (Proc.devRef .tc main_v345)) (V (Proc.devRef .tc main_v346)) (V (Proc.devRef .tc main_v338)) :=
  (StableHlo.nary_result _ _ _ hxs hy V).trans rfl

set_option maxHeartbeats 0 in
set_option maxRecDepth 100000 in
/-- The reference's four border strips of face 6, as functions of the six neighbouring faces. -/
theorem rfaceW6 (W : Valuation τ sig (Elt Ideal)) (x : SX.Idx → Ideal .f32)
    (ht : (W (Proc.devRef .tc main_v6) : SF.Idx → Ideal .f32) = face (F := Ideal) 2 x)
    (hl : (W (Proc.devRef .tc main_v4) : SF.Idx → Ideal .f32) = face (F := Ideal) 1 x)
    (hbl : (W (Proc.devRef .tc main_v12) : SF.Idx → Ideal .f32) = face (F := Ideal) 5 x)
    (hb : (W (Proc.devRef .tc main_v20) : SF.Idx → Ideal .f32) = face (F := Ideal) 9 x)
    (hr : (W (Proc.devRef .tc main_v22) : SF.Idx → Ideal .f32) = face (F := Ideal) 10 x)
    (htr : (W (Proc.devRef .tc main_v16) : SF.Idx → Ideal .f32) = face (F := Ideal) 7 x) :
    ((StableHlo.after ops7 (StableHlo.after ops6 (StableHlo.after ops5 W))) (Proc.devRef .tc main_v339) : ST.Idx → Ideal .f32) = topS (F := Ideal) (face 2 x) ∧
    ((StableHlo.after ops7 (StableHlo.after ops6 (StableHlo.after ops5 W))) (Proc.devRef .tc main_v340) : ST.Idx → Ideal .f32) = botS (F := Ideal) (face 9 x) ∧
    ((StableHlo.after ops7 (StableHlo.after ops6 (StableHlo.after ops5 W))) (Proc.devRef .tc main_v344) : SL.Idx → Ideal .f32)
      = leftR (F := Ideal) (face 2 x) (face 1 x) (face 5 x) ∧
    ((StableHlo.after ops7 (StableHlo.after ops6 (StableHlo.after ops5 W))) (Proc.devRef .tc main_v347) : SL.Idx → Ideal .f32)
      = rightR (F := Ideal) (face 7 x) (face 10 x) (face 9 x) := by
  simp only [ops5, ops6, ops7]
  simp (disch := decide) only [after_cons, after_nil,
      nullary_result', unary_result', binary_result', ternary_result', quaternary_result', reshape_result', nary_v344, nary_v347,
      nullary_result_ne', unary_result_ne', binary_result_ne', ternary_result_ne', quaternary_result_ne', reshape_result_ne',
      nary_result_ne', unaryIndexed_result_ne', binaryIndexed_result_ne', Cert.KindsE.idx2_eq]
  simp only [ht, hl, hbl, hb, hr, htr]
  exact ⟨rfl, rfl, rfl, rfl⟩

end Cert.StripsE

end
-- ==== Proof.StripsR7_e.lean ====
/-
  Face 7 (equatorial), reference side: the four border strips the reference's operations build, read out of the
  windows of operations that build them (windows 7, 8), over any contents before those windows in which the six
  neighbouring face buffers hold their faces.
-/
import proofs.«156783_j90975997264310_2_alg».proof.Proof.RefOps7
import proofs.«156783_j90975997264310_2_alg».proof.Proof.RefOps8
import proofs.«156783_j90975997264310_2_alg».proof.Proof.KindsE
import proofs.«156783_j90975997264310_2_alg».proof.Proof.LibCat3_e
import Idealize.ShloMosaic.PureOps.Ideal

noncomputable section

namespace Cert.StripsE

open Idealize.ShloMosaic Idealize.ShloMosaic.StableHlo Cert.KindsE
open Cert.ReferenceIdeal Cert.ReferenceIdeal.Gen Cert.ReferenceIdeal.Hand

/-- The three-piece concatenate that writes buffer 432, with its three operands' contents as direct arguments. -/
theorem nary_v432 (V : Valuation τ sig (Elt Ideal)) (hxs) (hy) :
    (StableHlo.nary (τ := τ) ![main_v387, main_v430, main_v431] main_v432 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) hxs hy).result V (no_index (Proc.devRef .tc main_v432))
      = Cert.LibCat3E.cat3g (V (Proc.devRef .tc main_v387)) (V (Proc.devRef .tc main_v430)) (V (Proc.devRef .tc main_v431)) :=
  (StableHlo.nary_result _ _ _ hxs hy V).trans rfl

/-- The three-piece concatenate that writes buffer 435, with its three operands' contents as direct arguments. -/
theorem nary_v435 (V : Valuation τ sig (Elt Ideal)) (hxs) (hy) :
    (StableHlo.nary (τ := τ) ![main_v433, main_v434, main_v426] main_v435 (fun u => concatenate S8x32x132x2 2 [⟨S8x32x2x2, u 0⟩, ⟨S8x32x128x2, u 1⟩, ⟨S8x32x2x2, u 2⟩] concatenates_S8x32x2x2_S8x32x128x2_S8x32x2x2_S8x32x132x2_d2) hxs hy).result V (no_index (Proc.devRef .tc main_v435))
      = Cert.LibCat3E.cat3g (V (Proc.devRef .tc main_v433)) (V (Proc.devRef .tc main_v434)) (V (Proc.devRef .tc main_v426)) :=
  (StableHlo.nary_result _ _ _ hxs hy V).trans rfl

set_option maxHeartbeats 0 in
set_option maxRecDepth 100000 in
/-- The reference's four border strips of face 7, as functions of the six neighbouring faces. -/
theorem rfaceW7 (W : Valuation τ sig (Elt Ideal)) (x : SX.Idx → Ideal .f32)
    (ht : (W (Proc.devRef .tc main_v8) : SF.Idx → Ideal .f32) = face (F := Ideal) 3 x)
    (hl : (W (Proc.devRef .tc main_v6) : SF.Idx → Ideal .f32) = face (F := Ideal) 2 x)
    (hbl : (W (Proc.devRef .tc main_v14) : SF.Idx → Ideal .f32) = face (F := Ideal) 6 x)
    (hb : (W (Proc.devRef .tc main_v22) : SF.Idx → Ideal .f32) = face (F := Ideal) 10 x)
    (hr : (W (Proc.devRef .tc main_v24) : SF.Idx → Ideal .f32) = face (F := Ideal) 11 x)
    (htr : (W (Proc.devRef .tc main_v10) : SF.Idx → Ideal .f32) = face (F := Ideal) 4 x) :
    ((StableHlo.after ops8 (StableHlo.after ops7 W)) (Proc.devRef .tc main_v427) : ST.Idx → Ideal .f32) = topS (F := Ideal) (face 3 x) ∧
    ((StableHlo.after ops8 (StableHlo.after ops7 W)) (Proc.devRef .tc main_v428) : ST.Idx → Ideal .f32) = botS (F := Ideal) (face 10 x) ∧
    ((StableHlo.after ops8 (StableHlo.after ops7 W)) (Proc.devRef .tc main_v432) : SL.Idx → Ideal .f32)
      = leftR (F := Ideal) (face 3 x) (face 2 x) (face 6 x) ∧
    ((StableHlo.after ops8 (StableHlo.after ops7 W)) (Proc.devRef .tc main_v435) : SL.Idx → Ideal .f32)
      = rightR (F := Ideal) (face 4 x) (face 11 x) (face 10 x) := by
  simp only [ops7, ops8]
  simp (disch := decide) only [after_cons, after_nil,
      nullary_result', unary_result', binary_result', ternary_result', quaternary_result', reshape_result', nary_v432, nary_v435,
      nullary_result_ne', unary_result_ne', binary_result_ne', ternary_result_ne', quaternary_result_ne', reshape_result_ne',
      nary_result_ne', unaryIndexed_result_ne', binaryIndexed_result_ne', Cert.KindsE.idx2_eq]
  simp only [ht, hl, hbl, hb, hr, htr]
  exact ⟨rfl, rfl, rfl, rfl⟩

end Cert.StripsE

end
-- ==== Proof.StripsRP_e.lean ====
/-
  Faces 4 to 7 (equatorial), reference side: each border strip the reference's operations build is the pure strip of
  the argument. The strip is read from the fold up to the window that writes it (no later window writes it); the
  windows that build it see the six neighbouring face buffers holding their faces, because the first window cuts
  the faces out of the argument and no window in between writes a face buffer.
-/
import proofs.«156783_j90975997264310_2_alg».proof.Proof.RSplit
import proofs.«156783_j90975997264310_2_alg».proof.Proof.RFaces0_e
import proofs.«156783_j90975997264310_2_alg».proof.Proof.StripsR4_e
import proofs.«156783_j90975997264310_2_alg».proof.Proof.StripsR5_e
import proofs.«156783_j90975997264310_2_alg».proof.Proof.StripsR6_e
import proofs.«156783_j90975997264310_2_alg».proof.Proof.StripsR7_e
import proofs.«156783_j90975997264310_2_alg».proof.Proof.StripsP_e

noncomputable section

namespace Cert.Strips

open Idealize.ShloMosaic Idealize.ShloMosaic.StableHlo

/-- The reference's top strip of face 4 is the pure top strip of the argument. -/
theorem rtop4 (M' : Valuation Cert.ReferenceIdeal.τ Cert.ReferenceIdeal.sig (Elt Ideal)) :
    (StableHlo.after (Cert.ReferenceIdeal.Hand.ops (F := Ideal)) M' (Proc.devRef .tc Cert.ReferenceIdeal.main_v163) : Cert.ReferenceIdeal.S8x32x2x128.Idx → Elt Ideal .f32)
      = ptop4 (M' (Proc.devRef .tc Cert.ReferenceIdeal.main_arg0)) :=
  (Cert.ReferenceIdeal.Hand.upto3 M' Cert.ReferenceIdeal.main_v163 (by decide) (by decide) (by decide) (by decide) (by decide) (by decide) (by decide)).trans
    (Cert.StripsE.rfaceW4 (StableHlo.after Cert.ReferenceIdeal.Hand.ops0 M') (M' (Proc.devRef .tc Cert.ReferenceIdeal.main_arg0))
      ((Cert.StripsE.rfaces0 M').1)
      ((Cert.StripsE.rfaces0 M').2.2.2.1)
      ((Cert.StripsE.rfaces0 M').2.2.2.2.2.2.2.1)
      ((Cert.StripsE.rfaces0 M').2.2.2.2.2.2.2.2.2.2.2)
      ((Cert.StripsE.rfaces0 M').2.2.2.2.2.2.2.2.1)
      ((Cert.StripsE.rfaces0 M').2.2.2.2.2.1)).1

/-- The reference's bottom strip of face 4 is the pure bottom strip of the argument. -/
theorem rbottom4 (M' : Valuation Cert.ReferenceIdeal.τ Cert.ReferenceIdeal.sig (Elt Ideal)) :
    (StableHlo.after (Cert.ReferenceIdeal.Hand.ops (F := Ideal)) M' (Proc.devRef .tc Cert.ReferenceIdeal.main_v164) : Cert.ReferenceIdeal.S8x32x2x128.Idx → Elt Ideal .f32)
      = pbottom4 (M' (Proc.devRef .tc Cert.ReferenceIdeal.main_arg0)) :=
  (Cert.ReferenceIdeal.Hand.upto3 M' Cert.ReferenceIdeal.main_v164 (by decide) (by decide) (by decide) (by decide) (by decide) (by decide) (by decide)).trans
    (Cert.StripsE.rfaceW4 (StableHlo.after Cert.ReferenceIdeal.Hand.ops0 M') (M' (Proc.devRef .tc Cert.ReferenceIdeal.main_arg0))
      ((Cert.StripsE.rfaces0 M').1)
      ((Cert.StripsE.rfaces0 M').2.2.2.1)
      ((Cert.StripsE.rfaces0 M').2.2.2.2.2.2.2.1)
      ((Cert.StripsE.rfaces0 M').2.2.2.2.2.2.2.2.2.2.2)
      ((Cert.StripsE.rfaces0 M').2.2.2.2.2.2.2.2.1)
      ((Cert.StripsE.rfaces0 M').2.2.2.2.2.1)).2.1

/-- The reference's left strip of face 4 is the pure left strip of the argument. -/
theorem rleft4 (M' : Valuation Cert.ReferenceIdeal.τ Cert.ReferenceIdeal.sig (Elt Ideal)) :
    (StableHlo.after (Cert.ReferenceIdeal.Hand.ops (F := Ideal)) M' (Proc.devRef .tc Cert.ReferenceIdeal.main_v168) : Cert.ReferenceIdeal.S8x32x132x2.Idx → Elt Ideal .f32)
      = pleft4 (M' (Proc.devRef .tc Cert.ReferenceIdeal.main_arg0)) :=
  (Cert.ReferenceIdeal.Hand.upto3 M' Cert.ReferenceIdeal.main_v168 (by decide) (by decide) (by decide) (by decide) (by decide) (by decide) (by decide)).trans
    (Cert.StripsE.rfaceW4 (StableHlo.after Cert.ReferenceIdeal.Hand.ops0 M') (M' (Proc.devRef .tc Cert.ReferenceIdeal.main_arg0))
      ((Cert.StripsE.rfaces0 M').1)
      ((Cert.StripsE.rfaces0 M').2.2.2.1)
      ((Cert.StripsE.rfaces0 M').2.2.2.2.2.2.2.1)
      ((Cert.StripsE.rfaces0 M').2.2.2.2.2.2.2.2.2.2.2)
      ((Cert.StripsE.rfaces0 M').2.2.2.2.2.2.2.2.1)
      ((Cert.StripsE.rfaces0 M').2.2.2.2.2.1)).2.2.1

/-- The reference's right strip of face 4 is the pure right strip of the argument. -/
theorem rright4 (M' : Valuation Cert.ReferenceIdeal.τ Cert.ReferenceIdeal.sig (Elt Ideal)) :
    (StableHlo.after (Cert.ReferenceIdeal.Hand.ops (F := Ideal)) M' (Proc.devRef .tc Cert.ReferenceIdeal.main_v171) : Cert.ReferenceIdeal.S8x32x132x2.Idx → Elt Ideal .f32)
      = pright4 (M' (Proc.devRef .tc Cert.ReferenceIdeal.main_arg0)) :=
  (Cert.ReferenceIdeal.Hand.upto3 M' Cert.ReferenceIdeal.main_v171 (by decide) (by decide) (by decide) (by decide) (by decide) (by decide) (by decide)).trans
    (Cert.StripsE.rfaceW4 (StableHlo.after Cert.ReferenceIdeal.Hand.ops0 M') (M' (Proc.devRef .tc Cert.ReferenceIdeal.main_arg0))
      ((Cert.StripsE.rfaces0 M').1)
      ((Cert.StripsE.rfaces0 M').2.2.2.1)
      ((Cert.StripsE.rfaces0 M').2.2.2.2.2.2.2.1)
      ((Cert.StripsE.rfaces0 M').2.2.2.2.2.2.2.2.2.2.2)
      ((Cert.StripsE.rfaces0 M').2.2.2.2.2.2.2.2.1)
      ((Cert.StripsE.rfaces0 M').2.2.2.2.2.1)).2.2.2

/-- The reference's top strip of face 5 is the pure top strip of the argument. -/
theorem rtop5 (M' : Valuation Cert.ReferenceIdeal.τ Cert.ReferenceIdeal.sig (Elt Ideal)) :
    (StableHlo.after (Cert.ReferenceIdeal.Hand.ops (F := Ideal)) M' (Proc.devRef .tc Cert.ReferenceIdeal.main_v251) : Cert.ReferenceIdeal.S8x32x2x128.Idx → Elt Ideal .f32)
      = ptop5 (M' (Proc.devRef .tc Cert.ReferenceIdeal.main_arg0)) :=
  (Cert.ReferenceIdeal.Hand.upto5 M' Cert.ReferenceIdeal.main_v251 (by decide) (by decide) (by decide) (by decide) (by decide)).trans
    (Cert.StripsE.rfaceW5 (StableHlo.after Cert.ReferenceIdeal.Hand.ops2 (StableHlo.after Cert.ReferenceIdeal.Hand.ops1 (StableHlo.after Cert.ReferenceIdeal.Hand.ops0 M'))) (M' (Proc.devRef .tc Cert.ReferenceIdeal.main_arg0))
      ((Cert.ReferenceIdeal.Hand.ops2_keeps _ Cert.ReferenceIdeal.main_v4 (by decide)).trans ((Cert.ReferenceIdeal.Hand.ops1_keeps _ Cert.ReferenceIdeal.main_v4 (by decide)).trans ((Cert.StripsE.rfaces0 M').2.1)))
      ((Cert.ReferenceIdeal.Hand.ops2_keeps _ Cert.ReferenceIdeal.main_v2 (by decide)).trans ((Cert.ReferenceIdeal.Hand.ops1_keeps _ Cert.ReferenceIdeal.main_v2 (by decide)).trans ((Cert.StripsE.rfaces0 M').1)))
      ((Cert.ReferenceIdeal.Hand.ops2_keeps _ Cert.ReferenceIdeal.main_v10 (by decide)).trans ((Cert.ReferenceIdeal.Hand.ops1_keeps _ Cert.ReferenceIdeal.main_v10 (by decide)).trans ((Cert.StripsE.rfaces0 M').2.2.2.2.1)))
      ((Cert.ReferenceIdeal.Hand.ops2_keeps _ Cert.ReferenceIdeal.main_v18 (by decide)).trans ((Cert.ReferenceIdeal.Hand.ops1_keeps _ Cert.ReferenceIdeal.main_v18 (by decide)).trans ((Cert.StripsE.rfaces0 M').2.2.2.2.2.2.2.2.1)))
      ((Cert.ReferenceIdeal.Hand.ops2_keeps _ Cert.ReferenceIdeal.main_v20 (by decide)).trans ((Cert.ReferenceIdeal.Hand.ops1_keeps _ Cert.ReferenceIdeal.main_v20 (by decide)).trans ((Cert.StripsE.rfaces0 M').2.2.2.2.2.2.2.2.2.1)))
      ((Cert.ReferenceIdeal.Hand.ops2_keeps _ Cert.ReferenceIdeal.main_v14 (by decide)).trans ((Cert.ReferenceIdeal.Hand.ops1_keeps _ Cert.ReferenceIdeal.main_v14 (by decide)).trans ((Cert.StripsE.rfaces0 M').2.2.2.2.2.2.1)))).1

/-- The reference's bottom strip of face 5 is the pure bottom strip of the argument. -/
theorem rbottom5 (M' : Valuation Cert.ReferenceIdeal.τ Cert.ReferenceIdeal.sig (Elt Ideal)) :
    (StableHlo.after (Cert.ReferenceIdeal.Hand.ops (F := Ideal)) M' (Proc.devRef .tc Cert.ReferenceIdeal.main_v252) : Cert.ReferenceIdeal.S8x32x2x128.Idx → Elt Ideal .f32)
      = pbottom5 (M' (Proc.devRef .tc Cert.ReferenceIdeal.main_arg0)) :=
  (Cert.ReferenceIdeal.Hand.upto5 M' Cert.ReferenceIdeal.main_v252 (by decide) (by decide) (by decide) (by decide) (by decide)).trans
    (Cert.StripsE.rfaceW5 (StableHlo.after Cert.ReferenceIdeal.Hand.ops2 (StableHlo.after Cert.ReferenceIdeal.Hand.ops1 (StableHlo.after Cert.ReferenceIdeal.Hand.ops0 M'))) (M' (Proc.devRef .tc Cert.ReferenceIdeal.main_arg0))
      ((Cert.ReferenceIdeal.Hand.ops2_keeps _ Cert.ReferenceIdeal.main_v4 (by decide)).trans ((Cert.ReferenceIdeal.Hand.ops1_keeps _ Cert.ReferenceIdeal.main_v4 (by decide)).trans ((Cert.StripsE.rfaces0 M').2.1)))
      ((Cert.ReferenceIdeal.Hand.ops2_keeps _ Cert.ReferenceIdeal.main_v2 (by decide)).trans ((Cert.ReferenceIdeal.Hand.ops1_keeps _ Cert.ReferenceIdeal.main_v2 (by decide)).trans ((Cert.StripsE.rfaces0 M').1)))
      ((Cert.ReferenceIdeal.Hand.ops2_keeps _ Cert.ReferenceIdeal.main_v10 (by decide)).trans ((Cert.ReferenceIdeal.Hand.ops1_keeps _ Cert.ReferenceIdeal.main_v10 (by decide)).trans ((Cert.StripsE.rfaces0 M').2.2.2.2.1)))
      ((Cert.ReferenceIdeal.Hand.ops2_keeps _ Cert.ReferenceIdeal.main_v18 (by decide)).trans ((Cert.ReferenceIdeal.Hand.ops1_keeps _ Cert.ReferenceIdeal.main_v18 (by decide)).trans ((Cert.StripsE.rfaces0 M').2.2.2.2.2.2.2.2.1)))
      ((Cert.ReferenceIdeal.Hand.ops2_keeps _ Cert.ReferenceIdeal.main_v20 (by decide)).trans ((Cert.ReferenceIdeal.Hand.ops1_keeps _ Cert.ReferenceIdeal.main_v20 (by decide)).trans ((Cert.StripsE.rfaces0 M').2.2.2.2.2.2.2.2.2.1)))
      ((Cert.ReferenceIdeal.Hand.ops2_keeps _ Cert.ReferenceIdeal.main_v14 (by decide)).trans ((Cert.ReferenceIdeal.Hand.ops1_keeps _ Cert.ReferenceIdeal.main_v14 (by decide)).trans ((Cert.StripsE.rfaces0 M').2.2.2.2.2.2.1)))).2.1

/-- The reference's left strip of face 5 is the pure left strip of the argument. -/
theorem rleft5 (M' : Valuation Cert.ReferenceIdeal.τ Cert.ReferenceIdeal.sig (Elt Ideal)) :
    (StableHlo.after (Cert.ReferenceIdeal.Hand.ops (F := Ideal)) M' (Proc.devRef .tc Cert.ReferenceIdeal.main_v256) : Cert.ReferenceIdeal.S8x32x132x2.Idx → Elt Ideal .f32)
      = pleft5 (M' (Proc.devRef .tc Cert.ReferenceIdeal.main_arg0)) :=
  (Cert.ReferenceIdeal.Hand.upto5 M' Cert.ReferenceIdeal.main_v256 (by decide) (by decide) (by decide) (by decide) (by decide)).trans
    (Cert.StripsE.rfaceW5 (StableHlo.after Cert.ReferenceIdeal.Hand.ops2 (StableHlo.after Cert.ReferenceIdeal.Hand.ops1 (StableHlo.after Cert.ReferenceIdeal.Hand.ops0 M'))) (M' (Proc.devRef .tc Cert.ReferenceIdeal.main_arg0))
      ((Cert.ReferenceIdeal.Hand.ops2_keeps _ Cert.ReferenceIdeal.main_v4 (by decide)).trans ((Cert.ReferenceIdeal.Hand.ops1_keeps _ Cert.ReferenceIdeal.main_v4 (by decide)).trans ((Cert.StripsE.rfaces0 M').2.1)))
      ((Cert.ReferenceIdeal.Hand.ops2_keeps _ Cert.ReferenceIdeal.main_v2 (by decide)).trans ((Cert.ReferenceIdeal.Hand.ops1_keeps _ Cert.ReferenceIdeal.main_v2 (by decide)).trans ((Cert.StripsE.rfaces0 M').1)))
      ((Cert.ReferenceIdeal.Hand.ops2_keeps _ Cert.ReferenceIdeal.main_v10 (by decide)).trans ((Cert.ReferenceIdeal.Hand.ops1_keeps _ Cert.ReferenceIdeal.main_v10 (by decide)).trans ((Cert.StripsE.rfaces0 M').2.2.2.2.1)))
      ((Cert.ReferenceIdeal.Hand.ops2_keeps _ Cert.ReferenceIdeal.main_v18 (by decide)).trans ((Cert.ReferenceIdeal.Hand.ops1_keeps _ Cert.ReferenceIdeal.main_v18 (by decide)).trans ((Cert.StripsE.rfaces0 M').2.2.2.2.2.2.2.2.1)))
      ((Cert.ReferenceIdeal.Hand.ops2_keeps _ Cert.ReferenceIdeal.main_v20 (by decide)).trans ((Cert.ReferenceIdeal.Hand.ops1_keeps _ Cert.ReferenceIdeal.main_v20 (by decide)).trans ((Cert.StripsE.rfaces0 M').2.2.2.2.2.2.2.2.2.1)))
      ((Cert.ReferenceIdeal.Hand.ops2_keeps _ Cert.ReferenceIdeal.main_v14 (by decide)).trans ((Cert.ReferenceIdeal.Hand.ops1_keeps _ Cert.ReferenceIdeal.main_v14 (by decide)).trans ((Cert.StripsE.rfaces0 M').2.2.2.2.2.2.1)))).2.2.1

/-- The reference's right strip of face 5 is the pure right strip of the argument. -/
theorem rright5 (M' : Valuation Cert.ReferenceIdeal.τ Cert.ReferenceIdeal.sig (Elt Ideal)) :
    (StableHlo.after (Cert.ReferenceIdeal.Hand.ops (F := Ideal)) M' (Proc.devRef .tc Cert.ReferenceIdeal.main_v259) : Cert.ReferenceIdeal.S8x32x132x2.Idx → Elt Ideal .f32)
      = pright5 (M' (Proc.devRef .tc Cert.ReferenceIdeal.main_arg0)) :=
  (Cert.ReferenceIdeal.Hand.upto5 M' Cert.ReferenceIdeal.main_v259 (by decide) (by decide) (by decide) (by decide) (by decide)).trans
    (Cert.StripsE.rfaceW5 (StableHlo.after Cert.ReferenceIdeal.Hand.ops2 (StableHlo.after Cert.ReferenceIdeal.Hand.ops1 (StableHlo.after Cert.ReferenceIdeal.Hand.ops0 M'))) (M' (Proc.devRef .tc Cert.ReferenceIdeal.main_arg0))
      ((Cert.ReferenceIdeal.Hand.ops2_keeps _ Cert.ReferenceIdeal.main_v4 (by decide)).trans ((Cert.ReferenceIdeal.Hand.ops1_keeps _ Cert.ReferenceIdeal.main_v4 (by decide)).trans ((Cert.StripsE.rfaces0 M').2.1)))
      ((Cert.ReferenceIdeal.Hand.ops2_keeps _ Cert.ReferenceIdeal.main_v2 (by decide)).trans ((Cert.ReferenceIdeal.Hand.ops1_keeps _ Cert.ReferenceIdeal.main_v2 (by decide)).trans ((Cert.StripsE.rfaces0 M').1)))
      ((Cert.ReferenceIdeal.Hand.ops2_keeps _ Cert.ReferenceIdeal.main_v10 (by decide)).trans ((Cert.ReferenceIdeal.Hand.ops1_keeps _ Cert.ReferenceIdeal.main_v10 (by decide)).trans ((Cert.StripsE.rfaces0 M').2.2.2.2.1)))
      ((Cert.ReferenceIdeal.Hand.ops2_keeps _ Cert.ReferenceIdeal.main_v18 (by decide)).trans ((Cert.ReferenceIdeal.Hand.ops1_keeps _ Cert.ReferenceIdeal.main_v18 (by decide)).trans ((Cert.StripsE.rfaces0 M').2.2.2.2.2.2.2.2.1)))
      ((Cert.ReferenceIdeal.Hand.ops2_keeps _ Cert.ReferenceIdeal.main_v20 (by decide)).trans ((Cert.ReferenceIdeal.Hand.ops1_keeps _ Cert.ReferenceIdeal.main_v20 (by decide)).trans ((Cert.StripsE.rfaces0 M').2.2.2.2.2.2.2.2.2.1)))
      ((Cert.ReferenceIdeal.Hand.ops2_keeps _ Cert.ReferenceIdeal.main_v14 (by decide)).trans ((Cert.ReferenceIdeal.Hand.ops1_keeps _ Cert.ReferenceIdeal.main_v14 (by decide)).trans ((Cert.StripsE.rfaces0 M').2.2.2.2.2.2.1)))).2.2.2

/-- The reference's top strip of face 6 is the pure top strip of the argument. -/
theorem rtop6 (M' : Valuation Cert.ReferenceIdeal.τ Cert.ReferenceIdeal.sig (Elt Ideal)) :
    (StableHlo.after (Cert.ReferenceIdeal.Hand.ops (F := Ideal)) M' (Proc.devRef .tc Cert.ReferenceIdeal.main_v339) : Cert.ReferenceIdeal.S8x32x2x128.Idx → Elt Ideal .f32)
      = ptop6 (M' (Proc.devRef .tc Cert.ReferenceIdeal.main_arg0)) :=
  (Cert.ReferenceIdeal.Hand.upto7 M' Cert.ReferenceIdeal.main_v339 (by decide) (by decide) (by decide)).trans
    (Cert.StripsE.rfaceW6 (StableHlo.after Cert.ReferenceIdeal.Hand.ops4 (StableHlo.after Cert.ReferenceIdeal.Hand.ops3 (StableHlo.after Cert.ReferenceIdeal.Hand.ops2 (StableHlo.after Cert.ReferenceIdeal.Hand.ops1 (StableHlo.after Cert.ReferenceIdeal.Hand.ops0 M'))))) (M' (Proc.devRef .tc Cert.ReferenceIdeal.main_arg0))
      ((Cert.ReferenceIdeal.Hand.ops4_keeps _ Cert.ReferenceIdeal.main_v6 (by decide)).trans ((Cert.ReferenceIdeal.Hand.ops3_keeps _ Cert.ReferenceIdeal.main_v6 (by decide)).trans ((Cert.ReferenceIdeal.Hand.ops2_keeps _ Cert.ReferenceIdeal.main_v6 (by decide)).trans ((Cert.ReferenceIdeal.Hand.ops1_keeps _ Cert.ReferenceIdeal.main_v6 (by decide)).trans ((Cert.StripsE.rfaces0 M').2.2.1)))))
      ((Cert.ReferenceIdeal.Hand.ops4_keeps _ Cert.ReferenceIdeal.main_v4 (by decide)).trans ((Cert.ReferenceIdeal.Hand.ops3_keeps _ Cert.ReferenceIdeal.main_v4 (by decide)).trans ((Cert.ReferenceIdeal.Hand.ops2_keeps _ Cert.ReferenceIdeal.main_v4 (by decide)).trans ((Cert.ReferenceIdeal.Hand.ops1_keeps _ Cert.ReferenceIdeal.main_v4 (by decide)).trans ((Cert.StripsE.rfaces0 M').2.1)))))
      ((Cert.ReferenceIdeal.Hand.ops4_keeps _ Cert.ReferenceIdeal.main_v12 (by decide)).trans ((Cert.ReferenceIdeal.Hand.ops3_keeps _ Cert.ReferenceIdeal.main_v12 (by decide)).trans ((Cert.ReferenceIdeal.Hand.ops2_keeps _ Cert.ReferenceIdeal.main_v12 (by decide)).trans ((Cert.ReferenceIdeal.Hand.ops1_keeps _ Cert.ReferenceIdeal.main_v12 (by decide)).trans ((Cert.StripsE.rfaces0 M').2.2.2.2.2.1)))))
      ((Cert.ReferenceIdeal.Hand.ops4_keeps _ Cert.ReferenceIdeal.main_v20 (by decide)).trans ((Cert.ReferenceIdeal.Hand.ops3_keeps _ Cert.ReferenceIdeal.main_v20 (by decide)).trans ((Cert.ReferenceIdeal.Hand.ops2_keeps _ Cert.ReferenceIdeal.main_v20 (by decide)).trans ((Cert.ReferenceIdeal.Hand.ops1_keeps _ Cert.ReferenceIdeal.main_v20 (by decide)).trans ((Cert.StripsE.rfaces0 M').2.2.2.2.2.2.2.2.2.1)))))
      ((Cert.ReferenceIdeal.Hand.ops4_keeps _ Cert.ReferenceIdeal.main_v22 (by decide)).trans ((Cert.ReferenceIdeal.Hand.ops3_keeps _ Cert.ReferenceIdeal.main_v22 (by decide)).trans ((Cert.ReferenceIdeal.Hand.ops2_keeps _ Cert.ReferenceIdeal.main_v22 (by decide)).trans ((Cert.ReferenceIdeal.Hand.ops1_keeps _ Cert.ReferenceIdeal.main_v22 (by decide)).trans ((Cert.StripsE.rfaces0 M').2.2.2.2.2.2.2.2.2.2.1)))))
      ((Cert.ReferenceIdeal.Hand.ops4_keeps _ Cert.ReferenceIdeal.main_v16 (by decide)).trans ((Cert.ReferenceIdeal.Hand.ops3_keeps _ Cert.ReferenceIdeal.main_v16 (by decide)).trans ((Cert.ReferenceIdeal.Hand.ops2_keeps _ Cert.ReferenceIdeal.main_v16 (by decide)).trans ((Cert.ReferenceIdeal.Hand.ops1_keeps _ Cert.ReferenceIdeal.main_v16 (by decide)).trans ((Cert.StripsE.rfaces0 M').2.2.2.2.2.2.2.1)))))).1

/-- The reference's bottom strip of face 6 is the pure bottom strip of the argument. -/
theorem rbottom6 (M' : Valuation Cert.ReferenceIdeal.τ Cert.ReferenceIdeal.sig (Elt Ideal)) :
    (StableHlo.after (Cert.ReferenceIdeal.Hand.ops (F := Ideal)) M' (Proc.devRef .tc Cert.ReferenceIdeal.main_v340) : Cert.ReferenceIdeal.S8x32x2x128.Idx → Elt Ideal .f32)
      = pbottom6 (M' (Proc.devRef .tc Cert.ReferenceIdeal.main_arg0)) :=
  (Cert.ReferenceIdeal.Hand.upto7 M' Cert.ReferenceIdeal.main_v340 (by decide) (by decide) (by decide)).trans
    (Cert.StripsE.rfaceW6 (StableHlo.after Cert.ReferenceIdeal.Hand.ops4 (StableHlo.after Cert.ReferenceIdeal.Hand.ops3 (StableHlo.after Cert.ReferenceIdeal.Hand.ops2 (StableHlo.after Cert.ReferenceIdeal.Hand.ops1 (StableHlo.after Cert.ReferenceIdeal.Hand.ops0 M'))))) (M' (Proc.devRef .tc Cert.ReferenceIdeal.main_arg0))
      ((Cert.ReferenceIdeal.Hand.ops4_keeps _ Cert.ReferenceIdeal.main_v6 (by decide)).trans ((Cert.ReferenceIdeal.Hand.ops3_keeps _ Cert.ReferenceIdeal.main_v6 (by decide)).trans ((Cert.ReferenceIdeal.Hand.ops2_keeps _ Cert.ReferenceIdeal.main_v6 (by decide)).trans ((Cert.ReferenceIdeal.Hand.ops1_keeps _ Cert.ReferenceIdeal.main_v6 (by decide)).trans ((Cert.StripsE.rfaces0 M').2.2.1)))))
      ((Cert.ReferenceIdeal.Hand.ops4_keeps _ Cert.ReferenceIdeal.main_v4 (by decide)).trans ((Cert.ReferenceIdeal.Hand.ops3_keeps _ Cert.ReferenceIdeal.main_v4 (by decide)).trans ((Cert.ReferenceIdeal.Hand.ops2_keeps _ Cert.ReferenceIdeal.main_v4 (by decide)).trans ((Cert.ReferenceIdeal.Hand.ops1_keeps _ Cert.ReferenceIdeal.main_v4 (by decide)).trans ((Cert.StripsE.rfaces0 M').2.1)))))
      ((Cert.ReferenceIdeal.Hand.ops4_keeps _ Cert.ReferenceIdeal.main_v12 (by decide)).trans ((Cert.ReferenceIdeal.Hand.ops3_keeps _ Cert.ReferenceIdeal.main_v12 (by decide)).trans ((Cert.ReferenceIdeal.Hand.ops2_keeps _ Cert.ReferenceIdeal.main_v12 (by decide)).trans ((Cert.ReferenceIdeal.Hand.ops1_keeps _ Cert.ReferenceIdeal.main_v12 (by decide)).trans ((Cert.StripsE.rfaces0 M').2.2.2.2.2.1)))))
      ((Cert.ReferenceIdeal.Hand.ops4_keeps _ Cert.ReferenceIdeal.main_v20 (by decide)).trans ((Cert.ReferenceIdeal.Hand.ops3_keeps _ Cert.ReferenceIdeal.main_v20 (by decide)).trans ((Cert.ReferenceIdeal.Hand.ops2_keeps _ Cert.ReferenceIdeal.main_v20 (by decide)).trans ((Cert.ReferenceIdeal.Hand.ops1_keeps _ Cert.ReferenceIdeal.main_v20 (by decide)).trans ((Cert.StripsE.rfaces0 M').2.2.2.2.2.2.2.2.2.1)))))
      ((Cert.ReferenceIdeal.Hand.ops4_keeps _ Cert.ReferenceIdeal.main_v22 (by decide)).trans ((Cert.ReferenceIdeal.Hand.ops3_keeps _ Cert.ReferenceIdeal.main_v22 (by decide)).trans ((Cert.ReferenceIdeal.Hand.ops2_keeps _ Cert.ReferenceIdeal.main_v22 (by decide)).trans ((Cert.ReferenceIdeal.Hand.ops1_keeps _ Cert.ReferenceIdeal.main_v22 (by decide)).trans ((Cert.StripsE.rfaces0 M').2.2.2.2.2.2.2.2.2.2.1)))))
      ((Cert.ReferenceIdeal.Hand.ops4_keeps _ Cert.ReferenceIdeal.main_v16 (by decide)).trans ((Cert.ReferenceIdeal.Hand.ops3_keeps _ Cert.ReferenceIdeal.main_v16 (by decide)).trans ((Cert.ReferenceIdeal.Hand.ops2_keeps _ Cert.ReferenceIdeal.main_v16 (by decide)).trans ((Cert.ReferenceIdeal.Hand.ops1_keeps _ Cert.ReferenceIdeal.main_v16 (by decide)).trans ((Cert.StripsE.rfaces0 M').2.2.2.2.2.2.2.1)))))).2.1

/-- The reference's left strip of face 6 is the pure left strip of the argument. -/
theorem rleft6 (M' : Valuation Cert.ReferenceIdeal.τ Cert.ReferenceIdeal.sig (Elt Ideal)) :
    (StableHlo.after (Cert.ReferenceIdeal.Hand.ops (F := Ideal)) M' (Proc.devRef .tc Cert.ReferenceIdeal.main_v344) : Cert.ReferenceIdeal.S8x32x132x2.Idx → Elt Ideal .f32)
      = pleft6 (M' (Proc.devRef .tc Cert.ReferenceIdeal.main_arg0)) :=
  (Cert.ReferenceIdeal.Hand.upto7 M' Cert.ReferenceIdeal.main_v344 (by decide) (by decide) (by decide)).trans
    (Cert.StripsE.rfaceW6 (StableHlo.after Cert.ReferenceIdeal.Hand.ops4 (StableHlo.after Cert.ReferenceIdeal.Hand.ops3 (StableHlo.after Cert.ReferenceIdeal.Hand.ops2 (StableHlo.after Cert.ReferenceIdeal.Hand.ops1 (StableHlo.after Cert.ReferenceIdeal.Hand.ops0 M'))))) (M' (Proc.devRef .tc Cert.ReferenceIdeal.main_arg0))
      ((Cert.ReferenceIdeal.Hand.ops4_keeps _ Cert.ReferenceIdeal.main_v6 (by decide)).trans ((Cert.ReferenceIdeal.Hand.ops3_keeps _ Cert.ReferenceIdeal.main_v6 (by decide)).trans ((Cert.ReferenceIdeal.Hand.ops2_keeps _ Cert.ReferenceIdeal.main_v6 (by decide)).trans ((Cert.ReferenceIdeal.Hand.ops1_keeps _ Cert.ReferenceIdeal.main_v6 (by decide)).trans ((Cert.StripsE.rfaces0 M').2.2.1)))))
      ((Cert.ReferenceIdeal.Hand.ops4_keeps _ Cert.ReferenceIdeal.main_v4 (by decide)).trans ((Cert.ReferenceIdeal.Hand.ops3_keeps _ Cert.ReferenceIdeal.main_v4 (by decide)).trans ((Cert.ReferenceIdeal.Hand.ops2_keeps _ Cert.ReferenceIdeal.main_v4 (by decide)).trans ((Cert.ReferenceIdeal.Hand.ops1_keeps _ Cert.ReferenceIdeal.main_v4 (by decide)).trans ((Cert.StripsE.rfaces0 M').2.1)))))
      ((Cert.ReferenceIdeal.Hand.ops4_keeps _ Cert.ReferenceIdeal.main_v12 (by decide)).trans ((Cert.ReferenceIdeal.Hand.ops3_keeps _ Cert.ReferenceIdeal.main_v12 (by decide)).trans ((Cert.ReferenceIdeal.Hand.ops2_keeps _ Cert.ReferenceIdeal.main_v12 (by decide)).trans ((Cert.ReferenceIdeal.Hand.ops1_keeps _ Cert.ReferenceIdeal.main_v12 (by decide)).trans ((Cert.StripsE.rfaces0 M').2.2.2.2.2.1)))))
      ((Cert.ReferenceIdeal.Hand.ops4_keeps _ Cert.ReferenceIdeal.main_v20 (by decide)).trans ((Cert.ReferenceIdeal.Hand.ops3_keeps _ Cert.ReferenceIdeal.main_v20 (by decide)).trans ((Cert.ReferenceIdeal.Hand.ops2_keeps _ Cert.ReferenceIdeal.main_v20 (by decide)).trans ((Cert.ReferenceIdeal.Hand.ops1_keeps _ Cert.ReferenceIdeal.main_v20 (by decide)).trans ((Cert.StripsE.rfaces0 M').2.2.2.2.2.2.2.2.2.1)))))
      ((Cert.ReferenceIdeal.Hand.ops4_keeps _ Cert.ReferenceIdeal.main_v22 (by decide)).trans ((Cert.ReferenceIdeal.Hand.ops3_keeps _ Cert.ReferenceIdeal.main_v22 (by decide)).trans ((Cert.ReferenceIdeal.Hand.ops2_keeps _ Cert.ReferenceIdeal.main_v22 (by decide)).trans ((Cert.ReferenceIdeal.Hand.ops1_keeps _ Cert.ReferenceIdeal.main_v22 (by decide)).trans ((Cert.StripsE.rfaces0 M').2.2.2.2.2.2.2.2.2.2.1)))))
      ((Cert.ReferenceIdeal.Hand.ops4_keeps _ Cert.ReferenceIdeal.main_v16 (by decide)).trans ((Cert.ReferenceIdeal.Hand.ops3_keeps _ Cert.ReferenceIdeal.main_v16 (by decide)).trans ((Cert.ReferenceIdeal.Hand.ops2_keeps _ Cert.ReferenceIdeal.main_v16 (by decide)).trans ((Cert.ReferenceIdeal.Hand.ops1_keeps _ Cert.ReferenceIdeal.main_v16 (by decide)).trans ((Cert.StripsE.rfaces0 M').2.2.2.2.2.2.2.1)))))).2.2.1

/-- The reference's right strip of face 6 is the pure right strip of the argument. -/
theorem rright6 (M' : Valuation Cert.ReferenceIdeal.τ Cert.ReferenceIdeal.sig (Elt Ideal)) :
    (StableHlo.after (Cert.ReferenceIdeal.Hand.ops (F := Ideal)) M' (Proc.devRef .tc Cert.ReferenceIdeal.main_v347) : Cert.ReferenceIdeal.S8x32x132x2.Idx → Elt Ideal .f32)
      = pright6 (M' (Proc.devRef .tc Cert.ReferenceIdeal.main_arg0)) :=
  (Cert.ReferenceIdeal.Hand.upto7 M' Cert.ReferenceIdeal.main_v347 (by decide) (by decide) (by decide)).trans
    (Cert.StripsE.rfaceW6 (StableHlo.after Cert.ReferenceIdeal.Hand.ops4 (StableHlo.after Cert.ReferenceIdeal.Hand.ops3 (StableHlo.after Cert.ReferenceIdeal.Hand.ops2 (StableHlo.after Cert.ReferenceIdeal.Hand.ops1 (StableHlo.after Cert.ReferenceIdeal.Hand.ops0 M'))))) (M' (Proc.devRef .tc Cert.ReferenceIdeal.main_arg0))
      ((Cert.ReferenceIdeal.Hand.ops4_keeps _ Cert.ReferenceIdeal.main_v6 (by decide)).trans ((Cert.ReferenceIdeal.Hand.ops3_keeps _ Cert.ReferenceIdeal.main_v6 (by decide)).trans ((Cert.ReferenceIdeal.Hand.ops2_keeps _ Cert.ReferenceIdeal.main_v6 (by decide)).trans ((Cert.ReferenceIdeal.Hand.ops1_keeps _ Cert.ReferenceIdeal.main_v6 (by decide)).trans ((Cert.StripsE.rfaces0 M').2.2.1)))))
      ((Cert.ReferenceIdeal.Hand.ops4_keeps _ Cert.ReferenceIdeal.main_v4 (by decide)).trans ((Cert.ReferenceIdeal.Hand.ops3_keeps _ Cert.ReferenceIdeal.main_v4 (by decide)).trans ((Cert.ReferenceIdeal.Hand.ops2_keeps _ Cert.ReferenceIdeal.main_v4 (by decide)).trans ((Cert.ReferenceIdeal.Hand.ops1_keeps _ Cert.ReferenceIdeal.main_v4 (by decide)).trans ((Cert.StripsE.rfaces0 M').2.1)))))
      ((Cert.ReferenceIdeal.Hand.ops4_keeps _ Cert.ReferenceIdeal.main_v12 (by decide)).trans ((Cert.ReferenceIdeal.Hand.ops3_keeps _ Cert.ReferenceIdeal.main_v12 (by decide)).trans ((Cert.ReferenceIdeal.Hand.ops2_keeps _ Cert.ReferenceIdeal.main_v12 (by decide)).trans ((Cert.ReferenceIdeal.Hand.ops1_keeps _ Cert.ReferenceIdeal.main_v12 (by decide)).trans ((Cert.StripsE.rfaces0 M').2.2.2.2.2.1)))))
      ((Cert.ReferenceIdeal.Hand.ops4_keeps _ Cert.ReferenceIdeal.main_v20 (by decide)).trans ((Cert.ReferenceIdeal.Hand.ops3_keeps _ Cert.ReferenceIdeal.main_v20 (by decide)).trans ((Cert.ReferenceIdeal.Hand.ops2_keeps _ Cert.ReferenceIdeal.main_v20 (by decide)).trans ((Cert.ReferenceIdeal.Hand.ops1_keeps _ Cert.ReferenceIdeal.main_v20 (by decide)).trans ((Cert.StripsE.rfaces0 M').2.2.2.2.2.2.2.2.2.1)))))
      ((Cert.ReferenceIdeal.Hand.ops4_keeps _ Cert.ReferenceIdeal.main_v22 (by decide)).trans ((Cert.ReferenceIdeal.Hand.ops3_keeps _ Cert.ReferenceIdeal.main_v22 (by decide)).trans ((Cert.ReferenceIdeal.Hand.ops2_keeps _ Cert.ReferenceIdeal.main_v22 (by decide)).trans ((Cert.ReferenceIdeal.Hand.ops1_keeps _ Cert.ReferenceIdeal.main_v22 (by decide)).trans ((Cert.StripsE.rfaces0 M').2.2.2.2.2.2.2.2.2.2.1)))))
      ((Cert.ReferenceIdeal.Hand.ops4_keeps _ Cert.ReferenceIdeal.main_v16 (by decide)).trans ((Cert.ReferenceIdeal.Hand.ops3_keeps _ Cert.ReferenceIdeal.main_v16 (by decide)).trans ((Cert.ReferenceIdeal.Hand.ops2_keeps _ Cert.ReferenceIdeal.main_v16 (by decide)).trans ((Cert.ReferenceIdeal.Hand.ops1_keeps _ Cert.ReferenceIdeal.main_v16 (by decide)).trans ((Cert.StripsE.rfaces0 M').2.2.2.2.2.2.2.1)))))).2.2.2

/-- The reference's top strip of face 7 is the pure top strip of the argument. -/
theorem rtop7 (M' : Valuation Cert.ReferenceIdeal.τ Cert.ReferenceIdeal.sig (Elt Ideal)) :
    (StableHlo.after (Cert.ReferenceIdeal.Hand.ops (F := Ideal)) M' (Proc.devRef .tc Cert.ReferenceIdeal.main_v427) : Cert.ReferenceIdeal.S8x32x2x128.Idx → Elt Ideal .f32)
      = ptop7 (M' (Proc.devRef .tc Cert.ReferenceIdeal.main_arg0)) :=
  (Cert.ReferenceIdeal.Hand.upto8 M' Cert.ReferenceIdeal.main_v427 (by decide) (by decide)).trans
    (Cert.StripsE.rfaceW7 (StableHlo.after Cert.ReferenceIdeal.Hand.ops6 (StableHlo.after Cert.ReferenceIdeal.Hand.ops5 (StableHlo.after Cert.ReferenceIdeal.Hand.ops4 (StableHlo.after Cert.ReferenceIdeal.Hand.ops3 (StableHlo.after Cert.ReferenceIdeal.Hand.ops2 (StableHlo.after Cert.ReferenceIdeal.Hand.ops1 (StableHlo.after Cert.ReferenceIdeal.Hand.ops0 M'))))))) (M' (Proc.devRef .tc Cert.ReferenceIdeal.main_arg0))
      ((Cert.ReferenceIdeal.Hand.ops6_keeps _ Cert.ReferenceIdeal.main_v8 (by decide)).trans ((Cert.ReferenceIdeal.Hand.ops5_keeps _ Cert.ReferenceIdeal.main_v8 (by decide)).trans ((Cert.ReferenceIdeal.Hand.ops4_keeps _ Cert.ReferenceIdeal.main_v8 (by decide)).trans ((Cert.ReferenceIdeal.Hand.ops3_keeps _ Cert.ReferenceIdeal.main_v8 (by decide)).trans ((Cert.ReferenceIdeal.Hand.ops2_keeps _ Cert.ReferenceIdeal.main_v8 (by decide)).trans ((Cert.ReferenceIdeal.Hand.ops1_keeps _ Cert.ReferenceIdeal.main_v8 (by decide)).trans ((Cert.StripsE.rfaces0 M').2.2.2.1)))))))
      ((Cert.ReferenceIdeal.Hand.ops6_keeps _ Cert.ReferenceIdeal.main_v6 (by decide)).trans ((Cert.ReferenceIdeal.Hand.ops5_keeps _ Cert.ReferenceIdeal.main_v6 (by decide)).trans ((Cert.ReferenceIdeal.Hand.ops4_keeps _ Cert.ReferenceIdeal.main_v6 (by decide)).trans ((Cert.ReferenceIdeal.Hand.ops3_keeps _ Cert.ReferenceIdeal.main_v6 (by decide)).trans ((Cert.ReferenceIdeal.Hand.ops2_keeps _ Cert.ReferenceIdeal.main_v6 (by decide)).trans ((Cert.ReferenceIdeal.Hand.ops1_keeps _ Cert.ReferenceIdeal.main_v6 (by decide)).trans ((Cert.StripsE.rfaces0 M').2.2.1)))))))
      ((Cert.ReferenceIdeal.Hand.ops6_keeps _ Cert.ReferenceIdeal.main_v14 (by decide)).trans ((Cert.ReferenceIdeal.Hand.ops5_keeps _ Cert.ReferenceIdeal.main_v14 (by decide)).trans ((Cert.ReferenceIdeal.Hand.ops4_keeps _ Cert.ReferenceIdeal.main_v14 (by decide)).trans ((Cert.ReferenceIdeal.Hand.ops3_keeps _ Cert.ReferenceIdeal.main_v14 (by decide)).trans ((Cert.ReferenceIdeal.Hand.ops2_keeps _ Cert.ReferenceIdeal.main_v14 (by decide)).trans ((Cert.ReferenceIdeal.Hand.ops1_keeps _ Cert.ReferenceIdeal.main_v14 (by decide)).trans ((Cert.StripsE.rfaces0 M').2.2.2.2.2.2.1)))))))
      ((Cert.ReferenceIdeal.Hand.ops6_keeps _ Cert.ReferenceIdeal.main_v22 (by decide)).trans ((Cert.ReferenceIdeal.Hand.ops5_keeps _ Cert.ReferenceIdeal.main_v22 (by decide)).trans ((Cert.ReferenceIdeal.Hand.ops4_keeps _ Cert.ReferenceIdeal.main_v22 (by decide)).trans ((Cert.ReferenceIdeal.Hand.ops3_keeps _ Cert.ReferenceIdeal.main_v22 (by decide)).trans ((Cert.ReferenceIdeal.Hand.ops2_keeps _ Cert.ReferenceIdeal.main_v22 (by decide)).trans ((Cert.ReferenceIdeal.Hand.ops1_keeps _ Cert.ReferenceIdeal.main_v22 (by decide)).trans ((Cert.StripsE.rfaces0 M').2.2.2.2.2.2.2.2.2.2.1)))))))
      ((Cert.ReferenceIdeal.Hand.ops6_keeps _ Cert.ReferenceIdeal.main_v24 (by decide)).trans ((Cert.ReferenceIdeal.Hand.ops5_keeps _ Cert.ReferenceIdeal.main_v24 (by decide)).trans ((Cert.ReferenceIdeal.Hand.ops4_keeps _ Cert.ReferenceIdeal.main_v24 (by decide)).trans ((Cert.ReferenceIdeal.Hand.ops3_keeps _ Cert.ReferenceIdeal.main_v24 (by decide)).trans ((Cert.ReferenceIdeal.Hand.ops2_keeps _ Cert.ReferenceIdeal.main_v24 (by decide)).trans ((Cert.ReferenceIdeal.Hand.ops1_keeps _ Cert.ReferenceIdeal.main_v24 (by decide)).trans ((Cert.StripsE.rfaces0 M').2.2.2.2.2.2.2.2.2.2.2)))))))
      ((Cert.ReferenceIdeal.Hand.ops6_keeps _ Cert.ReferenceIdeal.main_v10 (by decide)).trans ((Cert.ReferenceIdeal.Hand.ops5_keeps _ Cert.ReferenceIdeal.main_v10 (by decide)).trans ((Cert.ReferenceIdeal.Hand.ops4_keeps _ Cert.ReferenceIdeal.main_v10 (by decide)).trans ((Cert.ReferenceIdeal.Hand.ops3_keeps _ Cert.ReferenceIdeal.main_v10 (by decide)).trans ((Cert.ReferenceIdeal.Hand.ops2_keeps _ Cert.ReferenceIdeal.main_v10 (by decide)).trans ((Cert.ReferenceIdeal.Hand.ops1_keeps _ Cert.ReferenceIdeal.main_v10 (by decide)).trans ((Cert.StripsE.rfaces0 M').2.2.2.2.1)))))))).1

/-- The reference's bottom strip of face 7 is the pure bottom strip of the argument. -/
theorem rbottom7 (M' : Valuation Cert.ReferenceIdeal.τ Cert.ReferenceIdeal.sig (Elt Ideal)) :
    (StableHlo.after (Cert.ReferenceIdeal.Hand.ops (F := Ideal)) M' (Proc.devRef .tc Cert.ReferenceIdeal.main_v428) : Cert.ReferenceIdeal.S8x32x2x128.Idx → Elt Ideal .f32)
      = pbottom7 (M' (Proc.devRef .tc Cert.ReferenceIdeal.main_arg0)) :=
  (Cert.ReferenceIdeal.Hand.upto8 M' Cert.ReferenceIdeal.main_v428 (by decide) (by decide)).trans
    (Cert.StripsE.rfaceW7 (StableHlo.after Cert.ReferenceIdeal.Hand.ops6 (StableHlo.after Cert.ReferenceIdeal.Hand.ops5 (StableHlo.after Cert.ReferenceIdeal.Hand.ops4 (StableHlo.after Cert.ReferenceIdeal.Hand.ops3 (StableHlo.after Cert.ReferenceIdeal.Hand.ops2 (StableHlo.after Cert.ReferenceIdeal.Hand.ops1 (StableHlo.after Cert.ReferenceIdeal.Hand.ops0 M'))))))) (M' (Proc.devRef .tc Cert.ReferenceIdeal.main_arg0))
      ((Cert.ReferenceIdeal.Hand.ops6_keeps _ Cert.ReferenceIdeal.main_v8 (by decide)).trans ((Cert.ReferenceIdeal.Hand.ops5_keeps _ Cert.ReferenceIdeal.main_v8 (by decide)).trans ((Cert.ReferenceIdeal.Hand.ops4_keeps _ Cert.ReferenceIdeal.main_v8 (by decide)).trans ((Cert.ReferenceIdeal.Hand.ops3_keeps _ Cert.ReferenceIdeal.main_v8 (by decide)).trans ((Cert.ReferenceIdeal.Hand.ops2_keeps _ Cert.ReferenceIdeal.main_v8 (by decide)).trans ((Cert.ReferenceIdeal.Hand.ops1_keeps _ Cert.ReferenceIdeal.main_v8 (by decide)).trans ((Cert.StripsE.rfaces0 M').2.2.2.1)))))))
      ((Cert.ReferenceIdeal.Hand.ops6_keeps _ Cert.ReferenceIdeal.main_v6 (by decide)).trans ((Cert.ReferenceIdeal.Hand.ops5_keeps _ Cert.ReferenceIdeal.main_v6 (by decide)).trans ((Cert.ReferenceIdeal.Hand.ops4_keeps _ Cert.ReferenceIdeal.main_v6 (by decide)).trans ((Cert.ReferenceIdeal.Hand.ops3_keeps _ Cert.ReferenceIdeal.main_v6 (by decide)).trans ((Cert.ReferenceIdeal.Hand.ops2_keeps _ Cert.ReferenceIdeal.main_v6 (by decide)).trans ((Cert.ReferenceIdeal.Hand.ops1_keeps _ Cert.ReferenceIdeal.main_v6 (by decide)).trans ((Cert.StripsE.rfaces0 M').2.2.1)))))))
      ((Cert.ReferenceIdeal.Hand.ops6_keeps _ Cert.ReferenceIdeal.main_v14 (by decide)).trans ((Cert.ReferenceIdeal.Hand.ops5_keeps _ Cert.ReferenceIdeal.main_v14 (by decide)).trans ((Cert.ReferenceIdeal.Hand.ops4_keeps _ Cert.ReferenceIdeal.main_v14 (by decide)).trans ((Cert.ReferenceIdeal.Hand.ops3_keeps _ Cert.ReferenceIdeal.main_v14 (by decide)).trans ((Cert.ReferenceIdeal.Hand.ops2_keeps _ Cert.ReferenceIdeal.main_v14 (by decide)).trans ((Cert.ReferenceIdeal.Hand.ops1_keeps _ Cert.ReferenceIdeal.main_v14 (by decide)).trans ((Cert.StripsE.rfaces0 M').2.2.2.2.2.2.1)))))))
      ((Cert.ReferenceIdeal.Hand.ops6_keeps _ Cert.ReferenceIdeal.main_v22 (by decide)).trans ((Cert.ReferenceIdeal.Hand.ops5_keeps _ Cert.ReferenceIdeal.main_v22 (by decide)).trans ((Cert.ReferenceIdeal.Hand.ops4_keeps _ Cert.ReferenceIdeal.main_v22 (by decide)).trans ((Cert.ReferenceIdeal.Hand.ops3_keeps _ Cert.ReferenceIdeal.main_v22 (by decide)).trans ((Cert.ReferenceIdeal.Hand.ops2_keeps _ Cert.ReferenceIdeal.main_v22 (by decide)).trans ((Cert.ReferenceIdeal.Hand.ops1_keeps _ Cert.ReferenceIdeal.main_v22 (by decide)).trans ((Cert.StripsE.rfaces0 M').2.2.2.2.2.2.2.2.2.2.1)))))))
      ((Cert.ReferenceIdeal.Hand.ops6_keeps _ Cert.ReferenceIdeal.main_v24 (by decide)).trans ((Cert.ReferenceIdeal.Hand.ops5_keeps _ Cert.ReferenceIdeal.main_v24 (by decide)).trans ((Cert.ReferenceIdeal.Hand.ops4_keeps _ Cert.ReferenceIdeal.main_v24 (by decide)).trans ((Cert.ReferenceIdeal.Hand.ops3_keeps _ Cert.ReferenceIdeal.main_v24 (by decide)).trans ((Cert.ReferenceIdeal.Hand.ops2_keeps _ Cert.ReferenceIdeal.main_v24 (by decide)).trans ((Cert.ReferenceIdeal.Hand.ops1_keeps _ Cert.ReferenceIdeal.main_v24 (by decide)).trans ((Cert.StripsE.rfaces0 M').2.2.2.2.2.2.2.2.2.2.2)))))))
      ((Cert.ReferenceIdeal.Hand.ops6_keeps _ Cert.ReferenceIdeal.main_v10 (by decide)).trans ((Cert.ReferenceIdeal.Hand.ops5_keeps _ Cert.ReferenceIdeal.main_v10 (by decide)).trans ((Cert.ReferenceIdeal.Hand.ops4_keeps _ Cert.ReferenceIdeal.main_v10 (by decide)).trans ((Cert.ReferenceIdeal.Hand.ops3_keeps _ Cert.ReferenceIdeal.main_v10 (by decide)).trans ((Cert.ReferenceIdeal.Hand.ops2_keeps _ Cert.ReferenceIdeal.main_v10 (by decide)).trans ((Cert.ReferenceIdeal.Hand.ops1_keeps _ Cert.ReferenceIdeal.main_v10 (by decide)).trans ((Cert.StripsE.rfaces0 M').2.2.2.2.1)))))))).2.1

/-- The reference's left strip of face 7 is the pure left strip of the argument. -/
theorem rleft7 (M' : Valuation Cert.ReferenceIdeal.τ Cert.ReferenceIdeal.sig (Elt Ideal)) :
    (StableHlo.after (Cert.ReferenceIdeal.Hand.ops (F := Ideal)) M' (Proc.devRef .tc Cert.ReferenceIdeal.main_v432) : Cert.ReferenceIdeal.S8x32x132x2.Idx → Elt Ideal .f32)
      = pleft7 (M' (Proc.devRef .tc Cert.ReferenceIdeal.main_arg0)) :=
  (Cert.ReferenceIdeal.Hand.upto8 M' Cert.ReferenceIdeal.main_v432 (by decide) (by decide)).trans
    (Cert.StripsE.rfaceW7 (StableHlo.after Cert.ReferenceIdeal.Hand.ops6 (StableHlo.after Cert.ReferenceIdeal.Hand.ops5 (StableHlo.after Cert.ReferenceIdeal.Hand.ops4 (StableHlo.after Cert.ReferenceIdeal.Hand.ops3 (StableHlo.after Cert.ReferenceIdeal.Hand.ops2 (StableHlo.after Cert.ReferenceIdeal.Hand.ops1 (StableHlo.after Cert.ReferenceIdeal.Hand.ops0 M'))))))) (M' (Proc.devRef .tc Cert.ReferenceIdeal.main_arg0))
      ((Cert.ReferenceIdeal.Hand.ops6_keeps _ Cert.ReferenceIdeal.main_v8 (by decide)).trans ((Cert.ReferenceIdeal.Hand.ops5_keeps _ Cert.ReferenceIdeal.main_v8 (by decide)).trans ((Cert.ReferenceIdeal.Hand.ops4_keeps _ Cert.ReferenceIdeal.main_v8 (by decide)).trans ((Cert.ReferenceIdeal.Hand.ops3_keeps _ Cert.ReferenceIdeal.main_v8 (by decide)).trans ((Cert.ReferenceIdeal.Hand.ops2_keeps _ Cert.ReferenceIdeal.main_v8 (by decide)).trans ((Cert.ReferenceIdeal.Hand.ops1_keeps _ Cert.ReferenceIdeal.main_v8 (by decide)).trans ((Cert.StripsE.rfaces0 M').2.2.2.1)))))))
      ((Cert.ReferenceIdeal.Hand.ops6_keeps _ Cert.ReferenceIdeal.main_v6 (by decide)).trans ((Cert.ReferenceIdeal.Hand.ops5_keeps _ Cert.ReferenceIdeal.main_v6 (by decide)).trans ((Cert.ReferenceIdeal.Hand.ops4_keeps _ Cert.ReferenceIdeal.main_v6 (by decide)).trans ((Cert.ReferenceIdeal.Hand.ops3_keeps _ Cert.ReferenceIdeal.main_v6 (by decide)).trans ((Cert.ReferenceIdeal.Hand.ops2_keeps _ Cert.ReferenceIdeal.main_v6 (by decide)).trans ((Cert.ReferenceIdeal.Hand.ops1_keeps _ Cert.ReferenceIdeal.main_v6 (by decide)).trans ((Cert.StripsE.rfaces0 M').2.2.1)))))))
      ((Cert.ReferenceIdeal.Hand.ops6_keeps _ Cert.ReferenceIdeal.main_v14 (by decide)).trans ((Cert.ReferenceIdeal.Hand.ops5_keeps _ Cert.ReferenceIdeal.main_v14 (by decide)).trans ((Cert.ReferenceIdeal.Hand.ops4_keeps _ Cert.ReferenceIdeal.main_v14 (by decide)).trans ((Cert.ReferenceIdeal.Hand.ops3_keeps _ Cert.ReferenceIdeal.main_v14 (by decide)).trans ((Cert.ReferenceIdeal.Hand.ops2_keeps _ Cert.ReferenceIdeal.main_v14 (by decide)).trans ((Cert.ReferenceIdeal.Hand.ops1_keeps _ Cert.ReferenceIdeal.main_v14 (by decide)).trans ((Cert.StripsE.rfaces0 M').2.2.2.2.2.2.1)))))))
      ((Cert.ReferenceIdeal.Hand.ops6_keeps _ Cert.ReferenceIdeal.main_v22 (by decide)).trans ((Cert.ReferenceIdeal.Hand.ops5_keeps _ Cert.ReferenceIdeal.main_v22 (by decide)).trans ((Cert.ReferenceIdeal.Hand.ops4_keeps _ Cert.ReferenceIdeal.main_v22 (by decide)).trans ((Cert.ReferenceIdeal.Hand.ops3_keeps _ Cert.ReferenceIdeal.main_v22 (by decide)).trans ((Cert.ReferenceIdeal.Hand.ops2_keeps _ Cert.ReferenceIdeal.main_v22 (by decide)).trans ((Cert.ReferenceIdeal.Hand.ops1_keeps _ Cert.ReferenceIdeal.main_v22 (by decide)).trans ((Cert.StripsE.rfaces0 M').2.2.2.2.2.2.2.2.2.2.1)))))))
      ((Cert.ReferenceIdeal.Hand.ops6_keeps _ Cert.ReferenceIdeal.main_v24 (by decide)).trans ((Cert.ReferenceIdeal.Hand.ops5_keeps _ Cert.ReferenceIdeal.main_v24 (by decide)).trans ((Cert.ReferenceIdeal.Hand.ops4_keeps _ Cert.ReferenceIdeal.main_v24 (by decide)).trans ((Cert.ReferenceIdeal.Hand.ops3_keeps _ Cert.ReferenceIdeal.main_v24 (by decide)).trans ((Cert.ReferenceIdeal.Hand.ops2_keeps _ Cert.ReferenceIdeal.main_v24 (by decide)).trans ((Cert.ReferenceIdeal.Hand.ops1_keeps _ Cert.ReferenceIdeal.main_v24 (by decide)).trans ((Cert.StripsE.rfaces0 M').2.2.2.2.2.2.2.2.2.2.2)))))))
      ((Cert.ReferenceIdeal.Hand.ops6_keeps _ Cert.ReferenceIdeal.main_v10 (by decide)).trans ((Cert.ReferenceIdeal.Hand.ops5_keeps _ Cert.ReferenceIdeal.main_v10 (by decide)).trans ((Cert.ReferenceIdeal.Hand.ops4_keeps _ Cert.ReferenceIdeal.main_v10 (by decide)).trans ((Cert.ReferenceIdeal.Hand.ops3_keeps _ Cert.ReferenceIdeal.main_v10 (by decide)).trans ((Cert.ReferenceIdeal.Hand.ops2_keeps _ Cert.ReferenceIdeal.main_v10 (by decide)).trans ((Cert.ReferenceIdeal.Hand.ops1_keeps _ Cert.ReferenceIdeal.main_v10 (by decide)).trans ((Cert.StripsE.rfaces0 M').2.2.2.2.1)))))))).2.2.1

/-- The reference's right strip of face 7 is the pure right strip of the argument. -/
theorem rright7 (M' : Valuation Cert.ReferenceIdeal.τ Cert.ReferenceIdeal.sig (Elt Ideal)) :
    (StableHlo.after (Cert.ReferenceIdeal.Hand.ops (F := Ideal)) M' (Proc.devRef .tc Cert.ReferenceIdeal.main_v435) : Cert.ReferenceIdeal.S8x32x132x2.Idx → Elt Ideal .f32)
      = pright7 (M' (Proc.devRef .tc Cert.ReferenceIdeal.main_arg0)) :=
  (Cert.ReferenceIdeal.Hand.upto8 M' Cert.ReferenceIdeal.main_v435 (by decide) (by decide)).trans
    (Cert.StripsE.rfaceW7 (StableHlo.after Cert.ReferenceIdeal.Hand.ops6 (StableHlo.after Cert.ReferenceIdeal.Hand.ops5 (StableHlo.after Cert.ReferenceIdeal.Hand.ops4 (StableHlo.after Cert.ReferenceIdeal.Hand.ops3 (StableHlo.after Cert.ReferenceIdeal.Hand.ops2 (StableHlo.after Cert.ReferenceIdeal.Hand.ops1 (StableHlo.after Cert.ReferenceIdeal.Hand.ops0 M'))))))) (M' (Proc.devRef .tc Cert.ReferenceIdeal.main_arg0))
      ((Cert.ReferenceIdeal.Hand.ops6_keeps _ Cert.ReferenceIdeal.main_v8 (by decide)).trans ((Cert.ReferenceIdeal.Hand.ops5_keeps _ Cert.ReferenceIdeal.main_v8 (by decide)).trans ((Cert.ReferenceIdeal.Hand.ops4_keeps _ Cert.ReferenceIdeal.main_v8 (by decide)).trans ((Cert.ReferenceIdeal.Hand.ops3_keeps _ Cert.ReferenceIdeal.main_v8 (by decide)).trans ((Cert.ReferenceIdeal.Hand.ops2_keeps _ Cert.ReferenceIdeal.main_v8 (by decide)).trans ((Cert.ReferenceIdeal.Hand.ops1_keeps _ Cert.ReferenceIdeal.main_v8 (by decide)).trans ((Cert.StripsE.rfaces0 M').2.2.2.1)))))))
      ((Cert.ReferenceIdeal.Hand.ops6_keeps _ Cert.ReferenceIdeal.main_v6 (by decide)).trans ((Cert.ReferenceIdeal.Hand.ops5_keeps _ Cert.ReferenceIdeal.main_v6 (by decide)).trans ((Cert.ReferenceIdeal.Hand.ops4_keeps _ Cert.ReferenceIdeal.main_v6 (by decide)).trans ((Cert.ReferenceIdeal.Hand.ops3_keeps _ Cert.ReferenceIdeal.main_v6 (by decide)).trans ((Cert.ReferenceIdeal.Hand.ops2_keeps _ Cert.ReferenceIdeal.main_v6 (by decide)).trans ((Cert.ReferenceIdeal.Hand.ops1_keeps _ Cert.ReferenceIdeal.main_v6 (by decide)).trans ((Cert.StripsE.rfaces0 M').2.2.1)))))))
      ((Cert.ReferenceIdeal.Hand.ops6_keeps _ Cert.ReferenceIdeal.main_v14 (by decide)).trans ((Cert.ReferenceIdeal.Hand.ops5_keeps _ Cert.ReferenceIdeal.main_v14 (by decide)).trans ((Cert.ReferenceIdeal.Hand.ops4_keeps _ Cert.ReferenceIdeal.main_v14 (by decide)).trans ((Cert.ReferenceIdeal.Hand.ops3_keeps _ Cert.ReferenceIdeal.main_v14 (by decide)).trans ((Cert.ReferenceIdeal.Hand.ops2_keeps _ Cert.ReferenceIdeal.main_v14 (by decide)).trans ((Cert.ReferenceIdeal.Hand.ops1_keeps _ Cert.ReferenceIdeal.main_v14 (by decide)).trans ((Cert.StripsE.rfaces0 M').2.2.2.2.2.2.1)))))))
      ((Cert.ReferenceIdeal.Hand.ops6_keeps _ Cert.ReferenceIdeal.main_v22 (by decide)).trans ((Cert.ReferenceIdeal.Hand.ops5_keeps _ Cert.ReferenceIdeal.main_v22 (by decide)).trans ((Cert.ReferenceIdeal.Hand.ops4_keeps _ Cert.ReferenceIdeal.main_v22 (by decide)).trans ((Cert.ReferenceIdeal.Hand.ops3_keeps _ Cert.ReferenceIdeal.main_v22 (by decide)).trans ((Cert.ReferenceIdeal.Hand.ops2_keeps _ Cert.ReferenceIdeal.main_v22 (by decide)).trans ((Cert.ReferenceIdeal.Hand.ops1_keeps _ Cert.ReferenceIdeal.main_v22 (by decide)).trans ((Cert.StripsE.rfaces0 M').2.2.2.2.2.2.2.2.2.2.1)))))))
      ((Cert.ReferenceIdeal.Hand.ops6_keeps _ Cert.ReferenceIdeal.main_v24 (by decide)).trans ((Cert.ReferenceIdeal.Hand.ops5_keeps _ Cert.ReferenceIdeal.main_v24 (by decide)).trans ((Cert.ReferenceIdeal.Hand.ops4_keeps _ Cert.ReferenceIdeal.main_v24 (by decide)).trans ((Cert.ReferenceIdeal.Hand.ops3_keeps _ Cert.ReferenceIdeal.main_v24 (by decide)).trans ((Cert.ReferenceIdeal.Hand.ops2_keeps _ Cert.ReferenceIdeal.main_v24 (by decide)).trans ((Cert.ReferenceIdeal.Hand.ops1_keeps _ Cert.ReferenceIdeal.main_v24 (by decide)).trans ((Cert.StripsE.rfaces0 M').2.2.2.2.2.2.2.2.2.2.2)))))))
      ((Cert.ReferenceIdeal.Hand.ops6_keeps _ Cert.ReferenceIdeal.main_v10 (by decide)).trans ((Cert.ReferenceIdeal.Hand.ops5_keeps _ Cert.ReferenceIdeal.main_v10 (by decide)).trans ((Cert.ReferenceIdeal.Hand.ops4_keeps _ Cert.ReferenceIdeal.main_v10 (by decide)).trans ((Cert.ReferenceIdeal.Hand.ops3_keeps _ Cert.ReferenceIdeal.main_v10 (by decide)).trans ((Cert.ReferenceIdeal.Hand.ops2_keeps _ Cert.ReferenceIdeal.main_v10 (by decide)).trans ((Cert.ReferenceIdeal.Hand.ops1_keeps _ Cert.ReferenceIdeal.main_v10 (by decide)).trans ((Cert.StripsE.rfaces0 M').2.2.2.2.1)))))))).2.2.2

end Cert.Strips

end
-- ==== Proof.StripsRW0_f.lean ====
/-
  Window 0 of the reference's operations, read by itself over an arbitrary valuation `W`: the twelve face buffers hold
  the twelve faces cut out of the argument as `W` holds it. The twelve facts are read off one pass over the window.
-/
import proofs.«156783_j90975997264310_2_alg».proof.Proof.RefOps0
import proofs.«156783_j90975997264310_2_alg».proof.Proof.KindsF
import proofs.«156783_j90975997264310_2_alg».proof.Proof.LibNary3
import Idealize.ShloMosaic.PureOps.Ideal

open Idealize.ShloMosaic Idealize.ShloMosaic.StableHlo Cert.KindsF

namespace Cert.Strips.R
open Cert.ReferenceIdeal Cert.ReferenceIdeal.Gen Cert.ReferenceIdeal.Hand

set_option maxHeartbeats 0 in
set_option maxRecDepth 100000 in
/-- Each face buffer, through window 0 alone, holds its face of the argument. -/
theorem faces0 (W : Valuation τ sig (Elt Ideal)) :
    ((StableHlo.after ops0 W (Proc.devRef .tc main_v2) : Cert.ReferenceIdeal.S8x32x128x128.Idx → Elt Ideal .f32)
      = face (W (Proc.devRef .tc main_arg0) : Cert.ReferenceIdeal.S96x32x128x128.Idx → Elt Ideal .f32) 0)
    ∧ ((StableHlo.after ops0 W (Proc.devRef .tc main_v4) : Cert.ReferenceIdeal.S8x32x128x128.Idx → Elt Ideal .f32)
      = face (W (Proc.devRef .tc main_arg0) : Cert.ReferenceIdeal.S96x32x128x128.Idx → Elt Ideal .f32) 1)
    ∧ ((StableHlo.after ops0 W (Proc.devRef .tc main_v6) : Cert.ReferenceIdeal.S8x32x128x128.Idx → Elt Ideal .f32)
      = face (W (Proc.devRef .tc main_arg0) : Cert.ReferenceIdeal.S96x32x128x128.Idx → Elt Ideal .f32) 2)
    ∧ ((StableHlo.after ops0 W (Proc.devRef .tc main_v8) : Cert.ReferenceIdeal.S8x32x128x128.Idx → Elt Ideal .f32)
      = face (W (Proc.devRef .tc main_arg0) : Cert.ReferenceIdeal.S96x32x128x128.Idx → Elt Ideal .f32) 3)
    ∧ ((StableHlo.after ops0 W (Proc.devRef .tc main_v10) : Cert.ReferenceIdeal.S8x32x128x128.Idx → Elt Ideal .f32)
      = face (W (Proc.devRef .tc main_arg0) : Cert.ReferenceIdeal.S96x32x128x128.Idx → Elt Ideal .f32) 4)
    ∧ ((StableHlo.after ops0 W (Proc.devRef .tc main_v12) : Cert.ReferenceIdeal.S8x32x128x128.Idx → Elt Ideal .f32)
      = face (W (Proc.devRef .tc main_arg0) : Cert.ReferenceIdeal.S96x32x128x128.Idx → Elt Ideal .f32) 5)
    ∧ ((StableHlo.after ops0 W (Proc.devRef .tc main_v14) : Cert.ReferenceIdeal.S8x32x128x128.Idx → Elt Ideal .f32)
      = face (W (Proc.devRef .tc main_arg0) : Cert.ReferenceIdeal.S96x32x128x128.Idx → Elt Ideal .f32) 6)
    ∧ ((StableHlo.after ops0 W (Proc.devRef .tc main_v16) : Cert.ReferenceIdeal.S8x32x128x128.Idx → Elt Ideal .f32)
      = face (W (Proc.devRef .tc main_arg0) : Cert.ReferenceIdeal.S96x32x128x128.Idx → Elt Ideal .f32) 7)
    ∧ ((StableHlo.after ops0 W (Proc.devRef .tc main_v18) : Cert.ReferenceIdeal.S8x32x128x128.Idx → Elt Ideal .f32)
      = face (W (Proc.devRef .tc main_arg0) : Cert.ReferenceIdeal.S96x32x128x128.Idx → Elt Ideal .f32) 8)
    ∧ ((StableHlo.after ops0 W (Proc.devRef .tc main_v20) : Cert.ReferenceIdeal.S8x32x128x128.Idx → Elt Ideal .f32)
      = face (W (Proc.devRef .tc main_arg0) : Cert.ReferenceIdeal.S96x32x128x128.Idx → Elt Ideal .f32) 9)
    ∧ ((StableHlo.after ops0 W (Proc.devRef .tc main_v22) : Cert.ReferenceIdeal.S8x32x128x128.Idx → Elt Ideal .f32)
      = face (W (Proc.devRef .tc main_arg0) : Cert.ReferenceIdeal.S96x32x128x128.Idx → Elt Ideal .f32) 10)
    ∧ ((StableHlo.after ops0 W (Proc.devRef .tc main_v24) : Cert.ReferenceIdeal.S8x32x128x128.Idx → Elt Ideal .f32)
      = face (W (Proc.devRef .tc main_arg0) : Cert.ReferenceIdeal.S96x32x128x128.Idx → Elt Ideal .f32) 11) := by
  simp only [ops0]
  after_results_simp3
  exact ⟨rfl, rfl, rfl, rfl, rfl, rfl, rfl, rfl, rfl, rfl, rfl, rfl⟩

end Cert.Strips.R
-- ==== Proof.StripsRW9a_f.lean ====
/-
  Window 9a of the reference's operations, read by itself over an arbitrary valuation `W` of the buffers before it:
  the four border strips of southern faces 8 and 9. Each strip's buffer holds the strip's function (the module of the
  strips' kinds) of the face buffers it reads, as `W` holds them. The eight facts are read off one pass over the window.
-/
import proofs.«156783_j90975997264310_2_alg».proof.Proof.RefOps9a
import proofs.«156783_j90975997264310_2_alg».proof.Proof.KindsF
import proofs.«156783_j90975997264310_2_alg».proof.Proof.LibNary3
import Idealize.ShloMosaic.PureOps.Ideal

open Idealize.ShloMosaic Idealize.ShloMosaic.StableHlo Cert.KindsF

namespace Cert.Strips.R
open Cert.ReferenceIdeal Cert.ReferenceIdeal.Gen Cert.ReferenceIdeal.Hand

set_option maxHeartbeats 0 in
set_option maxRecDepth 100000 in
/-- The top, bottom, left and right strips of faces 8 and 9, through window 9a alone. -/
theorem win9a_south (W : Valuation τ sig (Elt Ideal)) :
    ((StableHlo.after ops9a W (Proc.devRef .tc main_v437) : Cert.ReferenceIdeal.S8x32x2x128.Idx → Elt Ideal .f32)
      = top (W (Proc.devRef .tc main_v12) : Cert.ReferenceIdeal.S8x32x128x128.Idx → Elt Ideal .f32))
    ∧ ((StableHlo.after ops9a W (Proc.devRef .tc main_v439) : Cert.ReferenceIdeal.S8x32x2x128.Idx → Elt Ideal .f32)
      = rBottom (W (Proc.devRef .tc main_v24) : Cert.ReferenceIdeal.S8x32x128x128.Idx → Elt Ideal .f32))
    ∧ ((StableHlo.after ops9a W (Proc.devRef .tc main_v444) : Cert.ReferenceIdeal.S8x32x132x2.Idx → Elt Ideal .f32)
      = rLeft (W (Proc.devRef .tc main_v2) : Cert.ReferenceIdeal.S8x32x128x128.Idx → Elt Ideal .f32) (W (Proc.devRef .tc main_v10) : Cert.ReferenceIdeal.S8x32x128x128.Idx → Elt Ideal .f32) (W (Proc.devRef .tc main_v24) : Cert.ReferenceIdeal.S8x32x128x128.Idx → Elt Ideal .f32))
    ∧ ((StableHlo.after ops9a W (Proc.devRef .tc main_v450) : Cert.ReferenceIdeal.S8x32x132x2.Idx → Elt Ideal .f32)
      = rRight (W (Proc.devRef .tc main_v20) : Cert.ReferenceIdeal.S8x32x128x128.Idx → Elt Ideal .f32) (W (Proc.devRef .tc main_v20) : Cert.ReferenceIdeal.S8x32x128x128.Idx → Elt Ideal .f32) (W (Proc.devRef .tc main_v22) : Cert.ReferenceIdeal.S8x32x128x128.Idx → Elt Ideal .f32))
    ∧ ((StableHlo.after ops9a W (Proc.devRef .tc main_v452) : Cert.ReferenceIdeal.S8x32x2x128.Idx → Elt Ideal .f32)
      = top (W (Proc.devRef .tc main_v14) : Cert.ReferenceIdeal.S8x32x128x128.Idx → Elt Ideal .f32))
    ∧ ((StableHlo.after ops9a W (Proc.devRef .tc main_v454) : Cert.ReferenceIdeal.S8x32x2x128.Idx → Elt Ideal .f32)
      = rBottom (W (Proc.devRef .tc main_v18) : Cert.ReferenceIdeal.S8x32x128x128.Idx → Elt Ideal .f32))
    ∧ ((StableHlo.after ops9a W (Proc.devRef .tc main_v459) : Cert.ReferenceIdeal.S8x32x132x2.Idx → Elt Ideal .f32)
      = rLeft (W (Proc.devRef .tc main_v4) : Cert.ReferenceIdeal.S8x32x128x128.Idx → Elt Ideal .f32) (W (Proc.devRef .tc main_v12) : Cert.ReferenceIdeal.S8x32x128x128.Idx → Elt Ideal .f32) (W (Proc.devRef .tc main_v18) : Cert.ReferenceIdeal.S8x32x128x128.Idx → Elt Ideal .f32))
    ∧ ((StableHlo.after ops9a W (Proc.devRef .tc main_v465) : Cert.ReferenceIdeal.S8x32x132x2.Idx → Elt Ideal .f32)
      = rRight (W (Proc.devRef .tc main_v22) : Cert.ReferenceIdeal.S8x32x128x128.Idx → Elt Ideal .f32) (W (Proc.devRef .tc main_v22) : Cert.ReferenceIdeal.S8x32x128x128.Idx → Elt Ideal .f32) (W (Proc.devRef .tc main_v24) : Cert.ReferenceIdeal.S8x32x128x128.Idx → Elt Ideal .f32)) := by
  simp only [ops9a]
  after_results_simp3
  exact ⟨rfl, rfl, rfl, rfl, rfl, rfl, rfl, rfl⟩

end Cert.Strips.R
-- ==== Proof.StripsRW9b_f.lean ====
/-
  Window 9b of the reference's operations, read by itself over an arbitrary valuation `W` of the buffers before it:
  the four border strips of southern faces 10 and 11. Each strip's buffer holds the strip's function (the module of the
  strips' kinds) of the face buffers it reads, as `W` holds them. The eight facts are read off one pass over the window.
-/
import proofs.«156783_j90975997264310_2_alg».proof.Proof.RefOps9b
import proofs.«156783_j90975997264310_2_alg».proof.Proof.KindsF
import proofs.«156783_j90975997264310_2_alg».proof.Proof.LibNary3
import Idealize.ShloMosaic.PureOps.Ideal

open Idealize.ShloMosaic Idealize.ShloMosaic.StableHlo Cert.KindsF

namespace Cert.Strips.R
open Cert.ReferenceIdeal Cert.ReferenceIdeal.Gen Cert.ReferenceIdeal.Hand

set_option maxHeartbeats 0 in
set_option maxRecDepth 100000 in
/-- The top, bottom, left and right strips of faces 10 and 11, through window 9b alone. -/
theorem win9b_south (W : Valuation τ sig (Elt Ideal)) :
    ((StableHlo.after ops9b W (Proc.devRef .tc main_v467) : Cert.ReferenceIdeal.S8x32x2x128.Idx → Elt Ideal .f32)
      = top (W (Proc.devRef .tc main_v16) : Cert.ReferenceIdeal.S8x32x128x128.Idx → Elt Ideal .f32))
    ∧ ((StableHlo.after ops9b W (Proc.devRef .tc main_v469) : Cert.ReferenceIdeal.S8x32x2x128.Idx → Elt Ideal .f32)
      = rBottom (W (Proc.devRef .tc main_v20) : Cert.ReferenceIdeal.S8x32x128x128.Idx → Elt Ideal .f32))
    ∧ ((StableHlo.after ops9b W (Proc.devRef .tc main_v474) : Cert.ReferenceIdeal.S8x32x132x2.Idx → Elt Ideal .f32)
      = rLeft (W (Proc.devRef .tc main_v6) : Cert.ReferenceIdeal.S8x32x128x128.Idx → Elt Ideal .f32) (W (Proc.devRef .tc main_v14) : Cert.ReferenceIdeal.S8x32x128x128.Idx → Elt Ideal .f32) (W (Proc.devRef .tc main_v20) : Cert.ReferenceIdeal.S8x32x128x128.Idx → Elt Ideal .f32))
    ∧ ((StableHlo.after ops9b W (Proc.devRef .tc main_v480) : Cert.ReferenceIdeal.S8x32x132x2.Idx → Elt Ideal .f32)
      = rRight (W (Proc.devRef .tc main_v24) : Cert.ReferenceIdeal.S8x32x128x128.Idx → Elt Ideal .f32) (W (Proc.devRef .tc main_v24) : Cert.ReferenceIdeal.S8x32x128x128.Idx → Elt Ideal .f32) (W (Proc.devRef .tc main_v18) : Cert.ReferenceIdeal.S8x32x128x128.Idx → Elt Ideal .f32))
    ∧ ((StableHlo.after ops9b W (Proc.devRef .tc main_v482) : Cert.ReferenceIdeal.S8x32x2x128.Idx → Elt Ideal .f32)
      = top (W (Proc.devRef .tc main_v10) : Cert.ReferenceIdeal.S8x32x128x128.Idx → Elt Ideal .f32))
    ∧ ((StableHlo.after ops9b W (Proc.devRef .tc main_v484) : Cert.ReferenceIdeal.S8x32x2x128.Idx → Elt Ideal .f32)
      = rBottom (W (Proc.devRef .tc main_v22) : Cert.ReferenceIdeal.S8x32x128x128.Idx → Elt Ideal .f32))
    ∧ ((StableHlo.after ops9b W (Proc.devRef .tc main_v489) : Cert.ReferenceIdeal.S8x32x132x2.Idx → Elt Ideal .f32)
      = rLeft (W (Proc.devRef .tc main_v8) : Cert.ReferenceIdeal.S8x32x128x128.Idx → Elt Ideal .f32) (W (Proc.devRef .tc main_v16) : Cert.ReferenceIdeal.S8x32x128x128.Idx → Elt Ideal .f32) (W (Proc.devRef .tc main_v22) : Cert.ReferenceIdeal.S8x32x128x128.Idx → Elt Ideal .f32))
    ∧ ((StableHlo.after ops9b W (Proc.devRef .tc main_v495) : Cert.ReferenceIdeal.S8x32x132x2.Idx → Elt Ideal .f32)
      = rRight (W (Proc.devRef .tc main_v18) : Cert.ReferenceIdeal.S8x32x128x128.Idx → Elt Ideal .f32) (W (Proc.devRef .tc main_v18) : Cert.ReferenceIdeal.S8x32x128x128.Idx → Elt Ideal .f32) (W (Proc.devRef .tc main_v20) : Cert.ReferenceIdeal.S8x32x128x128.Idx → Elt Ideal .f32)) := by
  simp only [ops9b]
  after_results_simp3
  exact ⟨rfl, rfl, rfl, rfl, rfl, rfl, rfl, rfl⟩

end Cert.Strips.R
-- ==== Proof.StripsRS_f.lean ====
/-
  The four border strips of each southern face as the reference program computes them: each strip's buffer, after the
  whole line of the reference's operations, holds the strip written as a function of the faces it reads. The line is
  read window by window: a strip's buffer is written in window 9 and by no later window; through its half of window 9
  it holds the strip's function of the face buffers; the face buffers are written in window 0 and by no window between;
  through window 0 they hold the faces of the argument.
-/
import proofs.«156783_j90975997264310_2_alg».proof.Proof.RefRun
import proofs.«156783_j90975997264310_2_alg».proof.Proof.RSplit
import proofs.«156783_j90975997264310_2_alg».proof.Proof.StripsRW0_f
import proofs.«156783_j90975997264310_2_alg».proof.Proof.StripsRW9a_f
import proofs.«156783_j90975997264310_2_alg».proof.Proof.StripsRW9b_f
import Idealize.ShloMosaic.Lib.Pipeline.Frame

open Idealize.ShloMosaic Idealize.ShloMosaic.StableHlo Cert.KindsF

namespace Cert.Strips.R
open Cert.ReferenceIdeal Cert.ReferenceIdeal.Gen Cert.ReferenceIdeal.Hand

/-- A buffer the first half of window 9 does not write keeps its contents through it. -/
theorem keeps9a (V : Valuation τ sig (Elt Ideal)) (r : Ref sig .tc) (h : r ∉ ops9a_W) :
    StableHlo.after ops9a V (Proc.devRef .tc r) = V (Proc.devRef .tc r) :=
  StableHlo.after_of_writes_sub ops9a V ops9a_writes h

/-- A buffer the second half of window 9 does not write keeps its contents through it. -/
theorem keeps9b (V : Valuation τ sig (Elt Ideal)) (r : Ref sig .tc) (h : r ∉ ops9b_W) :
    StableHlo.after ops9b V (Proc.devRef .tc r) = V (Proc.devRef .tc r) :=
  StableHlo.after_of_writes_sub ops9b V ops9b_writes h

/-- A buffer the second half of window 9 does not write is read off the first half. -/
theorem at9a (V : Valuation τ sig (Elt Ideal)) (r : Ref sig .tc) (h : r ∉ ops9b_W) :
    StableHlo.after ops9 V (Proc.devRef .tc r) = StableHlo.after ops9a V (Proc.devRef .tc r) := by
  show StableHlo.after (ops9a ++ ops9b) V _ = _
  rw [StableHlo.after_append, keeps9b _ r h]

/-- Window 9 is its first half, then its second. -/
theorem at9b (V : Valuation τ sig (Elt Ideal)) (r : Ref sig .tc) :
    StableHlo.after ops9 V (Proc.devRef .tc r) = StableHlo.after ops9b (StableHlo.after ops9a V) (Proc.devRef .tc r) := by
  show StableHlo.after (ops9a ++ ops9b) V _ = _
  rw [StableHlo.after_append]

/-- A buffer written in the first half of window 9 and by nothing later is read off that half, run from the contents
    the windows before it leave. -/
theorem read9a (M' : Valuation τ sig (Elt Ideal)) (r : Ref sig .tc) (h9 : r ∉ ops9b_W) (h10 : r ∉ ops10_W) :
    StableHlo.after ops M' (Proc.devRef .tc r) = StableHlo.after ops9a (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc r) := by
  rw [upto9 M' r h10, at9a _ r h9]

/-- A buffer written in the second half of window 9 and by nothing later is read off that half, run from the contents
    the first half leaves. -/
theorem read9b (M' : Valuation τ sig (Elt Ideal)) (r : Ref sig .tc) (h10 : r ∉ ops10_W) :
    StableHlo.after ops M' (Proc.devRef .tc r) = StableHlo.after ops9b (StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc r) := by
  rw [upto9 M' r h10, at9b _ r]

/-- A buffer windows 1 to 8 do not write holds, when window 9 is entered, what window 0 left in it. -/
theorem before9a (M' : Valuation τ sig (Elt Ideal)) (r : Ref sig .tc) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) :
    (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc r) = StableHlo.after ops0 M' (Proc.devRef .tc r) := by
  rw [ops8_keeps _ r h8, ops7_keeps _ r h7, ops6_keeps _ r h6, ops5_keeps _ r h5, ops4_keeps _ r h4, ops3_keeps _ r h3, ops2_keeps _ r h2, ops1_keeps _ r h1]

/-- The same when the second half of window 9 is entered, for a buffer the first half does not write either. -/
theorem before9b (M' : Valuation τ sig (Elt Ideal)) (r : Ref sig .tc) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9a_W) :
    (StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc r) = StableHlo.after ops0 M' (Proc.devRef .tc r) := by
  rw [keeps9a _ r h9, before9a M' r h1 h2 h3 h4 h5 h6 h7 h8]

/-- When window 9 is entered, each face buffer the strips of faces 8 and 9 read holds its face of the argument. -/
theorem facesAt9a (M' : Valuation τ sig (Elt Ideal)) :
    (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v2) : Cert.ReferenceIdeal.S8x32x128x128.Idx → Elt Ideal .f32)
      = face (M' (Proc.devRef .tc main_arg0) : Cert.ReferenceIdeal.S96x32x128x128.Idx → Elt Ideal .f32) 0)
    ∧ (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v4) : Cert.ReferenceIdeal.S8x32x128x128.Idx → Elt Ideal .f32)
      = face (M' (Proc.devRef .tc main_arg0) : Cert.ReferenceIdeal.S96x32x128x128.Idx → Elt Ideal .f32) 1)
    ∧ (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v10) : Cert.ReferenceIdeal.S8x32x128x128.Idx → Elt Ideal .f32)
      = face (M' (Proc.devRef .tc main_arg0) : Cert.ReferenceIdeal.S96x32x128x128.Idx → Elt Ideal .f32) 4)
    ∧ (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v12) : Cert.ReferenceIdeal.S8x32x128x128.Idx → Elt Ideal .f32)
      = face (M' (Proc.devRef .tc main_arg0) : Cert.ReferenceIdeal.S96x32x128x128.Idx → Elt Ideal .f32) 5)
    ∧ (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v14) : Cert.ReferenceIdeal.S8x32x128x128.Idx → Elt Ideal .f32)
      = face (M' (Proc.devRef .tc main_arg0) : Cert.ReferenceIdeal.S96x32x128x128.Idx → Elt Ideal .f32) 6)
    ∧ (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v18) : Cert.ReferenceIdeal.S8x32x128x128.Idx → Elt Ideal .f32)
      = face (M' (Proc.devRef .tc main_arg0) : Cert.ReferenceIdeal.S96x32x128x128.Idx → Elt Ideal .f32) 8)
    ∧ (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v20) : Cert.ReferenceIdeal.S8x32x128x128.Idx → Elt Ideal .f32)
      = face (M' (Proc.devRef .tc main_arg0) : Cert.ReferenceIdeal.S96x32x128x128.Idx → Elt Ideal .f32) 9)
    ∧ (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v22) : Cert.ReferenceIdeal.S8x32x128x128.Idx → Elt Ideal .f32)
      = face (M' (Proc.devRef .tc main_arg0) : Cert.ReferenceIdeal.S96x32x128x128.Idx → Elt Ideal .f32) 10)
    ∧ (((StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v24) : Cert.ReferenceIdeal.S8x32x128x128.Idx → Elt Ideal .f32)
      = face (M' (Proc.devRef .tc main_arg0) : Cert.ReferenceIdeal.S96x32x128x128.Idx → Elt Ideal .f32) 11) := by
  obtain ⟨f0, f1, f2, f3, f4, f5, f6, f7, f8, f9, f10, f11⟩ := faces0 M'
  exact ⟨(before9a M' main_v2 (by decide) (by decide) (by decide) (by decide) (by decide) (by decide) (by decide) (by decide)).trans f0,
    (before9a M' main_v4 (by decide) (by decide) (by decide) (by decide) (by decide) (by decide) (by decide) (by decide)).trans f1,
    (before9a M' main_v10 (by decide) (by decide) (by decide) (by decide) (by decide) (by decide) (by decide) (by decide)).trans f4,
    (before9a M' main_v12 (by decide) (by decide) (by decide) (by decide) (by decide) (by decide) (by decide) (by decide)).trans f5,
    (before9a M' main_v14 (by decide) (by decide) (by decide) (by decide) (by decide) (by decide) (by decide) (by decide)).trans f6,
    (before9a M' main_v18 (by decide) (by decide) (by decide) (by decide) (by decide) (by decide) (by decide) (by decide)).trans f8,
    (before9a M' main_v20 (by decide) (by decide) (by decide) (by decide) (by decide) (by decide) (by decide) (by decide)).trans f9,
    (before9a M' main_v22 (by decide) (by decide) (by decide) (by decide) (by decide) (by decide) (by decide) (by decide)).trans f10,
    (before9a M' main_v24 (by decide) (by decide) (by decide) (by decide) (by decide) (by decide) (by decide) (by decide)).trans f11⟩

/-- When the second half of window 9 is entered, each face buffer the strips of faces 10 and 11 read holds its face of the argument. -/
theorem facesAt9b (M' : Valuation τ sig (Elt Ideal)) :
    (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v6) : Cert.ReferenceIdeal.S8x32x128x128.Idx → Elt Ideal .f32)
      = face (M' (Proc.devRef .tc main_arg0) : Cert.ReferenceIdeal.S96x32x128x128.Idx → Elt Ideal .f32) 2)
    ∧ (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v8) : Cert.ReferenceIdeal.S8x32x128x128.Idx → Elt Ideal .f32)
      = face (M' (Proc.devRef .tc main_arg0) : Cert.ReferenceIdeal.S96x32x128x128.Idx → Elt Ideal .f32) 3)
    ∧ (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v10) : Cert.ReferenceIdeal.S8x32x128x128.Idx → Elt Ideal .f32)
      = face (M' (Proc.devRef .tc main_arg0) : Cert.ReferenceIdeal.S96x32x128x128.Idx → Elt Ideal .f32) 4)
    ∧ (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v14) : Cert.ReferenceIdeal.S8x32x128x128.Idx → Elt Ideal .f32)
      = face (M' (Proc.devRef .tc main_arg0) : Cert.ReferenceIdeal.S96x32x128x128.Idx → Elt Ideal .f32) 6)
    ∧ (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v16) : Cert.ReferenceIdeal.S8x32x128x128.Idx → Elt Ideal .f32)
      = face (M' (Proc.devRef .tc main_arg0) : Cert.ReferenceIdeal.S96x32x128x128.Idx → Elt Ideal .f32) 7)
    ∧ (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v18) : Cert.ReferenceIdeal.S8x32x128x128.Idx → Elt Ideal .f32)
      = face (M' (Proc.devRef .tc main_arg0) : Cert.ReferenceIdeal.S96x32x128x128.Idx → Elt Ideal .f32) 8)
    ∧ (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v20) : Cert.ReferenceIdeal.S8x32x128x128.Idx → Elt Ideal .f32)
      = face (M' (Proc.devRef .tc main_arg0) : Cert.ReferenceIdeal.S96x32x128x128.Idx → Elt Ideal .f32) 9)
    ∧ (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v22) : Cert.ReferenceIdeal.S8x32x128x128.Idx → Elt Ideal .f32)
      = face (M' (Proc.devRef .tc main_arg0) : Cert.ReferenceIdeal.S96x32x128x128.Idx → Elt Ideal .f32) 10)
    ∧ (((StableHlo.after ops9a (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v24) : Cert.ReferenceIdeal.S8x32x128x128.Idx → Elt Ideal .f32)
      = face (M' (Proc.devRef .tc main_arg0) : Cert.ReferenceIdeal.S96x32x128x128.Idx → Elt Ideal .f32) 11) := by
  obtain ⟨f0, f1, f2, f3, f4, f5, f6, f7, f8, f9, f10, f11⟩ := faces0 M'
  exact ⟨(before9b M' main_v6 (by decide) (by decide) (by decide) (by decide) (by decide) (by decide) (by decide) (by decide) (by decide)).trans f2,
    (before9b M' main_v8 (by decide) (by decide) (by decide) (by decide) (by decide) (by decide) (by decide) (by decide) (by decide)).trans f3,
    (before9b M' main_v10 (by decide) (by decide) (by decide) (by decide) (by decide) (by decide) (by decide) (by decide) (by decide)).trans f4,
    (before9b M' main_v14 (by decide) (by decide) (by decide) (by decide) (by decide) (by decide) (by decide) (by decide) (by decide)).trans f6,
    (before9b M' main_v16 (by decide) (by decide) (by decide) (by decide) (by decide) (by decide) (by decide) (by decide) (by decide)).trans f7,
    (before9b M' main_v18 (by decide) (by decide) (by decide) (by decide) (by decide) (by decide) (by decide) (by decide) (by decide)).trans f8,
    (before9b M' main_v20 (by decide) (by decide) (by decide) (by decide) (by decide) (by decide) (by decide) (by decide) (by decide)).trans f9,
    (before9b M' main_v22 (by decide) (by decide) (by decide) (by decide) (by decide) (by decide) (by decide) (by decide) (by decide)).trans f10,
    (before9b M' main_v24 (by decide) (by decide) (by decide) (by decide) (by decide) (by decide) (by decide) (by decide) (by decide)).trans f11⟩

/-- The top, bottom, left and right strips of face 8, after the reference's operations. -/
theorem rStrips8 (M' : Valuation τ sig (Elt Ideal)) :
    ((StableHlo.after (Cert.ReferenceIdeal.Hand.ops (F := Ideal)) M' (Proc.devRef .tc main_v437) : Cert.ReferenceIdeal.S8x32x2x128.Idx → Elt Ideal .f32)
      = top (face (M' (Proc.devRef .tc main_arg0) : Cert.ReferenceIdeal.S96x32x128x128.Idx → Elt Ideal .f32) 5))
    ∧ ((StableHlo.after (Cert.ReferenceIdeal.Hand.ops (F := Ideal)) M' (Proc.devRef .tc main_v439) : Cert.ReferenceIdeal.S8x32x2x128.Idx → Elt Ideal .f32)
      = rBottom (face (M' (Proc.devRef .tc main_arg0) : Cert.ReferenceIdeal.S96x32x128x128.Idx → Elt Ideal .f32) 11))
    ∧ ((StableHlo.after (Cert.ReferenceIdeal.Hand.ops (F := Ideal)) M' (Proc.devRef .tc main_v444) : Cert.ReferenceIdeal.S8x32x132x2.Idx → Elt Ideal .f32)
      = rLeft (face (M' (Proc.devRef .tc main_arg0) : Cert.ReferenceIdeal.S96x32x128x128.Idx → Elt Ideal .f32) 0) (face (M' (Proc.devRef .tc main_arg0) : Cert.ReferenceIdeal.S96x32x128x128.Idx → Elt Ideal .f32) 4) (face (M' (Proc.devRef .tc main_arg0) : Cert.ReferenceIdeal.S96x32x128x128.Idx → Elt Ideal .f32) 11))
    ∧ ((StableHlo.after (Cert.ReferenceIdeal.Hand.ops (F := Ideal)) M' (Proc.devRef .tc main_v450) : Cert.ReferenceIdeal.S8x32x132x2.Idx → Elt Ideal .f32)
      = rRight (face (M' (Proc.devRef .tc main_arg0) : Cert.ReferenceIdeal.S96x32x128x128.Idx → Elt Ideal .f32) 9) (face (M' (Proc.devRef .tc main_arg0) : Cert.ReferenceIdeal.S96x32x128x128.Idx → Elt Ideal .f32) 9) (face (M' (Proc.devRef .tc main_arg0) : Cert.ReferenceIdeal.S96x32x128x128.Idx → Elt Ideal .f32) 10)) := by
  obtain ⟨g0, g1, g4, g5, g6, g8, g9, g10, g11⟩ := facesAt9a M'
  obtain ⟨w1, w2, w3, w4, w5, w6, w7, w8⟩ := win9a_south (StableHlo.after ops8 (StableHlo.after ops7 (StableHlo.after ops6 (StableHlo.after ops5 (StableHlo.after ops4 (StableHlo.after ops3 (StableHlo.after ops2 (StableHlo.after ops1 (StableHlo.after ops0 M')))))))))
  exact ⟨(read9a M' main_v437 (by decide) (by decide)).trans (w1.trans (congrArg top g5)),
    (read9a M' main_v439 (by decide) (by decide)).trans (w2.trans (congrArg rBottom g11)),
    (read9a M' main_v444 (by decide) (by decide)).trans (w3.trans (congr (congr (congrArg rLeft g0) g4) g11)),
    (read9a M' main_v450 (by decide) (by decide)).trans (w4.trans (congr (congr (congrArg rRight g9) g9) g10))⟩

/-- The top, bottom, left and right strips of face 9, after the reference's operations. -/
theorem rStrips9 (M' : Valuation τ sig (Elt Ideal)) :
    ((StableHlo.after (Cert.ReferenceIdeal.Hand.ops (F := Ideal)) M' (Proc.devRef .tc main_v452) : Cert.ReferenceIdeal.S8x32x2x128.Idx → Elt Ideal .f32)
      = top (face (M' (Proc.devRef .tc main_arg0) : Cert.ReferenceIdeal.S96x32x128x128.Idx → Elt Ideal .f32) 6))
    ∧ ((StableHlo.after (Cert.ReferenceIdeal.Hand.ops (F := Ideal)) M' (Proc.devRef .tc main_v454) : Cert.ReferenceIdeal.S8x32x2x128.Idx → Elt Ideal .f32)
      = rBottom (face (M' (Proc.devRef .tc main_arg0) : Cert.ReferenceIdeal.S96x32x128x128.Idx → Elt Ideal .f32) 8))
    ∧ ((StableHlo.after (Cert.ReferenceIdeal.Hand.ops (F := Ideal)) M' (Proc.devRef .tc main_v459) : Cert.ReferenceIdeal.S8x32x132x2.Idx → Elt Ideal .f32)
      = rLeft (face (M' (Proc.devRef .tc main_arg0) : Cert.ReferenceIdeal.S96x32x128x128.Idx → Elt Ideal .f32) 1) (face (M' (Proc.devRef .tc main_arg0) : Cert.ReferenceIdeal.S96x32x128x128.Idx → Elt Ideal .f32) 5) (face (M' (Proc.devRef .tc main_arg0) : Cert.ReferenceIdeal.S96x32x128x128.Idx → Elt Ideal .f32) 8))
    ∧ ((StableHlo.after (Cert.ReferenceIdeal.Hand.ops (F := Ideal)) M' (Proc.devRef .tc main_v465) : Cert.ReferenceIdeal.S8x32x132x2.Idx → Elt Ideal .f32)
      = rRight (face (M' (Proc.devRef .tc main_arg0) : Cert.ReferenceIdeal.S96x32x128x128.Idx → Elt Ideal .f32) 10) (face (M' (Proc.devRef .tc main_arg0) : Cert.ReferenceIdeal.S96x32x128x128.Idx → Elt Ideal .f32) 10) (face (M' (Proc.devRef .tc main_arg0) : Cert.ReferenceIdeal.S96x32x128x128.Idx → Elt Ideal .f32) 11)) := by
  obtain ⟨g0, g1, g4, g5, g6, g8, g9, g10, g11⟩ := facesAt9a M'
  obtain ⟨w1, w2, w3, w4, w5, w6, w7, w8⟩ := win9a_south (StableHlo.after ops8 (StableHlo.after ops7 (StableHlo.after ops6 (StableHlo.after ops5 (StableHlo.after ops4 (StableHlo.after ops3 (StableHlo.after ops2 (StableHlo.after ops1 (StableHlo.after ops0 M')))))))))
  exact ⟨(read9a M' main_v452 (by decide) (by decide)).trans (w5.trans (congrArg top g6)),
    (read9a M' main_v454 (by decide) (by decide)).trans (w6.trans (congrArg rBottom g8)),
    (read9a M' main_v459 (by decide) (by decide)).trans (w7.trans (congr (congr (congrArg rLeft g1) g5) g8)),
    (read9a M' main_v465 (by decide) (by decide)).trans (w8.trans (congr (congr (congrArg rRight g10) g10) g11))⟩

/-- The top, bottom, left and right strips of face 10, after the reference's operations. -/
theorem rStrips10 (M' : Valuation τ sig (Elt Ideal)) :
    ((StableHlo.after (Cert.ReferenceIdeal.Hand.ops (F := Ideal)) M' (Proc.devRef .tc main_v467) : Cert.ReferenceIdeal.S8x32x2x128.Idx → Elt Ideal .f32)
      = top (face (M' (Proc.devRef .tc main_arg0) : Cert.ReferenceIdeal.S96x32x128x128.Idx → Elt Ideal .f32) 7))
    ∧ ((StableHlo.after (Cert.ReferenceIdeal.Hand.ops (F := Ideal)) M' (Proc.devRef .tc main_v469) : Cert.ReferenceIdeal.S8x32x2x128.Idx → Elt Ideal .f32)
      = rBottom (face (M' (Proc.devRef .tc main_arg0) : Cert.ReferenceIdeal.S96x32x128x128.Idx → Elt Ideal .f32) 9))
    ∧ ((StableHlo.after (Cert.ReferenceIdeal.Hand.ops (F := Ideal)) M' (Proc.devRef .tc main_v474) : Cert.ReferenceIdeal.S8x32x132x2.Idx → Elt Ideal .f32)
      = rLeft (face (M' (Proc.devRef .tc main_arg0) : Cert.ReferenceIdeal.S96x32x128x128.Idx → Elt Ideal .f32) 2) (face (M' (Proc.devRef .tc main_arg0) : Cert.ReferenceIdeal.S96x32x128x128.Idx → Elt Ideal .f32) 6) (face (M' (Proc.devRef .tc main_arg0) : Cert.ReferenceIdeal.S96x32x128x128.Idx → Elt Ideal .f32) 9))
    ∧ ((StableHlo.after (Cert.ReferenceIdeal.Hand.ops (F := Ideal)) M' (Proc.devRef .tc main_v480) : Cert.ReferenceIdeal.S8x32x132x2.Idx → Elt Ideal .f32)
      = rRight (face (M' (Proc.devRef .tc main_arg0) : Cert.ReferenceIdeal.S96x32x128x128.Idx → Elt Ideal .f32) 11) (face (M' (Proc.devRef .tc main_arg0) : Cert.ReferenceIdeal.S96x32x128x128.Idx → Elt Ideal .f32) 11) (face (M' (Proc.devRef .tc main_arg0) : Cert.ReferenceIdeal.S96x32x128x128.Idx → Elt Ideal .f32) 8)) := by
  obtain ⟨g2, g3, g4, g6, g7, g8, g9, g10, g11⟩ := facesAt9b M'
  obtain ⟨w1, w2, w3, w4, w5, w6, w7, w8⟩ := win9b_south (StableHlo.after ops9a (StableHlo.after ops8 (StableHlo.after ops7 (StableHlo.after ops6 (StableHlo.after ops5 (StableHlo.after ops4 (StableHlo.after ops3 (StableHlo.after ops2 (StableHlo.after ops1 (StableHlo.after ops0 M'))))))))))
  exact ⟨(read9b M' main_v467 (by decide)).trans (w1.trans (congrArg top g7)),
    (read9b M' main_v469 (by decide)).trans (w2.trans (congrArg rBottom g9)),
    (read9b M' main_v474 (by decide)).trans (w3.trans (congr (congr (congrArg rLeft g2) g6) g9)),
    (read9b M' main_v480 (by decide)).trans (w4.trans (congr (congr (congrArg rRight g11) g11) g8))⟩

/-- The top, bottom, left and right strips of face 11, after the reference's operations. -/
theorem rStrips11 (M' : Valuation τ sig (Elt Ideal)) :
    ((StableHlo.after (Cert.ReferenceIdeal.Hand.ops (F := Ideal)) M' (Proc.devRef .tc main_v482) : Cert.ReferenceIdeal.S8x32x2x128.Idx → Elt Ideal .f32)
      = top (face (M' (Proc.devRef .tc main_arg0) : Cert.ReferenceIdeal.S96x32x128x128.Idx → Elt Ideal .f32) 4))
    ∧ ((StableHlo.after (Cert.ReferenceIdeal.Hand.ops (F := Ideal)) M' (Proc.devRef .tc main_v484) : Cert.ReferenceIdeal.S8x32x2x128.Idx → Elt Ideal .f32)
      = rBottom (face (M' (Proc.devRef .tc main_arg0) : Cert.ReferenceIdeal.S96x32x128x128.Idx → Elt Ideal .f32) 10))
    ∧ ((StableHlo.after (Cert.ReferenceIdeal.Hand.ops (F := Ideal)) M' (Proc.devRef .tc main_v489) : Cert.ReferenceIdeal.S8x32x132x2.Idx → Elt Ideal .f32)
      = rLeft (face (M' (Proc.devRef .tc main_arg0) : Cert.ReferenceIdeal.S96x32x128x128.Idx → Elt Ideal .f32) 3) (face (M' (Proc.devRef .tc main_arg0) : Cert.ReferenceIdeal.S96x32x128x128.Idx → Elt Ideal .f32) 7) (face (M' (Proc.devRef .tc main_arg0) : Cert.ReferenceIdeal.S96x32x128x128.Idx → Elt Ideal .f32) 10))
    ∧ ((StableHlo.after (Cert.ReferenceIdeal.Hand.ops (F := Ideal)) M' (Proc.devRef .tc main_v495) : Cert.ReferenceIdeal.S8x32x132x2.Idx → Elt Ideal .f32)
      = rRight (face (M' (Proc.devRef .tc main_arg0) : Cert.ReferenceIdeal.S96x32x128x128.Idx → Elt Ideal .f32) 8) (face (M' (Proc.devRef .tc main_arg0) : Cert.ReferenceIdeal.S96x32x128x128.Idx → Elt Ideal .f32) 8) (face (M' (Proc.devRef .tc main_arg0) : Cert.ReferenceIdeal.S96x32x128x128.Idx → Elt Ideal .f32) 9)) := by
  obtain ⟨g2, g3, g4, g6, g7, g8, g9, g10, g11⟩ := facesAt9b M'
  obtain ⟨w1, w2, w3, w4, w5, w6, w7, w8⟩ := win9b_south (StableHlo.after ops9a (StableHlo.after ops8 (StableHlo.after ops7 (StableHlo.after ops6 (StableHlo.after ops5 (StableHlo.after ops4 (StableHlo.after ops3 (StableHlo.after ops2 (StableHlo.after ops1 (StableHlo.after ops0 M'))))))))))
  exact ⟨(read9b M' main_v482 (by decide)).trans (w5.trans (congrArg top g4)),
    (read9b M' main_v484 (by decide)).trans (w6.trans (congrArg rBottom g10)),
    (read9b M' main_v489 (by decide)).trans (w7.trans (congr (congr (congrArg rLeft g3) g7) g10)),
    (read9b M' main_v495 (by decide)).trans (w8.trans (congr (congr (congrArg rRight g8) g8) g9))⟩

end Cert.Strips.R
-- ==== Proof.StripsRP_f.lean ====
/-
  The border strips of the southern faces as the reference program computes them, each as the strip's one function
  of the whole argument.
-/
import proofs.«156783_j90975997264310_2_alg».proof.Proof.StripsRS_f
import proofs.«156783_j90975997264310_2_alg».proof.Proof.KindsFP_f

open Idealize.ShloMosaic Idealize.ShloMosaic.StableHlo Cert.KindsF

namespace Cert.Strips

/-- The top strip of face 8. -/
theorem rtop8 (M' : Valuation Cert.ReferenceIdeal.τ Cert.ReferenceIdeal.sig (Elt Ideal)) :
    (StableHlo.after (Cert.ReferenceIdeal.Hand.ops (F := Ideal)) M' (Proc.devRef .tc Cert.ReferenceIdeal.main_v437) : Cert.ReferenceIdeal.S8x32x2x128.Idx → Elt Ideal .f32)
      = ptop8 (M' (Proc.devRef .tc Cert.ReferenceIdeal.main_arg0)) :=
  (R.rStrips8 M').1

/-- The bottom strip of face 8. -/
theorem rbottom8 (M' : Valuation Cert.ReferenceIdeal.τ Cert.ReferenceIdeal.sig (Elt Ideal)) :
    (StableHlo.after (Cert.ReferenceIdeal.Hand.ops (F := Ideal)) M' (Proc.devRef .tc Cert.ReferenceIdeal.main_v439) : Cert.ReferenceIdeal.S8x32x2x128.Idx → Elt Ideal .f32)
      = pbottom8 (M' (Proc.devRef .tc Cert.ReferenceIdeal.main_arg0)) :=
  (R.rStrips8 M').2.1

/-- The left strip of face 8. -/
theorem rleft8 (M' : Valuation Cert.ReferenceIdeal.τ Cert.ReferenceIdeal.sig (Elt Ideal)) :
    (StableHlo.after (Cert.ReferenceIdeal.Hand.ops (F := Ideal)) M' (Proc.devRef .tc Cert.ReferenceIdeal.main_v444) : Cert.ReferenceIdeal.S8x32x132x2.Idx → Elt Ideal .f32)
      = pleft8 (M' (Proc.devRef .tc Cert.ReferenceIdeal.main_arg0)) :=
  (R.rStrips8 M').2.2.1

/-- The right strip of face 8. -/
theorem rright8 (M' : Valuation Cert.ReferenceIdeal.τ Cert.ReferenceIdeal.sig (Elt Ideal)) :
    (StableHlo.after (Cert.ReferenceIdeal.Hand.ops (F := Ideal)) M' (Proc.devRef .tc Cert.ReferenceIdeal.main_v450) : Cert.ReferenceIdeal.S8x32x132x2.Idx → Elt Ideal .f32)
      = pright8 (M' (Proc.devRef .tc Cert.ReferenceIdeal.main_arg0)) :=
  (R.rStrips8 M').2.2.2

/-- The top strip of face 9. -/
theorem rtop9 (M' : Valuation Cert.ReferenceIdeal.τ Cert.ReferenceIdeal.sig (Elt Ideal)) :
    (StableHlo.after (Cert.ReferenceIdeal.Hand.ops (F := Ideal)) M' (Proc.devRef .tc Cert.ReferenceIdeal.main_v452) : Cert.ReferenceIdeal.S8x32x2x128.Idx → Elt Ideal .f32)
      = ptop9 (M' (Proc.devRef .tc Cert.ReferenceIdeal.main_arg0)) :=
  (R.rStrips9 M').1

/-- The bottom strip of face 9. -/
theorem rbottom9 (M' : Valuation Cert.ReferenceIdeal.τ Cert.ReferenceIdeal.sig (Elt Ideal)) :
    (StableHlo.after (Cert.ReferenceIdeal.Hand.ops (F := Ideal)) M' (Proc.devRef .tc Cert.ReferenceIdeal.main_v454) : Cert.ReferenceIdeal.S8x32x2x128.Idx → Elt Ideal .f32)
      = pbottom9 (M' (Proc.devRef .tc Cert.ReferenceIdeal.main_arg0)) :=
  (R.rStrips9 M').2.1

/-- The left strip of face 9. -/
theorem rleft9 (M' : Valuation Cert.ReferenceIdeal.τ Cert.ReferenceIdeal.sig (Elt Ideal)) :
    (StableHlo.after (Cert.ReferenceIdeal.Hand.ops (F := Ideal)) M' (Proc.devRef .tc Cert.ReferenceIdeal.main_v459) : Cert.ReferenceIdeal.S8x32x132x2.Idx → Elt Ideal .f32)
      = pleft9 (M' (Proc.devRef .tc Cert.ReferenceIdeal.main_arg0)) :=
  (R.rStrips9 M').2.2.1

/-- The right strip of face 9. -/
theorem rright9 (M' : Valuation Cert.ReferenceIdeal.τ Cert.ReferenceIdeal.sig (Elt Ideal)) :
    (StableHlo.after (Cert.ReferenceIdeal.Hand.ops (F := Ideal)) M' (Proc.devRef .tc Cert.ReferenceIdeal.main_v465) : Cert.ReferenceIdeal.S8x32x132x2.Idx → Elt Ideal .f32)
      = pright9 (M' (Proc.devRef .tc Cert.ReferenceIdeal.main_arg0)) :=
  (R.rStrips9 M').2.2.2

/-- The top strip of face 10. -/
theorem rtop10 (M' : Valuation Cert.ReferenceIdeal.τ Cert.ReferenceIdeal.sig (Elt Ideal)) :
    (StableHlo.after (Cert.ReferenceIdeal.Hand.ops (F := Ideal)) M' (Proc.devRef .tc Cert.ReferenceIdeal.main_v467) : Cert.ReferenceIdeal.S8x32x2x128.Idx → Elt Ideal .f32)
      = ptop10 (M' (Proc.devRef .tc Cert.ReferenceIdeal.main_arg0)) :=
  (R.rStrips10 M').1

/-- The bottom strip of face 10. -/
theorem rbottom10 (M' : Valuation Cert.ReferenceIdeal.τ Cert.ReferenceIdeal.sig (Elt Ideal)) :
    (StableHlo.after (Cert.ReferenceIdeal.Hand.ops (F := Ideal)) M' (Proc.devRef .tc Cert.ReferenceIdeal.main_v469) : Cert.ReferenceIdeal.S8x32x2x128.Idx → Elt Ideal .f32)
      = pbottom10 (M' (Proc.devRef .tc Cert.ReferenceIdeal.main_arg0)) :=
  (R.rStrips10 M').2.1

/-- The left strip of face 10. -/
theorem rleft10 (M' : Valuation Cert.ReferenceIdeal.τ Cert.ReferenceIdeal.sig (Elt Ideal)) :
    (StableHlo.after (Cert.ReferenceIdeal.Hand.ops (F := Ideal)) M' (Proc.devRef .tc Cert.ReferenceIdeal.main_v474) : Cert.ReferenceIdeal.S8x32x132x2.Idx → Elt Ideal .f32)
      = pleft10 (M' (Proc.devRef .tc Cert.ReferenceIdeal.main_arg0)) :=
  (R.rStrips10 M').2.2.1

/-- The right strip of face 10. -/
theorem rright10 (M' : Valuation Cert.ReferenceIdeal.τ Cert.ReferenceIdeal.sig (Elt Ideal)) :
    (StableHlo.after (Cert.ReferenceIdeal.Hand.ops (F := Ideal)) M' (Proc.devRef .tc Cert.ReferenceIdeal.main_v480) : Cert.ReferenceIdeal.S8x32x132x2.Idx → Elt Ideal .f32)
      = pright10 (M' (Proc.devRef .tc Cert.ReferenceIdeal.main_arg0)) :=
  (R.rStrips10 M').2.2.2

/-- The top strip of face 11. -/
theorem rtop11 (M' : Valuation Cert.ReferenceIdeal.τ Cert.ReferenceIdeal.sig (Elt Ideal)) :
    (StableHlo.after (Cert.ReferenceIdeal.Hand.ops (F := Ideal)) M' (Proc.devRef .tc Cert.ReferenceIdeal.main_v482) : Cert.ReferenceIdeal.S8x32x2x128.Idx → Elt Ideal .f32)
      = ptop11 (M' (Proc.devRef .tc Cert.ReferenceIdeal.main_arg0)) :=
  (R.rStrips11 M').1

/-- The bottom strip of face 11. -/
theorem rbottom11 (M' : Valuation Cert.ReferenceIdeal.τ Cert.ReferenceIdeal.sig (Elt Ideal)) :
    (StableHlo.after (Cert.ReferenceIdeal.Hand.ops (F := Ideal)) M' (Proc.devRef .tc Cert.ReferenceIdeal.main_v484) : Cert.ReferenceIdeal.S8x32x2x128.Idx → Elt Ideal .f32)
      = pbottom11 (M' (Proc.devRef .tc Cert.ReferenceIdeal.main_arg0)) :=
  (R.rStrips11 M').2.1

/-- The left strip of face 11. -/
theorem rleft11 (M' : Valuation Cert.ReferenceIdeal.τ Cert.ReferenceIdeal.sig (Elt Ideal)) :
    (StableHlo.after (Cert.ReferenceIdeal.Hand.ops (F := Ideal)) M' (Proc.devRef .tc Cert.ReferenceIdeal.main_v489) : Cert.ReferenceIdeal.S8x32x132x2.Idx → Elt Ideal .f32)
      = pleft11 (M' (Proc.devRef .tc Cert.ReferenceIdeal.main_arg0)) :=
  (R.rStrips11 M').2.2.1

/-- The right strip of face 11. -/
theorem rright11 (M' : Valuation Cert.ReferenceIdeal.τ Cert.ReferenceIdeal.sig (Elt Ideal)) :
    (StableHlo.after (Cert.ReferenceIdeal.Hand.ops (F := Ideal)) M' (Proc.devRef .tc Cert.ReferenceIdeal.main_v495) : Cert.ReferenceIdeal.S8x32x132x2.Idx → Elt Ideal .f32)
      = pright11 (M' (Proc.devRef .tc Cert.ReferenceIdeal.main_arg0)) :=
  (R.rStrips11 M').2.2.2

end Cert.Strips
-- ==== Proof.RWin1.lean ====
/-
  Window 1 of the reference's operations, read by itself over an arbitrary valuation `W` of the buffers before it:
  the middles of faces 3; the padded faces 2, 3. Each fact says that a buffer written in the window holds the
  operation's function of its operands' contents, the operands also read through the window. The facts are proved
  together, in one pass over the window's operations.
-/
import proofs.«156783_j90975997264310_2_alg».proof.Proof.RefOps1
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- Window 1's facts: the middles of faces 3; the padded faces 2, 3. -/
theorem win1_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops1 W (Proc.devRef .tc main_v73) : S8x32x132x128.Idx → Elt F .f32)
      = concatenate S8x32x132x128 2 [⟨S8x32x2x128, (StableHlo.after ops1 W (Proc.devRef .tc main_v71) : S8x32x2x128.Idx → Elt F .f32)⟩,
          ⟨S8x32x128x128, (StableHlo.after ops1 W (Proc.devRef .tc main_v8) : S8x32x128x128.Idx → Elt F .f32)⟩,
          ⟨S8x32x2x128, (StableHlo.after ops1 W (Proc.devRef .tc main_v72) : S8x32x2x128.Idx → Elt F .f32)⟩] hc1)
    ∧ ((StableHlo.after ops1 W (Proc.devRef .tc main_v69) : S8x32x132x132.Idx → Elt F .f32)
      = concatenate S8x32x132x132 3 [⟨S8x32x132x2, (StableHlo.after ops1 W (Proc.devRef .tc main_v64) : S8x32x132x2.Idx → Elt F .f32)⟩,
          ⟨S8x32x132x128, (StableHlo.after ops1 W (Proc.devRef .tc main_v58) : S8x32x132x128.Idx → Elt F .f32)⟩,
          ⟨S8x32x132x2, (StableHlo.after ops1 W (Proc.devRef .tc main_v68) : S8x32x132x2.Idx → Elt F .f32)⟩] hc2)
    ∧ ((StableHlo.after ops1 W (Proc.devRef .tc main_v84) : S8x32x132x132.Idx → Elt F .f32)
      = concatenate S8x32x132x132 3 [⟨S8x32x132x2, (StableHlo.after ops1 W (Proc.devRef .tc main_v79) : S8x32x132x2.Idx → Elt F .f32)⟩,
          ⟨S8x32x132x128, (StableHlo.after ops1 W (Proc.devRef .tc main_v73) : S8x32x132x128.Idx → Elt F .f32)⟩,
          ⟨S8x32x132x2, (StableHlo.after ops1 W (Proc.devRef .tc main_v83) : S8x32x132x2.Idx → Elt F .f32)⟩] hc2) := by
  simp only [ops1]
  after_results_simp3
  refine ⟨?_, ?_, ?_⟩ <;> rfl

end Cert.ReferenceIdeal.Hand

end
-- ==== Proof.RStacksB0.lean ====
/-
  Padded faces 0, 1, 2, 3 over the whole line of the reference's operations: each is its left strip, its
  (top, face, bottom) middle and its right strip joined. Each buffer is read off the fold up to its own window, where the
  window's facts apply.
-/
import proofs.«156783_j90975997264310_2_alg».proof.Proof.RStacksA
import proofs.«156783_j90975997264310_2_alg».proof.Proof.RWin0
import proofs.«156783_j90975997264310_2_alg».proof.Proof.RWin1

noncomputable section

namespace Cert.ReferenceIdeal.Hand

open Idealize.ShloMosaic Idealize.ShloMosaic.StableHlo Idealize.ShloMosaic.ValueIdx Cert.ReferenceIdeal Cert.ReferenceIdeal.Gen Cert.LibFaceStack

variable {F : FTy → Type} [FloatOps F]

set_option maxHeartbeats 0 in
/-- Padded faces 0, 1, 2, 3. -/
theorem pads_0 (M' : Valuation τ sig (Elt F)) (hc1 : Shape.Concatenates [S8x32x2x128, S8x32x128x128, S8x32x2x128] S8x32x132x128 2) (hc2 : Shape.Concatenates [S8x32x132x2, S8x32x132x128, S8x32x132x2] S8x32x132x132 3) :
    ((StableHlo.after ops M' (Proc.devRef .tc main_v39) : S8x32x132x132.Idx → Elt F .f32)
      = pad3 hc2 (StableHlo.after ops M' (Proc.devRef .tc main_v34) : S8x32x132x2.Idx → Elt F .f32)
          (mid3 hc1 (StableHlo.after ops M' (Proc.devRef .tc main_v26) : S8x32x2x128.Idx → Elt F .f32) (StableHlo.after ops M' (Proc.devRef .tc main_v2) : S8x32x128x128.Idx → Elt F .f32) (StableHlo.after ops M' (Proc.devRef .tc main_v27) : S8x32x2x128.Idx → Elt F .f32))
          (StableHlo.after ops M' (Proc.devRef .tc main_v38) : S8x32x132x2.Idx → Elt F .f32))
    ∧ ((StableHlo.after ops M' (Proc.devRef .tc main_v54) : S8x32x132x132.Idx → Elt F .f32)
      = pad3 hc2 (StableHlo.after ops M' (Proc.devRef .tc main_v49) : S8x32x132x2.Idx → Elt F .f32)
          (mid3 hc1 (StableHlo.after ops M' (Proc.devRef .tc main_v41) : S8x32x2x128.Idx → Elt F .f32) (StableHlo.after ops M' (Proc.devRef .tc main_v4) : S8x32x128x128.Idx → Elt F .f32) (StableHlo.after ops M' (Proc.devRef .tc main_v42) : S8x32x2x128.Idx → Elt F .f32))
          (StableHlo.after ops M' (Proc.devRef .tc main_v53) : S8x32x132x2.Idx → Elt F .f32))
    ∧ ((StableHlo.after ops M' (Proc.devRef .tc main_v69) : S8x32x132x132.Idx → Elt F .f32)
      = pad3 hc2 (StableHlo.after ops M' (Proc.devRef .tc main_v64) : S8x32x132x2.Idx → Elt F .f32)
          (mid3 hc1 (StableHlo.after ops M' (Proc.devRef .tc main_v56) : S8x32x2x128.Idx → Elt F .f32) (StableHlo.after ops M' (Proc.devRef .tc main_v6) : S8x32x128x128.Idx → Elt F .f32) (StableHlo.after ops M' (Proc.devRef .tc main_v57) : S8x32x2x128.Idx → Elt F .f32))
          (StableHlo.after ops M' (Proc.devRef .tc main_v68) : S8x32x132x2.Idx → Elt F .f32))
    ∧ ((StableHlo.after ops M' (Proc.devRef .tc main_v84) : S8x32x132x132.Idx → Elt F .f32)
      = pad3 hc2 (StableHlo.after ops M' (Proc.devRef .tc main_v79) : S8x32x132x2.Idx → Elt F .f32)
          (mid3 hc1 (StableHlo.after ops M' (Proc.devRef .tc main_v71) : S8x32x2x128.Idx → Elt F .f32) (StableHlo.after ops M' (Proc.devRef .tc main_v8) : S8x32x128x128.Idx → Elt F .f32) (StableHlo.after ops M' (Proc.devRef .tc main_v72) : S8x32x2x128.Idx → Elt F .f32))
          (StableHlo.after ops M' (Proc.devRef .tc main_v83) : S8x32x132x2.Idx → Elt F .f32)) :=
  ⟨((upto0 M' main_v39 (by decide) (by decide) (by decide) (by decide) (by decide) (by decide) (by decide) (by decide) (by decide) (by decide)).trans ((show (StableHlo.after ops0 M' (Proc.devRef .tc main_v39) : S8x32x132x132.Idx → Elt F .f32) = pad3 hc2 (StableHlo.after ops0 M' (Proc.devRef .tc main_v34) : S8x32x132x2.Idx → Elt F .f32) (StableHlo.after ops0 M' (Proc.devRef .tc main_v28) : S8x32x132x128.Idx → Elt F .f32) (StableHlo.after ops0 M' (Proc.devRef .tc main_v38) : S8x32x132x2.Idx → Elt F .f32) from (win0_facts M' hc1 hc2).2.2.2.2.1).trans
      (congr (congr (congrArg (pad3 (α := Elt F .f32) hc2) (upto0 M' main_v34 (by decide) (by decide) (by decide) (by decide) (by decide) (by decide) (by decide) (by decide) (by decide) (by decide)).symm)
        ((upto0 M' main_v28 (by decide) (by decide) (by decide) (by decide) (by decide) (by decide) (by decide) (by decide) (by decide) (by decide)).symm.trans ((upto0 M' main_v28 (by decide) (by decide) (by decide) (by decide) (by decide) (by decide) (by decide) (by decide) (by decide) (by decide)).trans ((show (StableHlo.after ops0 M' (Proc.devRef .tc main_v28) : S8x32x132x128.Idx → Elt F .f32) = mid3 hc1 (StableHlo.after ops0 M' (Proc.devRef .tc main_v26) : S8x32x2x128.Idx → Elt F .f32) (StableHlo.after ops0 M' (Proc.devRef .tc main_v2) : S8x32x128x128.Idx → Elt F .f32) (StableHlo.after ops0 M' (Proc.devRef .tc main_v27) : S8x32x2x128.Idx → Elt F .f32) from (win0_facts M' hc1 hc2).2.1).trans
        (congr (congr (congrArg (mid3 (α := Elt F .f32) hc1) (upto0 M' main_v26 (by decide) (by decide) (by decide) (by decide) (by decide) (by decide) (by decide) (by decide) (by decide) (by decide)).symm) (upto0 M' main_v2 (by decide) (by decide) (by decide) (by decide) (by decide) (by decide) (by decide) (by decide) (by decide) (by decide)).symm) (upto0 M' main_v27 (by decide) (by decide) (by decide) (by decide) (by decide) (by decide) (by decide) (by decide) (by decide) (by decide)).symm))))) (upto0 M' main_v38 (by decide) (by decide) (by decide) (by decide) (by decide) (by decide) (by decide) (by decide) (by decide) (by decide)).symm))),
   ((upto0 M' main_v54 (by decide) (by decide) (by decide) (by decide) (by decide) (by decide) (by decide) (by decide) (by decide) (by decide)).trans ((show (StableHlo.after ops0 M' (Proc.devRef .tc main_v54) : S8x32x132x132.Idx → Elt F .f32) = pad3 hc2 (StableHlo.after ops0 M' (Proc.devRef .tc main_v49) : S8x32x132x2.Idx → Elt F .f32) (StableHlo.after ops0 M' (Proc.devRef .tc main_v43) : S8x32x132x128.Idx → Elt F .f32) (StableHlo.after ops0 M' (Proc.devRef .tc main_v53) : S8x32x132x2.Idx → Elt F .f32) from (win0_facts M' hc1 hc2).2.2.2.2.2).trans
      (congr (congr (congrArg (pad3 (α := Elt F .f32) hc2) (upto0 M' main_v49 (by decide) (by decide) (by decide) (by decide) (by decide) (by decide) (by decide) (by decide) (by decide) (by decide)).symm)
        ((upto0 M' main_v43 (by decide) (by decide) (by decide) (by decide) (by decide) (by decide) (by decide) (by decide) (by decide) (by decide)).symm.trans ((upto0 M' main_v43 (by decide) (by decide) (by decide) (by decide) (by decide) (by decide) (by decide) (by decide) (by decide) (by decide)).trans ((show (StableHlo.after ops0 M' (Proc.devRef .tc main_v43) : S8x32x132x128.Idx → Elt F .f32) = mid3 hc1 (StableHlo.after ops0 M' (Proc.devRef .tc main_v41) : S8x32x2x128.Idx → Elt F .f32) (StableHlo.after ops0 M' (Proc.devRef .tc main_v4) : S8x32x128x128.Idx → Elt F .f32) (StableHlo.after ops0 M' (Proc.devRef .tc main_v42) : S8x32x2x128.Idx → Elt F .f32) from (win0_facts M' hc1 hc2).2.2.1).trans
        (congr (congr (congrArg (mid3 (α := Elt F .f32) hc1) (upto0 M' main_v41 (by decide) (by decide) (by decide) (by decide) (by decide) (by decide) (by decide) (by decide) (by decide) (by decide)).symm) (upto0 M' main_v4 (by decide) (by decide) (by decide) (by decide) (by decide) (by decide) (by decide) (by decide) (by decide) (by decide)).symm) (upto0 M' main_v42 (by decide) (by decide) (by decide) (by decide) (by decide) (by decide) (by decide) (by decide) (by decide) (by decide)).symm))))) (upto0 M' main_v53 (by decide) (by decide) (by decide) (by decide) (by decide) (by decide) (by decide) (by decide) (by decide) (by decide)).symm))),
   ((upto1 M' main_v69 (by decide) (by decide) (by decide) (by decide) (by decide) (by decide) (by decide) (by decide) (by decide)).trans ((show (StableHlo.after ops1 (StableHlo.after ops0 M') (Proc.devRef .tc main_v69) : S8x32x132x132.Idx → Elt F .f32) = pad3 hc2 (StableHlo.after ops1 (StableHlo.after ops0 M') (Proc.devRef .tc main_v64) : S8x32x132x2.Idx → Elt F .f32) (StableHlo.after ops1 (StableHlo.after ops0 M') (Proc.devRef .tc main_v58) : S8x32x132x128.Idx → Elt F .f32) (StableHlo.after ops1 (StableHlo.after ops0 M') (Proc.devRef .tc main_v68) : S8x32x132x2.Idx → Elt F .f32) from (win1_facts (StableHlo.after ops0 M') hc1 hc2).2.1).trans
      (congr (congr (congrArg (pad3 (α := Elt F .f32) hc2) (upto1 M' main_v64 (by decide) (by decide) (by decide) (by decide) (by decide) (by decide) (by decide) (by decide) (by decide)).symm)
        ((upto1 M' main_v58 (by decide) (by decide) (by decide) (by decide) (by decide) (by decide) (by decide) (by decide) (by decide)).symm.trans ((upto0 M' main_v58 (by decide) (by decide) (by decide) (by decide) (by decide) (by decide) (by decide) (by decide) (by decide) (by decide)).trans ((show (StableHlo.after ops0 M' (Proc.devRef .tc main_v58) : S8x32x132x128.Idx → Elt F .f32) = mid3 hc1 (StableHlo.after ops0 M' (Proc.devRef .tc main_v56) : S8x32x2x128.Idx → Elt F .f32) (StableHlo.after ops0 M' (Proc.devRef .tc main_v6) : S8x32x128x128.Idx → Elt F .f32) (StableHlo.after ops0 M' (Proc.devRef .tc main_v57) : S8x32x2x128.Idx → Elt F .f32) from (win0_facts M' hc1 hc2).2.2.2.1).trans
        (congr (congr (congrArg (mid3 (α := Elt F .f32) hc1) (upto0 M' main_v56 (by decide) (by decide) (by decide) (by decide) (by decide) (by decide) (by decide) (by decide) (by decide) (by decide)).symm) (upto0 M' main_v6 (by decide) (by decide) (by decide) (by decide) (by decide) (by decide) (by decide) (by decide) (by decide) (by decide)).symm) (upto0 M' main_v57 (by decide) (by decide) (by decide) (by decide) (by decide) (by decide) (by decide) (by decide) (by decide) (by decide)).symm))))) (upto1 M' main_v68 (by decide) (by decide) (by decide) (by decide) (by decide) (by decide) (by decide) (by decide) (by decide)).symm))),
   ((upto1 M' main_v84 (by decide) (by decide) (by decide) (by decide) (by decide) (by decide) (by decide) (by decide) (by decide)).trans ((show (StableHlo.after ops1 (StableHlo.after ops0 M') (Proc.devRef .tc main_v84) : S8x32x132x132.Idx → Elt F .f32) = pad3 hc2 (StableHlo.after ops1 (StableHlo.after ops0 M') (Proc.devRef .tc main_v79) : S8x32x132x2.Idx → Elt F .f32) (StableHlo.after ops1 (StableHlo.after ops0 M') (Proc.devRef .tc main_v73) : S8x32x132x128.Idx → Elt F .f32) (StableHlo.after ops1 (StableHlo.after ops0 M') (Proc.devRef .tc main_v83) : S8x32x132x2.Idx → Elt F .f32) from (win1_facts (StableHlo.after ops0 M') hc1 hc2).2.2).trans
      (congr (congr (congrArg (pad3 (α := Elt F .f32) hc2) (upto1 M' main_v79 (by decide) (by decide) (by decide) (by decide) (by decide) (by decide) (by decide) (by decide) (by decide)).symm)
        ((upto1 M' main_v73 (by decide) (by decide) (by decide) (by decide) (by decide) (by decide) (by decide) (by decide) (by decide)).symm.trans ((upto1 M' main_v73 (by decide) (by decide) (by decide) (by decide) (by decide) (by decide) (by decide) (by decide) (by decide)).trans ((show (StableHlo.after ops1 (StableHlo.after ops0 M') (Proc.devRef .tc main_v73) : S8x32x132x128.Idx → Elt F .f32) = mid3 hc1 (StableHlo.after ops1 (StableHlo.after ops0 M') (Proc.devRef .tc main_v71) : S8x32x2x128.Idx → Elt F .f32) (StableHlo.after ops1 (StableHlo.after ops0 M') (Proc.devRef .tc main_v8) : S8x32x128x128.Idx → Elt F .f32) (StableHlo.after ops1 (StableHlo.after ops0 M') (Proc.devRef .tc main_v72) : S8x32x2x128.Idx → Elt F .f32) from (win1_facts (StableHlo.after ops0 M') hc1 hc2).1).trans
        (congr (congr (congrArg (mid3 (α := Elt F .f32) hc1) (upto1 M' main_v71 (by decide) (by decide) (by decide) (by decide) (by decide) (by decide) (by decide) (by decide) (by decide)).symm) (upto1 M' main_v8 (by decide) (by decide) (by decide) (by decide) (by decide) (by decide) (by decide) (by decide) (by decide)).symm) (upto1 M' main_v72 (by decide) (by decide) (by decide) (by decide) (by decide) (by decide) (by decide) (by decide) (by decide)).symm))))) (upto1 M' main_v83 (by decide) (by decide) (by decide) (by decide) (by decide) (by decide) (by decide) (by decide) (by decide)).symm)))⟩

end Cert.ReferenceIdeal.Hand

end
-- ==== Proof.RWin3.lean ====
/-
  Window 3 of the reference's operations, read by itself over an arbitrary valuation `W` of the buffers before it:
  the middles of faces 4; the padded faces 4. Each fact says that a buffer written in the window holds the
  operation's function of its operands' contents, the operands also read through the window. The facts are proved
  together, in one pass over the window's operations.
-/
import proofs.«156783_j90975997264310_2_alg».proof.Proof.RefOps3
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- Window 3's facts: the middles of faces 4; the padded faces 4. -/
theorem win3_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops3 W (Proc.devRef .tc main_v165) : S8x32x132x128.Idx → Elt F .f32)
      = concatenate S8x32x132x128 2 [⟨S8x32x2x128, (StableHlo.after ops3 W (Proc.devRef .tc main_v163) : S8x32x2x128.Idx → Elt F .f32)⟩,
          ⟨S8x32x128x128, (StableHlo.after ops3 W (Proc.devRef .tc main_v10) : S8x32x128x128.Idx → Elt F .f32)⟩,
          ⟨S8x32x2x128, (StableHlo.after ops3 W (Proc.devRef .tc main_v164) : S8x32x2x128.Idx → Elt F .f32)⟩] hc1)
    ∧ ((StableHlo.after ops3 W (Proc.devRef .tc main_v172) : S8x32x132x132.Idx → Elt F .f32)
      = concatenate S8x32x132x132 3 [⟨S8x32x132x2, (StableHlo.after ops3 W (Proc.devRef .tc main_v168) : S8x32x132x2.Idx → Elt F .f32)⟩,
          ⟨S8x32x132x128, (StableHlo.after ops3 W (Proc.devRef .tc main_v165) : S8x32x132x128.Idx → Elt F .f32)⟩,
          ⟨S8x32x132x2, (StableHlo.after ops3 W (Proc.devRef .tc main_v171) : S8x32x132x2.Idx → Elt F .f32)⟩] hc2) := by
  simp only [ops3]
  after_results_simp3
  refine ⟨?_, ?_⟩ <;> rfl

end Cert.ReferenceIdeal.Hand

end
-- ==== Proof.RWin5.lean ====
/-
  Window 5 of the reference's operations, read by itself over an arbitrary valuation `W` of the buffers before it:
  the middles of faces 5; the padded faces 5. Each fact says that a buffer written in the window holds the
  operation's function of its operands' contents, the operands also read through the window. The facts are proved
  together, in one pass over the window's operations.
-/
import proofs.«156783_j90975997264310_2_alg».proof.Proof.RefOps5
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- Window 5's facts: the middles of faces 5; the padded faces 5. -/
theorem win5_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops5 W (Proc.devRef .tc main_v253) : S8x32x132x128.Idx → Elt F .f32)
      = concatenate S8x32x132x128 2 [⟨S8x32x2x128, (StableHlo.after ops5 W (Proc.devRef .tc main_v251) : S8x32x2x128.Idx → Elt F .f32)⟩,
          ⟨S8x32x128x128, (StableHlo.after ops5 W (Proc.devRef .tc main_v12) : S8x32x128x128.Idx → Elt F .f32)⟩,
          ⟨S8x32x2x128, (StableHlo.after ops5 W (Proc.devRef .tc main_v252) : S8x32x2x128.Idx → Elt F .f32)⟩] hc1)
    ∧ ((StableHlo.after ops5 W (Proc.devRef .tc main_v260) : S8x32x132x132.Idx → Elt F .f32)
      = concatenate S8x32x132x132 3 [⟨S8x32x132x2, (StableHlo.after ops5 W (Proc.devRef .tc main_v256) : S8x32x132x2.Idx → Elt F .f32)⟩,
          ⟨S8x32x132x128, (StableHlo.after ops5 W (Proc.devRef .tc main_v253) : S8x32x132x128.Idx → Elt F .f32)⟩,
          ⟨S8x32x132x2, (StableHlo.after ops5 W (Proc.devRef .tc main_v259) : S8x32x132x2.Idx → Elt F .f32)⟩] hc2) := by
  simp only [ops5]
  after_results_simp3
  refine ⟨?_, ?_⟩ <;> rfl

end Cert.ReferenceIdeal.Hand

end
-- ==== Proof.RStacksB1a.lean ====
/-
  Padded faces 4 and 5 over the whole line of the reference's operations: each is its left strip, its
  (top, face, bottom) middle and its right strip joined. Each buffer is read off the fold up to its own window, where the
  window's facts apply.
-/
import proofs.«156783_j90975997264310_2_alg».proof.Proof.RStacksA
import proofs.«156783_j90975997264310_2_alg».proof.Proof.RWin3
import proofs.«156783_j90975997264310_2_alg».proof.Proof.RWin5

noncomputable section

namespace Cert.ReferenceIdeal.Hand

open Idealize.ShloMosaic Idealize.ShloMosaic.StableHlo Idealize.ShloMosaic.ValueIdx Cert.ReferenceIdeal Cert.ReferenceIdeal.Gen Cert.LibFaceStack

variable {F : FTy → Type} [FloatOps F]

set_option maxHeartbeats 0 in
/-- Padded faces 4 and 5. -/
theorem pads_1a (M' : Valuation τ sig (Elt F)) (hc1 : Shape.Concatenates [S8x32x2x128, S8x32x128x128, S8x32x2x128] S8x32x132x128 2) (hc2 : Shape.Concatenates [S8x32x132x2, S8x32x132x128, S8x32x132x2] S8x32x132x132 3) :
    ((StableHlo.after ops M' (Proc.devRef .tc main_v172) : S8x32x132x132.Idx → Elt F .f32)
      = pad3 hc2 (StableHlo.after ops M' (Proc.devRef .tc main_v168) : S8x32x132x2.Idx → Elt F .f32)
          (mid3 hc1 (StableHlo.after ops M' (Proc.devRef .tc main_v163) : S8x32x2x128.Idx → Elt F .f32) (StableHlo.after ops M' (Proc.devRef .tc main_v10) : S8x32x128x128.Idx → Elt F .f32) (StableHlo.after ops M' (Proc.devRef .tc main_v164) : S8x32x2x128.Idx → Elt F .f32))
          (StableHlo.after ops M' (Proc.devRef .tc main_v171) : S8x32x132x2.Idx → Elt F .f32))
    ∧ ((StableHlo.after ops M' (Proc.devRef .tc main_v260) : S8x32x132x132.Idx → Elt F .f32)
      = pad3 hc2 (StableHlo.after ops M' (Proc.devRef .tc main_v256) : S8x32x132x2.Idx → Elt F .f32)
          (mid3 hc1 (StableHlo.after ops M' (Proc.devRef .tc main_v251) : S8x32x2x128.Idx → Elt F .f32) (StableHlo.after ops M' (Proc.devRef .tc main_v12) : S8x32x128x128.Idx → Elt F .f32) (StableHlo.after ops M' (Proc.devRef .tc main_v252) : S8x32x2x128.Idx → Elt F .f32))
          (StableHlo.after ops M' (Proc.devRef .tc main_v259) : S8x32x132x2.Idx → Elt F .f32)) :=
  ⟨((upto3 M' main_v172 (by decide) (by decide) (by decide) (by decide) (by decide) (by decide) (by decide)).trans ((show (StableHlo.after ops3 (StableHlo.after ops2 (StableHlo.after ops1 (StableHlo.after ops0 M'))) (Proc.devRef .tc main_v172) : S8x32x132x132.Idx → Elt F .f32) = pad3 hc2 (StableHlo.after ops3 (StableHlo.after ops2 (StableHlo.after ops1 (StableHlo.after ops0 M'))) (Proc.devRef .tc main_v168) : S8x32x132x2.Idx → Elt F .f32) (StableHlo.after ops3 (StableHlo.after ops2 (StableHlo.after ops1 (StableHlo.after ops0 M'))) (Proc.devRef .tc main_v165) : S8x32x132x128.Idx → Elt F .f32) (StableHlo.after ops3 (StableHlo.after ops2 (StableHlo.after ops1 (StableHlo.after ops0 M'))) (Proc.devRef .tc main_v171) : S8x32x132x2.Idx → Elt F .f32) from (win3_facts (StableHlo.after ops2 (StableHlo.after ops1 (StableHlo.after ops0 M'))) hc1 hc2).2).trans
      (congr (congr (congrArg (pad3 (α := Elt F .f32) hc2) (upto3 M' main_v168 (by decide) (by decide) (by decide) (by decide) (by decide) (by decide) (by decide)).symm)
        ((upto3 M' main_v165 (by decide) (by decide) (by decide) (by decide) (by decide) (by decide) (by decide)).symm.trans ((upto3 M' main_v165 (by decide) (by decide) (by decide) (by decide) (by decide) (by decide) (by decide)).trans ((show (StableHlo.after ops3 (StableHlo.after ops2 (StableHlo.after ops1 (StableHlo.after ops0 M'))) (Proc.devRef .tc main_v165) : S8x32x132x128.Idx → Elt F .f32) = mid3 hc1 (StableHlo.after ops3 (StableHlo.after ops2 (StableHlo.after ops1 (StableHlo.after ops0 M'))) (Proc.devRef .tc main_v163) : S8x32x2x128.Idx → Elt F .f32) (StableHlo.after ops3 (StableHlo.after ops2 (StableHlo.after ops1 (StableHlo.after ops0 M'))) (Proc.devRef .tc main_v10) : S8x32x128x128.Idx → Elt F .f32) (StableHlo.after ops3 (StableHlo.after ops2 (StableHlo.after ops1 (StableHlo.after ops0 M'))) (Proc.devRef .tc main_v164) : S8x32x2x128.Idx → Elt F .f32) from (win3_facts (StableHlo.after ops2 (StableHlo.after ops1 (StableHlo.after ops0 M'))) hc1 hc2).1).trans
        (congr (congr (congrArg (mid3 (α := Elt F .f32) hc1) (upto3 M' main_v163 (by decide) (by decide) (by decide) (by decide) (by decide) (by decide) (by decide)).symm) (upto3 M' main_v10 (by decide) (by decide) (by decide) (by decide) (by decide) (by decide) (by decide)).symm) (upto3 M' main_v164 (by decide) (by decide) (by decide) (by decide) (by decide) (by decide) (by decide)).symm))))) (upto3 M' main_v171 (by decide) (by decide) (by decide) (by decide) (by decide) (by decide) (by decide)).symm))),
   ((upto5 M' main_v260 (by decide) (by decide) (by decide) (by decide) (by decide)).trans ((show (StableHlo.after ops5 (StableHlo.after ops4 (StableHlo.after ops3 (StableHlo.after ops2 (StableHlo.after ops1 (StableHlo.after ops0 M'))))) (Proc.devRef .tc main_v260) : S8x32x132x132.Idx → Elt F .f32) = pad3 hc2 (StableHlo.after ops5 (StableHlo.after ops4 (StableHlo.after ops3 (StableHlo.after ops2 (StableHlo.after ops1 (StableHlo.after ops0 M'))))) (Proc.devRef .tc main_v256) : S8x32x132x2.Idx → Elt F .f32) (StableHlo.after ops5 (StableHlo.after ops4 (StableHlo.after ops3 (StableHlo.after ops2 (StableHlo.after ops1 (StableHlo.after ops0 M'))))) (Proc.devRef .tc main_v253) : S8x32x132x128.Idx → Elt F .f32) (StableHlo.after ops5 (StableHlo.after ops4 (StableHlo.after ops3 (StableHlo.after ops2 (StableHlo.after ops1 (StableHlo.after ops0 M'))))) (Proc.devRef .tc main_v259) : S8x32x132x2.Idx → Elt F .f32) from (win5_facts (StableHlo.after ops4 (StableHlo.after ops3 (StableHlo.after ops2 (StableHlo.after ops1 (StableHlo.after ops0 M'))))) hc1 hc2).2).trans
      (congr (congr (congrArg (pad3 (α := Elt F .f32) hc2) (upto5 M' main_v256 (by decide) (by decide) (by decide) (by decide) (by decide)).symm)
        ((upto5 M' main_v253 (by decide) (by decide) (by decide) (by decide) (by decide)).symm.trans ((upto5 M' main_v253 (by decide) (by decide) (by decide) (by decide) (by decide)).trans ((show (StableHlo.after ops5 (StableHlo.after ops4 (StableHlo.after ops3 (StableHlo.after ops2 (StableHlo.after ops1 (StableHlo.after ops0 M'))))) (Proc.devRef .tc main_v253) : S8x32x132x128.Idx → Elt F .f32) = mid3 hc1 (StableHlo.after ops5 (StableHlo.after ops4 (StableHlo.after ops3 (StableHlo.after ops2 (StableHlo.after ops1 (StableHlo.after ops0 M'))))) (Proc.devRef .tc main_v251) : S8x32x2x128.Idx → Elt F .f32) (StableHlo.after ops5 (StableHlo.after ops4 (StableHlo.after ops3 (StableHlo.after ops2 (StableHlo.after ops1 (StableHlo.after ops0 M'))))) (Proc.devRef .tc main_v12) : S8x32x128x128.Idx → Elt F .f32) (StableHlo.after ops5 (StableHlo.after ops4 (StableHlo.after ops3 (StableHlo.after ops2 (StableHlo.after ops1 (StableHlo.after ops0 M'))))) (Proc.devRef .tc main_v252) : S8x32x2x128.Idx → Elt F .f32) from (win5_facts (StableHlo.after ops4 (StableHlo.after ops3 (StableHlo.after ops2 (StableHlo.after ops1 (StableHlo.after ops0 M'))))) hc1 hc2).1).trans
        (congr (congr (congrArg (mid3 (α := Elt F .f32) hc1) (upto5 M' main_v251 (by decide) (by decide) (by decide) (by decide) (by decide)).symm) (upto5 M' main_v12 (by decide) (by decide) (by decide) (by decide) (by decide)).symm) (upto5 M' main_v252 (by decide) (by decide) (by decide) (by decide) (by decide)).symm))))) (upto5 M' main_v259 (by decide) (by decide) (by decide) (by decide) (by decide)).symm)))⟩

end Cert.ReferenceIdeal.Hand

end
-- ==== Proof.RWin6.lean ====
/-
  Window 6 of the reference's operations, read by itself over an arbitrary valuation `W` of the buffers before it:
  the middles of faces 6. Each fact says that a buffer written in the window holds the
  operation's function of its operands' contents, the operands also read through the window. The facts are proved
  together, in one pass over the window's operations.
-/
import proofs.«156783_j90975997264310_2_alg».proof.Proof.RefOps6
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- Window 6's facts: the middles of faces 6. -/
theorem win6_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops6 W (Proc.devRef .tc main_v341) : S8x32x132x128.Idx → Elt F .f32)
      = concatenate S8x32x132x128 2 [⟨S8x32x2x128, (StableHlo.after ops6 W (Proc.devRef .tc main_v339) : S8x32x2x128.Idx → Elt F .f32)⟩,
          ⟨S8x32x128x128, (StableHlo.after ops6 W (Proc.devRef .tc main_v14) : S8x32x128x128.Idx → Elt F .f32)⟩,
          ⟨S8x32x2x128, (StableHlo.after ops6 W (Proc.devRef .tc main_v340) : S8x32x2x128.Idx → Elt F .f32)⟩] hc1) := by
  simp only [ops6]
  after_results_simp3
  rfl

end Cert.ReferenceIdeal.Hand

end
-- ==== Proof.RWin7.lean ====
/-
  Window 7 of the reference's operations, read by itself over an arbitrary valuation `W` of the buffers before it:
  the padded faces 6. Each fact says that a buffer written in the window holds the
  operation's function of its operands' contents, the operands also read through the window. The facts are proved
  together, in one pass over the window's operations.
-/
import proofs.«156783_j90975997264310_2_alg».proof.Proof.RefOps7
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- Window 7's facts: the padded faces 6. -/
theorem win7_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops7 W (Proc.devRef .tc main_v348) : S8x32x132x132.Idx → Elt F .f32)
      = concatenate S8x32x132x132 3 [⟨S8x32x132x2, (StableHlo.after ops7 W (Proc.devRef .tc main_v344) : S8x32x132x2.Idx → Elt F .f32)⟩,
          ⟨S8x32x132x128, (StableHlo.after ops7 W (Proc.devRef .tc main_v341) : S8x32x132x128.Idx → Elt F .f32)⟩,
          ⟨S8x32x132x2, (StableHlo.after ops7 W (Proc.devRef .tc main_v347) : S8x32x132x2.Idx → Elt F .f32)⟩] hc2) := by
  simp only [ops7]
  after_results_simp3
  rfl

end Cert.ReferenceIdeal.Hand

end
-- ==== Proof.RWin8.lean ====
/-
  Window 8 of the reference's operations, read by itself over an arbitrary valuation `W` of the buffers before it:
  the middles of faces 7. Each fact says that a buffer written in the window holds the
  operation's function of its operands' contents, the operands also read through the window. The facts are proved
  together, in one pass over the window's operations.
-/
import proofs.«156783_j90975997264310_2_alg».proof.Proof.RefOps8
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- Window 8's facts: the middles of faces 7. -/
theorem win8_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops8 W (Proc.devRef .tc main_v429) : S8x32x132x128.Idx → Elt F .f32)
      = concatenate S8x32x132x128 2 [⟨S8x32x2x128, (StableHlo.after ops8 W (Proc.devRef .tc main_v427) : S8x32x2x128.Idx → Elt F .f32)⟩,
          ⟨S8x32x128x128, (StableHlo.after ops8 W (Proc.devRef .tc main_v16) : S8x32x128x128.Idx → Elt F .f32)⟩,
          ⟨S8x32x2x128, (StableHlo.after ops8 W (Proc.devRef .tc main_v428) : S8x32x2x128.Idx → Elt F .f32)⟩] hc1) := by
  simp only [ops8]
  after_results_simp3
  rfl

end Cert.ReferenceIdeal.Hand

end
-- ==== Proof.RWin9a.lean ====
/-
  The first half of window 9 of the reference's operations, read by itself over an arbitrary valuation `W` of the
  buffers before it: the middle of face 8, the middle of face 9, padded face 7, padded face 8. Each fact says that a buffer written in the half holds the operation's function of its
  operands' contents, the operands also read through the half. Proved together, in one pass over the half's operations.
-/
import proofs.«156783_j90975997264310_2_alg».proof.Proof.RefOps9a
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- The half's facts: the middle of face 8, the middle of face 9, padded face 7, padded face 8. -/
theorem win9a_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops9a W (Proc.devRef .tc main_v440) : S8x32x132x128.Idx → Elt F .f32)
      = concatenate S8x32x132x128 2 [⟨S8x32x2x128, (StableHlo.after ops9a W (Proc.devRef .tc main_v437) : S8x32x2x128.Idx → Elt F .f32)⟩,
          ⟨S8x32x128x128, (StableHlo.after ops9a W (Proc.devRef .tc main_v18) : S8x32x128x128.Idx → Elt F .f32)⟩,
          ⟨S8x32x2x128, (StableHlo.after ops9a W (Proc.devRef .tc main_v439) : S8x32x2x128.Idx → Elt F .f32)⟩] hc1)
    ∧ ((StableHlo.after ops9a W (Proc.devRef .tc main_v455) : S8x32x132x128.Idx → Elt F .f32)
      = concatenate S8x32x132x128 2 [⟨S8x32x2x128, (StableHlo.after ops9a W (Proc.devRef .tc main_v452) : S8x32x2x128.Idx → Elt F .f32)⟩,
          ⟨S8x32x128x128, (StableHlo.after ops9a W (Proc.devRef .tc main_v20) : S8x32x128x128.Idx → Elt F .f32)⟩,
          ⟨S8x32x2x128, (StableHlo.after ops9a W (Proc.devRef .tc main_v454) : S8x32x2x128.Idx → Elt F .f32)⟩] hc1)
    ∧ ((StableHlo.after ops9a W (Proc.devRef .tc main_v436) : S8x32x132x132.Idx → Elt F .f32)
      = concatenate S8x32x132x132 3 [⟨S8x32x132x2, (StableHlo.after ops9a W (Proc.devRef .tc main_v432) : S8x32x132x2.Idx → Elt F .f32)⟩,
          ⟨S8x32x132x128, (StableHlo.after ops9a W (Proc.devRef .tc main_v429) : S8x32x132x128.Idx → Elt F .f32)⟩,
          ⟨S8x32x132x2, (StableHlo.after ops9a W (Proc.devRef .tc main_v435) : S8x32x132x2.Idx → Elt F .f32)⟩] hc2)
    ∧ ((StableHlo.after ops9a W (Proc.devRef .tc main_v451) : S8x32x132x132.Idx → Elt F .f32)
      = concatenate S8x32x132x132 3 [⟨S8x32x132x2, (StableHlo.after ops9a W (Proc.devRef .tc main_v444) : S8x32x132x2.Idx → Elt F .f32)⟩,
          ⟨S8x32x132x128, (StableHlo.after ops9a W (Proc.devRef .tc main_v440) : S8x32x132x128.Idx → Elt F .f32)⟩,
          ⟨S8x32x132x2, (StableHlo.after ops9a W (Proc.devRef .tc main_v450) : S8x32x132x2.Idx → Elt F .f32)⟩] hc2) := by
  simp only [ops9a]
  after_results_simp3
  refine ⟨?_, ?_, ?_, ?_⟩ <;> rfl

end Cert.ReferenceIdeal.Hand

end
-- ==== Proof.RWin9b.lean ====
/-
  The second half of window 9 of the reference's operations, read by itself over an arbitrary valuation `W` of the
  buffers before it: the middle of face 10, the middle of face 11, padded face 9, padded face 10. Each fact says that a buffer written in the half holds the operation's function of its
  operands' contents, the operands also read through the half. Proved together, in one pass over the half's operations.
-/
import proofs.«156783_j90975997264310_2_alg».proof.Proof.RefOps9b
import proofs.«156783_j90975997264310_2_alg».proof.Proof.LibNary3

noncomputable section

namespace Cert.ReferenceIdeal.Hand

open Idealize.ShloMosaic Idealize.ShloMosaic.StableHlo Cert.ReferenceIdeal Cert.ReferenceIdeal.Gen Cert.LibNary3

variable {F : FTy → Type} [FloatOps F]

set_option maxHeartbeats 0 in
set_option maxRecDepth 100000 in
/-- The half's facts: the middle of face 10, the middle of face 11, padded face 9, padded face 10. -/
theorem win9b_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops9b W (Proc.devRef .tc main_v470) : S8x32x132x128.Idx → Elt F .f32)
      = concatenate S8x32x132x128 2 [⟨S8x32x2x128, (StableHlo.after ops9b W (Proc.devRef .tc main_v467) : S8x32x2x128.Idx → Elt F .f32)⟩,
          ⟨S8x32x128x128, (StableHlo.after ops9b W (Proc.devRef .tc main_v22) : S8x32x128x128.Idx → Elt F .f32)⟩,
          ⟨S8x32x2x128, (StableHlo.after ops9b W (Proc.devRef .tc main_v469) : S8x32x2x128.Idx → Elt F .f32)⟩] hc1)
    ∧ ((StableHlo.after ops9b W (Proc.devRef .tc main_v485) : S8x32x132x128.Idx → Elt F .f32)
      = concatenate S8x32x132x128 2 [⟨S8x32x2x128, (StableHlo.after ops9b W (Proc.devRef .tc main_v482) : S8x32x2x128.Idx → Elt F .f32)⟩,
          ⟨S8x32x128x128, (StableHlo.after ops9b W (Proc.devRef .tc main_v24) : S8x32x128x128.Idx → Elt F .f32)⟩,
          ⟨S8x32x2x128, (StableHlo.after ops9b W (Proc.devRef .tc main_v484) : S8x32x2x128.Idx → Elt F .f32)⟩] hc1)
    ∧ ((StableHlo.after ops9b W (Proc.devRef .tc main_v466) : S8x32x132x132.Idx → Elt F .f32)
      = concatenate S8x32x132x132 3 [⟨S8x32x132x2, (StableHlo.after ops9b W (Proc.devRef .tc main_v459) : S8x32x132x2.Idx → Elt F .f32)⟩,
          ⟨S8x32x132x128, (StableHlo.after ops9b W (Proc.devRef .tc main_v455) : S8x32x132x128.Idx → Elt F .f32)⟩,
          ⟨S8x32x132x2, (StableHlo.after ops9b W (Proc.devRef .tc main_v465) : S8x32x132x2.Idx → Elt F .f32)⟩] hc2)
    ∧ ((StableHlo.after ops9b W (Proc.devRef .tc main_v481) : S8x32x132x132.Idx → Elt F .f32)
      = concatenate S8x32x132x132 3 [⟨S8x32x132x2, (StableHlo.after ops9b W (Proc.devRef .tc main_v474) : S8x32x132x2.Idx → Elt F .f32)⟩,
          ⟨S8x32x132x128, (StableHlo.after ops9b W (Proc.devRef .tc main_v470) : S8x32x132x128.Idx → Elt F .f32)⟩,
          ⟨S8x32x132x2, (StableHlo.after ops9b W (Proc.devRef .tc main_v480) : S8x32x132x2.Idx → Elt F .f32)⟩] hc2) := by
  simp only [ops9b]
  after_results_simp3
  refine ⟨?_, ?_, ?_, ?_⟩ <;> rfl

end Cert.ReferenceIdeal.Hand

end
-- ==== Proof.RWin9.lean ====
/-
  Window 9 of the reference's operations, read by itself over an arbitrary valuation `W` of the buffers before it:
  the middles of faces 8, 9, 10, 11; the padded faces 7, 8, 9, 10. The window is its two halves run in turn: a buffer the
  second half does not write is read through the first half alone, and every buffer is read through the second half over
  what the first leaves; the facts are the halves' facts.
-/
import proofs.«156783_j90975997264310_2_alg».proof.Proof.RefOps9
import proofs.«156783_j90975997264310_2_alg».proof.Proof.RWin9a
import proofs.«156783_j90975997264310_2_alg».proof.Proof.RWin9b
import Idealize.ShloMosaic.Lib.Pipeline.Frame

noncomputable section

namespace Cert.ReferenceIdeal.Hand

open Idealize.ShloMosaic Idealize.ShloMosaic.StableHlo Cert.ReferenceIdeal Cert.ReferenceIdeal.Gen

variable {F : FTy → Type} [FloatOps F]

/-- A buffer the second half does not write is read through the first half alone. -/
theorem in9a (W : Valuation τ sig (Elt F)) (r : Ref sig .tc) (h : r ∉ ops9b_W) :
    StableHlo.after ops9 W (Proc.devRef .tc r) = StableHlo.after ops9a W (Proc.devRef .tc r) := by
  show StableHlo.after (ops9a ++ ops9b) W _ = _
  rw [StableHlo.after_append, StableHlo.after_of_writes_sub ops9b _ ops9b_writes h]

/-- Every buffer is read through the second half over what the first half leaves. -/
theorem in9b (W : Valuation τ sig (Elt F)) (r : Ref sig .tc) :
    StableHlo.after ops9 W (Proc.devRef .tc r) = StableHlo.after ops9b (StableHlo.after ops9a W) (Proc.devRef .tc r) := by
  show StableHlo.after (ops9a ++ ops9b) W _ = _
  rw [StableHlo.after_append]

/-- Window 9's facts: the middles of faces 8, 9, 10, 11; the padded faces 7, 8, 9, 10. -/
theorem win9_facts (W : Valuation τ sig (Elt F))
    (hc1 : Shape.Concatenates [S8x32x2x128, S8x32x128x128, S8x32x2x128] S8x32x132x128 2)
    (hc2 : Shape.Concatenates [S8x32x132x2, S8x32x132x128, S8x32x132x2] S8x32x132x132 3) :
    ((StableHlo.after ops9 W (Proc.devRef .tc main_v440) : S8x32x132x128.Idx → Elt F .f32)
      = concatenate S8x32x132x128 2 [⟨S8x32x2x128, (StableHlo.after ops9 W (Proc.devRef .tc main_v437) : S8x32x2x128.Idx → Elt F .f32)⟩,
          ⟨S8x32x128x128, (StableHlo.after ops9 W (Proc.devRef .tc main_v18) : S8x32x128x128.Idx → Elt F .f32)⟩,
          ⟨S8x32x2x128, (StableHlo.after ops9 W (Proc.devRef .tc main_v439) : S8x32x2x128.Idx → Elt F .f32)⟩] hc1)
    ∧ ((StableHlo.after ops9 W (Proc.devRef .tc main_v455) : S8x32x132x128.Idx → Elt F .f32)
      = concatenate S8x32x132x128 2 [⟨S8x32x2x128, (StableHlo.after ops9 W (Proc.devRef .tc main_v452) : S8x32x2x128.Idx → Elt F .f32)⟩,
          ⟨S8x32x128x128, (StableHlo.after ops9 W (Proc.devRef .tc main_v20) : S8x32x128x128.Idx → Elt F .f32)⟩,
          ⟨S8x32x2x128, (StableHlo.after ops9 W (Proc.devRef .tc main_v454) : S8x32x2x128.Idx → Elt F .f32)⟩] hc1)
    ∧ ((StableHlo.after ops9 W (Proc.devRef .tc main_v470) : S8x32x132x128.Idx → Elt F .f32)
      = concatenate S8x32x132x128 2 [⟨S8x32x2x128, (StableHlo.after ops9 W (Proc.devRef .tc main_v467) : S8x32x2x128.Idx → Elt F .f32)⟩,
          ⟨S8x32x128x128, (StableHlo.after ops9 W (Proc.devRef .tc main_v22) : S8x32x128x128.Idx → Elt F .f32)⟩,
          ⟨S8x32x2x128, (StableHlo.after ops9 W (Proc.devRef .tc main_v469) : S8x32x2x128.Idx → Elt F .f32)⟩] hc1)
    ∧ ((StableHlo.after ops9 W (Proc.devRef .tc main_v485) : S8x32x132x128.Idx → Elt F .f32)
      = concatenate S8x32x132x128 2 [⟨S8x32x2x128, (StableHlo.after ops9 W (Proc.devRef .tc main_v482) : S8x32x2x128.Idx → Elt F .f32)⟩,
          ⟨S8x32x128x128, (StableHlo.after ops9 W (Proc.devRef .tc main_v24) : S8x32x128x128.Idx → Elt F .f32)⟩,
          ⟨S8x32x2x128, (StableHlo.after ops9 W (Proc.devRef .tc main_v484) : S8x32x2x128.Idx → Elt F .f32)⟩] hc1)
    ∧ ((StableHlo.after ops9 W (Proc.devRef .tc main_v436) : S8x32x132x132.Idx → Elt F .f32)
      = concatenate S8x32x132x132 3 [⟨S8x32x132x2, (StableHlo.after ops9 W (Proc.devRef .tc main_v432) : S8x32x132x2.Idx → Elt F .f32)⟩,
          ⟨S8x32x132x128, (StableHlo.after ops9 W (Proc.devRef .tc main_v429) : S8x32x132x128.Idx → Elt F .f32)⟩,
          ⟨S8x32x132x2, (StableHlo.after ops9 W (Proc.devRef .tc main_v435) : S8x32x132x2.Idx → Elt F .f32)⟩] hc2)
    ∧ ((StableHlo.after ops9 W (Proc.devRef .tc main_v451) : S8x32x132x132.Idx → Elt F .f32)
      = concatenate S8x32x132x132 3 [⟨S8x32x132x2, (StableHlo.after ops9 W (Proc.devRef .tc main_v444) : S8x32x132x2.Idx → Elt F .f32)⟩,
          ⟨S8x32x132x128, (StableHlo.after ops9 W (Proc.devRef .tc main_v440) : S8x32x132x128.Idx → Elt F .f32)⟩,
          ⟨S8x32x132x2, (StableHlo.after ops9 W (Proc.devRef .tc main_v450) : S8x32x132x2.Idx → Elt F .f32)⟩] hc2)
    ∧ ((StableHlo.after ops9 W (Proc.devRef .tc main_v466) : S8x32x132x132.Idx → Elt F .f32)
      = concatenate S8x32x132x132 3 [⟨S8x32x132x2, (StableHlo.after ops9 W (Proc.devRef .tc main_v459) : S8x32x132x2.Idx → Elt F .f32)⟩,
          ⟨S8x32x132x128, (StableHlo.after ops9 W (Proc.devRef .tc main_v455) : S8x32x132x128.Idx → Elt F .f32)⟩,
          ⟨S8x32x132x2, (StableHlo.after ops9 W (Proc.devRef .tc main_v465) : S8x32x132x2.Idx → Elt F .f32)⟩] hc2)
    ∧ ((StableHlo.after ops9 W (Proc.devRef .tc main_v481) : S8x32x132x132.Idx → Elt F .f32)
      = concatenate S8x32x132x132 3 [⟨S8x32x132x2, (StableHlo.after ops9 W (Proc.devRef .tc main_v474) : S8x32x132x2.Idx → Elt F .f32)⟩,
          ⟨S8x32x132x128, (StableHlo.after ops9 W (Proc.devRef .tc main_v470) : S8x32x132x128.Idx → Elt F .f32)⟩,
          ⟨S8x32x132x2, (StableHlo.after ops9 W (Proc.devRef .tc main_v480) : S8x32x132x2.Idx → Elt F .f32)⟩] hc2) := by
  refine ⟨?_, ?_, ?_, ?_, ?_, ?_, ?_, ?_⟩
  · rw [in9a W main_v440 (by decide), in9a W main_v437 (by decide), in9a W main_v18 (by decide), in9a W main_v439 (by decide)]
    exact (win9a_facts W hc1 hc2).1
  · rw [in9a W main_v455 (by decide), in9a W main_v452 (by decide), in9a W main_v20 (by decide), in9a W main_v454 (by decide)]
    exact (win9a_facts W hc1 hc2).2.1
  · rw [in9b W main_v470, in9b W main_v467, in9b W main_v22, in9b W main_v469]
    exact (win9b_facts (StableHlo.after ops9a W) hc1 hc2).1
  · rw [in9b W main_v485, in9b W main_v482, in9b W main_v24, in9b W main_v484]
    exact (win9b_facts (StableHlo.after ops9a W) hc1 hc2).2.1
  · rw [in9a W main_v436 (by decide), in9a W main_v432 (by decide), in9a W main_v429 (by decide), in9a W main_v435 (by decide)]
    exact (win9a_facts W hc1 hc2).2.2.1
  · rw [in9a W main_v451 (by decide), in9a W main_v444 (by decide), in9a W main_v440 (by decide), in9a W main_v450 (by decide)]
    exact (win9a_facts W hc1 hc2).2.2.2
  · rw [in9b W main_v466, in9b W main_v459, in9b W main_v455, in9b W main_v465]
    exact (win9b_facts (StableHlo.after ops9a W) hc1 hc2).2.2.1
  · rw [in9b W main_v481, in9b W main_v474, in9b W main_v470, in9b W main_v480]
    exact (win9b_facts (StableHlo.after ops9a W) hc1 hc2).2.2.2

end Cert.ReferenceIdeal.Hand

end
-- ==== Proof.RStacksB1b.lean ====
/-
  Padded faces 6 and 7 over the whole line of the reference's operations: each is its left strip, its
  (top, face, bottom) middle and its right strip joined. Each buffer is read off the fold up to its own window, where the
  window's facts apply.
-/
import proofs.«156783_j90975997264310_2_alg».proof.Proof.RStacksA
import proofs.«156783_j90975997264310_2_alg».proof.Proof.RStacksB0
import proofs.«156783_j90975997264310_2_alg».proof.Proof.RWin6
import proofs.«156783_j90975997264310_2_alg».proof.Proof.RWin7
import proofs.«156783_j90975997264310_2_alg».proof.Proof.RWin8
import proofs.«156783_j90975997264310_2_alg».proof.Proof.RWin9

noncomputable section

namespace Cert.ReferenceIdeal.Hand

open Idealize.ShloMosaic Idealize.ShloMosaic.StableHlo Idealize.ShloMosaic.ValueIdx Cert.ReferenceIdeal Cert.ReferenceIdeal.Gen Cert.LibFaceStack

variable {F : FTy → Type} [FloatOps F]

set_option maxHeartbeats 0 in
/-- Padded faces 6 and 7. -/
theorem pads_1b (M' : Valuation τ sig (Elt F)) (hc1 : Shape.Concatenates [S8x32x2x128, S8x32x128x128, S8x32x2x128] S8x32x132x128 2) (hc2 : Shape.Concatenates [S8x32x132x2, S8x32x132x128, S8x32x132x2] S8x32x132x132 3) :
    ((StableHlo.after ops M' (Proc.devRef .tc main_v348) : S8x32x132x132.Idx → Elt F .f32)
      = pad3 hc2 (StableHlo.after ops M' (Proc.devRef .tc main_v344) : S8x32x132x2.Idx → Elt F .f32)
          (mid3 hc1 (StableHlo.after ops M' (Proc.devRef .tc main_v339) : S8x32x2x128.Idx → Elt F .f32) (StableHlo.after ops M' (Proc.devRef .tc main_v14) : S8x32x128x128.Idx → Elt F .f32) (StableHlo.after ops M' (Proc.devRef .tc main_v340) : S8x32x2x128.Idx → Elt F .f32))
          (StableHlo.after ops M' (Proc.devRef .tc main_v347) : S8x32x132x2.Idx → Elt F .f32))
    ∧ ((StableHlo.after ops M' (Proc.devRef .tc main_v436) : S8x32x132x132.Idx → Elt F .f32)
      = pad3 hc2 (StableHlo.after ops M' (Proc.devRef .tc main_v432) : S8x32x132x2.Idx → Elt F .f32)
          (mid3 hc1 (StableHlo.after ops M' (Proc.devRef .tc main_v427) : S8x32x2x128.Idx → Elt F .f32) (StableHlo.after ops M' (Proc.devRef .tc main_v16) : S8x32x128x128.Idx → Elt F .f32) (StableHlo.after ops M' (Proc.devRef .tc main_v428) : S8x32x2x128.Idx → Elt F .f32))
          (StableHlo.after ops M' (Proc.devRef .tc main_v435) : S8x32x132x2.Idx → Elt F .f32)) :=
  ⟨((upto7 M' main_v348 (by decide) (by decide) (by decide)).trans ((show (StableHlo.after ops7 (StableHlo.after ops6 (StableHlo.after ops5 (StableHlo.after ops4 (StableHlo.after ops3 (StableHlo.after ops2 (StableHlo.after ops1 (StableHlo.after ops0 M'))))))) (Proc.devRef .tc main_v348) : S8x32x132x132.Idx → Elt F .f32) = pad3 hc2 (StableHlo.after ops7 (StableHlo.after ops6 (StableHlo.after ops5 (StableHlo.after ops4 (StableHlo.after ops3 (StableHlo.after ops2 (StableHlo.after ops1 (StableHlo.after ops0 M'))))))) (Proc.devRef .tc main_v344) : S8x32x132x2.Idx → Elt F .f32) (StableHlo.after ops7 (StableHlo.after ops6 (StableHlo.after ops5 (StableHlo.after ops4 (StableHlo.after ops3 (StableHlo.after ops2 (StableHlo.after ops1 (StableHlo.after ops0 M'))))))) (Proc.devRef .tc main_v341) : S8x32x132x128.Idx → Elt F .f32) (StableHlo.after ops7 (StableHlo.after ops6 (StableHlo.after ops5 (StableHlo.after ops4 (StableHlo.after ops3 (StableHlo.after ops2 (StableHlo.after ops1 (StableHlo.after ops0 M'))))))) (Proc.devRef .tc main_v347) : S8x32x132x2.Idx → Elt F .f32) from (win7_facts (StableHlo.after ops6 (StableHlo.after ops5 (StableHlo.after ops4 (StableHlo.after ops3 (StableHlo.after ops2 (StableHlo.after ops1 (StableHlo.after ops0 M'))))))) hc1 hc2)).trans
      (congr (congr (congrArg (pad3 (α := Elt F .f32) hc2) (upto7 M' main_v344 (by decide) (by decide) (by decide)).symm)
        ((upto7 M' main_v341 (by decide) (by decide) (by decide)).symm.trans ((upto6 M' main_v341 (by decide) (by decide) (by decide) (by decide)).trans ((show (StableHlo.after ops6 (StableHlo.after ops5 (StableHlo.after ops4 (StableHlo.after ops3 (StableHlo.after ops2 (StableHlo.after ops1 (StableHlo.after ops0 M')))))) (Proc.devRef .tc main_v341) : S8x32x132x128.Idx → Elt F .f32) = mid3 hc1 (StableHlo.after ops6 (StableHlo.after ops5 (StableHlo.after ops4 (StableHlo.after ops3 (StableHlo.after ops2 (StableHlo.after ops1 (StableHlo.after ops0 M')))))) (Proc.devRef .tc main_v339) : S8x32x2x128.Idx → Elt F .f32) (StableHlo.after ops6 (StableHlo.after ops5 (StableHlo.after ops4 (StableHlo.after ops3 (StableHlo.after ops2 (StableHlo.after ops1 (StableHlo.after ops0 M')))))) (Proc.devRef .tc main_v14) : S8x32x128x128.Idx → Elt F .f32) (StableHlo.after ops6 (StableHlo.after ops5 (StableHlo.after ops4 (StableHlo.after ops3 (StableHlo.after ops2 (StableHlo.after ops1 (StableHlo.after ops0 M')))))) (Proc.devRef .tc main_v340) : S8x32x2x128.Idx → Elt F .f32) from (win6_facts (StableHlo.after ops5 (StableHlo.after ops4 (StableHlo.after ops3 (StableHlo.after ops2 (StableHlo.after ops1 (StableHlo.after ops0 M')))))) hc1 hc2)).trans
        (congr (congr (congrArg (mid3 (α := Elt F .f32) hc1) (upto6 M' main_v339 (by decide) (by decide) (by decide) (by decide)).symm) (upto6 M' main_v14 (by decide) (by decide) (by decide) (by decide)).symm) (upto6 M' main_v340 (by decide) (by decide) (by decide) (by decide)).symm))))) (upto7 M' main_v347 (by decide) (by decide) (by decide)).symm))),
   ((upto9 M' main_v436 (by decide)).trans ((show (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v436) : S8x32x132x132.Idx → Elt F .f32) = pad3 hc2 (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v432) : S8x32x132x2.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v429) : S8x32x132x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v435) : S8x32x132x2.Idx → Elt F .f32) from (win9_facts (StableHlo.after ops8 (StableHlo.after ops7 (StableHlo.after ops6 (StableHlo.after ops5 (StableHlo.after ops4 (StableHlo.after ops3 (StableHlo.after ops2 (StableHlo.after ops1 (StableHlo.after ops0 M'))))))))) hc1 hc2).2.2.2.2.1).trans
      (congr (congr (congrArg (pad3 (α := Elt F .f32) hc2) (upto9 M' main_v432 (by decide)).symm)
        ((upto9 M' main_v429 (by decide)).symm.trans ((upto8 M' main_v429 (by decide) (by decide)).trans ((show (StableHlo.after ops8 (StableHlo.after ops7 (StableHlo.after ops6 (StableHlo.after ops5 (StableHlo.after ops4 (StableHlo.after ops3 (StableHlo.after ops2 (StableHlo.after ops1 (StableHlo.after ops0 M')))))))) (Proc.devRef .tc main_v429) : S8x32x132x128.Idx → Elt F .f32) = mid3 hc1 (StableHlo.after ops8 (StableHlo.after ops7 (StableHlo.after ops6 (StableHlo.after ops5 (StableHlo.after ops4 (StableHlo.after ops3 (StableHlo.after ops2 (StableHlo.after ops1 (StableHlo.after ops0 M')))))))) (Proc.devRef .tc main_v427) : S8x32x2x128.Idx → Elt F .f32) (StableHlo.after ops8 (StableHlo.after ops7 (StableHlo.after ops6 (StableHlo.after ops5 (StableHlo.after ops4 (StableHlo.after ops3 (StableHlo.after ops2 (StableHlo.after ops1 (StableHlo.after ops0 M')))))))) (Proc.devRef .tc main_v16) : S8x32x128x128.Idx → Elt F .f32) (StableHlo.after ops8 (StableHlo.after ops7 (StableHlo.after ops6 (StableHlo.after ops5 (StableHlo.after ops4 (StableHlo.after ops3 (StableHlo.after ops2 (StableHlo.after ops1 (StableHlo.after ops0 M')))))))) (Proc.devRef .tc main_v428) : S8x32x2x128.Idx → Elt F .f32) from (win8_facts (StableHlo.after ops7 (StableHlo.after ops6 (StableHlo.after ops5 (StableHlo.after ops4 (StableHlo.after ops3 (StableHlo.after ops2 (StableHlo.after ops1 (StableHlo.after ops0 M')))))))) hc1 hc2)).trans
        (congr (congr (congrArg (mid3 (α := Elt F .f32) hc1) (upto8 M' main_v427 (by decide) (by decide)).symm) (upto8 M' main_v16 (by decide) (by decide)).symm) (upto8 M' main_v428 (by decide) (by decide)).symm))))) (upto9 M' main_v435 (by decide)).symm)))⟩

end Cert.ReferenceIdeal.Hand

end
-- ==== Proof.RStacksB2a.lean ====
/-
  Padded faces 8 and 9 over the whole line of the reference's operations: each is its left strip, its
  (top, face, bottom) middle and its right strip joined. Each buffer is read off the fold up to its own window, where the
  window's facts apply.
-/
import proofs.«156783_j90975997264310_2_alg».proof.Proof.RStacksA
import proofs.«156783_j90975997264310_2_alg».proof.Proof.RStacksB1b
import proofs.«156783_j90975997264310_2_alg».proof.Proof.RWin9

noncomputable section

namespace Cert.ReferenceIdeal.Hand

open Idealize.ShloMosaic Idealize.ShloMosaic.StableHlo Idealize.ShloMosaic.ValueIdx Cert.ReferenceIdeal Cert.ReferenceIdeal.Gen Cert.LibFaceStack

variable {F : FTy → Type} [FloatOps F]

set_option maxHeartbeats 0 in
/-- Padded faces 8 and 9. -/
theorem pads_2a (M' : Valuation τ sig (Elt F)) (hc1 : Shape.Concatenates [S8x32x2x128, S8x32x128x128, S8x32x2x128] S8x32x132x128 2) (hc2 : Shape.Concatenates [S8x32x132x2, S8x32x132x128, S8x32x132x2] S8x32x132x132 3) :
    ((StableHlo.after ops M' (Proc.devRef .tc main_v451) : S8x32x132x132.Idx → Elt F .f32)
      = pad3 hc2 (StableHlo.after ops M' (Proc.devRef .tc main_v444) : S8x32x132x2.Idx → Elt F .f32)
          (mid3 hc1 (StableHlo.after ops M' (Proc.devRef .tc main_v437) : S8x32x2x128.Idx → Elt F .f32) (StableHlo.after ops M' (Proc.devRef .tc main_v18) : S8x32x128x128.Idx → Elt F .f32) (StableHlo.after ops M' (Proc.devRef .tc main_v439) : S8x32x2x128.Idx → Elt F .f32))
          (StableHlo.after ops M' (Proc.devRef .tc main_v450) : S8x32x132x2.Idx → Elt F .f32))
    ∧ ((StableHlo.after ops M' (Proc.devRef .tc main_v466) : S8x32x132x132.Idx → Elt F .f32)
      = pad3 hc2 (StableHlo.after ops M' (Proc.devRef .tc main_v459) : S8x32x132x2.Idx → Elt F .f32)
          (mid3 hc1 (StableHlo.after ops M' (Proc.devRef .tc main_v452) : S8x32x2x128.Idx → Elt F .f32) (StableHlo.after ops M' (Proc.devRef .tc main_v20) : S8x32x128x128.Idx → Elt F .f32) (StableHlo.after ops M' (Proc.devRef .tc main_v454) : S8x32x2x128.Idx → Elt F .f32))
          (StableHlo.after ops M' (Proc.devRef .tc main_v465) : S8x32x132x2.Idx → Elt F .f32)) :=
  ⟨((upto9 M' main_v451 (by decide)).trans ((show (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v451) : S8x32x132x132.Idx → Elt F .f32) = pad3 hc2 (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v444) : S8x32x132x2.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v440) : S8x32x132x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v450) : S8x32x132x2.Idx → Elt F .f32) from (win9_facts (StableHlo.after ops8 (StableHlo.after ops7 (StableHlo.after ops6 (StableHlo.after ops5 (StableHlo.after ops4 (StableHlo.after ops3 (StableHlo.after ops2 (StableHlo.after ops1 (StableHlo.after ops0 M'))))))))) hc1 hc2).2.2.2.2.2.1).trans
      (congr (congr (congrArg (pad3 (α := Elt F .f32) hc2) (upto9 M' main_v444 (by decide)).symm)
        ((upto9 M' main_v440 (by decide)).symm.trans ((upto9 M' main_v440 (by decide)).trans ((show (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v440) : S8x32x132x128.Idx → Elt F .f32) = mid3 hc1 (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v437) : S8x32x2x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v18) : S8x32x128x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v439) : S8x32x2x128.Idx → Elt F .f32) from (win9_facts (StableHlo.after ops8 (StableHlo.after ops7 (StableHlo.after ops6 (StableHlo.after ops5 (StableHlo.after ops4 (StableHlo.after ops3 (StableHlo.after ops2 (StableHlo.after ops1 (StableHlo.after ops0 M'))))))))) hc1 hc2).1).trans
        (congr (congr (congrArg (mid3 (α := Elt F .f32) hc1) (upto9 M' main_v437 (by decide)).symm) (upto9 M' main_v18 (by decide)).symm) (upto9 M' main_v439 (by decide)).symm))))) (upto9 M' main_v450 (by decide)).symm))),
   ((upto9 M' main_v466 (by decide)).trans ((show (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v466) : S8x32x132x132.Idx → Elt F .f32) = pad3 hc2 (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v459) : S8x32x132x2.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v455) : S8x32x132x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v465) : S8x32x132x2.Idx → Elt F .f32) from (win9_facts (StableHlo.after ops8 (StableHlo.after ops7 (StableHlo.after ops6 (StableHlo.after ops5 (StableHlo.after ops4 (StableHlo.after ops3 (StableHlo.after ops2 (StableHlo.after ops1 (StableHlo.after ops0 M'))))))))) hc1 hc2).2.2.2.2.2.2.1).trans
      (congr (congr (congrArg (pad3 (α := Elt F .f32) hc2) (upto9 M' main_v459 (by decide)).symm)
        ((upto9 M' main_v455 (by decide)).symm.trans ((upto9 M' main_v455 (by decide)).trans ((show (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v455) : S8x32x132x128.Idx → Elt F .f32) = mid3 hc1 (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v452) : S8x32x2x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v20) : S8x32x128x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v454) : S8x32x2x128.Idx → Elt F .f32) from (win9_facts (StableHlo.after ops8 (StableHlo.after ops7 (StableHlo.after ops6 (StableHlo.after ops5 (StableHlo.after ops4 (StableHlo.after ops3 (StableHlo.after ops2 (StableHlo.after ops1 (StableHlo.after ops0 M'))))))))) hc1 hc2).2.1).trans
        (congr (congr (congrArg (mid3 (α := Elt F .f32) hc1) (upto9 M' main_v452 (by decide)).symm) (upto9 M' main_v20 (by decide)).symm) (upto9 M' main_v454 (by decide)).symm))))) (upto9 M' main_v465 (by decide)).symm)))⟩

end Cert.ReferenceIdeal.Hand

end
-- ==== Proof.RStacksB2b.lean ====
/-
  Padded faces 10 and 11 over the whole line of the reference's operations: each is its left strip, its
  (top, face, bottom) middle and its right strip joined. Each buffer is read off the fold up to its own window, where the
  window's facts apply.
-/
import proofs.«156783_j90975997264310_2_alg».proof.Proof.RStacksA
import proofs.«156783_j90975997264310_2_alg».proof.Proof.RStacksB2a
import proofs.«156783_j90975997264310_2_alg».proof.Proof.RWin9
import proofs.«156783_j90975997264310_2_alg».proof.Proof.RWin10

noncomputable section

namespace Cert.ReferenceIdeal.Hand

open Idealize.ShloMosaic Idealize.ShloMosaic.StableHlo Idealize.ShloMosaic.ValueIdx Cert.ReferenceIdeal Cert.ReferenceIdeal.Gen Cert.LibFaceStack

variable {F : FTy → Type} [FloatOps F]

set_option maxHeartbeats 0 in
/-- Padded faces 10 and 11. -/
theorem pads_2b (M' : Valuation τ sig (Elt F)) (hc1 : Shape.Concatenates [S8x32x2x128, S8x32x128x128, S8x32x2x128] S8x32x132x128 2) (hc2 : Shape.Concatenates [S8x32x132x2, S8x32x132x128, S8x32x132x2] S8x32x132x132 3) :
    ((StableHlo.after ops M' (Proc.devRef .tc main_v481) : S8x32x132x132.Idx → Elt F .f32)
      = pad3 hc2 (StableHlo.after ops M' (Proc.devRef .tc main_v474) : S8x32x132x2.Idx → Elt F .f32)
          (mid3 hc1 (StableHlo.after ops M' (Proc.devRef .tc main_v467) : S8x32x2x128.Idx → Elt F .f32) (StableHlo.after ops M' (Proc.devRef .tc main_v22) : S8x32x128x128.Idx → Elt F .f32) (StableHlo.after ops M' (Proc.devRef .tc main_v469) : S8x32x2x128.Idx → Elt F .f32))
          (StableHlo.after ops M' (Proc.devRef .tc main_v480) : S8x32x132x2.Idx → Elt F .f32))
    ∧ ((StableHlo.after ops M' (Proc.devRef .tc main_v496) : S8x32x132x132.Idx → Elt F .f32)
      = pad3 hc2 (StableHlo.after ops M' (Proc.devRef .tc main_v489) : S8x32x132x2.Idx → Elt F .f32)
          (mid3 hc1 (StableHlo.after ops M' (Proc.devRef .tc main_v482) : S8x32x2x128.Idx → Elt F .f32) (StableHlo.after ops M' (Proc.devRef .tc main_v24) : S8x32x128x128.Idx → Elt F .f32) (StableHlo.after ops M' (Proc.devRef .tc main_v484) : S8x32x2x128.Idx → Elt F .f32))
          (StableHlo.after ops M' (Proc.devRef .tc main_v495) : S8x32x132x2.Idx → Elt F .f32)) :=
  ⟨((upto9 M' main_v481 (by decide)).trans ((show (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v481) : S8x32x132x132.Idx → Elt F .f32) = pad3 hc2 (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v474) : S8x32x132x2.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v470) : S8x32x132x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v480) : S8x32x132x2.Idx → Elt F .f32) from (win9_facts (StableHlo.after ops8 (StableHlo.after ops7 (StableHlo.after ops6 (StableHlo.after ops5 (StableHlo.after ops4 (StableHlo.after ops3 (StableHlo.after ops2 (StableHlo.after ops1 (StableHlo.after ops0 M'))))))))) hc1 hc2).2.2.2.2.2.2.2).trans
      (congr (congr (congrArg (pad3 (α := Elt F .f32) hc2) (upto9 M' main_v474 (by decide)).symm)
        ((upto9 M' main_v470 (by decide)).symm.trans ((upto9 M' main_v470 (by decide)).trans ((show (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v470) : S8x32x132x128.Idx → Elt F .f32) = mid3 hc1 (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v467) : S8x32x2x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v22) : S8x32x128x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v469) : S8x32x2x128.Idx → Elt F .f32) from (win9_facts (StableHlo.after ops8 (StableHlo.after ops7 (StableHlo.after ops6 (StableHlo.after ops5 (StableHlo.after ops4 (StableHlo.after ops3 (StableHlo.after ops2 (StableHlo.after ops1 (StableHlo.after ops0 M'))))))))) hc1 hc2).2.2.1).trans
        (congr (congr (congrArg (mid3 (α := Elt F .f32) hc1) (upto9 M' main_v467 (by decide)).symm) (upto9 M' main_v22 (by decide)).symm) (upto9 M' main_v469 (by decide)).symm))))) (upto9 M' main_v480 (by decide)).symm))),
   ((upto10 M' main_v496).trans ((show (StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v496) : S8x32x132x132.Idx → Elt F .f32) = pad3 hc2 (StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v489) : S8x32x132x2.Idx → Elt F .f32) (StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v485) : S8x32x132x128.Idx → Elt F .f32) (StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 M')))))))))) (Proc.devRef .tc main_v495) : S8x32x132x2.Idx → Elt F .f32) from (pad_tail_11 (StableHlo.after ops9 (StableHlo.after ops8 (StableHlo.after ops7 (StableHlo.after ops6 (StableHlo.after ops5 (StableHlo.after ops4 (StableHlo.after ops3 (StableHlo.after ops2 (StableHlo.after ops1 (StableHlo.after ops0 M')))))))))) hc2)).trans
      (congr (congr (congrArg (pad3 (α := Elt F .f32) hc2) (upto10 M' main_v489).symm)
        ((upto10 M' main_v485).symm.trans ((upto9 M' main_v485 (by decide)).trans ((show (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v485) : S8x32x132x128.Idx → Elt F .f32) = mid3 hc1 (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v482) : S8x32x2x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v24) : S8x32x128x128.Idx → Elt F .f32) (StableHlo.after ops9 (StableHlo.after ops8 (StableHlo.after ops7 (StableHlo.after ops6 (StableHlo.after ops5 (StableHlo.after ops4 (StableHlo.after ops3 (StableHlo.after ops2 (StableHlo.after ops1 (StableHlo.after ops0 M'))))))))) (Proc.devRef .tc main_v484) : S8x32x2x128.Idx → Elt F .f32) from (win9_facts (StableHlo.after ops8 (StableHlo.after ops7 (StableHlo.after ops6 (StableHlo.after ops5 (StableHlo.after ops4 (StableHlo.after ops3 (StableHlo.after ops2 (StableHlo.after ops1 (StableHlo.after ops0 M'))))))))) hc1 hc2).2.2.2.1).trans
        (congr (congr (congrArg (mid3 (α := Elt F .f32) hc1) (upto9 M' main_v482 (by decide)).symm) (upto9 M' main_v24 (by decide)).symm) (upto9 M' main_v484 (by decide)).symm))))) (upto10 M' main_v495).symm)))⟩

end Cert.ReferenceIdeal.Hand

end
-- ==== Proof.RAssembly.lean ====
/-
  The reference's result is the specification of its argument. Each padded face the reference computes is its left
  strip, the column (top strip, face, bottom strip) and its right strip joined, every strip its pure function of the
  argument; the generic statement then reads the stack of the twelve padded faces entry by entry.
-/
import proofs.«156783_j90975997264310_2_alg».proof.Proof.RAssemblyGen_c
import proofs.«156783_j90975997264310_2_alg».proof.Proof.PureStrips_c
import proofs.«156783_j90975997264310_2_alg».proof.Proof.StripsRP_d
import proofs.«156783_j90975997264310_2_alg».proof.Proof.StripsRP_e
import proofs.«156783_j90975997264310_2_alg».proof.Proof.StripsRP_f
import proofs.«156783_j90975997264310_2_alg».proof.Proof.RStacksB0
import proofs.«156783_j90975997264310_2_alg».proof.Proof.RStacksB1a
import proofs.«156783_j90975997264310_2_alg».proof.Proof.RStacksB1b
import proofs.«156783_j90975997264310_2_alg».proof.Proof.RStacksB2a
import proofs.«156783_j90975997264310_2_alg».proof.Proof.RStacksB2b

noncomputable section

namespace Cert.RAssembly

open Idealize.ShloMosaic Idealize.ShloMosaic.ValueIdx Idealize.SL.Sem

set_option maxHeartbeats 1600000 in
/-- The twelve padded faces at once: face by face the left strip, the column (top strip, face, bottom strip) and the
    right strip joined, the strips the pure functions of the argument. -/
theorem rpads_vec (M' : Valuation Cert.ReferenceIdeal.τ Cert.ReferenceIdeal.sig (Elt Ideal))
    (hc1 : Shape.Concatenates [Cert.ReferenceIdeal.S8x32x2x128, Cert.ReferenceIdeal.S8x32x128x128, Cert.ReferenceIdeal.S8x32x2x128] Cert.ReferenceIdeal.S8x32x132x128 2)
    (hc2 : Shape.Concatenates [Cert.ReferenceIdeal.S8x32x132x2, Cert.ReferenceIdeal.S8x32x132x128, Cert.ReferenceIdeal.S8x32x132x2] Cert.ReferenceIdeal.S8x32x132x132 3) :
    Cert.ReferenceIdeal.Hand.rpads M' = fun f => Cert.ReferenceIdeal.Hand.pad3 hc2 (Cert.Spec.plefts f (M' (Proc.devRef .tc Cert.ReferenceIdeal.main_arg0)))
      (Cert.ReferenceIdeal.Hand.mid3 hc1 (Cert.Spec.ptops f (M' (Proc.devRef .tc Cert.ReferenceIdeal.main_arg0))) (Cert.ReferenceIdeal.Hand.rfaces M' f) (Cert.Spec.pbottoms f (M' (Proc.devRef .tc Cert.ReferenceIdeal.main_arg0))))
      (Cert.Spec.prights f (M' (Proc.devRef .tc Cert.ReferenceIdeal.main_arg0))) := by
  unfold Cert.ReferenceIdeal.Hand.rpads Cert.ReferenceIdeal.Hand.rfaces
  rw [(Cert.ReferenceIdeal.Hand.pads_0 M' hc1 hc2).1,
      (Cert.ReferenceIdeal.Hand.pads_0 M' hc1 hc2).2.1,
      (Cert.ReferenceIdeal.Hand.pads_0 M' hc1 hc2).2.2.1,
      (Cert.ReferenceIdeal.Hand.pads_0 M' hc1 hc2).2.2.2,
      (Cert.ReferenceIdeal.Hand.pads_1a M' hc1 hc2).1,
      (Cert.ReferenceIdeal.Hand.pads_1a M' hc1 hc2).2,
      (Cert.ReferenceIdeal.Hand.pads_1b M' hc1 hc2).1,
      (Cert.ReferenceIdeal.Hand.pads_1b M' hc1 hc2).2,
      (Cert.ReferenceIdeal.Hand.pads_2a M' hc1 hc2).1,
      (Cert.ReferenceIdeal.Hand.pads_2a M' hc1 hc2).2,
      (Cert.ReferenceIdeal.Hand.pads_2b M' hc1 hc2).1,
      (Cert.ReferenceIdeal.Hand.pads_2b M' hc1 hc2).2]
  rw [Cert.Strips.rtop0 M', Cert.Strips.rtop1 M', Cert.Strips.rtop2 M', Cert.Strips.rtop3 M', Cert.Strips.rtop4 M', Cert.Strips.rtop5 M', Cert.Strips.rtop6 M', Cert.Strips.rtop7 M', Cert.Strips.rtop8 M', Cert.Strips.rtop9 M', Cert.Strips.rtop10 M', Cert.Strips.rtop11 M',
      Cert.Strips.rbottom0 M', Cert.Strips.rbottom1 M', Cert.Strips.rbottom2 M', Cert.Strips.rbottom3 M', Cert.Strips.rbottom4 M', Cert.Strips.rbottom5 M', Cert.Strips.rbottom6 M', Cert.Strips.rbottom7 M', Cert.Strips.rbottom8 M', Cert.Strips.rbottom9 M', Cert.Strips.rbottom10 M', Cert.Strips.rbottom11 M',
      Cert.Strips.rleft0 M', Cert.Strips.rleft1 M', Cert.Strips.rleft2 M', Cert.Strips.rleft3 M', Cert.Strips.rleft4 M', Cert.Strips.rleft5 M', Cert.Strips.rleft6 M', Cert.Strips.rleft7 M', Cert.Strips.rleft8 M', Cert.Strips.rleft9 M', Cert.Strips.rleft10 M', Cert.Strips.rleft11 M',
      Cert.Strips.rright0 M', Cert.Strips.rright1 M', Cert.Strips.rright2 M', Cert.Strips.rright3 M', Cert.Strips.rright4 M', Cert.Strips.rright5 M', Cert.Strips.rright6 M', Cert.Strips.rright7 M', Cert.Strips.rright8 M', Cert.Strips.rright9 M', Cert.Strips.rright10 M', Cert.Strips.rright11 M']
  generalize (StableHlo.after (Cert.ReferenceIdeal.Hand.ops (F := Ideal)) M' (Proc.devRef .tc Cert.ReferenceIdeal.main_v2) : Cert.ReferenceIdeal.S8x32x128x128.Idx → Elt Ideal .f32) = F0
  generalize (StableHlo.after (Cert.ReferenceIdeal.Hand.ops (F := Ideal)) M' (Proc.devRef .tc Cert.ReferenceIdeal.main_v4) : Cert.ReferenceIdeal.S8x32x128x128.Idx → Elt Ideal .f32) = F1
  generalize (StableHlo.after (Cert.ReferenceIdeal.Hand.ops (F := Ideal)) M' (Proc.devRef .tc Cert.ReferenceIdeal.main_v6) : Cert.ReferenceIdeal.S8x32x128x128.Idx → Elt Ideal .f32) = F2
  generalize (StableHlo.after (Cert.ReferenceIdeal.Hand.ops (F := Ideal)) M' (Proc.devRef .tc Cert.ReferenceIdeal.main_v8) : Cert.ReferenceIdeal.S8x32x128x128.Idx → Elt Ideal .f32) = F3
  generalize (StableHlo.after (Cert.ReferenceIdeal.Hand.ops (F := Ideal)) M' (Proc.devRef .tc Cert.ReferenceIdeal.main_v10) : Cert.ReferenceIdeal.S8x32x128x128.Idx → Elt Ideal .f32) = F4
  generalize (StableHlo.after (Cert.ReferenceIdeal.Hand.ops (F := Ideal)) M' (Proc.devRef .tc Cert.ReferenceIdeal.main_v12) : Cert.ReferenceIdeal.S8x32x128x128.Idx → Elt Ideal .f32) = F5
  generalize (StableHlo.after (Cert.ReferenceIdeal.Hand.ops (F := Ideal)) M' (Proc.devRef .tc Cert.ReferenceIdeal.main_v14) : Cert.ReferenceIdeal.S8x32x128x128.Idx → Elt Ideal .f32) = F6
  generalize (StableHlo.after (Cert.ReferenceIdeal.Hand.ops (F := Ideal)) M' (Proc.devRef .tc Cert.ReferenceIdeal.main_v16) : Cert.ReferenceIdeal.S8x32x128x128.Idx → Elt Ideal .f32) = F7
  generalize (StableHlo.after (Cert.ReferenceIdeal.Hand.ops (F := Ideal)) M' (Proc.devRef .tc Cert.ReferenceIdeal.main_v18) : Cert.ReferenceIdeal.S8x32x128x128.Idx → Elt Ideal .f32) = F8
  generalize (StableHlo.after (Cert.ReferenceIdeal.Hand.ops (F := Ideal)) M' (Proc.devRef .tc Cert.ReferenceIdeal.main_v20) : Cert.ReferenceIdeal.S8x32x128x128.Idx → Elt Ideal .f32) = F9
  generalize (StableHlo.after (Cert.ReferenceIdeal.Hand.ops (F := Ideal)) M' (Proc.devRef .tc Cert.ReferenceIdeal.main_v22) : Cert.ReferenceIdeal.S8x32x128x128.Idx → Elt Ideal .f32) = F10
  generalize (StableHlo.after (Cert.ReferenceIdeal.Hand.ops (F := Ideal)) M' (Proc.devRef .tc Cert.ReferenceIdeal.main_v24) : Cert.ReferenceIdeal.S8x32x128x128.Idx → Elt Ideal .f32) = F11
  generalize (M' (Proc.devRef .tc Cert.ReferenceIdeal.main_arg0)) = x'
  funext f
  fin_cases f <;> rfl

/-- **The reference's result is the specification of its argument.** -/
theorem rfinal (m' : (ℓ : Loc Cert.ReferenceIdeal.nD Cert.ReferenceIdeal.τ Cert.ReferenceIdeal.sig) → Buf (Elt Ideal) ℓ) (c : Dev Cert.ReferenceIdeal.nD) :
    (StableHlo.after (Cert.ReferenceIdeal.Hand.ops (F := Ideal)) (StableHlo.launchContents m' c) (Proc.devRef .tc Cert.ReferenceIdeal.main_v510) :
        Cert.ReferenceIdeal.S96x32x132x132.Idx → Elt Ideal .f32)
      = Cert.Spec.Ppad (m' ((c.tc : Thread Cert.ReferenceIdeal.nD Cert.ReferenceIdeal.τ).loc Cert.ReferenceIdeal.main_arg0)) :=
  rfinal_of Cert.Spec.ptops Cert.Spec.pbottoms Cert.Spec.plefts Cert.Spec.prights (StableHlo.launchContents m' c)
    Cert.ReferenceIdeal.Facts₀.concatenates_S8x32x2x128_S8x32x128x128_S8x32x2x128_S8x32x132x128_d2
    Cert.ReferenceIdeal.Facts₀.concatenates_S8x32x132x2_S8x32x132x128_S8x32x132x2_S8x32x132x132_d3
    (fun f => congrFun (rpads_vec (StableHlo.launchContents m' c)
      Cert.ReferenceIdeal.Facts₀.concatenates_S8x32x2x128_S8x32x128x128_S8x32x2x128_S8x32x132x128_d2
      Cert.ReferenceIdeal.Facts₀.concatenates_S8x32x132x2_S8x32x132x128_S8x32x132x2_S8x32x132x132_d3) f)

end Cert.RAssembly

end
-- ==== Proof.LibUnitReshape.lean ====
/-
  Reshapes that only drop or add axes of extent one, read at an index: a reshape keeps row-major order, and an
  axis of extent one contributes nothing to a row-major position, so entry (a, c) of the [A, C] view of an
  [A, C, 1, 1] array is its entry (a, c, 0, 0), and likewise for the [A, C, 1] view and for the reshapes back.
-/
import Idealize.ShloMosaic.Lib.Pipeline.Value
import Idealize.ShloMosaic.Lib.ValueIdx

namespace Cert.LibUnitReshape

open Idealize.ShloMosaic Idealize.ShloMosaic.ValueIdx

variable {α : Type} {A C : ℕ}

/-- [A, C, 1, 1] viewed as [A, C]. -/
theorem drop2_apply (x : (⟨4, ![A, C, 1, 1]⟩ : Shape).Idx → α)
    (h : (⟨4, ![A, C, 1, 1]⟩ : Shape).ShapeCasts ⟨2, ![A, C]⟩) (a : Fin A) (c : Fin C) :
    shapeCast ⟨2, ![A, C]⟩ x h (ix2 a c) = x (ix4 a c 0 0) := by
  refine shapeCast_apply x h (ix2 a c) (ix4 a c 0 0) ?_
  rw [Shape.rowMajor_val_four, Shape.rowMajor_val_two]
  show ((a.val * C + c.val) * 1 + 0) * 1 + 0 = a.val * C + c.val
  omega

/-- [A, C, 1, 1] viewed as [A, C, 1]. -/
theorem drop1_apply (x : (⟨4, ![A, C, 1, 1]⟩ : Shape).Idx → α)
    (h : (⟨4, ![A, C, 1, 1]⟩ : Shape).ShapeCasts ⟨3, ![A, C, 1]⟩) (a : Fin A) (c : Fin C) (k : Fin 1) :
    shapeCast ⟨3, ![A, C, 1]⟩ x h (ix3 a c k) = x (ix4 a c 0 0) := by
  refine shapeCast_apply x h (ix3 a c k) (ix4 a c 0 0) ?_
  rw [Shape.rowMajor_val_four, Shape.rowMajor_val_three]
  show ((a.val * C + c.val) * 1 + 0) * 1 + 0 = (a.val * C + c.val) * 1 + k.val
  have := k.isLt
  omega

/-- [A, C] viewed as [A, C, 1, 1]. -/
theorem add2_apply (x : (⟨2, ![A, C]⟩ : Shape).Idx → α)
    (h : (⟨2, ![A, C]⟩ : Shape).ShapeCasts ⟨4, ![A, C, 1, 1]⟩) (a : Fin A) (c : Fin C) (k l : Fin 1) :
    shapeCast ⟨4, ![A, C, 1, 1]⟩ x h (ix4 a c k l) = x (ix2 a c) := by
  refine shapeCast_apply x h (ix4 a c k l) (ix2 a c) ?_
  rw [Shape.rowMajor_val_four, Shape.rowMajor_val_two]
  show a.val * C + c.val = ((a.val * C + c.val) * 1 + k.val) * 1 + l.val
  have := k.isLt
  have := l.isLt
  omega

/-- [A, C, 1] viewed as [A, C, 1, 1]. -/
theorem add1_apply (x : (⟨3, ![A, C, 1]⟩ : Shape).Idx → α)
    (h : (⟨3, ![A, C, 1]⟩ : Shape).ShapeCasts ⟨4, ![A, C, 1, 1]⟩) (a : Fin A) (c : Fin C) (k l : Fin 1) :
    shapeCast ⟨4, ![A, C, 1, 1]⟩ x h (ix4 a c k l) = x (ix3 a c 0) := by
  refine shapeCast_apply x h (ix4 a c k l) (ix3 a c 0) ?_
  rw [Shape.rowMajor_val_four, Shape.rowMajor_val_three]
  show (a.val * C + c.val) * 1 + 0 = ((a.val * C + c.val) * 1 + k.val) * 1 + l.val
  have := k.isLt
  have := l.isLt
  omega

end Cert.LibUnitReshape
-- ==== Proof.lean ====
/-
  The claim: the kernel — twelve HEALPix faces per batch, each padded by two rows and columns taken from its
  neighbours — and its reference program both run, leave their argument as launched, and at exact arithmetic end with
  the same padded array.

  Both results are shown equal to ONE pure function of the argument, the specification: each face's four border
  strips are pure functions of the whole argument (blocks of neighbouring faces, some turned by quarter turns, two
  corner entries of each equatorial side strip the blend 0.5·a + 0.5·b of two neighbours' entries); a padded face is
  its left strip, the column (top strip, face, bottom strip) and its right strip side by side; the result stacks the
  twelve padded faces of every batch.

  The kernel builds four border arrays on the host (the strips of all 96 faces, stacked) and one region that, face by
  face, reads an entry of the padded face from the left strip, the right strip, or the top strip, face or bottom
  strip by its position. The reference turns whole neighbour faces, cuts the strips out of them, pads each face by
  two 3-piece concatenations and stacks the results. Each program meets the specification because a quarter turn of
  a block cut out of a face is the block cut out of the turned face, writing three windows that cover a strip is
  concatenating the three pieces, entry n = b·12 + f of a stack is entry b of piece f, and reading two nested 3-piece
  concatenations at an entry is the region's case split. No arithmetic is re-associated: the blends are the same
  expression in both programs.

  The frames: the kernel's region reads its five inputs and writes only the result; no host operation of either
  program writes the argument.
-/
import proofs.«156783_j90975997264310_2_alg».proof.Defs
import proofs.«156783_j90975997264310_2_alg».proof.Proof.Gen.Kernel
import proofs.«156783_j90975997264310_2_alg».proof.Proof.Gen.Kernel.Skeleton
import proofs.«156783_j90975997264310_2_alg».proof.Proof.Gen.Kernel.Launch
import proofs.«156783_j90975997264310_2_alg».proof.Proof.Gen.Kernel.Points
import proofs.«156783_j90975997264310_2_alg».proof.Proof.Gen.KernelIdeal
import proofs.«156783_j90975997264310_2_alg».proof.Proof.Gen.KernelIdeal.Skeleton
import proofs.«156783_j90975997264310_2_alg».proof.Proof.Gen.KernelIdeal.Launch
import proofs.«156783_j90975997264310_2_alg».proof.Proof.Gen.KernelIdeal.Points
import proofs.«156783_j90975997264310_2_alg».proof.Proof.Gen.ReferenceIdeal
import proofs.«156783_j90975997264310_2_alg».proof.Proof.Gen.Pre_finite_inputs
import proofs.«156783_j90975997264310_2_alg».proof.Proof.FrameK
import proofs.«156783_j90975997264310_2_alg».proof.Proof.FrameKI
import proofs.«156783_j90975997264310_2_alg».proof.Proof.KValue.Final
import proofs.«156783_j90975997264310_2_alg».proof.Proof.RefRun
import proofs.«156783_j90975997264310_2_alg».proof.Proof.KAssembly
import proofs.«156783_j90975997264310_2_alg».proof.Proof.RAssembly
import proofs.«156783_j90975997264310_2_alg».proof.Proof.LibUnitReshape
import Idealize.ShloMosaic.Adequacy
import Idealize.ShloMosaic.Init

noncomputable section

namespace Cert.Proof

open Idealize.ShloMosaic Idealize.SL.Sem

/-- At exact arithmetic, from memories that agree on the argument, both programs run, end with the same result array
    — the specification of the argument — and leave their arguments as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.Spec.Ppad (m ((c.tc : Thread Cert.KernelIdeal.nD Cert.KernelIdeal.τ).loc Cert.KernelIdeal.main_arg0)),
    (θ_run Cert.KernelIdeal.defs _ _).mono (fun r h c => ⟨(h c).1.trans (Cert.KAssembly.kfinal m c), (h c).2⟩)
      (Cert.KernelIdeal.HandValue.run (F := Ideal) m g), ?_⟩
  refine (θ_run Cert.ReferenceIdeal.defs _ _).mono (fun r h c => ⟨?_, ?_⟩) (Cert.ReferenceIdeal.Hand.run (F := Ideal) m' g')
  · exact ((h c Cert.ReferenceIdeal.main_v510).trans (Cert.RAssembly.rfinal m' c)).trans (congrArg Cert.Spec.Ppad (hagree c))
  · exact (h c Cert.ReferenceIdeal.main_arg0).trans (Cert.ReferenceIdeal.Hand.kept_arg0 m' c)

theorem claim : Cert.Claim :=
  ⟨Cert.Kernel.Gen.facts, Cert.KernelIdeal.Gen.facts, Cert.ReferenceIdeal.Gen.facts, Cert.Pre_finite_inputs.Gen.facts,
    fun m g _ => Cert.Kernel.Hand.frame m g, fun m g _ => Cert.KernelIdeal.Hand.frame m g,
    fun m g _ => Cert.ReferenceIdeal.Hand.frame_ri m g, trivial, algebraic⟩

end Cert.Proof

end
